-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S128 .f32) (main_arg9 : FVec F S128 .f32) (main_arg10 : FVec F S128 .f32) (main_arg11 : FVec F S128x64 .f32) (main_arg12 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_v48 main_v49 main_v50

def fn_part1 {F : FTy → Type} [FloatOps F] (main_arg5 : FVec F S3x128 .f32) (main_arg6 : FVec F S3x128 .f32) (main_arg7 : FVec F S512x128 .f32) (main_arg8 : FVec F S128 .f32) (main_arg9 : FVec F S128 .f32) (main_arg10 : FVec F S128 .f32) (main_arg11 : FVec F S128x64 .f32) (main_arg12 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S512x128 .f32) (main_arg8 : FVec F S128 .f32) (main_arg9 : FVec F S128 .f32) (main_arg10 : FVec F S128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S10x1x128 : Shape := ⟨3, ![10, 1, 128]⟩
abbrev S10000x128 : Shape := ⟨2, ![10000, 128]⟩
abbrev S1x1x128 : Shape := ⟨3, ![1, 1, 128]⟩
abbrev S20x1x128 : Shape := ⟨3, ![20, 1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 206
  | .vmem => 92
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S512x128, .f32⟩
  | 8 => ⟨S128, .f32⟩
  | 9 => ⟨S128, .f32⟩
  | 10 => ⟨S128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S1x128x128, .f32⟩
  | 46 => ⟨S128x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S100000x128, .f32⟩
  | 53 => ⟨S10x1x128, .f32⟩
  | 54 => ⟨S10x1x128, .f32⟩
  | 55 => ⟨S_, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S128, .f32⟩
  | 66 => ⟨S128, .f32⟩
  | 67 => ⟨S_, .f32⟩
  | 68 => ⟨S128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S1x128, .f32⟩
  | 76 => ⟨S1x128, .f32⟩
  | 77 => ⟨S1x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S100000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S100000x128, .f32⟩
  | 102 => ⟨S10x1x128, .f32⟩
  | 103 => ⟨S10x1x128, .f32⟩
  | 104 => ⟨S_, .f32⟩
  | 105 => ⟨S128, .f32⟩
  | 106 => ⟨S_, .f32⟩
  | 107 => ⟨S128, .f32⟩
  | 108 => ⟨S128, .f32⟩
  | 109 => ⟨S_, .f32⟩
  | 110 => ⟨S128, .f32⟩
  | 111 => ⟨S_, .f32⟩
  | 112 => ⟨S128, .f32⟩
  | 113 => ⟨S128, .f32⟩
  | 114 => ⟨S128, .f32⟩
  | 115 => ⟨S128, .f32⟩
  | 116 => ⟨S_, .f32⟩
  | 117 => ⟨S128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x128, .f32⟩
  | 14 => ⟨S100000x128, .f32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S1x128, .f32⟩
  | 22 => ⟨S100000x128, .f32⟩
  | 23 => ⟨S10x1x128, .f32⟩
  | 24 => ⟨S10x1x128, .f32⟩
  | 25 => ⟨S_, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S_, .f32⟩
  | 33 => ⟨S128, .f32⟩
  | 34 => ⟨S128, .f32⟩
  | 35 => ⟨S128, .f32⟩
  | 36 => ⟨S128, .f32⟩
  | 37 => ⟨S_, .f32⟩
  | 38 => ⟨S128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S1x128, .f32⟩
  | 46 => ⟨S1x128, .f32⟩
  | 47 => ⟨S1x128, .f32⟩
  | 48 => ⟨S100000x128, .f32⟩
  | 49 => ⟨S128x128, .f32⟩
  | 50 => ⟨S128x128, .f32⟩
  | 51 => ⟨S128x128, .f32⟩
  | 52 => ⟨S128x128, .f32⟩
  | 53 => ⟨S1x128, .f32⟩
  | 54 => ⟨S100000x128, .f32⟩
  | 55 => ⟨S20x1x128, .f32⟩
  | 56 => ⟨S20x1x128, .f32⟩
  | 57 => ⟨S_, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S_, .f32⟩
  | 65 => ⟨S128, .f32⟩
  | 66 => ⟨S128, .f32⟩
  | 67 => ⟨S128, .f32⟩
  | 68 => ⟨S128, .f32⟩
  | 69 => ⟨S_, .f32⟩
  | 70 => ⟨S128, .f32⟩
  | 71 => ⟨S128, .f32⟩
  | 72 => ⟨S1x128, .f32⟩
  | 73 => ⟨S1x128, .f32⟩
  | 74 => ⟨S1x128, .f32⟩
  | 75 => ⟨S1x128, .f32⟩
  | 76 => ⟨S1x64, .f32⟩
  | 77 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S10000x128, .f32⟩
  | .local _ .vmem, ⟨14, _⟩ => ⟨S10000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S10000x128, .f32⟩
  | .local _ .vmem, ⟨29, _⟩ => ⟨S10000x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S10000x128, .f32⟩
  | .local _ .vmem, ⟨35, _⟩ => ⟨S10000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S10000x128, .f32⟩
  | .local _ .vmem, ⟨50, _⟩ => ⟨S10000x128, .f32⟩
  | .local _ .vmem, ⟨51, _⟩ => ⟨S1x1x128, .f32⟩
  | .local _ .vmem, ⟨52, _⟩ => ⟨S1x1x128, .f32⟩
  | .local _ .vmem, ⟨53, _⟩ => ⟨S1x1x128, .f32⟩
  | .local _ .vmem, ⟨54, _⟩ => ⟨S1x1x128, .f32⟩
  | .local _ .vmem, ⟨55, _⟩ => ⟨S10000x128, .f32⟩
  | .local _ .vmem, ⟨56, _⟩ => ⟨S10000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S10000x128, .f32⟩
  | .local _ .vmem, ⟨62, _⟩ => ⟨S10000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S128x128, .f32⟩
  | .local _ .vmem, ⟨72, _⟩ => ⟨S128x128, .f32⟩
  | .local _ .vmem, ⟨73, _⟩ => ⟨S128x128, .f32⟩
  | .local _ .vmem, ⟨74, _⟩ => ⟨S128x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S1x1x128, .f32⟩
  | .local _ .vmem, ⟨79, _⟩ => ⟨S1x1x128, .f32⟩
  | .local _ .vmem, ⟨80, _⟩ => ⟨S1x1x128, .f32⟩
  | .local _ .vmem, ⟨81, _⟩ => ⟨S1x1x128, .f32⟩
  | .local _ .vmem, ⟨82, _⟩ => ⟨S5000x128, .f32⟩
  | .local _ .vmem, ⟨83, _⟩ => ⟨S5000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S128x64, .f32⟩
  | .local _ .vmem, ⟨89, _⟩ => ⟨S1x64, .f32⟩
  | .local _ .vmem, ⟨90, _⟩ => ⟨S5000x64, .f32⟩
  | .local _ .vmem, ⟨91, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v32_2 : Ref sig .tc := ⟨.hbm, 54, rfl⟩
abbrev main_cst_5 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71_0 : Ref sig .tc := ⟨.hbm, 101, rfl⟩
abbrev main_v71_1 : Ref sig .tc := ⟨.hbm, 102, rfl⟩
abbrev main_v71_2 : Ref sig .tc := ⟨.hbm, 103, rfl⟩
abbrev main_cst_13 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_18 : Ref sig .tc := ⟨.hbm, 128, rfl⟩
abbrev main_v91 : Ref sig .tc := ⟨.hbm, 129, rfl⟩
abbrev main_v92 : Ref sig .tc := ⟨.hbm, 130, rfl⟩
abbrev main_c_19 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_20 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110_0 : Ref sig .tc := ⟨.hbm, 150, rfl⟩
abbrev main_v110_1 : Ref sig .tc := ⟨.hbm, 151, rfl⟩
abbrev main_v110_2 : Ref sig .tc := ⟨.hbm, 152, rfl⟩
abbrev main_cst_21 : Ref sig .tc := ⟨.hbm, 153, rfl⟩
abbrev main_v111 : Ref sig .tc := ⟨.hbm, 154, rfl⟩
abbrev main_cst_22 : Ref sig .tc := ⟨.hbm, 155, rfl⟩
abbrev main_v112 : Ref sig .tc := ⟨.hbm, 156, rfl⟩
abbrev main_v113 : Ref sig .tc := ⟨.hbm, 157, rfl⟩
abbrev main_cst_23 : Ref sig .tc := ⟨.hbm, 158, rfl⟩
abbrev main_v114 : Ref sig .tc := ⟨.hbm, 159, rfl⟩
abbrev main_cst_24 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135_0 : Ref sig .tc := ⟨.hbm, 182, rfl⟩
abbrev main_v135_1 : Ref sig .tc := ⟨.hbm, 183, rfl⟩
abbrev main_v135_2 : Ref sig .tc := ⟨.hbm, 184, rfl⟩
abbrev main_cst_26 : Ref sig .tc := ⟨.hbm, 185, rfl⟩
abbrev main_v136 : Ref sig .tc := ⟨.hbm, 186, rfl⟩
abbrev main_cst_27 : Ref sig .tc := ⟨.hbm, 187, rfl⟩
abbrev main_v137 : Ref sig .tc := ⟨.hbm, 188, rfl⟩
abbrev main_v138 : Ref sig .tc := ⟨.hbm, 189, rfl⟩
abbrev main_cst_28 : Ref sig .tc := ⟨.hbm, 190, rfl⟩
abbrev main_v139 : Ref sig .tc := ⟨.hbm, 191, rfl⟩
abbrev main_cst_29 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_30 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg7_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg2_1 : Ref sig .tc := ⟨.vmem, 68, rfl⟩
abbrev cc6_stg3_0 : Ref sig .tc := ⟨.vmem, 69, rfl⟩
abbrev cc6_stg3_1 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg8_0 : Ref sig .tc := ⟨.vmem, 75, rfl⟩
abbrev cc6_stg9_0 : Ref sig .tc := ⟨.vmem, 76, rfl⟩
abbrev cc6_stg9_1 : Ref sig .tc := ⟨.vmem, 77, rfl⟩
abbrev cc6_stg10_0 : Ref sig .tc := ⟨.vmem, 78, rfl⟩
abbrev cc6_stg10_1 : Ref sig .tc := ⟨.vmem, 79, rfl⟩
abbrev cc6_stg11_0 : Ref sig .tc := ⟨.vmem, 80, rfl⟩
abbrev cc6_stg11_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg6_0 : Ref sig .tc := ⟨.vmem, 89, rfl⟩
abbrev cc7_stg7_0 : Ref sig .tc := ⟨.vmem, 90, rfl⟩
abbrev cc7_stg7_1 : Ref sig .tc := ⟨.vmem, 91, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50
abbrev cc4_sem6_0 : DmaSem sig := 51
abbrev cc4_sem6_1 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67
abbrev cc6_sem2_1 : DmaSem sig := 68
abbrev cc6_sem3_0 : DmaSem sig := 69
abbrev cc6_sem3_1 : DmaSem sig := 70
abbrev cc6_sem4_0 : DmaSem sig := 71
abbrev cc6_sem5_0 : DmaSem sig := 72
abbrev cc6_sem6_0 : DmaSem sig := 73
abbrev cc6_sem7_0 : DmaSem sig := 74
abbrev cc6_sem8_0 : DmaSem sig := 75
abbrev cc6_sem9_0 : DmaSem sig := 76
abbrev cc6_sem9_1 : DmaSem sig := 77
abbrev cc6_sem10_0 : DmaSem sig := 78
abbrev cc6_sem10_1 : DmaSem sig := 79
abbrev cc6_sem11_0 : DmaSem sig := 80
abbrev cc6_sem11_1 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem3_0 : DmaSem sig := 86
abbrev cc7_sem4_0 : DmaSem sig := 87
abbrev cc7_sem5_0 : DmaSem sig := 88
abbrev cc7_sem6_0 : DmaSem sig := 89
abbrev cc7_sem7_0 : DmaSem sig := 90
abbrev cc7_sem7_1 : DmaSem sig := 91

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x1x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_11 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S5000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S1x1x128 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S1x1x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S10x1x128_S128_d0_1 : S10x1x128.ReducesTo [0, 1] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S128 : S5000x128.Reduces [0] S128
  reducesTo_S20x1x128_S128_d0_1 : S20x1x128.ReducesTo [0, 1] S128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S10x1x128.size a
  hwx0_6 : ∀ i : grid0.Coords, EltTy.bits .f32 = 32 ∨ (Rect.block (s := S10x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S10x1x128.size a
  hwx0_7 : ∀ i : grid0.Coords, EltTy.bits .f32 = 32 ∨ (Rect.block (s := S10x1x128) S1x1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S10x1x128.size a
  hwx2_6 : ∀ i : grid2.Coords, EltTy.bits .f32 = 32 ∨ (Rect.block (s := S10x1x128) S1x1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x128.size a ≤ S10x1x128.size a
  hwx2_7 : ∀ i : grid2.Coords, EltTy.bits .f32 = 32 ∨ (Rect.block (s := S10x1x128) S1x1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S100000x128.size a
  hwx4_5 : ∀ i : grid4.Coords, EltTy.bits .f32 = 32 ∨ (Rect.block (s := S100000x128) S10000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x1x128.size a ≤ S10x1x128.size a
  hwx4_6 : ∀ i : grid4.Coords, EltTy.bits .f32 = 32 ∨ (Rect.block (s := S10x1x128) S1x1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x1x128.size a ≤ S10x1x128.size a
  hwx4_7 : ∀ i : grid4.Coords, EltTy.bits .f32 = 32 ∨ (Rect.block (s := S10x1x128) S1x1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S5000x128.size a ≤ S100000x128.size a
  hwx6_9 : ∀ i : grid6.Coords, EltTy.bits .f32 = 32 ∨ (Rect.block (s := S100000x128) S5000x128.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S1x1x128.size a ≤ S20x1x128.size a
  hwx6_10 : ∀ i : grid6.Coords, EltTy.bits .f32 = 32 ∨ (Rect.block (s := S20x1x128) S1x1x128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S1x1x128.size a ≤ S20x1x128.size a
  hwx6_11 : ∀ i : grid6.Coords, EltTy.bits .f32 = 32 ∨ (Rect.block (s := S20x1x128) S1x1x128.size (cc6_transform_11 i) (hinb6_11 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x64.size a ≤ S128x64.size a
  hwx7_5 : ∀ i : grid7.Coords, EltTy.bits .f32 = 32 ∨ (Rect.block (s := S128x64) S128x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x64.size a ≤ S100000x64.size a
  hwx7_7 : ∀ i : grid7.Coords, EltTy.bits .f32 = 32 ∨ (Rect.block (s := S100000x64) S5000x64.size (cc7_transform_7 i) (hinb7_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32_1) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v32_2) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v32_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71_0) S10000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v71_1) S1x1x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v71_2) S1x1x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v71_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v102) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v104) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v109) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v110_0) S10000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v110_1) S1x1x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v110_2) S1x1x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v110_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v126) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v129) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v90) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v129) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v130) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v131) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v132) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v133) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v134) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v135_0) S5000x128.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v135_1) S1x1x128.size cc6_transform_10 reads6_10 true false 2 stage6_10 sem6_10
    hrank6 hreads6_10 hinb6_10 nbuf6_10 (Memref.isWhole_whole _) hwx6_10 hstage6_10

abbrev win6_11 : Pipeline.Window sig grid6 :=
  Pipeline.Window.ofSpec (Memref.whole main_v135_2) S1x1x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v135_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v146) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v147) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v148) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v149) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg11) S128x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v150) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v151) S5000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S100000x512 : Shape := ⟨2, ![100000, 512]⟩
abbrev S100000x64 : Shape := ⟨2, ![100000, 64]⟩
abbrev S1x64 : Shape := ⟨2, ![1, 64]⟩

abbrev nBuf : Space → Nat
  | .hbm => 325
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S512x128, .f32⟩
  | 8 => ⟨S128, .f32⟩
  | 9 => ⟨S128, .f32⟩
  | 10 => ⟨S128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S1x128x128, .f32⟩
  | 46 => ⟨S128x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x128x128, .f32⟩
  | 54 => ⟨S128x128, .f32⟩
  | 55 => ⟨S100000x128, .f32⟩
  | 56 => ⟨S100000x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S100000x128, .f32⟩
  | 74 => ⟨S100000x128, .f32⟩
  | 75 => ⟨S100000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S1x128x128, .f32⟩
  | 4 => ⟨S128x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S100000x128, .f32⟩
  | 24 => ⟨S100000x128, .f32⟩
  | 25 => ⟨S100000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S100000x128, .f32⟩
  | 73 => ⟨S1x128x128, .f32⟩
  | 74 => ⟨S128x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S1x128x128, .f32⟩
  | 82 => ⟨S128x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S128, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x512, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S_, .f32⟩
  | 59 => ⟨S100000x128, .f32⟩
  | 60 => ⟨S100000x128, .i1⟩
  | 61 => ⟨S_, .f32⟩
  | 62 => ⟨S100000x128, .f32⟩
  | 63 => ⟨S100000x128, .f32⟩
  | 64 => ⟨S100000x128, .f32⟩
  | 65 => ⟨S100000x64, .f32⟩
  | 66 => ⟨S1x64, .f32⟩
  | 67 => ⟨S100000x64, .f32⟩
  | 68 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_8 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_call1_cst : Ref sig .tc := ⟨.hbm, 105, rfl⟩
abbrev main_call1_v0 : Ref sig .tc := ⟨.hbm, 106, rfl⟩
abbrev main_v60 : Ref sig .tc := ⟨.hbm, 107, rfl⟩
abbrev main_c_9 : Ref sig .tc := ⟨.hbm, 108, rfl⟩
abbrev main_v61 : Ref sig .tc := ⟨.hbm, 109, rfl⟩
abbrev main_v62 : Ref sig .tc := ⟨.hbm, 110, rfl⟩
abbrev main_c_10 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_11 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_12 : Ref sig .tc := ⟨.hbm, 139, rfl⟩
abbrev main_v89 : Ref sig .tc := ⟨.hbm, 140, rfl⟩
abbrev main_cst_13 : Ref sig .tc := ⟨.hbm, 141, rfl⟩
abbrev main_v90 : Ref sig .tc := ⟨.hbm, 142, rfl⟩
abbrev main_v91 : Ref sig .tc := ⟨.hbm, 143, rfl⟩
abbrev main_c_14 : Ref sig .tc := ⟨.hbm, 144, rfl⟩
abbrev main_call2_cst : Ref sig .tc := ⟨.hbm, 145, rfl⟩
abbrev main_call2_v0 : Ref sig .tc := ⟨.hbm, 146, rfl⟩
abbrev main_call2_v1 : Ref sig .tc := ⟨.hbm, 147, rfl⟩
abbrev main_call2_cst_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_cst_1 : Ref sig .tc := ⟨.hbm, 155, rfl⟩
abbrev main_call2_v8 : Ref sig .tc := ⟨.hbm, 156, rfl⟩
abbrev main_call2_cst_2 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_cst_3 : Ref sig .tc := ⟨.hbm, 161, rfl⟩
abbrev main_call2_v12 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_cst_15 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_call3_cst : Ref sig .tc := ⟨.hbm, 183, rfl⟩
abbrev main_call3_v0 : Ref sig .tc := ⟨.hbm, 184, rfl⟩
abbrev main_v108 : Ref sig .tc := ⟨.hbm, 185, rfl⟩
abbrev main_c_16 : Ref sig .tc := ⟨.hbm, 186, rfl⟩
abbrev main_v109 : Ref sig .tc := ⟨.hbm, 187, rfl⟩
abbrev main_v110 : Ref sig .tc := ⟨.hbm, 188, rfl⟩
abbrev main_c_17 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_cst_18 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_cst_19 : Ref sig .tc := ⟨.hbm, 217, rfl⟩
abbrev main_v137 : Ref sig .tc := ⟨.hbm, 218, rfl⟩
abbrev main_cst_20 : Ref sig .tc := ⟨.hbm, 219, rfl⟩
abbrev main_v138 : Ref sig .tc := ⟨.hbm, 220, rfl⟩
abbrev main_v139 : Ref sig .tc := ⟨.hbm, 221, rfl⟩
abbrev main_c_21 : Ref sig .tc := ⟨.hbm, 222, rfl⟩
abbrev main_call4_cst : Ref sig .tc := ⟨.hbm, 223, rfl⟩
abbrev main_call4_v0 : Ref sig .tc := ⟨.hbm, 224, rfl⟩
abbrev main_call4_v1 : Ref sig .tc := ⟨.hbm, 225, rfl⟩
abbrev main_call4_cst_0 : Ref sig .tc := ⟨.hbm, 226, rfl⟩
abbrev main_call4_v2 : Ref sig .tc := ⟨.hbm, 227, rfl⟩
abbrev main_call4_v3 : Ref sig .tc := ⟨.hbm, 228, rfl⟩
abbrev main_call4_v4 : Ref sig .tc := ⟨.hbm, 229, rfl⟩
abbrev main_call4_v5 : Ref sig .tc := ⟨.hbm, 230, rfl⟩
abbrev main_call4_v6 : Ref sig .tc := ⟨.hbm, 231, rfl⟩
abbrev main_call4_v7 : Ref sig .tc := ⟨.hbm, 232, rfl⟩
abbrev main_call4_cst_1 : Ref sig .tc := ⟨.hbm, 233, rfl⟩
abbrev main_call4_v8 : Ref sig .tc := ⟨.hbm, 234, rfl⟩
abbrev main_call4_cst_2 : Ref sig .tc := ⟨.hbm, 235, rfl⟩
abbrev main_call4_v9 : Ref sig .tc := ⟨.hbm, 236, rfl⟩
abbrev main_call4_v10 : Ref sig .tc := ⟨.hbm, 237, rfl⟩
abbrev main_call4_v11 : Ref sig .tc := ⟨.hbm, 238, rfl⟩
abbrev main_call4_cst_3 : Ref sig .tc := ⟨.hbm, 239, rfl⟩
abbrev main_call4_v12 : Ref sig .tc := ⟨.hbm, 240, rfl⟩
abbrev main_call4_cst_4 : Ref sig .tc := ⟨.hbm, 241, rfl⟩
abbrev main_call4_call0_v0 : Ref sig .tc := ⟨.hbm, 242, rfl⟩
abbrev main_call4_call0_v1 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_cst_22 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_call5_cst : Ref sig .tc := ⟨.hbm, 261, rfl⟩
abbrev main_call5_v0 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_cst_23 : Ref sig .tc := ⟨.hbm, 269, rfl⟩
abbrev main_v162 : Ref sig .tc := ⟨.hbm, 270, rfl⟩
abbrev main_cst_24 : Ref sig .tc := ⟨.hbm, 271, rfl⟩
abbrev main_v163 : Ref sig .tc := ⟨.hbm, 272, rfl⟩
abbrev main_v164 : Ref sig .tc := ⟨.hbm, 273, rfl⟩
abbrev main_c_25 : Ref sig .tc := ⟨.hbm, 274, rfl⟩
abbrev main_call6_cst : Ref sig .tc := ⟨.hbm, 275, rfl⟩
abbrev main_call6_v0 : Ref sig .tc := ⟨.hbm, 276, rfl⟩
abbrev main_call6_v1 : Ref sig .tc := ⟨.hbm, 277, rfl⟩
abbrev main_call6_cst_0 : Ref sig .tc := ⟨.hbm, 278, rfl⟩
abbrev main_call6_v2 : Ref sig .tc := ⟨.hbm, 279, rfl⟩
abbrev main_call6_v3 : Ref sig .tc := ⟨.hbm, 280, rfl⟩
abbrev main_call6_v4 : Ref sig .tc := ⟨.hbm, 281, rfl⟩
abbrev main_call6_v5 : Ref sig .tc := ⟨.hbm, 282, rfl⟩
abbrev main_call6_v6 : Ref sig .tc := ⟨.hbm, 283, rfl⟩
abbrev main_call6_v7 : Ref sig .tc := ⟨.hbm, 284, rfl⟩
abbrev main_call6_cst_1 : Ref sig .tc := ⟨.hbm, 285, rfl⟩
abbrev main_call6_v8 : Ref sig .tc := ⟨.hbm, 286, rfl⟩
abbrev main_call6_cst_2 : Ref sig .tc := ⟨.hbm, 287, rfl⟩
abbrev main_call6_v9 : Ref sig .tc := ⟨.hbm, 288, rfl⟩
abbrev main_call6_v10 : Ref sig .tc := ⟨.hbm, 289, rfl⟩
abbrev main_call6_v11 : Ref sig .tc := ⟨.hbm, 290, rfl⟩
abbrev main_call6_cst_3 : Ref sig .tc := ⟨.hbm, 291, rfl⟩
abbrev main_call6_v12 : Ref sig .tc := ⟨.hbm, 292, rfl⟩
abbrev main_call6_cst_4 : Ref sig .tc := ⟨.hbm, 293, rfl⟩
abbrev main_call6_call0_v0 : Ref sig .tc := ⟨.hbm, 294, rfl⟩
abbrev main_call6_call0_v1 : Ref sig .tc := ⟨.hbm, 295, rfl⟩
abbrev main_v165 : Ref sig .tc := ⟨.hbm, 296, rfl⟩
abbrev main_v166 : Ref sig .tc := ⟨.hbm, 297, rfl⟩
abbrev main_v167 : Ref sig .tc := ⟨.hbm, 298, rfl⟩
abbrev main_v168 : Ref sig .tc := ⟨.hbm, 299, rfl⟩
abbrev main_cst_26 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_v174 : Ref sig .tc := ⟨.hbm, 306, rfl⟩
abbrev main_v175 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_v179 : Ref sig .tc := ⟨.hbm, 311, rfl⟩
abbrev main_v180 : Ref sig .tc := ⟨.hbm, 312, rfl⟩
abbrev main_cst_27 : Ref sig .tc := ⟨.hbm, 313, rfl⟩
abbrev main_call7_cst : Ref sig .tc := ⟨.hbm, 314, rfl⟩
abbrev main_call7_v0 : Ref sig .tc := ⟨.hbm, 315, rfl⟩
abbrev main_call7_v1 : Ref sig .tc := ⟨.hbm, 316, rfl⟩
abbrev main_call7_v2 : Ref sig .tc := ⟨.hbm, 317, rfl⟩
abbrev main_call7_v3 : Ref sig .tc := ⟨.hbm, 318, rfl⟩
abbrev main_call7_v4 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x128_S100000x512_d1 : Shape.Concatenates [S100000x128, S100000x128, S100000x128, S100000x128] S100000x512 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result named. @main is sixteen segments: eight stretches of host
  operations and, between them, the eight tiled kernels. The contents of the TensorCore's buffers at each segment
  boundary are a fold from the launch memory: a host stretch applies its operations' results, a kernel region
  replaces the arrays of its windows by what its write-backs leave. Every weakly fair execution terminates, nothing
  faults, and every unscoped buffer - the result array among them - ends at the last boundary's contents; the
  argument arrays end as launched.
-/
import proofs.«173273_j2259152798196_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped TensorCore buffer ends at the contents of the last segment boundary. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W16 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c b hb => h c _ (mem_uc b hb))

/-- The run with the result array named and the arguments kept. -/
theorem run : θ_run defs (onTc (τ := τ) (main (F := F))) ⟨m, fun _ => 0, ρ⟩ (fun r => ∀ c : Dev nD,
      r.2.mem ((c.tc : Thread nD τ).loc main_v151) = W16 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c main_v151 (by decide),
     (h c main_arg0 (by decide)).trans (W16_main_arg0 m ρ c),
     (h c main_arg1 (by decide)).trans (W16_main_arg1 m ρ c),
     (h c main_arg2 (by decide)).trans (W16_main_arg2 m ρ c),
     (h c main_arg3 (by decide)).trans (W16_main_arg3 m ρ c),
     (h c main_arg4 (by decide)).trans (W16_main_arg4 m ρ c),
     (h c main_arg5 (by decide)).trans (W16_main_arg5 m ρ c),
     (h c main_arg6 (by decide)).trans (W16_main_arg6 m ρ c),
     (h c main_arg7 (by decide)).trans (W16_main_arg7 m ρ c),
     (h c main_arg8 (by decide)).trans (W16_main_arg8 m ρ c),
     (h c main_arg9 (by decide)).trans (W16_main_arg9 m ρ c),
     (h c main_arg10 (by decide)).trans (W16_main_arg10 m ρ c),
     (h c main_arg11 (by decide)).trans (W16_main_arg11 m ρ c),
     (h c main_arg12 (by decide)).trans (W16_main_arg12 m ρ c)⟩)
    (run_all m ρ)

end Cert.KernelIdeal.HandRun

end
-- ==== Proof.RefOps.lean ====
/- The idealized reference's @main as lists of its host operations, window by window as the program is printed,
   each function it calls written out at the call over that call's buffers; beside each list, which builder
   every entry is, so that each entry touches TensorCore references only. -/
import proofs.«173273_j2259152798196_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part0`: entries 1 … 81 of 312. -/
abbrev ops_part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S100000x128 ![] bcast_S_S100000x128 : (⟨S_, .f32⟩ : BufTy).Contents (Elt F) → (⟨S100000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v22 main_v23 main_v24 (mulf : (⟨S100000x128, .f32⟩ : BufTy).Contents (Elt F) → (⟨S100000x128, .f32⟩ : BufTy).Contents (Elt F) → (⟨S100000x128, .f32⟩ : BufTy).Contents (Elt F)),
    StableHlo.unary main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v31 main_v32 (addf : (⟨S100000x128, .f32⟩ : BufTy).Contents (Elt F) → (⟨S100000x128, .f32⟩ : BufTy).Contents (Elt F) → (⟨S100000x128, .f32⟩ : BufTy).Contents (Elt F)),
    StableHlo.unary main_arg4 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v33 main_v34 rfl shapeCasts_S1x128x128_S128x128,
    StableHlo.binary main_arg0 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v32 main_v35 main_v36 (addf : (⟨S100000x128, .f32⟩ : BufTy).Contents (Elt F) → (⟨S100000x128, .f32⟩ : BufTy).Contents (Elt F) → (⟨S100000x128, .f32⟩ : BufTy).Contents (Elt F)),
    StableHlo.unary main_arg5 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_arg6 main_v39 ((extractStridedSlice S1x128 ![0, 0] · slices_S3x128_S1x128_0_0) : (⟨S3x128, .f32⟩ : BufTy).Contents (Elt F) → (⟨S1x128, .f32⟩ : BufTy).Contents (Elt F)),
    StableHlo.reshape main_v39 main_v40 rfl shapeCasts_S1x128_S128,
    StableHlo.nullary main_cst_5 (constant S_ .f32 0x00000000#32),
    StableHlo.binary main_v36 main_cst_5 main_v41 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v42 (broadcastInDim S128 ![] bcast_S_S128 : (⟨S_, .f32⟩ : BufTy).Contents (Elt F) → (⟨S128, .f32⟩ : BufTy).Contents (Elt F)),
    StableHlo.binary main_v41 main_v42 main_v43 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v36) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v36) main_call0.v4 main_call0.v5 subf,
    StableHlo.TRef.binary main_call0.v5 main_call0.v5 main_call0.v6 mulf,
    StableHlo.TRef.unary (.of main_c_7) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v43 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v46 main_v47 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v48 (broadcastInDim S128 ![] bcast_S_S128 : (⟨S_, .f32⟩ : BufTy).Contents (Elt F) → (⟨S128, .f32⟩ : BufTy).Contents (Elt F)) ]

/-- The operations of window `main_part1`: entries 82 … 164 of 312. -/
abbrev ops_part1 : List (HloOp τ sig (Elt F)) :=
  [ StableHlo.binary main_v44 main_v48 main_v49 (addf : (⟨S128, .f32⟩ : BufTy).Contents (Elt F) → (⟨S128, .f32⟩ : BufTy).Contents (Elt F) → (⟨S128, .f32⟩ : BufTy).Contents (Elt F)),
    StableHlo.unary main_v49 main_v50 (Host.rsqrt : (⟨S128, .f32⟩ : BufTy).Contents (Elt F) → (⟨S128, .f32⟩ : BufTy).Contents (Elt F)),
    StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v52 main_v53 (mulf : (⟨S100000x128, .f32⟩ : BufTy).Contents (Elt F) → (⟨S100000x128, .f32⟩ : BufTy).Contents (Elt F) → (⟨S100000x128, .f32⟩ : BufTy).Contents (Elt F)),
    StableHlo.unary main_v38 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v55 main_v56 (mulf : (⟨S100000x128, .f32⟩ : BufTy).Contents (Elt F) → (⟨S100000x128, .f32⟩ : BufTy).Contents (Elt F) → (⟨S100000x128, .f32⟩ : BufTy).Contents (Elt F)),
    StableHlo.unary main_v40 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v58 main_v59 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v59) main_call1.v0 main_call1.v1 maximumf,
    StableHlo.nullary main_c_9 (constantI S_ 32 0#32),
    StableHlo.unary main_c_9 main_v61 (broadcastInDim S1600000 ![] bcast_S_S1600000 : (⟨S_, .i32⟩ : BufTy).Contents (Elt F) → (⟨S1600000, .i32⟩ : BufTy).Contents (Elt F)),
    StableHlo.binary main_v1 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v63 (broadcastInDim S1600000 ![] bcast_S_S1600000 : (⟨S_, .i32⟩ : BufTy).Contents (Elt F) → (⟨S1600000, .i32⟩ : BufTy).Contents (Elt F)),
    StableHlo.binary main_v1 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.binary main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v68 (broadcastInDim S100000x128 ![] bcast_S_S100000x128 : (⟨S_, .f32⟩ : BufTy).Contents (Elt F) → (⟨S100000x128, .f32⟩ : BufTy).Contents (Elt F)),
    StableHlo.unary main_v3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v71 (broadcastInDim S100000x128 ![0, 1] bcast_S100000x1_S100000x128_0_1 : (⟨S100000x1, .f32⟩ : BufTy).Contents (Elt F) → (⟨S100000x128, .f32⟩ : BufTy).Contents (Elt F)),
    StableHlo.binary main_v70 main_v71 main_v72 (mulf : (⟨S100000x128, .f32⟩ : BufTy).Contents (Elt F) → (⟨S100000x128, .f32⟩ : BufTy).Contents (Elt F) → (⟨S100000x128, .f32⟩ : BufTy).Contents (Elt F)),
    StableHlo.unary main_arg2 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v79 main_v80 (addf : (⟨S100000x128, .f32⟩ : BufTy).Contents (Elt F) → (⟨S100000x128, .f32⟩ : BufTy).Contents (Elt F) → (⟨S100000x128, .f32⟩ : BufTy).Contents (Elt F)),
    StableHlo.unary main_arg4 main_v81 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v81 main_v82 rfl shapeCasts_S1x128x128_S128x128,
    StableHlo.binary main_v60 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v80 main_v83 main_v84 (addf : (⟨S100000x128, .f32⟩ : BufTy).Contents (Elt F) → (⟨S100000x128, .f32⟩ : BufTy).Contents (Elt F) → (⟨S100000x128, .f32⟩ : BufTy).Contents (Elt F)),
    StableHlo.unary main_arg5 main_v85 ((extractStridedSlice S1x128 ![1, 0] · slices_S3x128_S1x128_1_0) : (⟨S3x128, .f32⟩ : BufTy).Contents (Elt F) → (⟨S1x128, .f32⟩ : BufTy).Contents (Elt F)),
    StableHlo.reshape main_v85 main_v86 rfl shapeCasts_S1x128_S128,
    StableHlo.unary main_arg6 main_v87 ((extractStridedSlice S1x128 ![1, 0] · slices_S3x128_S1x128_1_0) : (⟨S3x128, .f32⟩ : BufTy).Contents (Elt F) → (⟨S1x128, .f32⟩ : BufTy).Contents (Elt F)),
    StableHlo.reshape main_v87 main_v88 rfl shapeCasts_S1x128_S128,
    StableHlo.nullary main_cst_12 (constant S_ .f32 0x00000000#32),
    StableHlo.binary main_v84 main_cst_12 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v90 (broadcastInDim S128 ![] bcast_S_S128 : (⟨S_, .f32⟩ : BufTy).Contents (Elt F) → (⟨S128, .f32⟩ : BufTy).Contents (Elt F)),
    StableHlo.binary main_v89 main_v90 main_v91 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v84) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v84) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v91 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v94 main_v95 (subf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v96 (broadcastInDim S128 ![] bcast_S_S128 : (⟨S_, .f32⟩ : BufTy).Contents (Elt F) → (⟨S128, .f32⟩ : BufTy).Contents (Elt F)),
    StableHlo.binary main_v92 main_v96 main_v97 (addf : (⟨S128, .f32⟩ : BufTy).Contents (Elt F) → (⟨S128, .f32⟩ : BufTy).Contents (Elt F) → (⟨S128, .f32⟩ : BufTy).Contents (Elt F)),
    StableHlo.unary main_v97 main_v98 (Host.rsqrt : (⟨S128, .f32⟩ : BufTy).Contents (Elt F) → (⟨S128, .f32⟩ : BufTy).Contents (Elt F)),
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v100 main_v101 (mulf : (⟨S100000x128, .f32⟩ : BufTy).Contents (Elt F) → (⟨S100000x128, .f32⟩ : BufTy).Contents (Elt F) → (⟨S100000x128, .f32⟩ : BufTy).Contents (Elt F)) ]

/-- The operations of window `main_part2`: entries 165 … 247 of 312. -/
abbrev ops_part2 : List (HloOp τ sig (Elt F)) :=
  [ StableHlo.unary main_v86 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_v88 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v107) main_call3.v0 main_call3.v1 maximumf,
    StableHlo.nullary main_c_16 (constantI S_ 32 0#32),
    StableHlo.unary main_c_16 main_v109 (broadcastInDim S1600000 ![] bcast_S_S1600000 : (⟨S_, .i32⟩ : BufTy).Contents (Elt F) → (⟨S1600000, .i32⟩ : BufTy).Contents (Elt F)),
    StableHlo.binary main_v1 main_v109 main_v110 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v111 (broadcastInDim S1600000 ![] bcast_S_S1600000 : (⟨S_, .i32⟩ : BufTy).Contents (Elt F) → (⟨S1600000, .i32⟩ : BufTy).Contents (Elt F)),
    StableHlo.binary main_v1 main_v111 main_v112 (addi : (⟨S1600000, .i32⟩ : BufTy).Contents (Elt F) → (⟨S1600000, .i32⟩ : BufTy).Contents (Elt F) → (⟨S1600000, .i32⟩ : BufTy).Contents (Elt F)),
    StableHlo.ternary main_v110 main_v112 main_v1 main_v113 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v113 main_v114 (broadcastInDim S1600000x1 ![0] bcast_S1600000_S1600000x1_0 : (⟨S1600000, .i32⟩ : BufTy).Contents (Elt F) → (⟨S1600000x1, .i32⟩ : BufTy).Contents (Elt F)),
    StableHlo.binary main_v108 main_v114 main_v115 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v116 (broadcastInDim S100000x128 ![] bcast_S_S100000x128 : (⟨S_, .f32⟩ : BufTy).Contents (Elt F) → (⟨S100000x128, .f32⟩ : BufTy).Contents (Elt F)),
    StableHlo.unary main_v3 main_v117 (broadcastInDim S1600000x1 ![0] bcast_S1600000_S1600000x1_0 : (⟨S1600000, .i32⟩ : BufTy).Contents (Elt F) → (⟨S1600000x1, .i32⟩ : BufTy).Contents (Elt F)),
    StableHlo.ternary main_v116 main_v117 main_v115 main_v118 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v119 (broadcastInDim S100000x128 ![0, 1] bcast_S100000x1_S100000x128_0_1 : (⟨S100000x1, .f32⟩ : BufTy).Contents (Elt F) → (⟨S100000x128, .f32⟩ : BufTy).Contents (Elt F)),
    StableHlo.binary main_v118 main_v119 main_v120 (mulf : (⟨S100000x128, .f32⟩ : BufTy).Contents (Elt F) → (⟨S100000x128, .f32⟩ : BufTy).Contents (Elt F) → (⟨S100000x128, .f32⟩ : BufTy).Contents (Elt F)),
    StableHlo.unary main_arg2 main_v121 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v121 main_v122 rfl shapeCasts_S1x128x128_S128x128,
    StableHlo.binary main_v120 main_v122 main_v123 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v124 ((extractStridedSlice S1x128 ![2, 0] · slices_S3x128_S1x128_2_0) : (⟨S3x128, .f32⟩ : BufTy).Contents (Elt F) → (⟨S1x128, .f32⟩ : BufTy).Contents (Elt F)),
    StableHlo.reshape main_v124 main_v125 rfl shapeCasts_S1x128_S128,
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v123 main_v127 main_v128 (addf : (⟨S100000x128, .f32⟩ : BufTy).Contents (Elt F) → (⟨S100000x128, .f32⟩ : BufTy).Contents (Elt F) → (⟨S100000x128, .f32⟩ : BufTy).Contents (Elt F)),
    StableHlo.unary main_arg4 main_v129 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v129 main_v130 rfl shapeCasts_S1x128x128_S128x128,
    StableHlo.binary main_v108 main_v130 main_v131 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v128 main_v131 main_v132 (addf : (⟨S100000x128, .f32⟩ : BufTy).Contents (Elt F) → (⟨S100000x128, .f32⟩ : BufTy).Contents (Elt F) → (⟨S100000x128, .f32⟩ : BufTy).Contents (Elt F)),
    StableHlo.unary main_arg5 main_v133 ((extractStridedSlice S1x128 ![2, 0] · slices_S3x128_S1x128_2_0) : (⟨S3x128, .f32⟩ : BufTy).Contents (Elt F) → (⟨S1x128, .f32⟩ : BufTy).Contents (Elt F)),
    StableHlo.reshape main_v133 main_v134 rfl shapeCasts_S1x128_S128,
    StableHlo.unary main_arg6 main_v135 ((extractStridedSlice S1x128 ![2, 0] · slices_S3x128_S1x128_2_0) : (⟨S3x128, .f32⟩ : BufTy).Contents (Elt F) → (⟨S1x128, .f32⟩ : BufTy).Contents (Elt F)),
    StableHlo.reshape main_v135 main_v136 rfl shapeCasts_S1x128_S128,
    StableHlo.nullary main_cst_19 (constant S_ .f32 0x00000000#32),
    StableHlo.binary main_v132 main_cst_19 main_v137 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v138 (broadcastInDim S128 ![] bcast_S_S128 : (⟨S_, .f32⟩ : BufTy).Contents (Elt F) → (⟨S128, .f32⟩ : BufTy).Contents (Elt F)),
    StableHlo.binary main_v137 main_v138 main_v139 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v132) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v132) main_call4.v4 main_call4.v5 subf,
    StableHlo.TRef.binary main_call4.v5 main_call4.v5 main_call4.v6 mulf,
    StableHlo.TRef.unary (.of main_c_21) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v139 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v142 main_v143 (subf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v144 (broadcastInDim S128 ![] bcast_S_S128 : (⟨S_, .f32⟩ : BufTy).Contents (Elt F) → (⟨S128, .f32⟩ : BufTy).Contents (Elt F)),
    StableHlo.binary main_v140 main_v144 main_v145 (addf : (⟨S128, .f32⟩ : BufTy).Contents (Elt F) → (⟨S128, .f32⟩ : BufTy).Contents (Elt F) → (⟨S128, .f32⟩ : BufTy).Contents (Elt F)),
    StableHlo.unary main_v145 main_v146 (Host.rsqrt : (⟨S128, .f32⟩ : BufTy).Contents (Elt F) → (⟨S128, .f32⟩ : BufTy).Contents (Elt F)),
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v148 main_v149 (mulf : (⟨S100000x128, .f32⟩ : BufTy).Contents (Elt F) → (⟨S100000x128, .f32⟩ : BufTy).Contents (Elt F) → (⟨S100000x128, .f32⟩ : BufTy).Contents (Elt F)),
    StableHlo.unary main_v134 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S100000x128 ![0, 1] bcast_S1x128_S100000x128_0_1 : (⟨S1x128, .f32⟩ : BufTy).Contents (Elt F) → (⟨S100000x128, .f32⟩ : BufTy).Contents (Elt F)),
    StableHlo.binary main_v149 main_v151 main_v152 (mulf : (⟨S100000x128, .f32⟩ : BufTy).Contents (Elt F) → (⟨S100000x128, .f32⟩ : BufTy).Contents (Elt F) → (⟨S100000x128, .f32⟩ : BufTy).Contents (Elt F)),
    StableHlo.unary main_v136 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)) ]

/-- The operations of window `main_part3`: entries 248 … 312 of 312. -/
abbrev ops_part3 : List (HloOp τ sig (Elt F)) :=
  [ StableHlo.binary main_v152 main_v154 main_v155 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v155) main_call5.v0 main_call5.v1 maximumf,
    StableHlo.nary ![main_arg0, main_v60, main_v108, main_v156] main_v157 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.binary main_v157 main_arg7 main_v158 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    StableHlo.unary main_arg8 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v160 main_v161 (addf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x00000000#32),
    StableHlo.binary main_v161 main_cst_23 main_v162 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v163 (broadcastInDim S128 ![] bcast_S_S128 : (⟨S_, .f32⟩ : BufTy).Contents (Elt F) → (⟨S128, .f32⟩ : BufTy).Contents (Elt F)),
    StableHlo.binary main_v162 main_v163 main_v164 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call6.cst (constant S_ .f32 0x00000000#32),
    StableHlo.TRef.binary (.of main_v161) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v161) main_call6.v4 main_call6.v5 subf,
    StableHlo.TRef.binary main_call6.v5 main_call6.v5 main_call6.v6 mulf,
    StableHlo.TRef.unary (.of main_c_25) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v164 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v167 main_v168 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v169 (broadcastInDim S128 ![] bcast_S_S128 : (⟨S_, .f32⟩ : BufTy).Contents (Elt F) → (⟨S128, .f32⟩ : BufTy).Contents (Elt F)),
    StableHlo.binary main_v165 main_v169 main_v170 (addf : (⟨S128, .f32⟩ : BufTy).Contents (Elt F) → (⟨S128, .f32⟩ : BufTy).Contents (Elt F) → (⟨S128, .f32⟩ : BufTy).Contents (Elt F)),
    StableHlo.unary main_v170 main_v171 (Host.rsqrt : (⟨S128, .f32⟩ : BufTy).Contents (Elt F) → (⟨S128, .f32⟩ : BufTy).Contents (Elt F)),
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v173 main_v174 (mulf : (⟨S100000x128, .f32⟩ : BufTy).Contents (Elt F) → (⟨S100000x128, .f32⟩ : BufTy).Contents (Elt F) → (⟨S100000x128, .f32⟩ : BufTy).Contents (Elt F)),
    StableHlo.unary main_arg9 main_v175 (broadcastInDim S1x128 ![1] bcast_S128_S1x128_1 : (⟨S128, .f32⟩ : BufTy).Contents (Elt F) → (⟨S1x128, .f32⟩ : BufTy).Contents (Elt F)),
    StableHlo.unary main_v175 main_v176 (broadcastInDim S100000x128 ![0, 1] bcast_S1x128_S100000x128_0_1 : (⟨S1x128, .f32⟩ : BufTy).Contents (Elt F) → (⟨S100000x128, .f32⟩ : BufTy).Contents (Elt F)),
    StableHlo.binary main_v174 main_v176 main_v177 (mulf : (⟨S100000x128, .f32⟩ : BufTy).Contents (Elt F) → (⟨S100000x128, .f32⟩ : BufTy).Contents (Elt F) → (⟨S100000x128, .f32⟩ : BufTy).Contents (Elt F)),
    StableHlo.unary main_arg10 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S100000x128 ![0, 1] bcast_S1x128_S100000x128_0_1 : (⟨S1x128, .f32⟩ : BufTy).Contents (Elt F) → (⟨S100000x128, .f32⟩ : BufTy).Contents (Elt F)),
    StableHlo.binary main_v177 main_v179 main_v180 (addf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3C23D70A#32),
    StableHlo.TRef.nullary main_call7.cst (constant S_ .f32 0x00000000#32),
    StableHlo.TRef.unary main_call7.cst main_call7.v0 (broadcastInDim S100000x128 ![] bcast_S_S100000x128),
    StableHlo.TRef.binary (.of main_v180) main_call7.v0 main_call7.v1 (cmpf .oge),
    StableHlo.TRef.unary (.of main_cst_27) main_call7.v2 id,
    StableHlo.TRef.unary main_call7.v2 main_call7.v3 (broadcastInDim S100000x128 ![] bcast_S_S100000x128),
    StableHlo.TRef.binary main_call7.v3 (.of main_v180) main_call7.v4 mulf,
    StableHlo.TRef.ternary main_call7.v1 (.of main_v180) main_call7.v4 main_call7.call0.v0 select,
    StableHlo.binary main_v181 main_arg11 main_v182 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S100000x64 ![0, 1] bcast_S1x64_S100000x64_0_1 : (⟨S1x64, .f32⟩ : BufTy).Contents (Elt F) → (⟨S100000x64, .f32⟩ : BufTy).Contents (Elt F)),
    StableHlo.binary main_v182 main_v184 main_v185 (addf : (⟨S100000x64, .f32⟩ : BufTy).Contents (Elt F) → (⟨S100000x64, .f32⟩ : BufTy).Contents (Elt F) → (⟨S100000x64, .f32⟩ : BufTy).Contents (Elt F)) ]

/-- @main's 312 operations, in order. -/
abbrev ops : List (HloOp τ sig (Elt F)) :=
  ops_part0 ++ (ops_part1 ++ (ops_part2 ++ (ops_part3)))

set_option maxRecDepth 16384 in
/-- Every operation of window `main_part0` touches TensorCore references only. -/
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

set_option maxRecDepth 16384 in
/-- Every operation of window `main_part1` touches TensorCore references only. -/
theorem ops_part1_sub : (ops_part1 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

set_option maxRecDepth 16384 in
/-- Every operation of window `main_part2` touches TensorCore references only. -/
theorem ops_part2_sub : (ops_part2 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

set_option maxRecDepth 16384 in
/-- Every operation of window `main_part3` touches TensorCore references only. -/
theorem ops_part3_sub : (ops_part3 : List (HloOp τ sig (Elt F))).Forall fun op => op.bufs ⊆ tcRefs τ sig :=
  ⟨binary_bufs_sub .., nullary_bufs_sub .., unary_bufs_sub .., binary_bufs_sub .., nary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

end Cert.ReferenceIdeal.Ops

end
-- ==== Proof.RefRun.lean ====
/-
  The idealized reference's run, read back. The reference has no kernel: its @main is a straight line of host
  operations (the four printed windows, each called function's body standing at its call over that call's own
  buffers), so running it is folding the operations' results over the launch memory. Every weakly fair execution
  terminates, nothing faults, and each TensorCore buffer ends at that fold. No operation writes an argument array
  (each writes its own result buffer, and no argument is a result), so every argument ends as launched.
-/
import proofs.«173273_j2259152798196_2_alg».proof.Proof.RefOps

noncomputable section

namespace Cert.ReferenceIdeal.HandRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-! ## @main is the straight line of its operations

A window's text is a chain of host steps in which a call stands for its callee's own chain; sequencing is
associative, so the chain with every call opened in place is the chain of the listed operations. -/

set_option maxRecDepth 16384 in
theorem main_part0_eq (c : Dev nD) : main_part0 (F := F) c = seq ops_part0 := by
  simp only [main_part0, fn_var.body, fn_where.body, seq, bind_assoc, pure_bind]
  rfl

set_option maxRecDepth 16384 in
theorem main_part1_eq (c : Dev nD) : main_part1 (F := F) c = seq ops_part1 := by
  simp only [main_part1, fn_var.body, fn_where.body, fn_relu.body, seq, bind_assoc, pure_bind]
  rfl

set_option maxRecDepth 16384 in
theorem main_part2_eq (c : Dev nD) : main_part2 (F := F) c = seq ops_part2 := by
  simp only [main_part2, fn_var.body, fn_where.body, fn_relu.body, seq, bind_assoc, pure_bind]
  rfl

set_option maxRecDepth 16384 in
theorem main_part3_eq (c : Dev nD) : main_part3 (F := F) c = seq ops_part3 := by
  simp only [main_part3, fn_var.body, fn_where.body, fn_relu.body, fn_leaky_relu.body, fn_where_0.body, seq, bind_assoc, pure_bind]

set_option maxRecDepth 16384 in
/-- The four windows one after the other are the concatenated list run as one line. -/
theorem main_eq (c : Dev nD) : main (F := F) c = seq ops := by
  simp only [ops, seq_append, ← main_part0_eq c, ← main_part1_eq c, ← main_part2_eq c, ← main_part3_eq c]
  rfl

/-! ## The side conditions of the straight-line run -/

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

/-! ## The run -/

set_option maxRecDepth 16384 in
/-- From any memory with zero counters every weakly fair execution of the reference's @main terminates, and every
    TensorCore buffer ends at the operations' fold over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b : DevRef τ sig) :=
  run_seq scopedRefs_eq scopedSems_eq defs main (fun _ => ops) main_eq (fun _ => ops_sub) m ρ

end Cert.ReferenceIdeal.HandRun

end
-- ==== Proof.RefArgs.lean ====
/-
  The reference's thirteen argument arrays, as a list of references: no operation of the reference writes one.
-/
import proofs.«173273_j2259152798196_2_alg».proof.Proof.RefOps

namespace Cert.ReferenceIdeal.HandRun

open Cert.ReferenceIdeal Idealize.ShloMosaic

/-- The argument arrays' references. -/
def argRefs : List (Ref sig .tc) := [main_arg0, main_arg1, main_arg2, main_arg3, main_arg4, main_arg5, main_arg6, main_arg7, main_arg8, main_arg9, main_arg10, main_arg11, main_arg12]

end Cert.ReferenceIdeal.HandRun
-- ==== Proof.RefKeep0.lean ====
/-
  Window 0 of the reference's @main writes none of the argument arrays: each of its operations writes its own result
  buffer, and an argument is no operation's result. So through the window every argument keeps its contents: the
  fold of the window's results, read at an argument, passes every operation by.
-/
import proofs.«173273_j2259152798196_2_alg».proof.Proof.RefArgs

noncomputable section

namespace Cert.ReferenceIdeal.HandRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxRecDepth 16384 in
set_option maxHeartbeats 4000000 in
theorem part0_keeps (V : Valuation τ sig (Elt F)) {r : Ref sig .tc} (hr : r ∈ argRefs) :
    after ops_part0 V (Proc.devRef .tc r) = V (Proc.devRef .tc r) := by
  simp only [argRefs, List.mem_cons, List.mem_nil_iff, or_false] at hr
  rcases hr with rfl | rfl | rfl | rfl | rfl | rfl | rfl | rfl | rfl | rfl | rfl | rfl | rfl <;>
  · simp only [ops_part0]
    after_results_simp

end Cert.ReferenceIdeal.HandRun

end
-- ==== Proof.RefKeep1.lean ====
/-
  Window 1 of the reference's @main writes none of the argument arrays: each of its operations writes its own result
  buffer, and an argument is no operation's result. So through the window every argument keeps its contents: the
  fold of the window's results, read at an argument, passes every operation by.
-/
import proofs.«173273_j2259152798196_2_alg».proof.Proof.RefArgs

noncomputable section

namespace Cert.ReferenceIdeal.HandRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxRecDepth 16384 in
set_option maxHeartbeats 4000000 in
theorem part1_keeps (V : Valuation τ sig (Elt F)) {r : Ref sig .tc} (hr : r ∈ argRefs) :
    after ops_part1 V (Proc.devRef .tc r) = V (Proc.devRef .tc r) := by
  simp only [argRefs, List.mem_cons, List.mem_nil_iff, or_false] at hr
  rcases hr with rfl | rfl | rfl | rfl | rfl | rfl | rfl | rfl | rfl | rfl | rfl | rfl | rfl <;>
  · simp only [ops_part1]
    after_results_simp

end Cert.ReferenceIdeal.HandRun

end
-- ==== Proof.RefKeep2.lean ====
/-
  Window 2 of the reference's @main writes none of the argument arrays: each of its operations writes its own result
  buffer, and an argument is no operation's result. So through the window every argument keeps its contents: the
  fold of the window's results, read at an argument, passes every operation by.
-/
import proofs.«173273_j2259152798196_2_alg».proof.Proof.RefArgs

noncomputable section

namespace Cert.ReferenceIdeal.HandRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxRecDepth 16384 in
set_option maxHeartbeats 4000000 in
theorem part2_keeps (V : Valuation τ sig (Elt F)) {r : Ref sig .tc} (hr : r ∈ argRefs) :
    after ops_part2 V (Proc.devRef .tc r) = V (Proc.devRef .tc r) := by
  simp only [argRefs, List.mem_cons, List.mem_nil_iff, or_false] at hr
  rcases hr with rfl | rfl | rfl | rfl | rfl | rfl | rfl | rfl | rfl | rfl | rfl | rfl | rfl <;>
  · simp only [ops_part2]
    after_results_simp

end Cert.ReferenceIdeal.HandRun

end
-- ==== Proof.RefKeep3.lean ====
/-
  Window 3 of the reference's @main writes none of the argument arrays: each of its operations writes its own result
  buffer, and an argument is no operation's result. So through the window every argument keeps its contents: the
  fold of the window's results, read at an argument, passes every operation by.
-/
import proofs.«173273_j2259152798196_2_alg».proof.Proof.RefArgs

noncomputable section

namespace Cert.ReferenceIdeal.HandRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxRecDepth 16384 in
set_option maxHeartbeats 4000000 in
theorem part3_keeps (V : Valuation τ sig (Elt F)) {r : Ref sig .tc} (hr : r ∈ argRefs) :
    after ops_part3 V (Proc.devRef .tc r) = V (Proc.devRef .tc r) := by
  simp only [argRefs, List.mem_cons, List.mem_nil_iff, or_false] at hr
  rcases hr with rfl | rfl | rfl | rfl | rfl | rfl | rfl | rfl | rfl | rfl | rfl | rfl | rfl <;>
  · simp only [ops_part3]
    after_results_simp

end Cert.ReferenceIdeal.HandRun

end
-- ==== Proof.RefKeep.lean ====
/-
  Through the whole of the reference's @main every argument array keeps its launch contents: the four windows one
  after the other, none of which writes an argument.
-/
import proofs.«173273_j2259152798196_2_alg».proof.Proof.RefKeep0
import proofs.«173273_j2259152798196_2_alg».proof.Proof.RefKeep1
import proofs.«173273_j2259152798196_2_alg».proof.Proof.RefKeep2
import proofs.«173273_j2259152798196_2_alg».proof.Proof.RefKeep3

noncomputable section

namespace Cert.ReferenceIdeal.HandRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The fold of a concatenation is the fold of the second list over the fold of the first. -/
theorem after_append' {τ : Topo} {sig : RefSig} {Val : EltTy → Type}
    (l₁ l₂ : List (HloOp τ sig Val)) (V : Valuation τ sig Val) : after (l₁ ++ l₂) V = after l₂ (after l₁ V) := by
  induction l₁ generalizing V with
  | nil => rfl
  | cons op l ih => exact ih (op.result V)

/-- An argument array is as launched after the whole line. -/
theorem ops_keeps (V : Valuation τ sig (Elt F)) {r : Ref sig .tc} (hr : r ∈ argRefs) :
    after ops V (Proc.devRef .tc r) = V (Proc.devRef .tc r) := by
  unfold ops
  rw [after_append', after_append', after_append', part3_keeps _ hr, part2_keeps _ hr, part1_keeps _ hr, part0_keeps _ hr]

end Cert.ReferenceIdeal.HandRun

end
-- ==== Proof.KernelFold.lean ====
/-
  The tiled program's buffers from one segment boundary to the next. Its @main is sixteen segments: a stretch of host
  operations, then a kernel region, eight times. A host stretch changes only the buffers its operations write (each
  operation writes its own result buffer); a region changes only the arrays of its OUTPUT windows (an input window's
  array is read through its blocks and left as it was; any other buffer is not touched). So a buffer keeps its
  contents across every segment that does not produce it, and the contents at the last boundary are the contents at
  the boundary where the buffer was produced.
-/
import proofs.«173273_j2259152798196_2_alg».proof.Proof.Gen.KernelIdeal.Frame
import Idealize.ShloMosaic.Lib.StableHlo.Run

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## Host stretch 0 -/

/-- The buffers host stretch 0 writes, in order. -/
abbrev written0 : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25, main_v26, main_v27, main_v28, main_v29, main_v30, main_v31]

theorem hostOps0_writes : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 0 does not write is the same before and after it. -/
theorem host0_keep (c : Dev nD) {b : Ref sig .tc} (hb : b ∉ written0) :
    W1 m ρ c (Proc.devRef .tc b) = W0 m ρ c (Proc.devRef .tc b) :=
  StableHlo.after_of_writes_sub hostOps0 _ hostOps0_writes hb

/-! ## Region 0 -/

/-- The arrays of region 0's output windows. -/
abbrev outs0 : List (Ref sig .tc) := [main_v32_0, main_v32_1, main_v32_2]

/-- A buffer that is not one of region 0's output arrays is the same before and after it: an input window's array
    is left as entered, a buffer of no window is not touched. -/
theorem reg0_keep (c : Dev nD) {b : Ref sig .tc} (hb : b ∉ outs0) :
    W2 m ρ c (Proc.devRef .tc b) = W1 m ρ c (Proc.devRef .tc b) := by
  by_cases h : ∃ w, Pipeline.arrRef spec0 w = b
  swap
  · exact W2_of_ne m ρ c b fun w e => h ⟨w, e⟩
  · obtain ⟨w, rfl⟩ := h
    revert hb
    revert w
    intro (w : Fin 8) hb
    match w with
    | 0 => exact (W2_arr m ρ c 0).trans (((dat0 (V1 m ρ) c).arrAt_in 0 rfl _).trans (A_eq0 (V1 m ρ) c 0))
    | 1 => exact (W2_arr m ρ c 1).trans (((dat0 (V1 m ρ) c).arrAt_in 1 rfl _).trans (A_eq0 (V1 m ρ) c 1))
    | 2 => exact (W2_arr m ρ c 2).trans (((dat0 (V1 m ρ) c).arrAt_in 2 rfl _).trans (A_eq0 (V1 m ρ) c 2))
    | 3 => exact (W2_arr m ρ c 3).trans (((dat0 (V1 m ρ) c).arrAt_in 3 rfl _).trans (A_eq0 (V1 m ρ) c 3))
    | 4 => exact (W2_arr m ρ c 4).trans (((dat0 (V1 m ρ) c).arrAt_in 4 rfl _).trans (A_eq0 (V1 m ρ) c 4))
    | 5 => exact absurd (by decide) hb
    | 6 => exact absurd (by decide) hb
    | 7 => exact absurd (by decide) hb

/-! ## Host stretch 1 -/

/-- The buffers host stretch 1 writes, in order. -/
abbrev written1 : List (Ref sig .tc) := [main_cst_5, main_v33, main_cst_6, main_v34, main_v35, main_cst_7, main_v36, main_cst_8, main_v37, main_v38, main_v39, main_v40, main_cst_9, main_v41, main_v42, main_v43, main_v44, main_v45, main_v46, main_v47, main_v48, main_v49, main_v50]

theorem hostOps1_writes : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 1 does not write is the same before and after it. -/
theorem host1_keep (c : Dev nD) {b : Ref sig .tc} (hb : b ∉ written1) :
    W3 m ρ c (Proc.devRef .tc b) = W2 m ρ c (Proc.devRef .tc b) :=
  StableHlo.after_of_writes_sub hostOps1 _ hostOps1_writes hb

/-! ## Region 1 -/

/-- The arrays of region 1's output windows. -/
abbrev outs1 : List (Ref sig .tc) := [main_v51]

/-- A buffer that is not one of region 1's output arrays is the same before and after it: an input window's array
    is left as entered, a buffer of no window is not touched. -/
theorem reg1_keep (c : Dev nD) {b : Ref sig .tc} (hb : b ∉ outs1) :
    W4 m ρ c (Proc.devRef .tc b) = W3 m ρ c (Proc.devRef .tc b) := by
  by_cases h : ∃ w, Pipeline.arrRef spec1 w = b
  swap
  · exact W4_of_ne m ρ c b fun w e => h ⟨w, e⟩
  · obtain ⟨w, rfl⟩ := h
    revert hb
    revert w
    intro (w : Fin 6) hb
    match w with
    | 0 => exact (W4_arr m ρ c 0).trans (((dat1 (V3 m ρ) c).arrAt_in 0 rfl _).trans (A_eq1 (V3 m ρ) c 0))
    | 1 => exact (W4_arr m ρ c 1).trans (((dat1 (V3 m ρ) c).arrAt_in 1 rfl _).trans (A_eq1 (V3 m ρ) c 1))
    | 2 => exact (W4_arr m ρ c 2).trans (((dat1 (V3 m ρ) c).arrAt_in 2 rfl _).trans (A_eq1 (V3 m ρ) c 2))
    | 3 => exact (W4_arr m ρ c 3).trans (((dat1 (V3 m ρ) c).arrAt_in 3 rfl _).trans (A_eq1 (V3 m ρ) c 3))
    | 4 => exact (W4_arr m ρ c 4).trans (((dat1 (V3 m ρ) c).arrAt_in 4 rfl _).trans (A_eq1 (V3 m ρ) c 4))
    | 5 => exact absurd (by decide) hb

/-! ## Host stretch 2 -/

/-- The buffers host stretch 2 writes, in order. -/
abbrev written2 : List (Ref sig .tc) := [main_c_10, main_v52, main_v53, main_c_11, main_v54, main_v55, main_v56, main_v57, main_v58, main_cst_12, main_v59, main_v60, main_v61, main_v62, main_v63, main_v64, main_v65, main_v66, main_v67, main_v68, main_v69, main_v70]

theorem hostOps2_writes : (hostOps2 : List (HloOp τ sig (Elt F))).Forall fun op =>
    op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 2 does not write is the same before and after it. -/
theorem host2_keep (c : Dev nD) {b : Ref sig .tc} (hb : b ∉ written2) :
    W5 m ρ c (Proc.devRef .tc b) = W4 m ρ c (Proc.devRef .tc b) :=
  StableHlo.after_of_writes_sub hostOps2 _ hostOps2_writes hb

/-! ## Region 2 -/

/-- The arrays of region 2's output windows. -/
abbrev outs2 : List (Ref sig .tc) := [main_v71_0, main_v71_1, main_v71_2]

/-- A buffer that is not one of region 2's output arrays is the same before and after it: an input window's array
    is left as entered, a buffer of no window is not touched. -/
theorem reg2_keep (c : Dev nD) {b : Ref sig .tc} (hb : b ∉ outs2) :
    W6 m ρ c (Proc.devRef .tc b) = W5 m ρ c (Proc.devRef .tc b) := by
  by_cases h : ∃ w, Pipeline.arrRef spec2 w = b
  swap
  · exact W6_of_ne m ρ c b fun w e => h ⟨w, e⟩
  · obtain ⟨w, rfl⟩ := h
    revert hb
    revert w
    intro (w : Fin 8) hb
    match w with
    | 0 => exact (W6_arr m ρ c 0).trans (((dat2 (V5 m ρ) c).arrAt_in 0 rfl _).trans (A_eq2 (V5 m ρ) c 0))
    | 1 => exact (W6_arr m ρ c 1).trans (((dat2 (V5 m ρ) c).arrAt_in 1 rfl _).trans (A_eq2 (V5 m ρ) c 1))
    | 2 => exact (W6_arr m ρ c 2).trans (((dat2 (V5 m ρ) c).arrAt_in 2 rfl _).trans (A_eq2 (V5 m ρ) c 2))
    | 3 => exact (W6_arr m ρ c 3).trans (((dat2 (V5 m ρ) c).arrAt_in 3 rfl _).trans (A_eq2 (V5 m ρ) c 3))
    | 4 => exact (W6_arr m ρ c 4).trans (((dat2 (V5 m ρ) c).arrAt_in 4 rfl _).trans (A_eq2 (V5 m ρ) c 4))
    | 5 => exact absurd (by decide) hb
    | 6 => exact absurd (by decide) hb
    | 7 => exact absurd (by decide) hb

/-! ## Host stretch 3 -/

/-- The buffers host stretch 3 writes, in order. -/
abbrev written3 : List (Ref sig .tc) := [main_cst_13, main_v72, main_cst_14, main_v73, main_v74, main_cst_15, main_v75, main_cst_16, main_v76, main_v77, main_v78, main_v79, main_cst_17, main_v80, main_v81, main_v82, main_v83, main_v84, main_v85, main_v86, main_v87, main_v88, main_v89]

theorem hostOps3_writes : (hostOps3 : List (HloOp τ sig (Elt F))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 3 does not write is the same before and after it. -/
theorem host3_keep (c : Dev nD) {b : Ref sig .tc} (hb : b ∉ written3) :
    W7 m ρ c (Proc.devRef .tc b) = W6 m ρ c (Proc.devRef .tc b) :=
  StableHlo.after_of_writes_sub hostOps3 _ hostOps3_writes hb

/-! ## Region 3 -/

/-- The arrays of region 3's output windows. -/
abbrev outs3 : List (Ref sig .tc) := [main_v90]

/-- A buffer that is not one of region 3's output arrays is the same before and after it: an input window's array
    is left as entered, a buffer of no window is not touched. -/
theorem reg3_keep (c : Dev nD) {b : Ref sig .tc} (hb : b ∉ outs3) :
    W8 m ρ c (Proc.devRef .tc b) = W7 m ρ c (Proc.devRef .tc b) := by
  by_cases h : ∃ w, Pipeline.arrRef spec3 w = b
  swap
  · exact W8_of_ne m ρ c b fun w e => h ⟨w, e⟩
  · obtain ⟨w, rfl⟩ := h
    revert hb
    revert w
    intro (w : Fin 6) hb
    match w with
    | 0 => exact (W8_arr m ρ c 0).trans (((dat3 (V7 m ρ) c).arrAt_in 0 rfl _).trans (A_eq3 (V7 m ρ) c 0))
    | 1 => exact (W8_arr m ρ c 1).trans (((dat3 (V7 m ρ) c).arrAt_in 1 rfl _).trans (A_eq3 (V7 m ρ) c 1))
    | 2 => exact (W8_arr m ρ c 2).trans (((dat3 (V7 m ρ) c).arrAt_in 2 rfl _).trans (A_eq3 (V7 m ρ) c 2))
    | 3 => exact (W8_arr m ρ c 3).trans (((dat3 (V7 m ρ) c).arrAt_in 3 rfl _).trans (A_eq3 (V7 m ρ) c 3))
    | 4 => exact (W8_arr m ρ c 4).trans (((dat3 (V7 m ρ) c).arrAt_in 4 rfl _).trans (A_eq3 (V7 m ρ) c 4))
    | 5 => exact absurd (by decide) hb

/-! ## Host stretch 4 -/

/-- The buffers host stretch 4 writes, in order. -/
abbrev written4 : List (Ref sig .tc) := [main_c_18, main_v91, main_v92, main_c_19, main_v93, main_v94, main_v95, main_v96, main_v97, main_cst_20, main_v98, main_v99, main_v100, main_v101, main_v102, main_v103, main_v104, main_v105, main_v106, main_v107, main_v108, main_v109]

theorem hostOps4_writes : (hostOps4 : List (HloOp τ sig (Elt F))).Forall fun op =>
    op.writes ⊆ (written4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 4 does not write is the same before and after it. -/
theorem host4_keep (c : Dev nD) {b : Ref sig .tc} (hb : b ∉ written4) :
    W9 m ρ c (Proc.devRef .tc b) = W8 m ρ c (Proc.devRef .tc b) :=
  StableHlo.after_of_writes_sub hostOps4 _ hostOps4_writes hb

/-! ## Region 4 -/

/-- The arrays of region 4's output windows. -/
abbrev outs4 : List (Ref sig .tc) := [main_v110_0, main_v110_1, main_v110_2]

/-- A buffer that is not one of region 4's output arrays is the same before and after it: an input window's array
    is left as entered, a buffer of no window is not touched. -/
theorem reg4_keep (c : Dev nD) {b : Ref sig .tc} (hb : b ∉ outs4) :
    W10 m ρ c (Proc.devRef .tc b) = W9 m ρ c (Proc.devRef .tc b) := by
  by_cases h : ∃ w, Pipeline.arrRef spec4 w = b
  swap
  · exact W10_of_ne m ρ c b fun w e => h ⟨w, e⟩
  · obtain ⟨w, rfl⟩ := h
    revert hb
    revert w
    intro (w : Fin 8) hb
    match w with
    | 0 => exact (W10_arr m ρ c 0).trans (((dat4 (V9 m ρ) c).arrAt_in 0 rfl _).trans (A_eq4 (V9 m ρ) c 0))
    | 1 => exact (W10_arr m ρ c 1).trans (((dat4 (V9 m ρ) c).arrAt_in 1 rfl _).trans (A_eq4 (V9 m ρ) c 1))
    | 2 => exact (W10_arr m ρ c 2).trans (((dat4 (V9 m ρ) c).arrAt_in 2 rfl _).trans (A_eq4 (V9 m ρ) c 2))
    | 3 => exact (W10_arr m ρ c 3).trans (((dat4 (V9 m ρ) c).arrAt_in 3 rfl _).trans (A_eq4 (V9 m ρ) c 3))
    | 4 => exact (W10_arr m ρ c 4).trans (((dat4 (V9 m ρ) c).arrAt_in 4 rfl _).trans (A_eq4 (V9 m ρ) c 4))
    | 5 => exact absurd (by decide) hb
    | 6 => exact absurd (by decide) hb
    | 7 => exact absurd (by decide) hb

/-! ## Host stretch 5 -/

/-- The buffers host stretch 5 writes, in order. -/
abbrev written5 : List (Ref sig .tc) := [main_cst_21, main_v111, main_cst_22, main_v112, main_v113, main_cst_23, main_v114, main_cst_24, main_v115, main_v116, main_v117, main_v118, main_cst_25, main_v119, main_v120, main_v121, main_v122, main_v123, main_v124, main_v125, main_v126, main_v127, main_v128]

theorem hostOps5_writes : (hostOps5 : List (HloOp τ sig (Elt F))).Forall fun op =>
    op.writes ⊆ (written5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 5 does not write is the same before and after it. -/
theorem host5_keep (c : Dev nD) {b : Ref sig .tc} (hb : b ∉ written5) :
    W11 m ρ c (Proc.devRef .tc b) = W10 m ρ c (Proc.devRef .tc b) :=
  StableHlo.after_of_writes_sub hostOps5 _ hostOps5_writes hb

/-! ## Region 5 -/

/-- The arrays of region 5's output windows. -/
abbrev outs5 : List (Ref sig .tc) := [main_v129]

/-- A buffer that is not one of region 5's output arrays is the same before and after it: an input window's array
    is left as entered, a buffer of no window is not touched. -/
theorem reg5_keep (c : Dev nD) {b : Ref sig .tc} (hb : b ∉ outs5) :
    W12 m ρ c (Proc.devRef .tc b) = W11 m ρ c (Proc.devRef .tc b) := by
  by_cases h : ∃ w, Pipeline.arrRef spec5 w = b
  swap
  · exact W12_of_ne m ρ c b fun w e => h ⟨w, e⟩
  · obtain ⟨w, rfl⟩ := h
    revert hb
    revert w
    intro (w : Fin 6) hb
    match w with
    | 0 => exact (W12_arr m ρ c 0).trans (((dat5 (V11 m ρ) c).arrAt_in 0 rfl _).trans (A_eq5 (V11 m ρ) c 0))
    | 1 => exact (W12_arr m ρ c 1).trans (((dat5 (V11 m ρ) c).arrAt_in 1 rfl _).trans (A_eq5 (V11 m ρ) c 1))
    | 2 => exact (W12_arr m ρ c 2).trans (((dat5 (V11 m ρ) c).arrAt_in 2 rfl _).trans (A_eq5 (V11 m ρ) c 2))
    | 3 => exact (W12_arr m ρ c 3).trans (((dat5 (V11 m ρ) c).arrAt_in 3 rfl _).trans (A_eq5 (V11 m ρ) c 3))
    | 4 => exact (W12_arr m ρ c 4).trans (((dat5 (V11 m ρ) c).arrAt_in 4 rfl _).trans (A_eq5 (V11 m ρ) c 4))
    | 5 => exact absurd (by decide) hb

/-! ## Host stretch 6 -/

/-- The buffers host stretch 6 writes, in order. -/
abbrev written6 : List (Ref sig .tc) := [main_v130, main_v131, main_v132, main_v133, main_v134]

theorem hostOps6_writes : (hostOps6 : List (HloOp τ sig (Elt F))).Forall fun op =>
    op.writes ⊆ (written6.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 6 does not write is the same before and after it. -/
theorem host6_keep (c : Dev nD) {b : Ref sig .tc} (hb : b ∉ written6) :
    W13 m ρ c (Proc.devRef .tc b) = W12 m ρ c (Proc.devRef .tc b) :=
  StableHlo.after_of_writes_sub hostOps6 _ hostOps6_writes hb

/-! ## Region 6 -/

/-- The arrays of region 6's output windows. -/
abbrev outs6 : List (Ref sig .tc) := [main_v135_0, main_v135_1, main_v135_2]

/-- A buffer that is not one of region 6's output arrays is the same before and after it: an input window's array
    is left as entered, a buffer of no window is not touched. -/
theorem reg6_keep (c : Dev nD) {b : Ref sig .tc} (hb : b ∉ outs6) :
    W14 m ρ c (Proc.devRef .tc b) = W13 m ρ c (Proc.devRef .tc b) := by
  by_cases h : ∃ w, Pipeline.arrRef spec6 w = b
  swap
  · exact W14_of_ne m ρ c b fun w e => h ⟨w, e⟩
  · obtain ⟨w, rfl⟩ := h
    revert hb
    revert w
    intro (w : Fin 12) hb
    match w with
    | 0 => exact (W14_arr m ρ c 0).trans (((dat6 (V13 m ρ) c).arrAt_in 0 rfl _).trans (A_eq6 (V13 m ρ) c 0))
    | 1 => exact (W14_arr m ρ c 1).trans (((dat6 (V13 m ρ) c).arrAt_in 1 rfl _).trans (A_eq6 (V13 m ρ) c 1))
    | 2 => exact (W14_arr m ρ c 2).trans (((dat6 (V13 m ρ) c).arrAt_in 2 rfl _).trans (A_eq6 (V13 m ρ) c 2))
    | 3 => exact (W14_arr m ρ c 3).trans (((dat6 (V13 m ρ) c).arrAt_in 3 rfl _).trans (A_eq6 (V13 m ρ) c 3))
    | 4 => exact (W14_arr m ρ c 4).trans (((dat6 (V13 m ρ) c).arrAt_in 4 rfl _).trans (A_eq6 (V13 m ρ) c 4))
    | 5 => exact (W14_arr m ρ c 5).trans (((dat6 (V13 m ρ) c).arrAt_in 5 rfl _).trans (A_eq6 (V13 m ρ) c 5))
    | 6 => exact (W14_arr m ρ c 6).trans (((dat6 (V13 m ρ) c).arrAt_in 6 rfl _).trans (A_eq6 (V13 m ρ) c 6))
    | 7 => exact (W14_arr m ρ c 7).trans (((dat6 (V13 m ρ) c).arrAt_in 7 rfl _).trans (A_eq6 (V13 m ρ) c 7))
    | 8 => exact (W14_arr m ρ c 8).trans (((dat6 (V13 m ρ) c).arrAt_in 8 rfl _).trans (A_eq6 (V13 m ρ) c 8))
    | 9 => exact absurd (by decide) hb
    | 10 => exact absurd (by decide) hb
    | 11 => exact absurd (by decide) hb

/-! ## Host stretch 7 -/

/-- The buffers host stretch 7 writes, in order. -/
abbrev written7 : List (Ref sig .tc) := [main_cst_26, main_v136, main_cst_27, main_v137, main_v138, main_cst_28, main_v139, main_cst_29, main_v140, main_v141, main_v142, main_v143, main_cst_30, main_v144, main_v145, main_v146, main_v147, main_v148, main_v149, main_v150]

theorem hostOps7_writes : (hostOps7 : List (HloOp τ sig (Elt F))).Forall fun op =>
    op.writes ⊆ (written7.map (Proc.devRef (τ := τ) .tc)).toFinset := by
  simp only [hostOps7, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer host stretch 7 does not write is the same before and after it. -/
theorem host7_keep (c : Dev nD) {b : Ref sig .tc} (hb : b ∉ written7) :
    W15 m ρ c (Proc.devRef .tc b) = W14 m ρ c (Proc.devRef .tc b) :=
  StableHlo.after_of_writes_sub hostOps7 _ hostOps7_writes hb

/-! ## Region 7 -/

/-- The arrays of region 7's output windows. -/
abbrev outs7 : List (Ref sig .tc) := [main_v151]

/-- A buffer that is not one of region 7's output arrays is the same before and after it: an input window's array
    is left as entered, a buffer of no window is not touched. -/
theorem reg7_keep (c : Dev nD) {b : Ref sig .tc} (hb : b ∉ outs7) :
    W16 m ρ c (Proc.devRef .tc b) = W15 m ρ c (Proc.devRef .tc b) := by
  by_cases h : ∃ w, Pipeline.arrRef spec7 w = b
  swap
  · exact W16_of_ne m ρ c b fun w e => h ⟨w, e⟩
  · obtain ⟨w, rfl⟩ := h
    revert hb
    revert w
    intro (w : Fin 8) hb
    match w with
    | 0 => exact (W16_arr m ρ c 0).trans (((dat7 (V15 m ρ) c).arrAt_in 0 rfl _).trans (A_eq7 (V15 m ρ) c 0))
    | 1 => exact (W16_arr m ρ c 1).trans (((dat7 (V15 m ρ) c).arrAt_in 1 rfl _).trans (A_eq7 (V15 m ρ) c 1))
    | 2 => exact (W16_arr m ρ c 2).trans (((dat7 (V15 m ρ) c).arrAt_in 2 rfl _).trans (A_eq7 (V15 m ρ) c 2))
    | 3 => exact (W16_arr m ρ c 3).trans (((dat7 (V15 m ρ) c).arrAt_in 3 rfl _).trans (A_eq7 (V15 m ρ) c 3))
    | 4 => exact (W16_arr m ρ c 4).trans (((dat7 (V15 m ρ) c).arrAt_in 4 rfl _).trans (A_eq7 (V15 m ρ) c 4))
    | 5 => exact (W16_arr m ρ c 5).trans (((dat7 (V15 m ρ) c).arrAt_in 5 rfl _).trans (A_eq7 (V15 m ρ) c 5))
    | 6 => exact (W16_arr m ρ c 6).trans (((dat7 (V15 m ρ) c).arrAt_in 6 rfl _).trans (A_eq7 (V15 m ρ) c 6))
    | 7 => exact absurd (by decide) hb

end Cert.KernelIdeal.Fold

end
-- ==== Proof.Spec.lean ====
/-
  The stages of the network as functions of whole arrays, index by index, over the extended reals - the common
  vocabulary in which the tiled program's regions and the reference's operations are read.

  Arrays are functions on literal index types: nodes by features (100000 x 128), weights (128 x 128), feature rows
  (1 x 128), per-block partial sums (B x 1 x 128). A linear stage contracts a row of nodes' features with a column
  of weights. A block's partial sum adds a feature over the block's consecutive nodes (block b of R nodes holds
  nodes b * R ... b * R + R - 1). The normalisation stage acts entry by entry, on entry (i, q) with the four
  feature rows at q.
-/
import Idealize.ShloMosaic.PureOps.Ideal
import Idealize.ShloMosaic.Lib.ValueIdx

noncomputable section

namespace Cert.Spec

open Idealize.ShloMosaic Idealize.ShloMosaic.ValueIdx

/-- The first coordinate of a rank-2 index, at its literal extent. -/
def rowOf {a b : Nat} (i : (⟨2, ![a, b]⟩ : Shape).Idx) : Fin a := ⟨(i 0).val, idx2_lt0 i⟩
/-- The second coordinate of a rank-2 index, at its literal extent. -/
def colOf {a b : Nat} (i : (⟨2, ![a, b]⟩ : Shape).Idx) : Fin b := ⟨(i 1).val, idx2_lt1 i⟩

theorem rowOf_ix2 {a b : Nat} (p : Fin a) (q : Fin b) : rowOf (ix2 p q) = p := rfl
theorem colOf_ix2 {a b : Nat} (p : Fin a) (q : Fin b) : colOf (ix2 p q) = q := rfl

/-- An array of M rows by K columns times one of K rows by C columns: entry (i, j) is the sum over k of
    x (i, k) * w (k, j). -/
def mm {M K C : Nat} (x : (⟨2, ![M, K]⟩ : Shape).Idx → EReal) (w : (⟨2, ![K, C]⟩ : Shape).Idx → EReal) :
    (⟨2, ![M, C]⟩ : Shape).Idx → EReal :=
  fun i => ∑ k : Fin K, x (ix2 (rowOf i) k) * w (ix2 k (colOf i))

/-- A feature row added to every node's row. -/
def addRow {M C : Nat} (x : (⟨2, ![M, C]⟩ : Shape).Idx → EReal) (b : (⟨2, ![1, C]⟩ : Shape).Idx → EReal) :
    (⟨2, ![M, C]⟩ : Shape).Idx → EReal :=
  fun i => x i + b (ix2 0 (colOf i))

/-- A layer's linear stage: the aggregated features through one weight matrix, the bias row, the node's own
    features through the other, added in that order. -/
def linear (agg h : (⟨2, ![100000, 128]⟩ : Shape).Idx → EReal) (wl : (⟨2, ![128, 128]⟩ : Shape).Idx → EReal)
    (bl : (⟨2, ![1, 128]⟩ : Shape).Idx → EReal) (wr : (⟨2, ![128, 128]⟩ : Shape).Idx → EReal) :
    (⟨2, ![100000, 128]⟩ : Shape).Idx → EReal :=
  fun i => mm agg wl i + bl (ix2 0 (colOf i)) + mm h wr i

/-- The head's linear stage: the four feature blocks through their four weight matrices, then the bias row. -/
def headLinear (x h1 h2 h3 : (⟨2, ![100000, 128]⟩ : Shape).Idx → EReal)
    (w0 w1 w2 w3 : (⟨2, ![128, 128]⟩ : Shape).Idx → EReal) (b : (⟨2, ![1, 128]⟩ : Shape).Idx → EReal) :
    (⟨2, ![100000, 128]⟩ : Shape).Idx → EReal :=
  fun i => mm x w0 i + mm h1 w1 i + mm h2 w2 i + mm h3 w3 i + b (ix2 0 (colOf i))

/-- Per-block column sums: entry (b, 0, q) adds feature q over the R nodes of block b (B * R = 100000 nodes). -/
def partSums (B R : Nat) (hBR : B * R = 100000) (x : (⟨2, ![100000, 128]⟩ : Shape).Idx → EReal) :
    (⟨3, ![B, 1, 128]⟩ : Shape).Idx → EReal :=
  fun j => ∑ r : Fin R, x (ix2 ⟨(j 0).val * R + r.val, by
      have hb : (j 0).val < B := (j 0).isLt
      have hr : r.val < R := r.isLt
      calc (j 0).val * R + r.val < (j 0).val * R + R := by omega
        _ = ((j 0).val + 1) * R := by ring
        _ ≤ B * R := Nat.mul_le_mul_right R hb
        _ = 100000 := hBR⟩ ⟨(j 2).val, (j 2).isLt⟩)

/-- The square of every entry. -/
def sq {S : Shape} (x : S.Idx → EReal) : S.Idx → EReal := fun i => x i * x i

/-- One entry normalised, scaled and shifted: (x - mean) * rsqrt (var + eps) * scale + shift, eps the float 1e-5. -/
def nrm (x μ v γ β : EReal) : EReal := (x - μ) * Ideal.rsqrt (v + Ideal.ofBits .f32 0x3727C5AC#32) * γ + β

/-- The normalise-and-rectify stage of a layer. -/
def normRelu (lin : (⟨2, ![100000, 128]⟩ : Shape).Idx → EReal) (mean var gam bet : (⟨2, ![1, 128]⟩ : Shape).Idx → EReal) :
    (⟨2, ![100000, 128]⟩ : Shape).Idx → EReal :=
  fun i => max (nrm (lin i) (mean (ix2 0 (colOf i))) (var (ix2 0 (colOf i))) (gam (ix2 0 (colOf i))) (bet (ix2 0 (colOf i))))
    (Ideal.ofBits .f32 0x00000000#32)

/-- The head's activation as the tiled program spells it: y where y > 0, else the slope 0.01 (as a float) times y. -/
def leakyGt (y : EReal) : EReal :=
  Scalar.select (Ideal.cmp .ogt y (Ideal.ofBits .f32 0x00000000#32)) y (Ideal.ofBits .f32 0x3C23D70A#32 * y)

/-- The head's normalise, activate and project stage: entry (i, j) contracts the activated normalised row of node i
    with column j of the last weight matrix, and adds the last bias. -/
def normLeakyOut (lin : (⟨2, ![100000, 128]⟩ : Shape).Idx → EReal) (mean var gam bet : (⟨2, ![1, 128]⟩ : Shape).Idx → EReal)
    (w : (⟨2, ![128, 64]⟩ : Shape).Idx → EReal) (b : (⟨2, ![1, 64]⟩ : Shape).Idx → EReal) :
    (⟨2, ![100000, 64]⟩ : Shape).Idx → EReal :=
  fun i => (∑ k : Fin 128, leakyGt (nrm (lin (ix2 (rowOf i) k)) (mean (ix2 0 k)) (var (ix2 0 k)) (gam (ix2 0 k)) (bet (ix2 0 k)))
      * w (ix2 k (colOf i))) + b (ix2 0 (colOf i))

end Cert.Spec

end
-- ==== Proof.Region0.lean ====
/-
  Region 0 of the tiled program: the linear stage of a layer. Each of its ten grid points stages a block of 10000
  nodes of the aggregated features and of the nodes' own features (all 128 features), the two whole 128 x 128 weight
  matrices and the bias row, and writes back three things: the block of (aggregated block * left weights + bias row)
  + own block * right weights; the column sums of that block; and the column sums of its entrywise square. A matrix
  product accumulated into zero is, entry by entry, a finite sum of products; a lane sum over the node axis is a finite
  sum. The node blocks tile the node axis and the per-block rows tile the block axis, so after the region the first
  result is the linear stage of the whole arrays, and the other two are its per-block column sums and those of its square.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region0
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A block of rows times a weight matrix, accumulated into zero, at entry (p, q): the sum over k of x (p, k) * w (k, q). -/
theorem mm_apply (x : FVec Ideal S10000x128 .f32) (w : FVec Ideal S128x128 .f32) (p : Fin 10000) (q : Fin 128) :
    matmul (F := Ideal) dot_S10000x128_S128x128_S10000x128_1_0_0_1_n_n none x w (constant S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs0 _ _
    | ⟨1, _⟩ => exact (lhs1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs0 _ _).trans hk
    | ⟨1, _⟩ => exact rhs1 _ _)
  rw [el, er]

theorem pay1_apply (x0 : Vec Ideal S10000x128 .f32) (x2 : Vec Ideal S128x128 .f32) (x5 : Vec Ideal S1x128 .f32)
    (x9 : Vec Ideal S10000x128 .f32) (x10 : Vec Ideal S128x128 .f32) (p : Fin 10000) (q : Fin 128) :
    k0_pay1 (F := Ideal) x0 x2 x5 x9 x10 (ix2 p q)
      = (∑ k : Fin 128, x0 (ix2 p k) * x2 (ix2 k q)) + x5 (ix2 0 q) + ∑ k : Fin 128, x9 (ix2 p k) * x10 (ix2 k q) := by
  unfold k0_pay1
  simp only [shapeCast_self]
  have hb : ∀ v : Vec Ideal S1x128 .f32, broadcastTo S10000x128 v broadcasts_S1x128_S10000x128 (ix2 p q) = v (ix2 0 q) := fun v =>
    broadcastTo_apply v _ (ix2 p q) (ix2 0 q) (by intro a; match a with | ⟨0, _⟩ => rfl | ⟨1, _⟩ => rfl)
  show (matmul (F := Ideal) dot_S10000x128_S128x128_S10000x128_1_0_0_1_n_n none x0 x2 (constant S10000x128 .f32 0x00000000#32) (ix2 p q)
      + broadcastTo S10000x128 x5 broadcasts_S1x128_S10000x128 (ix2 p q))
      + matmul (F := Ideal) dot_S10000x128_S128x128_S10000x128_1_0_0_1_n_n none x9 x10 (constant S10000x128 .f32 0x00000000#32) (ix2 p q) = _
  rw [mm_apply, mm_apply, hb]

/-- The region's first result as one function of the whole arrays it reads. -/
abbrev Lin (c : Dev nD) : S100000x128.Idx → EReal :=
  Cert.Spec.linear (V c main_v24) (V c main_arg0) (V c main_v26) (V c main_v31) (V c main_v30)

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The blocks the point t stages, read where the whole arrays hold them: row p of the node blocks is node
    t * 10000 + p, the weights and the bias row are whole. -/
theorem blk_agg (c : Dev nD) (t : Fin cfg0.N) (p : Fin 10000) (k : Fin 128) (r : Fin 100000) (hr : r.val = t.val * 10000 + p.val) :
    iblk0 V c 0 t (ix2 p k) = V c main_v24 (ix2 r k) := by
  obtain ⟨e00, e01, e10, e11, e20, e21, e30, e31, e40, e41, e50, e51, e60, e61, e62, e70, e71, e72⟩ := idx_facts t
  show V c main_v24 (((cfg0.win 0).blk t).view.emb (ix2 p k)) = _
  refine congrArg _ (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega
theorem blk_h (c : Dev nD) (t : Fin cfg0.N) (p : Fin 10000) (k : Fin 128) (r : Fin 100000) (hr : r.val = t.val * 10000 + p.val) :
    iblk0 V c 1 t (ix2 p k) = V c main_arg0 (ix2 r k) := by
  obtain ⟨e00, e01, e10, e11, e20, e21, e30, e31, e40, e41, e50, e51, e60, e61, e62, e70, e71, e72⟩ := idx_facts t
  show V c main_arg0 (((cfg0.win 1).blk t).view.emb (ix2 p k)) = _
  refine congrArg _ (funext fun a => Fin.ext ?_)
  match a with
  | ⟨0, _⟩ => show win0_1.index t (0 : Fin 2) * 10000 + 1 * p.val = r.val; omega
  | ⟨1, _⟩ => show win0_1.index t (1 : Fin 2) * 128 + 1 * k.val = k.val; omega
theorem blk_wl (c : Dev nD) (t : Fin cfg0.N) (k q : Fin 128) :
    iblk0 V c 2 t (ix2 k q) = V c main_v26 (ix2 k q) := by
  obtain ⟨e00, e01, e10, e11, e20, e21, e30, e31, e40, e41, e50, e51, e60, e61, e62, e70, e71, e72⟩ := idx_facts t
  show V c main_v26 (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega
theorem blk_bias (c : Dev nD) (t : Fin cfg0.N) (q : Fin 128) :
    iblk0 V c 3 t (ix2 0 q) = V c main_v31 (ix2 0 q) := by
  obtain ⟨e00, e01, e10, e11, e20, e21, e30, e31, e40, e41, e50, e51, e60, e61, e62, e70, e71, e72⟩ := idx_facts t
  show V c main_v31 (((cfg0.win 3).blk t).view.emb (ix2 0 q)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega
theorem blk_wr (c : Dev nD) (t : Fin cfg0.N) (k q : Fin 128) :
    iblk0 V c 4 t (ix2 k q) = V c main_v30 (ix2 k q) := by
  obtain ⟨e00, e01, e10, e11, e20, e21, e30, e31, e40, e41, e50, e51, e60, e61, e62, e70, e71, e72⟩ := idx_facts t
  show V c main_v30 (((cfg0.win 4).blk t).view.emb (ix2 k q)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The kernel's first payload on the blocks of point t, at (p, q), is the linear stage at node t * 10000 + p, feature q. -/
theorem linear_ix2 (agg h : S100000x128.Idx → EReal) (wl : S128x128.Idx → EReal) (bl : S1x128.Idx → EReal) (wr : S128x128.Idx → EReal)
    (r : Fin 100000) (q : Fin 128) :
    Cert.Spec.linear agg h wl bl wr (ix2 r q)
      = (∑ k : Fin 128, agg (ix2 r k) * wl (ix2 k q)) + bl (ix2 0 q) + ∑ k : Fin 128, h (ix2 r k) * wr (ix2 k q) := rfl

theorem pay1_blk (c : Dev nD) (t : Fin cfg0.N) (p : Fin 10000) (q : Fin 128) (r : Fin 100000) (hr : r.val = t.val * 10000 + p.val) :
    k0_pay1 (iblk0 V c 0 t) (iblk0 V c 2 t) (iblk0 V c 3 t) (iblk0 V c 1 t) (iblk0 V c 4 t) (ix2 p q) = Lin V c (ix2 r q) := by
  refine (pay1_apply _ _ _ _ _ p q).trans ?_
  refine Eq.trans ?_ (linear_ix2 (V c main_v24) (V c main_arg0) (V c main_v26) (V c main_v31) (V c main_v30) r q).symm
  simp only [blk_agg V c t p _ r hr, blk_wl V c t, blk_bias V c t, blk_h V c t p _ r hr, blk_wr V c t]

theorem flushed5_eq (c : Dev nD) (t : Fin cfg0.N) :
    (dat0 V c).flushed 5 t = ((cfg0.win 5).blk t).view.read (Elt Ideal) (Lin V c) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S1x128) hz2, View.ld_unit_zero (S := S128x128) hz2]
  funext j
  obtain ⟨p, q, rfl⟩ : ∃ (p : Fin 10000) (q : Fin 128), j = ix2 p q := ⟨j 0, j 1, eq_ix2 j⟩
  obtain ⟨e00, e01, e10, e11, e20, e21, e30, e31, e40, e41, e50, e51, e60, e61, e62, e70, e71, e72⟩ := idx_facts t
  have ht : t.val < 10 := lt_of_lt_of_eq t.isLt (show cfg0.N = 10 from N_0)
  show k0_pay1 (iblk0 V c 0 t) (iblk0 V c 2 t) (iblk0 V c 3 t) (iblk0 V c 1 t) (iblk0 V c 4 t) (ix2 p q)
     = Lin V c (((cfg0.win 5).blk t).view.emb (ix2 p q))
  refine (pay1_blk V c t p q ⟨t.val * 10000 + p.val, by omega⟩ rfl).trans ?_
  refine congrArg _ (funext fun a => Fin.ext ?_)
  match a with
  | ⟨0, _⟩ => show t.val * 10000 + p.val = win0_5.index t (0 : Fin 2) * 10000 + 1 * p.val; omega
  | ⟨1, _⟩ => show q.val = win0_5.index t (1 : Fin 2) * 128 + 1 * q.val; omega

theorem mem_blk5 (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v32_0).slice (win0_5.rect t)).set ↔ _
  rw [View.set_slice_whole, Rect.mem_set_unit]
  exact Iff.rfl

theorem cover5 (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  obtain ⟨t, ht⟩ : ∃ t : Fin cfg0.N, t.val = (i 0).val / 10000 :=
    ⟨⟨(i 0).val / 10000, by rw [show cfg0.N = 10 from N_0]; omega⟩, rfl⟩
  refine ⟨t, flush0_5 t, ?_⟩
  rw [mem_blk5]
  obtain ⟨e00, e01, e10, e11, e20, e21, e30, e31, e40, e41, e50, e51, e60, e61, e62, e70, e71, e72⟩ := idx_facts t
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-- After the region its first result array is the layer's linear stage, whole. -/
theorem final5 (c : Dev nD) : (dat0 V c).arrAt 5 cfg0.N
    = Cert.Spec.linear (V c main_v24) (V c main_arg0) (V c main_v26) (V c main_v31) (V c main_v30) :=
  (dat0 V c).arrAt_eq_of_cover 5 _ (fun t _ => flushed5_eq V c t) cover5

theorem hz3 : (![0, 0, 0] : Fin 3 → Nat) = fun _ => 0 := funext fun a => by fin_cases a <;> rfl

/-- The lane sum of a block over its node axis, at feature q: the sum over the block's 10000 rows of the entry (r, q). -/
theorem colsum_apply (src : FVec Ideal S10000x128 .f32) (q : Fin 128) :
    multiReduction (F := Ideal) .add [0] S128 src 0x00000000#32 reduces_S10000x128_S128 (.inl rfl) rfl (ix1 q)
      = ∑ r : Fin 10000, src (ix2 r q) := by
  refine (Ideal.multiReduction_add_single src 0x00000000#32 reduces_S10000x128_S128 (.inl rfl) rfl (ix1 q)).trans ?_
  show (∑ r : Fin 10000, src (reduces_S10000x128_S128.lift (ix1 q) r)) = _
  refine Finset.sum_congr rfl fun r _ => congrArg src (funext fun a => Fin.ext ?_)
  match a with
  | ⟨0, _⟩ => rfl
  | ⟨1, _⟩ => rfl

/-- The second payload, a 1 x 1 x 128 row: the column sums of the first payload. -/
theorem pay2_apply (x0 : Vec Ideal S10000x128 .f32) (x2 : Vec Ideal S128x128 .f32) (x5 : Vec Ideal S1x128 .f32)
    (x9 : Vec Ideal S10000x128 .f32) (x10 : Vec Ideal S128x128 .f32) (q : Fin 128) :
    k0_pay2 (F := Ideal) x0 x2 x5 x9 x10 (ix3 0 0 q) = ∑ r : Fin 10000, k0_pay1 (F := Ideal) x0 x2 x5 x9 x10 (ix2 r q) := by
  unfold k0_pay2
  refine (shapeCast_ab_1ab_apply _ _ 0 0 q).trans ?_
  refine (shapeCast_a_1a_apply _ _ 0 q).trans ?_
  exact colsum_apply _ q

/-- The third payload: the column sums of the square of the first payload. -/
theorem pay3_apply (x0 : Vec Ideal S10000x128 .f32) (x2 : Vec Ideal S128x128 .f32) (x5 : Vec Ideal S1x128 .f32)
    (x9 : Vec Ideal S10000x128 .f32) (x10 : Vec Ideal S128x128 .f32) (q : Fin 128) :
    k0_pay3 (F := Ideal) x0 x2 x5 x9 x10 (ix3 0 0 q)
      = ∑ r : Fin 10000, k0_pay1 (F := Ideal) x0 x2 x5 x9 x10 (ix2 r q) * k0_pay1 (F := Ideal) x0 x2 x5 x9 x10 (ix2 r q) := by
  unfold k0_pay3
  refine (shapeCast_ab_1ab_apply _ _ 0 0 q).trans ?_
  refine (shapeCast_a_1a_apply _ _ 0 q).trans ?_
  refine (colsum_apply _ q).trans ?_
  rfl

theorem partSums_ix3 (x : S100000x128.Idx → EReal) (b : Fin 10) (q : Fin 128) :
    Cert.Spec.partSums 10 10000 rfl x (ix3 b 0 q)
      = ∑ r : Fin 10000, x (ix2 ⟨b.val * 10000 + r.val, by omega⟩ q) := rfl

theorem flushed6_eq (c : Dev nD) (t : Fin cfg0.N) :
    (dat0 V c).flushed 6 t = ((cfg0.win 6).blk t).view.read (Elt Ideal) (Cert.Spec.partSums 10 10000 rfl (Lin V c)) := by
  show (cfg0.win 6).cut (grid0.coords t) ((dat0 V c).after 6 t) = _
  rw [after0_6]
  unfold out0_6
  rw [View.canon_unit_zero hz3]
  simp only [View.ld_unit_zero (S := S10000x128) hz2, View.ld_unit_zero (S := S1x128) hz2, View.ld_unit_zero (S := S128x128) hz2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  obtain ⟨e00, e01, e10, e11, e20, e21, e30, e31, e40, e41, e50, e51, e60, e61, e62, e70, e71, e72⟩ := idx_facts t
  have ht : t.val < 10 := lt_of_lt_of_eq t.isLt (show cfg0.N = 10 from N_0)
  show k0_pay2 (iblk0 V c 0 t) (iblk0 V c 2 t) (iblk0 V c 3 t) (iblk0 V c 1 t) (iblk0 V c 4 t) (ix3 0 0 q)
     = Cert.Spec.partSums 10 10000 rfl (Lin V c) (((cfg0.win 6).blk t).view.emb (ix3 0 0 q))
  refine (pay2_apply _ _ _ _ _ q).trans ?_
  have hE : ((cfg0.win 6).blk t).view.emb (ix3 0 0 q) = ix3 (⟨t.val, ht⟩ : Fin 10) 0 q := funext fun a => Fin.ext (by
    match a with
    | ⟨0, _⟩ => show win0_6.index t (0 : Fin 3) * 1 + 1 * 0 = t.val; omega
    | ⟨1, _⟩ => show win0_6.index t (1 : Fin 3) * 1 + 1 * 0 = 0; omega
    | ⟨2, _⟩ => show win0_6.index t (2 : Fin 3) * 128 + 1 * q.val = q.val; omega)
  rw [hE]
  refine Eq.trans ?_ (partSums_ix3 (Lin V c) ⟨t.val, ht⟩ q).symm
  exact Finset.sum_congr rfl fun r _ => pay1_blk V c t r q _ rfl

theorem mem_blk6 (t : Fin cfg0.N) (i : S10x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v32_1).slice (win0_6.rect t)).set ↔ _
  rw [View.set_slice_whole, Rect.mem_set_unit]
  exact Iff.rfl

/-- Entry (b, 0, q) of the per-block array is written by the grid point b. -/
theorem cover6 (i : S10x1x128.Idx) :
    ∃ t : Fin cfg0.N, (cfg0.win 6).flush t = true ∧ i ∈ ((cfg0.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, by rw [show cfg0.N = 10 from N_0]; omega⟩, rfl⟩
  refine ⟨t, flush0_6 t, ?_⟩
  rw [mem_blk6]
  obtain ⟨e00, e01, e10, e11, e20, e21, e30, e31, e40, e41, e50, e51, e60, e61, e62, e70, e71, e72⟩ := idx_facts t
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1 ≤ (i 1).val ∧ (i 1).val < win0_6.index t (1 : Fin 3) * 1 + 1
    omega
  | ⟨2, _⟩ =>
    show win0_6.index t (2 : Fin 3) * 128 ≤ (i 2).val ∧ (i 2).val < win0_6.index t (2 : Fin 3) * 128 + 128
    omega

/-- After the region its second result array holds the per-block column sums of the linear stage. -/
theorem final6 (c : Dev nD) : (dat0 V c).arrAt 6 cfg0.N
    = Cert.Spec.partSums 10 10000 rfl (Cert.Spec.linear (V c main_v24) (V c main_arg0) (V c main_v26) (V c main_v31) (V c main_v30)) :=
  (dat0 V c).arrAt_eq_of_cover 6 _ (fun t _ => flushed6_eq V c t) cover6

theorem flushed7_eq (c : Dev nD) (t : Fin cfg0.N) :
    (dat0 V c).flushed 7 t
      = ((cfg0.win 7).blk t).view.read (Elt Ideal) (Cert.Spec.partSums 10 10000 rfl (Cert.Spec.sq (Lin V c))) := by
  show (cfg0.win 7).cut (grid0.coords t) ((dat0 V c).after 7 t) = _
  rw [after0_7]
  unfold out0_7
  rw [View.canon_unit_zero hz3]
  simp only [View.ld_unit_zero (S := S10000x128) hz2, View.ld_unit_zero (S := S1x128) hz2, View.ld_unit_zero (S := S128x128) hz2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  obtain ⟨e00, e01, e10, e11, e20, e21, e30, e31, e40, e41, e50, e51, e60, e61, e62, e70, e71, e72⟩ := idx_facts t
  have ht : t.val < 10 := lt_of_lt_of_eq t.isLt (show cfg0.N = 10 from N_0)
  show k0_pay3 (iblk0 V c 0 t) (iblk0 V c 2 t) (iblk0 V c 3 t) (iblk0 V c 1 t) (iblk0 V c 4 t) (ix3 0 0 q)
     = Cert.Spec.partSums 10 10000 rfl (Cert.Spec.sq (Lin V c)) (((cfg0.win 7).blk t).view.emb (ix3 0 0 q))
  refine (pay3_apply _ _ _ _ _ q).trans ?_
  have hE : ((cfg0.win 7).blk t).view.emb (ix3 0 0 q) = ix3 (⟨t.val, ht⟩ : Fin 10) 0 q := funext fun a => Fin.ext (by
    match a with
    | ⟨0, _⟩ => show win0_7.index t (0 : Fin 3) * 1 + 1 * 0 = t.val; omega
    | ⟨1, _⟩ => show win0_7.index t (1 : Fin 3) * 1 + 1 * 0 = 0; omega
    | ⟨2, _⟩ => show win0_7.index t (2 : Fin 3) * 128 + 1 * q.val = q.val; omega)
  rw [hE]
  refine Eq.trans ?_ (partSums_ix3 (Cert.Spec.sq (Lin V c)) ⟨t.val, ht⟩ q).symm
  refine Finset.sum_congr rfl fun r _ => ?_
  have h := pay1_blk V c t r q ⟨t.val * 10000 + r.val, by omega⟩ rfl
  exact congrArg (fun z => z * z) h

theorem mem_blk7 (t : Fin cfg0.N) (i : S10x1x128.Idx) :
    i ∈ ((cfg0.win 7).blk t).view.set ↔ ∀ a : Fin 3, win0_7.index t a * S1x1x128.size a ≤ (i a).val
      ∧ (i a).val < win0_7.index t a * S1x1x128.size a + S1x1x128.size a := by
  show i ∈ ((View.whole main_v32_2).slice (win0_7.rect t)).set ↔ _
  rw [View.set_slice_whole, Rect.mem_set_unit]
  exact Iff.rfl

/-- Entry (b, 0, q) of the per-block array is written by the grid point b. -/
theorem cover7 (i : S10x1x128.Idx) :
    ∃ t : Fin cfg0.N, (cfg0.win 7).flush t = true ∧ i ∈ ((cfg0.win 7).blk t).view.set := by
  have hi0 : (i 0).val < 10 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, by rw [show cfg0.N = 10 from N_0]; omega⟩, rfl⟩
  refine ⟨t, flush0_7 t, ?_⟩
  rw [mem_blk7]
  obtain ⟨e00, e01, e10, e11, e20, e21, e30, e31, e40, e41, e50, e51, e60, e61, e62, e70, e71, e72⟩ := idx_facts t
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 1 ≤ (i 1).val ∧ (i 1).val < win0_7.index t (1 : Fin 3) * 1 + 1
    omega
  | ⟨2, _⟩ =>
    show win0_7.index t (2 : Fin 3) * 128 ≤ (i 2).val ∧ (i 2).val < win0_7.index t (2 : Fin 3) * 128 + 128
    omega

/-- After the region its third result array holds the per-block column sums of the square of the linear stage. -/
theorem final7 (c : Dev nD) : (dat0 V c).arrAt 7 cfg0.N
    = Cert.Spec.partSums 10 10000 rfl (Cert.Spec.sq (Cert.Spec.linear (V c main_v24) (V c main_arg0) (V c main_v26) (V c main_v31) (V c main_v30))) :=
  (dat0 V c).arrAt_eq_of_cover 7 _ (fun t _ => flushed7_eq V c t) cover7

end Cert.KernelIdeal.Region0
end
-- ==== Proof.Region1.lean ====
/-
  Region 1 of the tiled program: the normalise-and-rectify kernel of a layer. Each of its ten grid points stages
  a block of 10000 nodes of the layer's linear output (all 128 features) and the four feature rows (mean, variance,
  scale, shift), and writes back max ((x - mean) * rsqrt (var + eps) * scale + shift) 0 for the block. The blocks
  tile the node axis, so after the region the result array is that one function of the whole arrays, index by index:
  entry (i, q) depends on the linear output at (i, q) and on the four rows at feature q.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region1
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- One entry normalised, scaled, shifted and rectified. -/
def nrm (x μ v γ β : EReal) : EReal :=
  max ((x - μ) * Ideal.rsqrt (v + Ideal.ofBits .f32 0x3727C5AC#32) * γ + β) (Ideal.ofBits .f32 0x00000000#32)

/-- The column of an index of the node-by-feature array, as a feature number. -/
def col (i : S100000x128.Idx) : Fin 128 := ⟨(i 1).val, idx2_lt1 i⟩

/-- The region's result as one function of the whole arrays it reads. -/
def G (lin : S100000x128.Idx → EReal) (mean var gam bet : S1x128.Idx → EReal) : S100000x128.Idx → EReal :=
  fun i => nrm (lin i) (mean (ix2 0 (col i))) (var (ix2 0 (col i))) (gam (ix2 0 (col i))) (bet (ix2 0 (col i)))

theorem pay_apply (x0 : Vec Ideal S10000x128 .f32) (x1 x2 x3 x4 : Vec Ideal S1x128 .f32) (p : Fin 10000) (q : Fin 128) :
    k1_pay1 (F := Ideal) x0 x1 x2 x3 x4 (ix2 p q)
      = nrm (x0 (ix2 p q)) (x1 (ix2 0 q)) (x2 (ix2 0 q)) (x3 (ix2 0 q)) (x4 (ix2 0 q)) := by
  unfold k1_pay1
  simp only [shapeCast_self]
  have hb : ∀ v : Vec Ideal S1x128 .f32, broadcastTo S10000x128 v broadcasts_S1x128_S10000x128 (ix2 p q) = v (ix2 0 q) := fun v =>
    broadcastTo_apply v _ (ix2 p q) (ix2 0 q) (by intro a; match a with | ⟨0, _⟩ => rfl | ⟨1, _⟩ => rfl)
  simp only [maximumf, addf, mulf, subf, rsqrt, broadcast, hb]
  rfl

theorem idx_facts : ∀ t : Fin cfg1.N,
    win1_0.index t (0 : Fin 2) = win1_5.index t (0 : Fin 2) ∧ win1_0.index t (1 : Fin 2) = 0 ∧ win1_5.index t (1 : Fin 2) = 0
    ∧ win1_5.index t (0 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem flushed_eq (c : Dev nD) (t : Fin cfg1.N) :
    (dat1 V c).flushed 5 t = ((cfg1.win 5).blk t).view.read (Elt Ideal)
      (G (V c main_v32_0) (V c main_v47) (V c main_v48) (V c main_v49) (V c main_v50)) := by
  show (cfg1.win 5).cut (grid1.coords t) ((dat1 V c).after 5 t) = _
  rw [after1_5]
  unfold out1_5
  rw [View.canon_unit_zero hz2]
  simp only [View.ld_unit_zero (S := S10000x128) hz2, View.ld_unit_zero (S := S1x128) hz2]
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
     = G (V c main_v32_0) (V c main_v47) (V c main_v48) (V c main_v49) (V c main_v50) (((cfg1.win 5).blk t).view.emb (ix2 p q))
  refine (pay_apply _ _ _ _ _ p q).trans ?_
  unfold G
  obtain ⟨e0, e1, e2, e3, e4, e5, e6, e7, e8, e9, e10, e11⟩ := idx_facts t
  have h0 : iblk1 V c 0 t (ix2 p q) = V c main_v32_0 (((cfg1.win 5).blk t).view.emb (ix2 p q)) := by
    show V c main_v32_0 (((cfg1.win 0).blk t).view.emb (ix2 p q)) = _
    refine congrArg _ (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 128 + 1 * q.val = win1_5.index t (1 : Fin 2) * 128 + 1 * q.val; omega
  have hc : col (((cfg1.win 5).blk t).view.emb (ix2 p q)) = q :=
    Fin.ext (by show win1_5.index t (1 : Fin 2) * 128 + 1 * q.val = q.val; omega)
  have h1 : iblk1 V c 1 t (ix2 0 q) = V c main_v47 (ix2 0 q) := by
    show V c main_v47 (((cfg1.win 1).blk t).view.emb (ix2 0 q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  have h2 : iblk1 V c 2 t (ix2 0 q) = V c main_v48 (ix2 0 q) := by
    show V c main_v48 (((cfg1.win 2).blk t).view.emb (ix2 0 q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  have h3 : iblk1 V c 3 t (ix2 0 q) = V c main_v49 (ix2 0 q) := by
    show V c main_v49 (((cfg1.win 3).blk t).view.emb (ix2 0 q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  have h4 : iblk1 V c 4 t (ix2 0 q) = V c main_v50 (ix2 0 q) := by
    show V c main_v50 (((cfg1.win 4).blk t).view.emb (ix2 0 q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  rw [h0, h1, h2, h3, h4, hc]

theorem mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v51).slice (win1_5.rect t)).set ↔ _
  rw [View.set_slice_whole, Rect.mem_set_unit]
  exact Iff.rfl

theorem cover (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 10000 :=
    ⟨⟨(i 0).val / 10000, by rw [show cfg1.N = 10 from N_1]; omega⟩, rfl⟩
  refine ⟨t, flush1_5 t, ?_⟩
  rw [mem_blk]
  obtain ⟨e0, e1, e2, e3, e4, e5, e6, e7, e8, e9, e10, e11⟩ := idx_facts t
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 128 ≤ (i 1).val ∧ (i 1).val < win1_5.index t (1 : Fin 2) * 128 + 128
    omega

/-- After the region its result array is the normalised and rectified input, whole. -/
theorem final (c : Dev nD) : (dat1 V c).arrAt 5 cfg1.N
    = G (V c main_v32_0) (V c main_v47) (V c main_v48) (V c main_v49) (V c main_v50) :=
  (dat1 V c).arrAt_eq_of_cover 5 _ (fun t _ => flushed_eq V c t) cover

/-- The same, in the shared vocabulary of stages. -/
theorem final_spec (c : Dev nD) : (dat1 V c).arrAt 5 cfg1.N
    = Cert.Spec.normRelu (V c main_v32_0) (V c main_v47) (V c main_v48) (V c main_v49) (V c main_v50) :=
  (final V c).trans rfl

end Cert.KernelIdeal.Region1
end
-- ==== Proof.Region2.lean ====
/-
  Region 2 of the tiled program: the linear stage of a layer. Each of its ten grid points stages a block of 10000
  nodes of the aggregated features and of the nodes' own features (all 128 features), the two whole 128 x 128 weight
  matrices and the bias row, and writes back three things: the block of (aggregated block * left weights + bias row)
  + own block * right weights; the column sums of that block; and the column sums of its entrywise square. A matrix
  product accumulated into zero is, entry by entry, a finite sum of products; a lane sum over the node axis is a finite
  sum. The node blocks tile the node axis and the per-block rows tile the block axis, so after the region the first
  result is the linear stage of the whole arrays, and the other two are its per-block column sums and those of its square.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region2
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A block of rows times a weight matrix, accumulated into zero, at entry (p, q): the sum over k of x (p, k) * w (k, q). -/
theorem mm_apply (x : FVec Ideal S10000x128 .f32) (w : FVec Ideal S128x128 .f32) (p : Fin 10000) (q : Fin 128) :
    matmul (F := Ideal) dot_S10000x128_S128x128_S10000x128_1_0_0_1_n_n none x w (constant S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs0 _ _
    | ⟨1, _⟩ => exact (lhs1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs0 _ _).trans hk
    | ⟨1, _⟩ => exact rhs1 _ _)
  rw [el, er]

theorem pay1_apply (x0 : Vec Ideal S10000x128 .f32) (x2 : Vec Ideal S128x128 .f32) (x5 : Vec Ideal S1x128 .f32)
    (x9 : Vec Ideal S10000x128 .f32) (x10 : Vec Ideal S128x128 .f32) (p : Fin 10000) (q : Fin 128) :
    k2_pay1 (F := Ideal) x0 x2 x5 x9 x10 (ix2 p q)
      = (∑ k : Fin 128, x0 (ix2 p k) * x2 (ix2 k q)) + x5 (ix2 0 q) + ∑ k : Fin 128, x9 (ix2 p k) * x10 (ix2 k q) := by
  unfold k2_pay1
  simp only [shapeCast_self]
  have hb : ∀ v : Vec Ideal S1x128 .f32, broadcastTo S10000x128 v broadcasts_S1x128_S10000x128 (ix2 p q) = v (ix2 0 q) := fun v =>
    broadcastTo_apply v _ (ix2 p q) (ix2 0 q) (by intro a; match a with | ⟨0, _⟩ => rfl | ⟨1, _⟩ => rfl)
  show (matmul (F := Ideal) dot_S10000x128_S128x128_S10000x128_1_0_0_1_n_n none x0 x2 (constant S10000x128 .f32 0x00000000#32) (ix2 p q)
      + broadcastTo S10000x128 x5 broadcasts_S1x128_S10000x128 (ix2 p q))
      + matmul (F := Ideal) dot_S10000x128_S128x128_S10000x128_1_0_0_1_n_n none x9 x10 (constant S10000x128 .f32 0x00000000#32) (ix2 p q) = _
  rw [mm_apply, mm_apply, hb]

/-- The region's first result as one function of the whole arrays it reads. -/
abbrev Lin (c : Dev nD) : S100000x128.Idx → EReal :=
  Cert.Spec.linear (V c main_v63) (V c main_v51) (V c main_v65) (V c main_v70) (V c main_v69)

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 3) = t.val ∧ win2_6.index t (1 : Fin 3) = 0 ∧ win2_6.index t (2 : Fin 3) = 0
    ∧ win2_7.index t (0 : Fin 3) = t.val ∧ win2_7.index t (1 : Fin 3) = 0 ∧ win2_7.index t (2 : Fin 3) = 0 :=
  (by decide +kernel : ∀ t : Fin grid2.N, _)

/-- The blocks the point t stages, read where the whole arrays hold them: row p of the node blocks is node
    t * 10000 + p, the weights and the bias row are whole. -/
theorem blk_agg (c : Dev nD) (t : Fin cfg2.N) (p : Fin 10000) (k : Fin 128) (r : Fin 100000) (hr : r.val = t.val * 10000 + p.val) :
    iblk2 V c 0 t (ix2 p k) = V c main_v63 (ix2 r k) := by
  obtain ⟨e00, e01, e10, e11, e20, e21, e30, e31, e40, e41, e50, e51, e60, e61, e62, e70, e71, e72⟩ := idx_facts t
  show V c main_v63 (((cfg2.win 0).blk t).view.emb (ix2 p k)) = _
  refine congrArg _ (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega
theorem blk_h (c : Dev nD) (t : Fin cfg2.N) (p : Fin 10000) (k : Fin 128) (r : Fin 100000) (hr : r.val = t.val * 10000 + p.val) :
    iblk2 V c 1 t (ix2 p k) = V c main_v51 (ix2 r k) := by
  obtain ⟨e00, e01, e10, e11, e20, e21, e30, e31, e40, e41, e50, e51, e60, e61, e62, e70, e71, e72⟩ := idx_facts t
  show V c main_v51 (((cfg2.win 1).blk t).view.emb (ix2 p k)) = _
  refine congrArg _ (funext fun a => Fin.ext ?_)
  match a with
  | ⟨0, _⟩ => show win2_1.index t (0 : Fin 2) * 10000 + 1 * p.val = r.val; omega
  | ⟨1, _⟩ => show win2_1.index t (1 : Fin 2) * 128 + 1 * k.val = k.val; omega
theorem blk_wl (c : Dev nD) (t : Fin cfg2.N) (k q : Fin 128) :
    iblk2 V c 2 t (ix2 k q) = V c main_v65 (ix2 k q) := by
  obtain ⟨e00, e01, e10, e11, e20, e21, e30, e31, e40, e41, e50, e51, e60, e61, e62, e70, e71, e72⟩ := idx_facts t
  show V c main_v65 (((cfg2.win 2).blk t).view.emb (ix2 k q)) = _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega
theorem blk_bias (c : Dev nD) (t : Fin cfg2.N) (q : Fin 128) :
    iblk2 V c 3 t (ix2 0 q) = V c main_v70 (ix2 0 q) := by
  obtain ⟨e00, e01, e10, e11, e20, e21, e30, e31, e40, e41, e50, e51, e60, e61, e62, e70, e71, e72⟩ := idx_facts t
  show V c main_v70 (((cfg2.win 3).blk t).view.emb (ix2 0 q)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega
theorem blk_wr (c : Dev nD) (t : Fin cfg2.N) (k q : Fin 128) :
    iblk2 V c 4 t (ix2 k q) = V c main_v69 (ix2 k q) := by
  obtain ⟨e00, e01, e10, e11, e20, e21, e30, e31, e40, e41, e50, e51, e60, e61, e62, e70, e71, e72⟩ := idx_facts t
  show V c main_v69 (((cfg2.win 4).blk t).view.emb (ix2 k q)) = _
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The kernel's first payload on the blocks of point t, at (p, q), is the linear stage at node t * 10000 + p, feature q. -/
theorem linear_ix2 (agg h : S100000x128.Idx → EReal) (wl : S128x128.Idx → EReal) (bl : S1x128.Idx → EReal) (wr : S128x128.Idx → EReal)
    (r : Fin 100000) (q : Fin 128) :
    Cert.Spec.linear agg h wl bl wr (ix2 r q)
      = (∑ k : Fin 128, agg (ix2 r k) * wl (ix2 k q)) + bl (ix2 0 q) + ∑ k : Fin 128, h (ix2 r k) * wr (ix2 k q) := rfl

theorem pay1_blk (c : Dev nD) (t : Fin cfg2.N) (p : Fin 10000) (q : Fin 128) (r : Fin 100000) (hr : r.val = t.val * 10000 + p.val) :
    k2_pay1 (iblk2 V c 0 t) (iblk2 V c 2 t) (iblk2 V c 3 t) (iblk2 V c 1 t) (iblk2 V c 4 t) (ix2 p q) = Lin V c (ix2 r q) := by
  refine (pay1_apply _ _ _ _ _ p q).trans ?_
  refine Eq.trans ?_ (linear_ix2 (V c main_v63) (V c main_v51) (V c main_v65) (V c main_v70) (V c main_v69) r q).symm
  simp only [blk_agg V c t p _ r hr, blk_wl V c t, blk_bias V c t, blk_h V c t p _ r hr, blk_wr V c t]

theorem flushed5_eq (c : Dev nD) (t : Fin cfg2.N) :
    (dat2 V c).flushed 5 t = ((cfg2.win 5).blk t).view.read (Elt Ideal) (Lin V c) := by
  show (cfg2.win 5).cut (grid2.coords t) ((dat2 V c).after 5 t) = _
  rw [after2_5]
  unfold out2_5
  rw [View.canon_unit_zero hz2]
  simp only [View.ld_unit_zero (S := S10000x128) hz2, View.ld_unit_zero (S := S1x128) hz2, View.ld_unit_zero (S := S128x128) hz2]
  funext j
  obtain ⟨p, q, rfl⟩ : ∃ (p : Fin 10000) (q : Fin 128), j = ix2 p q := ⟨j 0, j 1, eq_ix2 j⟩
  obtain ⟨e00, e01, e10, e11, e20, e21, e30, e31, e40, e41, e50, e51, e60, e61, e62, e70, e71, e72⟩ := idx_facts t
  have ht : t.val < 10 := lt_of_lt_of_eq t.isLt (show cfg2.N = 10 from N_2)
  show k2_pay1 (iblk2 V c 0 t) (iblk2 V c 2 t) (iblk2 V c 3 t) (iblk2 V c 1 t) (iblk2 V c 4 t) (ix2 p q)
     = Lin V c (((cfg2.win 5).blk t).view.emb (ix2 p q))
  refine (pay1_blk V c t p q ⟨t.val * 10000 + p.val, by omega⟩ rfl).trans ?_
  refine congrArg _ (funext fun a => Fin.ext ?_)
  match a with
  | ⟨0, _⟩ => show t.val * 10000 + p.val = win2_5.index t (0 : Fin 2) * 10000 + 1 * p.val; omega
  | ⟨1, _⟩ => show q.val = win2_5.index t (1 : Fin 2) * 128 + 1 * q.val; omega

theorem mem_blk5 (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v71_0).slice (win2_5.rect t)).set ↔ _
  rw [View.set_slice_whole, Rect.mem_set_unit]
  exact Iff.rfl

theorem cover5 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  obtain ⟨t, ht⟩ : ∃ t : Fin cfg2.N, t.val = (i 0).val / 10000 :=
    ⟨⟨(i 0).val / 10000, by rw [show cfg2.N = 10 from N_2]; omega⟩, rfl⟩
  refine ⟨t, flush2_5 t, ?_⟩
  rw [mem_blk5]
  obtain ⟨e00, e01, e10, e11, e20, e21, e30, e31, e40, e41, e50, e51, e60, e61, e62, e70, e71, e72⟩ := idx_facts t
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 128 ≤ (i 1).val ∧ (i 1).val < win2_5.index t (1 : Fin 2) * 128 + 128
    omega

/-- After the region its first result array is the layer's linear stage, whole. -/
theorem final5 (c : Dev nD) : (dat2 V c).arrAt 5 cfg2.N
    = Cert.Spec.linear (V c main_v63) (V c main_v51) (V c main_v65) (V c main_v70) (V c main_v69) :=
  (dat2 V c).arrAt_eq_of_cover 5 _ (fun t _ => flushed5_eq V c t) cover5

theorem hz3 : (![0, 0, 0] : Fin 3 → Nat) = fun _ => 0 := funext fun a => by fin_cases a <;> rfl

/-- The lane sum of a block over its node axis, at feature q: the sum over the block's 10000 rows of the entry (r, q). -/
theorem colsum_apply (src : FVec Ideal S10000x128 .f32) (q : Fin 128) :
    multiReduction (F := Ideal) .add [0] S128 src 0x00000000#32 reduces_S10000x128_S128 (.inl rfl) rfl (ix1 q)
      = ∑ r : Fin 10000, src (ix2 r q) := by
  refine (Ideal.multiReduction_add_single src 0x00000000#32 reduces_S10000x128_S128 (.inl rfl) rfl (ix1 q)).trans ?_
  show (∑ r : Fin 10000, src (reduces_S10000x128_S128.lift (ix1 q) r)) = _
  refine Finset.sum_congr rfl fun r _ => congrArg src (funext fun a => Fin.ext ?_)
  match a with
  | ⟨0, _⟩ => rfl
  | ⟨1, _⟩ => rfl

/-- The second payload, a 1 x 1 x 128 row: the column sums of the first payload. -/
theorem pay2_apply (x0 : Vec Ideal S10000x128 .f32) (x2 : Vec Ideal S128x128 .f32) (x5 : Vec Ideal S1x128 .f32)
    (x9 : Vec Ideal S10000x128 .f32) (x10 : Vec Ideal S128x128 .f32) (q : Fin 128) :
    k2_pay2 (F := Ideal) x0 x2 x5 x9 x10 (ix3 0 0 q) = ∑ r : Fin 10000, k2_pay1 (F := Ideal) x0 x2 x5 x9 x10 (ix2 r q) := by
  unfold k2_pay2
  refine (shapeCast_ab_1ab_apply _ _ 0 0 q).trans ?_
  refine (shapeCast_a_1a_apply _ _ 0 q).trans ?_
  exact colsum_apply _ q

/-- The third payload: the column sums of the square of the first payload. -/
theorem pay3_apply (x0 : Vec Ideal S10000x128 .f32) (x2 : Vec Ideal S128x128 .f32) (x5 : Vec Ideal S1x128 .f32)
    (x9 : Vec Ideal S10000x128 .f32) (x10 : Vec Ideal S128x128 .f32) (q : Fin 128) :
    k2_pay3 (F := Ideal) x0 x2 x5 x9 x10 (ix3 0 0 q)
      = ∑ r : Fin 10000, k2_pay1 (F := Ideal) x0 x2 x5 x9 x10 (ix2 r q) * k2_pay1 (F := Ideal) x0 x2 x5 x9 x10 (ix2 r q) := by
  unfold k2_pay3
  refine (shapeCast_ab_1ab_apply _ _ 0 0 q).trans ?_
  refine (shapeCast_a_1a_apply _ _ 0 q).trans ?_
  refine (colsum_apply _ q).trans ?_
  rfl

theorem partSums_ix3 (x : S100000x128.Idx → EReal) (b : Fin 10) (q : Fin 128) :
    Cert.Spec.partSums 10 10000 rfl x (ix3 b 0 q)
      = ∑ r : Fin 10000, x (ix2 ⟨b.val * 10000 + r.val, by omega⟩ q) := rfl

theorem flushed6_eq (c : Dev nD) (t : Fin cfg2.N) :
    (dat2 V c).flushed 6 t = ((cfg2.win 6).blk t).view.read (Elt Ideal) (Cert.Spec.partSums 10 10000 rfl (Lin V c)) := by
  show (cfg2.win 6).cut (grid2.coords t) ((dat2 V c).after 6 t) = _
  rw [after2_6]
  unfold out2_6
  rw [View.canon_unit_zero hz3]
  simp only [View.ld_unit_zero (S := S10000x128) hz2, View.ld_unit_zero (S := S1x128) hz2, View.ld_unit_zero (S := S128x128) hz2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  obtain ⟨e00, e01, e10, e11, e20, e21, e30, e31, e40, e41, e50, e51, e60, e61, e62, e70, e71, e72⟩ := idx_facts t
  have ht : t.val < 10 := lt_of_lt_of_eq t.isLt (show cfg2.N = 10 from N_2)
  show k2_pay2 (iblk2 V c 0 t) (iblk2 V c 2 t) (iblk2 V c 3 t) (iblk2 V c 1 t) (iblk2 V c 4 t) (ix3 0 0 q)
     = Cert.Spec.partSums 10 10000 rfl (Lin V c) (((cfg2.win 6).blk t).view.emb (ix3 0 0 q))
  refine (pay2_apply _ _ _ _ _ q).trans ?_
  have hE : ((cfg2.win 6).blk t).view.emb (ix3 0 0 q) = ix3 (⟨t.val, ht⟩ : Fin 10) 0 q := funext fun a => Fin.ext (by
    match a with
    | ⟨0, _⟩ => show win2_6.index t (0 : Fin 3) * 1 + 1 * 0 = t.val; omega
    | ⟨1, _⟩ => show win2_6.index t (1 : Fin 3) * 1 + 1 * 0 = 0; omega
    | ⟨2, _⟩ => show win2_6.index t (2 : Fin 3) * 128 + 1 * q.val = q.val; omega)
  rw [hE]
  refine Eq.trans ?_ (partSums_ix3 (Lin V c) ⟨t.val, ht⟩ q).symm
  exact Finset.sum_congr rfl fun r _ => pay1_blk V c t r q _ rfl

theorem mem_blk6 (t : Fin cfg2.N) (i : S10x1x128.Idx) :
    i ∈ ((cfg2.win 6).blk t).view.set ↔ ∀ a : Fin 3, win2_6.index t a * S1x1x128.size a ≤ (i a).val
      ∧ (i a).val < win2_6.index t a * S1x1x128.size a + S1x1x128.size a := by
  show i ∈ ((View.whole main_v71_1).slice (win2_6.rect t)).set ↔ _
  rw [View.set_slice_whole, Rect.mem_set_unit]
  exact Iff.rfl

/-- Entry (b, 0, q) of the per-block array is written by the grid point b. -/
theorem cover6 (i : S10x1x128.Idx) :
    ∃ t : Fin cfg2.N, (cfg2.win 6).flush t = true ∧ i ∈ ((cfg2.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg2.N, t.val = (i 0).val :=
    ⟨⟨(i 0).val, by rw [show cfg2.N = 10 from N_2]; omega⟩, rfl⟩
  refine ⟨t, flush2_6 t, ?_⟩
  rw [mem_blk6]
  obtain ⟨e00, e01, e10, e11, e20, e21, e30, e31, e40, e41, e50, e51, e60, e61, e62, e70, e71, e72⟩ := idx_facts t
  intro a
  match a with
  | ⟨0, _⟩ =>
    show win2_6.index t (0 : Fin 3) * 1 ≤ (i 0).val ∧ (i 0).val < win2_6.index t (0 : Fin 3) * 1 + 1
    omega
  | ⟨1, _⟩ =>
    show win2_6.index t (1 : Fin 3) * 1 ≤ (i 1).val ∧ (i 1).val < win2_6.index t (1 : Fin 3) * 1 + 1
    omega
  | ⟨2, _⟩ =>
    show win2_6.index t (2 : Fin 3) * 128 ≤ (i 2).val ∧ (i 2).val < win2_6.index t (2 : Fin 3) * 128 + 128
    omega

/-- After the region its second result array holds the per-block column sums of the linear stage. -/
theorem final6 (c : Dev nD) : (dat2 V c).arrAt 6 cfg2.N
    = Cert.Spec.partSums 10 10000 rfl (Cert.Spec.linear (V c main_v63) (V c main_v51) (V c main_v65) (V c main_v70) (V c main_v69)) :=
  (dat2 V c).arrAt_eq_of_cover 6 _ (fun t _ => flushed6_eq V c t) cover6

theorem flushed7_eq (c : Dev nD) (t : Fin cfg2.N) :
    (dat2 V c).flushed 7 t
      = ((cfg2.win 7).blk t).view.read (Elt Ideal) (Cert.Spec.partSums 10 10000 rfl (Cert.Spec.sq (Lin V c))) := by
  show (cfg2.win 7).cut (grid2.coords t) ((dat2 V c).after 7 t) = _
  rw [after2_7]
  unfold out2_7
  rw [View.canon_unit_zero hz3]
  simp only [View.ld_unit_zero (S := S10000x128) hz2, View.ld_unit_zero (S := S1x128) hz2, View.ld_unit_zero (S := S128x128) hz2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  obtain ⟨e00, e01, e10, e11, e20, e21, e30, e31, e40, e41, e50, e51, e60, e61, e62, e70, e71, e72⟩ := idx_facts t
  have ht : t.val < 10 := lt_of_lt_of_eq t.isLt (show cfg2.N = 10 from N_2)
  show k2_pay3 (iblk2 V c 0 t) (iblk2 V c 2 t) (iblk2 V c 3 t) (iblk2 V c 1 t) (iblk2 V c 4 t) (ix3 0 0 q)
     = Cert.Spec.partSums 10 10000 rfl (Cert.Spec.sq (Lin V c)) (((cfg2.win 7).blk t).view.emb (ix3 0 0 q))
  refine (pay3_apply _ _ _ _ _ q).trans ?_
  have hE : ((cfg2.win 7).blk t).view.emb (ix3 0 0 q) = ix3 (⟨t.val, ht⟩ : Fin 10) 0 q := funext fun a => Fin.ext (by
    match a with
    | ⟨0, _⟩ => show win2_7.index t (0 : Fin 3) * 1 + 1 * 0 = t.val; omega
    | ⟨1, _⟩ => show win2_7.index t (1 : Fin 3) * 1 + 1 * 0 = 0; omega
    | ⟨2, _⟩ => show win2_7.index t (2 : Fin 3) * 128 + 1 * q.val = q.val; omega)
  rw [hE]
  refine Eq.trans ?_ (partSums_ix3 (Cert.Spec.sq (Lin V c)) ⟨t.val, ht⟩ q).symm
  refine Finset.sum_congr rfl fun r _ => ?_
  have h := pay1_blk V c t r q ⟨t.val * 10000 + r.val, by omega⟩ rfl
  exact congrArg (fun z => z * z) h

theorem mem_blk7 (t : Fin cfg2.N) (i : S10x1x128.Idx) :
    i ∈ ((cfg2.win 7).blk t).view.set ↔ ∀ a : Fin 3, win2_7.index t a * S1x1x128.size a ≤ (i a).val
      ∧ (i a).val < win2_7.index t a * S1x1x128.size a + S1x1x128.size a := by
  show i ∈ ((View.whole main_v71_2).slice (win2_7.rect t)).set ↔ _
  rw [View.set_slice_whole, Rect.mem_set_unit]
  exact Iff.rfl

/-- Entry (b, 0, q) of the per-block array is written by the grid point b. -/
theorem cover7 (i : S10x1x128.Idx) :
    ∃ t : Fin cfg2.N, (cfg2.win 7).flush t = true ∧ i ∈ ((cfg2.win 7).blk t).view.set := by
  have hi0 : (i 0).val < 10 := (i 0).isLt
  have hi1 : (i 1).val < 1 := (i 1).isLt
  have hi2 : (i 2).val < 128 := (i 2).isLt
  obtain ⟨t, ht⟩ : ∃ t : Fin cfg2.N, t.val = (i 0).val :=
    ⟨⟨(i 0).val, by rw [show cfg2.N = 10 from N_2]; omega⟩, rfl⟩
  refine ⟨t, flush2_7 t, ?_⟩
  rw [mem_blk7]
  obtain ⟨e00, e01, e10, e11, e20, e21, e30, e31, e40, e41, e50, e51, e60, e61, e62, e70, e71, e72⟩ := idx_facts t
  intro a
  match a with
  | ⟨0, _⟩ =>
    show win2_7.index t (0 : Fin 3) * 1 ≤ (i 0).val ∧ (i 0).val < win2_7.index t (0 : Fin 3) * 1 + 1
    omega
  | ⟨1, _⟩ =>
    show win2_7.index t (1 : Fin 3) * 1 ≤ (i 1).val ∧ (i 1).val < win2_7.index t (1 : Fin 3) * 1 + 1
    omega
  | ⟨2, _⟩ =>
    show win2_7.index t (2 : Fin 3) * 128 ≤ (i 2).val ∧ (i 2).val < win2_7.index t (2 : Fin 3) * 128 + 128
    omega

/-- After the region its third result array holds the per-block column sums of the square of the linear stage. -/
theorem final7 (c : Dev nD) : (dat2 V c).arrAt 7 cfg2.N
    = Cert.Spec.partSums 10 10000 rfl (Cert.Spec.sq (Cert.Spec.linear (V c main_v63) (V c main_v51) (V c main_v65) (V c main_v70) (V c main_v69))) :=
  (dat2 V c).arrAt_eq_of_cover 7 _ (fun t _ => flushed7_eq V c t) cover7

end Cert.KernelIdeal.Region2
end
-- ==== Proof.Region3.lean ====
/-
  Region 3 of the tiled program: the normalise-and-rectify kernel of a layer. Each of its ten grid points stages
  a block of 10000 nodes of the layer's linear output (all 128 features) and the four feature rows (mean, variance,
  scale, shift), and writes back max ((x - mean) * rsqrt (var + eps) * scale + shift) 0 for the block. The blocks
  tile the node axis, so after the region the result array is that one function of the whole arrays, index by index:
  entry (i, q) depends on the linear output at (i, q) and on the four rows at feature q.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region3
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- One entry normalised, scaled, shifted and rectified. -/
def nrm (x μ v γ β : EReal) : EReal :=
  max ((x - μ) * Ideal.rsqrt (v + Ideal.ofBits .f32 0x3727C5AC#32) * γ + β) (Ideal.ofBits .f32 0x00000000#32)

/-- The column of an index of the node-by-feature array, as a feature number. -/
def col (i : S100000x128.Idx) : Fin 128 := ⟨(i 1).val, idx2_lt1 i⟩

/-- The region's result as one function of the whole arrays it reads. -/
def G (lin : S100000x128.Idx → EReal) (mean var gam bet : S1x128.Idx → EReal) : S100000x128.Idx → EReal :=
  fun i => nrm (lin i) (mean (ix2 0 (col i))) (var (ix2 0 (col i))) (gam (ix2 0 (col i))) (bet (ix2 0 (col i)))

theorem pay_apply (x0 : Vec Ideal S10000x128 .f32) (x1 x2 x3 x4 : Vec Ideal S1x128 .f32) (p : Fin 10000) (q : Fin 128) :
    k3_pay1 (F := Ideal) x0 x1 x2 x3 x4 (ix2 p q)
      = nrm (x0 (ix2 p q)) (x1 (ix2 0 q)) (x2 (ix2 0 q)) (x3 (ix2 0 q)) (x4 (ix2 0 q)) := by
  unfold k3_pay1
  simp only [shapeCast_self]
  have hb : ∀ v : Vec Ideal S1x128 .f32, broadcastTo S10000x128 v broadcasts_S1x128_S10000x128 (ix2 p q) = v (ix2 0 q) := fun v =>
    broadcastTo_apply v _ (ix2 p q) (ix2 0 q) (by intro a; match a with | ⟨0, _⟩ => rfl | ⟨1, _⟩ => rfl)
  simp only [maximumf, addf, mulf, subf, rsqrt, broadcast, hb]
  rfl

theorem idx_facts : ∀ t : Fin cfg3.N,
    win3_0.index t (0 : Fin 2) = win3_5.index t (0 : Fin 2) ∧ win3_0.index t (1 : Fin 2) = 0 ∧ win3_5.index t (1 : Fin 2) = 0
    ∧ win3_5.index t (0 : Fin 2) = t.val
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem flushed_eq (c : Dev nD) (t : Fin cfg3.N) :
    (dat3 V c).flushed 5 t = ((cfg3.win 5).blk t).view.read (Elt Ideal)
      (G (V c main_v71_0) (V c main_v86) (V c main_v87) (V c main_v88) (V c main_v89)) := by
  show (cfg3.win 5).cut (grid3.coords t) ((dat3 V c).after 5 t) = _
  rw [after3_5]
  unfold out3_5
  rw [View.canon_unit_zero hz2]
  simp only [View.ld_unit_zero (S := S10000x128) hz2, View.ld_unit_zero (S := S1x128) hz2]
  funext j
  obtain ⟨p, q, rfl⟩ : ∃ (p : Fin 10000) (q : Fin 128), j = ix2 p q := ⟨j 0, j 1, eq_ix2 j⟩
  show k3_pay1 (iblk3 V c 0 t) (iblk3 V c 1 t) (iblk3 V c 2 t) (iblk3 V c 3 t) (iblk3 V c 4 t) (ix2 p q)
     = G (V c main_v71_0) (V c main_v86) (V c main_v87) (V c main_v88) (V c main_v89) (((cfg3.win 5).blk t).view.emb (ix2 p q))
  refine (pay_apply _ _ _ _ _ p q).trans ?_
  unfold G
  obtain ⟨e0, e1, e2, e3, e4, e5, e6, e7, e8, e9, e10, e11⟩ := idx_facts t
  have h0 : iblk3 V c 0 t (ix2 p q) = V c main_v71_0 (((cfg3.win 5).blk t).view.emb (ix2 p q)) := by
    show V c main_v71_0 (((cfg3.win 0).blk t).view.emb (ix2 p q)) = _
    refine congrArg _ (funext fun a => Fin.ext ?_)
    match a with
    | ⟨0, _⟩ => show win3_0.index t (0 : Fin 2) * 10000 + 1 * p.val = win3_5.index t (0 : Fin 2) * 10000 + 1 * p.val; omega
    | ⟨1, _⟩ => show win3_0.index t (1 : Fin 2) * 128 + 1 * q.val = win3_5.index t (1 : Fin 2) * 128 + 1 * q.val; omega
  have hc : col (((cfg3.win 5).blk t).view.emb (ix2 p q)) = q :=
    Fin.ext (by show win3_5.index t (1 : Fin 2) * 128 + 1 * q.val = q.val; omega)
  have h1 : iblk3 V c 1 t (ix2 0 q) = V c main_v86 (ix2 0 q) := by
    show V c main_v86 (((cfg3.win 1).blk t).view.emb (ix2 0 q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  have h2 : iblk3 V c 2 t (ix2 0 q) = V c main_v87 (ix2 0 q) := by
    show V c main_v87 (((cfg3.win 2).blk t).view.emb (ix2 0 q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  have h3 : iblk3 V c 3 t (ix2 0 q) = V c main_v88 (ix2 0 q) := by
    show V c main_v88 (((cfg3.win 3).blk t).view.emb (ix2 0 q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  have h4 : iblk3 V c 4 t (ix2 0 q) = V c main_v89 (ix2 0 q) := by
    show V c main_v89 (((cfg3.win 4).blk t).view.emb (ix2 0 q)) = _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  rw [h0, h1, h2, h3, h4, hc]

theorem mem_blk (t : Fin cfg3.N) (i : S100000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v90).slice (win3_5.rect t)).set ↔ _
  rw [View.set_slice_whole, Rect.mem_set_unit]
  exact Iff.rfl

theorem cover (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  obtain ⟨t, ht⟩ : ∃ t : Fin cfg3.N, t.val = (i 0).val / 10000 :=
    ⟨⟨(i 0).val / 10000, by rw [show cfg3.N = 10 from N_3]; omega⟩, rfl⟩
  refine ⟨t, flush3_5 t, ?_⟩
  rw [mem_blk]
  obtain ⟨e0, e1, e2, e3, e4, e5, e6, e7, e8, e9, e10, e11⟩ := idx_facts t
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 128 ≤ (i 1).val ∧ (i 1).val < win3_5.index t (1 : Fin 2) * 128 + 128
    omega

/-- After the region its result array is the normalised and rectified input, whole. -/
theorem final (c : Dev nD) : (dat3 V c).arrAt 5 cfg3.N
    = G (V c main_v71_0) (V c main_v86) (V c main_v87) (V c main_v88) (V c main_v89) :=
  (dat3 V c).arrAt_eq_of_cover 5 _ (fun t _ => flushed_eq V c t) cover

/-- The same, in the shared vocabulary of stages. -/
theorem final_spec (c : Dev nD) : (dat3 V c).arrAt 5 cfg3.N
    = Cert.Spec.normRelu (V c main_v71_0) (V c main_v86) (V c main_v87) (V c main_v88) (V c main_v89) :=
  (final V c).trans rfl

end Cert.KernelIdeal.Region3
end
-- ==== Proof.Region4.lean ====
/-
  Region 4 of the tiled program: the linear stage of a layer. Each of its ten grid points stages a block of 10000
  nodes of the aggregated features and of the nodes' own features (all 128 features), the two whole 128 x 128 weight
  matrices and the bias row, and writes back three things: the block of (aggregated block * left weights + bias row)
  + own block * right weights; the column sums of that block; and the column sums of its entrywise square. A matrix
  product accumulated into zero is, entry by entry, a finite sum of products; a lane sum over the node axis is a finite
  sum. The node blocks tile the node axis and the per-block rows tile the block axis, so after the region the first
  result is the linear stage of the whole arrays, and the other two are its per-block column sums and those of its square.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region4
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A block of rows times a weight matrix, accumulated into zero, at entry (p, q): the sum over k of x (p, k) * w (k, q). -/
theorem mm_apply (x : FVec Ideal S10000x128 .f32) (w : FVec Ideal S128x128 .f32) (p : Fin 10000) (q : Fin 128) :
    matmul (F := Ideal) dot_S10000x128_S128x128_S10000x128_1_0_0_1_n_n none x w (constant S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs0 _ _
    | ⟨1, _⟩ => exact (lhs1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs0 _ _).trans hk
    | ⟨1, _⟩ => exact rhs1 _ _)
  rw [el, er]

theorem pay1_apply (x0 : Vec Ideal S10000x128 .f32) (x2 : Vec Ideal S128x128 .f32) (x5 : Vec Ideal S1x128 .f32)
    (x9 : Vec Ideal S10000x128 .f32) (x10 : Vec Ideal S128x128 .f32) (p : Fin 10000) (q : Fin 128) :
    k4_pay1 (F := Ideal) x0 x2 x5 x9 x10 (ix2 p q)
      = (∑ k : Fin 128, x0 (ix2 p k) * x2 (ix2 k q)) + x5 (ix2 0 q) + ∑ k : Fin 128, x9 (ix2 p k) * x10 (ix2 k q) := by
  unfold k4_pay1
  simp only [shapeCast_self]
  have hb : ∀ v : Vec Ideal S1x128 .f32, broadcastTo S10000x128 v broadcasts_S1x128_S10000x128 (ix2 p q) = v (ix2 0 q) := fun v =>
    broadcastTo_apply v _ (ix2 p q) (ix2 0 q) (by intro a; match a with | ⟨0, _⟩ => rfl | ⟨1, _⟩ => rfl)
  show (matmul (F := Ideal) dot_S10000x128_S128x128_S10000x128_1_0_0_1_n_n none x0 x2 (constant S10000x128 .f32 0x00000000#32) (ix2 p q)
      + broadcastTo S10000x128 x5 broadcasts_S1x128_S10000x128 (ix2 p q))
      + matmul (F := Ideal) dot_S10000x128_S128x128_S10000x128_1_0_0_1_n_n none x9 x10 (constant S10000x128 .f32 0x00000000#32) (ix2 p q) = _
  rw [mm_apply, mm_apply, hb]

/-- The region's first result as one function of the whole arrays it reads. -/
abbrev Lin (c : Dev nD) : S100000x128.Idx → EReal :=
  Cert.Spec.linear (V c main_v102) (V c main_v90) (V c main_v104) (V c main_v109) (V c main_v108)

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 3) = t.val ∧ win4_6.index t (1 : Fin 3) = 0 ∧ win4_6.index t (2 : Fin 3) = 0
    ∧ win4_7.index t (0 : Fin 3) = t.val ∧ win4_7.index t (1 : Fin 3) = 0 ∧ win4_7.index t (2 : Fin 3) = 0 :=
  (by decide +kernel : ∀ t : Fin grid4.N, _)

/-- The blocks the point t stages, read where the whole arrays hold them: row p of the node blocks is node
    t * 10000 + p, the weights and the bias row are whole. -/
theorem blk_agg (c : Dev nD) (t : Fin cfg4.N) (p : Fin 10000) (k : Fin 128) (r : Fin 100000) (hr : r.val = t.val * 10000 + p.val) :
    iblk4 V c 0 t (ix2 p k) = V c main_v102 (ix2 r k) := by
  obtain ⟨e00, e01, e10, e11, e20, e21, e30, e31, e40, e41, e50, e51, e60, e61, e62, e70, e71, e72⟩ := idx_facts t
  show V c main_v102 (((cfg4.win 0).blk t).view.emb (ix2 p k)) = _
  refine congrArg _ (funext fun a => Fin.ext ?_)
  match a with
  | ⟨0, _⟩ => show win4_0.index t (0 : Fin 2) * 10000 + 1 * p.val = r.val; omega
  | ⟨1, _⟩ => show win4_0.index t (1 : Fin 2) * 128 + 1 * k.val = k.val; omega
theorem blk_h (c : Dev nD) (t : Fin cfg4.N) (p : Fin 10000) (k : Fin 128) (r : Fin 100000) (hr : r.val = t.val * 10000 + p.val) :
    iblk4 V c 1 t (ix2 p k) = V c main_v90 (ix2 r k) := by
  obtain ⟨e00, e01, e10, e11, e20, e21, e30, e31, e40, e41, e50, e51, e60, e61, e62, e70, e71, e72⟩ := idx_facts t
  show V c main_v90 (((cfg4.win 1).blk t).view.emb (ix2 p k)) = _
  refine congrArg _ (funext fun a => Fin.ext ?_)
  match a with
  | ⟨0, _⟩ => show win4_1.index t (0 : Fin 2) * 10000 + 1 * p.val = r.val; omega
  | ⟨1, _⟩ => show win4_1.index t (1 : Fin 2) * 128 + 1 * k.val = k.val; omega
theorem blk_wl (c : Dev nD) (t : Fin cfg4.N) (k q : Fin 128) :
    iblk4 V c 2 t (ix2 k q) = V c main_v104 (ix2 k q) := by
  obtain ⟨e00, e01, e10, e11, e20, e21, e30, e31, e40, e41, e50, e51, e60, e61, e62, e70, e71, e72⟩ := idx_facts t
  show V c main_v104 (((cfg4.win 2).blk t).view.emb (ix2 k q)) = _
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega
theorem blk_bias (c : Dev nD) (t : Fin cfg4.N) (q : Fin 128) :
    iblk4 V c 3 t (ix2 0 q) = V c main_v109 (ix2 0 q) := by
  obtain ⟨e00, e01, e10, e11, e20, e21, e30, e31, e40, e41, e50, e51, e60, e61, e62, e70, e71, e72⟩ := idx_facts t
  show V c main_v109 (((cfg4.win 3).blk t).view.emb (ix2 0 q)) = _
  refine congrArg _ (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega
theorem blk_wr (c : Dev nD) (t : Fin cfg4.N) (k q : Fin 128) :
    iblk4 V c 4 t (ix2 k q) = V c main_v108 (ix2 k q) := by
  obtain ⟨e00, e01, e10, e11, e20, e21, e30, e31, e40, e41, e50, e51, e60, e61, e62, e70, e71, e72⟩ := idx_facts t
  show V c main_v108 (((cfg4.win 4).blk t).view.emb (ix2 k q)) = _
  refine congrArg _ (funext fun a => Fin.ext ?_)
  match a with
  | ⟨0, _⟩ => show win4_4.index t (0 : Fin 2) * 128 + 1 * k.val = k.val; omega
  | ⟨1, _⟩ => show win4_4.index t (1 : Fin 2) * 128 + 1 * q.val = q.val; omega

/-- The kernel's first payload on the blocks of point t, at (p, q), is the linear stage at node t * 10000 + p, feature q. -/
theorem linear_ix2 (agg h : S100000x128.Idx → EReal) (wl : S128x128.Idx → EReal) (bl : S1x128.Idx → EReal) (wr : S128x128.Idx → EReal)
    (r : Fin 100000) (q : Fin 128) :
    Cert.Spec.linear agg h wl bl wr (ix2 r q)
      = (∑ k : Fin 128, agg (ix2 r k) * wl (ix2 k q)) + bl (ix2 0 q) + ∑ k : Fin 128, h (ix2 r k) * wr (ix2 k q) := rfl

theorem pay1_blk (c : Dev nD) (t : Fin cfg4.N) (p : Fin 10000) (q : Fin 128) (r : Fin 100000) (hr : r.val = t.val * 10000 + p.val) :
    k4_pay1 (iblk4 V c 0 t) (iblk4 V c 2 t) (iblk4 V c 3 t) (iblk4 V c 1 t) (iblk4 V c 4 t) (ix2 p q) = Lin V c (ix2 r q) := by
  refine (pay1_apply _ _ _ _ _ p q).trans ?_
  refine Eq.trans ?_ (linear_ix2 (V c main_v102) (V c main_v90) (V c main_v104) (V c main_v109) (V c main_v108) r q).symm
  simp only [blk_agg V c t p _ r hr, blk_wl V c t, blk_bias V c t, blk_h V c t p _ r hr, blk_wr V c t]

theorem flushed5_eq (c : Dev nD) (t : Fin cfg4.N) :
    (dat4 V c).flushed 5 t = ((cfg4.win 5).blk t).view.read (Elt Ideal) (Lin V c) := by
  show (cfg4.win 5).cut (grid4.coords t) ((dat4 V c).after 5 t) = _
  rw [after4_5]
  unfold out4_5
  rw [View.canon_unit_zero hz2]
  simp only [View.ld_unit_zero (S := S10000x128) hz2, View.ld_unit_zero (S := S1x128) hz2, View.ld_unit_zero (S := S128x128) hz2]
  funext j
  obtain ⟨p, q, rfl⟩ : ∃ (p : Fin 10000) (q : Fin 128), j = ix2 p q := ⟨j 0, j 1, eq_ix2 j⟩
  obtain ⟨e00, e01, e10, e11, e20, e21, e30, e31, e40, e41, e50, e51, e60, e61, e62, e70, e71, e72⟩ := idx_facts t
  have ht : t.val < 10 := lt_of_lt_of_eq t.isLt (show cfg4.N = 10 from N_4)
  show k4_pay1 (iblk4 V c 0 t) (iblk4 V c 2 t) (iblk4 V c 3 t) (iblk4 V c 1 t) (iblk4 V c 4 t) (ix2 p q)
     = Lin V c (((cfg4.win 5).blk t).view.emb (ix2 p q))
  refine (pay1_blk V c t p q ⟨t.val * 10000 + p.val, by omega⟩ rfl).trans ?_
  refine congrArg _ (funext fun a => Fin.ext ?_)
  match a with
  | ⟨0, _⟩ => show t.val * 10000 + p.val = win4_5.index t (0 : Fin 2) * 10000 + 1 * p.val; omega
  | ⟨1, _⟩ => show q.val = win4_5.index t (1 : Fin 2) * 128 + 1 * q.val; omega

theorem mem_blk5 (t : Fin cfg4.N) (i : S100000x128.Idx) :
    i ∈ ((cfg4.win 5).blk t).view.set ↔ ∀ a : Fin 2, win4_5.index t a * S10000x128.size a ≤ (i a).val
      ∧ (i a).val < win4_5.index t a * S10000x128.size a + S10000x128.size a := by
  show i ∈ ((View.whole main_v110_0).slice (win4_5.rect t)).set ↔ _
  rw [View.set_slice_whole, Rect.mem_set_unit]
  exact Iff.rfl

theorem cover5 (i : S100000x128.Idx) :
    ∃ t : Fin cfg4.N, (cfg4.win 5).flush t = true ∧ i ∈ ((cfg4.win 5).blk t).view.set := by
  have hi0 : (i 0).val < 100000 := idx2_lt0 i
  have hi1 : (i 1).val < 128 := idx2_lt1 i
  obtain ⟨t, ht⟩ : ∃ t : Fin cfg4.N, t.val = (i 0).val / 10000 :=
    ⟨⟨(i 0).val / 10000, by rw [show cfg4.N = 10 from N_4]; omega⟩, rfl⟩
  refine ⟨t, flush4_5 t, ?_⟩
  rw [mem_blk5]
  obtain ⟨e00, e01, e10, e11, e20, e21, e30, e31, e40, e41, e50, e51, e60, e61, e62, e70, e71, e72⟩ := idx_facts t
  intro a
  match a with
  | ⟨0, _⟩ =>
    show win4_5.index t (0 : Fin 2) * 10000 ≤ (i 0).val ∧ (i 0).val < win4_5.index t (0 : Fin 2) * 10000 + 10000
    omega
  | ⟨1, _⟩ =>
    show win4_5.index t (1 : Fin 2) * 128 ≤ (i 1).val ∧ (i 1).val < win4_5.index t (1 : Fin 2) * 128 + 128
    omega

/-- After the region its first result array is the layer's linear stage, whole. -/
theorem final5 (c : Dev nD) : (dat4 V c).arrAt 5 cfg4.N
    = Cert.Spec.linear (V c main_v102) (V c main_v90) (V c main_v104) (V c main_v109) (V c main_v108) :=
  (dat4 V c).arrAt_eq_of_cover 5 _ (fun t _ => flushed5_eq V c t) cover5

theorem hz3 : (![0, 0, 0] : Fin 3 → Nat) = fun _ => 0 := funext fun a => by fin_cases a <;> rfl

/-- The lane sum of a block over its node axis, at feature q: the sum over the block's 10000 rows of the entry (r, q). -/
theorem colsum_apply (src : FVec Ideal S10000x128 .f32) (q : Fin 128) :
    multiReduction (F := Ideal) .add [0] S128 src 0x00000000#32 reduces_S10000x128_S128 (.inl rfl) rfl (ix1 q)
      = ∑ r : Fin 10000, src (ix2 r q) := by
  refine (Ideal.multiReduction_add_single src 0x00000000#32 reduces_S10000x128_S128 (.inl rfl) rfl (ix1 q)).trans ?_
  show (∑ r : Fin 10000, src (reduces_S10000x128_S128.lift (ix1 q) r)) = _
  refine Finset.sum_congr rfl fun r _ => congrArg src (funext fun a => Fin.ext ?_)
  match a with
  | ⟨0, _⟩ => rfl
  | ⟨1, _⟩ => rfl

/-- The second payload, a 1 x 1 x 128 row: the column sums of the first payload. -/
theorem pay2_apply (x0 : Vec Ideal S10000x128 .f32) (x2 : Vec Ideal S128x128 .f32) (x5 : Vec Ideal S1x128 .f32)
    (x9 : Vec Ideal S10000x128 .f32) (x10 : Vec Ideal S128x128 .f32) (q : Fin 128) :
    k4_pay2 (F := Ideal) x0 x2 x5 x9 x10 (ix3 0 0 q) = ∑ r : Fin 10000, k4_pay1 (F := Ideal) x0 x2 x5 x9 x10 (ix2 r q) := by
  unfold k4_pay2
  refine (shapeCast_ab_1ab_apply _ _ 0 0 q).trans ?_
  refine (shapeCast_a_1a_apply _ _ 0 q).trans ?_
  exact colsum_apply _ q

/-- The third payload: the column sums of the square of the first payload. -/
theorem pay3_apply (x0 : Vec Ideal S10000x128 .f32) (x2 : Vec Ideal S128x128 .f32) (x5 : Vec Ideal S1x128 .f32)
    (x9 : Vec Ideal S10000x128 .f32) (x10 : Vec Ideal S128x128 .f32) (q : Fin 128) :
    k4_pay3 (F := Ideal) x0 x2 x5 x9 x10 (ix3 0 0 q)
      = ∑ r : Fin 10000, k4_pay1 (F := Ideal) x0 x2 x5 x9 x10 (ix2 r q) * k4_pay1 (F := Ideal) x0 x2 x5 x9 x10 (ix2 r q) := by
  unfold k4_pay3
  refine (shapeCast_ab_1ab_apply _ _ 0 0 q).trans ?_
  refine (shapeCast_a_1a_apply _ _ 0 q).trans ?_
  refine (colsum_apply _ q).trans ?_
  rfl

theorem partSums_ix3 (x : S100000x128.Idx → EReal) (b : Fin 10) (q : Fin 128) :
    Cert.Spec.partSums 10 10000 rfl x (ix3 b 0 q)
      = ∑ r : Fin 10000, x (ix2 ⟨b.val * 10000 + r.val, by omega⟩ q) := rfl

theorem flushed6_eq (c : Dev nD) (t : Fin cfg4.N) :
    (dat4 V c).flushed 6 t = ((cfg4.win 6).blk t).view.read (Elt Ideal) (Cert.Spec.partSums 10 10000 rfl (Lin V c)) := by
  show (cfg4.win 6).cut (grid4.coords t) ((dat4 V c).after 6 t) = _
  rw [after4_6]
  unfold out4_6
  rw [View.canon_unit_zero hz3]
  simp only [View.ld_unit_zero (S := S10000x128) hz2, View.ld_unit_zero (S := S1x128) hz2, View.ld_unit_zero (S := S128x128) hz2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  obtain ⟨e00, e01, e10, e11, e20, e21, e30, e31, e40, e41, e50, e51, e60, e61, e62, e70, e71, e72⟩ := idx_facts t
  have ht : t.val < 10 := lt_of_lt_of_eq t.isLt (show cfg4.N = 10 from N_4)
  show k4_pay2 (iblk4 V c 0 t) (iblk4 V c 2 t) (iblk4 V c 3 t) (iblk4 V c 1 t) (iblk4 V c 4 t) (ix3 0 0 q)
     = Cert.Spec.partSums 10 10000 rfl (Lin V c) (((cfg4.win 6).blk t).view.emb (ix3 0 0 q))
  refine (pay2_apply _ _ _ _ _ q).trans ?_
  have hE : ((cfg4.win 6).blk t).view.emb (ix3 0 0 q) = ix3 (⟨t.val, ht⟩ : Fin 10) 0 q := funext fun a => Fin.ext (by
    match a with
    | ⟨0, _⟩ => show win4_6.index t (0 : Fin 3) * 1 + 1 * 0 = t.val; omega
    | ⟨1, _⟩ => show win4_6.index t (1 : Fin 3) * 1 + 1 * 0 = 0; omega
    | ⟨2, _⟩ => show win4_6.index t (2 : Fin 3) * 128 + 1 * q.val = q.val; omega)
  rw [hE]
  refine Eq.trans ?_ (partSums_ix3 (Lin V c) ⟨t.val, ht⟩ q).symm
  exact Finset.sum_congr rfl fun r _ => pay1_blk V c t r q _ rfl

theorem mem_blk6 (t : Fin cfg4.N) (i : S10x1x128.Idx) :
    i ∈ ((cfg4.win 6).blk t).view.set ↔ ∀ a : Fin 3, win4_6.index t a * S1x1x128.size a ≤ (i a).val
      ∧ (i a).val < win4_6.index t a * S1x1x128.size a + S1x1x128.size a := by
  show i ∈ ((View.whole main_v110_1).slice (win4_6.rect t)).set ↔ _
  rw [View.set_slice_whole, Rect.mem_set_unit]
  exact Iff.rfl

/-- Entry (b, 0, q) of the per-block array is written by the grid point b. -/
theorem cover6 (i : S10x1x128.Idx) :
    ∃ t : Fin cfg4.N, (cfg4.win 6).flush t = true ∧ i ∈ ((cfg4.win 6).blk t).view.set := by
  have hi0 : (i 0).val < 10 := (i 0).isLt
  have hi1 : (i 1).val < 1 := (i 1).isLt
  have hi2 : (i 2).val < 128 := (i 2).isLt
  obtain ⟨t, ht⟩ : ∃ t : Fin cfg4.N, t.val = (i 0).val :=
    ⟨⟨(i 0).val, by rw [show cfg4.N = 10 from N_4]; omega⟩, rfl⟩
  refine ⟨t, flush4_6 t, ?_⟩
  rw [mem_blk6]
  obtain ⟨e00, e01, e10, e11, e20, e21, e30, e31, e40, e41, e50, e51, e60, e61, e62, e70, e71, e72⟩ := idx_facts t
  intro a
  match a with
  | ⟨0, _⟩ =>
    show win4_6.index t (0 : Fin 3) * 1 ≤ (i 0).val ∧ (i 0).val < win4_6.index t (0 : Fin 3) * 1 + 1
    omega
  | ⟨1, _⟩ =>
    show win4_6.index t (1 : Fin 3) * 1 ≤ (i 1).val ∧ (i 1).val < win4_6.index t (1 : Fin 3) * 1 + 1
    omega
  | ⟨2, _⟩ =>
    show win4_6.index t (2 : Fin 3) * 128 ≤ (i 2).val ∧ (i 2).val < win4_6.index t (2 : Fin 3) * 128 + 128
    omega

/-- After the region its second result array holds the per-block column sums of the linear stage. -/
theorem final6 (c : Dev nD) : (dat4 V c).arrAt 6 cfg4.N
    = Cert.Spec.partSums 10 10000 rfl (Cert.Spec.linear (V c main_v102) (V c main_v90) (V c main_v104) (V c main_v109) (V c main_v108)) :=
  (dat4 V c).arrAt_eq_of_cover 6 _ (fun t _ => flushed6_eq V c t) cover6

theorem flushed7_eq (c : Dev nD) (t : Fin cfg4.N) :
    (dat4 V c).flushed 7 t
      = ((cfg4.win 7).blk t).view.read (Elt Ideal) (Cert.Spec.partSums 10 10000 rfl (Cert.Spec.sq (Lin V c))) := by
  show (cfg4.win 7).cut (grid4.coords t) ((dat4 V c).after 7 t) = _
  rw [after4_7]
  unfold out4_7
  rw [View.canon_unit_zero hz3]
  simp only [View.ld_unit_zero (S := S10000x128) hz2, View.ld_unit_zero (S := S1x128) hz2, View.ld_unit_zero (S := S128x128) hz2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  obtain ⟨e00, e01, e10, e11, e20, e21, e30, e31, e40, e41, e50, e51, e60, e61, e62, e70, e71, e72⟩ := idx_facts t
  have ht : t.val < 10 := lt_of_lt_of_eq t.isLt (show cfg4.N = 10 from N_4)
  show k4_pay3 (iblk4 V c 0 t) (iblk4 V c 2 t) (iblk4 V c 3 t) (iblk4 V c 1 t) (iblk4 V c 4 t) (ix3 0 0 q)
     = Cert.Spec.partSums 10 10000 rfl (Cert.Spec.sq (Lin V c)) (((cfg4.win 7).blk t).view.emb (ix3 0 0 q))
  refine (pay3_apply _ _ _ _ _ q).trans ?_
  have hE : ((cfg4.win 7).blk t).view.emb (ix3 0 0 q) = ix3 (⟨t.val, ht⟩ : Fin 10) 0 q := funext fun a => Fin.ext (by
    match a with
    | ⟨0, _⟩ => show win4_7.index t (0 : Fin 3) * 1 + 1 * 0 = t.val; omega
    | ⟨1, _⟩ => show win4_7.index t (1 : Fin 3) * 1 + 1 * 0 = 0; omega
    | ⟨2, _⟩ => show win4_7.index t (2 : Fin 3) * 128 + 1 * q.val = q.val; omega)
  rw [hE]
  refine Eq.trans ?_ (partSums_ix3 (Cert.Spec.sq (Lin V c)) ⟨t.val, ht⟩ q).symm
  refine Finset.sum_congr rfl fun r _ => ?_
  have h := pay1_blk V c t r q ⟨t.val * 10000 + r.val, by omega⟩ rfl
  exact congrArg (fun z => z * z) h

theorem mem_blk7 (t : Fin cfg4.N) (i : S10x1x128.Idx) :
    i ∈ ((cfg4.win 7).blk t).view.set ↔ ∀ a : Fin 3, win4_7.index t a * S1x1x128.size a ≤ (i a).val
      ∧ (i a).val < win4_7.index t a * S1x1x128.size a + S1x1x128.size a := by
  show i ∈ ((View.whole main_v110_2).slice (win4_7.rect t)).set ↔ _
  rw [View.set_slice_whole, Rect.mem_set_unit]
  exact Iff.rfl

/-- Entry (b, 0, q) of the per-block array is written by the grid point b. -/
theorem cover7 (i : S10x1x128.Idx) :
    ∃ t : Fin cfg4.N, (cfg4.win 7).flush t = true ∧ i ∈ ((cfg4.win 7).blk t).view.set := by
  have hi0 : (i 0).val < 10 := (i 0).isLt
  have hi1 : (i 1).val < 1 := (i 1).isLt
  have hi2 : (i 2).val < 128 := (i 2).isLt
  obtain ⟨t, ht⟩ : ∃ t : Fin cfg4.N, t.val = (i 0).val :=
    ⟨⟨(i 0).val, by rw [show cfg4.N = 10 from N_4]; omega⟩, rfl⟩
  refine ⟨t, flush4_7 t, ?_⟩
  rw [mem_blk7]
  obtain ⟨e00, e01, e10, e11, e20, e21, e30, e31, e40, e41, e50, e51, e60, e61, e62, e70, e71, e72⟩ := idx_facts t
  intro a
  match a with
  | ⟨0, _⟩ =>
    show win4_7.index t (0 : Fin 3) * 1 ≤ (i 0).val ∧ (i 0).val < win4_7.index t (0 : Fin 3) * 1 + 1
    omega
  | ⟨1, _⟩ =>
    show win4_7.index t (1 : Fin 3) * 1 ≤ (i 1).val ∧ (i 1).val < win4_7.index t (1 : Fin 3) * 1 + 1
    omega
  | ⟨2, _⟩ =>
    show win4_7.index t (2 : Fin 3) * 128 ≤ (i 2).val ∧ (i 2).val < win4_7.index t (2 : Fin 3) * 128 + 128
    omega

/-- After the region its third result array holds the per-block column sums of the square of the linear stage. -/
theorem final7 (c : Dev nD) : (dat4 V c).arrAt 7 cfg4.N
    = Cert.Spec.partSums 10 10000 rfl (Cert.Spec.sq (Cert.Spec.linear (V c main_v102) (V c main_v90) (V c main_v104) (V c main_v109) (V c main_v108))) :=
  (dat4 V c).arrAt_eq_of_cover 7 _ (fun t _ => flushed7_eq V c t) cover7

end Cert.KernelIdeal.Region4
end
-- ==== Proof.Region5.lean ====
/-
  Region 5 of the tiled program: the normalise-and-rectify kernel of a layer. Each of its ten grid points stages
  a block of 10000 nodes of the layer's linear output (all 128 features) and the four feature rows (mean, variance,
  scale, shift), and writes back max ((x - mean) * rsqrt (var + eps) * scale + shift) 0 for the block. The blocks
  tile the node axis, so after the region the result array is that one function of the whole arrays, index by index:
  entry (i, q) depends on the linear output at (i, q) and on the four rows at feature q.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region5
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- One entry normalised, scaled, shifted and rectified. -/
def nrm (x μ v γ β : EReal) : EReal :=
  max ((x - μ) * Ideal.rsqrt (v + Ideal.ofBits .f32 0x3727C5AC#32) * γ + β) (Ideal.ofBits .f32 0x00000000#32)

/-- The column of an index of the node-by-feature array, as a feature number. -/
def col (i : S100000x128.Idx) : Fin 128 := ⟨(i 1).val, idx2_lt1 i⟩

/-- The region's result as one function of the whole arrays it reads. -/
def G (lin : S100000x128.Idx → EReal) (mean var gam bet : S1x128.Idx → EReal) : S100000x128.Idx → EReal :=
  fun i => nrm (lin i) (mean (ix2 0 (col i))) (var (ix2 0 (col i))) (gam (ix2 0 (col i))) (bet (ix2 0 (col i)))

theorem pay_apply (x0 : Vec Ideal S10000x128 .f32) (x1 x2 x3 x4 : Vec Ideal S1x128 .f32) (p : Fin 10000) (q : Fin 128) :
    k5_pay1 (F := Ideal) x0 x1 x2 x3 x4 (ix2 p q)
      = nrm (x0 (ix2 p q)) (x1 (ix2 0 q)) (x2 (ix2 0 q)) (x3 (ix2 0 q)) (x4 (ix2 0 q)) := by
  unfold k5_pay1
  simp only [shapeCast_self]
  have hb : ∀ v : Vec Ideal S1x128 .f32, broadcastTo S10000x128 v broadcasts_S1x128_S10000x128 (ix2 p q) = v (ix2 0 q) := fun v =>
    broadcastTo_apply v _ (ix2 p q) (ix2 0 q) (by intro a; match a with | ⟨0, _⟩ => rfl | ⟨1, _⟩ => rfl)
  simp only [maximumf, addf, mulf, subf, rsqrt, broadcast, hb]
  rfl

theorem idx_facts : ∀ t : Fin cfg5.N,
    win5_0.index t (0 : Fin 2) = win5_5.index t (0 : Fin 2) ∧ win5_0.index t (1 : Fin 2) = 0 ∧ win5_5.index t (1 : Fin 2) = 0
    ∧ win5_5.index t (0 : Fin 2) = t.val
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem flushed_eq (c : Dev nD) (t : Fin cfg5.N) :
    (dat5 V c).flushed 5 t = ((cfg5.win 5).blk t).view.read (Elt Ideal)
      (G (V c main_v110_0) (V c main_v125) (V c main_v126) (V c main_v127) (V c main_v128)) := by
  show (cfg5.win 5).cut (grid5.coords t) ((dat5 V c).after 5 t) = _
  rw [after5_5]
  unfold out5_5
  rw [View.canon_unit_zero hz2]
  simp only [View.ld_unit_zero (S := S10000x128) hz2, View.ld_unit_zero (S := S1x128) hz2]
  funext j
  obtain ⟨p, q, rfl⟩ : ∃ (p : Fin 10000) (q : Fin 128), j = ix2 p q := ⟨j 0, j 1, eq_ix2 j⟩
  show k5_pay1 (iblk5 V c 0 t) (iblk5 V c 1 t) (iblk5 V c 2 t) (iblk5 V c 3 t) (iblk5 V c 4 t) (ix2 p q)
     = G (V c main_v110_0) (V c main_v125) (V c main_v126) (V c main_v127) (V c main_v128) (((cfg5.win 5).blk t).view.emb (ix2 p q))
  refine (pay_apply _ _ _ _ _ p q).trans ?_
  unfold G
  obtain ⟨e0, e1, e2, e3, e4, e5, e6, e7, e8, e9, e10, e11⟩ := idx_facts t
  have h0 : iblk5 V c 0 t (ix2 p q) = V c main_v110_0 (((cfg5.win 5).blk t).view.emb (ix2 p q)) := by
    show V c main_v110_0 (((cfg5.win 0).blk t).view.emb (ix2 p q)) = _
    refine congrArg _ (funext fun a => Fin.ext ?_)
    match a with
    | ⟨0, _⟩ => show win5_0.index t (0 : Fin 2) * 10000 + 1 * p.val = win5_5.index t (0 : Fin 2) * 10000 + 1 * p.val; omega
    | ⟨1, _⟩ => show win5_0.index t (1 : Fin 2) * 128 + 1 * q.val = win5_5.index t (1 : Fin 2) * 128 + 1 * q.val; omega
  have hc : col (((cfg5.win 5).blk t).view.emb (ix2 p q)) = q :=
    Fin.ext (by show win5_5.index t (1 : Fin 2) * 128 + 1 * q.val = q.val; omega)
  have h1 : iblk5 V c 1 t (ix2 0 q) = V c main_v125 (ix2 0 q) := by
    show V c main_v125 (((cfg5.win 1).blk t).view.emb (ix2 0 q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  have h2 : iblk5 V c 2 t (ix2 0 q) = V c main_v126 (ix2 0 q) := by
    show V c main_v126 (((cfg5.win 2).blk t).view.emb (ix2 0 q)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  have h3 : iblk5 V c 3 t (ix2 0 q) = V c main_v127 (ix2 0 q) := by
    show V c main_v127 (((cfg5.win 3).blk t).view.emb (ix2 0 q)) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  have h4 : iblk5 V c 4 t (ix2 0 q) = V c main_v128 (ix2 0 q) := by
    show V c main_v128 (((cfg5.win 4).blk t).view.emb (ix2 0 q)) = _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega
  rw [h0, h1, h2, h3, h4, hc]

theorem mem_blk (t : Fin cfg5.N) (i : S100000x128.Idx) :
    i ∈ ((cfg5.win 5).blk t).view.set ↔ ∀ a : Fin 2, win5_5.index t a * S10000x128.size a ≤ (i a).val
      ∧ (i a).val < win5_5.index t a * S10000x128.size a + S10000x128.size a := by
  show i ∈ ((View.whole main_v129).slice (win5_5.rect t)).set ↔ _
  rw [View.set_slice_whole, Rect.mem_set_unit]
  exact Iff.rfl

theorem cover (i : S100000x128.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  obtain ⟨t, ht⟩ : ∃ t : Fin cfg5.N, t.val = (i 0).val / 10000 :=
    ⟨⟨(i 0).val / 10000, by rw [show cfg5.N = 10 from N_5]; omega⟩, rfl⟩
  refine ⟨t, flush5_5 t, ?_⟩
  rw [mem_blk]
  obtain ⟨e0, e1, e2, e3, e4, e5, e6, e7, e8, e9, e10, e11⟩ := idx_facts t
  intro a
  match a with
  | ⟨0, _⟩ =>
    show win5_5.index t (0 : Fin 2) * 10000 ≤ (i 0).val ∧ (i 0).val < win5_5.index t (0 : Fin 2) * 10000 + 10000
    omega
  | ⟨1, _⟩ =>
    show win5_5.index t (1 : Fin 2) * 128 ≤ (i 1).val ∧ (i 1).val < win5_5.index t (1 : Fin 2) * 128 + 128
    omega

/-- After the region its result array is the normalised and rectified input, whole. -/
theorem final (c : Dev nD) : (dat5 V c).arrAt 5 cfg5.N
    = G (V c main_v110_0) (V c main_v125) (V c main_v126) (V c main_v127) (V c main_v128) :=
  (dat5 V c).arrAt_eq_of_cover 5 _ (fun t _ => flushed_eq V c t) cover

/-- The same, in the shared vocabulary of stages. -/
theorem final_spec (c : Dev nD) : (dat5 V c).arrAt 5 cfg5.N
    = Cert.Spec.normRelu (V c main_v110_0) (V c main_v125) (V c main_v126) (V c main_v127) (V c main_v128) :=
  (final V c).trans rfl

end Cert.KernelIdeal.Region5
end
-- ==== Proof.LibMoments.lean ====
/-
  General laws about first and second moments on the extended reals, for entries that are real numbers.

  A batch normalisation needs, per feature, the mean mu = (sum x) / n and the variance of n entries. One program computes
  the variance in two passes, as the mean of the squared deviations (sum (x - mu)^2) / n; another in one pass, as the
  mean of the squares less the squared mean, clamped at zero: max ((sum x^2) / n - mu^2) 0. Over the reals the two
  agree: expanding the square gives sum x^2 - 2 mu sum x + n mu^2 = sum x^2 - n mu^2, and the common value is a
  sum of squares over a positive count, so the clamp is the identity. On the extended reals the expansion needs the
  entries FINITE: it distributes a product over a sum and cancels, which fail at the infinities. So the law is stated
  for entries that are real numbers, and proved by carrying every term back into the reals.

  Also here: a finite sum of reals read in the extended reals is the sum of the entries read there; a sum over
  B * R consecutive places is the sum over B blocks of the sums over the R places of each block (what lets per-block
  partial sums stand for the whole sum); and that the operations involved keep real numbers real.
-/
import Idealize.ShloMosaic.PureOps.Ideal

noncomputable section

namespace Cert.LibMoments

open Idealize.ShloMosaic

/-! ## Real numbers inside the extended reals -/

/-- An extended real that is a real number (neither infinity). -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of the reals into the extended reals is monotone, so it carries a maximum to the maximum. -/
theorem coe_max (a b : ℝ) : ((Max.max a b : ℝ) : EReal) = Max.max (a : EReal) (b : EReal) :=
  EReal.coe_strictMono.monotone.map_max

theorem IsReal.max {x y : EReal} (hx : IsReal x) (hy : IsReal y) : IsReal (max x y) := by
  obtain ⟨a, rfl⟩ := hx; obtain ⟨b, rfl⟩ := hy; exact ⟨Max.max a b, (coe_max a b).symm⟩

/-- A quotient by a nonzero real keeps a real number real. -/
theorem IsReal.div_coe {x : EReal} (hx : IsReal x) {n : ℝ} (hn : n ≠ 0) : IsReal (Ideal.div x (n : EReal)) := by
  rw [Ideal.div_coe hn]; exact hx.mul (isReal_coe _)

/-- A finite sum of reals, read in the extended reals, is the sum of the entries read there. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type*} (s : Finset ι) (x : ι → EReal) (hx : ∀ i ∈ s, IsReal (x i)) : IsReal (∑ i ∈ s, x i) := by
  classical
  induction s using Finset.induction_on with
  | empty => exact ⟨0, by simp⟩
  | insert a s ha ih =>
    rw [Finset.sum_insert ha]
    exact (hx a (Finset.mem_insert_self a s)).add (ih fun i hi => hx i (Finset.mem_insert_of_mem hi))

/-- The reciprocal square root of a positive real is a real number. -/
theorem isReal_rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-! ## The moment identity over the reals -/

/-- The mean of the squared deviations from the mean is the mean of the squares less the square of the mean
    (quotients written as products with 1 / n, the form a quotient by a real takes on the extended reals). -/
theorem real_moment_identity {ι : Type*} [Fintype ι] (h : ι → ℝ) (n : ℝ) (hn : n ≠ 0)
    (hcard : (Fintype.card ι : ℝ) = n) :
    (∑ i, (h i - (∑ j, h j) * (1 / n)) * (h i - (∑ j, h j) * (1 / n))) * (1 / n)
      = (∑ i, h i * h i) * (1 / n) - (∑ j, h j) * (1 / n) * ((∑ j, h j) * (1 / n)) := by
  obtain ⟨S, hS⟩ : ∃ S : ℝ, S = ∑ j, h j := ⟨_, rfl⟩
  rw [← hS]
  have hexp : ∀ i, (h i - S * (1 / n)) * (h i - S * (1 / n))
      = h i * h i - 2 * (S * (1 / n)) * h i + S * (1 / n) * (S * (1 / n)) := fun i => by ring
  have hsum : ∑ i, (h i - S * (1 / n)) * (h i - S * (1 / n))
      = (∑ i, h i * h i) - 2 * (S * (1 / n)) * S + n * (S * (1 / n) * (S * (1 / n))) := by
    simp only [hexp, Finset.sum_add_distrib, Finset.sum_sub_distrib, ← Finset.mul_sum, Finset.sum_const,
      Finset.card_univ, nsmul_eq_mul, hcard, ← hS]
    ring
  rw [hsum]
  field_simp
  ring

/-- The mean of squared deviations is not negative. -/
theorem real_moment_nonneg {ι : Type*} [Fintype ι] (h : ι → ℝ) (μ n : ℝ) (hn : 0 < n) :
    0 ≤ (∑ i, (h i - μ) * (h i - μ)) * (1 / n) :=
  mul_nonneg (Finset.sum_nonneg fun i _ => mul_self_nonneg _) (by positivity)

/-! ## The law on the extended reals -/

/-- For entries that are real numbers, the one-pass variance clamped at zero is the two-pass variance:
    max ((sum x^2) / n - ((sum x) / n)^2) 0 = (sum (x - (sum x) / n)^2) / n,
    with n the number of entries as a real and every quotient the extended reals' quotient. -/
theorem var_one_pass_eq_two_pass {ι : Type*} [Fintype ι] (x : ι → EReal) (hx : ∀ i, IsReal (x i))
    (n : ℝ) (hn : 0 < n) (hcard : (Fintype.card ι : ℝ) = n) :
    max (Ideal.div (∑ i, x i * x i) (n : EReal)
          - Ideal.div (∑ i, x i) (n : EReal) * Ideal.div (∑ i, x i) (n : EReal)) 0
      = Ideal.div (∑ i, (x i - Ideal.div (∑ j, x j) (n : EReal)) * (x i - Ideal.div (∑ j, x j) (n : EReal)))
          (n : EReal) := by
  choose h hh using hx
  obtain rfl : x = fun i => (h i : EReal) := funext hh
  have hn0 : n ≠ 0 := hn.ne'
  have hS : (∑ i, ((h i : ℝ) : EReal)) = ((∑ i, h i : ℝ) : EReal) := (coe_finset_sum _ _).symm
  have hQ : (∑ i, ((h i : ℝ) : EReal) * ((h i : ℝ) : EReal)) = ((∑ i, h i * h i : ℝ) : EReal) := by
    rw [coe_finset_sum]; exact Finset.sum_congr rfl fun i _ => (EReal.coe_mul _ _).symm
  simp only [hQ, hS, Ideal.div_coe hn0]
  rw [← EReal.coe_mul (∑ i, h i) (1 / n)]
  have hD : (∑ i, (((h i : ℝ) : EReal) - (((∑ j, h j) * (1 / n) : ℝ) : EReal))
        * (((h i : ℝ) : EReal) - (((∑ j, h j) * (1 / n) : ℝ) : EReal)))
      = ((∑ i, (h i - (∑ j, h j) * (1 / n)) * (h i - (∑ j, h j) * (1 / n)) : ℝ) : EReal) := by
    rw [coe_finset_sum]
    refine Finset.sum_congr rfl fun i _ => ?_
    rw [← EReal.coe_sub, ← EReal.coe_mul]
  rw [hD, ← EReal.coe_mul, ← EReal.coe_mul, ← EReal.coe_mul, ← EReal.coe_sub, ← EReal.coe_zero, ← coe_max]
  refine congrArg _ ?_
  rw [← real_moment_identity h n hn0 hcard]
  exact max_eq_left (real_moment_nonneg h _ n hn)

/-! ## Sums by blocks -/

/-- A sum over B * R consecutive places is the sum over the B blocks of the sums over each block's R places;
    place r of block b is b * R + r. In any commutative monoid: no finiteness is needed to regroup a sum. -/
theorem sum_by_blocks {M : Type*} [AddCommMonoid M] (B R : ℕ) (f : Fin (B * R) → M) :
    ∑ i : Fin (B * R), f i = ∑ b : Fin B, ∑ r : Fin R, f (finProdFinEquiv (b, r)) := by
  rw [← Fintype.sum_prod_type' (f := fun b r => f (finProdFinEquiv (b, r)))]
  exact (Equiv.sum_comp finProdFinEquiv f).symm

/-- The place of entry r of block b. -/
theorem blockPlace_val (B R : ℕ) (b : Fin B) (r : Fin R) :
    (finProdFinEquiv (b, r) : Fin (B * R)).val = r.val + R * b.val := rfl

end Cert.LibMoments

end
-- ==== Proof.NormBridge.lean ====
/-
  The bridge between the two programs' arithmetic, as pure functions on the extended reals.

  Layer by layer the two programs apply the same maps - the neighbour aggregation, the two matrix products and the
  bias, the normalisation (x - mean) * rsqrt (var + eps) * gamma + beta, the rectifier - and differ only in how a
  feature's mean and variance over the n = B * R nodes are obtained:
    the reference sums the feature over all nodes at once, and takes the variance in two passes,
      mean = (0 + sum_i x i) / n,   var = (0 + sum_i (x i - mean)^2) / n;
    the tiled program sums each block of R nodes, then the B partial sums, and takes the variance in one pass,
      mean = (0 + sum_b sum_r x (b, r)) / n,   var = max ((0 + sum_b sum_r x (b, r)^2) / n - mean * mean) 0.
  For real entries these agree (regrouping a sum needs nothing; the variance law needs the entries real:
  LibMoments). What keeps the entries real from one layer to the next is collected here too: sums, products and
  quotients by the node count of real numbers are real; a variance of real entries is a real number that is not
  negative, so with eps > 0 the reciprocal square root is taken of a positive real and is real.

  The head differs in two more spellings: the first product contracts over the four feature blocks one after the
  other instead of over their concatenation (a sum over a + b + c + d places split in four: no finiteness needed),
  and its activation tests y > 0 where the reference tests y ≥ 0 (the two branches agree at y = 0).
-/
import proofs.«173273_j2259152798196_2_alg».proof.Proof.LibMoments

noncomputable section

namespace Cert.NormBridge

open Cert.LibMoments Idealize.ShloMosaic

/-! ## A feature's mean and variance, both ways -/

/-- The reference's mean of a feature over all places: the sum from 0, over the count. -/
def meanWhole {ι : Type*} [Fintype ι] (x : ι → EReal) (n : EReal) : EReal := Ideal.div (0 + ∑ i, x i) n

/-- The reference's two-pass variance: the mean of the squared deviations from the mean. -/
def varTwoPass {ι : Type*} [Fintype ι] (x : ι → EReal) (n : EReal) : EReal :=
  Ideal.div (0 + ∑ i, (x i - meanWhole x n) * (x i - meanWhole x n)) n

/-- The tiled program's mean: the sum, from 0, of the per-block sums, over the count. -/
def meanBlocks (B R : ℕ) (x : Fin (B * R) → EReal) (n : EReal) : EReal :=
  Ideal.div (0 + ∑ b : Fin B, ∑ r : Fin R, x (finProdFinEquiv (b, r))) n

/-- The tiled program's one-pass variance, clamped at zero. -/
def varOnePass (B R : ℕ) (x : Fin (B * R) → EReal) (n : EReal) : EReal :=
  max (Ideal.div (0 + ∑ b : Fin B, ∑ r : Fin R, x (finProdFinEquiv (b, r)) * x (finProdFinEquiv (b, r))) n
        - meanBlocks B R x n * meanBlocks B R x n) 0

/-- Summing block by block is summing at once: the two means are one number, whatever the entries. -/
theorem meanBlocks_eq (B R : ℕ) (x : Fin (B * R) → EReal) (n : EReal) : meanBlocks B R x n = meanWhole x n := by
  unfold meanBlocks meanWhole
  rw [← sum_by_blocks B R x]

/-- For real entries the clamped one-pass variance of the blocked sums is the two-pass variance. -/
theorem varOnePass_eq (B R : ℕ) (x : Fin (B * R) → EReal) (hx : ∀ i, IsReal (x i)) (n : ℝ) (hn : 0 < n)
    (hcard : ((B * R : ℕ) : ℝ) = n) : varOnePass B R x (n : EReal) = varTwoPass x (n : EReal) := by
  unfold varOnePass varTwoPass
  rw [meanBlocks_eq]
  unfold meanWhole
  rw [← sum_by_blocks B R (fun i => x i * x i)]
  simp only [zero_add]
  exact var_one_pass_eq_two_pass x hx n hn (by rw [Fintype.card_fin]; exact hcard)

/-! ## What stays real -/

theorem isReal_zero : IsReal (0 : EReal) := ⟨0, rfl⟩

theorem isReal_meanWhole {ι : Type*} [Fintype ι] (x : ι → EReal) (hx : ∀ i, IsReal (x i)) {n : ℝ} (hn : n ≠ 0) :
    IsReal (meanWhole x (n : EReal)) :=
  (isReal_zero.add (isReal_sum _ x fun i _ => hx i)).div_coe hn

/-- The two-pass variance of real entries is a real number that is not negative. -/
theorem varTwoPass_nonneg_real {ι : Type*} [Fintype ι] (x : ι → EReal) (hx : ∀ i, IsReal (x i)) {n : ℝ} (hn : 0 < n) :
    ∃ v : ℝ, 0 ≤ v ∧ varTwoPass x (n : EReal) = (v : EReal) := by
  obtain ⟨μ, hμ⟩ := isReal_meanWhole x hx hn.ne'
  choose h hh using hx
  obtain rfl : x = fun i => (h i : EReal) := funext hh
  refine ⟨(∑ i, (h i - μ) * (h i - μ)) * (1 / n), real_moment_nonneg h μ n hn, ?_⟩
  unfold varTwoPass
  rw [hμ, zero_add, Ideal.div_coe hn.ne', EReal.coe_mul, coe_finset_sum]
  refine congrArg (· * ((1 / n : ℝ) : EReal)) (Finset.sum_congr rfl fun i _ => ?_)
  show ((h i : EReal) - (μ : EReal)) * ((h i : EReal) - (μ : EReal)) = _
  rw [EReal.coe_mul, EReal.coe_sub]

/-- The normalised, scaled and shifted entry is real when its ingredients are and the variance plus eps is positive. -/
theorem isReal_normalize {x μ γ β : EReal} (hx : IsReal x) (hμ : IsReal μ) (hγ : IsReal γ) (hβ : IsReal β)
    {v e : ℝ} (hv : 0 ≤ v) (he : 0 < e) :
    IsReal ((x - μ) * Ideal.rsqrt ((v : EReal) + (e : EReal)) * γ + β) := by
  have hr : IsReal (Ideal.rsqrt ((v : EReal) + (e : EReal))) := by
    rw [← EReal.coe_add]; exact isReal_rsqrt_of_pos (by linarith)
  exact (((hx.sub hμ).mul hr).mul hγ).add hβ

/-- A contraction of real rows with real columns, plus a real bias, plus another such contraction, is real: the
    linear map of a layer keeps real values real. -/
theorem isReal_linear {κ : Type*} [Fintype κ] (a h wl wr : κ → EReal) (b : EReal)
    (ha : ∀ k, IsReal (a k)) (hh : ∀ k, IsReal (h k)) (hwl : ∀ k, IsReal (wl k)) (hwr : ∀ k, IsReal (wr k))
    (hb : IsReal b) : IsReal ((∑ k, a k * wl k) + b + ∑ k, h k * wr k) :=
  ((isReal_sum _ _ fun k _ => (ha k).mul (hwl k)).add hb).add (isReal_sum _ _ fun k _ => (hh k).mul (hwr k))

/-! ## The head's two other spellings -/

/-- A sum over a + b + c + d consecutive places is the sum of the four stretches' sums: contracting over the
    concatenated features is contracting over each feature block and adding (any commutative monoid). -/
theorem sum_four_stretches {M : Type*} [AddCommMonoid M] (a b c d : ℕ) (f : Fin (a + b + c + d) → M) :
    ∑ i, f i = (∑ i : Fin a, f (Fin.castAdd d (Fin.castAdd c (Fin.castAdd b i))))
      + (∑ i : Fin b, f (Fin.castAdd d (Fin.castAdd c (Fin.natAdd a i))))
      + (∑ i : Fin c, f (Fin.castAdd d (Fin.natAdd (a + b) i)))
      + ∑ i : Fin d, f (Fin.natAdd (a + b + c) i) := by
  rw [Fin.sum_univ_add, Fin.sum_univ_add, Fin.sum_univ_add]

/-- The leaky rectifier tested with y > 0 is the one tested with y ≥ 0: at y = 0 the scaled branch is s * 0 = 0. -/
theorem leaky_gt_eq_ge (s y : EReal) :
    Scalar.select (Ideal.cmp .ogt y 0) y (s * y) = Scalar.select (Ideal.cmp .oge y 0) y (s * y) := by
  unfold Scalar.select Ideal.cmp
  by_cases h0 : y = 0
  · subst h0; simp
  · have hlt : (0 < y) ↔ (0 ≤ y) := ⟨le_of_lt, fun h => lt_of_le_of_ne h (Ne.symm h0)⟩
    simp only [hlt]

end Cert.NormBridge

end
-- ==== Proof.StageStats.lean ====
/-
  The statistics stage, on the operation terms the two programs print.

  Per feature q the reference sums the layer's linear output over all 100000 nodes at once (a host sum over the node
  axis), divides by the node count, and computes the variance in two passes inside its variance function (deviations
  from the mean, the mean set as a row and broadcast down the nodes; their squares summed; divided by the count less a
  zero correction; selected because that count is positive). The tiled program receives from its kernel the per-block
  sums and sums of squares (B blocks of R nodes), adds them over the block axis on the host, divides by the count, and
  forms the one-pass variance max (E[x^2] - E[x]^2) 0.

  Read at a feature, every one of these terms is an expression in the feature's column: the two means are the mean of
  the column (a sum by blocks is the sum); the reference's variance is the two-pass variance of the column; and the
  tiled program's is too when the column's entries are real numbers (LibMoments / NormBridge).
-/
import proofs.«173273_j2259152798196_2_alg».proof.Proof.Spec
import proofs.«173273_j2259152798196_2_alg».proof.Proof.NormBridge
import Idealize.ShloMosaic.Lib.IdealHost
import Idealize.ShloMosaic.Lib.Pipeline.Value
import Idealize.ShloMosaic.PureOps.Ideal.Laws

noncomputable section

namespace Cert.StageStats

open Idealize.ShloMosaic Idealize.ShloMosaic.ValueIdx Cert.LibMoments Cert.NormBridge

/-- The float 100000.0 is the real number 100000. -/
theorem ofBits_nodes : Ideal.ofBits .f32 0x47C35000#32 = ((100000 : ℝ) : EReal) := by
  simp [Ideal.ofBits, Ideal.ieee, -EReal.coe_mul]; norm_num

/-- The float 1e-5 is a positive real number. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- Dropping the two leading axes of a B x 1 x C index leaves its last coordinate. -/
theorem drop01 {B C : ℕ} (h : (⟨3, ![B, 1, C]⟩ : Shape).ReducesTo [0, 1] ⟨1, ![C]⟩)
    (i : (⟨3, ![B, 1, C]⟩ : Shape).Idx) : h.drop i = ix1 (i 2) := by
  funext a
  match a with
  | ⟨0, _⟩ => rfl

/-- Dropping the leading axis of an N x C index leaves its last coordinate. -/
theorem drop0 {N C : ℕ} (h : (⟨2, ![N, C]⟩ : Shape).ReducesTo [0] ⟨1, ![C]⟩)
    (i : (⟨2, ![N, C]⟩ : Shape).Idx) : h.drop i = ix1 (i 1) := by
  funext a
  match a with
  | ⟨0, _⟩ => rfl

/-- The entries of a B x 1 x C array that reduce to feature q are the B entries (b, 0, q). -/
theorem sum_drop01 {B C : ℕ} (h : (⟨3, ![B, 1, C]⟩ : Shape).ReducesTo [0, 1] ⟨1, ![C]⟩)
    (x : (⟨3, ![B, 1, C]⟩ : Shape).Idx → EReal) (q : Fin C) :
    ∑ i ∈ Finset.univ.filter (fun i => h.drop i = ix1 q), x i = ∑ b : Fin B, x (ix3 b (0 : Fin 1) q) := by
  symm
  refine Finset.sum_bij (fun b _ => ix3 b (0 : Fin 1) q) ?_ ?_ ?_ ?_
  · intro b _
    rw [Finset.mem_filter]
    exact ⟨Finset.mem_univ _, drop01 h _⟩
  · intro b _ b' _ e
    exact congrFun e 0
  · intro i hi
    rw [Finset.mem_filter, drop01] at hi
    have hq : i 2 = q := congrFun hi.2 0
    subst hq
    refine ⟨i 0, Finset.mem_univ _, ?_⟩
    exact (congrArg (fun z : Fin 1 => ix3 (i 0) z (i 2)) (Subsingleton.elim (0 : Fin 1) (i 1))).trans (eq_ix3 i).symm
  · intro b _; rfl

/-- The entries of an N x C array that reduce to feature q are the N entries (r, q). -/
theorem sum_drop0 {N C : ℕ} (h : (⟨2, ![N, C]⟩ : Shape).ReducesTo [0] ⟨1, ![C]⟩)
    (x : (⟨2, ![N, C]⟩ : Shape).Idx → EReal) (q : Fin C) :
    ∑ i ∈ Finset.univ.filter (fun i => h.drop i = ix1 q), x i = ∑ r : Fin N, x (ix2 r q) := by
  symm
  refine Finset.sum_bij (fun r _ => ix2 r q) ?_ ?_ ?_ ?_
  · intro r _
    rw [Finset.mem_filter]
    exact ⟨Finset.mem_univ _, drop0 h _⟩
  · intro r _ r' _ e
    exact congrFun e 0
  · intro i hi
    rw [Finset.mem_filter, drop0] at hi
    have hq : i 1 = q := congrFun hi.2 0
    subst hq
    exact ⟨i 0, Finset.mem_univ _, (eq_ix2 i).symm⟩
  · intro r _; rfl

/-! ## The printed terms, read at a feature -/

abbrev S0 : Shape := ⟨0, ![]⟩
abbrev SF : Shape := ⟨1, ![128]⟩
abbrev SRow : Shape := ⟨2, ![1, 128]⟩
abbrev SNF : Shape := ⟨2, ![100000, 128]⟩

/-- A broadcast float scalar constant reads the constant's value everywhere. -/
theorem bcast_const_apply {T : Shape} (hb : S0.BroadcastsInDim T ![]) (w : BitVec 32) (j : T.Idx) :
    broadcastInDim T ![] hb (constant (F := Ideal) S0 .f32 w) j = Ideal.ofBits .f32 w := by
  rw [broadcastInDim_scalar_apply]; rfl

/-- A host sum over the node axis, from the zero constant, at feature q. -/
theorem colSum_apply (h : SNF.ReducesTo [0] SF) (hu : 0 < S0.numel) (x : SNF.Idx → EReal) (q : Fin 128) :
    Host.reduceAdd (F := Ideal) (φ := .f32) x (constant S0 .f32 0x00000000#32) h hu (ix1 q)
      = 0 + ∑ r : Fin 100000, x (ix2 r q) := by
  rw [hostReduceAdd_apply]
  unfold Ideal.hostReduceAdd
  rw [sum_drop0 h x q]
  show Ideal.ofBits .f32 0x00000000#32 + _ = _
  rw [Ideal.ofBits_zero_f32]

/-- A host sum over the block and unit axes of the per-block partial sums, from the zero constant, at feature q. -/
theorem partSum_apply {B : ℕ} (h : (⟨3, ![B, 1, 128]⟩ : Shape).ReducesTo [0, 1] SF) (hu : 0 < S0.numel)
    (x : (⟨3, ![B, 1, 128]⟩ : Shape).Idx → EReal) (q : Fin 128) :
    Host.reduceAdd (F := Ideal) (φ := .f32) x (constant S0 .f32 0x00000000#32) h hu (ix1 q)
      = 0 + ∑ b : Fin B, x (ix3 b (0 : Fin 1) q) := by
  rw [hostReduceAdd_apply]
  unfold Ideal.hostReduceAdd
  rw [sum_drop01 h x q]
  show Ideal.ofBits .f32 0x00000000#32 + _ = _
  rw [Ideal.ofBits_zero_f32]

/-- The reference's mean of a feature: the host sum over the nodes over the broadcast node count. -/
theorem ref_mean_apply (h : SNF.ReducesTo [0] SF) (hu : 0 < S0.numel) (hb : S0.BroadcastsInDim SF ![])
    (lin : SNF.Idx → EReal) (q : Fin 128) :
    Host.divf (F := Ideal) (φ := .f32) (Host.reduceAdd lin (constant S0 .f32 0x00000000#32) h hu)
        (broadcastInDim SF ![] hb (constant S0 .f32 0x47C35000#32)) (ix1 q)
      = meanWhole (fun r : Fin 100000 => lin (ix2 r q)) ((100000 : ℝ) : EReal) := by
  rw [hostDivf_apply, colSum_apply, bcast_const_apply, ofBits_nodes]
  rfl

/-- The tiled program's mean of a feature: the host sum of the per-block sums over the broadcast node count. -/
theorem ker_mean_apply {B R : ℕ} (hBR : B * R = 100000) (h : (⟨3, ![B, 1, 128]⟩ : Shape).ReducesTo [0, 1] SF)
    (hu : 0 < S0.numel) (hb : S0.BroadcastsInDim SF ![]) (lin : SNF.Idx → EReal) (q : Fin 128) :
    Host.divf (F := Ideal) (φ := .f32)
        (Host.reduceAdd (Cert.Spec.partSums B R hBR lin) (constant S0 .f32 0x00000000#32) h hu)
        (broadcastInDim SF ![] hb (constant S0 .f32 0x47C35000#32)) (ix1 q)
      = Ideal.div (0 + ∑ b : Fin B, ∑ r : Fin R, lin (ix2 ⟨b.val * R + r.val, by
            have hb' := b.isLt; have hr := r.isLt
            calc b.val * R + r.val < b.val * R + R := by omega
              _ = (b.val + 1) * R := by ring
              _ ≤ B * R := Nat.mul_le_mul_right R hb'
              _ = 100000 := hBR⟩ q)) ((100000 : ℝ) : EReal) := by
  rw [hostDivf_apply, partSum_apply, bcast_const_apply, ofBits_nodes]
  rfl

/-! ## The two means are one -/

/-- Feature q of a node-by-feature array, as a function of the node. -/
def colFn (lin : SNF.Idx → EReal) (q : Fin 128) : Fin 100000 → EReal := fun r => lin (ix2 r q)

/-- The same over the nodes counted block by block. -/
def colFnB {B R : ℕ} (hBR : B * R = 100000) (lin : SNF.Idx → EReal) (q : Fin 128) : Fin (B * R) → EReal :=
  fun i => lin (ix2 (i.cast hBR) q)

theorem sum_colFnB {B R : ℕ} (hBR : B * R = 100000) (g : Fin 100000 → EReal) :
    ∑ i : Fin (B * R), g (i.cast hBR) = ∑ r : Fin 100000, g r :=
  Equiv.sum_comp (finCongr hBR) g

/-- Node b * R + r is place r of block b. -/
theorem block_place {B R : ℕ} (hBR : B * R = 100000) (b : Fin B) (r : Fin R) (hlt : b.val * R + r.val < 100000) :
    (⟨b.val * R + r.val, hlt⟩ : Fin 100000) = (finProdFinEquiv (b, r)).cast hBR :=
  Fin.ext (by show b.val * R + r.val = r.val + R * b.val; rw [Nat.mul_comm, Nat.add_comm])

theorem ker_mean_eq {B R : ℕ} (hBR : B * R = 100000) (h : (⟨3, ![B, 1, 128]⟩ : Shape).ReducesTo [0, 1] SF)
    (hu : 0 < S0.numel) (hb : S0.BroadcastsInDim SF ![]) (lin : SNF.Idx → EReal) (q : Fin 128) :
    Host.divf (F := Ideal) (φ := .f32)
        (Host.reduceAdd (Cert.Spec.partSums B R hBR lin) (constant S0 .f32 0x00000000#32) h hu)
        (broadcastInDim SF ![] hb (constant S0 .f32 0x47C35000#32)) (ix1 q)
      = meanWhole (colFn lin q) ((100000 : ℝ) : EReal) := by
  rw [ker_mean_apply]
  have e := meanBlocks_eq B R (colFnB hBR lin q) ((100000 : ℝ) : EReal)
  unfold meanBlocks at e
  have e2 : meanWhole (colFnB hBR lin q) ((100000 : ℝ) : EReal) = meanWhole (colFn lin q) ((100000 : ℝ) : EReal) := by
    unfold meanWhole colFnB
    rw [sum_colFnB hBR (fun r => lin (ix2 r q))]
    rfl
  rw [← e2, ← e]
  refine congrArg (fun s => Ideal.div (0 + s) _) (Finset.sum_congr rfl fun b _ => Finset.sum_congr rfl fun r _ => ?_)
  unfold colFnB
  rw [block_place hBR b r]

/-! ## The two variances are one, for real entries -/

theorem ker_sum_blocks {B R : ℕ} (hBR : B * R = 100000) (h : (⟨3, ![B, 1, 128]⟩ : Shape).ReducesTo [0, 1] SF)
    (hu : 0 < S0.numel) (hb : S0.BroadcastsInDim SF ![]) (y : SNF.Idx → EReal) (q : Fin 128) :
    Host.divf (F := Ideal) (φ := .f32)
        (Host.reduceAdd (Cert.Spec.partSums B R hBR y) (constant S0 .f32 0x00000000#32) h hu)
        (broadcastInDim SF ![] hb (constant S0 .f32 0x47C35000#32)) (ix1 q)
      = Ideal.div (0 + ∑ b : Fin B, ∑ r : Fin R, colFnB hBR y q (finProdFinEquiv (b, r))) ((100000 : ℝ) : EReal) := by
  rw [ker_mean_apply]
  refine congrArg (fun s => Ideal.div (0 + s) _) (Finset.sum_congr rfl fun b _ => Finset.sum_congr rfl fun r _ => ?_)
  unfold colFnB
  rw [block_place hBR b r]

/-- The tiled program's variance of a feature, as its host stretch prints it over the per-block sums and sums of
    squares, is the two-pass variance of the feature over all nodes, when the entries are real numbers. -/
theorem ker_var_eq {B R : ℕ} (hBR : B * R = 100000) (h : (⟨3, ![B, 1, 128]⟩ : Shape).ReducesTo [0, 1] SF)
    (hu : 0 < S0.numel) (hb : S0.BroadcastsInDim SF ![]) (lin : SNF.Idx → EReal)
    (hlin : ∀ i, IsReal (lin i)) (q : Fin 128) :
    maximumf (F := Ideal) (φ := .f32)
      (subf
        (Host.divf (Host.reduceAdd (Cert.Spec.partSums B R hBR (Cert.Spec.sq lin)) (constant S0 .f32 0x00000000#32) h hu)
          (broadcastInDim SF ![] hb (constant S0 .f32 0x47C35000#32)))
        (mulf
          (Host.divf (Host.reduceAdd (Cert.Spec.partSums B R hBR lin) (constant S0 .f32 0x00000000#32) h hu)
            (broadcastInDim SF ![] hb (constant S0 .f32 0x47C35000#32)))
          (Host.divf (Host.reduceAdd (Cert.Spec.partSums B R hBR lin) (constant S0 .f32 0x00000000#32) h hu)
            (broadcastInDim SF ![] hb (constant S0 .f32 0x47C35000#32)))))
      (broadcastInDim SF ![] hb (constant S0 .f32 0x00000000#32)) (ix1 q)
      = varTwoPass (colFn lin q) ((100000 : ℝ) : EReal) := by
  have e1 := ker_sum_blocks hBR h hu hb (Cert.Spec.sq lin) q
  have e2 := ker_sum_blocks hBR h hu hb lin q
  have hx : ∀ i, IsReal (colFnB hBR lin q i) := fun i => hlin _
  have hv := varOnePass_eq B R (colFnB hBR lin q) hx 100000 (by norm_num) (by rw [hBR]; norm_num)
  have e3 : varTwoPass (colFnB hBR lin q) ((100000 : ℝ) : EReal) = varTwoPass (colFn lin q) ((100000 : ℝ) : EReal) := by
    unfold varTwoPass meanWhole colFnB
    rw [sum_colFnB hBR (fun r => lin (ix2 r q)),
      sum_colFnB hBR (fun r => (lin (ix2 r q) - Ideal.div (0 + ∑ j : Fin 100000, lin (ix2 j q)) ((100000 : ℝ) : EReal))
        * (lin (ix2 r q) - Ideal.div (0 + ∑ j : Fin 100000, lin (ix2 j q)) ((100000 : ℝ) : EReal)))]
    rfl
  rw [← e3, ← hv]
  unfold varOnePass meanBlocks
  show max (_ - _ * _) (broadcastInDim SF ![] hb (constant (F := Ideal) S0 .f32 0x00000000#32) (ix1 q)) = _
  rw [bcast_const_apply, Ideal.ofBits_zero_f32]
  exact congrArg (fun z => max z 0) (congrArg₂ (· - ·) e1 (congrArg₂ (· * ·) e2 e2))

/-! ## The reference's variance body -/

/-- A feature vector set as a row reads the vector. -/
theorem rowOfVec_apply (hb : SF.BroadcastsInDim SRow ![1]) (v : SF.Idx → EReal) (q : Fin 128) :
    broadcastInDim SRow ![1] hb v (ix2 (0 : Fin 1) q) = v (ix1 q) :=
  broadcastInDim_apply ![1] hb v (ix2 0 q) (ix1 q) (by intro a; match a with | ⟨0, _⟩ => rfl)

/-- A row broadcast down the nodes reads the row at the feature. -/
theorem rowsDown_apply (hb : SRow.BroadcastsInDim SNF ![0, 1]) (w : SRow.Idx → EReal) (r : Fin 100000) (q : Fin 128) :
    broadcastInDim SNF ![0, 1] hb w (ix2 r q) = w (ix2 (0 : Fin 1) q) :=
  broadcastInDim_apply ![0, 1] hb w (ix2 r q) (ix2 0 q) (by intro a; match a with | ⟨0, _⟩ => rfl | ⟨1, _⟩ => rfl)

/-- The node count less the converted integer zero is the real number 100000. -/
theorem count_minus_zero :
    subf (F := Ideal) (φ := .f32) (constant S0 .f32 0x47C35000#32) (sitofp .f32 (constantI S0 32 0#32)) ix0
      = ((100000 : ℝ) : EReal) := by
  show Ideal.ofBits .f32 0x47C35000#32 - (((0#32 : BitVec 32).toInt : ℝ) : EReal) = _
  rw [ofBits_nodes]
  simp

/-- The reference's variance of a feature - the body of its variance function: the deviations from the mean (the mean
    set as a row and broadcast down the nodes), their squares summed over the nodes, over the node count less the
    zero correction, selected because that count is positive - is the two-pass variance of the feature. -/
theorem ref_var_eq (h : SNF.ReducesTo [0] SF) (hu : 0 < S0.numel) (hb1 : SF.BroadcastsInDim SRow ![1])
    (hb2 : S0.BroadcastsInDim SRow ![]) (hb3 : SRow.BroadcastsInDim SNF ![0, 1]) (hb4 : S0.BroadcastsInDim SF ![])
    (lin : SNF.Idx → EReal) (q : Fin 128) :
    (fun (p : IVec S0 1) (a b : FVec Ideal SF .f32) => select (broadcastInDim SF ![] hb4 p) a b)
      (cmpf (F := Ideal) (φ := .f32) .ogt (subf (constant S0 .f32 0x47C35000#32) (sitofp .f32 (constantI S0 32 0#32))) (constant S0 .f32 0x00000000#32))
      (Host.divf (F := Ideal) (φ := .f32)
        (Host.reduceAdd
          (mulf
            (subf lin (broadcastInDim SNF ![0, 1] hb3 (Host.divf (broadcastInDim SRow ![1] hb1
              (Host.reduceAdd lin (constant S0 .f32 0x00000000#32) h hu)) (broadcastInDim SRow ![] hb2 (constant S0 .f32 0x47C35000#32)))))
            (subf lin (broadcastInDim SNF ![0, 1] hb3 (Host.divf (broadcastInDim SRow ![1] hb1
              (Host.reduceAdd lin (constant S0 .f32 0x00000000#32) h hu)) (broadcastInDim SRow ![] hb2 (constant S0 .f32 0x47C35000#32))))))
          (constant S0 .f32 0x00000000#32) h hu)
        (broadcastInDim SF ![] hb4 (subf (constant S0 .f32 0x47C35000#32) (sitofp .f32 (constantI S0 32 0#32)))))
      (broadcastInDim SF ![] hb4 (id (constant S0 .f32 0x7FC00000#32))) (ix1 q)
      = varTwoPass (colFn lin q) ((100000 : ℝ) : EReal) := by
  have hdev : ∀ r : Fin 100000,
      subf (F := Ideal) (φ := .f32) lin (broadcastInDim SNF ![0, 1] hb3 (Host.divf (broadcastInDim SRow ![1] hb1
        (Host.reduceAdd lin (constant S0 .f32 0x00000000#32) h hu)) (broadcastInDim SRow ![] hb2 (constant S0 .f32 0x47C35000#32)))) (ix2 r q)
        = colFn lin q r - meanWhole (colFn lin q) ((100000 : ℝ) : EReal) := by
    intro r
    show lin (ix2 r q) - broadcastInDim (s := SRow) SNF ![0, 1] hb3 _ (ix2 r q) = _
    rw [rowsDown_apply, hostDivf_apply, rowOfVec_apply, colSum_apply, bcast_const_apply, ofBits_nodes]
    rfl
  show Scalar.select (broadcastInDim (s := S0) SF ![] hb4 _ (ix1 q)) _ _ = _
  rw [broadcastInDim_scalar_apply]
  have hc : cmpf (F := Ideal) (φ := .f32) .ogt (subf (constant S0 .f32 0x47C35000#32) (sitofp .f32 (constantI S0 32 0#32)))
      (constant S0 .f32 0x00000000#32) ix0 = 1#1 := by
    show Ideal.cmp .ogt (subf (F := Ideal) (φ := .f32) (constant S0 .f32 0x47C35000#32) (sitofp .f32 (constantI S0 32 0#32)) ix0)
      (Ideal.ofBits .f32 0x00000000#32) = 1#1
    rw [count_minus_zero, Ideal.ofBits_zero_f32]
    have hpos : (0 : EReal) < ((100000 : ℝ) : EReal) := by exact_mod_cast (by norm_num : (0 : ℝ) < 100000)
    unfold Ideal.cmp
    dsimp only
    rw [decide_eq_true hpos]
    rfl
  rw [hc]
  show Ideal.div (Host.reduceAdd (F := Ideal) (φ := .f32) _ _ h hu (ix1 q)) (broadcastInDim (s := S0) SF ![] hb4 _ (ix1 q)) = _
  rw [colSum_apply, broadcastInDim_scalar_apply, count_minus_zero]
  unfold varTwoPass
  apply congrArg (fun s : EReal => Ideal.div (0 + s) ((100000 : ℝ) : EReal))
  apply Finset.sum_congr rfl
  intro r _
  exact congrArg₂ (· * ·) (hdev r) (hdev r)

end Cert.StageStats

end
-- ==== Proof.Layer.lean ====
/-
  A layer as one function. With the statistics read as functions of the layer's linear output L - the mean row
  (feature q: the mean of column q of L) and the variance row (feature q: the two-pass variance of column q) - both
  programs' layer is: normalise L by those rows, scale and shift by the layer's two parameter rows, rectify. What
  differs between the programs is only how the rows are obtained, and StageStats shows the rows are these.
  A layer keeps real values real: the mean of real entries is real, their variance is a real number that is not
  negative, eps is a positive real, so the normalised entry is real, and so is its maximum with zero.
-/
import proofs.«173273_j2259152798196_2_alg».proof.Proof.StageStats

noncomputable section

namespace Cert.Layer

open Idealize.ShloMosaic Idealize.ShloMosaic.ValueIdx Cert.LibMoments Cert.NormBridge Cert.StageStats Cert.Spec

/-- The mean of each feature over the nodes, as a 1 x 128 row. -/
def meanRow (L : SNF.Idx → EReal) : SRow.Idx → EReal :=
  fun j => meanWhole (colFn L (colOf j)) ((100000 : ℝ) : EReal)

/-- The two-pass variance of each feature over the nodes, as a 1 x 128 row. -/
def varRow (L : SNF.Idx → EReal) : SRow.Idx → EReal :=
  fun j => varTwoPass (colFn L (colOf j)) ((100000 : ℝ) : EReal)

/-- A layer's output from its linear output and its scale and shift rows. -/
def layerOut (L : SNF.Idx → EReal) (gam bet : SRow.Idx → EReal) : SNF.Idx → EReal :=
  normRelu L (meanRow L) (varRow L) gam bet

/-- The head's output from its first linear output, its scale and shift rows, and the last weights and bias row. -/
def headOut (L : SNF.Idx → EReal) (gam bet : SRow.Idx → EReal) (w : (⟨2, ![128, 64]⟩ : Shape).Idx → EReal)
    (b : (⟨2, ![1, 64]⟩ : Shape).Idx → EReal) : (⟨2, ![100000, 64]⟩ : Shape).Idx → EReal :=
  normLeakyOut L (meanRow L) (varRow L) gam bet w b

/-- Every index of a row is (0, q). -/
theorem row_idx (j : SRow.Idx) : j = ix2 (0 : Fin 1) (colOf j) := by
  have h := eq_ix2 j
  rw [h]
  exact congrArg (fun u : Fin 1 => ix2 u (j 1)) (Subsingleton.elim _ _)

/-- A row is determined by its entries (0, q). -/
theorem row_ext {f g : SRow.Idx → EReal} (h : ∀ q : Fin 128, f (ix2 (0 : Fin 1) q) = g (ix2 (0 : Fin 1) q)) : f = g := by
  funext j
  rw [row_idx j]
  exact h _

theorem isReal_linear_arr (agg h : SNF.Idx → EReal) (wl wr : (⟨2, ![128, 128]⟩ : Shape).Idx → EReal) (bl : SRow.Idx → EReal)
    (ha : ∀ i, IsReal (agg i)) (hh : ∀ i, IsReal (h i)) (hwl : ∀ i, IsReal (wl i)) (hwr : ∀ i, IsReal (wr i))
    (hb : ∀ i, IsReal (bl i)) (i : SNF.Idx) : IsReal (linear agg h wl bl wr i) :=
  isReal_linear (fun k => agg (ix2 (rowOf i) k)) (fun k => h (ix2 (rowOf i) k)) (fun k => wl (ix2 k (colOf i)))
    (fun k => wr (ix2 k (colOf i))) (bl (ix2 0 (colOf i))) (fun _ => ha _) (fun _ => hh _) (fun _ => hwl _) (fun _ => hwr _) (hb _)

theorem isReal_layerOut (L : SNF.Idx → EReal) (gam bet : SRow.Idx → EReal) (hL : ∀ i, IsReal (L i))
    (hg : ∀ i, IsReal (gam i)) (hb : ∀ i, IsReal (bet i)) (i : SNF.Idx) : IsReal (layerOut L gam bet i) := by
  obtain ⟨e, he, heq⟩ := ofBits_eps
  obtain ⟨v, hv, hveq⟩ := varTwoPass_nonneg_real (colFn L (colOf i)) (fun r => hL _) (n := 100000) (by norm_num)
  unfold layerOut normRelu nrm
  refine IsReal.max ?_ (by rw [Ideal.ofBits_zero_f32]; exact isReal_zero)
  have hm : IsReal (meanRow L (ix2 0 (colOf i))) :=
    isReal_meanWhole _ (fun r => hL _) (by norm_num)
  have hvr : varRow L (ix2 0 (colOf i)) = (v : EReal) := hveq
  rw [hvr, heq]
  exact isReal_normalize (hL i) hm (hg _) (hb _) hv he

end Cert.Layer

end
-- ==== Proof.KernelLayers.lean ====
/-
  The tiled program's layers, read at its segment boundaries, as instances of the one layer function: at the exit of a
  layer's first region the linear stage of the arrays that region reads, with its per-block column sums and sums of
  squares; the host stretch that follows forms from these the mean row and the clamped one-pass variance row, which
  are the mean row and the two-pass variance row of the linear stage (the latter when the linear stage is real); and
  at the exit of the layer's second region the layer's output.
-/
import proofs.«173273_j2259152798196_2_alg».proof.Proof.KernelFold
import proofs.«173273_j2259152798196_2_alg».proof.Proof.Region0
import proofs.«173273_j2259152798196_2_alg».proof.Proof.Region1
import proofs.«173273_j2259152798196_2_alg».proof.Proof.Region2
import proofs.«173273_j2259152798196_2_alg».proof.Proof.Region3
import proofs.«173273_j2259152798196_2_alg».proof.Proof.Region4
import proofs.«173273_j2259152798196_2_alg».proof.Proof.Region5
import proofs.«173273_j2259152798196_2_alg».proof.Proof.Layer
import Idealize.ShloMosaic.Lib.ValueLayout

set_option maxRecDepth 16384

noncomputable section

namespace Cert.KernelIdeal.Layers

open Cert.KernelIdeal Cert.KernelIdeal.Gen Cert.KernelIdeal.Fold
open Idealize.ShloMosaic Idealize.ShloMosaic.TcCoe Idealize.ShloMosaic.ValueIdx Idealize.SL.Sem Idealize.ShloMosaic.StableHlo
open Cert.LibMoments Cert.NormBridge Cert.StageStats Cert.Layer

variable (m : (ℓ : Loc nD τ sig) → Buf (Elt Ideal) ℓ) (ρ : Dev nD → PrngReg)

/-! ## Layer 0 -/

/-- The layer's linear stage, at the exit of its first region. -/
theorem lin0 (c : Dev nD) : W2 m ρ c (Proc.devRef .tc main_v32_0)
    = Cert.Spec.linear (W1 m ρ c (Proc.devRef .tc main_v24)) (W1 m ρ c (Proc.devRef .tc main_arg0))
        (W1 m ρ c (Proc.devRef .tc main_v26)) (W1 m ρ c (Proc.devRef .tc main_v31)) (W1 m ρ c (Proc.devRef .tc main_v30)) :=
  (W2_arr m ρ c 5).trans (Region0.final5 (V1 m ρ) c)

/-- The per-block column sums of the linear stage. -/
theorem part0 (c : Dev nD) : W2 m ρ c (Proc.devRef .tc main_v32_1)
    = Cert.Spec.partSums 10 10000 rfl (W2 m ρ c (Proc.devRef .tc main_v32_0)) := by
  rw [lin0]; exact (W2_arr m ρ c 6).trans (Region0.final6 (V1 m ρ) c)

/-- The per-block column sums of its square. -/
theorem partSq0 (c : Dev nD) : W2 m ρ c (Proc.devRef .tc main_v32_2)
    = Cert.Spec.partSums 10 10000 rfl (Cert.Spec.sq (W2 m ρ c (Proc.devRef .tc main_v32_0))) := by
  rw [lin0]; exact (W2_arr m ρ c 7).trans (Region0.final7 (V1 m ρ) c)

set_option maxHeartbeats 4000000 in
/-- The mean row the host stretch forms from the per-block sums is the mean row of the linear stage. -/
theorem meanRow0 (c : Dev nD) : W3 m ρ c (Proc.devRef .tc main_v47) = meanRow (W2 m ρ c (Proc.devRef .tc main_v32_0)) := by
  refine row_ext fun q => ?_
  show StableHlo.after hostOps1 (W2 m ρ c) (Proc.devRef .tc main_v47) (ix2 (0 : Fin 1) q) = _
  simp only [hostOps1]
  after_results
  show shapeCast S1x128 (Host.divf (F := Ideal) (φ := .f32) _ _) shapeCasts_S128_S1x128 (ix2 (0 : Fin 1) q) = _
  refine (shapeCast_a_1a_apply _ _ 0 q).trans ?_
  rw [part0]
  exact ker_mean_eq rfl _ _ _ _ q

set_option maxHeartbeats 4000000 in
/-- The clamped one-pass variance row the host stretch forms is the two-pass variance row, the linear stage being real. -/
theorem varRow0 (c : Dev nD) (hlin : ∀ i, IsReal (W2 m ρ c (Proc.devRef .tc main_v32_0) i)) :
    W3 m ρ c (Proc.devRef .tc main_v48) = varRow (W2 m ρ c (Proc.devRef .tc main_v32_0)) := by
  refine row_ext fun q => ?_
  show StableHlo.after hostOps1 (W2 m ρ c) (Proc.devRef .tc main_v48) (ix2 (0 : Fin 1) q) = _
  simp only [hostOps1]
  after_results
  show shapeCast S1x128 (maximumf (F := Ideal) (φ := .f32) _ _) shapeCasts_S128_S1x128 (ix2 (0 : Fin 1) q) = _
  refine (shapeCast_a_1a_apply _ _ 0 q).trans ?_
  rw [part0, partSq0]
  exact ker_var_eq rfl _ _ _ _ hlin q

set_option maxHeartbeats 4000000 in
/-- The layer's output, at the exit of its second region. -/
theorem out0 (c : Dev nD) (hlin : ∀ i, IsReal (W2 m ρ c (Proc.devRef .tc main_v32_0) i)) :
    W4 m ρ c (Proc.devRef .tc main_v51)
      = layerOut (W2 m ρ c (Proc.devRef .tc main_v32_0)) (W3 m ρ c (Proc.devRef .tc main_v49)) (W3 m ρ c (Proc.devRef .tc main_v50)) := by
  refine ((W4_arr m ρ c 5).trans (Region1.final_spec (V3 m ρ) c)).trans ?_
  show Cert.Spec.normRelu (W3 m ρ c (Proc.devRef .tc main_v32_0)) (W3 m ρ c (Proc.devRef .tc main_v47)) (W3 m ρ c (Proc.devRef .tc main_v48))
    (W3 m ρ c (Proc.devRef .tc main_v49)) (W3 m ρ c (Proc.devRef .tc main_v50)) = _
  rw [host1_keep m ρ c (b := main_v32_0) (by decide), meanRow0, varRow0 m ρ c hlin]
  rfl

/-! ## Layer 1 -/

/-- The layer's linear stage, at the exit of its first region. -/
theorem lin1 (c : Dev nD) : W6 m ρ c (Proc.devRef .tc main_v71_0)
    = Cert.Spec.linear (W5 m ρ c (Proc.devRef .tc main_v63)) (W5 m ρ c (Proc.devRef .tc main_v51))
        (W5 m ρ c (Proc.devRef .tc main_v65)) (W5 m ρ c (Proc.devRef .tc main_v70)) (W5 m ρ c (Proc.devRef .tc main_v69)) :=
  (W6_arr m ρ c 5).trans (Region2.final5 (V5 m ρ) c)

/-- The per-block column sums of the linear stage. -/
theorem part1 (c : Dev nD) : W6 m ρ c (Proc.devRef .tc main_v71_1)
    = Cert.Spec.partSums 10 10000 rfl (W6 m ρ c (Proc.devRef .tc main_v71_0)) := by
  rw [lin1]; exact (W6_arr m ρ c 6).trans (Region2.final6 (V5 m ρ) c)

/-- The per-block column sums of its square. -/
theorem partSq1 (c : Dev nD) : W6 m ρ c (Proc.devRef .tc main_v71_2)
    = Cert.Spec.partSums 10 10000 rfl (Cert.Spec.sq (W6 m ρ c (Proc.devRef .tc main_v71_0))) := by
  rw [lin1]; exact (W6_arr m ρ c 7).trans (Region2.final7 (V5 m ρ) c)

set_option maxHeartbeats 4000000 in
/-- The mean row the host stretch forms from the per-block sums is the mean row of the linear stage. -/
theorem meanRow1 (c : Dev nD) : W7 m ρ c (Proc.devRef .tc main_v86) = meanRow (W6 m ρ c (Proc.devRef .tc main_v71_0)) := by
  refine row_ext fun q => ?_
  show StableHlo.after hostOps3 (W6 m ρ c) (Proc.devRef .tc main_v86) (ix2 (0 : Fin 1) q) = _
  simp only [hostOps3]
  after_results
  show shapeCast S1x128 (Host.divf (F := Ideal) (φ := .f32) _ _) shapeCasts_S128_S1x128 (ix2 (0 : Fin 1) q) = _
  refine (shapeCast_a_1a_apply _ _ 0 q).trans ?_
  rw [part1]
  exact ker_mean_eq rfl _ _ _ _ q

set_option maxHeartbeats 4000000 in
/-- The clamped one-pass variance row the host stretch forms is the two-pass variance row, the linear stage being real. -/
theorem varRow1 (c : Dev nD) (hlin : ∀ i, IsReal (W6 m ρ c (Proc.devRef .tc main_v71_0) i)) :
    W7 m ρ c (Proc.devRef .tc main_v87) = varRow (W6 m ρ c (Proc.devRef .tc main_v71_0)) := by
  refine row_ext fun q => ?_
  show StableHlo.after hostOps3 (W6 m ρ c) (Proc.devRef .tc main_v87) (ix2 (0 : Fin 1) q) = _
  simp only [hostOps3]
  after_results
  show shapeCast S1x128 (maximumf (F := Ideal) (φ := .f32) _ _) shapeCasts_S128_S1x128 (ix2 (0 : Fin 1) q) = _
  refine (shapeCast_a_1a_apply _ _ 0 q).trans ?_
  rw [part1, partSq1]
  exact ker_var_eq rfl _ _ _ _ hlin q

set_option maxHeartbeats 4000000 in
/-- The layer's output, at the exit of its second region. -/
theorem out1 (c : Dev nD) (hlin : ∀ i, IsReal (W6 m ρ c (Proc.devRef .tc main_v71_0) i)) :
    W8 m ρ c (Proc.devRef .tc main_v90)
      = layerOut (W6 m ρ c (Proc.devRef .tc main_v71_0)) (W7 m ρ c (Proc.devRef .tc main_v88)) (W7 m ρ c (Proc.devRef .tc main_v89)) := by
  refine ((W8_arr m ρ c 5).trans (Region3.final_spec (V7 m ρ) c)).trans ?_
  show Cert.Spec.normRelu (W7 m ρ c (Proc.devRef .tc main_v71_0)) (W7 m ρ c (Proc.devRef .tc main_v86)) (W7 m ρ c (Proc.devRef .tc main_v87))
    (W7 m ρ c (Proc.devRef .tc main_v88)) (W7 m ρ c (Proc.devRef .tc main_v89)) = _
  rw [host3_keep m ρ c (b := main_v71_0) (by decide), meanRow1, varRow1 m ρ c hlin]
  rfl

/-! ## Layer 2 -/

/-- The layer's linear stage, at the exit of its first region. -/
theorem lin2 (c : Dev nD) : W10 m ρ c (Proc.devRef .tc main_v110_0)
    = Cert.Spec.linear (W9 m ρ c (Proc.devRef .tc main_v102)) (W9 m ρ c (Proc.devRef .tc main_v90))
        (W9 m ρ c (Proc.devRef .tc main_v104)) (W9 m ρ c (Proc.devRef .tc main_v109)) (W9 m ρ c (Proc.devRef .tc main_v108)) :=
  (W10_arr m ρ c 5).trans (Region4.final5 (V9 m ρ) c)

/-- The per-block column sums of the linear stage. -/
theorem part2 (c : Dev nD) : W10 m ρ c (Proc.devRef .tc main_v110_1)
    = Cert.Spec.partSums 10 10000 rfl (W10 m ρ c (Proc.devRef .tc main_v110_0)) := by
  rw [lin2]; exact (W10_arr m ρ c 6).trans (Region4.final6 (V9 m ρ) c)

/-- The per-block column sums of its square. -/
theorem partSq2 (c : Dev nD) : W10 m ρ c (Proc.devRef .tc main_v110_2)
    = Cert.Spec.partSums 10 10000 rfl (Cert.Spec.sq (W10 m ρ c (Proc.devRef .tc main_v110_0))) := by
  rw [lin2]; exact (W10_arr m ρ c 7).trans (Region4.final7 (V9 m ρ) c)

set_option maxHeartbeats 4000000 in
/-- The mean row the host stretch forms from the per-block sums is the mean row of the linear stage. -/
theorem meanRow2 (c : Dev nD) : W11 m ρ c (Proc.devRef .tc main_v125) = meanRow (W10 m ρ c (Proc.devRef .tc main_v110_0)) := by
  refine row_ext fun q => ?_
  show StableHlo.after hostOps5 (W10 m ρ c) (Proc.devRef .tc main_v125) (ix2 (0 : Fin 1) q) = _
  simp only [hostOps5]
  after_results
  show shapeCast S1x128 (Host.divf (F := Ideal) (φ := .f32) _ _) shapeCasts_S128_S1x128 (ix2 (0 : Fin 1) q) = _
  refine (shapeCast_a_1a_apply _ _ 0 q).trans ?_
  rw [part2]
  exact ker_mean_eq rfl _ _ _ _ q

set_option maxHeartbeats 4000000 in
/-- The clamped one-pass variance row the host stretch forms is the two-pass variance row, the linear stage being real. -/
theorem varRow2 (c : Dev nD) (hlin : ∀ i, IsReal (W10 m ρ c (Proc.devRef .tc main_v110_0) i)) :
    W11 m ρ c (Proc.devRef .tc main_v126) = varRow (W10 m ρ c (Proc.devRef .tc main_v110_0)) := by
  refine row_ext fun q => ?_
  show StableHlo.after hostOps5 (W10 m ρ c) (Proc.devRef .tc main_v126) (ix2 (0 : Fin 1) q) = _
  simp only [hostOps5]
  after_results
  show shapeCast S1x128 (maximumf (F := Ideal) (φ := .f32) _ _) shapeCasts_S128_S1x128 (ix2 (0 : Fin 1) q) = _
  refine (shapeCast_a_1a_apply _ _ 0 q).trans ?_
  rw [part2, partSq2]
  exact ker_var_eq rfl _ _ _ _ hlin q

set_option maxHeartbeats 4000000 in
/-- The layer's output, at the exit of its second region. -/
theorem out2 (c : Dev nD) (hlin : ∀ i, IsReal (W10 m ρ c (Proc.devRef .tc main_v110_0) i)) :
    W12 m ρ c (Proc.devRef .tc main_v129)
      = layerOut (W10 m ρ c (Proc.devRef .tc main_v110_0)) (W11 m ρ c (Proc.devRef .tc main_v127)) (W11 m ρ c (Proc.devRef .tc main_v128)) := by
  refine ((W12_arr m ρ c 5).trans (Region5.final_spec (V11 m ρ) c)).trans ?_
  show Cert.Spec.normRelu (W11 m ρ c (Proc.devRef .tc main_v110_0)) (W11 m ρ c (Proc.devRef .tc main_v125)) (W11 m ρ c (Proc.devRef .tc main_v126))
    (W11 m ρ c (Proc.devRef .tc main_v127)) (W11 m ρ c (Proc.devRef .tc main_v128)) = _
  rw [host5_keep m ρ c (b := main_v110_0) (by decide), meanRow2, varRow2 m ρ c hlin]
  rfl

end Cert.KernelIdeal.Layers

end
-- ==== Proof.Region6.lean ====
/-
  Region 6 of the tiled program: the head's linear kernel. Each of its twenty grid points stages block t (5000 nodes,
  all 128 features) of the four feature arrays, the four whole 128 by 128 weight matrices and the bias row, and writes
  back three things: the block of x * w0 + h1 * w1 + h2 * w2 + h3 * w3 + bias (added left to right in that order);
  the block's column sums, as entry (t, 0, ·) of a 20 by 1 by 128 array; and the column sums of the block's square,
  likewise. The blocks tile the node axis (block t holds nodes t * 5000 ... t * 5000 + 4999), so after the region the
  first array is the head's linear stage of the whole arrays, index by index, and the other two are its per-block
  partial sums and those of its square. A product into the zero block is a plain finite sum of products and a sum
  over the row axis a plain finite sum; nothing is regrouped.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region6
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A block of 5000 rows by 128 columns times a 128 by 128 matrix, into the zero block, at entry (p, q):
    the sum over k of A (p, k) * B (k, q). -/
theorem mm_apply (A : FVec Ideal S5000x128 .f32) (B : FVec Ideal S128x128 .f32) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul dot_S5000x128_S128x128_S5000x128_1_0_0_1_n_n none A B _ (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : (dot_S5000x128_S128x128_S5000x128_1_0_0_1_n_n).lhsIdx (ix2 p q) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : (dot_S5000x128_S128x128_S5000x128_1_0_0_1_n_n).rhsIdx (ix2 p q) ((contrEquiv1 _ 128 rfl rfl).symm k) = ix2 k q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- Entry (p, q) of a block's linear stage: the four feature blocks' rows p against column q of their four weight
    matrices, added in that order, then the bias at q. -/
def lin (x0 : Vec Ideal S5000x128 .f32) (w0 : Vec Ideal S128x128 .f32) (x1 : Vec Ideal S5000x128 .f32) (w1 : Vec Ideal S128x128 .f32) (x2 : Vec Ideal S5000x128 .f32) (w2 : Vec Ideal S128x128 .f32) (x3 : Vec Ideal S5000x128 .f32) (w3 : Vec Ideal S128x128 .f32) (b : Vec Ideal S1x128 .f32) (p : Fin 5000) (q : Fin 128) : EReal :=
  (∑ k : Fin 128, x0 (ix2 p k) * w0 (ix2 k q)) + (∑ k : Fin 128, x1 (ix2 p k) * w1 (ix2 k q))
    + (∑ k : Fin 128, x2 (ix2 p k) * w2 (ix2 k q)) + (∑ k : Fin 128, x3 (ix2 p k) * w3 (ix2 k q)) + b (ix2 0 q)

/-- The block the kernel writes to its first output, at entry (p, q). -/
theorem pay2_apply (x0 : Vec Ideal S5000x128 .f32) (w0 : Vec Ideal S128x128 .f32) (x1 : Vec Ideal S5000x128 .f32) (w1 : Vec Ideal S128x128 .f32) (x2 : Vec Ideal S5000x128 .f32) (w2 : Vec Ideal S128x128 .f32) (x3 : Vec Ideal S5000x128 .f32) (w3 : Vec Ideal S128x128 .f32) (b : Vec Ideal S1x128 .f32) (p : Fin 5000) (q : Fin 128) :
    k6_pay2 (F := Ideal) x0 w0 x1 w1 x2 w2 x3 w3 b (ix2 p q) = lin x0 w0 x1 w1 x2 w2 x3 w3 b p q := by
  unfold k6_pay2 lin
  simp only [shapeCast_self]
  exact congrArg₂ (· + ·) (congrArg₂ (· + ·) (congrArg₂ (· + ·) (congrArg₂ (· + ·) (mm_apply x0 w0 p q) (mm_apply x1 w1 p q))
    (mm_apply x2 w2 p q)) (mm_apply x3 w3 p q))
    (broadcastTo_apply b _ (ix2 p q) (ix2 0 q) (by intro a; match a with | ⟨0, _⟩ => rfl | ⟨1, _⟩ => rfl))

/-- A sum over the 5000 rows of a block, kept as a 1 by 1 by 128 block: entry (·, ·, q) adds column q. -/
theorem laneSum_apply (src : FVec Ideal S5000x128 .f32) (u v : Fin 1) (q : Fin 128) :
    shapeCast S1x1x128 (shapeCast S1x128 (multiReduction (F := Ideal) .add [0] S128 src 0x00000000#32 reduces_S5000x128_S128 (.inl rfl) rfl)
        shapeCasts_S128_S1x128) shapeCasts_S1x128_S1x1x128 (ix3 u v q)
      = ∑ r : Fin 5000, src (ix2 r q) := by
  refine (shapeCast_ab_1ab_apply _ _ u v q).trans ?_
  refine (shapeCast_a_1a_apply _ _ v q).trans ?_
  refine (Ideal.multiReduction_add_single src 0x00000000#32 reduces_S5000x128_S128 (.inl rfl) rfl (ix1 q)).trans ?_
  refine Finset.sum_congr rfl fun r _ => congrArg src ?_
  funext a
  match a with
  | ⟨0, _⟩ => rfl
  | ⟨1, _⟩ => rfl

/-- The block's column sums, as the kernel writes them to its second output. -/
theorem pay3_apply (x0 : Vec Ideal S5000x128 .f32) (w0 : Vec Ideal S128x128 .f32) (x1 : Vec Ideal S5000x128 .f32) (w1 : Vec Ideal S128x128 .f32) (x2 : Vec Ideal S5000x128 .f32) (w2 : Vec Ideal S128x128 .f32) (x3 : Vec Ideal S5000x128 .f32) (w3 : Vec Ideal S128x128 .f32) (b : Vec Ideal S1x128 .f32) (u v : Fin 1) (q : Fin 128) :
    k6_pay3 (F := Ideal) x0 w0 x1 w1 x2 w2 x3 w3 b (ix3 u v q) = ∑ r : Fin 5000, lin x0 w0 x1 w1 x2 w2 x3 w3 b r q := by
  unfold k6_pay3
  refine (laneSum_apply _ u v q).trans ?_
  exact Finset.sum_congr rfl fun r _ => pay2_apply x0 w0 x1 w1 x2 w2 x3 w3 b r q

/-- The column sums of a block's square, as the kernel writes them to its third output. -/
theorem pay1_apply (y : FVec Ideal S5000x128 .f32) (u v : Fin 1) (q : Fin 128) :
    k6_pay1 (F := Ideal) y (ix3 u v q) = ∑ r : Fin 5000, y (ix2 r q) * y (ix2 r q) := by
  unfold k6_pay1
  exact laneSum_apply _ u v q

theorem idx_in : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

theorem idx_out : ∀ t : Fin cfg6.N,
    win6_9.index t (0 : Fin 2) = t.val ∧ win6_9.index t (1 : Fin 2) = 0
    ∧ win6_10.index t (0 : Fin 3) = t.val ∧ win6_10.index t (1 : Fin 3) = 0 ∧ win6_10.index t (2 : Fin 3) = 0
    ∧ win6_11.index t (0 : Fin 3) = t.val ∧ win6_11.index t (1 : Fin 3) = 0 ∧ win6_11.index t (2 : Fin 3) = 0 :=
  (by decide +kernel : ∀ t : Fin grid6.N, _)

theorem lt_N (t : Fin cfg6.N) : t.val < 20 := lt_of_lt_of_eq t.isLt (show cfg6.N = 20 from N_6)

/-- The node that row p of block t holds: block t of 5000 nodes starts at node t * 5000. -/
def node (t : Fin cfg6.N) (p : Fin 5000) : Fin 100000 :=
  ⟨t.val * 5000 + p.val, by have := lt_N t; have := p.isLt; omega⟩

/-- The head's linear stage of the whole arrays the region reads. -/
abbrev HL (c : Dev nD) : S100000x128.Idx → EReal :=
  Cert.Spec.headLinear (V c main_arg0) (V c main_v51) (V c main_v90) (V c main_v129) (V c main_v130) (V c main_v131) (V c main_v132) (V c main_v133) (V c main_v134)

/-- Entry (p, q) of block t's linear stage is the whole arrays' linear stage at (node t p, q): the four feature
    blocks are rows t * 5000 ... of their arrays, the weights and the bias are staged whole. -/
theorem lin_blk (c : Dev nD) (t : Fin cfg6.N) (p : Fin 5000) (q : Fin 128) :
    lin (iblk6 V c 0 t) (iblk6 V c 4 t) (iblk6 V c 1 t) (iblk6 V c 5 t) (iblk6 V c 2 t) (iblk6 V c 6 t) (iblk6 V c 3 t) (iblk6 V c 7 t) (iblk6 V c 8 t) p q = HL V c (ix2 (node t p) q) := by
  obtain ⟨e0, e1, e2, e3, e4, e5, e6, e7, e8, e9, e10, e11, e12, e13, e14, e15, e16, e17⟩ := idx_in t
  have h0 : ∀ k : Fin 128, iblk6 V c 0 t (ix2 p k) = V c main_arg0 (ix2 (node t p) k) := fun k => by
    show V c main_arg0 (((cfg6.win 0).blk t).view.emb (ix2 p k)) = _
    refine congrArg _ (funext fun a => Fin.ext ?_)
    match a with
    | ⟨0, _⟩ => show win6_0.index t (0 : Fin 2) * 5000 + 1 * p.val = t.val * 5000 + p.val; omega
    | ⟨1, _⟩ => show win6_0.index t (1 : Fin 2) * 128 + 1 * k.val = k.val; omega
  have h1 : ∀ k : Fin 128, iblk6 V c 1 t (ix2 p k) = V c main_v51 (ix2 (node t p) k) := fun k => by
    show V c main_v51 (((cfg6.win 1).blk t).view.emb (ix2 p k)) = _
    refine congrArg _ (funext fun a => Fin.ext ?_)
    match a with
    | ⟨0, _⟩ => show win6_1.index t (0 : Fin 2) * 5000 + 1 * p.val = t.val * 5000 + p.val; omega
    | ⟨1, _⟩ => show win6_1.index t (1 : Fin 2) * 128 + 1 * k.val = k.val; omega
  have h2 : ∀ k : Fin 128, iblk6 V c 2 t (ix2 p k) = V c main_v90 (ix2 (node t p) k) := fun k => by
    show V c main_v90 (((cfg6.win 2).blk t).view.emb (ix2 p k)) = _
    refine congrArg _ (funext fun a => Fin.ext ?_)
    match a with
    | ⟨0, _⟩ => show win6_2.index t (0 : Fin 2) * 5000 + 1 * p.val = t.val * 5000 + p.val; omega
    | ⟨1, _⟩ => show win6_2.index t (1 : Fin 2) * 128 + 1 * k.val = k.val; omega
  have h3 : ∀ k : Fin 128, iblk6 V c 3 t (ix2 p k) = V c main_v129 (ix2 (node t p) k) := fun k => by
    show V c main_v129 (((cfg6.win 3).blk t).view.emb (ix2 p k)) = _
    refine congrArg _ (funext fun a => Fin.ext ?_)
    match a with
    | ⟨0, _⟩ => show win6_3.index t (0 : Fin 2) * 5000 + 1 * p.val = t.val * 5000 + p.val; omega
    | ⟨1, _⟩ => show win6_3.index t (1 : Fin 2) * 128 + 1 * k.val = k.val; omega
  have h4 : ∀ k : Fin 128, iblk6 V c 4 t (ix2 k q) = V c main_v130 (ix2 k q) := fun k => by
    show V c main_v130 (((cfg6.win 4).blk t).view.emb (ix2 k q)) = _
    refine congrArg _ (funext fun a => Fin.ext ?_)
    match a with
    | ⟨0, _⟩ => show win6_4.index t (0 : Fin 2) * 128 + 1 * k.val = k.val; omega
    | ⟨1, _⟩ => show win6_4.index t (1 : Fin 2) * 128 + 1 * q.val = q.val; omega
  have h5 : ∀ k : Fin 128, iblk6 V c 5 t (ix2 k q) = V c main_v131 (ix2 k q) := fun k => by
    show V c main_v131 (((cfg6.win 5).blk t).view.emb (ix2 k q)) = _
    refine congrArg _ (funext fun a => Fin.ext ?_)
    match a with
    | ⟨0, _⟩ => show win6_5.index t (0 : Fin 2) * 128 + 1 * k.val = k.val; omega
    | ⟨1, _⟩ => show win6_5.index t (1 : Fin 2) * 128 + 1 * q.val = q.val; omega
  have h6 : ∀ k : Fin 128, iblk6 V c 6 t (ix2 k q) = V c main_v132 (ix2 k q) := fun k => by
    show V c main_v132 (((cfg6.win 6).blk t).view.emb (ix2 k q)) = _
    refine congrArg _ (funext fun a => Fin.ext ?_)
    match a with
    | ⟨0, _⟩ => show win6_6.index t (0 : Fin 2) * 128 + 1 * k.val = k.val; omega
    | ⟨1, _⟩ => show win6_6.index t (1 : Fin 2) * 128 + 1 * q.val = q.val; omega
  have h7 : ∀ k : Fin 128, iblk6 V c 7 t (ix2 k q) = V c main_v133 (ix2 k q) := fun k => by
    show V c main_v133 (((cfg6.win 7).blk t).view.emb (ix2 k q)) = _
    refine congrArg _ (funext fun a => Fin.ext ?_)
    match a with
    | ⟨0, _⟩ => show win6_7.index t (0 : Fin 2) * 128 + 1 * k.val = k.val; omega
    | ⟨1, _⟩ => show win6_7.index t (1 : Fin 2) * 128 + 1 * q.val = q.val; omega
  have h8 : iblk6 V c 8 t (ix2 0 q) = V c main_v134 (ix2 0 q) := by
    show V c main_v134 (((cfg6.win 8).blk t).view.emb (ix2 0 q)) = _
    refine congrArg _ (funext fun a => Fin.ext ?_)
    match a with
    | ⟨0, _⟩ => show win6_8.index t (0 : Fin 2) * 1 + 1 * 0 = 0; omega
    | ⟨1, _⟩ => show win6_8.index t (1 : Fin 2) * 128 + 1 * q.val = q.val; omega
  unfold lin
  show _ = Cert.Spec.headLinear (V c main_arg0) (V c main_v51) (V c main_v90) (V c main_v129) (V c main_v130) (V c main_v131) (V c main_v132) (V c main_v133) (V c main_v134) (ix2 (node t p) q)
  unfold Cert.Spec.headLinear Cert.Spec.mm
  refine congrArg₂ (· + ·) (congrArg₂ (· + ·) (congrArg₂ (· + ·) (congrArg₂ (· + ·) ?_ ?_) ?_) ?_) h8
  · exact Finset.sum_congr rfl fun k _ => congrArg₂ (· * ·) (h0 k) (h4 k)
  · exact Finset.sum_congr rfl fun k _ => congrArg₂ (· * ·) (h1 k) (h5 k)
  · exact Finset.sum_congr rfl fun k _ => congrArg₂ (· * ·) (h2 k) (h6 k)
  · exact Finset.sum_congr rfl fun k _ => congrArg₂ (· * ·) (h3 k) (h7 k)

/-! ## The first output: the linear stage itself -/

theorem flushed_eq9 (c : Dev nD) (t : Fin cfg6.N) :
    (dat6 V c).flushed 9 t = ((cfg6.win 9).blk t).view.read (Elt Ideal) (HL V c) := by
  show (cfg6.win 9).cut (grid6.coords t) ((dat6 V c).after 9 t) = _
  rw [after6_9]
  unfold out6_9
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  show k6_pay2 (iblk6 V c 0 t) (iblk6 V c 4 t) (iblk6 V c 1 t) (iblk6 V c 5 t) (iblk6 V c 2 t) (iblk6 V c 6 t) (iblk6 V c 3 t) (iblk6 V c 7 t) (iblk6 V c 8 t) (ix2 p q) = HL V c (((cfg6.win 9).blk t).view.emb (ix2 p q))
  refine (pay2_apply _ _ _ _ _ _ _ _ _ p q).trans ?_
  refine (lin_blk V c t p q).trans ?_
  refine congrArg (HL V c) (funext fun a => Fin.ext ?_)
  obtain ⟨o0, o1, o2, o3, o4, o5, o6, o7⟩ := idx_out t
  match a with
  | ⟨0, _⟩ => show t.val * 5000 + p.val = win6_9.index t (0 : Fin 2) * 5000 + 1 * p.val; omega
  | ⟨1, _⟩ => show q.val = win6_9.index t (1 : Fin 2) * 128 + 1 * q.val; omega

theorem mem_blk9 (t : Fin cfg6.N) (i : S100000x128.Idx) :
    i ∈ ((cfg6.win 9).blk t).view.set ↔ ∀ a : Fin 2, win6_9.index t a * S5000x128.size a ≤ (i a).val
      ∧ (i a).val < win6_9.index t a * S5000x128.size a + S5000x128.size a := by
  show i ∈ ((View.whole main_v135_0).slice (win6_9.rect t)).set ↔ _
  rw [View.set_slice_whole, Rect.mem_set_unit]
  exact Iff.rfl

theorem cover9 (i : S100000x128.Idx) :
    ∃ t : Fin cfg6.N, (cfg6.win 9).flush t = true ∧ i ∈ ((cfg6.win 9).blk t).view.set := by
  have hi0 : (i 0).val < 100000 := idx2_lt0 i
  have hi1 : (i 1).val < 128 := idx2_lt1 i
  obtain ⟨t, ht⟩ : ∃ t : Fin cfg6.N, t.val = (i 0).val / 5000 :=
    ⟨⟨(i 0).val / 5000, by rw [show cfg6.N = 20 from N_6]; omega⟩, rfl⟩
  refine ⟨t, flush6_9 t, ?_⟩
  rw [mem_blk9]
  obtain ⟨o0, o1, o2, o3, o4, o5, o6, o7⟩ := idx_out t
  intro a
  match a with
  | ⟨0, _⟩ =>
    show win6_9.index t (0 : Fin 2) * 5000 ≤ (i 0).val ∧ (i 0).val < win6_9.index t (0 : Fin 2) * 5000 + 5000
    omega
  | ⟨1, _⟩ =>
    show win6_9.index t (1 : Fin 2) * 128 ≤ (i 1).val ∧ (i 1).val < win6_9.index t (1 : Fin 2) * 128 + 128
    omega

/-- After the region its first result array is the head's linear stage of the whole arrays. -/
theorem final9 (c : Dev nD) : (dat6 V c).arrAt 9 cfg6.N
    = Cert.Spec.headLinear (V c main_arg0) (V c main_v51) (V c main_v90) (V c main_v129) (V c main_v130) (V c main_v131) (V c main_v132) (V c main_v133) (V c main_v134) :=
  (dat6 V c).arrAt_eq_of_cover 9 _ (fun t _ => flushed_eq9 V c t) cover9

/-! ## The second output: each block's column sums of the linear stage -/

theorem flushed_eq10 (c : Dev nD) (t : Fin cfg6.N) :
    (dat6 V c).flushed 10 t = ((cfg6.win 10).blk t).view.read (Elt Ideal) (Cert.Spec.partSums 20 5000 rfl (HL V c)) := by
  show (cfg6.win 10).cut (grid6.coords t) ((dat6 V c).after 10 t) = _
  rw [after6_10]
  unfold out6_10
  rw [View.canon_unit_zero hz3]
  simp only [View.ld_unit_zero (S := S5000x128) hz2, View.ld_unit_zero (S := S128x128) hz2, View.ld_unit_zero (S := S1x128) hz2]
  funext j
  obtain ⟨u, v, q, rfl⟩ : ∃ (u v : Fin 1) (q : Fin 128), j = ix3 u v q := ⟨j 0, j 1, j 2, eq_ix3 j⟩
  show k6_pay3 (iblk6 V c 0 t) (iblk6 V c 4 t) (iblk6 V c 1 t) (iblk6 V c 5 t) (iblk6 V c 2 t) (iblk6 V c 6 t) (iblk6 V c 3 t) (iblk6 V c 7 t) (iblk6 V c 8 t) (ix3 u v q)
    = Cert.Spec.partSums 20 5000 rfl (HL V c) (((cfg6.win 10).blk t).view.emb (ix3 u v q))
  refine (pay3_apply _ _ _ _ _ _ _ _ _ u v q).trans ?_
  unfold Cert.Spec.partSums
  refine Finset.sum_congr rfl fun r _ => ?_
  refine (lin_blk V c t r q).trans ?_
  exact congrArg (HL V c) (funext fun a => Fin.ext (by
    obtain ⟨o0, o1, o2, o3, o4, o5, o6, o7⟩ := idx_out t
    have hu : u.val = 0 := by omega
    match a with
    | ⟨0, _⟩ => show t.val * 5000 + r.val = (win6_10.index t (0 : Fin 3) * 1 + 1 * u.val) * 5000 + r.val; omega
    | ⟨1, _⟩ => show q.val = win6_10.index t (2 : Fin 3) * 128 + 1 * q.val; omega))

theorem mem_blk10 (t : Fin cfg6.N) (i : S20x1x128.Idx) :
    i ∈ ((cfg6.win 10).blk t).view.set ↔ ∀ a : Fin 3, win6_10.index t a * S1x1x128.size a ≤ (i a).val
      ∧ (i a).val < win6_10.index t a * S1x1x128.size a + S1x1x128.size a := by
  show i ∈ ((View.whole main_v135_1).slice (win6_10.rect t)).set ↔ _
  rw [View.set_slice_whole, Rect.mem_set_unit]
  exact Iff.rfl

theorem cover10 (i : S20x1x128.Idx) :
    ∃ t : Fin cfg6.N, (cfg6.win 10).flush t = true ∧ i ∈ ((cfg6.win 10).blk t).view.set := by
  have hi0 : (i 0).val < 20 := (i 0).isLt
  have hi1 : (i 1).val < 1 := (i 1).isLt
  have hi2 : (i 2).val < 128 := (i 2).isLt
  obtain ⟨t, ht⟩ : ∃ t : Fin cfg6.N, t.val = (i 0).val :=
    ⟨⟨(i 0).val, by rw [show cfg6.N = 20 from N_6]; omega⟩, rfl⟩
  refine ⟨t, flush6_10 t, ?_⟩
  rw [mem_blk10]
  obtain ⟨o0, o1, o2, o3, o4, o5, o6, o7⟩ := idx_out t
  intro a
  match a with
  | ⟨0, _⟩ =>
    show win6_10.index t (0 : Fin 3) * 1 ≤ (i 0).val ∧ (i 0).val < win6_10.index t (0 : Fin 3) * 1 + 1
    omega
  | ⟨1, _⟩ =>
    show win6_10.index t (1 : Fin 3) * 1 ≤ (i 1).val ∧ (i 1).val < win6_10.index t (1 : Fin 3) * 1 + 1
    omega
  | ⟨2, _⟩ =>
    show win6_10.index t (2 : Fin 3) * 128 ≤ (i 2).val ∧ (i 2).val < win6_10.index t (2 : Fin 3) * 128 + 128
    omega

/-- After the region its second result array holds, per block, the column sums of the linear stage. -/
theorem final10 (c : Dev nD) : (dat6 V c).arrAt 10 cfg6.N
    = Cert.Spec.partSums 20 5000 rfl (Cert.Spec.headLinear (V c main_arg0) (V c main_v51) (V c main_v90) (V c main_v129) (V c main_v130) (V c main_v131) (V c main_v132) (V c main_v133) (V c main_v134)) :=
  (dat6 V c).arrAt_eq_of_cover 10 _ (fun t _ => flushed_eq10 V c t) cover10

/-! ## The third output: each block's column sums of the linear stage squared -/

theorem flushed_eq11 (c : Dev nD) (t : Fin cfg6.N) :
    (dat6 V c).flushed 11 t = ((cfg6.win 11).blk t).view.read (Elt Ideal)
      (Cert.Spec.partSums 20 5000 rfl (Cert.Spec.sq (HL V c))) := by
  show (cfg6.win 11).cut (grid6.coords t) ((dat6 V c).after 11 t) = _
  rw [after6_11]
  unfold out6_11
  rw [View.canon_unit_zero hz3]
  simp only [View.ld_unit_zero (S := S5000x128) hz2, View.ld_unit_zero (S := S128x128) hz2, View.ld_unit_zero (S := S1x128) hz2]
  funext j
  obtain ⟨u, v, q, rfl⟩ : ∃ (u v : Fin 1) (q : Fin 128), j = ix3 u v q := ⟨j 0, j 1, j 2, eq_ix3 j⟩
  show k6_pay1 (k6_pay2 (iblk6 V c 0 t) (iblk6 V c 4 t) (iblk6 V c 1 t) (iblk6 V c 5 t) (iblk6 V c 2 t) (iblk6 V c 6 t) (iblk6 V c 3 t) (iblk6 V c 7 t) (iblk6 V c 8 t)) (ix3 u v q)
    = Cert.Spec.partSums 20 5000 rfl (Cert.Spec.sq (HL V c)) (((cfg6.win 11).blk t).view.emb (ix3 u v q))
  refine (pay1_apply _ u v q).trans ?_
  unfold Cert.Spec.partSums Cert.Spec.sq
  refine Finset.sum_congr rfl fun r _ => ?_
  refine congrArg₂ (· * ·) ?_ ?_ <;>
    exact (pay2_apply _ _ _ _ _ _ _ _ _ r q).trans ((lin_blk V c t r q).trans
      (congrArg (HL V c) (funext fun a => Fin.ext (by
    obtain ⟨o0, o1, o2, o3, o4, o5, o6, o7⟩ := idx_out t
    have hu : u.val = 0 := by omega
    match a with
    | ⟨0, _⟩ => show t.val * 5000 + r.val = (win6_11.index t (0 : Fin 3) * 1 + 1 * u.val) * 5000 + r.val; omega
    | ⟨1, _⟩ => show q.val = win6_11.index t (2 : Fin 3) * 128 + 1 * q.val; omega))))

theorem mem_blk11 (t : Fin cfg6.N) (i : S20x1x128.Idx) :
    i ∈ ((cfg6.win 11).blk t).view.set ↔ ∀ a : Fin 3, win6_11.index t a * S1x1x128.size a ≤ (i a).val
      ∧ (i a).val < win6_11.index t a * S1x1x128.size a + S1x1x128.size a := by
  show i ∈ ((View.whole main_v135_2).slice (win6_11.rect t)).set ↔ _
  rw [View.set_slice_whole, Rect.mem_set_unit]
  exact Iff.rfl

theorem cover11 (i : S20x1x128.Idx) :
    ∃ t : Fin cfg6.N, (cfg6.win 11).flush t = true ∧ i ∈ ((cfg6.win 11).blk t).view.set := by
  have hi0 : (i 0).val < 20 := (i 0).isLt
  have hi1 : (i 1).val < 1 := (i 1).isLt
  have hi2 : (i 2).val < 128 := (i 2).isLt
  obtain ⟨t, ht⟩ : ∃ t : Fin cfg6.N, t.val = (i 0).val :=
    ⟨⟨(i 0).val, by rw [show cfg6.N = 20 from N_6]; omega⟩, rfl⟩
  refine ⟨t, flush6_11 t, ?_⟩
  rw [mem_blk11]
  obtain ⟨o0, o1, o2, o3, o4, o5, o6, o7⟩ := idx_out t
  intro a
  match a with
  | ⟨0, _⟩ =>
    show win6_11.index t (0 : Fin 3) * 1 ≤ (i 0).val ∧ (i 0).val < win6_11.index t (0 : Fin 3) * 1 + 1
    omega
  | ⟨1, _⟩ =>
    show win6_11.index t (1 : Fin 3) * 1 ≤ (i 1).val ∧ (i 1).val < win6_11.index t (1 : Fin 3) * 1 + 1
    omega
  | ⟨2, _⟩ =>
    show win6_11.index t (2 : Fin 3) * 128 ≤ (i 2).val ∧ (i 2).val < win6_11.index t (2 : Fin 3) * 128 + 128
    omega

/-- After the region its third result array holds, per block, the column sums of the linear stage squared. -/
theorem final11 (c : Dev nD) : (dat6 V c).arrAt 11 cfg6.N
    = Cert.Spec.partSums 20 5000 rfl (Cert.Spec.sq (Cert.Spec.headLinear (V c main_arg0) (V c main_v51) (V c main_v90) (V c main_v129) (V c main_v130) (V c main_v131) (V c main_v132) (V c main_v133) (V c main_v134))) :=
  (dat6 V c).arrAt_eq_of_cover 11 _ (fun t _ => flushed_eq11 V c t) cover11

end Cert.KernelIdeal.Region6
end
-- ==== Proof.Region7.lean ====
/-
  Region 7 of the tiled program: the head's normalise, activate and project kernel. Each of its twenty grid points
  stages a block of 5000 nodes of the head's linear output (all 128 features), the four feature rows (mean, variance,
  scale, shift), the whole 128 by 64 weight matrix and the bias row, and writes back, for the block, a * W + bias,
  where a = y where y > 0 and 0.01 * y otherwise, and y = (x - mean) * rsqrt (var + eps) * scale + shift entry by
  entry. The blocks tile the node axis, so after the region the result array is that one function of the whole
  arrays, index by index: entry (i, j) contracts the activated normalised row of node i with column j of the weights
  and adds the bias at j.
-/
import proofs.«173273_j2259152798196_2_alg».proof.Proof.Gen.KernelIdeal.Frame
import proofs.«173273_j2259152798196_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region7
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- A block of 5000 rows by 128 columns times the 128 by 64 matrix, into the zero block, at entry (p, q):
    the sum over k of A (p, k) * B (k, q). -/
theorem mm_apply (A : FVec Ideal S5000x128 .f32) (B : FVec Ideal S128x64 .f32) (p : Fin 5000) (q : Fin 64) :
    matmul dot_S5000x128_S128x64_S5000x64_1_0_0_1_n_n none A B (constant (F := Ideal) S5000x64 .f32 0x00000000#32) (ix2 p q)
      = ∑ k : Fin 128, A (ix2 p k) * B (ix2 k q) := by
  show FloatOps.matmul dot_S5000x128_S128x64_S5000x64_1_0_0_1_n_n none A B _ (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have c2 := contrEquiv1_symm_val dot_S5000x128_S128x64_S5000x64_1_0_0_1_n_n 128 rfl rfl k
  have l2 : (dot_S5000x128_S128x64_S5000x64_1_0_0_1_n_n).lhsIdx (ix2 p q) ((contrEquiv1 _ 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact c2
  have r2 : (dot_S5000x128_S128x64_S5000x64_1_0_0_1_n_n).rhsIdx (ix2 p q) ((contrEquiv1 _ 128 rfl rfl).symm k) = ix2 k q := by
    funext ax; apply Fin.ext
    match ax with
    | ⟨0, _⟩ => simp [DotDims.rhsIdx, dot_S5000x128_S128x64_S5000x64_1_0_0_1_n_n]; exact c2
    | ⟨1, _⟩ => simp [DotDims.rhsIdx, dot_S5000x128_S128x64_S5000x64_1_0_0_1_n_n]; rfl
  rw [l2, r2]

/-- The block the kernel writes, at entry (p, q): the activated normalised row p of the staged block against column q
    of the weights, plus the bias at q. -/
theorem pay_apply (x0 : Vec Ideal S5000x128 .f32) (x1 x2 x3 x4 : Vec Ideal S1x128 .f32) (x5 : Vec Ideal S128x64 .f32)
    (x6 : Vec Ideal S1x64 .f32) (p : Fin 5000) (q : Fin 64) :
    k7_pay1 (F := Ideal) x0 x1 x2 x3 x4 x5 x6 (ix2 p q)
      = (∑ k : Fin 128, Cert.Spec.leakyGt (Cert.Spec.nrm (x0 (ix2 p k)) (x1 (ix2 0 k)) (x2 (ix2 0 k)) (x3 (ix2 0 k)) (x4 (ix2 0 k)))
          * x5 (ix2 k q)) + x6 (ix2 0 q) := by
  unfold k7_pay1
  simp only [shapeCast_self]
  refine (addf_apply _ _ _).trans ?_
  refine (congrArg₂ (· + ·) (mm_apply _ _ p q)
    (broadcastTo_apply x6 _ (ix2 p q) (ix2 0 q) (by intro a; match a with | ⟨0, _⟩ => rfl | ⟨1, _⟩ => rfl))).trans ?_
  refine congrArg (· + x6 (ix2 0 q)) (Finset.sum_congr rfl fun k _ => congrArg (· * x5 (ix2 k q)) ?_)
  have hb : ∀ v : Vec Ideal S1x128 .f32, broadcastTo S5000x128 v broadcasts_S1x128_S5000x128 (ix2 p k) = v (ix2 0 k) := fun v =>
    broadcastTo_apply v _ (ix2 p k) (ix2 0 k) (by intro a; match a with | ⟨0, _⟩ => rfl | ⟨1, _⟩ => rfl)
  simp only [select, cmpf, addf, mulf, subf, rsqrt, broadcast, hb]
  rfl

theorem idx_facts : ∀ t : Fin cfg7.N,
    win7_0.index t (0 : Fin 2) = win7_7.index t (0 : Fin 2) ∧ win7_0.index t (1 : Fin 2) = 0 ∧ win7_7.index t (1 : Fin 2) = 0
    ∧ win7_7.index t (0 : Fin 2) = t.val
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

theorem flushed_eq (c : Dev nD) (t : Fin cfg7.N) :
    (dat7 V c).flushed 7 t = ((cfg7.win 7).blk t).view.read (Elt Ideal)
      (Cert.Spec.normLeakyOut (V c main_v135_0) (V c main_v146) (V c main_v147) (V c main_v148) (V c main_v149) (V c main_arg11) (V c main_v150)) := by
  show (cfg7.win 7).cut (grid7.coords t) ((dat7 V c).after 7 t) = _
  rw [after7_7]
  unfold out7_7
  rw [View.canon_unit_zero hz2]
  simp only [View.ld_unit_zero (S := S5000x128) hz2, View.ld_unit_zero (S := S1x128) hz2,
    View.ld_unit_zero (S := S128x64) hz2, View.ld_unit_zero (S := S1x64) hz2]
  funext j
  obtain ⟨p, q, rfl⟩ : ∃ (p : Fin 5000) (q : Fin 64), j = ix2 p q := ⟨j 0, j 1, eq_ix2 j⟩
  show k7_pay1 (iblk7 V c 0 t) (iblk7 V c 1 t) (iblk7 V c 2 t) (iblk7 V c 3 t) (iblk7 V c 4 t) (iblk7 V c 5 t) (iblk7 V c 6 t) (ix2 p q)
     = Cert.Spec.normLeakyOut (V c main_v135_0) (V c main_v146) (V c main_v147) (V c main_v148) (V c main_v149) (V c main_arg11) (V c main_v150) (((cfg7.win 7).blk t).view.emb (ix2 p q))
  refine (pay_apply _ _ _ _ _ _ _ p q).trans ?_
  unfold Cert.Spec.normLeakyOut
  obtain ⟨e0, e1, e2, e3, e4, e5, e6, e7, e8, e9, e10, e11, e12, e13, e14, e15⟩ := idx_facts t
  have hc : Cert.Spec.colOf (a := 100000) (b := 64) (((cfg7.win 7).blk t).view.emb (ix2 p q)) = q :=
    Fin.ext (by show win7_7.index t (1 : Fin 2) * 64 + 1 * q.val = q.val; omega)
  have h0 : ∀ k : Fin 128, iblk7 V c 0 t (ix2 p k)
      = V c main_v135_0 (ix2 (Cert.Spec.rowOf (a := 100000) (b := 64) (((cfg7.win 7).blk t).view.emb (ix2 p q))) k) := fun k => by
    show V c main_v135_0 (((cfg7.win 0).blk t).view.emb (ix2 p k)) = _
    refine congrArg _ (funext fun a => Fin.ext ?_)
    match a with
    | ⟨0, _⟩ => show win7_0.index t (0 : Fin 2) * 5000 + 1 * p.val = win7_7.index t (0 : Fin 2) * 5000 + 1 * p.val; omega
    | ⟨1, _⟩ => show win7_0.index t (1 : Fin 2) * 128 + 1 * k.val = k.val; omega
  have h1 : ∀ k : Fin 128, iblk7 V c 1 t (ix2 0 k) = V c main_v146 (ix2 0 k) := fun k => by
    show V c main_v146 (((cfg7.win 1).blk t).view.emb (ix2 0 k)) = _
    refine congrArg _ (funext fun a => Fin.ext ?_)
    match a with
    | ⟨0, _⟩ => show win7_1.index t (0 : Fin 2) * 1 + 1 * 0 = 0; omega
    | ⟨1, _⟩ => show win7_1.index t (1 : Fin 2) * 128 + 1 * k.val = k.val; omega
  have h2 : ∀ k : Fin 128, iblk7 V c 2 t (ix2 0 k) = V c main_v147 (ix2 0 k) := fun k => by
    show V c main_v147 (((cfg7.win 2).blk t).view.emb (ix2 0 k)) = _
    refine congrArg _ (funext fun a => Fin.ext ?_)
    match a with
    | ⟨0, _⟩ => show win7_2.index t (0 : Fin 2) * 1 + 1 * 0 = 0; omega
    | ⟨1, _⟩ => show win7_2.index t (1 : Fin 2) * 128 + 1 * k.val = k.val; omega
  have h3 : ∀ k : Fin 128, iblk7 V c 3 t (ix2 0 k) = V c main_v148 (ix2 0 k) := fun k => by
    show V c main_v148 (((cfg7.win 3).blk t).view.emb (ix2 0 k)) = _
    refine congrArg _ (funext fun a => Fin.ext ?_)
    match a with
    | ⟨0, _⟩ => show win7_3.index t (0 : Fin 2) * 1 + 1 * 0 = 0; omega
    | ⟨1, _⟩ => show win7_3.index t (1 : Fin 2) * 128 + 1 * k.val = k.val; omega
  have h4 : ∀ k : Fin 128, iblk7 V c 4 t (ix2 0 k) = V c main_v149 (ix2 0 k) := fun k => by
    show V c main_v149 (((cfg7.win 4).blk t).view.emb (ix2 0 k)) = _
    refine congrArg _ (funext fun a => Fin.ext ?_)
    match a with
    | ⟨0, _⟩ => show win7_4.index t (0 : Fin 2) * 1 + 1 * 0 = 0; omega
    | ⟨1, _⟩ => show win7_4.index t (1 : Fin 2) * 128 + 1 * k.val = k.val; omega
  have h5 : ∀ k : Fin 128, iblk7 V c 5 t (ix2 k q) = V c main_arg11 (ix2 k q) := fun k => by
    show V c main_arg11 (((cfg7.win 5).blk t).view.emb (ix2 k q)) = _
    refine congrArg _ (funext fun a => Fin.ext ?_)
    match a with
    | ⟨0, _⟩ => show win7_5.index t (0 : Fin 2) * 128 + 1 * k.val = k.val; omega
    | ⟨1, _⟩ => show win7_5.index t (1 : Fin 2) * 64 + 1 * q.val = q.val; omega
  have h6 : iblk7 V c 6 t (ix2 0 q) = V c main_v150 (ix2 0 q) := by
    show V c main_v150 (((cfg7.win 6).blk t).view.emb (ix2 0 q)) = _
    refine congrArg _ (funext fun a => Fin.ext ?_)
    match a with
    | ⟨0, _⟩ => show win7_6.index t (0 : Fin 2) * 1 + 1 * 0 = 0; omega
    | ⟨1, _⟩ => show win7_6.index t (1 : Fin 2) * 64 + 1 * q.val = q.val; omega
  rw [hc]
  refine congrArg₂ (· + ·) (Finset.sum_congr rfl fun k _ => ?_) h6
  rw [h0 k, h1 k, h2 k, h3 k, h4 k, h5 k]

theorem mem_blk (t : Fin cfg7.N) (i : S100000x64.Idx) :
    i ∈ ((cfg7.win 7).blk t).view.set ↔ ∀ a : Fin 2, win7_7.index t a * S5000x64.size a ≤ (i a).val
      ∧ (i a).val < win7_7.index t a * S5000x64.size a + S5000x64.size a := by
  show i ∈ ((View.whole main_v151).slice (win7_7.rect t)).set ↔ _
  rw [View.set_slice_whole, Rect.mem_set_unit]
  exact Iff.rfl

theorem cover (i : S100000x64.Idx) :
    ∃ t : Fin cfg7.N, (cfg7.win 7).flush t = true ∧ i ∈ ((cfg7.win 7).blk t).view.set := by
  have hi0 : (i 0).val < 100000 := idx2_lt0 i
  have hi1 : (i 1).val < 64 := idx2_lt1 i
  obtain ⟨t, ht⟩ : ∃ t : Fin cfg7.N, t.val = (i 0).val / 5000 :=
    ⟨⟨(i 0).val / 5000, by rw [show cfg7.N = 20 from N_7]; omega⟩, rfl⟩
  refine ⟨t, flush7_7 t, ?_⟩
  rw [mem_blk]
  obtain ⟨e0, e1, e2, e3, e4, e5, e6, e7, e8, e9, e10, e11, e12, e13, e14, e15⟩ := idx_facts t
  intro a
  match a with
  | ⟨0, _⟩ =>
    show win7_7.index t (0 : Fin 2) * 5000 ≤ (i 0).val ∧ (i 0).val < win7_7.index t (0 : Fin 2) * 5000 + 5000
    omega
  | ⟨1, _⟩ =>
    show win7_7.index t (1 : Fin 2) * 64 ≤ (i 1).val ∧ (i 1).val < win7_7.index t (1 : Fin 2) * 64 + 64
    omega

/-- After the region its result array is the head's normalise, activate and project stage of the whole arrays. -/
theorem final7 (c : Dev nD) : (dat7 V c).arrAt 7 cfg7.N
    = Cert.Spec.normLeakyOut (V c main_v135_0) (V c main_v146) (V c main_v147) (V c main_v148) (V c main_v149) (V c main_arg11) (V c main_v150) :=
  (dat7 V c).arrAt_eq_of_cover 7 _ (fun t _ => flushed_eq V c t) cover

end Cert.KernelIdeal.Region7
end
-- ==== Proof.KernelHead.lean ====
/-
  The tiled program's head, read at its segment boundaries. At the exit of the head's first region: the head's linear
  stage of the arrays that region reads (the four feature arrays against their four weight matrices, plus the bias
  row), with its per-block column sums and sums of squares (twenty blocks of 5000 nodes). The host stretch that
  follows forms from these the mean row and the clamped one-pass variance row, which are the mean row and the two-pass
  variance row of the linear stage (the latter when the linear stage is real). At the exit of the head's second
  region: the head's output, the normalised, activated linear stage against the last weights plus the last bias row.
-/
import proofs.«173273_j2259152798196_2_alg».proof.Proof.KernelFold
import proofs.«173273_j2259152798196_2_alg».proof.Proof.Region6
import proofs.«173273_j2259152798196_2_alg».proof.Proof.Region7
import proofs.«173273_j2259152798196_2_alg».proof.Proof.Layer
import Idealize.ShloMosaic.Lib.ValueLayout

set_option maxRecDepth 16384

noncomputable section

namespace Cert.KernelIdeal.Layers

open Cert.KernelIdeal Cert.KernelIdeal.Gen Cert.KernelIdeal.Fold
open Idealize.ShloMosaic Idealize.ShloMosaic.TcCoe Idealize.ShloMosaic.ValueIdx Idealize.SL.Sem Idealize.ShloMosaic.StableHlo
open Cert.LibMoments Cert.NormBridge Cert.StageStats Cert.Layer

variable (m : (ℓ : Loc nD τ sig) → Buf (Elt Ideal) ℓ) (ρ : Dev nD → PrngReg)

/-! ## The head -/

/-- The head's linear stage, at the exit of its first region. -/
theorem lin3 (c : Dev nD) : W14 m ρ c (Proc.devRef .tc main_v135_0)
    = Cert.Spec.headLinear (W13 m ρ c (Proc.devRef .tc main_arg0)) (W13 m ρ c (Proc.devRef .tc main_v51))
        (W13 m ρ c (Proc.devRef .tc main_v90)) (W13 m ρ c (Proc.devRef .tc main_v129))
        (W13 m ρ c (Proc.devRef .tc main_v130)) (W13 m ρ c (Proc.devRef .tc main_v131))
        (W13 m ρ c (Proc.devRef .tc main_v132)) (W13 m ρ c (Proc.devRef .tc main_v133))
        (W13 m ρ c (Proc.devRef .tc main_v134)) :=
  (W14_arr m ρ c 9).trans (Region6.final9 (V13 m ρ) c)

/-- The per-block column sums of the linear stage. -/
theorem part3 (c : Dev nD) : W14 m ρ c (Proc.devRef .tc main_v135_1)
    = Cert.Spec.partSums 20 5000 rfl (W14 m ρ c (Proc.devRef .tc main_v135_0)) := by
  rw [lin3]; exact (W14_arr m ρ c 10).trans (Region6.final10 (V13 m ρ) c)

/-- The per-block column sums of its square. -/
theorem partSq3 (c : Dev nD) : W14 m ρ c (Proc.devRef .tc main_v135_2)
    = Cert.Spec.partSums 20 5000 rfl (Cert.Spec.sq (W14 m ρ c (Proc.devRef .tc main_v135_0))) := by
  rw [lin3]; exact (W14_arr m ρ c 11).trans (Region6.final11 (V13 m ρ) c)

set_option maxHeartbeats 4000000 in
/-- The mean row the host stretch forms from the per-block sums is the mean row of the linear stage. -/
theorem meanRow3 (c : Dev nD) : W15 m ρ c (Proc.devRef .tc main_v146) = meanRow (W14 m ρ c (Proc.devRef .tc main_v135_0)) := by
  refine row_ext fun q => ?_
  show StableHlo.after hostOps7 (W14 m ρ c) (Proc.devRef .tc main_v146) (ix2 (0 : Fin 1) q) = _
  simp only [hostOps7]
  after_results
  show shapeCast S1x128 (Host.divf (F := Ideal) (φ := .f32) _ _) shapeCasts_S128_S1x128 (ix2 (0 : Fin 1) q) = _
  refine (shapeCast_a_1a_apply _ _ 0 q).trans ?_
  rw [part3]
  exact ker_mean_eq rfl _ _ _ _ q

set_option maxHeartbeats 4000000 in
/-- The clamped one-pass variance row the host stretch forms is the two-pass variance row, the linear stage being real. -/
theorem varRow3 (c : Dev nD) (hlin : ∀ i, IsReal (W14 m ρ c (Proc.devRef .tc main_v135_0) i)) :
    W15 m ρ c (Proc.devRef .tc main_v147) = varRow (W14 m ρ c (Proc.devRef .tc main_v135_0)) := by
  refine row_ext fun q => ?_
  show StableHlo.after hostOps7 (W14 m ρ c) (Proc.devRef .tc main_v147) (ix2 (0 : Fin 1) q) = _
  simp only [hostOps7]
  after_results
  show shapeCast S1x128 (maximumf (F := Ideal) (φ := .f32) _ _) shapeCasts_S128_S1x128 (ix2 (0 : Fin 1) q) = _
  refine (shapeCast_a_1a_apply _ _ 0 q).trans ?_
  rw [part3, partSq3]
  exact ker_var_eq rfl _ _ _ _ hlin q

set_option maxHeartbeats 4000000 in
/-- The head's output, at the exit of its second region. -/
theorem out3 (c : Dev nD) (hlin : ∀ i, IsReal (W14 m ρ c (Proc.devRef .tc main_v135_0) i)) :
    W16 m ρ c (Proc.devRef .tc main_v151)
      = headOut (W14 m ρ c (Proc.devRef .tc main_v135_0)) (W15 m ρ c (Proc.devRef .tc main_v148)) (W15 m ρ c (Proc.devRef .tc main_v149))
          (W15 m ρ c (Proc.devRef .tc main_arg11)) (W15 m ρ c (Proc.devRef .tc main_v150)) := by
  refine ((W16_arr m ρ c 7).trans (Region7.final7 (V15 m ρ) c)).trans ?_
  show Cert.Spec.normLeakyOut (W15 m ρ c (Proc.devRef .tc main_v135_0)) (W15 m ρ c (Proc.devRef .tc main_v146)) (W15 m ρ c (Proc.devRef .tc main_v147))
    (W15 m ρ c (Proc.devRef .tc main_v148)) (W15 m ρ c (Proc.devRef .tc main_v149)) (W15 m ρ c (Proc.devRef .tc main_arg11)) (W15 m ρ c (Proc.devRef .tc main_v150)) = _
  rw [host7_keep m ρ c (b := main_v135_0) (by decide), meanRow3, varRow3 m ρ c hlin]
  rfl

end Cert.KernelIdeal.Layers
end
-- ==== Proof.Ingr.lean ====
/-
  The layers' ingredients as functions of the argument arrays, index by index: layer l's weight matrix is the l-th
  128 x 128 slab of a 3 x 128 x 128 argument; its bias, scale and shift vectors are the l-th rows of 3 x 128 arguments;
  the head's four weight matrices are the four consecutive 128-row stretches of a 512 x 128 argument. Both programs
  obtain them by a unit-stride slice followed by a shape cast that drops the leading unit axis; read at an index these
  are the entries named here.
-/
import proofs.«173273_j2259152798196_2_alg».proof.Proof.StageStats
import Idealize.ShloMosaic.Lib.ValueLayout

noncomputable section

namespace Cert.Ingr

open Idealize.ShloMosaic Idealize.ShloMosaic.ValueIdx Cert.StageStats Cert.Spec

abbrev S3W : Shape := ⟨3, ![3, 128, 128]⟩
abbrev S1W : Shape := ⟨3, ![1, 128, 128]⟩
abbrev SW : Shape := ⟨2, ![128, 128]⟩
abbrev S3R : Shape := ⟨2, ![3, 128]⟩
abbrev SW1 : Shape := ⟨2, ![512, 128]⟩

/-- Slab l of a stack of three weight matrices. -/
def wSlab (l : Fin 3) (a : S3W.Idx → EReal) : SW.Idx → EReal := fun i => a (ix3 l (rowOf i) (colOf i))

/-- Row l of a stack of three feature vectors, as a vector. -/
def vRow (l : Fin 3) (a : S3R.Idx → EReal) : SF.Idx → EReal := fun j => a (ix2 l ⟨(j 0).val, (j 0).isLt⟩)

/-- The k-th stretch of 128 rows of the head's first weight matrix. -/
def w1Stretch (k : Fin 4) (a : SW1.Idx → EReal) : SW.Idx → EReal :=
  fun i => a (ix2 ⟨128 * k.val + (rowOf i).val, by have := k.isLt; have := (rowOf i).isLt; omega⟩ (colOf i))

/-- A slice of one slab at offset (l, 0, 0), its leading unit axis dropped by a shape cast, is the slab. -/
theorem slab_eq (l : Fin 3) (hs : S3W.Slices ![l.val, 0, 0] S1W) (hc : S1W.ShapeCasts SW) (a : S3W.Idx → EReal) :
    shapeCast SW (extractStridedSlice S1W ![l.val, 0, 0] a hs) hc = wSlab l a := by
  funext i
  obtain ⟨p, q, rfl⟩ : ∃ (p q : Fin 128), i = ix2 p q := ⟨i 0, i 1, eq_ix2 i⟩
  rw [shapeCast_1ab_ab_apply]
  refine (extractStridedSlice_apply ![l.val, 0, 0] a hs (ix3 (0 : Fin 1) p q) (ix3 l p q) ?_).trans rfl
  intro d
  match d with
  | ⟨0, _⟩ => show l.val = l.val + 0; omega
  | ⟨1, _⟩ => show p.val = 0 + p.val; omega
  | ⟨2, _⟩ => show q.val = 0 + q.val; omega

/-- A slice of one row at offset (l, 0), its leading unit axis dropped by a shape cast, is the row as a vector. -/
theorem row_eq (l : Fin 3) (hs : S3R.Slices ![l.val, 0] SRow) (hc : SRow.ShapeCasts SF) (a : S3R.Idx → EReal) :
    shapeCast SF (extractStridedSlice SRow ![l.val, 0] a hs) hc = vRow l a := by
  funext j
  obtain ⟨q, rfl⟩ : ∃ q : Fin 128, j = ix1 q := ⟨j 0, eq_ix1 j⟩
  rw [shapeCast_1a_a_apply]
  refine (extractStridedSlice_apply ![l.val, 0] a hs (ix2 (0 : Fin 1) q) (ix2 l q) ?_).trans rfl
  intro d
  match d with
  | ⟨0, _⟩ => show l.val = l.val + 0; omega
  | ⟨1, _⟩ => show q.val = 0 + q.val; omega

/-- A slice of 128 rows at row offset 128 k is the k-th stretch. -/
theorem stretch_eq (k : Fin 4) (hs : SW1.Slices ![128 * k.val, 0] SW) (a : SW1.Idx → EReal) :
    extractStridedSlice SW ![128 * k.val, 0] a hs = w1Stretch k a := by
  funext i
  obtain ⟨p, q, rfl⟩ : ∃ (p q : Fin 128), i = ix2 p q := ⟨i 0, i 1, eq_ix2 i⟩
  refine (extractStridedSlice_apply ![128 * k.val, 0] a hs (ix2 p q)
    (ix2 ⟨128 * k.val + p.val, by have := k.isLt; have := p.isLt; omega⟩ q) ?_).trans rfl
  intro d
  match d with
  | ⟨0, _⟩ => rfl
  | ⟨1, _⟩ => show q.val = 0 + q.val; omega

end Cert.Ingr

end
-- ==== Proof.KernelIngr.lean ====
/-
  The tiled program's ingredients, read at its segment boundaries, as functions of the argument arrays. A layer's
  first host stretch cuts the layer's two weight matrices (slab l of the two stacked weight arguments) and its bias
  row (row l of the stacked bias argument, set as a row) out of the arguments; its second cuts the scale and shift
  rows likewise. The head's first host stretch cuts the four 128-row stretches of the head's stacked weight argument
  and sets its bias vector as a row; its second sets the scale, shift and last bias vectors as rows. An argument array
  is written by no segment, so wherever a stretch reads one it reads the launch memory's; and a buffer a region
  produced reaches a later boundary as that region left it, no segment in between writing it.
-/
import proofs.«173273_j2259152798196_2_alg».proof.Proof.KernelFold
import proofs.«173273_j2259152798196_2_alg».proof.Proof.Ingr
import proofs.«173273_j2259152798196_2_alg».proof.Proof.Layer
import Idealize.ShloMosaic.Lib.ValueLayout

set_option maxRecDepth 16384

noncomputable section

namespace Cert.KernelIdeal.Layers

open Cert.KernelIdeal Cert.KernelIdeal.Gen Cert.KernelIdeal.Fold
open Idealize.ShloMosaic Idealize.ShloMosaic.TcCoe Idealize.ShloMosaic.ValueIdx Idealize.SL.Sem Idealize.ShloMosaic.StableHlo
open Cert.LibMoments Cert.NormBridge Cert.StageStats Cert.Layer

variable (m : (ℓ : Loc nD τ sig) → Buf (Elt Ideal) ℓ) (ρ : Dev nD → PrngReg)

/-! ## Layer 0 -/

set_option maxHeartbeats 4000000 in
/-- Layer 0's first weight matrix is slab 0 of the stacked argument. -/
theorem wl_0 (c : Dev nD) : W1 m ρ c (Proc.devRef .tc main_v26) = Cert.Ingr.wSlab 0 (m ((c : Thread nD τ).loc main_arg2)) := by
  show StableHlo.after hostOps0 (W0 m ρ c) (Proc.devRef .tc main_v26) = _
  simp only [hostOps0]
  after_results
  show shapeCast S128x128 (extractStridedSlice S1x128x128 ![0, 0, 0] (W0 m ρ c (Proc.devRef .tc main_arg2)) _) _ = _
  rw [(show W0 m ρ c (Proc.devRef .tc main_arg2) = (m ((c : Thread nD τ).loc main_arg2)) from rfl)]
  exact Cert.Ingr.slab_eq 0 _ _ _

set_option maxHeartbeats 4000000 in
/-- Layer 0's second weight matrix is slab 0 of the stacked argument. -/
theorem wr_0 (c : Dev nD) : W1 m ρ c (Proc.devRef .tc main_v30) = Cert.Ingr.wSlab 0 (m ((c : Thread nD τ).loc main_arg4)) := by
  show StableHlo.after hostOps0 (W0 m ρ c) (Proc.devRef .tc main_v30) = _
  simp only [hostOps0]
  after_results
  show shapeCast S128x128 (extractStridedSlice S1x128x128 ![0, 0, 0] (W0 m ρ c (Proc.devRef .tc main_arg4)) _) _ = _
  rw [(show W0 m ρ c (Proc.devRef .tc main_arg4) = (m ((c : Thread nD τ).loc main_arg4)) from rfl)]
  exact Cert.Ingr.slab_eq 0 _ _ _

set_option maxHeartbeats 4000000 in
/-- Layer 0's bias row is row 0 of the stacked argument, set as a row. -/
theorem bl_0 (c : Dev nD) : W1 m ρ c (Proc.devRef .tc main_v31)
    = shapeCast S1x128 (Cert.Ingr.vRow 0 (m ((c : Thread nD τ).loc main_arg3))) shapeCasts_S128_S1x128 := by
  show StableHlo.after hostOps0 (W0 m ρ c) (Proc.devRef .tc main_v31) = _
  simp only [hostOps0]
  after_results
  show shapeCast S1x128 (shapeCast S128 (extractStridedSlice S1x128 ![0, 0] (W0 m ρ c (Proc.devRef .tc main_arg3)) _) _) shapeCasts_S128_S1x128 = _
  rw [(show W0 m ρ c (Proc.devRef .tc main_arg3) = (m ((c : Thread nD τ).loc main_arg3)) from rfl)]
  exact congrArg (fun v => shapeCast S1x128 v shapeCasts_S128_S1x128) (Cert.Ingr.row_eq 0 _ _ _)

set_option maxHeartbeats 4000000 in
/-- Layer 0's scale row is row 0 of the stacked argument, set as a row. -/
theorem gam_0 (c : Dev nD) : W3 m ρ c (Proc.devRef .tc main_v49)
    = shapeCast S1x128 (Cert.Ingr.vRow 0 (m ((c : Thread nD τ).loc main_arg5))) shapeCasts_S128_S1x128 := by
  show StableHlo.after hostOps1 (W2 m ρ c) (Proc.devRef .tc main_v49) = _
  simp only [hostOps1]
  after_results
  show shapeCast S1x128 (shapeCast S128 (extractStridedSlice S1x128 ![0, 0] (W2 m ρ c (Proc.devRef .tc main_arg5)) _) _) shapeCasts_S128_S1x128 = _
  rw [(show W2 m ρ c (Proc.devRef .tc main_arg5) = (m ((c : Thread nD τ).loc main_arg5)) from (((reg0_keep m ρ c (b := main_arg5) (by decide)).trans (host0_keep m ρ c (b := main_arg5) (by decide)))).trans rfl)]
  exact congrArg (fun v => shapeCast S1x128 v shapeCasts_S128_S1x128) (Cert.Ingr.row_eq 0 _ _ _)

set_option maxHeartbeats 4000000 in
/-- Layer 0's shift row is row 0 of the stacked argument, set as a row. -/
theorem bet_0 (c : Dev nD) : W3 m ρ c (Proc.devRef .tc main_v50)
    = shapeCast S1x128 (Cert.Ingr.vRow 0 (m ((c : Thread nD τ).loc main_arg6))) shapeCasts_S128_S1x128 := by
  show StableHlo.after hostOps1 (W2 m ρ c) (Proc.devRef .tc main_v50) = _
  simp only [hostOps1]
  after_results
  show shapeCast S1x128 (shapeCast S128 (extractStridedSlice S1x128 ![0, 0] (W2 m ρ c (Proc.devRef .tc main_arg6)) _) _) shapeCasts_S128_S1x128 = _
  rw [(show W2 m ρ c (Proc.devRef .tc main_arg6) = (m ((c : Thread nD τ).loc main_arg6)) from (((reg0_keep m ρ c (b := main_arg6) (by decide)).trans (host0_keep m ρ c (b := main_arg6) (by decide)))).trans rfl)]
  exact congrArg (fun v => shapeCast S1x128 v shapeCasts_S128_S1x128) (Cert.Ingr.row_eq 0 _ _ _)

/-- The layer's input features are not written by its first host stretch. -/
theorem hcarry_0 (c : Dev nD) : W1 m ρ c (Proc.devRef .tc main_arg0) = W0 m ρ c (Proc.devRef .tc main_arg0) :=
  host0_keep m ρ c (b := main_arg0) (by decide)

/-- Layer 0's input features are the first argument. -/
theorem hcarry_0_arg (c : Dev nD) : W1 m ρ c (Proc.devRef .tc main_arg0) = (m ((c : Thread nD τ).loc main_arg0)) :=
  (hcarry_0 m ρ c).trans rfl

/-! ## Layer 1 -/

set_option maxHeartbeats 4000000 in
/-- Layer 1's first weight matrix is slab 1 of the stacked argument. -/
theorem wl_1 (c : Dev nD) : W5 m ρ c (Proc.devRef .tc main_v65) = Cert.Ingr.wSlab 1 (m ((c : Thread nD τ).loc main_arg2)) := by
  show StableHlo.after hostOps2 (W4 m ρ c) (Proc.devRef .tc main_v65) = _
  simp only [hostOps2]
  after_results
  show shapeCast S128x128 (extractStridedSlice S1x128x128 ![1, 0, 0] (W4 m ρ c (Proc.devRef .tc main_arg2)) _) _ = _
  rw [(show W4 m ρ c (Proc.devRef .tc main_arg2) = (m ((c : Thread nD τ).loc main_arg2)) from (((reg1_keep m ρ c (b := main_arg2) (by decide)).trans ((host1_keep m ρ c (b := main_arg2) (by decide)).trans ((reg0_keep m ρ c (b := main_arg2) (by decide)).trans (host0_keep m ρ c (b := main_arg2) (by decide)))))).trans rfl)]
  exact Cert.Ingr.slab_eq 1 _ _ _

set_option maxHeartbeats 4000000 in
/-- Layer 1's second weight matrix is slab 1 of the stacked argument. -/
theorem wr_1 (c : Dev nD) : W5 m ρ c (Proc.devRef .tc main_v69) = Cert.Ingr.wSlab 1 (m ((c : Thread nD τ).loc main_arg4)) := by
  show StableHlo.after hostOps2 (W4 m ρ c) (Proc.devRef .tc main_v69) = _
  simp only [hostOps2]
  after_results
  show shapeCast S128x128 (extractStridedSlice S1x128x128 ![1, 0, 0] (W4 m ρ c (Proc.devRef .tc main_arg4)) _) _ = _
  rw [(show W4 m ρ c (Proc.devRef .tc main_arg4) = (m ((c : Thread nD τ).loc main_arg4)) from (((reg1_keep m ρ c (b := main_arg4) (by decide)).trans ((host1_keep m ρ c (b := main_arg4) (by decide)).trans ((reg0_keep m ρ c (b := main_arg4) (by decide)).trans (host0_keep m ρ c (b := main_arg4) (by decide)))))).trans rfl)]
  exact Cert.Ingr.slab_eq 1 _ _ _

set_option maxHeartbeats 4000000 in
/-- Layer 1's bias row is row 1 of the stacked argument, set as a row. -/
theorem bl_1 (c : Dev nD) : W5 m ρ c (Proc.devRef .tc main_v70)
    = shapeCast S1x128 (Cert.Ingr.vRow 1 (m ((c : Thread nD τ).loc main_arg3))) shapeCasts_S128_S1x128 := by
  show StableHlo.after hostOps2 (W4 m ρ c) (Proc.devRef .tc main_v70) = _
  simp only [hostOps2]
  after_results
  show shapeCast S1x128 (shapeCast S128 (extractStridedSlice S1x128 ![1, 0] (W4 m ρ c (Proc.devRef .tc main_arg3)) _) _) shapeCasts_S128_S1x128 = _
  rw [(show W4 m ρ c (Proc.devRef .tc main_arg3) = (m ((c : Thread nD τ).loc main_arg3)) from (((reg1_keep m ρ c (b := main_arg3) (by decide)).trans ((host1_keep m ρ c (b := main_arg3) (by decide)).trans ((reg0_keep m ρ c (b := main_arg3) (by decide)).trans (host0_keep m ρ c (b := main_arg3) (by decide)))))).trans rfl)]
  exact congrArg (fun v => shapeCast S1x128 v shapeCasts_S128_S1x128) (Cert.Ingr.row_eq 1 _ _ _)

set_option maxHeartbeats 4000000 in
/-- Layer 1's scale row is row 1 of the stacked argument, set as a row. -/
theorem gam_1 (c : Dev nD) : W7 m ρ c (Proc.devRef .tc main_v88)
    = shapeCast S1x128 (Cert.Ingr.vRow 1 (m ((c : Thread nD τ).loc main_arg5))) shapeCasts_S128_S1x128 := by
  show StableHlo.after hostOps3 (W6 m ρ c) (Proc.devRef .tc main_v88) = _
  simp only [hostOps3]
  after_results
  show shapeCast S1x128 (shapeCast S128 (extractStridedSlice S1x128 ![1, 0] (W6 m ρ c (Proc.devRef .tc main_arg5)) _) _) shapeCasts_S128_S1x128 = _
  rw [(show W6 m ρ c (Proc.devRef .tc main_arg5) = (m ((c : Thread nD τ).loc main_arg5)) from (((reg2_keep m ρ c (b := main_arg5) (by decide)).trans ((host2_keep m ρ c (b := main_arg5) (by decide)).trans ((reg1_keep m ρ c (b := main_arg5) (by decide)).trans ((host1_keep m ρ c (b := main_arg5) (by decide)).trans ((reg0_keep m ρ c (b := main_arg5) (by decide)).trans (host0_keep m ρ c (b := main_arg5) (by decide)))))))).trans rfl)]
  exact congrArg (fun v => shapeCast S1x128 v shapeCasts_S128_S1x128) (Cert.Ingr.row_eq 1 _ _ _)

set_option maxHeartbeats 4000000 in
/-- Layer 1's shift row is row 1 of the stacked argument, set as a row. -/
theorem bet_1 (c : Dev nD) : W7 m ρ c (Proc.devRef .tc main_v89)
    = shapeCast S1x128 (Cert.Ingr.vRow 1 (m ((c : Thread nD τ).loc main_arg6))) shapeCasts_S128_S1x128 := by
  show StableHlo.after hostOps3 (W6 m ρ c) (Proc.devRef .tc main_v89) = _
  simp only [hostOps3]
  after_results
  show shapeCast S1x128 (shapeCast S128 (extractStridedSlice S1x128 ![1, 0] (W6 m ρ c (Proc.devRef .tc main_arg6)) _) _) shapeCasts_S128_S1x128 = _
  rw [(show W6 m ρ c (Proc.devRef .tc main_arg6) = (m ((c : Thread nD τ).loc main_arg6)) from (((reg2_keep m ρ c (b := main_arg6) (by decide)).trans ((host2_keep m ρ c (b := main_arg6) (by decide)).trans ((reg1_keep m ρ c (b := main_arg6) (by decide)).trans ((host1_keep m ρ c (b := main_arg6) (by decide)).trans ((reg0_keep m ρ c (b := main_arg6) (by decide)).trans (host0_keep m ρ c (b := main_arg6) (by decide)))))))).trans rfl)]
  exact congrArg (fun v => shapeCast S1x128 v shapeCasts_S128_S1x128) (Cert.Ingr.row_eq 1 _ _ _)

/-- The layer's input features are not written by its first host stretch. -/
theorem hcarry_1 (c : Dev nD) : W5 m ρ c (Proc.devRef .tc main_v51) = W4 m ρ c (Proc.devRef .tc main_v51) :=
  host2_keep m ρ c (b := main_v51) (by decide)

/-! ## Layer 2 -/

set_option maxHeartbeats 4000000 in
/-- Layer 2's first weight matrix is slab 2 of the stacked argument. -/
theorem wl_2 (c : Dev nD) : W9 m ρ c (Proc.devRef .tc main_v104) = Cert.Ingr.wSlab 2 (m ((c : Thread nD τ).loc main_arg2)) := by
  show StableHlo.after hostOps4 (W8 m ρ c) (Proc.devRef .tc main_v104) = _
  simp only [hostOps4]
  after_results
  show shapeCast S128x128 (extractStridedSlice S1x128x128 ![2, 0, 0] (W8 m ρ c (Proc.devRef .tc main_arg2)) _) _ = _
  rw [(show W8 m ρ c (Proc.devRef .tc main_arg2) = (m ((c : Thread nD τ).loc main_arg2)) from (((reg3_keep m ρ c (b := main_arg2) (by decide)).trans ((host3_keep m ρ c (b := main_arg2) (by decide)).trans ((reg2_keep m ρ c (b := main_arg2) (by decide)).trans ((host2_keep m ρ c (b := main_arg2) (by decide)).trans ((reg1_keep m ρ c (b := main_arg2) (by decide)).trans ((host1_keep m ρ c (b := main_arg2) (by decide)).trans ((reg0_keep m ρ c (b := main_arg2) (by decide)).trans (host0_keep m ρ c (b := main_arg2) (by decide)))))))))).trans rfl)]
  exact Cert.Ingr.slab_eq 2 _ _ _

set_option maxHeartbeats 4000000 in
/-- Layer 2's second weight matrix is slab 2 of the stacked argument. -/
theorem wr_2 (c : Dev nD) : W9 m ρ c (Proc.devRef .tc main_v108) = Cert.Ingr.wSlab 2 (m ((c : Thread nD τ).loc main_arg4)) := by
  show StableHlo.after hostOps4 (W8 m ρ c) (Proc.devRef .tc main_v108) = _
  simp only [hostOps4]
  after_results
  show shapeCast S128x128 (extractStridedSlice S1x128x128 ![2, 0, 0] (W8 m ρ c (Proc.devRef .tc main_arg4)) _) _ = _
  rw [(show W8 m ρ c (Proc.devRef .tc main_arg4) = (m ((c : Thread nD τ).loc main_arg4)) from (((reg3_keep m ρ c (b := main_arg4) (by decide)).trans ((host3_keep m ρ c (b := main_arg4) (by decide)).trans ((reg2_keep m ρ c (b := main_arg4) (by decide)).trans ((host2_keep m ρ c (b := main_arg4) (by decide)).trans ((reg1_keep m ρ c (b := main_arg4) (by decide)).trans ((host1_keep m ρ c (b := main_arg4) (by decide)).trans ((reg0_keep m ρ c (b := main_arg4) (by decide)).trans (host0_keep m ρ c (b := main_arg4) (by decide)))))))))).trans rfl)]
  exact Cert.Ingr.slab_eq 2 _ _ _

set_option maxHeartbeats 4000000 in
/-- Layer 2's bias row is row 2 of the stacked argument, set as a row. -/
theorem bl_2 (c : Dev nD) : W9 m ρ c (Proc.devRef .tc main_v109)
    = shapeCast S1x128 (Cert.Ingr.vRow 2 (m ((c : Thread nD τ).loc main_arg3))) shapeCasts_S128_S1x128 := by
  show StableHlo.after hostOps4 (W8 m ρ c) (Proc.devRef .tc main_v109) = _
  simp only [hostOps4]
  after_results
  show shapeCast S1x128 (shapeCast S128 (extractStridedSlice S1x128 ![2, 0] (W8 m ρ c (Proc.devRef .tc main_arg3)) _) _) shapeCasts_S128_S1x128 = _
  rw [(show W8 m ρ c (Proc.devRef .tc main_arg3) = (m ((c : Thread nD τ).loc main_arg3)) from (((reg3_keep m ρ c (b := main_arg3) (by decide)).trans ((host3_keep m ρ c (b := main_arg3) (by decide)).trans ((reg2_keep m ρ c (b := main_arg3) (by decide)).trans ((host2_keep m ρ c (b := main_arg3) (by decide)).trans ((reg1_keep m ρ c (b := main_arg3) (by decide)).trans ((host1_keep m ρ c (b := main_arg3) (by decide)).trans ((reg0_keep m ρ c (b := main_arg3) (by decide)).trans (host0_keep m ρ c (b := main_arg3) (by decide)))))))))).trans rfl)]
  exact congrArg (fun v => shapeCast S1x128 v shapeCasts_S128_S1x128) (Cert.Ingr.row_eq 2 _ _ _)

set_option maxHeartbeats 4000000 in
/-- Layer 2's scale row is row 2 of the stacked argument, set as a row. -/
theorem gam_2 (c : Dev nD) : W11 m ρ c (Proc.devRef .tc main_v127)
    = shapeCast S1x128 (Cert.Ingr.vRow 2 (m ((c : Thread nD τ).loc main_arg5))) shapeCasts_S128_S1x128 := by
  show StableHlo.after hostOps5 (W10 m ρ c) (Proc.devRef .tc main_v127) = _
  simp only [hostOps5]
  after_results
  show shapeCast S1x128 (shapeCast S128 (extractStridedSlice S1x128 ![2, 0] (W10 m ρ c (Proc.devRef .tc main_arg5)) _) _) shapeCasts_S128_S1x128 = _
  rw [(show W10 m ρ c (Proc.devRef .tc main_arg5) = (m ((c : Thread nD τ).loc main_arg5)) from (((reg4_keep m ρ c (b := main_arg5) (by decide)).trans ((host4_keep m ρ c (b := main_arg5) (by decide)).trans ((reg3_keep m ρ c (b := main_arg5) (by decide)).trans ((host3_keep m ρ c (b := main_arg5) (by decide)).trans ((reg2_keep m ρ c (b := main_arg5) (by decide)).trans ((host2_keep m ρ c (b := main_arg5) (by decide)).trans ((reg1_keep m ρ c (b := main_arg5) (by decide)).trans ((host1_keep m ρ c (b := main_arg5) (by decide)).trans ((reg0_keep m ρ c (b := main_arg5) (by decide)).trans (host0_keep m ρ c (b := main_arg5) (by decide)))))))))))).trans rfl)]
  exact congrArg (fun v => shapeCast S1x128 v shapeCasts_S128_S1x128) (Cert.Ingr.row_eq 2 _ _ _)

set_option maxHeartbeats 4000000 in
/-- Layer 2's shift row is row 2 of the stacked argument, set as a row. -/
theorem bet_2 (c : Dev nD) : W11 m ρ c (Proc.devRef .tc main_v128)
    = shapeCast S1x128 (Cert.Ingr.vRow 2 (m ((c : Thread nD τ).loc main_arg6))) shapeCasts_S128_S1x128 := by
  show StableHlo.after hostOps5 (W10 m ρ c) (Proc.devRef .tc main_v128) = _
  simp only [hostOps5]
  after_results
  show shapeCast S1x128 (shapeCast S128 (extractStridedSlice S1x128 ![2, 0] (W10 m ρ c (Proc.devRef .tc main_arg6)) _) _) shapeCasts_S128_S1x128 = _
  rw [(show W10 m ρ c (Proc.devRef .tc main_arg6) = (m ((c : Thread nD τ).loc main_arg6)) from (((reg4_keep m ρ c (b := main_arg6) (by decide)).trans ((host4_keep m ρ c (b := main_arg6) (by decide)).trans ((reg3_keep m ρ c (b := main_arg6) (by decide)).trans ((host3_keep m ρ c (b := main_arg6) (by decide)).trans ((reg2_keep m ρ c (b := main_arg6) (by decide)).trans ((host2_keep m ρ c (b := main_arg6) (by decide)).trans ((reg1_keep m ρ c (b := main_arg6) (by decide)).trans ((host1_keep m ρ c (b := main_arg6) (by decide)).trans ((reg0_keep m ρ c (b := main_arg6) (by decide)).trans (host0_keep m ρ c (b := main_arg6) (by decide)))))))))))).trans rfl)]
  exact congrArg (fun v => shapeCast S1x128 v shapeCasts_S128_S1x128) (Cert.Ingr.row_eq 2 _ _ _)

/-- The layer's input features are not written by its first host stretch. -/
theorem hcarry_2 (c : Dev nD) : W9 m ρ c (Proc.devRef .tc main_v90) = W8 m ρ c (Proc.devRef .tc main_v90) :=
  host4_keep m ρ c (b := main_v90) (by decide)

/-! ## The head -/

set_option maxHeartbeats 4000000 in
/-- The head's weight matrix 0 is the stretch of 128 rows at row 0 of the head's stacked argument. -/
theorem w1_0 (c : Dev nD) : W13 m ρ c (Proc.devRef .tc main_v130) = Cert.Ingr.w1Stretch 0 (m ((c : Thread nD τ).loc main_arg7)) := by
  show StableHlo.after hostOps6 (W12 m ρ c) (Proc.devRef .tc main_v130) = _
  simp only [hostOps6]
  after_results
  show extractStridedSlice S128x128 ![0, 0] (W12 m ρ c (Proc.devRef .tc main_arg7)) _ = _
  rw [(show W12 m ρ c (Proc.devRef .tc main_arg7) = (m ((c : Thread nD τ).loc main_arg7)) from (((reg5_keep m ρ c (b := main_arg7) (by decide)).trans ((host5_keep m ρ c (b := main_arg7) (by decide)).trans ((reg4_keep m ρ c (b := main_arg7) (by decide)).trans ((host4_keep m ρ c (b := main_arg7) (by decide)).trans ((reg3_keep m ρ c (b := main_arg7) (by decide)).trans ((host3_keep m ρ c (b := main_arg7) (by decide)).trans ((reg2_keep m ρ c (b := main_arg7) (by decide)).trans ((host2_keep m ρ c (b := main_arg7) (by decide)).trans ((reg1_keep m ρ c (b := main_arg7) (by decide)).trans ((host1_keep m ρ c (b := main_arg7) (by decide)).trans ((reg0_keep m ρ c (b := main_arg7) (by decide)).trans (host0_keep m ρ c (b := main_arg7) (by decide)))))))))))))).trans rfl)]
  exact Cert.Ingr.stretch_eq 0 _ _

set_option maxHeartbeats 4000000 in
/-- The head's weight matrix 1 is the stretch of 128 rows at row 128 of the head's stacked argument. -/
theorem w1_1 (c : Dev nD) : W13 m ρ c (Proc.devRef .tc main_v131) = Cert.Ingr.w1Stretch 1 (m ((c : Thread nD τ).loc main_arg7)) := by
  show StableHlo.after hostOps6 (W12 m ρ c) (Proc.devRef .tc main_v131) = _
  simp only [hostOps6]
  after_results
  show extractStridedSlice S128x128 ![128, 0] (W12 m ρ c (Proc.devRef .tc main_arg7)) _ = _
  rw [(show W12 m ρ c (Proc.devRef .tc main_arg7) = (m ((c : Thread nD τ).loc main_arg7)) from (((reg5_keep m ρ c (b := main_arg7) (by decide)).trans ((host5_keep m ρ c (b := main_arg7) (by decide)).trans ((reg4_keep m ρ c (b := main_arg7) (by decide)).trans ((host4_keep m ρ c (b := main_arg7) (by decide)).trans ((reg3_keep m ρ c (b := main_arg7) (by decide)).trans ((host3_keep m ρ c (b := main_arg7) (by decide)).trans ((reg2_keep m ρ c (b := main_arg7) (by decide)).trans ((host2_keep m ρ c (b := main_arg7) (by decide)).trans ((reg1_keep m ρ c (b := main_arg7) (by decide)).trans ((host1_keep m ρ c (b := main_arg7) (by decide)).trans ((reg0_keep m ρ c (b := main_arg7) (by decide)).trans (host0_keep m ρ c (b := main_arg7) (by decide)))))))))))))).trans rfl)]
  exact Cert.Ingr.stretch_eq 1 _ _

set_option maxHeartbeats 4000000 in
/-- The head's weight matrix 2 is the stretch of 128 rows at row 256 of the head's stacked argument. -/
theorem w1_2 (c : Dev nD) : W13 m ρ c (Proc.devRef .tc main_v132) = Cert.Ingr.w1Stretch 2 (m ((c : Thread nD τ).loc main_arg7)) := by
  show StableHlo.after hostOps6 (W12 m ρ c) (Proc.devRef .tc main_v132) = _
  simp only [hostOps6]
  after_results
  show extractStridedSlice S128x128 ![256, 0] (W12 m ρ c (Proc.devRef .tc main_arg7)) _ = _
  rw [(show W12 m ρ c (Proc.devRef .tc main_arg7) = (m ((c : Thread nD τ).loc main_arg7)) from (((reg5_keep m ρ c (b := main_arg7) (by decide)).trans ((host5_keep m ρ c (b := main_arg7) (by decide)).trans ((reg4_keep m ρ c (b := main_arg7) (by decide)).trans ((host4_keep m ρ c (b := main_arg7) (by decide)).trans ((reg3_keep m ρ c (b := main_arg7) (by decide)).trans ((host3_keep m ρ c (b := main_arg7) (by decide)).trans ((reg2_keep m ρ c (b := main_arg7) (by decide)).trans ((host2_keep m ρ c (b := main_arg7) (by decide)).trans ((reg1_keep m ρ c (b := main_arg7) (by decide)).trans ((host1_keep m ρ c (b := main_arg7) (by decide)).trans ((reg0_keep m ρ c (b := main_arg7) (by decide)).trans (host0_keep m ρ c (b := main_arg7) (by decide)))))))))))))).trans rfl)]
  exact Cert.Ingr.stretch_eq 2 _ _

set_option maxHeartbeats 4000000 in
/-- The head's weight matrix 3 is the stretch of 128 rows at row 384 of the head's stacked argument. -/
theorem w1_3 (c : Dev nD) : W13 m ρ c (Proc.devRef .tc main_v133) = Cert.Ingr.w1Stretch 3 (m ((c : Thread nD τ).loc main_arg7)) := by
  show StableHlo.after hostOps6 (W12 m ρ c) (Proc.devRef .tc main_v133) = _
  simp only [hostOps6]
  after_results
  show extractStridedSlice S128x128 ![384, 0] (W12 m ρ c (Proc.devRef .tc main_arg7)) _ = _
  rw [(show W12 m ρ c (Proc.devRef .tc main_arg7) = (m ((c : Thread nD τ).loc main_arg7)) from (((reg5_keep m ρ c (b := main_arg7) (by decide)).trans ((host5_keep m ρ c (b := main_arg7) (by decide)).trans ((reg4_keep m ρ c (b := main_arg7) (by decide)).trans ((host4_keep m ρ c (b := main_arg7) (by decide)).trans ((reg3_keep m ρ c (b := main_arg7) (by decide)).trans ((host3_keep m ρ c (b := main_arg7) (by decide)).trans ((reg2_keep m ρ c (b := main_arg7) (by decide)).trans ((host2_keep m ρ c (b := main_arg7) (by decide)).trans ((reg1_keep m ρ c (b := main_arg7) (by decide)).trans ((host1_keep m ρ c (b := main_arg7) (by decide)).trans ((reg0_keep m ρ c (b := main_arg7) (by decide)).trans (host0_keep m ρ c (b := main_arg7) (by decide)))))))))))))).trans rfl)]
  exact Cert.Ingr.stretch_eq 3 _ _

set_option maxHeartbeats 4000000 in
/-- The head's first bias row is its bias argument set as a row. -/
theorem b1row (c : Dev nD) : W13 m ρ c (Proc.devRef .tc main_v134) = shapeCast S1x128 (m ((c : Thread nD τ).loc main_arg8)) shapeCasts_S128_S1x128 := by
  show StableHlo.after hostOps6 (W12 m ρ c) (Proc.devRef .tc main_v134) = _
  simp only [hostOps6]
  after_results
  show shapeCast S1x128 (W12 m ρ c (Proc.devRef .tc main_arg8)) shapeCasts_S128_S1x128 = _
  rw [(show W12 m ρ c (Proc.devRef .tc main_arg8) = (m ((c : Thread nD τ).loc main_arg8)) from (((reg5_keep m ρ c (b := main_arg8) (by decide)).trans ((host5_keep m ρ c (b := main_arg8) (by decide)).trans ((reg4_keep m ρ c (b := main_arg8) (by decide)).trans ((host4_keep m ρ c (b := main_arg8) (by decide)).trans ((reg3_keep m ρ c (b := main_arg8) (by decide)).trans ((host3_keep m ρ c (b := main_arg8) (by decide)).trans ((reg2_keep m ρ c (b := main_arg8) (by decide)).trans ((host2_keep m ρ c (b := main_arg8) (by decide)).trans ((reg1_keep m ρ c (b := main_arg8) (by decide)).trans ((host1_keep m ρ c (b := main_arg8) (by decide)).trans ((reg0_keep m ρ c (b := main_arg8) (by decide)).trans (host0_keep m ρ c (b := main_arg8) (by decide)))))))))))))).trans rfl)]

set_option maxHeartbeats 4000000 in
/-- The head's scale row is its scale argument set as a row. -/
theorem gam3 (c : Dev nD) : W15 m ρ c (Proc.devRef .tc main_v148) = shapeCast S1x128 (m ((c : Thread nD τ).loc main_arg9)) shapeCasts_S128_S1x128 := by
  show StableHlo.after hostOps7 (W14 m ρ c) (Proc.devRef .tc main_v148) = _
  simp only [hostOps7]
  after_results
  show shapeCast S1x128 (W14 m ρ c (Proc.devRef .tc main_arg9)) shapeCasts_S128_S1x128 = _
  rw [(show W14 m ρ c (Proc.devRef .tc main_arg9) = (m ((c : Thread nD τ).loc main_arg9)) from (((reg6_keep m ρ c (b := main_arg9) (by decide)).trans ((host6_keep m ρ c (b := main_arg9) (by decide)).trans ((reg5_keep m ρ c (b := main_arg9) (by decide)).trans ((host5_keep m ρ c (b := main_arg9) (by decide)).trans ((reg4_keep m ρ c (b := main_arg9) (by decide)).trans ((host4_keep m ρ c (b := main_arg9) (by decide)).trans ((reg3_keep m ρ c (b := main_arg9) (by decide)).trans ((host3_keep m ρ c (b := main_arg9) (by decide)).trans ((reg2_keep m ρ c (b := main_arg9) (by decide)).trans ((host2_keep m ρ c (b := main_arg9) (by decide)).trans ((reg1_keep m ρ c (b := main_arg9) (by decide)).trans ((host1_keep m ρ c (b := main_arg9) (by decide)).trans ((reg0_keep m ρ c (b := main_arg9) (by decide)).trans (host0_keep m ρ c (b := main_arg9) (by decide)))))))))))))))).trans rfl)]

set_option maxHeartbeats 4000000 in
/-- The head's shift row is its shift argument set as a row. -/
theorem bet3 (c : Dev nD) : W15 m ρ c (Proc.devRef .tc main_v149) = shapeCast S1x128 (m ((c : Thread nD τ).loc main_arg10)) shapeCasts_S128_S1x128 := by
  show StableHlo.after hostOps7 (W14 m ρ c) (Proc.devRef .tc main_v149) = _
  simp only [hostOps7]
  after_results
  show shapeCast S1x128 (W14 m ρ c (Proc.devRef .tc main_arg10)) shapeCasts_S128_S1x128 = _
  rw [(show W14 m ρ c (Proc.devRef .tc main_arg10) = (m ((c : Thread nD τ).loc main_arg10)) from (((reg6_keep m ρ c (b := main_arg10) (by decide)).trans ((host6_keep m ρ c (b := main_arg10) (by decide)).trans ((reg5_keep m ρ c (b := main_arg10) (by decide)).trans ((host5_keep m ρ c (b := main_arg10) (by decide)).trans ((reg4_keep m ρ c (b := main_arg10) (by decide)).trans ((host4_keep m ρ c (b := main_arg10) (by decide)).trans ((reg3_keep m ρ c (b := main_arg10) (by decide)).trans ((host3_keep m ρ c (b := main_arg10) (by decide)).trans ((reg2_keep m ρ c (b := main_arg10) (by decide)).trans ((host2_keep m ρ c (b := main_arg10) (by decide)).trans ((reg1_keep m ρ c (b := main_arg10) (by decide)).trans ((host1_keep m ρ c (b := main_arg10) (by decide)).trans ((reg0_keep m ρ c (b := main_arg10) (by decide)).trans (host0_keep m ρ c (b := main_arg10) (by decide)))))))))))))))).trans rfl)]

set_option maxHeartbeats 4000000 in
/-- The head's last bias row is its last bias argument set as a row. -/
theorem b2row (c : Dev nD) : W15 m ρ c (Proc.devRef .tc main_v150) = shapeCast S1x64 (m ((c : Thread nD τ).loc main_arg12)) shapeCasts_S64_S1x64 := by
  show StableHlo.after hostOps7 (W14 m ρ c) (Proc.devRef .tc main_v150) = _
  simp only [hostOps7]
  after_results
  show shapeCast S1x64 (W14 m ρ c (Proc.devRef .tc main_arg12)) shapeCasts_S64_S1x64 = _
  rw [(show W14 m ρ c (Proc.devRef .tc main_arg12) = (m ((c : Thread nD τ).loc main_arg12)) from (((reg6_keep m ρ c (b := main_arg12) (by decide)).trans ((host6_keep m ρ c (b := main_arg12) (by decide)).trans ((reg5_keep m ρ c (b := main_arg12) (by decide)).trans ((host5_keep m ρ c (b := main_arg12) (by decide)).trans ((reg4_keep m ρ c (b := main_arg12) (by decide)).trans ((host4_keep m ρ c (b := main_arg12) (by decide)).trans ((reg3_keep m ρ c (b := main_arg12) (by decide)).trans ((host3_keep m ρ c (b := main_arg12) (by decide)).trans ((reg2_keep m ρ c (b := main_arg12) (by decide)).trans ((host2_keep m ρ c (b := main_arg12) (by decide)).trans ((reg1_keep m ρ c (b := main_arg12) (by decide)).trans ((host1_keep m ρ c (b := main_arg12) (by decide)).trans ((reg0_keep m ρ c (b := main_arg12) (by decide)).trans (host0_keep m ρ c (b := main_arg12) (by decide)))))))))))))))).trans rfl)]

/-- The head's last weight matrix is its argument: no segment writes it. -/
theorem w2_arg (c : Dev nD) : W15 m ρ c (Proc.devRef .tc main_arg11) = (m ((c : Thread nD τ).loc main_arg11)) :=
  (((host7_keep m ρ c (b := main_arg11) (by decide)).trans ((reg6_keep m ρ c (b := main_arg11) (by decide)).trans ((host6_keep m ρ c (b := main_arg11) (by decide)).trans ((reg5_keep m ρ c (b := main_arg11) (by decide)).trans ((host5_keep m ρ c (b := main_arg11) (by decide)).trans ((reg4_keep m ρ c (b := main_arg11) (by decide)).trans ((host4_keep m ρ c (b := main_arg11) (by decide)).trans ((reg3_keep m ρ c (b := main_arg11) (by decide)).trans ((host3_keep m ρ c (b := main_arg11) (by decide)).trans ((reg2_keep m ρ c (b := main_arg11) (by decide)).trans ((host2_keep m ρ c (b := main_arg11) (by decide)).trans ((reg1_keep m ρ c (b := main_arg11) (by decide)).trans ((host1_keep m ρ c (b := main_arg11) (by decide)).trans ((reg0_keep m ρ c (b := main_arg11) (by decide)).trans (host0_keep m ρ c (b := main_arg11) (by decide))))))))))))))))).trans rfl

/-- The input features at the head's first region are the first argument. -/
theorem x_arg13 (c : Dev nD) : W13 m ρ c (Proc.devRef .tc main_arg0) = (m ((c : Thread nD τ).loc main_arg0)) :=
  (((host6_keep m ρ c (b := main_arg0) (by decide)).trans ((reg5_keep m ρ c (b := main_arg0) (by decide)).trans ((host5_keep m ρ c (b := main_arg0) (by decide)).trans ((reg4_keep m ρ c (b := main_arg0) (by decide)).trans ((host4_keep m ρ c (b := main_arg0) (by decide)).trans ((reg3_keep m ρ c (b := main_arg0) (by decide)).trans ((host3_keep m ρ c (b := main_arg0) (by decide)).trans ((reg2_keep m ρ c (b := main_arg0) (by decide)).trans ((host2_keep m ρ c (b := main_arg0) (by decide)).trans ((reg1_keep m ρ c (b := main_arg0) (by decide)).trans ((host1_keep m ρ c (b := main_arg0) (by decide)).trans ((reg0_keep m ρ c (b := main_arg0) (by decide)).trans (host0_keep m ρ c (b := main_arg0) (by decide))))))))))))))).trans rfl

/-- Layer 0's output reaches the head as its second region left it. -/
theorem h1_carry (c : Dev nD) : W13 m ρ c (Proc.devRef .tc main_v51) = W4 m ρ c (Proc.devRef .tc main_v51) :=
  ((host6_keep m ρ c (b := main_v51) (by decide)).trans ((reg5_keep m ρ c (b := main_v51) (by decide)).trans ((host5_keep m ρ c (b := main_v51) (by decide)).trans ((reg4_keep m ρ c (b := main_v51) (by decide)).trans ((host4_keep m ρ c (b := main_v51) (by decide)).trans ((reg3_keep m ρ c (b := main_v51) (by decide)).trans ((host3_keep m ρ c (b := main_v51) (by decide)).trans ((reg2_keep m ρ c (b := main_v51) (by decide)).trans (host2_keep m ρ c (b := main_v51) (by decide))))))))))

/-- Layer 1's output reaches the head as its second region left it. -/
theorem h2_carry (c : Dev nD) : W13 m ρ c (Proc.devRef .tc main_v90) = W8 m ρ c (Proc.devRef .tc main_v90) :=
  ((host6_keep m ρ c (b := main_v90) (by decide)).trans ((reg5_keep m ρ c (b := main_v90) (by decide)).trans ((host5_keep m ρ c (b := main_v90) (by decide)).trans ((reg4_keep m ρ c (b := main_v90) (by decide)).trans (host4_keep m ρ c (b := main_v90) (by decide))))))

/-- Layer 2's output reaches the head as its second region left it. -/
theorem h3_carry (c : Dev nD) : W13 m ρ c (Proc.devRef .tc main_v129) = W12 m ρ c (Proc.devRef .tc main_v129) :=
  (host6_keep m ρ c (b := main_v129) (by decide))

end Cert.KernelIdeal.Layers
end
-- ==== Proof.LibSSA.lean ====
/-
  A straight line of host operations in which every operation writes one reference of its own, read back as
  equations: the line's final contents at an operation's result reference are the operation's function of the
  final contents at its operand references, provided no later operation of the line writes the result and no
  operation from this one on writes an operand. The line is cut at the operation: what comes before it decides
  the operands, the operation decides the result, and what comes after touches neither.
-/
import Idealize.ShloMosaic.Lib.StableHlo.Run

noncomputable section
namespace Cert.ReferenceIdeal.SSA
open Idealize.ShloMosaic Idealize.ShloMosaic.TcCoe Idealize.SL.Sem Idealize.ShloMosaic.StableHlo

variable {τ : Topo} {sig : RefSig} {Val : EltTy → Type}

/-- Operation by operation, the line writes exactly the listed reference. -/
def WritesOnly : List (HloOp τ sig Val) → List (Ref sig .tc) → Prop
  | [], [] => True
  | op :: ops, w :: ws => op.writes = {Proc.devRef .tc w} ∧ WritesOnly ops ws
  | [], _ :: _ => False
  | _ :: _, [] => False

theorem WritesOnly.drop : ∀ {ops : List (HloOp τ sig Val)} {ws : List (Ref sig .tc)} (k : Nat),
    WritesOnly ops ws → WritesOnly (ops.drop k) (ws.drop k)
  | _, _, 0, h => h
  | [], [], _ + 1, _ => trivial
  | _ :: _, _ :: _, k + 1, h => WritesOnly.drop k h.2
  | [], _ :: _, _ + 1, h => h.elim
  | _ :: _, [], _ + 1, h => h.elim

theorem WritesOnly.not_mem : ∀ {ops : List (HloOp τ sig Val)} {ws : List (Ref sig .tc)}, WritesOnly ops ws →
    ∀ {r : Ref sig .tc}, r ∉ ws → ∀ op ∈ ops, (Proc.devRef (τ := τ) .tc r) ∉ op.writes
  | [], _, _, _, _, _, hop => by cases hop
  | _ :: _, [], h, _, _, _, _ => h.elim
  | o :: ops, w :: ws, h, r, hr, op, hop => by
    rcases List.mem_cons.mp hop with rfl | hop
    · rw [h.1, Finset.mem_singleton]
      exact devRef_ne_of_ne fun e => hr (e ▸ List.mem_cons_self)
    · exact WritesOnly.not_mem h.2 (fun hm => hr (List.mem_cons_of_mem _ hm)) op hop

/-- A reference the line does not write keeps its contents. -/
theorem keep_of {ops : List (HloOp τ sig Val)} {ws : List (Ref sig .tc)} (H : WritesOnly ops ws) {r : Ref sig .tc}
    (hr : r ∉ ws) (V : Valuation τ sig Val) : after ops V (Proc.devRef .tc r) = V (Proc.devRef .tc r) :=
  after_of_forall_not_mem ops V (H.not_mem hr)

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

theorem after_take_drop (ops : List (HloOp τ sig Val)) (k : Nat) (V : Valuation τ sig Val) :
    after ops V = after (ops.drop k) (after (ops.take k) V) := by
  rw [← after_app, List.take_append_drop]

/-- A reference no operation from position k on writes holds at the end what it held before position k. -/
theorem operand_at {ops : List (HloOp τ sig Val)} {ws : List (Ref sig .tc)} (H : WritesOnly ops ws) (k : Nat) {x : Ref sig .tc}
    (hx : x ∉ ws.drop k) (V : Valuation τ sig Val) :
    after ops V (Proc.devRef .tc x) = after (ops.take k) V (Proc.devRef .tc x) := by
  rw [after_take_drop ops k V]
  exact keep_of (H.drop k) hx _

/-- A reference no operation after position k writes holds at the end what the operation at position k left. -/
theorem result_at {ops : List (HloOp τ sig Val)} {ws : List (Ref sig .tc)} (H : WritesOnly ops ws) (k : Nat) {op : HloOp τ sig Val}
    (hop : ops[k]? = some op) {y : Ref sig .tc} (hy : y ∉ ws.drop (k + 1)) (V : Valuation τ sig Val) :
    after ops V (Proc.devRef .tc y) = op.result (after (ops.take k) V) (Proc.devRef .tc y) := by
  obtain ⟨hk, rfl⟩ := List.getElem?_eq_some_iff.mp hop
  rw [after_take_drop ops k V, List.drop_eq_getElem_cons hk, after_cons]
  exact keep_of (H.drop (k + 1)) hy _

section Builders
variable {ops : List (HloOp τ sig Val)} {ws : List (Ref sig .tc)} (H : WritesOnly ops ws) (k : Nat)
include H

theorem rb_nullary (y : Ref sig .tc) (v : y.ty.Contents Val) (hy)
    (hop : ops[k]? = some (nullary y v hy)) (hyw : y ∉ ws.drop (k + 1)) (V : Valuation τ sig Val) :
    after ops V (Proc.devRef .tc y) = v :=
  (result_at H k hop hyw V).trans (nullary_result y v hy _)

theorem rb_unary (x y : Ref sig .tc) (f : x.ty.Contents Val → y.ty.Contents Val) (hx hy)
    (hop : ops[k]? = some (unary x y f hx hy)) (hyw : y ∉ ws.drop (k + 1)) (hxw : x ∉ ws.drop k) (V : Valuation τ sig Val) :
    after ops V (Proc.devRef .tc y) = f (after ops V (Proc.devRef .tc x)) := by
  rw [operand_at H k hxw V]
  exact (result_at H k hop hyw V).trans (unary_result x y f hx hy _)

theorem rb_binary (a b y : Ref sig .tc) (f : a.ty.Contents Val → b.ty.Contents Val → y.ty.Contents Val) (ha hb hy)
    (hop : ops[k]? = some (binary a b y f ha hb hy)) (hyw : y ∉ ws.drop (k + 1)) (haw : a ∉ ws.drop k) (hbw : b ∉ ws.drop k)
    (V : Valuation τ sig Val) :
    after ops V (Proc.devRef .tc y) = f (after ops V (Proc.devRef .tc a)) (after ops V (Proc.devRef .tc b)) := by
  rw [operand_at H k haw V, operand_at H k hbw V]
  exact (result_at H k hop hyw V).trans (binary_result a b y f ha hb hy _)

theorem rb_ternary (c a b y : Ref sig .tc) (f : c.ty.Contents Val → a.ty.Contents Val → b.ty.Contents Val → y.ty.Contents Val)
    (hc ha hb hy) (hop : ops[k]? = some (ternary c a b y f hc ha hb hy)) (hyw : y ∉ ws.drop (k + 1))
    (hcw : c ∉ ws.drop k) (haw : a ∉ ws.drop k) (hbw : b ∉ ws.drop k) (V : Valuation τ sig Val) :
    after ops V (Proc.devRef .tc y)
      = f (after ops V (Proc.devRef .tc c)) (after ops V (Proc.devRef .tc a)) (after ops V (Proc.devRef .tc b)) := by
  rw [operand_at H k hcw V, operand_at H k haw V, operand_at H k hbw V]
  exact (result_at H k hop hyw V).trans (ternary_result c a b y f hc ha hb hy _)

theorem rb_reshape (x y : Ref sig .tc) (he : x.ty.elt = y.ty.elt) (hn : x.ty.shape.ShapeCasts y.ty.shape) (hx hy)
    (hop : ops[k]? = some (reshape (Val := Val) x y he hn hx hy)) (hyw : y ∉ ws.drop (k + 1)) (hxw : x ∉ ws.drop k)
    (V : Valuation τ sig Val) :
    after ops V (Proc.devRef .tc y) = fun i => he ▸ shapeCast y.ty.shape (after ops V (Proc.devRef .tc x)) hn i := by
  rw [operand_at H k hxw V]
  exact (result_at H k hop hyw V).trans (reshape_result x y he hn hx hy _)

theorem rb_nary {n : Nat} (xs : Fin n → Ref sig .tc) (y : Ref sig .tc)
    (f : ((j : Fin n) → (xs j).ty.Contents Val) → y.ty.Contents Val) (hxs hy)
    (hop : ops[k]? = some (nary xs y f hxs hy)) (hyw : y ∉ ws.drop (k + 1)) (hxw : ∀ j, xs j ∉ ws.drop k)
    (V : Valuation τ sig Val) :
    after ops V (Proc.devRef .tc y) = f (fun j => after ops V (Proc.devRef .tc (xs j))) := by
  rw [show (fun j => after ops V (Proc.devRef .tc (xs j))) = fun j => after (ops.take k) V (Proc.devRef .tc (xs j)) from
    funext fun j => operand_at H k (hxw j) V]
  exact (result_at H k hop hyw V).trans (nary_result xs y f hxs hy _)

end Builders

section TypedBuilders
variable {ops : List (HloOp τ sig Val)} {ws : List (Ref sig .tc)} (H : WritesOnly ops ws) (k : Nat)
variable {Tx Ta Tb Tc Ty : BufTy}
include H

/-- The same for the operations of a called function, whose references carry the type of the value they hold: the
    function is stated at those types and moved to the buffers' own types along the carried equations. -/
theorem rb_tnullary (y : TRef sig Ty) (v : Ty.Contents Val)
    (hop : ops[k]? = some (TRef.nullary (τ := τ) y v)) (hyw : y.ref ∉ ws.drop (k + 1)) (V : Valuation τ sig Val) :
    after ops V (Proc.devRef .tc y.ref) = y.toBuf v :=
  rb_nullary H k y.ref (y.toBuf v) y.dev hop hyw V

theorem rb_tunary (x : TRef sig Tx) (y : TRef sig Ty) (f : Tx.Contents Val → Ty.Contents Val)
    (hop : ops[k]? = some (TRef.unary (τ := τ) x y f)) (hyw : y.ref ∉ ws.drop (k + 1)) (hxw : x.ref ∉ ws.drop k)
    (V : Valuation τ sig Val) :
    after ops V (Proc.devRef .tc y.ref) = y.toBuf (f (x.ofBuf (after ops V (Proc.devRef .tc x.ref)))) :=
  rb_unary H k x.ref y.ref (fun u => y.toBuf (f (x.ofBuf u))) x.dev y.dev hop hyw hxw V

theorem rb_tbinary (a : TRef sig Ta) (b : TRef sig Tb) (y : TRef sig Ty) (f : Ta.Contents Val → Tb.Contents Val → Ty.Contents Val)
    (hop : ops[k]? = some (TRef.binary (τ := τ) a b y f)) (hyw : y.ref ∉ ws.drop (k + 1)) (haw : a.ref ∉ ws.drop k)
    (hbw : b.ref ∉ ws.drop k) (V : Valuation τ sig Val) :
    after ops V (Proc.devRef .tc y.ref)
      = y.toBuf (f (a.ofBuf (after ops V (Proc.devRef .tc a.ref))) (b.ofBuf (after ops V (Proc.devRef .tc b.ref)))) :=
  rb_binary H k a.ref b.ref y.ref (fun u v => y.toBuf (f (a.ofBuf u) (b.ofBuf v))) a.dev b.dev y.dev hop hyw haw hbw V

theorem rb_tternary (c : TRef sig Tc) (a : TRef sig Ta) (b : TRef sig Tb) (y : TRef sig Ty)
    (f : Tc.Contents Val → Ta.Contents Val → Tb.Contents Val → Ty.Contents Val)
    (hop : ops[k]? = some (TRef.ternary (τ := τ) c a b y f)) (hyw : y.ref ∉ ws.drop (k + 1)) (hcw : c.ref ∉ ws.drop k)
    (haw : a.ref ∉ ws.drop k) (hbw : b.ref ∉ ws.drop k) (V : Valuation τ sig Val) :
    after ops V (Proc.devRef .tc y.ref)
      = y.toBuf (f (c.ofBuf (after ops V (Proc.devRef .tc c.ref))) (a.ofBuf (after ops V (Proc.devRef .tc a.ref)))
          (b.ofBuf (after ops V (Proc.devRef .tc b.ref)))) :=
  rb_ternary H k c.ref a.ref b.ref y.ref (fun w u v => y.toBuf (f (c.ofBuf w) (a.ofBuf u) (b.ofBuf v))) c.dev a.dev b.dev y.dev
    hop hyw hcw haw hbw V

end TypedBuilders

end Cert.ReferenceIdeal.SSA
end
-- ==== Proof.RefSSA0.lean ====
/- Window `main_part0` of the idealized reference's @main, read back: for each of its 81 host operations, the window's final
   contents at the reference the operation writes are the operation's function of the final contents at its operand
   references (every reference is written once, after its operands); a reference the window does not write keeps its contents. -/
import proofs.«173273_j2259152798196_2_alg».proof.Proof.RefOps
import proofs.«173273_j2259152798196_2_alg».proof.Proof.LibSSA

noncomputable section

namespace Cert.ReferenceIdeal.SSA

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The references window `main_part0` writes, in the order of its operations. -/
abbrev written0 : List (Ref sig .tc) :=
  [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25, main_v26, main_v27, main_v28, main_v29, main_v30, main_v31, main_v32, main_v33, main_v34, main_v35, main_v36, main_v37, main_v38, main_v39, main_v40, main_cst_5, main_v41, main_cst_6, main_v42, main_v43, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v44, main_v45, main_v46, main_v47, main_cst_8, main_v48]

set_option maxRecDepth 16384 in
/-- Operation by operation, the window writes exactly the listed reference. -/
theorem writes0 : WritesOnly (ops_part0 (F := F)) written0 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A reference the window does not write keeps its contents. -/
theorem keep0 (W : Valuation τ sig (Elt F)) {r : Ref sig .tc} (hr : r ∉ written0) :
    after ops_part0 W (Proc.devRef .tc r) = W (Proc.devRef .tc r) :=
  keep_of writes0 hr W

theorem rb_main_v0 (W : Valuation τ sig (Elt F)) :
    after ops_part0 W (Proc.devRef .tc main_v0)
      = ((extractStridedSlice S1x1600000 ![0, 0] · slices_S2x1600000_S1x1600000_0_0) : (⟨S2x1600000, .i32⟩ : BufTy).Contents (Elt F) → (⟨S1x1600000, .i32⟩ : BufTy).Contents (Elt F)) (after ops_part0 W (Proc.devRef .tc main_arg1)) :=
  rb_unary writes0 0 main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)) _ _ rfl (by decide) (by decide) W

theorem rb_main_v1 (W : Valuation τ sig (Elt F)) :
    after ops_part0 W (Proc.devRef .tc main_v1)
      = shapeCast S1600000 (after ops_part0 W (Proc.devRef .tc main_v0)) shapeCasts_S1x1600000_S1600000 :=
  (rb_reshape writes0 1 main_v0 main_v1 rfl shapeCasts_S1x1600000_S1600000 _ _ rfl (by decide) (by decide) W).trans rfl

theorem rb_main_v2 (W : Valuation τ sig (Elt F)) :
    after ops_part0 W (Proc.devRef .tc main_v2)
      = ((extractStridedSlice S1x1600000 ![1, 0] · slices_S2x1600000_S1x1600000_1_0) : (⟨S2x1600000, .i32⟩ : BufTy).Contents (Elt F) → (⟨S1x1600000, .i32⟩ : BufTy).Contents (Elt F)) (after ops_part0 W (Proc.devRef .tc main_arg1)) :=
  rb_unary writes0 2 main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)) _ _ rfl (by decide) (by decide) W

theorem rb_main_v3 (W : Valuation τ sig (Elt F)) :
    after ops_part0 W (Proc.devRef .tc main_v3)
      = shapeCast S1600000 (after ops_part0 W (Proc.devRef .tc main_v2)) shapeCasts_S1x1600000_S1600000 :=
  (rb_reshape writes0 3 main_v2 main_v3 rfl shapeCasts_S1x1600000_S1600000 _ _ rfl (by decide) (by decide) W).trans rfl

theorem rb_main_cst (W : Valuation τ sig (Elt F)) :
    after ops_part0 W (Proc.devRef .tc main_cst)
      = (constant S_ .f32 0x3F800000#32) :=
  rb_nullary writes0 4 main_cst (constant S_ .f32 0x3F800000#32) _ rfl (by decide) W

theorem rb_main_v4 (W : Valuation τ sig (Elt F)) :
    after ops_part0 W (Proc.devRef .tc main_v4)
      = (broadcastInDim S1600000 ![] bcast_S_S1600000 : (⟨S_, .f32⟩ : BufTy).Contents (Elt F) → (⟨S1600000, .f32⟩ : BufTy).Contents (Elt F)) (after ops_part0 W (Proc.devRef .tc main_cst)) :=
  rb_unary writes0 5 main_cst main_v4 (broadcastInDim S1600000 ![] bcast_S_S1600000 : (⟨S_, .f32⟩ : BufTy).Contents (Elt F) → (⟨S1600000, .f32⟩ : BufTy).Contents (Elt F)) _ _ rfl (by decide) (by decide) W

theorem rb_main_cst_0 (W : Valuation τ sig (Elt F)) :
    after ops_part0 W (Proc.devRef .tc main_cst_0)
      = (constant S_ .f32 0x00000000#32) :=
  rb_nullary writes0 6 main_cst_0 (constant S_ .f32 0x00000000#32) _ rfl (by decide) W

theorem rb_main_v5 (W : Valuation τ sig (Elt F)) :
    after ops_part0 W (Proc.devRef .tc main_v5)
      = (broadcastInDim S100000 ![] bcast_S_S100000 : (⟨S_, .f32⟩ : BufTy).Contents (Elt F) → (⟨S100000, .f32⟩ : BufTy).Contents (Elt F)) (after ops_part0 W (Proc.devRef .tc main_cst_0)) :=
  rb_unary writes0 7 main_cst_0 main_v5 (broadcastInDim S100000 ![] bcast_S_S100000 : (⟨S_, .f32⟩ : BufTy).Contents (Elt F) → (⟨S100000, .f32⟩ : BufTy).Contents (Elt F)) _ _ rfl (by decide) (by decide) W

theorem rb_main_v6 (W : Valuation τ sig (Elt F)) :
    after ops_part0 W (Proc.devRef .tc main_v6)
      = (broadcastInDim S1600000x1 ![0] bcast_S1600000_S1600000x1_0 : (⟨S1600000, .i32⟩ : BufTy).Contents (Elt F) → (⟨S1600000x1, .i32⟩ : BufTy).Contents (Elt F)) (after ops_part0 W (Proc.devRef .tc main_v3)) :=
  rb_unary writes0 8 main_v3 main_v6 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rb_main_v7 (W : Valuation τ sig (Elt F)) :
    after ops_part0 W (Proc.devRef .tc main_v7)
      = ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (after ops_part0 W (Proc.devRef .tc main_v5)) (after ops_part0 W (Proc.devRef .tc main_v6)) (after ops_part0 W (Proc.devRef .tc main_v4)) :=
  rb_ternary writes0 9 main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) _ _ _ _ rfl (by decide) (by decide) (by decide) (by decide) W

theorem rb_main_cst_1 (W : Valuation τ sig (Elt F)) :
    after ops_part0 W (Proc.devRef .tc main_cst_1)
      = (constant S_ .f32 0x3F800000#32) :=
  rb_nullary writes0 10 main_cst_1 (constant S_ .f32 0x3F800000#32) _ rfl (by decide) W

theorem rb_main_v8 (W : Valuation τ sig (Elt F)) :
    after ops_part0 W (Proc.devRef .tc main_v8)
      = (broadcastInDim S100000 ![] bcast_S_S100000 : (⟨S_, .f32⟩ : BufTy).Contents (Elt F) → (⟨S100000, .f32⟩ : BufTy).Contents (Elt F)) (after ops_part0 W (Proc.devRef .tc main_cst_1)) :=
  rb_unary writes0 11 main_cst_1 main_v8 (broadcastInDim S100000 ![] bcast_S_S100000 : (⟨S_, .f32⟩ : BufTy).Contents (Elt F) → (⟨S100000, .f32⟩ : BufTy).Contents (Elt F)) _ _ rfl (by decide) (by decide) W

theorem rb_main_v9 (W : Valuation τ sig (Elt F)) :
    after ops_part0 W (Proc.devRef .tc main_v9)
      = (maximumf : (⟨S100000, .f32⟩ : BufTy).Contents (Elt F) → (⟨S100000, .f32⟩ : BufTy).Contents (Elt F) → (⟨S100000, .f32⟩ : BufTy).Contents (Elt F)) (after ops_part0 W (Proc.devRef .tc main_v7)) (after ops_part0 W (Proc.devRef .tc main_v8)) :=
  rb_binary writes0 12 main_v7 main_v8 main_v9 (maximumf : (⟨S100000, .f32⟩ : BufTy).Contents (Elt F) → (⟨S100000, .f32⟩ : BufTy).Contents (Elt F) → (⟨S100000, .f32⟩ : BufTy).Contents (Elt F)) _ _ _ rfl (by decide) (by decide) (by decide) W

theorem rb_main_cst_2 (W : Valuation τ sig (Elt F)) :
    after ops_part0 W (Proc.devRef .tc main_cst_2)
      = (constant S_ .f32 0x3F800000#32) :=
  rb_nullary writes0 13 main_cst_2 (constant S_ .f32 0x3F800000#32) _ rfl (by decide) W

theorem rb_main_v10 (W : Valuation τ sig (Elt F)) :
    after ops_part0 W (Proc.devRef .tc main_v10)
      = (broadcastInDim S100000 ![] bcast_S_S100000 : (⟨S_, .f32⟩ : BufTy).Contents (Elt F) → (⟨S100000, .f32⟩ : BufTy).Contents (Elt F)) (after ops_part0 W (Proc.devRef .tc main_cst_2)) :=
  rb_unary writes0 14 main_cst_2 main_v10 (broadcastInDim S100000 ![] bcast_S_S100000 : (⟨S_, .f32⟩ : BufTy).Contents (Elt F) → (⟨S100000, .f32⟩ : BufTy).Contents (Elt F)) _ _ rfl (by decide) (by decide) W

theorem rb_main_v11 (W : Valuation τ sig (Elt F)) :
    after ops_part0 W (Proc.devRef .tc main_v11)
      = (Host.divf : (⟨S100000, .f32⟩ : BufTy).Contents (Elt F) → (⟨S100000, .f32⟩ : BufTy).Contents (Elt F) → (⟨S100000, .f32⟩ : BufTy).Contents (Elt F)) (after ops_part0 W (Proc.devRef .tc main_v10)) (after ops_part0 W (Proc.devRef .tc main_v9)) :=
  rb_binary writes0 15 main_v10 main_v9 main_v11 (Host.divf : (⟨S100000, .f32⟩ : BufTy).Contents (Elt F) → (⟨S100000, .f32⟩ : BufTy).Contents (Elt F) → (⟨S100000, .f32⟩ : BufTy).Contents (Elt F)) _ _ _ rfl (by decide) (by decide) (by decide) W

theorem rb_main_v12 (W : Valuation τ sig (Elt F)) :
    after ops_part0 W (Proc.devRef .tc main_v12)
      = (broadcastInDim S100000x1 ![0] bcast_S100000_S100000x1_0 : (⟨S100000, .f32⟩ : BufTy).Contents (Elt F) → (⟨S100000x1, .f32⟩ : BufTy).Contents (Elt F)) (after ops_part0 W (Proc.devRef .tc main_v11)) :=
  rb_unary writes0 16 main_v11 main_v12 (broadcastInDim S100000x1 ![0] bcast_S100000_S100000x1_0 : (⟨S100000, .f32⟩ : BufTy).Contents (Elt F) → (⟨S100000x1, .f32⟩ : BufTy).Contents (Elt F)) _ _ rfl (by decide) (by decide) W

theorem rb_main_c (W : Valuation τ sig (Elt F)) :
    after ops_part0 W (Proc.devRef .tc main_c)
      = (constantI S_ 32 0#32) :=
  rb_nullary writes0 17 main_c (constantI S_ 32 0#32) _ rfl (by decide) W

theorem rb_main_v13 (W : Valuation τ sig (Elt F)) :
    after ops_part0 W (Proc.devRef .tc main_v13)
      = (broadcastInDim S1600000 ![] bcast_S_S1600000 : (⟨S_, .i32⟩ : BufTy).Contents (Elt F) → (⟨S1600000, .i32⟩ : BufTy).Contents (Elt F)) (after ops_part0 W (Proc.devRef .tc main_c)) :=
  rb_unary writes0 18 main_c main_v13 (broadcastInDim S1600000 ![] bcast_S_S1600000 : (⟨S_, .i32⟩ : BufTy).Contents (Elt F) → (⟨S1600000, .i32⟩ : BufTy).Contents (Elt F)) _ _ rfl (by decide) (by decide) W

theorem rb_main_v14 (W : Valuation τ sig (Elt F)) :
    after ops_part0 W (Proc.devRef .tc main_v14)
      = (cmpi .slt : (⟨S1600000, .i32⟩ : BufTy).Contents (Elt F) → (⟨S1600000, .i32⟩ : BufTy).Contents (Elt F) → (⟨S1600000, .i1⟩ : BufTy).Contents (Elt F)) (after ops_part0 W (Proc.devRef .tc main_v1)) (after ops_part0 W (Proc.devRef .tc main_v13)) :=
  rb_binary writes0 19 main_v1 main_v13 main_v14 (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide) W

theorem rb_main_c_3 (W : Valuation τ sig (Elt F)) :
    after ops_part0 W (Proc.devRef .tc main_c_3)
      = (constantI S_ 32 100000#32) :=
  rb_nullary writes0 20 main_c_3 (constantI S_ 32 100000#32) _ rfl (by decide) W

theorem rb_main_v15 (W : Valuation τ sig (Elt F)) :
    after ops_part0 W (Proc.devRef .tc main_v15)
      = (broadcastInDim S1600000 ![] bcast_S_S1600000 : (⟨S_, .i32⟩ : BufTy).Contents (Elt F) → (⟨S1600000, .i32⟩ : BufTy).Contents (Elt F)) (after ops_part0 W (Proc.devRef .tc main_c_3)) :=
  rb_unary writes0 21 main_c_3 main_v15 (broadcastInDim S1600000 ![] bcast_S_S1600000 : (⟨S_, .i32⟩ : BufTy).Contents (Elt F) → (⟨S1600000, .i32⟩ : BufTy).Contents (Elt F)) _ _ rfl (by decide) (by decide) W

theorem rb_main_v16 (W : Valuation τ sig (Elt F)) :
    after ops_part0 W (Proc.devRef .tc main_v16)
      = (addi : (⟨S1600000, .i32⟩ : BufTy).Contents (Elt F) → (⟨S1600000, .i32⟩ : BufTy).Contents (Elt F) → (⟨S1600000, .i32⟩ : BufTy).Contents (Elt F)) (after ops_part0 W (Proc.devRef .tc main_v1)) (after ops_part0 W (Proc.devRef .tc main_v15)) :=
  rb_binary writes0 22 main_v1 main_v15 main_v16 (addi : (⟨S1600000, .i32⟩ : BufTy).Contents (Elt F) → (⟨S1600000, .i32⟩ : BufTy).Contents (Elt F) → (⟨S1600000, .i32⟩ : BufTy).Contents (Elt F)) _ _ _ rfl (by decide) (by decide) (by decide) W

theorem rb_main_v17 (W : Valuation τ sig (Elt F)) :
    after ops_part0 W (Proc.devRef .tc main_v17)
      = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops_part0 W (Proc.devRef .tc main_v14)) (after ops_part0 W (Proc.devRef .tc main_v16)) (after ops_part0 W (Proc.devRef .tc main_v1)) :=
  rb_ternary writes0 23 main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide) W

theorem rb_main_v18 (W : Valuation τ sig (Elt F)) :
    after ops_part0 W (Proc.devRef .tc main_v18)
      = (broadcastInDim S1600000x1 ![0] bcast_S1600000_S1600000x1_0 : (⟨S1600000, .i32⟩ : BufTy).Contents (Elt F) → (⟨S1600000x1, .i32⟩ : BufTy).Contents (Elt F)) (after ops_part0 W (Proc.devRef .tc main_v17)) :=
  rb_unary writes0 24 main_v17 main_v18 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rb_main_v19 (W : Valuation τ sig (Elt F)) :
    after ops_part0 W (Proc.devRef .tc main_v19)
      = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops_part0 W (Proc.devRef .tc main_arg0)) (after ops_part0 W (Proc.devRef .tc main_v18)) :=
  rb_binary writes0 25 main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (by decide) (by decide) (by decide) W

theorem rb_main_cst_4 (W : Valuation τ sig (Elt F)) :
    after ops_part0 W (Proc.devRef .tc main_cst_4)
      = (constant S_ .f32 0x00000000#32) :=
  rb_nullary writes0 26 main_cst_4 (constant S_ .f32 0x00000000#32) _ rfl (by decide) W

theorem rb_main_v20 (W : Valuation τ sig (Elt F)) :
    after ops_part0 W (Proc.devRef .tc main_v20)
      = (broadcastInDim S100000x128 ![] bcast_S_S100000x128 : (⟨S_, .f32⟩ : BufTy).Contents (Elt F) → (⟨S100000x128, .f32⟩ : BufTy).Contents (Elt F)) (after ops_part0 W (Proc.devRef .tc main_cst_4)) :=
  rb_unary writes0 27 main_cst_4 main_v20 (broadcastInDim S100000x128 ![] bcast_S_S100000x128 : (⟨S_, .f32⟩ : BufTy).Contents (Elt F) → (⟨S100000x128, .f32⟩ : BufTy).Contents (Elt F)) _ _ rfl (by decide) (by decide) W

theorem rb_main_v21 (W : Valuation τ sig (Elt F)) :
    after ops_part0 W (Proc.devRef .tc main_v21)
      = (broadcastInDim S1600000x1 ![0] bcast_S1600000_S1600000x1_0 : (⟨S1600000, .i32⟩ : BufTy).Contents (Elt F) → (⟨S1600000x1, .i32⟩ : BufTy).Contents (Elt F)) (after ops_part0 W (Proc.devRef .tc main_v3)) :=
  rb_unary writes0 28 main_v3 main_v21 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rb_main_v22 (W : Valuation τ sig (Elt F)) :
    after ops_part0 W (Proc.devRef .tc main_v22)
      = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops_part0 W (Proc.devRef .tc main_v20)) (after ops_part0 W (Proc.devRef .tc main_v21)) (after ops_part0 W (Proc.devRef .tc main_v19)) :=
  rb_ternary writes0 29 main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (by decide) (by decide) (by decide) (by decide) W

theorem rb_main_v23 (W : Valuation τ sig (Elt F)) :
    after ops_part0 W (Proc.devRef .tc main_v23)
      = (broadcastInDim S100000x128 ![0, 1] bcast_S100000x1_S100000x128_0_1 : (⟨S100000x1, .f32⟩ : BufTy).Contents (Elt F) → (⟨S100000x128, .f32⟩ : BufTy).Contents (Elt F)) (after ops_part0 W (Proc.devRef .tc main_v12)) :=
  rb_unary writes0 30 main_v12 main_v23 (broadcastInDim S100000x128 ![0, 1] bcast_S100000x1_S100000x128_0_1 : (⟨S100000x1, .f32⟩ : BufTy).Contents (Elt F) → (⟨S100000x128, .f32⟩ : BufTy).Contents (Elt F)) _ _ rfl (by decide) (by decide) W

theorem rb_main_v24 (W : Valuation τ sig (Elt F)) :
    after ops_part0 W (Proc.devRef .tc main_v24)
      = (mulf : (⟨S100000x128, .f32⟩ : BufTy).Contents (Elt F) → (⟨S100000x128, .f32⟩ : BufTy).Contents (Elt F) → (⟨S100000x128, .f32⟩ : BufTy).Contents (Elt F)) (after ops_part0 W (Proc.devRef .tc main_v22)) (after ops_part0 W (Proc.devRef .tc main_v23)) :=
  rb_binary writes0 31 main_v22 main_v23 main_v24 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v25 (W : Valuation τ sig (Elt F)) :
    after ops_part0 W (Proc.devRef .tc main_v25)
      = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops_part0 W (Proc.devRef .tc main_arg2)) :=
  rb_unary writes0 32 main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)) _ _ rfl (by decide) (by decide) W

theorem rb_main_v26 (W : Valuation τ sig (Elt F)) :
    after ops_part0 W (Proc.devRef .tc main_v26)
      = shapeCast S128x128 (after ops_part0 W (Proc.devRef .tc main_v25)) shapeCasts_S1x128x128_S128x128 :=
  (rb_reshape writes0 33 main_v25 main_v26 rfl shapeCasts_S1x128x128_S128x128 _ _ rfl (by decide) (by decide) W).trans rfl

theorem rb_main_v27 (W : Valuation τ sig (Elt F)) :
    after ops_part0 W (Proc.devRef .tc main_v27)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops_part0 W (Proc.devRef .tc main_v24)) (after ops_part0 W (Proc.devRef .tc main_v26)) :=
  rb_binary writes0 34 main_v24 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rb_main_v28 (W : Valuation τ sig (Elt F)) :
    after ops_part0 W (Proc.devRef .tc main_v28)
      = ((extractStridedSlice S1x128 ![0, 0] · slices_S3x128_S1x128_0_0) : (⟨S3x128, .f32⟩ : BufTy).Contents (Elt F) → (⟨S1x128, .f32⟩ : BufTy).Contents (Elt F)) (after ops_part0 W (Proc.devRef .tc main_arg3)) :=
  rb_unary writes0 35 main_arg3 main_v28 ((extractStridedSlice S1x128 ![0, 0] · slices_S3x128_S1x128_0_0) : (⟨S3x128, .f32⟩ : BufTy).Contents (Elt F) → (⟨S1x128, .f32⟩ : BufTy).Contents (Elt F)) _ _ rfl (by decide) (by decide) W

theorem rb_main_v29 (W : Valuation τ sig (Elt F)) :
    after ops_part0 W (Proc.devRef .tc main_v29)
      = shapeCast S128 (after ops_part0 W (Proc.devRef .tc main_v28)) shapeCasts_S1x128_S128 :=
  (rb_reshape writes0 36 main_v28 main_v29 rfl shapeCasts_S1x128_S128 _ _ rfl (by decide) (by decide) W).trans rfl

theorem rb_main_v30 (W : Valuation τ sig (Elt F)) :
    after ops_part0 W (Proc.devRef .tc main_v30)
      = (broadcastInDim S1x128 ![1] bcast_S128_S1x128_1 : (⟨S128, .f32⟩ : BufTy).Contents (Elt F) → (⟨S1x128, .f32⟩ : BufTy).Contents (Elt F)) (after ops_part0 W (Proc.devRef .tc main_v29)) :=
  rb_unary writes0 37 main_v29 main_v30 (broadcastInDim S1x128 ![1] bcast_S128_S1x128_1 : (⟨S128, .f32⟩ : BufTy).Contents (Elt F) → (⟨S1x128, .f32⟩ : BufTy).Contents (Elt F)) _ _ rfl (by decide) (by decide) W

theorem rb_main_v31 (W : Valuation τ sig (Elt F)) :
    after ops_part0 W (Proc.devRef .tc main_v31)
      = (broadcastInDim S100000x128 ![0, 1] bcast_S1x128_S100000x128_0_1 : (⟨S1x128, .f32⟩ : BufTy).Contents (Elt F) → (⟨S100000x128, .f32⟩ : BufTy).Contents (Elt F)) (after ops_part0 W (Proc.devRef .tc main_v30)) :=
  rb_unary writes0 38 main_v30 main_v31 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v32 (W : Valuation τ sig (Elt F)) :
    after ops_part0 W (Proc.devRef .tc main_v32)
      = (addf : (⟨S100000x128, .f32⟩ : BufTy).Contents (Elt F) → (⟨S100000x128, .f32⟩ : BufTy).Contents (Elt F) → (⟨S100000x128, .f32⟩ : BufTy).Contents (Elt F)) (after ops_part0 W (Proc.devRef .tc main_v27)) (after ops_part0 W (Proc.devRef .tc main_v31)) :=
  rb_binary writes0 39 main_v27 main_v31 main_v32 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v33 (W : Valuation τ sig (Elt F)) :
    after ops_part0 W (Proc.devRef .tc main_v33)
      = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops_part0 W (Proc.devRef .tc main_arg4)) :=
  rb_unary writes0 40 main_arg4 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)) _ _ rfl (by decide) (by decide) W

theorem rb_main_v34 (W : Valuation τ sig (Elt F)) :
    after ops_part0 W (Proc.devRef .tc main_v34)
      = shapeCast S128x128 (after ops_part0 W (Proc.devRef .tc main_v33)) shapeCasts_S1x128x128_S128x128 :=
  (rb_reshape writes0 41 main_v33 main_v34 rfl shapeCasts_S1x128x128_S128x128 _ _ rfl (by decide) (by decide) W).trans rfl

theorem rb_main_v35 (W : Valuation τ sig (Elt F)) :
    after ops_part0 W (Proc.devRef .tc main_v35)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops_part0 W (Proc.devRef .tc main_arg0)) (after ops_part0 W (Proc.devRef .tc main_v34)) :=
  rb_binary writes0 42 main_arg0 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rb_main_v36 (W : Valuation τ sig (Elt F)) :
    after ops_part0 W (Proc.devRef .tc main_v36)
      = (addf : (⟨S100000x128, .f32⟩ : BufTy).Contents (Elt F) → (⟨S100000x128, .f32⟩ : BufTy).Contents (Elt F) → (⟨S100000x128, .f32⟩ : BufTy).Contents (Elt F)) (after ops_part0 W (Proc.devRef .tc main_v32)) (after ops_part0 W (Proc.devRef .tc main_v35)) :=
  rb_binary writes0 43 main_v32 main_v35 main_v36 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v37 (W : Valuation τ sig (Elt F)) :
    after ops_part0 W (Proc.devRef .tc main_v37)
      = ((extractStridedSlice S1x128 ![0, 0] · slices_S3x128_S1x128_0_0) : (⟨S3x128, .f32⟩ : BufTy).Contents (Elt F) → (⟨S1x128, .f32⟩ : BufTy).Contents (Elt F)) (after ops_part0 W (Proc.devRef .tc main_arg5)) :=
  rb_unary writes0 44 main_arg5 main_v37 ((extractStridedSlice S1x128 ![0, 0] · slices_S3x128_S1x128_0_0) : (⟨S3x128, .f32⟩ : BufTy).Contents (Elt F) → (⟨S1x128, .f32⟩ : BufTy).Contents (Elt F)) _ _ rfl (by decide) (by decide) W

theorem rb_main_v38 (W : Valuation τ sig (Elt F)) :
    after ops_part0 W (Proc.devRef .tc main_v38)
      = shapeCast S128 (after ops_part0 W (Proc.devRef .tc main_v37)) shapeCasts_S1x128_S128 :=
  (rb_reshape writes0 45 main_v37 main_v38 rfl shapeCasts_S1x128_S128 _ _ rfl (by decide) (by decide) W).trans rfl

theorem rb_main_v39 (W : Valuation τ sig (Elt F)) :
    after ops_part0 W (Proc.devRef .tc main_v39)
      = ((extractStridedSlice S1x128 ![0, 0] · slices_S3x128_S1x128_0_0) : (⟨S3x128, .f32⟩ : BufTy).Contents (Elt F) → (⟨S1x128, .f32⟩ : BufTy).Contents (Elt F)) (after ops_part0 W (Proc.devRef .tc main_arg6)) :=
  rb_unary writes0 46 main_arg6 main_v39 ((extractStridedSlice S1x128 ![0, 0] · slices_S3x128_S1x128_0_0) : (⟨S3x128, .f32⟩ : BufTy).Contents (Elt F) → (⟨S1x128, .f32⟩ : BufTy).Contents (Elt F)) _ _ rfl (by decide) (by decide) W

theorem rb_main_v40 (W : Valuation τ sig (Elt F)) :
    after ops_part0 W (Proc.devRef .tc main_v40)
      = shapeCast S128 (after ops_part0 W (Proc.devRef .tc main_v39)) shapeCasts_S1x128_S128 :=
  (rb_reshape writes0 47 main_v39 main_v40 rfl shapeCasts_S1x128_S128 _ _ rfl (by decide) (by decide) W).trans rfl

theorem rb_main_cst_5 (W : Valuation τ sig (Elt F)) :
    after ops_part0 W (Proc.devRef .tc main_cst_5)
      = (constant S_ .f32 0x00000000#32) :=
  rb_nullary writes0 48 main_cst_5 (constant S_ .f32 0x00000000#32) _ rfl (by decide) W

theorem rb_main_v41 (W : Valuation τ sig (Elt F)) :
    after ops_part0 W (Proc.devRef .tc main_v41)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part0 W (Proc.devRef .tc main_v36)) (after ops_part0 W (Proc.devRef .tc main_cst_5)) :=
  rb_binary writes0 49 main_v36 main_cst_5 main_v41 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rb_main_cst_6 (W : Valuation τ sig (Elt F)) :
    after ops_part0 W (Proc.devRef .tc main_cst_6)
      = (constant S_ .f32 0x47C35000#32) :=
  rb_nullary writes0 50 main_cst_6 (constant S_ .f32 0x47C35000#32) _ rfl (by decide) W

theorem rb_main_v42 (W : Valuation τ sig (Elt F)) :
    after ops_part0 W (Proc.devRef .tc main_v42)
      = (broadcastInDim S128 ![] bcast_S_S128 : (⟨S_, .f32⟩ : BufTy).Contents (Elt F) → (⟨S128, .f32⟩ : BufTy).Contents (Elt F)) (after ops_part0 W (Proc.devRef .tc main_cst_6)) :=
  rb_unary writes0 51 main_cst_6 main_v42 (broadcastInDim S128 ![] bcast_S_S128 : (⟨S_, .f32⟩ : BufTy).Contents (Elt F) → (⟨S128, .f32⟩ : BufTy).Contents (Elt F)) _ _ rfl (by decide) (by decide) W

theorem rb_main_v43 (W : Valuation τ sig (Elt F)) :
    after ops_part0 W (Proc.devRef .tc main_v43)
      = (Host.divf : (⟨S128, .f32⟩ : BufTy).Contents (Elt F) → (⟨S128, .f32⟩ : BufTy).Contents (Elt F) → (⟨S128, .f32⟩ : BufTy).Contents (Elt F)) (after ops_part0 W (Proc.devRef .tc main_v41)) (after ops_part0 W (Proc.devRef .tc main_v42)) :=
  rb_binary writes0 52 main_v41 main_v42 main_v43 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_c_7 (W : Valuation τ sig (Elt F)) :
    after ops_part0 W (Proc.devRef .tc main_c_7)
      = (constantI S_ 32 0#32) :=
  rb_nullary writes0 53 main_c_7 (constantI S_ 32 0#32) _ rfl (by decide) W

theorem rb_main_call0_cst (W : Valuation τ sig (Elt F)) :
    after ops_part0 W (Proc.devRef .tc main_call0_cst)
      = ((constant S_ .f32 0x00000000#32) : (⟨S_, .f32⟩ : BufTy).Contents (Elt F)) :=
  rb_tnullary writes0 54 main_call0.cst ((constant S_ .f32 0x00000000#32) : (⟨S_, .f32⟩ : BufTy).Contents (Elt F)) rfl (by decide) W

theorem rb_main_call0_v0 (W : Valuation τ sig (Elt F)) :
    after ops_part0 W (Proc.devRef .tc main_call0_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part0 W (Proc.devRef .tc main_v36)) (after ops_part0 W (Proc.devRef .tc main_call0_cst)) :=
  rb_tbinary writes0 55 (.of main_v36 : StableHlo.TRef sig ⟨S100000x128, .f32⟩) main_call0.cst main_call0.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call0_v1 (W : Valuation τ sig (Elt F)) :
    after ops_part0 W (Proc.devRef .tc main_call0_v1)
      = ((broadcastInDim S1x128 ![1] bcast_S128_S1x128_1) : (⟨S128, .f32⟩ : BufTy).Contents (Elt F) → (⟨S1x128, .f32⟩ : BufTy).Contents (Elt F)) (after ops_part0 W (Proc.devRef .tc main_call0_v0)) :=
  rb_tunary writes0 56 main_call0.v0 main_call0.v1 ((broadcastInDim S1x128 ![1] bcast_S128_S1x128_1) : (⟨S128, .f32⟩ : BufTy).Contents (Elt F) → (⟨S1x128, .f32⟩ : BufTy).Contents (Elt F)) rfl (by decide) (by decide) W

theorem rb_main_call0_cst_0 (W : Valuation τ sig (Elt F)) :
    after ops_part0 W (Proc.devRef .tc main_call0_cst_0)
      = ((constant S_ .f32 0x47C35000#32) : (⟨S_, .f32⟩ : BufTy).Contents (Elt F)) :=
  rb_tnullary writes0 57 main_call0.cst_0 ((constant S_ .f32 0x47C35000#32) : (⟨S_, .f32⟩ : BufTy).Contents (Elt F)) rfl (by decide) W

theorem rb_main_call0_v2 (W : Valuation τ sig (Elt F)) :
    after ops_part0 W (Proc.devRef .tc main_call0_v2)
      = ((broadcastInDim S1x128 ![] bcast_S_S1x128) : (⟨S_, .f32⟩ : BufTy).Contents (Elt F) → (⟨S1x128, .f32⟩ : BufTy).Contents (Elt F)) (after ops_part0 W (Proc.devRef .tc main_call0_cst_0)) :=
  rb_tunary writes0 58 main_call0.cst_0 main_call0.v2 ((broadcastInDim S1x128 ![] bcast_S_S1x128) : (⟨S_, .f32⟩ : BufTy).Contents (Elt F) → (⟨S1x128, .f32⟩ : BufTy).Contents (Elt F)) rfl (by decide) (by decide) W

theorem rb_main_call0_v3 (W : Valuation τ sig (Elt F)) :
    after ops_part0 W (Proc.devRef .tc main_call0_v3)
      = (Host.divf : (⟨S1x128, .f32⟩ : BufTy).Contents (Elt F) → (⟨S1x128, .f32⟩ : BufTy).Contents (Elt F) → (⟨S1x128, .f32⟩ : BufTy).Contents (Elt F)) (after ops_part0 W (Proc.devRef .tc main_call0_v1)) (after ops_part0 W (Proc.devRef .tc main_call0_v2)) :=
  rb_tbinary writes0 59 main_call0.v1 main_call0.v2 main_call0.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rb_main_call0_v4 (W : Valuation τ sig (Elt F)) :
    after ops_part0 W (Proc.devRef .tc main_call0_v4)
      = ((broadcastInDim S100000x128 ![0, 1] bcast_S1x128_S100000x128_0_1) : (⟨S1x128, .f32⟩ : BufTy).Contents (Elt F) → (⟨S100000x128, .f32⟩ : BufTy).Contents (Elt F)) (after ops_part0 W (Proc.devRef .tc main_call0_v3)) :=
  rb_tunary writes0 60 main_call0.v3 main_call0.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rb_main_call0_v5 (W : Valuation τ sig (Elt F)) :
    after ops_part0 W (Proc.devRef .tc main_call0_v5)
      = (subf : (⟨S100000x128, .f32⟩ : BufTy).Contents (Elt F) → (⟨S100000x128, .f32⟩ : BufTy).Contents (Elt F) → (⟨S100000x128, .f32⟩ : BufTy).Contents (Elt F)) (after ops_part0 W (Proc.devRef .tc main_v36)) (after ops_part0 W (Proc.devRef .tc main_call0_v4)) :=
  rb_tbinary writes0 61 (.of main_v36 : StableHlo.TRef sig ⟨S100000x128, .f32⟩) main_call0.v4 main_call0.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call0_v6 (W : Valuation τ sig (Elt F)) :
    after ops_part0 W (Proc.devRef .tc main_call0_v6)
      = (mulf : (⟨S100000x128, .f32⟩ : BufTy).Contents (Elt F) → (⟨S100000x128, .f32⟩ : BufTy).Contents (Elt F) → (⟨S100000x128, .f32⟩ : BufTy).Contents (Elt F)) (after ops_part0 W (Proc.devRef .tc main_call0_v5)) (after ops_part0 W (Proc.devRef .tc main_call0_v5)) :=
  rb_tbinary writes0 62 main_call0.v5 main_call0.v5 main_call0.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call0_v7 (W : Valuation τ sig (Elt F)) :
    after ops_part0 W (Proc.devRef .tc main_call0_v7)
      = ((sitofp .f32) : (⟨S_, .i32⟩ : BufTy).Contents (Elt F) → (⟨S_, .f32⟩ : BufTy).Contents (Elt F)) (after ops_part0 W (Proc.devRef .tc main_c_7)) :=
  rb_tunary writes0 63 (.of main_c_7 : StableHlo.TRef sig ⟨S_, .i32⟩) main_call0.v7 ((sitofp .f32) : (⟨S_, .i32⟩ : BufTy).Contents (Elt F) → (⟨S_, .f32⟩ : BufTy).Contents (Elt F)) rfl (by decide) (by decide) W

theorem rb_main_call0_cst_1 (W : Valuation τ sig (Elt F)) :
    after ops_part0 W (Proc.devRef .tc main_call0_cst_1)
      = ((constant S_ .f32 0x47C35000#32) : (⟨S_, .f32⟩ : BufTy).Contents (Elt F)) :=
  rb_tnullary writes0 64 main_call0.cst_1 ((constant S_ .f32 0x47C35000#32) : (⟨S_, .f32⟩ : BufTy).Contents (Elt F)) rfl (by decide) W

theorem rb_main_call0_v8 (W : Valuation τ sig (Elt F)) :
    after ops_part0 W (Proc.devRef .tc main_call0_v8)
      = (subf : (⟨S_, .f32⟩ : BufTy).Contents (Elt F) → (⟨S_, .f32⟩ : BufTy).Contents (Elt F) → (⟨S_, .f32⟩ : BufTy).Contents (Elt F)) (after ops_part0 W (Proc.devRef .tc main_call0_cst_1)) (after ops_part0 W (Proc.devRef .tc main_call0_v7)) :=
  rb_tbinary writes0 65 main_call0.cst_1 main_call0.v7 main_call0.v8 (subf : (⟨S_, .f32⟩ : BufTy).Contents (Elt F) → (⟨S_, .f32⟩ : BufTy).Contents (Elt F) → (⟨S_, .f32⟩ : BufTy).Contents (Elt F)) rfl (by decide) (by decide) (by decide) W

theorem rb_main_call0_cst_2 (W : Valuation τ sig (Elt F)) :
    after ops_part0 W (Proc.devRef .tc main_call0_cst_2)
      = ((constant S_ .f32 0x00000000#32) : (⟨S_, .f32⟩ : BufTy).Contents (Elt F)) :=
  rb_tnullary writes0 66 main_call0.cst_2 ((constant S_ .f32 0x00000000#32) : (⟨S_, .f32⟩ : BufTy).Contents (Elt F)) rfl (by decide) W

theorem rb_main_call0_v9 (W : Valuation τ sig (Elt F)) :
    after ops_part0 W (Proc.devRef .tc main_call0_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part0 W (Proc.devRef .tc main_call0_v6)) (after ops_part0 W (Proc.devRef .tc main_call0_cst_2)) :=
  rb_tbinary writes0 67 main_call0.v6 main_call0.cst_2 main_call0.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call0_v10 (W : Valuation τ sig (Elt F)) :
    after ops_part0 W (Proc.devRef .tc main_call0_v10)
      = ((broadcastInDim S128 ![] bcast_S_S128) : (⟨S_, .f32⟩ : BufTy).Contents (Elt F) → (⟨S128, .f32⟩ : BufTy).Contents (Elt F)) (after ops_part0 W (Proc.devRef .tc main_call0_v8)) :=
  rb_tunary writes0 68 main_call0.v8 main_call0.v10 ((broadcastInDim S128 ![] bcast_S_S128) : (⟨S_, .f32⟩ : BufTy).Contents (Elt F) → (⟨S128, .f32⟩ : BufTy).Contents (Elt F)) rfl (by decide) (by decide) W

theorem rb_main_call0_v11 (W : Valuation τ sig (Elt F)) :
    after ops_part0 W (Proc.devRef .tc main_call0_v11)
      = (Host.divf : (⟨S128, .f32⟩ : BufTy).Contents (Elt F) → (⟨S128, .f32⟩ : BufTy).Contents (Elt F) → (⟨S128, .f32⟩ : BufTy).Contents (Elt F)) (after ops_part0 W (Proc.devRef .tc main_call0_v9)) (after ops_part0 W (Proc.devRef .tc main_call0_v10)) :=
  rb_tbinary writes0 69 main_call0.v9 main_call0.v10 main_call0.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rb_main_call0_cst_3 (W : Valuation τ sig (Elt F)) :
    after ops_part0 W (Proc.devRef .tc main_call0_cst_3)
      = ((constant S_ .f32 0x00000000#32) : (⟨S_, .f32⟩ : BufTy).Contents (Elt F)) :=
  rb_tnullary writes0 70 main_call0.cst_3 ((constant S_ .f32 0x00000000#32) : (⟨S_, .f32⟩ : BufTy).Contents (Elt F)) rfl (by decide) W

theorem rb_main_call0_v12 (W : Valuation τ sig (Elt F)) :
    after ops_part0 W (Proc.devRef .tc main_call0_v12)
      = ((cmpf .ogt) : (⟨S_, .f32⟩ : BufTy).Contents (Elt F) → (⟨S_, .f32⟩ : BufTy).Contents (Elt F) → (⟨S_, .i1⟩ : BufTy).Contents (Elt F)) (after ops_part0 W (Proc.devRef .tc main_call0_v8)) (after ops_part0 W (Proc.devRef .tc main_call0_cst_3)) :=
  rb_tbinary writes0 71 main_call0.v8 main_call0.cst_3 main_call0.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rb_main_call0_cst_4 (W : Valuation τ sig (Elt F)) :
    after ops_part0 W (Proc.devRef .tc main_call0_cst_4)
      = ((constant S_ .f32 0x7FC00000#32) : (⟨S_, .f32⟩ : BufTy).Contents (Elt F)) :=
  rb_tnullary writes0 72 main_call0.cst_4 ((constant S_ .f32 0x7FC00000#32) : (⟨S_, .f32⟩ : BufTy).Contents (Elt F)) rfl (by decide) W

theorem rb_main_call0_call0_v0 (W : Valuation τ sig (Elt F)) :
    after ops_part0 W (Proc.devRef .tc main_call0_call0_v0)
      = (id : (⟨S_, .f32⟩ : BufTy).Contents (Elt F) → (⟨S_, .f32⟩ : BufTy).Contents (Elt F)) (after ops_part0 W (Proc.devRef .tc main_call0_cst_4)) :=
  rb_tunary writes0 73 main_call0.cst_4 main_call0.call0.v0 (id : (⟨S_, .f32⟩ : BufTy).Contents (Elt F) → (⟨S_, .f32⟩ : BufTy).Contents (Elt F)) rfl (by decide) (by decide) W

theorem rb_main_call0_call0_v1 (W : Valuation τ sig (Elt F)) :
    after ops_part0 W (Proc.devRef .tc main_call0_call0_v1)
      = ((broadcastInDim S128 ![] bcast_S_S128) : (⟨S_, .f32⟩ : BufTy).Contents (Elt F) → (⟨S128, .f32⟩ : BufTy).Contents (Elt F)) (after ops_part0 W (Proc.devRef .tc main_call0_call0_v0)) :=
  rb_tunary writes0 74 main_call0.call0.v0 main_call0.call0.v1 ((broadcastInDim S128 ![] bcast_S_S128) : (⟨S_, .f32⟩ : BufTy).Contents (Elt F) → (⟨S128, .f32⟩ : BufTy).Contents (Elt F)) rfl (by decide) (by decide) W

theorem rb_main_v44 (W : Valuation τ sig (Elt F)) :
    after ops_part0 W (Proc.devRef .tc main_v44)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops_part0 W (Proc.devRef .tc main_call0_v12)) (after ops_part0 W (Proc.devRef .tc main_call0_v11)) (after ops_part0 W (Proc.devRef .tc main_call0_call0_v1)) :=
  rb_tternary writes0 75 main_call0.v12 main_call0.v11 main_call0.call0.v1 main_call0.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rb_main_v45 (W : Valuation τ sig (Elt F)) :
    after ops_part0 W (Proc.devRef .tc main_v45)
      = (broadcastInDim S1x128 ![1] bcast_S128_S1x128_1 : (⟨S128, .f32⟩ : BufTy).Contents (Elt F) → (⟨S1x128, .f32⟩ : BufTy).Contents (Elt F)) (after ops_part0 W (Proc.devRef .tc main_v43)) :=
  rb_unary writes0 76 main_v43 main_v45 (broadcastInDim S1x128 ![1] bcast_S128_S1x128_1 : (⟨S128, .f32⟩ : BufTy).Contents (Elt F) → (⟨S1x128, .f32⟩ : BufTy).Contents (Elt F)) _ _ rfl (by decide) (by decide) W

theorem rb_main_v46 (W : Valuation τ sig (Elt F)) :
    after ops_part0 W (Proc.devRef .tc main_v46)
      = (broadcastInDim S100000x128 ![0, 1] bcast_S1x128_S100000x128_0_1 : (⟨S1x128, .f32⟩ : BufTy).Contents (Elt F) → (⟨S100000x128, .f32⟩ : BufTy).Contents (Elt F)) (after ops_part0 W (Proc.devRef .tc main_v45)) :=
  rb_unary writes0 77 main_v45 main_v46 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v47 (W : Valuation τ sig (Elt F)) :
    after ops_part0 W (Proc.devRef .tc main_v47)
      = (subf : (⟨S100000x128, .f32⟩ : BufTy).Contents (Elt F) → (⟨S100000x128, .f32⟩ : BufTy).Contents (Elt F) → (⟨S100000x128, .f32⟩ : BufTy).Contents (Elt F)) (after ops_part0 W (Proc.devRef .tc main_v36)) (after ops_part0 W (Proc.devRef .tc main_v46)) :=
  rb_binary writes0 78 main_v36 main_v46 main_v47 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_cst_8 (W : Valuation τ sig (Elt F)) :
    after ops_part0 W (Proc.devRef .tc main_cst_8)
      = (constant S_ .f32 0x3727C5AC#32) :=
  rb_nullary writes0 79 main_cst_8 (constant S_ .f32 0x3727C5AC#32) _ rfl (by decide) W

theorem rb_main_v48 (W : Valuation τ sig (Elt F)) :
    after ops_part0 W (Proc.devRef .tc main_v48)
      = (broadcastInDim S128 ![] bcast_S_S128 : (⟨S_, .f32⟩ : BufTy).Contents (Elt F) → (⟨S128, .f32⟩ : BufTy).Contents (Elt F)) (after ops_part0 W (Proc.devRef .tc main_cst_8)) :=
  rb_unary writes0 80 main_cst_8 main_v48 (broadcastInDim S128 ![] bcast_S_S128 : (⟨S_, .f32⟩ : BufTy).Contents (Elt F) → (⟨S128, .f32⟩ : BufTy).Contents (Elt F)) _ _ rfl (by decide) (by decide) W

end Cert.ReferenceIdeal.SSA

end
-- ==== Proof.RefSSA1.lean ====
/- Window `main_part1` of the idealized reference's @main, read back: for each of its 83 host operations, the window's final
   contents at the reference the operation writes are the operation's function of the final contents at its operand
   references (every reference is written once, after its operands); a reference the window does not write keeps its contents. -/
import proofs.«173273_j2259152798196_2_alg».proof.Proof.RefOps
import proofs.«173273_j2259152798196_2_alg».proof.Proof.LibSSA

noncomputable section

namespace Cert.ReferenceIdeal.SSA

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The references window `main_part1` writes, in the order of its operations. -/
abbrev written1 : List (Ref sig .tc) :=
  [main_v49, main_v50, main_v51, main_v52, main_v53, main_v54, main_v55, main_v56, main_v57, main_v58, main_v59, main_call1_cst, main_call1_v0, main_v60, main_c_9, main_v61, main_v62, main_c_10, main_v63, main_v64, main_v65, main_v66, main_v67, main_cst_11, main_v68, main_v69, main_v70, main_v71, main_v72, main_v73, main_v74, main_v75, main_v76, main_v77, main_v78, main_v79, main_v80, main_v81, main_v82, main_v83, main_v84, main_v85, main_v86, main_v87, main_v88, main_cst_12, main_v89, main_cst_13, main_v90, main_v91, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v92, main_v93, main_v94, main_v95, main_cst_15, main_v96, main_v97, main_v98, main_v99, main_v100, main_v101]

set_option maxRecDepth 16384 in
/-- Operation by operation, the window writes exactly the listed reference. -/
theorem writes1 : WritesOnly (ops_part1 (F := F)) written1 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A reference the window does not write keeps its contents. -/
theorem keep1 (W : Valuation τ sig (Elt F)) {r : Ref sig .tc} (hr : r ∉ written1) :
    after ops_part1 W (Proc.devRef .tc r) = W (Proc.devRef .tc r) :=
  keep_of writes1 hr W

theorem rb_main_v49 (W : Valuation τ sig (Elt F)) :
    after ops_part1 W (Proc.devRef .tc main_v49)
      = (addf : (⟨S128, .f32⟩ : BufTy).Contents (Elt F) → (⟨S128, .f32⟩ : BufTy).Contents (Elt F) → (⟨S128, .f32⟩ : BufTy).Contents (Elt F)) (after ops_part1 W (Proc.devRef .tc main_v44)) (after ops_part1 W (Proc.devRef .tc main_v48)) :=
  rb_binary writes1 0 main_v44 main_v48 main_v49 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_v50 (W : Valuation τ sig (Elt F)) :
    after ops_part1 W (Proc.devRef .tc main_v50)
      = (Host.rsqrt : (⟨S128, .f32⟩ : BufTy).Contents (Elt F) → (⟨S128, .f32⟩ : BufTy).Contents (Elt F)) (after ops_part1 W (Proc.devRef .tc main_v49)) :=
  rb_unary writes1 1 main_v49 main_v50 (Host.rsqrt : (⟨S128, .f32⟩ : BufTy).Contents (Elt F) → (⟨S128, .f32⟩ : BufTy).Contents (Elt F)) _ _ rfl (by decide) (by decide) W

theorem rb_main_v51 (W : Valuation τ sig (Elt F)) :
    after ops_part1 W (Proc.devRef .tc main_v51)
      = (broadcastInDim S1x128 ![1] bcast_S128_S1x128_1 : (⟨S128, .f32⟩ : BufTy).Contents (Elt F) → (⟨S1x128, .f32⟩ : BufTy).Contents (Elt F)) (after ops_part1 W (Proc.devRef .tc main_v50)) :=
  rb_unary writes1 2 main_v50 main_v51 (broadcastInDim S1x128 ![1] bcast_S128_S1x128_1 : (⟨S128, .f32⟩ : BufTy).Contents (Elt F) → (⟨S1x128, .f32⟩ : BufTy).Contents (Elt F)) _ _ rfl (by decide) (by decide) W

theorem rb_main_v52 (W : Valuation τ sig (Elt F)) :
    after ops_part1 W (Proc.devRef .tc main_v52)
      = (broadcastInDim S100000x128 ![0, 1] bcast_S1x128_S100000x128_0_1 : (⟨S1x128, .f32⟩ : BufTy).Contents (Elt F) → (⟨S100000x128, .f32⟩ : BufTy).Contents (Elt F)) (after ops_part1 W (Proc.devRef .tc main_v51)) :=
  rb_unary writes1 3 main_v51 main_v52 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v53 (W : Valuation τ sig (Elt F)) :
    after ops_part1 W (Proc.devRef .tc main_v53)
      = (mulf : (⟨S100000x128, .f32⟩ : BufTy).Contents (Elt F) → (⟨S100000x128, .f32⟩ : BufTy).Contents (Elt F) → (⟨S100000x128, .f32⟩ : BufTy).Contents (Elt F)) (after ops_part1 W (Proc.devRef .tc main_v47)) (after ops_part1 W (Proc.devRef .tc main_v52)) :=
  rb_binary writes1 4 main_v47 main_v52 main_v53 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v54 (W : Valuation τ sig (Elt F)) :
    after ops_part1 W (Proc.devRef .tc main_v54)
      = (broadcastInDim S1x128 ![1] bcast_S128_S1x128_1 : (⟨S128, .f32⟩ : BufTy).Contents (Elt F) → (⟨S1x128, .f32⟩ : BufTy).Contents (Elt F)) (after ops_part1 W (Proc.devRef .tc main_v38)) :=
  rb_unary writes1 5 main_v38 main_v54 (broadcastInDim S1x128 ![1] bcast_S128_S1x128_1 : (⟨S128, .f32⟩ : BufTy).Contents (Elt F) → (⟨S1x128, .f32⟩ : BufTy).Contents (Elt F)) _ _ rfl (by decide) (by decide) W

theorem rb_main_v55 (W : Valuation τ sig (Elt F)) :
    after ops_part1 W (Proc.devRef .tc main_v55)
      = (broadcastInDim S100000x128 ![0, 1] bcast_S1x128_S100000x128_0_1 : (⟨S1x128, .f32⟩ : BufTy).Contents (Elt F) → (⟨S100000x128, .f32⟩ : BufTy).Contents (Elt F)) (after ops_part1 W (Proc.devRef .tc main_v54)) :=
  rb_unary writes1 6 main_v54 main_v55 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v56 (W : Valuation τ sig (Elt F)) :
    after ops_part1 W (Proc.devRef .tc main_v56)
      = (mulf : (⟨S100000x128, .f32⟩ : BufTy).Contents (Elt F) → (⟨S100000x128, .f32⟩ : BufTy).Contents (Elt F) → (⟨S100000x128, .f32⟩ : BufTy).Contents (Elt F)) (after ops_part1 W (Proc.devRef .tc main_v53)) (after ops_part1 W (Proc.devRef .tc main_v55)) :=
  rb_binary writes1 7 main_v53 main_v55 main_v56 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v57 (W : Valuation τ sig (Elt F)) :
    after ops_part1 W (Proc.devRef .tc main_v57)
      = (broadcastInDim S1x128 ![1] bcast_S128_S1x128_1 : (⟨S128, .f32⟩ : BufTy).Contents (Elt F) → (⟨S1x128, .f32⟩ : BufTy).Contents (Elt F)) (after ops_part1 W (Proc.devRef .tc main_v40)) :=
  rb_unary writes1 8 main_v40 main_v57 (broadcastInDim S1x128 ![1] bcast_S128_S1x128_1 : (⟨S128, .f32⟩ : BufTy).Contents (Elt F) → (⟨S1x128, .f32⟩ : BufTy).Contents (Elt F)) _ _ rfl (by decide) (by decide) W

theorem rb_main_v58 (W : Valuation τ sig (Elt F)) :
    after ops_part1 W (Proc.devRef .tc main_v58)
      = (broadcastInDim S100000x128 ![0, 1] bcast_S1x128_S100000x128_0_1 : (⟨S1x128, .f32⟩ : BufTy).Contents (Elt F) → (⟨S100000x128, .f32⟩ : BufTy).Contents (Elt F)) (after ops_part1 W (Proc.devRef .tc main_v57)) :=
  rb_unary writes1 9 main_v57 main_v58 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v59 (W : Valuation τ sig (Elt F)) :
    after ops_part1 W (Proc.devRef .tc main_v59)
      = (addf : (⟨S100000x128, .f32⟩ : BufTy).Contents (Elt F) → (⟨S100000x128, .f32⟩ : BufTy).Contents (Elt F) → (⟨S100000x128, .f32⟩ : BufTy).Contents (Elt F)) (after ops_part1 W (Proc.devRef .tc main_v56)) (after ops_part1 W (Proc.devRef .tc main_v58)) :=
  rb_binary writes1 10 main_v56 main_v58 main_v59 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_call1_cst (W : Valuation τ sig (Elt F)) :
    after ops_part1 W (Proc.devRef .tc main_call1_cst)
      = ((constant S_ .f32 0x00000000#32) : (⟨S_, .f32⟩ : BufTy).Contents (Elt F)) :=
  rb_tnullary writes1 11 main_call1.cst ((constant S_ .f32 0x00000000#32) : (⟨S_, .f32⟩ : BufTy).Contents (Elt F)) rfl (by decide) W

theorem rb_main_call1_v0 (W : Valuation τ sig (Elt F)) :
    after ops_part1 W (Proc.devRef .tc main_call1_v0)
      = ((broadcastInDim S100000x128 ![] bcast_S_S100000x128) : (⟨S_, .f32⟩ : BufTy).Contents (Elt F) → (⟨S100000x128, .f32⟩ : BufTy).Contents (Elt F)) (after ops_part1 W (Proc.devRef .tc main_call1_cst)) :=
  rb_tunary writes1 12 main_call1.cst main_call1.v0 ((broadcastInDim S100000x128 ![] bcast_S_S100000x128) : (⟨S_, .f32⟩ : BufTy).Contents (Elt F) → (⟨S100000x128, .f32⟩ : BufTy).Contents (Elt F)) rfl (by decide) (by decide) W

theorem rb_main_v60 (W : Valuation τ sig (Elt F)) :
    after ops_part1 W (Proc.devRef .tc main_v60)
      = (maximumf : (⟨S100000x128, .f32⟩ : BufTy).Contents (Elt F) → (⟨S100000x128, .f32⟩ : BufTy).Contents (Elt F) → (⟨S100000x128, .f32⟩ : BufTy).Contents (Elt F)) (after ops_part1 W (Proc.devRef .tc main_v59)) (after ops_part1 W (Proc.devRef .tc main_call1_v0)) :=
  rb_tbinary writes1 13 (.of main_v59 : StableHlo.TRef sig ⟨S100000x128, .f32⟩) main_call1.v0 main_call1.v1 (maximumf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_c_9 (W : Valuation τ sig (Elt F)) :
    after ops_part1 W (Proc.devRef .tc main_c_9)
      = (constantI S_ 32 0#32) :=
  rb_nullary writes1 14 main_c_9 (constantI S_ 32 0#32) _ rfl (by decide) W

theorem rb_main_v61 (W : Valuation τ sig (Elt F)) :
    after ops_part1 W (Proc.devRef .tc main_v61)
      = (broadcastInDim S1600000 ![] bcast_S_S1600000 : (⟨S_, .i32⟩ : BufTy).Contents (Elt F) → (⟨S1600000, .i32⟩ : BufTy).Contents (Elt F)) (after ops_part1 W (Proc.devRef .tc main_c_9)) :=
  rb_unary writes1 15 main_c_9 main_v61 (broadcastInDim S1600000 ![] bcast_S_S1600000 : (⟨S_, .i32⟩ : BufTy).Contents (Elt F) → (⟨S1600000, .i32⟩ : BufTy).Contents (Elt F)) _ _ rfl (by decide) (by decide) W

theorem rb_main_v62 (W : Valuation τ sig (Elt F)) :
    after ops_part1 W (Proc.devRef .tc main_v62)
      = (cmpi .slt : (⟨S1600000, .i32⟩ : BufTy).Contents (Elt F) → (⟨S1600000, .i32⟩ : BufTy).Contents (Elt F) → (⟨S1600000, .i1⟩ : BufTy).Contents (Elt F)) (after ops_part1 W (Proc.devRef .tc main_v1)) (after ops_part1 W (Proc.devRef .tc main_v61)) :=
  rb_binary writes1 16 main_v1 main_v61 main_v62 (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide) W

theorem rb_main_c_10 (W : Valuation τ sig (Elt F)) :
    after ops_part1 W (Proc.devRef .tc main_c_10)
      = (constantI S_ 32 100000#32) :=
  rb_nullary writes1 17 main_c_10 (constantI S_ 32 100000#32) _ rfl (by decide) W

theorem rb_main_v63 (W : Valuation τ sig (Elt F)) :
    after ops_part1 W (Proc.devRef .tc main_v63)
      = (broadcastInDim S1600000 ![] bcast_S_S1600000 : (⟨S_, .i32⟩ : BufTy).Contents (Elt F) → (⟨S1600000, .i32⟩ : BufTy).Contents (Elt F)) (after ops_part1 W (Proc.devRef .tc main_c_10)) :=
  rb_unary writes1 18 main_c_10 main_v63 (broadcastInDim S1600000 ![] bcast_S_S1600000 : (⟨S_, .i32⟩ : BufTy).Contents (Elt F) → (⟨S1600000, .i32⟩ : BufTy).Contents (Elt F)) _ _ rfl (by decide) (by decide) W

theorem rb_main_v64 (W : Valuation τ sig (Elt F)) :
    after ops_part1 W (Proc.devRef .tc main_v64)
      = (addi : (⟨S1600000, .i32⟩ : BufTy).Contents (Elt F) → (⟨S1600000, .i32⟩ : BufTy).Contents (Elt F) → (⟨S1600000, .i32⟩ : BufTy).Contents (Elt F)) (after ops_part1 W (Proc.devRef .tc main_v1)) (after ops_part1 W (Proc.devRef .tc main_v63)) :=
  rb_binary writes1 19 main_v1 main_v63 main_v64 (addi : (⟨S1600000, .i32⟩ : BufTy).Contents (Elt F) → (⟨S1600000, .i32⟩ : BufTy).Contents (Elt F) → (⟨S1600000, .i32⟩ : BufTy).Contents (Elt F)) _ _ _ rfl (by decide) (by decide) (by decide) W

theorem rb_main_v65 (W : Valuation τ sig (Elt F)) :
    after ops_part1 W (Proc.devRef .tc main_v65)
      = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops_part1 W (Proc.devRef .tc main_v62)) (after ops_part1 W (Proc.devRef .tc main_v64)) (after ops_part1 W (Proc.devRef .tc main_v1)) :=
  rb_ternary writes1 20 main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide) W

theorem rb_main_v66 (W : Valuation τ sig (Elt F)) :
    after ops_part1 W (Proc.devRef .tc main_v66)
      = (broadcastInDim S1600000x1 ![0] bcast_S1600000_S1600000x1_0 : (⟨S1600000, .i32⟩ : BufTy).Contents (Elt F) → (⟨S1600000x1, .i32⟩ : BufTy).Contents (Elt F)) (after ops_part1 W (Proc.devRef .tc main_v65)) :=
  rb_unary writes1 21 main_v65 main_v66 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rb_main_v67 (W : Valuation τ sig (Elt F)) :
    after ops_part1 W (Proc.devRef .tc main_v67)
      = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops_part1 W (Proc.devRef .tc main_v60)) (after ops_part1 W (Proc.devRef .tc main_v66)) :=
  rb_binary writes1 22 main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (by decide) (by decide) (by decide) W

theorem rb_main_cst_11 (W : Valuation τ sig (Elt F)) :
    after ops_part1 W (Proc.devRef .tc main_cst_11)
      = (constant S_ .f32 0x00000000#32) :=
  rb_nullary writes1 23 main_cst_11 (constant S_ .f32 0x00000000#32) _ rfl (by decide) W

theorem rb_main_v68 (W : Valuation τ sig (Elt F)) :
    after ops_part1 W (Proc.devRef .tc main_v68)
      = (broadcastInDim S100000x128 ![] bcast_S_S100000x128 : (⟨S_, .f32⟩ : BufTy).Contents (Elt F) → (⟨S100000x128, .f32⟩ : BufTy).Contents (Elt F)) (after ops_part1 W (Proc.devRef .tc main_cst_11)) :=
  rb_unary writes1 24 main_cst_11 main_v68 (broadcastInDim S100000x128 ![] bcast_S_S100000x128 : (⟨S_, .f32⟩ : BufTy).Contents (Elt F) → (⟨S100000x128, .f32⟩ : BufTy).Contents (Elt F)) _ _ rfl (by decide) (by decide) W

theorem rb_main_v69 (W : Valuation τ sig (Elt F)) :
    after ops_part1 W (Proc.devRef .tc main_v69)
      = (broadcastInDim S1600000x1 ![0] bcast_S1600000_S1600000x1_0 : (⟨S1600000, .i32⟩ : BufTy).Contents (Elt F) → (⟨S1600000x1, .i32⟩ : BufTy).Contents (Elt F)) (after ops_part1 W (Proc.devRef .tc main_v3)) :=
  rb_unary writes1 25 main_v3 main_v69 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rb_main_v70 (W : Valuation τ sig (Elt F)) :
    after ops_part1 W (Proc.devRef .tc main_v70)
      = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops_part1 W (Proc.devRef .tc main_v68)) (after ops_part1 W (Proc.devRef .tc main_v69)) (after ops_part1 W (Proc.devRef .tc main_v67)) :=
  rb_ternary writes1 26 main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (by decide) (by decide) (by decide) (by decide) W

theorem rb_main_v71 (W : Valuation τ sig (Elt F)) :
    after ops_part1 W (Proc.devRef .tc main_v71)
      = (broadcastInDim S100000x128 ![0, 1] bcast_S100000x1_S100000x128_0_1 : (⟨S100000x1, .f32⟩ : BufTy).Contents (Elt F) → (⟨S100000x128, .f32⟩ : BufTy).Contents (Elt F)) (after ops_part1 W (Proc.devRef .tc main_v12)) :=
  rb_unary writes1 27 main_v12 main_v71 (broadcastInDim S100000x128 ![0, 1] bcast_S100000x1_S100000x128_0_1 : (⟨S100000x1, .f32⟩ : BufTy).Contents (Elt F) → (⟨S100000x128, .f32⟩ : BufTy).Contents (Elt F)) _ _ rfl (by decide) (by decide) W

theorem rb_main_v72 (W : Valuation τ sig (Elt F)) :
    after ops_part1 W (Proc.devRef .tc main_v72)
      = (mulf : (⟨S100000x128, .f32⟩ : BufTy).Contents (Elt F) → (⟨S100000x128, .f32⟩ : BufTy).Contents (Elt F) → (⟨S100000x128, .f32⟩ : BufTy).Contents (Elt F)) (after ops_part1 W (Proc.devRef .tc main_v70)) (after ops_part1 W (Proc.devRef .tc main_v71)) :=
  rb_binary writes1 28 main_v70 main_v71 main_v72 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v73 (W : Valuation τ sig (Elt F)) :
    after ops_part1 W (Proc.devRef .tc main_v73)
      = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops_part1 W (Proc.devRef .tc main_arg2)) :=
  rb_unary writes1 29 main_arg2 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)) _ _ rfl (by decide) (by decide) W

theorem rb_main_v74 (W : Valuation τ sig (Elt F)) :
    after ops_part1 W (Proc.devRef .tc main_v74)
      = shapeCast S128x128 (after ops_part1 W (Proc.devRef .tc main_v73)) shapeCasts_S1x128x128_S128x128 :=
  (rb_reshape writes1 30 main_v73 main_v74 rfl shapeCasts_S1x128x128_S128x128 _ _ rfl (by decide) (by decide) W).trans rfl

theorem rb_main_v75 (W : Valuation τ sig (Elt F)) :
    after ops_part1 W (Proc.devRef .tc main_v75)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops_part1 W (Proc.devRef .tc main_v72)) (after ops_part1 W (Proc.devRef .tc main_v74)) :=
  rb_binary writes1 31 main_v72 main_v74 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rb_main_v76 (W : Valuation τ sig (Elt F)) :
    after ops_part1 W (Proc.devRef .tc main_v76)
      = ((extractStridedSlice S1x128 ![1, 0] · slices_S3x128_S1x128_1_0) : (⟨S3x128, .f32⟩ : BufTy).Contents (Elt F) → (⟨S1x128, .f32⟩ : BufTy).Contents (Elt F)) (after ops_part1 W (Proc.devRef .tc main_arg3)) :=
  rb_unary writes1 32 main_arg3 main_v76 ((extractStridedSlice S1x128 ![1, 0] · slices_S3x128_S1x128_1_0) : (⟨S3x128, .f32⟩ : BufTy).Contents (Elt F) → (⟨S1x128, .f32⟩ : BufTy).Contents (Elt F)) _ _ rfl (by decide) (by decide) W

theorem rb_main_v77 (W : Valuation τ sig (Elt F)) :
    after ops_part1 W (Proc.devRef .tc main_v77)
      = shapeCast S128 (after ops_part1 W (Proc.devRef .tc main_v76)) shapeCasts_S1x128_S128 :=
  (rb_reshape writes1 33 main_v76 main_v77 rfl shapeCasts_S1x128_S128 _ _ rfl (by decide) (by decide) W).trans rfl

theorem rb_main_v78 (W : Valuation τ sig (Elt F)) :
    after ops_part1 W (Proc.devRef .tc main_v78)
      = (broadcastInDim S1x128 ![1] bcast_S128_S1x128_1 : (⟨S128, .f32⟩ : BufTy).Contents (Elt F) → (⟨S1x128, .f32⟩ : BufTy).Contents (Elt F)) (after ops_part1 W (Proc.devRef .tc main_v77)) :=
  rb_unary writes1 34 main_v77 main_v78 (broadcastInDim S1x128 ![1] bcast_S128_S1x128_1 : (⟨S128, .f32⟩ : BufTy).Contents (Elt F) → (⟨S1x128, .f32⟩ : BufTy).Contents (Elt F)) _ _ rfl (by decide) (by decide) W

theorem rb_main_v79 (W : Valuation τ sig (Elt F)) :
    after ops_part1 W (Proc.devRef .tc main_v79)
      = (broadcastInDim S100000x128 ![0, 1] bcast_S1x128_S100000x128_0_1 : (⟨S1x128, .f32⟩ : BufTy).Contents (Elt F) → (⟨S100000x128, .f32⟩ : BufTy).Contents (Elt F)) (after ops_part1 W (Proc.devRef .tc main_v78)) :=
  rb_unary writes1 35 main_v78 main_v79 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v80 (W : Valuation τ sig (Elt F)) :
    after ops_part1 W (Proc.devRef .tc main_v80)
      = (addf : (⟨S100000x128, .f32⟩ : BufTy).Contents (Elt F) → (⟨S100000x128, .f32⟩ : BufTy).Contents (Elt F) → (⟨S100000x128, .f32⟩ : BufTy).Contents (Elt F)) (after ops_part1 W (Proc.devRef .tc main_v75)) (after ops_part1 W (Proc.devRef .tc main_v79)) :=
  rb_binary writes1 36 main_v75 main_v79 main_v80 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v81 (W : Valuation τ sig (Elt F)) :
    after ops_part1 W (Proc.devRef .tc main_v81)
      = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops_part1 W (Proc.devRef .tc main_arg4)) :=
  rb_unary writes1 37 main_arg4 main_v81 ((extractStridedSlice S1x128x128 ![1, 0, 0] · slices_S3x128x128_S1x128x128_1_0_0) : (⟨S3x128x128, .f32⟩ : BufTy).Contents (Elt F) → (⟨S1x128x128, .f32⟩ : BufTy).Contents (Elt F)) _ _ rfl (by decide) (by decide) W

theorem rb_main_v82 (W : Valuation τ sig (Elt F)) :
    after ops_part1 W (Proc.devRef .tc main_v82)
      = shapeCast S128x128 (after ops_part1 W (Proc.devRef .tc main_v81)) shapeCasts_S1x128x128_S128x128 :=
  (rb_reshape writes1 38 main_v81 main_v82 rfl shapeCasts_S1x128x128_S128x128 _ _ rfl (by decide) (by decide) W).trans rfl

theorem rb_main_v83 (W : Valuation τ sig (Elt F)) :
    after ops_part1 W (Proc.devRef .tc main_v83)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops_part1 W (Proc.devRef .tc main_v60)) (after ops_part1 W (Proc.devRef .tc main_v82)) :=
  rb_binary writes1 39 main_v60 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rb_main_v84 (W : Valuation τ sig (Elt F)) :
    after ops_part1 W (Proc.devRef .tc main_v84)
      = (addf : (⟨S100000x128, .f32⟩ : BufTy).Contents (Elt F) → (⟨S100000x128, .f32⟩ : BufTy).Contents (Elt F) → (⟨S100000x128, .f32⟩ : BufTy).Contents (Elt F)) (after ops_part1 W (Proc.devRef .tc main_v80)) (after ops_part1 W (Proc.devRef .tc main_v83)) :=
  rb_binary writes1 40 main_v80 main_v83 main_v84 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v85 (W : Valuation τ sig (Elt F)) :
    after ops_part1 W (Proc.devRef .tc main_v85)
      = ((extractStridedSlice S1x128 ![1, 0] · slices_S3x128_S1x128_1_0) : (⟨S3x128, .f32⟩ : BufTy).Contents (Elt F) → (⟨S1x128, .f32⟩ : BufTy).Contents (Elt F)) (after ops_part1 W (Proc.devRef .tc main_arg5)) :=
  rb_unary writes1 41 main_arg5 main_v85 ((extractStridedSlice S1x128 ![1, 0] · slices_S3x128_S1x128_1_0) : (⟨S3x128, .f32⟩ : BufTy).Contents (Elt F) → (⟨S1x128, .f32⟩ : BufTy).Contents (Elt F)) _ _ rfl (by decide) (by decide) W

theorem rb_main_v86 (W : Valuation τ sig (Elt F)) :
    after ops_part1 W (Proc.devRef .tc main_v86)
      = shapeCast S128 (after ops_part1 W (Proc.devRef .tc main_v85)) shapeCasts_S1x128_S128 :=
  (rb_reshape writes1 42 main_v85 main_v86 rfl shapeCasts_S1x128_S128 _ _ rfl (by decide) (by decide) W).trans rfl

theorem rb_main_v87 (W : Valuation τ sig (Elt F)) :
    after ops_part1 W (Proc.devRef .tc main_v87)
      = ((extractStridedSlice S1x128 ![1, 0] · slices_S3x128_S1x128_1_0) : (⟨S3x128, .f32⟩ : BufTy).Contents (Elt F) → (⟨S1x128, .f32⟩ : BufTy).Contents (Elt F)) (after ops_part1 W (Proc.devRef .tc main_arg6)) :=
  rb_unary writes1 43 main_arg6 main_v87 ((extractStridedSlice S1x128 ![1, 0] · slices_S3x128_S1x128_1_0) : (⟨S3x128, .f32⟩ : BufTy).Contents (Elt F) → (⟨S1x128, .f32⟩ : BufTy).Contents (Elt F)) _ _ rfl (by decide) (by decide) W

theorem rb_main_v88 (W : Valuation τ sig (Elt F)) :
    after ops_part1 W (Proc.devRef .tc main_v88)
      = shapeCast S128 (after ops_part1 W (Proc.devRef .tc main_v87)) shapeCasts_S1x128_S128 :=
  (rb_reshape writes1 44 main_v87 main_v88 rfl shapeCasts_S1x128_S128 _ _ rfl (by decide) (by decide) W).trans rfl

theorem rb_main_cst_12 (W : Valuation τ sig (Elt F)) :
    after ops_part1 W (Proc.devRef .tc main_cst_12)
      = (constant S_ .f32 0x00000000#32) :=
  rb_nullary writes1 45 main_cst_12 (constant S_ .f32 0x00000000#32) _ rfl (by decide) W

theorem rb_main_v89 (W : Valuation τ sig (Elt F)) :
    after ops_part1 W (Proc.devRef .tc main_v89)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part1 W (Proc.devRef .tc main_v84)) (after ops_part1 W (Proc.devRef .tc main_cst_12)) :=
  rb_binary writes1 46 main_v84 main_cst_12 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rb_main_cst_13 (W : Valuation τ sig (Elt F)) :
    after ops_part1 W (Proc.devRef .tc main_cst_13)
      = (constant S_ .f32 0x47C35000#32) :=
  rb_nullary writes1 47 main_cst_13 (constant S_ .f32 0x47C35000#32) _ rfl (by decide) W

theorem rb_main_v90 (W : Valuation τ sig (Elt F)) :
    after ops_part1 W (Proc.devRef .tc main_v90)
      = (broadcastInDim S128 ![] bcast_S_S128 : (⟨S_, .f32⟩ : BufTy).Contents (Elt F) → (⟨S128, .f32⟩ : BufTy).Contents (Elt F)) (after ops_part1 W (Proc.devRef .tc main_cst_13)) :=
  rb_unary writes1 48 main_cst_13 main_v90 (broadcastInDim S128 ![] bcast_S_S128 : (⟨S_, .f32⟩ : BufTy).Contents (Elt F) → (⟨S128, .f32⟩ : BufTy).Contents (Elt F)) _ _ rfl (by decide) (by decide) W

theorem rb_main_v91 (W : Valuation τ sig (Elt F)) :
    after ops_part1 W (Proc.devRef .tc main_v91)
      = (Host.divf : (⟨S128, .f32⟩ : BufTy).Contents (Elt F) → (⟨S128, .f32⟩ : BufTy).Contents (Elt F) → (⟨S128, .f32⟩ : BufTy).Contents (Elt F)) (after ops_part1 W (Proc.devRef .tc main_v89)) (after ops_part1 W (Proc.devRef .tc main_v90)) :=
  rb_binary writes1 49 main_v89 main_v90 main_v91 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_c_14 (W : Valuation τ sig (Elt F)) :
    after ops_part1 W (Proc.devRef .tc main_c_14)
      = (constantI S_ 32 0#32) :=
  rb_nullary writes1 50 main_c_14 (constantI S_ 32 0#32) _ rfl (by decide) W

theorem rb_main_call2_cst (W : Valuation τ sig (Elt F)) :
    after ops_part1 W (Proc.devRef .tc main_call2_cst)
      = ((constant S_ .f32 0x00000000#32) : (⟨S_, .f32⟩ : BufTy).Contents (Elt F)) :=
  rb_tnullary writes1 51 main_call2.cst ((constant S_ .f32 0x00000000#32) : (⟨S_, .f32⟩ : BufTy).Contents (Elt F)) rfl (by decide) W

theorem rb_main_call2_v0 (W : Valuation τ sig (Elt F)) :
    after ops_part1 W (Proc.devRef .tc main_call2_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part1 W (Proc.devRef .tc main_v84)) (after ops_part1 W (Proc.devRef .tc main_call2_cst)) :=
  rb_tbinary writes1 52 (.of main_v84 : StableHlo.TRef sig ⟨S100000x128, .f32⟩) main_call2.cst main_call2.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call2_v1 (W : Valuation τ sig (Elt F)) :
    after ops_part1 W (Proc.devRef .tc main_call2_v1)
      = ((broadcastInDim S1x128 ![1] bcast_S128_S1x128_1) : (⟨S128, .f32⟩ : BufTy).Contents (Elt F) → (⟨S1x128, .f32⟩ : BufTy).Contents (Elt F)) (after ops_part1 W (Proc.devRef .tc main_call2_v0)) :=
  rb_tunary writes1 53 main_call2.v0 main_call2.v1 ((broadcastInDim S1x128 ![1] bcast_S128_S1x128_1) : (⟨S128, .f32⟩ : BufTy).Contents (Elt F) → (⟨S1x128, .f32⟩ : BufTy).Contents (Elt F)) rfl (by decide) (by decide) W

theorem rb_main_call2_cst_0 (W : Valuation τ sig (Elt F)) :
    after ops_part1 W (Proc.devRef .tc main_call2_cst_0)
      = ((constant S_ .f32 0x47C35000#32) : (⟨S_, .f32⟩ : BufTy).Contents (Elt F)) :=
  rb_tnullary writes1 54 main_call2.cst_0 ((constant S_ .f32 0x47C35000#32) : (⟨S_, .f32⟩ : BufTy).Contents (Elt F)) rfl (by decide) W

theorem rb_main_call2_v2 (W : Valuation τ sig (Elt F)) :
    after ops_part1 W (Proc.devRef .tc main_call2_v2)
      = ((broadcastInDim S1x128 ![] bcast_S_S1x128) : (⟨S_, .f32⟩ : BufTy).Contents (Elt F) → (⟨S1x128, .f32⟩ : BufTy).Contents (Elt F)) (after ops_part1 W (Proc.devRef .tc main_call2_cst_0)) :=
  rb_tunary writes1 55 main_call2.cst_0 main_call2.v2 ((broadcastInDim S1x128 ![] bcast_S_S1x128) : (⟨S_, .f32⟩ : BufTy).Contents (Elt F) → (⟨S1x128, .f32⟩ : BufTy).Contents (Elt F)) rfl (by decide) (by decide) W

theorem rb_main_call2_v3 (W : Valuation τ sig (Elt F)) :
    after ops_part1 W (Proc.devRef .tc main_call2_v3)
      = (Host.divf : (⟨S1x128, .f32⟩ : BufTy).Contents (Elt F) → (⟨S1x128, .f32⟩ : BufTy).Contents (Elt F) → (⟨S1x128, .f32⟩ : BufTy).Contents (Elt F)) (after ops_part1 W (Proc.devRef .tc main_call2_v1)) (after ops_part1 W (Proc.devRef .tc main_call2_v2)) :=
  rb_tbinary writes1 56 main_call2.v1 main_call2.v2 main_call2.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rb_main_call2_v4 (W : Valuation τ sig (Elt F)) :
    after ops_part1 W (Proc.devRef .tc main_call2_v4)
      = ((broadcastInDim S100000x128 ![0, 1] bcast_S1x128_S100000x128_0_1) : (⟨S1x128, .f32⟩ : BufTy).Contents (Elt F) → (⟨S100000x128, .f32⟩ : BufTy).Contents (Elt F)) (after ops_part1 W (Proc.devRef .tc main_call2_v3)) :=
  rb_tunary writes1 57 main_call2.v3 main_call2.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rb_main_call2_v5 (W : Valuation τ sig (Elt F)) :
    after ops_part1 W (Proc.devRef .tc main_call2_v5)
      = (subf : (⟨S100000x128, .f32⟩ : BufTy).Contents (Elt F) → (⟨S100000x128, .f32⟩ : BufTy).Contents (Elt F) → (⟨S100000x128, .f32⟩ : BufTy).Contents (Elt F)) (after ops_part1 W (Proc.devRef .tc main_v84)) (after ops_part1 W (Proc.devRef .tc main_call2_v4)) :=
  rb_tbinary writes1 58 (.of main_v84 : StableHlo.TRef sig ⟨S100000x128, .f32⟩) main_call2.v4 main_call2.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call2_v6 (W : Valuation τ sig (Elt F)) :
    after ops_part1 W (Proc.devRef .tc main_call2_v6)
      = (mulf : (⟨S100000x128, .f32⟩ : BufTy).Contents (Elt F) → (⟨S100000x128, .f32⟩ : BufTy).Contents (Elt F) → (⟨S100000x128, .f32⟩ : BufTy).Contents (Elt F)) (after ops_part1 W (Proc.devRef .tc main_call2_v5)) (after ops_part1 W (Proc.devRef .tc main_call2_v5)) :=
  rb_tbinary writes1 59 main_call2.v5 main_call2.v5 main_call2.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call2_v7 (W : Valuation τ sig (Elt F)) :
    after ops_part1 W (Proc.devRef .tc main_call2_v7)
      = ((sitofp .f32) : (⟨S_, .i32⟩ : BufTy).Contents (Elt F) → (⟨S_, .f32⟩ : BufTy).Contents (Elt F)) (after ops_part1 W (Proc.devRef .tc main_c_14)) :=
  rb_tunary writes1 60 (.of main_c_14 : StableHlo.TRef sig ⟨S_, .i32⟩) main_call2.v7 ((sitofp .f32) : (⟨S_, .i32⟩ : BufTy).Contents (Elt F) → (⟨S_, .f32⟩ : BufTy).Contents (Elt F)) rfl (by decide) (by decide) W

theorem rb_main_call2_cst_1 (W : Valuation τ sig (Elt F)) :
    after ops_part1 W (Proc.devRef .tc main_call2_cst_1)
      = ((constant S_ .f32 0x47C35000#32) : (⟨S_, .f32⟩ : BufTy).Contents (Elt F)) :=
  rb_tnullary writes1 61 main_call2.cst_1 ((constant S_ .f32 0x47C35000#32) : (⟨S_, .f32⟩ : BufTy).Contents (Elt F)) rfl (by decide) W

theorem rb_main_call2_v8 (W : Valuation τ sig (Elt F)) :
    after ops_part1 W (Proc.devRef .tc main_call2_v8)
      = (subf : (⟨S_, .f32⟩ : BufTy).Contents (Elt F) → (⟨S_, .f32⟩ : BufTy).Contents (Elt F) → (⟨S_, .f32⟩ : BufTy).Contents (Elt F)) (after ops_part1 W (Proc.devRef .tc main_call2_cst_1)) (after ops_part1 W (Proc.devRef .tc main_call2_v7)) :=
  rb_tbinary writes1 62 main_call2.cst_1 main_call2.v7 main_call2.v8 (subf : (⟨S_, .f32⟩ : BufTy).Contents (Elt F) → (⟨S_, .f32⟩ : BufTy).Contents (Elt F) → (⟨S_, .f32⟩ : BufTy).Contents (Elt F)) rfl (by decide) (by decide) (by decide) W

theorem rb_main_call2_cst_2 (W : Valuation τ sig (Elt F)) :
    after ops_part1 W (Proc.devRef .tc main_call2_cst_2)
      = ((constant S_ .f32 0x00000000#32) : (⟨S_, .f32⟩ : BufTy).Contents (Elt F)) :=
  rb_tnullary writes1 63 main_call2.cst_2 ((constant S_ .f32 0x00000000#32) : (⟨S_, .f32⟩ : BufTy).Contents (Elt F)) rfl (by decide) W

theorem rb_main_call2_v9 (W : Valuation τ sig (Elt F)) :
    after ops_part1 W (Proc.devRef .tc main_call2_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part1 W (Proc.devRef .tc main_call2_v6)) (after ops_part1 W (Proc.devRef .tc main_call2_cst_2)) :=
  rb_tbinary writes1 64 main_call2.v6 main_call2.cst_2 main_call2.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call2_v10 (W : Valuation τ sig (Elt F)) :
    after ops_part1 W (Proc.devRef .tc main_call2_v10)
      = ((broadcastInDim S128 ![] bcast_S_S128) : (⟨S_, .f32⟩ : BufTy).Contents (Elt F) → (⟨S128, .f32⟩ : BufTy).Contents (Elt F)) (after ops_part1 W (Proc.devRef .tc main_call2_v8)) :=
  rb_tunary writes1 65 main_call2.v8 main_call2.v10 ((broadcastInDim S128 ![] bcast_S_S128) : (⟨S_, .f32⟩ : BufTy).Contents (Elt F) → (⟨S128, .f32⟩ : BufTy).Contents (Elt F)) rfl (by decide) (by decide) W

theorem rb_main_call2_v11 (W : Valuation τ sig (Elt F)) :
    after ops_part1 W (Proc.devRef .tc main_call2_v11)
      = (Host.divf : (⟨S128, .f32⟩ : BufTy).Contents (Elt F) → (⟨S128, .f32⟩ : BufTy).Contents (Elt F) → (⟨S128, .f32⟩ : BufTy).Contents (Elt F)) (after ops_part1 W (Proc.devRef .tc main_call2_v9)) (after ops_part1 W (Proc.devRef .tc main_call2_v10)) :=
  rb_tbinary writes1 66 main_call2.v9 main_call2.v10 main_call2.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rb_main_call2_cst_3 (W : Valuation τ sig (Elt F)) :
    after ops_part1 W (Proc.devRef .tc main_call2_cst_3)
      = ((constant S_ .f32 0x00000000#32) : (⟨S_, .f32⟩ : BufTy).Contents (Elt F)) :=
  rb_tnullary writes1 67 main_call2.cst_3 ((constant S_ .f32 0x00000000#32) : (⟨S_, .f32⟩ : BufTy).Contents (Elt F)) rfl (by decide) W

theorem rb_main_call2_v12 (W : Valuation τ sig (Elt F)) :
    after ops_part1 W (Proc.devRef .tc main_call2_v12)
      = ((cmpf .ogt) : (⟨S_, .f32⟩ : BufTy).Contents (Elt F) → (⟨S_, .f32⟩ : BufTy).Contents (Elt F) → (⟨S_, .i1⟩ : BufTy).Contents (Elt F)) (after ops_part1 W (Proc.devRef .tc main_call2_v8)) (after ops_part1 W (Proc.devRef .tc main_call2_cst_3)) :=
  rb_tbinary writes1 68 main_call2.v8 main_call2.cst_3 main_call2.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rb_main_call2_cst_4 (W : Valuation τ sig (Elt F)) :
    after ops_part1 W (Proc.devRef .tc main_call2_cst_4)
      = ((constant S_ .f32 0x7FC00000#32) : (⟨S_, .f32⟩ : BufTy).Contents (Elt F)) :=
  rb_tnullary writes1 69 main_call2.cst_4 ((constant S_ .f32 0x7FC00000#32) : (⟨S_, .f32⟩ : BufTy).Contents (Elt F)) rfl (by decide) W

theorem rb_main_call2_call0_v0 (W : Valuation τ sig (Elt F)) :
    after ops_part1 W (Proc.devRef .tc main_call2_call0_v0)
      = (id : (⟨S_, .f32⟩ : BufTy).Contents (Elt F) → (⟨S_, .f32⟩ : BufTy).Contents (Elt F)) (after ops_part1 W (Proc.devRef .tc main_call2_cst_4)) :=
  rb_tunary writes1 70 main_call2.cst_4 main_call2.call0.v0 (id : (⟨S_, .f32⟩ : BufTy).Contents (Elt F) → (⟨S_, .f32⟩ : BufTy).Contents (Elt F)) rfl (by decide) (by decide) W

theorem rb_main_call2_call0_v1 (W : Valuation τ sig (Elt F)) :
    after ops_part1 W (Proc.devRef .tc main_call2_call0_v1)
      = ((broadcastInDim S128 ![] bcast_S_S128) : (⟨S_, .f32⟩ : BufTy).Contents (Elt F) → (⟨S128, .f32⟩ : BufTy).Contents (Elt F)) (after ops_part1 W (Proc.devRef .tc main_call2_call0_v0)) :=
  rb_tunary writes1 71 main_call2.call0.v0 main_call2.call0.v1 ((broadcastInDim S128 ![] bcast_S_S128) : (⟨S_, .f32⟩ : BufTy).Contents (Elt F) → (⟨S128, .f32⟩ : BufTy).Contents (Elt F)) rfl (by decide) (by decide) W

theorem rb_main_v92 (W : Valuation τ sig (Elt F)) :
    after ops_part1 W (Proc.devRef .tc main_v92)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops_part1 W (Proc.devRef .tc main_call2_v12)) (after ops_part1 W (Proc.devRef .tc main_call2_v11)) (after ops_part1 W (Proc.devRef .tc main_call2_call0_v1)) :=
  rb_tternary writes1 72 main_call2.v12 main_call2.v11 main_call2.call0.v1 main_call2.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rb_main_v93 (W : Valuation τ sig (Elt F)) :
    after ops_part1 W (Proc.devRef .tc main_v93)
      = (broadcastInDim S1x128 ![1] bcast_S128_S1x128_1 : (⟨S128, .f32⟩ : BufTy).Contents (Elt F) → (⟨S1x128, .f32⟩ : BufTy).Contents (Elt F)) (after ops_part1 W (Proc.devRef .tc main_v91)) :=
  rb_unary writes1 73 main_v91 main_v93 (broadcastInDim S1x128 ![1] bcast_S128_S1x128_1 : (⟨S128, .f32⟩ : BufTy).Contents (Elt F) → (⟨S1x128, .f32⟩ : BufTy).Contents (Elt F)) _ _ rfl (by decide) (by decide) W

theorem rb_main_v94 (W : Valuation τ sig (Elt F)) :
    after ops_part1 W (Proc.devRef .tc main_v94)
      = (broadcastInDim S100000x128 ![0, 1] bcast_S1x128_S100000x128_0_1 : (⟨S1x128, .f32⟩ : BufTy).Contents (Elt F) → (⟨S100000x128, .f32⟩ : BufTy).Contents (Elt F)) (after ops_part1 W (Proc.devRef .tc main_v93)) :=
  rb_unary writes1 74 main_v93 main_v94 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v95 (W : Valuation τ sig (Elt F)) :
    after ops_part1 W (Proc.devRef .tc main_v95)
      = (subf : (⟨S100000x128, .f32⟩ : BufTy).Contents (Elt F) → (⟨S100000x128, .f32⟩ : BufTy).Contents (Elt F) → (⟨S100000x128, .f32⟩ : BufTy).Contents (Elt F)) (after ops_part1 W (Proc.devRef .tc main_v84)) (after ops_part1 W (Proc.devRef .tc main_v94)) :=
  rb_binary writes1 75 main_v84 main_v94 main_v95 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_cst_15 (W : Valuation τ sig (Elt F)) :
    after ops_part1 W (Proc.devRef .tc main_cst_15)
      = (constant S_ .f32 0x3727C5AC#32) :=
  rb_nullary writes1 76 main_cst_15 (constant S_ .f32 0x3727C5AC#32) _ rfl (by decide) W

theorem rb_main_v96 (W : Valuation τ sig (Elt F)) :
    after ops_part1 W (Proc.devRef .tc main_v96)
      = (broadcastInDim S128 ![] bcast_S_S128 : (⟨S_, .f32⟩ : BufTy).Contents (Elt F) → (⟨S128, .f32⟩ : BufTy).Contents (Elt F)) (after ops_part1 W (Proc.devRef .tc main_cst_15)) :=
  rb_unary writes1 77 main_cst_15 main_v96 (broadcastInDim S128 ![] bcast_S_S128 : (⟨S_, .f32⟩ : BufTy).Contents (Elt F) → (⟨S128, .f32⟩ : BufTy).Contents (Elt F)) _ _ rfl (by decide) (by decide) W

theorem rb_main_v97 (W : Valuation τ sig (Elt F)) :
    after ops_part1 W (Proc.devRef .tc main_v97)
      = (addf : (⟨S128, .f32⟩ : BufTy).Contents (Elt F) → (⟨S128, .f32⟩ : BufTy).Contents (Elt F) → (⟨S128, .f32⟩ : BufTy).Contents (Elt F)) (after ops_part1 W (Proc.devRef .tc main_v92)) (after ops_part1 W (Proc.devRef .tc main_v96)) :=
  rb_binary writes1 78 main_v92 main_v96 main_v97 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_v98 (W : Valuation τ sig (Elt F)) :
    after ops_part1 W (Proc.devRef .tc main_v98)
      = (Host.rsqrt : (⟨S128, .f32⟩ : BufTy).Contents (Elt F) → (⟨S128, .f32⟩ : BufTy).Contents (Elt F)) (after ops_part1 W (Proc.devRef .tc main_v97)) :=
  rb_unary writes1 79 main_v97 main_v98 (Host.rsqrt : (⟨S128, .f32⟩ : BufTy).Contents (Elt F) → (⟨S128, .f32⟩ : BufTy).Contents (Elt F)) _ _ rfl (by decide) (by decide) W

theorem rb_main_v99 (W : Valuation τ sig (Elt F)) :
    after ops_part1 W (Proc.devRef .tc main_v99)
      = (broadcastInDim S1x128 ![1] bcast_S128_S1x128_1 : (⟨S128, .f32⟩ : BufTy).Contents (Elt F) → (⟨S1x128, .f32⟩ : BufTy).Contents (Elt F)) (after ops_part1 W (Proc.devRef .tc main_v98)) :=
  rb_unary writes1 80 main_v98 main_v99 (broadcastInDim S1x128 ![1] bcast_S128_S1x128_1 : (⟨S128, .f32⟩ : BufTy).Contents (Elt F) → (⟨S1x128, .f32⟩ : BufTy).Contents (Elt F)) _ _ rfl (by decide) (by decide) W

theorem rb_main_v100 (W : Valuation τ sig (Elt F)) :
    after ops_part1 W (Proc.devRef .tc main_v100)
      = (broadcastInDim S100000x128 ![0, 1] bcast_S1x128_S100000x128_0_1 : (⟨S1x128, .f32⟩ : BufTy).Contents (Elt F) → (⟨S100000x128, .f32⟩ : BufTy).Contents (Elt F)) (after ops_part1 W (Proc.devRef .tc main_v99)) :=
  rb_unary writes1 81 main_v99 main_v100 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v101 (W : Valuation τ sig (Elt F)) :
    after ops_part1 W (Proc.devRef .tc main_v101)
      = (mulf : (⟨S100000x128, .f32⟩ : BufTy).Contents (Elt F) → (⟨S100000x128, .f32⟩ : BufTy).Contents (Elt F) → (⟨S100000x128, .f32⟩ : BufTy).Contents (Elt F)) (after ops_part1 W (Proc.devRef .tc main_v95)) (after ops_part1 W (Proc.devRef .tc main_v100)) :=
  rb_binary writes1 82 main_v95 main_v100 main_v101 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

end Cert.ReferenceIdeal.SSA

end
-- ==== Proof.RefSSA2.lean ====
/- Window `main_part2` of the idealized reference's @main, read back: for each of its 83 host operations, the window's final
   contents at the reference the operation writes are the operation's function of the final contents at its operand
   references (every reference is written once, after its operands); a reference the window does not write keeps its contents. -/
import proofs.«173273_j2259152798196_2_alg».proof.Proof.RefOps
import proofs.«173273_j2259152798196_2_alg».proof.Proof.LibSSA

noncomputable section

namespace Cert.ReferenceIdeal.SSA

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The references window `main_part2` writes, in the order of its operations. -/
abbrev written2 : List (Ref sig .tc) :=
  [main_v102, main_v103, main_v104, main_v105, main_v106, main_v107, main_call3_cst, main_call3_v0, main_v108, main_c_16, main_v109, main_v110, main_c_17, main_v111, main_v112, main_v113, main_v114, main_v115, main_cst_18, main_v116, main_v117, main_v118, main_v119, main_v120, main_v121, main_v122, main_v123, main_v124, main_v125, main_v126, main_v127, main_v128, main_v129, main_v130, main_v131, main_v132, main_v133, main_v134, main_v135, main_v136, main_cst_19, main_v137, main_cst_20, main_v138, main_v139, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v140, main_v141, main_v142, main_v143, main_cst_22, main_v144, main_v145, main_v146, main_v147, main_v148, main_v149, main_v150, main_v151, main_v152, main_v153, main_v154]

set_option maxRecDepth 16384 in
/-- Operation by operation, the window writes exactly the listed reference. -/
theorem writes2 : WritesOnly (ops_part2 (F := F)) written2 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A reference the window does not write keeps its contents. -/
theorem keep2 (W : Valuation τ sig (Elt F)) {r : Ref sig .tc} (hr : r ∉ written2) :
    after ops_part2 W (Proc.devRef .tc r) = W (Proc.devRef .tc r) :=
  keep_of writes2 hr W

theorem rb_main_v102 (W : Valuation τ sig (Elt F)) :
    after ops_part2 W (Proc.devRef .tc main_v102)
      = (broadcastInDim S1x128 ![1] bcast_S128_S1x128_1 : (⟨S128, .f32⟩ : BufTy).Contents (Elt F) → (⟨S1x128, .f32⟩ : BufTy).Contents (Elt F)) (after ops_part2 W (Proc.devRef .tc main_v86)) :=
  rb_unary writes2 0 main_v86 main_v102 (broadcastInDim S1x128 ![1] bcast_S128_S1x128_1 : (⟨S128, .f32⟩ : BufTy).Contents (Elt F) → (⟨S1x128, .f32⟩ : BufTy).Contents (Elt F)) _ _ rfl (by decide) (by decide) W

theorem rb_main_v103 (W : Valuation τ sig (Elt F)) :
    after ops_part2 W (Proc.devRef .tc main_v103)
      = (broadcastInDim S100000x128 ![0, 1] bcast_S1x128_S100000x128_0_1 : (⟨S1x128, .f32⟩ : BufTy).Contents (Elt F) → (⟨S100000x128, .f32⟩ : BufTy).Contents (Elt F)) (after ops_part2 W (Proc.devRef .tc main_v102)) :=
  rb_unary writes2 1 main_v102 main_v103 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v104 (W : Valuation τ sig (Elt F)) :
    after ops_part2 W (Proc.devRef .tc main_v104)
      = (mulf : (⟨S100000x128, .f32⟩ : BufTy).Contents (Elt F) → (⟨S100000x128, .f32⟩ : BufTy).Contents (Elt F) → (⟨S100000x128, .f32⟩ : BufTy).Contents (Elt F)) (after ops_part2 W (Proc.devRef .tc main_v101)) (after ops_part2 W (Proc.devRef .tc main_v103)) :=
  rb_binary writes2 2 main_v101 main_v103 main_v104 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v105 (W : Valuation τ sig (Elt F)) :
    after ops_part2 W (Proc.devRef .tc main_v105)
      = (broadcastInDim S1x128 ![1] bcast_S128_S1x128_1 : (⟨S128, .f32⟩ : BufTy).Contents (Elt F) → (⟨S1x128, .f32⟩ : BufTy).Contents (Elt F)) (after ops_part2 W (Proc.devRef .tc main_v88)) :=
  rb_unary writes2 3 main_v88 main_v105 (broadcastInDim S1x128 ![1] bcast_S128_S1x128_1 : (⟨S128, .f32⟩ : BufTy).Contents (Elt F) → (⟨S1x128, .f32⟩ : BufTy).Contents (Elt F)) _ _ rfl (by decide) (by decide) W

theorem rb_main_v106 (W : Valuation τ sig (Elt F)) :
    after ops_part2 W (Proc.devRef .tc main_v106)
      = (broadcastInDim S100000x128 ![0, 1] bcast_S1x128_S100000x128_0_1 : (⟨S1x128, .f32⟩ : BufTy).Contents (Elt F) → (⟨S100000x128, .f32⟩ : BufTy).Contents (Elt F)) (after ops_part2 W (Proc.devRef .tc main_v105)) :=
  rb_unary writes2 4 main_v105 main_v106 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v107 (W : Valuation τ sig (Elt F)) :
    after ops_part2 W (Proc.devRef .tc main_v107)
      = (addf : (⟨S100000x128, .f32⟩ : BufTy).Contents (Elt F) → (⟨S100000x128, .f32⟩ : BufTy).Contents (Elt F) → (⟨S100000x128, .f32⟩ : BufTy).Contents (Elt F)) (after ops_part2 W (Proc.devRef .tc main_v104)) (after ops_part2 W (Proc.devRef .tc main_v106)) :=
  rb_binary writes2 5 main_v104 main_v106 main_v107 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_call3_cst (W : Valuation τ sig (Elt F)) :
    after ops_part2 W (Proc.devRef .tc main_call3_cst)
      = ((constant S_ .f32 0x00000000#32) : (⟨S_, .f32⟩ : BufTy).Contents (Elt F)) :=
  rb_tnullary writes2 6 main_call3.cst ((constant S_ .f32 0x00000000#32) : (⟨S_, .f32⟩ : BufTy).Contents (Elt F)) rfl (by decide) W

theorem rb_main_call3_v0 (W : Valuation τ sig (Elt F)) :
    after ops_part2 W (Proc.devRef .tc main_call3_v0)
      = ((broadcastInDim S100000x128 ![] bcast_S_S100000x128) : (⟨S_, .f32⟩ : BufTy).Contents (Elt F) → (⟨S100000x128, .f32⟩ : BufTy).Contents (Elt F)) (after ops_part2 W (Proc.devRef .tc main_call3_cst)) :=
  rb_tunary writes2 7 main_call3.cst main_call3.v0 ((broadcastInDim S100000x128 ![] bcast_S_S100000x128) : (⟨S_, .f32⟩ : BufTy).Contents (Elt F) → (⟨S100000x128, .f32⟩ : BufTy).Contents (Elt F)) rfl (by decide) (by decide) W

theorem rb_main_v108 (W : Valuation τ sig (Elt F)) :
    after ops_part2 W (Proc.devRef .tc main_v108)
      = (maximumf : (⟨S100000x128, .f32⟩ : BufTy).Contents (Elt F) → (⟨S100000x128, .f32⟩ : BufTy).Contents (Elt F) → (⟨S100000x128, .f32⟩ : BufTy).Contents (Elt F)) (after ops_part2 W (Proc.devRef .tc main_v107)) (after ops_part2 W (Proc.devRef .tc main_call3_v0)) :=
  rb_tbinary writes2 8 (.of main_v107 : StableHlo.TRef sig ⟨S100000x128, .f32⟩) main_call3.v0 main_call3.v1 (maximumf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_c_16 (W : Valuation τ sig (Elt F)) :
    after ops_part2 W (Proc.devRef .tc main_c_16)
      = (constantI S_ 32 0#32) :=
  rb_nullary writes2 9 main_c_16 (constantI S_ 32 0#32) _ rfl (by decide) W

theorem rb_main_v109 (W : Valuation τ sig (Elt F)) :
    after ops_part2 W (Proc.devRef .tc main_v109)
      = (broadcastInDim S1600000 ![] bcast_S_S1600000 : (⟨S_, .i32⟩ : BufTy).Contents (Elt F) → (⟨S1600000, .i32⟩ : BufTy).Contents (Elt F)) (after ops_part2 W (Proc.devRef .tc main_c_16)) :=
  rb_unary writes2 10 main_c_16 main_v109 (broadcastInDim S1600000 ![] bcast_S_S1600000 : (⟨S_, .i32⟩ : BufTy).Contents (Elt F) → (⟨S1600000, .i32⟩ : BufTy).Contents (Elt F)) _ _ rfl (by decide) (by decide) W

theorem rb_main_v110 (W : Valuation τ sig (Elt F)) :
    after ops_part2 W (Proc.devRef .tc main_v110)
      = (cmpi .slt : (⟨S1600000, .i32⟩ : BufTy).Contents (Elt F) → (⟨S1600000, .i32⟩ : BufTy).Contents (Elt F) → (⟨S1600000, .i1⟩ : BufTy).Contents (Elt F)) (after ops_part2 W (Proc.devRef .tc main_v1)) (after ops_part2 W (Proc.devRef .tc main_v109)) :=
  rb_binary writes2 11 main_v1 main_v109 main_v110 (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide) W

theorem rb_main_c_17 (W : Valuation τ sig (Elt F)) :
    after ops_part2 W (Proc.devRef .tc main_c_17)
      = (constantI S_ 32 100000#32) :=
  rb_nullary writes2 12 main_c_17 (constantI S_ 32 100000#32) _ rfl (by decide) W

theorem rb_main_v111 (W : Valuation τ sig (Elt F)) :
    after ops_part2 W (Proc.devRef .tc main_v111)
      = (broadcastInDim S1600000 ![] bcast_S_S1600000 : (⟨S_, .i32⟩ : BufTy).Contents (Elt F) → (⟨S1600000, .i32⟩ : BufTy).Contents (Elt F)) (after ops_part2 W (Proc.devRef .tc main_c_17)) :=
  rb_unary writes2 13 main_c_17 main_v111 (broadcastInDim S1600000 ![] bcast_S_S1600000 : (⟨S_, .i32⟩ : BufTy).Contents (Elt F) → (⟨S1600000, .i32⟩ : BufTy).Contents (Elt F)) _ _ rfl (by decide) (by decide) W

theorem rb_main_v112 (W : Valuation τ sig (Elt F)) :
    after ops_part2 W (Proc.devRef .tc main_v112)
      = (addi : (⟨S1600000, .i32⟩ : BufTy).Contents (Elt F) → (⟨S1600000, .i32⟩ : BufTy).Contents (Elt F) → (⟨S1600000, .i32⟩ : BufTy).Contents (Elt F)) (after ops_part2 W (Proc.devRef .tc main_v1)) (after ops_part2 W (Proc.devRef .tc main_v111)) :=
  rb_binary writes2 14 main_v1 main_v111 main_v112 (addi : (⟨S1600000, .i32⟩ : BufTy).Contents (Elt F) → (⟨S1600000, .i32⟩ : BufTy).Contents (Elt F) → (⟨S1600000, .i32⟩ : BufTy).Contents (Elt F)) _ _ _ rfl (by decide) (by decide) (by decide) W

theorem rb_main_v113 (W : Valuation τ sig (Elt F)) :
    after ops_part2 W (Proc.devRef .tc main_v113)
      = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops_part2 W (Proc.devRef .tc main_v110)) (after ops_part2 W (Proc.devRef .tc main_v112)) (after ops_part2 W (Proc.devRef .tc main_v1)) :=
  rb_ternary writes2 15 main_v110 main_v112 main_v1 main_v113 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide) W

theorem rb_main_v114 (W : Valuation τ sig (Elt F)) :
    after ops_part2 W (Proc.devRef .tc main_v114)
      = (broadcastInDim S1600000x1 ![0] bcast_S1600000_S1600000x1_0 : (⟨S1600000, .i32⟩ : BufTy).Contents (Elt F) → (⟨S1600000x1, .i32⟩ : BufTy).Contents (Elt F)) (after ops_part2 W (Proc.devRef .tc main_v113)) :=
  rb_unary writes2 16 main_v113 main_v114 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rb_main_v115 (W : Valuation τ sig (Elt F)) :
    after ops_part2 W (Proc.devRef .tc main_v115)
      = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops_part2 W (Proc.devRef .tc main_v108)) (after ops_part2 W (Proc.devRef .tc main_v114)) :=
  rb_binary writes2 17 main_v108 main_v114 main_v115 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (by decide) (by decide) (by decide) W

theorem rb_main_cst_18 (W : Valuation τ sig (Elt F)) :
    after ops_part2 W (Proc.devRef .tc main_cst_18)
      = (constant S_ .f32 0x00000000#32) :=
  rb_nullary writes2 18 main_cst_18 (constant S_ .f32 0x00000000#32) _ rfl (by decide) W

theorem rb_main_v116 (W : Valuation τ sig (Elt F)) :
    after ops_part2 W (Proc.devRef .tc main_v116)
      = (broadcastInDim S100000x128 ![] bcast_S_S100000x128 : (⟨S_, .f32⟩ : BufTy).Contents (Elt F) → (⟨S100000x128, .f32⟩ : BufTy).Contents (Elt F)) (after ops_part2 W (Proc.devRef .tc main_cst_18)) :=
  rb_unary writes2 19 main_cst_18 main_v116 (broadcastInDim S100000x128 ![] bcast_S_S100000x128 : (⟨S_, .f32⟩ : BufTy).Contents (Elt F) → (⟨S100000x128, .f32⟩ : BufTy).Contents (Elt F)) _ _ rfl (by decide) (by decide) W

theorem rb_main_v117 (W : Valuation τ sig (Elt F)) :
    after ops_part2 W (Proc.devRef .tc main_v117)
      = (broadcastInDim S1600000x1 ![0] bcast_S1600000_S1600000x1_0 : (⟨S1600000, .i32⟩ : BufTy).Contents (Elt F) → (⟨S1600000x1, .i32⟩ : BufTy).Contents (Elt F)) (after ops_part2 W (Proc.devRef .tc main_v3)) :=
  rb_unary writes2 20 main_v3 main_v117 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rb_main_v118 (W : Valuation τ sig (Elt F)) :
    after ops_part2 W (Proc.devRef .tc main_v118)
      = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops_part2 W (Proc.devRef .tc main_v116)) (after ops_part2 W (Proc.devRef .tc main_v117)) (after ops_part2 W (Proc.devRef .tc main_v115)) :=
  rb_ternary writes2 21 main_v116 main_v117 main_v115 main_v118 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (by decide) (by decide) (by decide) (by decide) W

theorem rb_main_v119 (W : Valuation τ sig (Elt F)) :
    after ops_part2 W (Proc.devRef .tc main_v119)
      = (broadcastInDim S100000x128 ![0, 1] bcast_S100000x1_S100000x128_0_1 : (⟨S100000x1, .f32⟩ : BufTy).Contents (Elt F) → (⟨S100000x128, .f32⟩ : BufTy).Contents (Elt F)) (after ops_part2 W (Proc.devRef .tc main_v12)) :=
  rb_unary writes2 22 main_v12 main_v119 (broadcastInDim S100000x128 ![0, 1] bcast_S100000x1_S100000x128_0_1 : (⟨S100000x1, .f32⟩ : BufTy).Contents (Elt F) → (⟨S100000x128, .f32⟩ : BufTy).Contents (Elt F)) _ _ rfl (by decide) (by decide) W

theorem rb_main_v120 (W : Valuation τ sig (Elt F)) :
    after ops_part2 W (Proc.devRef .tc main_v120)
      = (mulf : (⟨S100000x128, .f32⟩ : BufTy).Contents (Elt F) → (⟨S100000x128, .f32⟩ : BufTy).Contents (Elt F) → (⟨S100000x128, .f32⟩ : BufTy).Contents (Elt F)) (after ops_part2 W (Proc.devRef .tc main_v118)) (after ops_part2 W (Proc.devRef .tc main_v119)) :=
  rb_binary writes2 23 main_v118 main_v119 main_v120 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v121 (W : Valuation τ sig (Elt F)) :
    after ops_part2 W (Proc.devRef .tc main_v121)
      = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops_part2 W (Proc.devRef .tc main_arg2)) :=
  rb_unary writes2 24 main_arg2 main_v121 ((extractStridedSlice S1x128x128 ![2, 0, 0] · slices_S3x128x128_S1x128x128_2_0_0) : (⟨S3x128x128, .f32⟩ : BufTy).Contents (Elt F) → (⟨S1x128x128, .f32⟩ : BufTy).Contents (Elt F)) _ _ rfl (by decide) (by decide) W

theorem rb_main_v122 (W : Valuation τ sig (Elt F)) :
    after ops_part2 W (Proc.devRef .tc main_v122)
      = shapeCast S128x128 (after ops_part2 W (Proc.devRef .tc main_v121)) shapeCasts_S1x128x128_S128x128 :=
  (rb_reshape writes2 25 main_v121 main_v122 rfl shapeCasts_S1x128x128_S128x128 _ _ rfl (by decide) (by decide) W).trans rfl

theorem rb_main_v123 (W : Valuation τ sig (Elt F)) :
    after ops_part2 W (Proc.devRef .tc main_v123)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops_part2 W (Proc.devRef .tc main_v120)) (after ops_part2 W (Proc.devRef .tc main_v122)) :=
  rb_binary writes2 26 main_v120 main_v122 main_v123 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rb_main_v124 (W : Valuation τ sig (Elt F)) :
    after ops_part2 W (Proc.devRef .tc main_v124)
      = ((extractStridedSlice S1x128 ![2, 0] · slices_S3x128_S1x128_2_0) : (⟨S3x128, .f32⟩ : BufTy).Contents (Elt F) → (⟨S1x128, .f32⟩ : BufTy).Contents (Elt F)) (after ops_part2 W (Proc.devRef .tc main_arg3)) :=
  rb_unary writes2 27 main_arg3 main_v124 ((extractStridedSlice S1x128 ![2, 0] · slices_S3x128_S1x128_2_0) : (⟨S3x128, .f32⟩ : BufTy).Contents (Elt F) → (⟨S1x128, .f32⟩ : BufTy).Contents (Elt F)) _ _ rfl (by decide) (by decide) W

theorem rb_main_v125 (W : Valuation τ sig (Elt F)) :
    after ops_part2 W (Proc.devRef .tc main_v125)
      = shapeCast S128 (after ops_part2 W (Proc.devRef .tc main_v124)) shapeCasts_S1x128_S128 :=
  (rb_reshape writes2 28 main_v124 main_v125 rfl shapeCasts_S1x128_S128 _ _ rfl (by decide) (by decide) W).trans rfl

theorem rb_main_v126 (W : Valuation τ sig (Elt F)) :
    after ops_part2 W (Proc.devRef .tc main_v126)
      = (broadcastInDim S1x128 ![1] bcast_S128_S1x128_1 : (⟨S128, .f32⟩ : BufTy).Contents (Elt F) → (⟨S1x128, .f32⟩ : BufTy).Contents (Elt F)) (after ops_part2 W (Proc.devRef .tc main_v125)) :=
  rb_unary writes2 29 main_v125 main_v126 (broadcastInDim S1x128 ![1] bcast_S128_S1x128_1 : (⟨S128, .f32⟩ : BufTy).Contents (Elt F) → (⟨S1x128, .f32⟩ : BufTy).Contents (Elt F)) _ _ rfl (by decide) (by decide) W

theorem rb_main_v127 (W : Valuation τ sig (Elt F)) :
    after ops_part2 W (Proc.devRef .tc main_v127)
      = (broadcastInDim S100000x128 ![0, 1] bcast_S1x128_S100000x128_0_1 : (⟨S1x128, .f32⟩ : BufTy).Contents (Elt F) → (⟨S100000x128, .f32⟩ : BufTy).Contents (Elt F)) (after ops_part2 W (Proc.devRef .tc main_v126)) :=
  rb_unary writes2 30 main_v126 main_v127 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v128 (W : Valuation τ sig (Elt F)) :
    after ops_part2 W (Proc.devRef .tc main_v128)
      = (addf : (⟨S100000x128, .f32⟩ : BufTy).Contents (Elt F) → (⟨S100000x128, .f32⟩ : BufTy).Contents (Elt F) → (⟨S100000x128, .f32⟩ : BufTy).Contents (Elt F)) (after ops_part2 W (Proc.devRef .tc main_v123)) (after ops_part2 W (Proc.devRef .tc main_v127)) :=
  rb_binary writes2 31 main_v123 main_v127 main_v128 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v129 (W : Valuation τ sig (Elt F)) :
    after ops_part2 W (Proc.devRef .tc main_v129)
      = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops_part2 W (Proc.devRef .tc main_arg4)) :=
  rb_unary writes2 32 main_arg4 main_v129 ((extractStridedSlice S1x128x128 ![2, 0, 0] · slices_S3x128x128_S1x128x128_2_0_0) : (⟨S3x128x128, .f32⟩ : BufTy).Contents (Elt F) → (⟨S1x128x128, .f32⟩ : BufTy).Contents (Elt F)) _ _ rfl (by decide) (by decide) W

theorem rb_main_v130 (W : Valuation τ sig (Elt F)) :
    after ops_part2 W (Proc.devRef .tc main_v130)
      = shapeCast S128x128 (after ops_part2 W (Proc.devRef .tc main_v129)) shapeCasts_S1x128x128_S128x128 :=
  (rb_reshape writes2 33 main_v129 main_v130 rfl shapeCasts_S1x128x128_S128x128 _ _ rfl (by decide) (by decide) W).trans rfl

theorem rb_main_v131 (W : Valuation τ sig (Elt F)) :
    after ops_part2 W (Proc.devRef .tc main_v131)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops_part2 W (Proc.devRef .tc main_v108)) (after ops_part2 W (Proc.devRef .tc main_v130)) :=
  rb_binary writes2 34 main_v108 main_v130 main_v131 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rb_main_v132 (W : Valuation τ sig (Elt F)) :
    after ops_part2 W (Proc.devRef .tc main_v132)
      = (addf : (⟨S100000x128, .f32⟩ : BufTy).Contents (Elt F) → (⟨S100000x128, .f32⟩ : BufTy).Contents (Elt F) → (⟨S100000x128, .f32⟩ : BufTy).Contents (Elt F)) (after ops_part2 W (Proc.devRef .tc main_v128)) (after ops_part2 W (Proc.devRef .tc main_v131)) :=
  rb_binary writes2 35 main_v128 main_v131 main_v132 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v133 (W : Valuation τ sig (Elt F)) :
    after ops_part2 W (Proc.devRef .tc main_v133)
      = ((extractStridedSlice S1x128 ![2, 0] · slices_S3x128_S1x128_2_0) : (⟨S3x128, .f32⟩ : BufTy).Contents (Elt F) → (⟨S1x128, .f32⟩ : BufTy).Contents (Elt F)) (after ops_part2 W (Proc.devRef .tc main_arg5)) :=
  rb_unary writes2 36 main_arg5 main_v133 ((extractStridedSlice S1x128 ![2, 0] · slices_S3x128_S1x128_2_0) : (⟨S3x128, .f32⟩ : BufTy).Contents (Elt F) → (⟨S1x128, .f32⟩ : BufTy).Contents (Elt F)) _ _ rfl (by decide) (by decide) W

theorem rb_main_v134 (W : Valuation τ sig (Elt F)) :
    after ops_part2 W (Proc.devRef .tc main_v134)
      = shapeCast S128 (after ops_part2 W (Proc.devRef .tc main_v133)) shapeCasts_S1x128_S128 :=
  (rb_reshape writes2 37 main_v133 main_v134 rfl shapeCasts_S1x128_S128 _ _ rfl (by decide) (by decide) W).trans rfl

theorem rb_main_v135 (W : Valuation τ sig (Elt F)) :
    after ops_part2 W (Proc.devRef .tc main_v135)
      = ((extractStridedSlice S1x128 ![2, 0] · slices_S3x128_S1x128_2_0) : (⟨S3x128, .f32⟩ : BufTy).Contents (Elt F) → (⟨S1x128, .f32⟩ : BufTy).Contents (Elt F)) (after ops_part2 W (Proc.devRef .tc main_arg6)) :=
  rb_unary writes2 38 main_arg6 main_v135 ((extractStridedSlice S1x128 ![2, 0] · slices_S3x128_S1x128_2_0) : (⟨S3x128, .f32⟩ : BufTy).Contents (Elt F) → (⟨S1x128, .f32⟩ : BufTy).Contents (Elt F)) _ _ rfl (by decide) (by decide) W

theorem rb_main_v136 (W : Valuation τ sig (Elt F)) :
    after ops_part2 W (Proc.devRef .tc main_v136)
      = shapeCast S128 (after ops_part2 W (Proc.devRef .tc main_v135)) shapeCasts_S1x128_S128 :=
  (rb_reshape writes2 39 main_v135 main_v136 rfl shapeCasts_S1x128_S128 _ _ rfl (by decide) (by decide) W).trans rfl

theorem rb_main_cst_19 (W : Valuation τ sig (Elt F)) :
    after ops_part2 W (Proc.devRef .tc main_cst_19)
      = (constant S_ .f32 0x00000000#32) :=
  rb_nullary writes2 40 main_cst_19 (constant S_ .f32 0x00000000#32) _ rfl (by decide) W

theorem rb_main_v137 (W : Valuation τ sig (Elt F)) :
    after ops_part2 W (Proc.devRef .tc main_v137)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part2 W (Proc.devRef .tc main_v132)) (after ops_part2 W (Proc.devRef .tc main_cst_19)) :=
  rb_binary writes2 41 main_v132 main_cst_19 main_v137 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rb_main_cst_20 (W : Valuation τ sig (Elt F)) :
    after ops_part2 W (Proc.devRef .tc main_cst_20)
      = (constant S_ .f32 0x47C35000#32) :=
  rb_nullary writes2 42 main_cst_20 (constant S_ .f32 0x47C35000#32) _ rfl (by decide) W

theorem rb_main_v138 (W : Valuation τ sig (Elt F)) :
    after ops_part2 W (Proc.devRef .tc main_v138)
      = (broadcastInDim S128 ![] bcast_S_S128 : (⟨S_, .f32⟩ : BufTy).Contents (Elt F) → (⟨S128, .f32⟩ : BufTy).Contents (Elt F)) (after ops_part2 W (Proc.devRef .tc main_cst_20)) :=
  rb_unary writes2 43 main_cst_20 main_v138 (broadcastInDim S128 ![] bcast_S_S128 : (⟨S_, .f32⟩ : BufTy).Contents (Elt F) → (⟨S128, .f32⟩ : BufTy).Contents (Elt F)) _ _ rfl (by decide) (by decide) W

theorem rb_main_v139 (W : Valuation τ sig (Elt F)) :
    after ops_part2 W (Proc.devRef .tc main_v139)
      = (Host.divf : (⟨S128, .f32⟩ : BufTy).Contents (Elt F) → (⟨S128, .f32⟩ : BufTy).Contents (Elt F) → (⟨S128, .f32⟩ : BufTy).Contents (Elt F)) (after ops_part2 W (Proc.devRef .tc main_v137)) (after ops_part2 W (Proc.devRef .tc main_v138)) :=
  rb_binary writes2 44 main_v137 main_v138 main_v139 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_c_21 (W : Valuation τ sig (Elt F)) :
    after ops_part2 W (Proc.devRef .tc main_c_21)
      = (constantI S_ 32 0#32) :=
  rb_nullary writes2 45 main_c_21 (constantI S_ 32 0#32) _ rfl (by decide) W

theorem rb_main_call4_cst (W : Valuation τ sig (Elt F)) :
    after ops_part2 W (Proc.devRef .tc main_call4_cst)
      = ((constant S_ .f32 0x00000000#32) : (⟨S_, .f32⟩ : BufTy).Contents (Elt F)) :=
  rb_tnullary writes2 46 main_call4.cst ((constant S_ .f32 0x00000000#32) : (⟨S_, .f32⟩ : BufTy).Contents (Elt F)) rfl (by decide) W

theorem rb_main_call4_v0 (W : Valuation τ sig (Elt F)) :
    after ops_part2 W (Proc.devRef .tc main_call4_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part2 W (Proc.devRef .tc main_v132)) (after ops_part2 W (Proc.devRef .tc main_call4_cst)) :=
  rb_tbinary writes2 47 (.of main_v132 : StableHlo.TRef sig ⟨S100000x128, .f32⟩) main_call4.cst main_call4.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call4_v1 (W : Valuation τ sig (Elt F)) :
    after ops_part2 W (Proc.devRef .tc main_call4_v1)
      = ((broadcastInDim S1x128 ![1] bcast_S128_S1x128_1) : (⟨S128, .f32⟩ : BufTy).Contents (Elt F) → (⟨S1x128, .f32⟩ : BufTy).Contents (Elt F)) (after ops_part2 W (Proc.devRef .tc main_call4_v0)) :=
  rb_tunary writes2 48 main_call4.v0 main_call4.v1 ((broadcastInDim S1x128 ![1] bcast_S128_S1x128_1) : (⟨S128, .f32⟩ : BufTy).Contents (Elt F) → (⟨S1x128, .f32⟩ : BufTy).Contents (Elt F)) rfl (by decide) (by decide) W

theorem rb_main_call4_cst_0 (W : Valuation τ sig (Elt F)) :
    after ops_part2 W (Proc.devRef .tc main_call4_cst_0)
      = ((constant S_ .f32 0x47C35000#32) : (⟨S_, .f32⟩ : BufTy).Contents (Elt F)) :=
  rb_tnullary writes2 49 main_call4.cst_0 ((constant S_ .f32 0x47C35000#32) : (⟨S_, .f32⟩ : BufTy).Contents (Elt F)) rfl (by decide) W

theorem rb_main_call4_v2 (W : Valuation τ sig (Elt F)) :
    after ops_part2 W (Proc.devRef .tc main_call4_v2)
      = ((broadcastInDim S1x128 ![] bcast_S_S1x128) : (⟨S_, .f32⟩ : BufTy).Contents (Elt F) → (⟨S1x128, .f32⟩ : BufTy).Contents (Elt F)) (after ops_part2 W (Proc.devRef .tc main_call4_cst_0)) :=
  rb_tunary writes2 50 main_call4.cst_0 main_call4.v2 ((broadcastInDim S1x128 ![] bcast_S_S1x128) : (⟨S_, .f32⟩ : BufTy).Contents (Elt F) → (⟨S1x128, .f32⟩ : BufTy).Contents (Elt F)) rfl (by decide) (by decide) W

theorem rb_main_call4_v3 (W : Valuation τ sig (Elt F)) :
    after ops_part2 W (Proc.devRef .tc main_call4_v3)
      = (Host.divf : (⟨S1x128, .f32⟩ : BufTy).Contents (Elt F) → (⟨S1x128, .f32⟩ : BufTy).Contents (Elt F) → (⟨S1x128, .f32⟩ : BufTy).Contents (Elt F)) (after ops_part2 W (Proc.devRef .tc main_call4_v1)) (after ops_part2 W (Proc.devRef .tc main_call4_v2)) :=
  rb_tbinary writes2 51 main_call4.v1 main_call4.v2 main_call4.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rb_main_call4_v4 (W : Valuation τ sig (Elt F)) :
    after ops_part2 W (Proc.devRef .tc main_call4_v4)
      = ((broadcastInDim S100000x128 ![0, 1] bcast_S1x128_S100000x128_0_1) : (⟨S1x128, .f32⟩ : BufTy).Contents (Elt F) → (⟨S100000x128, .f32⟩ : BufTy).Contents (Elt F)) (after ops_part2 W (Proc.devRef .tc main_call4_v3)) :=
  rb_tunary writes2 52 main_call4.v3 main_call4.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rb_main_call4_v5 (W : Valuation τ sig (Elt F)) :
    after ops_part2 W (Proc.devRef .tc main_call4_v5)
      = (subf : (⟨S100000x128, .f32⟩ : BufTy).Contents (Elt F) → (⟨S100000x128, .f32⟩ : BufTy).Contents (Elt F) → (⟨S100000x128, .f32⟩ : BufTy).Contents (Elt F)) (after ops_part2 W (Proc.devRef .tc main_v132)) (after ops_part2 W (Proc.devRef .tc main_call4_v4)) :=
  rb_tbinary writes2 53 (.of main_v132 : StableHlo.TRef sig ⟨S100000x128, .f32⟩) main_call4.v4 main_call4.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call4_v6 (W : Valuation τ sig (Elt F)) :
    after ops_part2 W (Proc.devRef .tc main_call4_v6)
      = (mulf : (⟨S100000x128, .f32⟩ : BufTy).Contents (Elt F) → (⟨S100000x128, .f32⟩ : BufTy).Contents (Elt F) → (⟨S100000x128, .f32⟩ : BufTy).Contents (Elt F)) (after ops_part2 W (Proc.devRef .tc main_call4_v5)) (after ops_part2 W (Proc.devRef .tc main_call4_v5)) :=
  rb_tbinary writes2 54 main_call4.v5 main_call4.v5 main_call4.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call4_v7 (W : Valuation τ sig (Elt F)) :
    after ops_part2 W (Proc.devRef .tc main_call4_v7)
      = ((sitofp .f32) : (⟨S_, .i32⟩ : BufTy).Contents (Elt F) → (⟨S_, .f32⟩ : BufTy).Contents (Elt F)) (after ops_part2 W (Proc.devRef .tc main_c_21)) :=
  rb_tunary writes2 55 (.of main_c_21 : StableHlo.TRef sig ⟨S_, .i32⟩) main_call4.v7 ((sitofp .f32) : (⟨S_, .i32⟩ : BufTy).Contents (Elt F) → (⟨S_, .f32⟩ : BufTy).Contents (Elt F)) rfl (by decide) (by decide) W

theorem rb_main_call4_cst_1 (W : Valuation τ sig (Elt F)) :
    after ops_part2 W (Proc.devRef .tc main_call4_cst_1)
      = ((constant S_ .f32 0x47C35000#32) : (⟨S_, .f32⟩ : BufTy).Contents (Elt F)) :=
  rb_tnullary writes2 56 main_call4.cst_1 ((constant S_ .f32 0x47C35000#32) : (⟨S_, .f32⟩ : BufTy).Contents (Elt F)) rfl (by decide) W

theorem rb_main_call4_v8 (W : Valuation τ sig (Elt F)) :
    after ops_part2 W (Proc.devRef .tc main_call4_v8)
      = (subf : (⟨S_, .f32⟩ : BufTy).Contents (Elt F) → (⟨S_, .f32⟩ : BufTy).Contents (Elt F) → (⟨S_, .f32⟩ : BufTy).Contents (Elt F)) (after ops_part2 W (Proc.devRef .tc main_call4_cst_1)) (after ops_part2 W (Proc.devRef .tc main_call4_v7)) :=
  rb_tbinary writes2 57 main_call4.cst_1 main_call4.v7 main_call4.v8 (subf : (⟨S_, .f32⟩ : BufTy).Contents (Elt F) → (⟨S_, .f32⟩ : BufTy).Contents (Elt F) → (⟨S_, .f32⟩ : BufTy).Contents (Elt F)) rfl (by decide) (by decide) (by decide) W

theorem rb_main_call4_cst_2 (W : Valuation τ sig (Elt F)) :
    after ops_part2 W (Proc.devRef .tc main_call4_cst_2)
      = ((constant S_ .f32 0x00000000#32) : (⟨S_, .f32⟩ : BufTy).Contents (Elt F)) :=
  rb_tnullary writes2 58 main_call4.cst_2 ((constant S_ .f32 0x00000000#32) : (⟨S_, .f32⟩ : BufTy).Contents (Elt F)) rfl (by decide) W

theorem rb_main_call4_v9 (W : Valuation τ sig (Elt F)) :
    after ops_part2 W (Proc.devRef .tc main_call4_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part2 W (Proc.devRef .tc main_call4_v6)) (after ops_part2 W (Proc.devRef .tc main_call4_cst_2)) :=
  rb_tbinary writes2 59 main_call4.v6 main_call4.cst_2 main_call4.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call4_v10 (W : Valuation τ sig (Elt F)) :
    after ops_part2 W (Proc.devRef .tc main_call4_v10)
      = ((broadcastInDim S128 ![] bcast_S_S128) : (⟨S_, .f32⟩ : BufTy).Contents (Elt F) → (⟨S128, .f32⟩ : BufTy).Contents (Elt F)) (after ops_part2 W (Proc.devRef .tc main_call4_v8)) :=
  rb_tunary writes2 60 main_call4.v8 main_call4.v10 ((broadcastInDim S128 ![] bcast_S_S128) : (⟨S_, .f32⟩ : BufTy).Contents (Elt F) → (⟨S128, .f32⟩ : BufTy).Contents (Elt F)) rfl (by decide) (by decide) W

theorem rb_main_call4_v11 (W : Valuation τ sig (Elt F)) :
    after ops_part2 W (Proc.devRef .tc main_call4_v11)
      = (Host.divf : (⟨S128, .f32⟩ : BufTy).Contents (Elt F) → (⟨S128, .f32⟩ : BufTy).Contents (Elt F) → (⟨S128, .f32⟩ : BufTy).Contents (Elt F)) (after ops_part2 W (Proc.devRef .tc main_call4_v9)) (after ops_part2 W (Proc.devRef .tc main_call4_v10)) :=
  rb_tbinary writes2 61 main_call4.v9 main_call4.v10 main_call4.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rb_main_call4_cst_3 (W : Valuation τ sig (Elt F)) :
    after ops_part2 W (Proc.devRef .tc main_call4_cst_3)
      = ((constant S_ .f32 0x00000000#32) : (⟨S_, .f32⟩ : BufTy).Contents (Elt F)) :=
  rb_tnullary writes2 62 main_call4.cst_3 ((constant S_ .f32 0x00000000#32) : (⟨S_, .f32⟩ : BufTy).Contents (Elt F)) rfl (by decide) W

theorem rb_main_call4_v12 (W : Valuation τ sig (Elt F)) :
    after ops_part2 W (Proc.devRef .tc main_call4_v12)
      = ((cmpf .ogt) : (⟨S_, .f32⟩ : BufTy).Contents (Elt F) → (⟨S_, .f32⟩ : BufTy).Contents (Elt F) → (⟨S_, .i1⟩ : BufTy).Contents (Elt F)) (after ops_part2 W (Proc.devRef .tc main_call4_v8)) (after ops_part2 W (Proc.devRef .tc main_call4_cst_3)) :=
  rb_tbinary writes2 63 main_call4.v8 main_call4.cst_3 main_call4.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rb_main_call4_cst_4 (W : Valuation τ sig (Elt F)) :
    after ops_part2 W (Proc.devRef .tc main_call4_cst_4)
      = ((constant S_ .f32 0x7FC00000#32) : (⟨S_, .f32⟩ : BufTy).Contents (Elt F)) :=
  rb_tnullary writes2 64 main_call4.cst_4 ((constant S_ .f32 0x7FC00000#32) : (⟨S_, .f32⟩ : BufTy).Contents (Elt F)) rfl (by decide) W

theorem rb_main_call4_call0_v0 (W : Valuation τ sig (Elt F)) :
    after ops_part2 W (Proc.devRef .tc main_call4_call0_v0)
      = (id : (⟨S_, .f32⟩ : BufTy).Contents (Elt F) → (⟨S_, .f32⟩ : BufTy).Contents (Elt F)) (after ops_part2 W (Proc.devRef .tc main_call4_cst_4)) :=
  rb_tunary writes2 65 main_call4.cst_4 main_call4.call0.v0 (id : (⟨S_, .f32⟩ : BufTy).Contents (Elt F) → (⟨S_, .f32⟩ : BufTy).Contents (Elt F)) rfl (by decide) (by decide) W

theorem rb_main_call4_call0_v1 (W : Valuation τ sig (Elt F)) :
    after ops_part2 W (Proc.devRef .tc main_call4_call0_v1)
      = ((broadcastInDim S128 ![] bcast_S_S128) : (⟨S_, .f32⟩ : BufTy).Contents (Elt F) → (⟨S128, .f32⟩ : BufTy).Contents (Elt F)) (after ops_part2 W (Proc.devRef .tc main_call4_call0_v0)) :=
  rb_tunary writes2 66 main_call4.call0.v0 main_call4.call0.v1 ((broadcastInDim S128 ![] bcast_S_S128) : (⟨S_, .f32⟩ : BufTy).Contents (Elt F) → (⟨S128, .f32⟩ : BufTy).Contents (Elt F)) rfl (by decide) (by decide) W

theorem rb_main_v140 (W : Valuation τ sig (Elt F)) :
    after ops_part2 W (Proc.devRef .tc main_v140)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops_part2 W (Proc.devRef .tc main_call4_v12)) (after ops_part2 W (Proc.devRef .tc main_call4_v11)) (after ops_part2 W (Proc.devRef .tc main_call4_call0_v1)) :=
  rb_tternary writes2 67 main_call4.v12 main_call4.v11 main_call4.call0.v1 main_call4.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rb_main_v141 (W : Valuation τ sig (Elt F)) :
    after ops_part2 W (Proc.devRef .tc main_v141)
      = (broadcastInDim S1x128 ![1] bcast_S128_S1x128_1 : (⟨S128, .f32⟩ : BufTy).Contents (Elt F) → (⟨S1x128, .f32⟩ : BufTy).Contents (Elt F)) (after ops_part2 W (Proc.devRef .tc main_v139)) :=
  rb_unary writes2 68 main_v139 main_v141 (broadcastInDim S1x128 ![1] bcast_S128_S1x128_1 : (⟨S128, .f32⟩ : BufTy).Contents (Elt F) → (⟨S1x128, .f32⟩ : BufTy).Contents (Elt F)) _ _ rfl (by decide) (by decide) W

theorem rb_main_v142 (W : Valuation τ sig (Elt F)) :
    after ops_part2 W (Proc.devRef .tc main_v142)
      = (broadcastInDim S100000x128 ![0, 1] bcast_S1x128_S100000x128_0_1 : (⟨S1x128, .f32⟩ : BufTy).Contents (Elt F) → (⟨S100000x128, .f32⟩ : BufTy).Contents (Elt F)) (after ops_part2 W (Proc.devRef .tc main_v141)) :=
  rb_unary writes2 69 main_v141 main_v142 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v143 (W : Valuation τ sig (Elt F)) :
    after ops_part2 W (Proc.devRef .tc main_v143)
      = (subf : (⟨S100000x128, .f32⟩ : BufTy).Contents (Elt F) → (⟨S100000x128, .f32⟩ : BufTy).Contents (Elt F) → (⟨S100000x128, .f32⟩ : BufTy).Contents (Elt F)) (after ops_part2 W (Proc.devRef .tc main_v132)) (after ops_part2 W (Proc.devRef .tc main_v142)) :=
  rb_binary writes2 70 main_v132 main_v142 main_v143 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_cst_22 (W : Valuation τ sig (Elt F)) :
    after ops_part2 W (Proc.devRef .tc main_cst_22)
      = (constant S_ .f32 0x3727C5AC#32) :=
  rb_nullary writes2 71 main_cst_22 (constant S_ .f32 0x3727C5AC#32) _ rfl (by decide) W

theorem rb_main_v144 (W : Valuation τ sig (Elt F)) :
    after ops_part2 W (Proc.devRef .tc main_v144)
      = (broadcastInDim S128 ![] bcast_S_S128 : (⟨S_, .f32⟩ : BufTy).Contents (Elt F) → (⟨S128, .f32⟩ : BufTy).Contents (Elt F)) (after ops_part2 W (Proc.devRef .tc main_cst_22)) :=
  rb_unary writes2 72 main_cst_22 main_v144 (broadcastInDim S128 ![] bcast_S_S128 : (⟨S_, .f32⟩ : BufTy).Contents (Elt F) → (⟨S128, .f32⟩ : BufTy).Contents (Elt F)) _ _ rfl (by decide) (by decide) W

theorem rb_main_v145 (W : Valuation τ sig (Elt F)) :
    after ops_part2 W (Proc.devRef .tc main_v145)
      = (addf : (⟨S128, .f32⟩ : BufTy).Contents (Elt F) → (⟨S128, .f32⟩ : BufTy).Contents (Elt F) → (⟨S128, .f32⟩ : BufTy).Contents (Elt F)) (after ops_part2 W (Proc.devRef .tc main_v140)) (after ops_part2 W (Proc.devRef .tc main_v144)) :=
  rb_binary writes2 73 main_v140 main_v144 main_v145 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_v146 (W : Valuation τ sig (Elt F)) :
    after ops_part2 W (Proc.devRef .tc main_v146)
      = (Host.rsqrt : (⟨S128, .f32⟩ : BufTy).Contents (Elt F) → (⟨S128, .f32⟩ : BufTy).Contents (Elt F)) (after ops_part2 W (Proc.devRef .tc main_v145)) :=
  rb_unary writes2 74 main_v145 main_v146 (Host.rsqrt : (⟨S128, .f32⟩ : BufTy).Contents (Elt F) → (⟨S128, .f32⟩ : BufTy).Contents (Elt F)) _ _ rfl (by decide) (by decide) W

theorem rb_main_v147 (W : Valuation τ sig (Elt F)) :
    after ops_part2 W (Proc.devRef .tc main_v147)
      = (broadcastInDim S1x128 ![1] bcast_S128_S1x128_1 : (⟨S128, .f32⟩ : BufTy).Contents (Elt F) → (⟨S1x128, .f32⟩ : BufTy).Contents (Elt F)) (after ops_part2 W (Proc.devRef .tc main_v146)) :=
  rb_unary writes2 75 main_v146 main_v147 (broadcastInDim S1x128 ![1] bcast_S128_S1x128_1 : (⟨S128, .f32⟩ : BufTy).Contents (Elt F) → (⟨S1x128, .f32⟩ : BufTy).Contents (Elt F)) _ _ rfl (by decide) (by decide) W

theorem rb_main_v148 (W : Valuation τ sig (Elt F)) :
    after ops_part2 W (Proc.devRef .tc main_v148)
      = (broadcastInDim S100000x128 ![0, 1] bcast_S1x128_S100000x128_0_1 : (⟨S1x128, .f32⟩ : BufTy).Contents (Elt F) → (⟨S100000x128, .f32⟩ : BufTy).Contents (Elt F)) (after ops_part2 W (Proc.devRef .tc main_v147)) :=
  rb_unary writes2 76 main_v147 main_v148 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v149 (W : Valuation τ sig (Elt F)) :
    after ops_part2 W (Proc.devRef .tc main_v149)
      = (mulf : (⟨S100000x128, .f32⟩ : BufTy).Contents (Elt F) → (⟨S100000x128, .f32⟩ : BufTy).Contents (Elt F) → (⟨S100000x128, .f32⟩ : BufTy).Contents (Elt F)) (after ops_part2 W (Proc.devRef .tc main_v143)) (after ops_part2 W (Proc.devRef .tc main_v148)) :=
  rb_binary writes2 77 main_v143 main_v148 main_v149 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v150 (W : Valuation τ sig (Elt F)) :
    after ops_part2 W (Proc.devRef .tc main_v150)
      = (broadcastInDim S1x128 ![1] bcast_S128_S1x128_1 : (⟨S128, .f32⟩ : BufTy).Contents (Elt F) → (⟨S1x128, .f32⟩ : BufTy).Contents (Elt F)) (after ops_part2 W (Proc.devRef .tc main_v134)) :=
  rb_unary writes2 78 main_v134 main_v150 (broadcastInDim S1x128 ![1] bcast_S128_S1x128_1 : (⟨S128, .f32⟩ : BufTy).Contents (Elt F) → (⟨S1x128, .f32⟩ : BufTy).Contents (Elt F)) _ _ rfl (by decide) (by decide) W

theorem rb_main_v151 (W : Valuation τ sig (Elt F)) :
    after ops_part2 W (Proc.devRef .tc main_v151)
      = (broadcastInDim S100000x128 ![0, 1] bcast_S1x128_S100000x128_0_1 : (⟨S1x128, .f32⟩ : BufTy).Contents (Elt F) → (⟨S100000x128, .f32⟩ : BufTy).Contents (Elt F)) (after ops_part2 W (Proc.devRef .tc main_v150)) :=
  rb_unary writes2 79 main_v150 main_v151 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v152 (W : Valuation τ sig (Elt F)) :
    after ops_part2 W (Proc.devRef .tc main_v152)
      = (mulf : (⟨S100000x128, .f32⟩ : BufTy).Contents (Elt F) → (⟨S100000x128, .f32⟩ : BufTy).Contents (Elt F) → (⟨S100000x128, .f32⟩ : BufTy).Contents (Elt F)) (after ops_part2 W (Proc.devRef .tc main_v149)) (after ops_part2 W (Proc.devRef .tc main_v151)) :=
  rb_binary writes2 80 main_v149 main_v151 main_v152 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v153 (W : Valuation τ sig (Elt F)) :
    after ops_part2 W (Proc.devRef .tc main_v153)
      = (broadcastInDim S1x128 ![1] bcast_S128_S1x128_1 : (⟨S128, .f32⟩ : BufTy).Contents (Elt F) → (⟨S1x128, .f32⟩ : BufTy).Contents (Elt F)) (after ops_part2 W (Proc.devRef .tc main_v136)) :=
  rb_unary writes2 81 main_v136 main_v153 (broadcastInDim S1x128 ![1] bcast_S128_S1x128_1 : (⟨S128, .f32⟩ : BufTy).Contents (Elt F) → (⟨S1x128, .f32⟩ : BufTy).Contents (Elt F)) _ _ rfl (by decide) (by decide) W

theorem rb_main_v154 (W : Valuation τ sig (Elt F)) :
    after ops_part2 W (Proc.devRef .tc main_v154)
      = (broadcastInDim S100000x128 ![0, 1] bcast_S1x128_S100000x128_0_1 : (⟨S1x128, .f32⟩ : BufTy).Contents (Elt F) → (⟨S100000x128, .f32⟩ : BufTy).Contents (Elt F)) (after ops_part2 W (Proc.devRef .tc main_v153)) :=
  rb_unary writes2 82 main_v153 main_v154 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

end Cert.ReferenceIdeal.SSA

end
-- ==== Proof.RefSSA3.lean ====
/- Window `main_part3` of the idealized reference's @main, read back: for each of its 65 host operations, the window's final
   contents at the reference the operation writes are the operation's function of the final contents at its operand
   references (every reference is written once, after its operands); a reference the window does not write keeps its contents. -/
import proofs.«173273_j2259152798196_2_alg».proof.Proof.RefOps
import proofs.«173273_j2259152798196_2_alg».proof.Proof.LibSSA

noncomputable section

namespace Cert.ReferenceIdeal.SSA

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The references window `main_part3` writes, in the order of its operations. -/
abbrev written3 : List (Ref sig .tc) :=
  [main_v155, main_call5_cst, main_call5_v0, main_v156, main_v157, main_v158, main_v159, main_v160, main_v161, main_cst_23, main_v162, main_cst_24, main_v163, main_v164, main_c_25, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v165, main_v166, main_v167, main_v168, main_cst_26, main_v169, main_v170, main_v171, main_v172, main_v173, main_v174, main_v175, main_v176, main_v177, main_v178, main_v179, main_v180, main_cst_27, main_call7_cst, main_call7_v0, main_call7_v1, main_call7_v2, main_call7_v3, main_call7_v4, main_v181, main_v182, main_v183, main_v184, main_v185]

set_option maxRecDepth 16384 in
/-- Operation by operation, the window writes exactly the listed reference. -/
theorem writes3 : WritesOnly (ops_part3 (F := F)) written3 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A reference the window does not write keeps its contents. -/
theorem keep3 (W : Valuation τ sig (Elt F)) {r : Ref sig .tc} (hr : r ∉ written3) :
    after ops_part3 W (Proc.devRef .tc r) = W (Proc.devRef .tc r) :=
  keep_of writes3 hr W

theorem rb_main_v155 (W : Valuation τ sig (Elt F)) :
    after ops_part3 W (Proc.devRef .tc main_v155)
      = (addf : (⟨S100000x128, .f32⟩ : BufTy).Contents (Elt F) → (⟨S100000x128, .f32⟩ : BufTy).Contents (Elt F) → (⟨S100000x128, .f32⟩ : BufTy).Contents (Elt F)) (after ops_part3 W (Proc.devRef .tc main_v152)) (after ops_part3 W (Proc.devRef .tc main_v154)) :=
  rb_binary writes3 0 main_v152 main_v154 main_v155 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_call5_cst (W : Valuation τ sig (Elt F)) :
    after ops_part3 W (Proc.devRef .tc main_call5_cst)
      = ((constant S_ .f32 0x00000000#32) : (⟨S_, .f32⟩ : BufTy).Contents (Elt F)) :=
  rb_tnullary writes3 1 main_call5.cst ((constant S_ .f32 0x00000000#32) : (⟨S_, .f32⟩ : BufTy).Contents (Elt F)) rfl (by decide) W

theorem rb_main_call5_v0 (W : Valuation τ sig (Elt F)) :
    after ops_part3 W (Proc.devRef .tc main_call5_v0)
      = ((broadcastInDim S100000x128 ![] bcast_S_S100000x128) : (⟨S_, .f32⟩ : BufTy).Contents (Elt F) → (⟨S100000x128, .f32⟩ : BufTy).Contents (Elt F)) (after ops_part3 W (Proc.devRef .tc main_call5_cst)) :=
  rb_tunary writes3 2 main_call5.cst main_call5.v0 ((broadcastInDim S100000x128 ![] bcast_S_S100000x128) : (⟨S_, .f32⟩ : BufTy).Contents (Elt F) → (⟨S100000x128, .f32⟩ : BufTy).Contents (Elt F)) rfl (by decide) (by decide) W

theorem rb_main_v156 (W : Valuation τ sig (Elt F)) :
    after ops_part3 W (Proc.devRef .tc main_v156)
      = (maximumf : (⟨S100000x128, .f32⟩ : BufTy).Contents (Elt F) → (⟨S100000x128, .f32⟩ : BufTy).Contents (Elt F) → (⟨S100000x128, .f32⟩ : BufTy).Contents (Elt F)) (after ops_part3 W (Proc.devRef .tc main_v155)) (after ops_part3 W (Proc.devRef .tc main_call5_v0)) :=
  rb_tbinary writes3 3 (.of main_v155 : StableHlo.TRef sig ⟨S100000x128, .f32⟩) main_call5.v0 main_call5.v1 (maximumf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_v157 (W : Valuation τ sig (Elt F)) :
    after ops_part3 W (Proc.devRef .tc main_v157)
      = concatenate S100000x512 1 [⟨S100000x128, (after ops_part3 W (Proc.devRef .tc main_arg0))⟩, ⟨S100000x128, (after ops_part3 W (Proc.devRef .tc main_v60))⟩, ⟨S100000x128, (after ops_part3 W (Proc.devRef .tc main_v108))⟩, ⟨S100000x128, (after ops_part3 W (Proc.devRef .tc main_v156))⟩] concatenates_S100000x128_S100000x128_S100000x128_S100000x128_S100000x512_d1 :=
  (rb_nary writes3 4 ![main_arg0, main_v60, main_v108, main_v156] main_v157 (fun u => concatenate S100000x512 1 [⟨S100000x128, u 0⟩, ⟨S100000x128, u 1⟩, ⟨S100000x128, u 2⟩, ⟨S100000x128, u 3⟩] concatenates_S100000x128_S100000x128_S100000x128_S100000x128_S100000x512_d1) _ _ rfl (by decide) (by decide) W).trans rfl

theorem rb_main_v158 (W : Valuation τ sig (Elt F)) :
    after ops_part3 W (Proc.devRef .tc main_v158)
      = ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)) (after ops_part3 W (Proc.devRef .tc main_v157)) (after ops_part3 W (Proc.devRef .tc main_arg7)) :=
  rb_binary writes3 5 main_v157 main_arg7 main_v158 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)) _ _ _ rfl (by decide) (by decide) (by decide) W

theorem rb_main_v159 (W : Valuation τ sig (Elt F)) :
    after ops_part3 W (Proc.devRef .tc main_v159)
      = (broadcastInDim S1x128 ![1] bcast_S128_S1x128_1 : (⟨S128, .f32⟩ : BufTy).Contents (Elt F) → (⟨S1x128, .f32⟩ : BufTy).Contents (Elt F)) (after ops_part3 W (Proc.devRef .tc main_arg8)) :=
  rb_unary writes3 6 main_arg8 main_v159 (broadcastInDim S1x128 ![1] bcast_S128_S1x128_1 : (⟨S128, .f32⟩ : BufTy).Contents (Elt F) → (⟨S1x128, .f32⟩ : BufTy).Contents (Elt F)) _ _ rfl (by decide) (by decide) W

theorem rb_main_v160 (W : Valuation τ sig (Elt F)) :
    after ops_part3 W (Proc.devRef .tc main_v160)
      = (broadcastInDim S100000x128 ![0, 1] bcast_S1x128_S100000x128_0_1 : (⟨S1x128, .f32⟩ : BufTy).Contents (Elt F) → (⟨S100000x128, .f32⟩ : BufTy).Contents (Elt F)) (after ops_part3 W (Proc.devRef .tc main_v159)) :=
  rb_unary writes3 7 main_v159 main_v160 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v161 (W : Valuation τ sig (Elt F)) :
    after ops_part3 W (Proc.devRef .tc main_v161)
      = (addf : (⟨S100000x128, .f32⟩ : BufTy).Contents (Elt F) → (⟨S100000x128, .f32⟩ : BufTy).Contents (Elt F) → (⟨S100000x128, .f32⟩ : BufTy).Contents (Elt F)) (after ops_part3 W (Proc.devRef .tc main_v158)) (after ops_part3 W (Proc.devRef .tc main_v160)) :=
  rb_binary writes3 8 main_v158 main_v160 main_v161 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_cst_23 (W : Valuation τ sig (Elt F)) :
    after ops_part3 W (Proc.devRef .tc main_cst_23)
      = (constant S_ .f32 0x00000000#32) :=
  rb_nullary writes3 9 main_cst_23 (constant S_ .f32 0x00000000#32) _ rfl (by decide) W

theorem rb_main_v162 (W : Valuation τ sig (Elt F)) :
    after ops_part3 W (Proc.devRef .tc main_v162)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part3 W (Proc.devRef .tc main_v161)) (after ops_part3 W (Proc.devRef .tc main_cst_23)) :=
  rb_binary writes3 10 main_v161 main_cst_23 main_v162 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rb_main_cst_24 (W : Valuation τ sig (Elt F)) :
    after ops_part3 W (Proc.devRef .tc main_cst_24)
      = (constant S_ .f32 0x47C35000#32) :=
  rb_nullary writes3 11 main_cst_24 (constant S_ .f32 0x47C35000#32) _ rfl (by decide) W

theorem rb_main_v163 (W : Valuation τ sig (Elt F)) :
    after ops_part3 W (Proc.devRef .tc main_v163)
      = (broadcastInDim S128 ![] bcast_S_S128 : (⟨S_, .f32⟩ : BufTy).Contents (Elt F) → (⟨S128, .f32⟩ : BufTy).Contents (Elt F)) (after ops_part3 W (Proc.devRef .tc main_cst_24)) :=
  rb_unary writes3 12 main_cst_24 main_v163 (broadcastInDim S128 ![] bcast_S_S128 : (⟨S_, .f32⟩ : BufTy).Contents (Elt F) → (⟨S128, .f32⟩ : BufTy).Contents (Elt F)) _ _ rfl (by decide) (by decide) W

theorem rb_main_v164 (W : Valuation τ sig (Elt F)) :
    after ops_part3 W (Proc.devRef .tc main_v164)
      = (Host.divf : (⟨S128, .f32⟩ : BufTy).Contents (Elt F) → (⟨S128, .f32⟩ : BufTy).Contents (Elt F) → (⟨S128, .f32⟩ : BufTy).Contents (Elt F)) (after ops_part3 W (Proc.devRef .tc main_v162)) (after ops_part3 W (Proc.devRef .tc main_v163)) :=
  rb_binary writes3 13 main_v162 main_v163 main_v164 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_c_25 (W : Valuation τ sig (Elt F)) :
    after ops_part3 W (Proc.devRef .tc main_c_25)
      = (constantI S_ 32 0#32) :=
  rb_nullary writes3 14 main_c_25 (constantI S_ 32 0#32) _ rfl (by decide) W

theorem rb_main_call6_cst (W : Valuation τ sig (Elt F)) :
    after ops_part3 W (Proc.devRef .tc main_call6_cst)
      = ((constant S_ .f32 0x00000000#32) : (⟨S_, .f32⟩ : BufTy).Contents (Elt F)) :=
  rb_tnullary writes3 15 main_call6.cst ((constant S_ .f32 0x00000000#32) : (⟨S_, .f32⟩ : BufTy).Contents (Elt F)) rfl (by decide) W

theorem rb_main_call6_v0 (W : Valuation τ sig (Elt F)) :
    after ops_part3 W (Proc.devRef .tc main_call6_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part3 W (Proc.devRef .tc main_v161)) (after ops_part3 W (Proc.devRef .tc main_call6_cst)) :=
  rb_tbinary writes3 16 (.of main_v161 : StableHlo.TRef sig ⟨S100000x128, .f32⟩) main_call6.cst main_call6.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call6_v1 (W : Valuation τ sig (Elt F)) :
    after ops_part3 W (Proc.devRef .tc main_call6_v1)
      = ((broadcastInDim S1x128 ![1] bcast_S128_S1x128_1) : (⟨S128, .f32⟩ : BufTy).Contents (Elt F) → (⟨S1x128, .f32⟩ : BufTy).Contents (Elt F)) (after ops_part3 W (Proc.devRef .tc main_call6_v0)) :=
  rb_tunary writes3 17 main_call6.v0 main_call6.v1 ((broadcastInDim S1x128 ![1] bcast_S128_S1x128_1) : (⟨S128, .f32⟩ : BufTy).Contents (Elt F) → (⟨S1x128, .f32⟩ : BufTy).Contents (Elt F)) rfl (by decide) (by decide) W

theorem rb_main_call6_cst_0 (W : Valuation τ sig (Elt F)) :
    after ops_part3 W (Proc.devRef .tc main_call6_cst_0)
      = ((constant S_ .f32 0x47C35000#32) : (⟨S_, .f32⟩ : BufTy).Contents (Elt F)) :=
  rb_tnullary writes3 18 main_call6.cst_0 ((constant S_ .f32 0x47C35000#32) : (⟨S_, .f32⟩ : BufTy).Contents (Elt F)) rfl (by decide) W

theorem rb_main_call6_v2 (W : Valuation τ sig (Elt F)) :
    after ops_part3 W (Proc.devRef .tc main_call6_v2)
      = ((broadcastInDim S1x128 ![] bcast_S_S1x128) : (⟨S_, .f32⟩ : BufTy).Contents (Elt F) → (⟨S1x128, .f32⟩ : BufTy).Contents (Elt F)) (after ops_part3 W (Proc.devRef .tc main_call6_cst_0)) :=
  rb_tunary writes3 19 main_call6.cst_0 main_call6.v2 ((broadcastInDim S1x128 ![] bcast_S_S1x128) : (⟨S_, .f32⟩ : BufTy).Contents (Elt F) → (⟨S1x128, .f32⟩ : BufTy).Contents (Elt F)) rfl (by decide) (by decide) W

theorem rb_main_call6_v3 (W : Valuation τ sig (Elt F)) :
    after ops_part3 W (Proc.devRef .tc main_call6_v3)
      = (Host.divf : (⟨S1x128, .f32⟩ : BufTy).Contents (Elt F) → (⟨S1x128, .f32⟩ : BufTy).Contents (Elt F) → (⟨S1x128, .f32⟩ : BufTy).Contents (Elt F)) (after ops_part3 W (Proc.devRef .tc main_call6_v1)) (after ops_part3 W (Proc.devRef .tc main_call6_v2)) :=
  rb_tbinary writes3 20 main_call6.v1 main_call6.v2 main_call6.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rb_main_call6_v4 (W : Valuation τ sig (Elt F)) :
    after ops_part3 W (Proc.devRef .tc main_call6_v4)
      = ((broadcastInDim S100000x128 ![0, 1] bcast_S1x128_S100000x128_0_1) : (⟨S1x128, .f32⟩ : BufTy).Contents (Elt F) → (⟨S100000x128, .f32⟩ : BufTy).Contents (Elt F)) (after ops_part3 W (Proc.devRef .tc main_call6_v3)) :=
  rb_tunary writes3 21 main_call6.v3 main_call6.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rb_main_call6_v5 (W : Valuation τ sig (Elt F)) :
    after ops_part3 W (Proc.devRef .tc main_call6_v5)
      = (subf : (⟨S100000x128, .f32⟩ : BufTy).Contents (Elt F) → (⟨S100000x128, .f32⟩ : BufTy).Contents (Elt F) → (⟨S100000x128, .f32⟩ : BufTy).Contents (Elt F)) (after ops_part3 W (Proc.devRef .tc main_v161)) (after ops_part3 W (Proc.devRef .tc main_call6_v4)) :=
  rb_tbinary writes3 22 (.of main_v161 : StableHlo.TRef sig ⟨S100000x128, .f32⟩) main_call6.v4 main_call6.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call6_v6 (W : Valuation τ sig (Elt F)) :
    after ops_part3 W (Proc.devRef .tc main_call6_v6)
      = (mulf : (⟨S100000x128, .f32⟩ : BufTy).Contents (Elt F) → (⟨S100000x128, .f32⟩ : BufTy).Contents (Elt F) → (⟨S100000x128, .f32⟩ : BufTy).Contents (Elt F)) (after ops_part3 W (Proc.devRef .tc main_call6_v5)) (after ops_part3 W (Proc.devRef .tc main_call6_v5)) :=
  rb_tbinary writes3 23 main_call6.v5 main_call6.v5 main_call6.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_call6_v7 (W : Valuation τ sig (Elt F)) :
    after ops_part3 W (Proc.devRef .tc main_call6_v7)
      = ((sitofp .f32) : (⟨S_, .i32⟩ : BufTy).Contents (Elt F) → (⟨S_, .f32⟩ : BufTy).Contents (Elt F)) (after ops_part3 W (Proc.devRef .tc main_c_25)) :=
  rb_tunary writes3 24 (.of main_c_25 : StableHlo.TRef sig ⟨S_, .i32⟩) main_call6.v7 ((sitofp .f32) : (⟨S_, .i32⟩ : BufTy).Contents (Elt F) → (⟨S_, .f32⟩ : BufTy).Contents (Elt F)) rfl (by decide) (by decide) W

theorem rb_main_call6_cst_1 (W : Valuation τ sig (Elt F)) :
    after ops_part3 W (Proc.devRef .tc main_call6_cst_1)
      = ((constant S_ .f32 0x47C35000#32) : (⟨S_, .f32⟩ : BufTy).Contents (Elt F)) :=
  rb_tnullary writes3 25 main_call6.cst_1 ((constant S_ .f32 0x47C35000#32) : (⟨S_, .f32⟩ : BufTy).Contents (Elt F)) rfl (by decide) W

theorem rb_main_call6_v8 (W : Valuation τ sig (Elt F)) :
    after ops_part3 W (Proc.devRef .tc main_call6_v8)
      = (subf : (⟨S_, .f32⟩ : BufTy).Contents (Elt F) → (⟨S_, .f32⟩ : BufTy).Contents (Elt F) → (⟨S_, .f32⟩ : BufTy).Contents (Elt F)) (after ops_part3 W (Proc.devRef .tc main_call6_cst_1)) (after ops_part3 W (Proc.devRef .tc main_call6_v7)) :=
  rb_tbinary writes3 26 main_call6.cst_1 main_call6.v7 main_call6.v8 (subf : (⟨S_, .f32⟩ : BufTy).Contents (Elt F) → (⟨S_, .f32⟩ : BufTy).Contents (Elt F) → (⟨S_, .f32⟩ : BufTy).Contents (Elt F)) rfl (by decide) (by decide) (by decide) W

theorem rb_main_call6_cst_2 (W : Valuation τ sig (Elt F)) :
    after ops_part3 W (Proc.devRef .tc main_call6_cst_2)
      = ((constant S_ .f32 0x00000000#32) : (⟨S_, .f32⟩ : BufTy).Contents (Elt F)) :=
  rb_tnullary writes3 27 main_call6.cst_2 ((constant S_ .f32 0x00000000#32) : (⟨S_, .f32⟩ : BufTy).Contents (Elt F)) rfl (by decide) W

theorem rb_main_call6_v9 (W : Valuation τ sig (Elt F)) :
    after ops_part3 W (Proc.devRef .tc main_call6_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops_part3 W (Proc.devRef .tc main_call6_v6)) (after ops_part3 W (Proc.devRef .tc main_call6_cst_2)) :=
  rb_tbinary writes3 28 main_call6.v6 main_call6.cst_2 main_call6.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rb_main_call6_v10 (W : Valuation τ sig (Elt F)) :
    after ops_part3 W (Proc.devRef .tc main_call6_v10)
      = ((broadcastInDim S128 ![] bcast_S_S128) : (⟨S_, .f32⟩ : BufTy).Contents (Elt F) → (⟨S128, .f32⟩ : BufTy).Contents (Elt F)) (after ops_part3 W (Proc.devRef .tc main_call6_v8)) :=
  rb_tunary writes3 29 main_call6.v8 main_call6.v10 ((broadcastInDim S128 ![] bcast_S_S128) : (⟨S_, .f32⟩ : BufTy).Contents (Elt F) → (⟨S128, .f32⟩ : BufTy).Contents (Elt F)) rfl (by decide) (by decide) W

theorem rb_main_call6_v11 (W : Valuation τ sig (Elt F)) :
    after ops_part3 W (Proc.devRef .tc main_call6_v11)
      = (Host.divf : (⟨S128, .f32⟩ : BufTy).Contents (Elt F) → (⟨S128, .f32⟩ : BufTy).Contents (Elt F) → (⟨S128, .f32⟩ : BufTy).Contents (Elt F)) (after ops_part3 W (Proc.devRef .tc main_call6_v9)) (after ops_part3 W (Proc.devRef .tc main_call6_v10)) :=
  rb_tbinary writes3 30 main_call6.v9 main_call6.v10 main_call6.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rb_main_call6_cst_3 (W : Valuation τ sig (Elt F)) :
    after ops_part3 W (Proc.devRef .tc main_call6_cst_3)
      = ((constant S_ .f32 0x00000000#32) : (⟨S_, .f32⟩ : BufTy).Contents (Elt F)) :=
  rb_tnullary writes3 31 main_call6.cst_3 ((constant S_ .f32 0x00000000#32) : (⟨S_, .f32⟩ : BufTy).Contents (Elt F)) rfl (by decide) W

theorem rb_main_call6_v12 (W : Valuation τ sig (Elt F)) :
    after ops_part3 W (Proc.devRef .tc main_call6_v12)
      = ((cmpf .ogt) : (⟨S_, .f32⟩ : BufTy).Contents (Elt F) → (⟨S_, .f32⟩ : BufTy).Contents (Elt F) → (⟨S_, .i1⟩ : BufTy).Contents (Elt F)) (after ops_part3 W (Proc.devRef .tc main_call6_v8)) (after ops_part3 W (Proc.devRef .tc main_call6_cst_3)) :=
  rb_tbinary writes3 32 main_call6.v8 main_call6.cst_3 main_call6.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rb_main_call6_cst_4 (W : Valuation τ sig (Elt F)) :
    after ops_part3 W (Proc.devRef .tc main_call6_cst_4)
      = ((constant S_ .f32 0x7FC00000#32) : (⟨S_, .f32⟩ : BufTy).Contents (Elt F)) :=
  rb_tnullary writes3 33 main_call6.cst_4 ((constant S_ .f32 0x7FC00000#32) : (⟨S_, .f32⟩ : BufTy).Contents (Elt F)) rfl (by decide) W

theorem rb_main_call6_call0_v0 (W : Valuation τ sig (Elt F)) :
    after ops_part3 W (Proc.devRef .tc main_call6_call0_v0)
      = (id : (⟨S_, .f32⟩ : BufTy).Contents (Elt F) → (⟨S_, .f32⟩ : BufTy).Contents (Elt F)) (after ops_part3 W (Proc.devRef .tc main_call6_cst_4)) :=
  rb_tunary writes3 34 main_call6.cst_4 main_call6.call0.v0 (id : (⟨S_, .f32⟩ : BufTy).Contents (Elt F) → (⟨S_, .f32⟩ : BufTy).Contents (Elt F)) rfl (by decide) (by decide) W

theorem rb_main_call6_call0_v1 (W : Valuation τ sig (Elt F)) :
    after ops_part3 W (Proc.devRef .tc main_call6_call0_v1)
      = ((broadcastInDim S128 ![] bcast_S_S128) : (⟨S_, .f32⟩ : BufTy).Contents (Elt F) → (⟨S128, .f32⟩ : BufTy).Contents (Elt F)) (after ops_part3 W (Proc.devRef .tc main_call6_call0_v0)) :=
  rb_tunary writes3 35 main_call6.call0.v0 main_call6.call0.v1 ((broadcastInDim S128 ![] bcast_S_S128) : (⟨S_, .f32⟩ : BufTy).Contents (Elt F) → (⟨S128, .f32⟩ : BufTy).Contents (Elt F)) rfl (by decide) (by decide) W

theorem rb_main_v165 (W : Valuation τ sig (Elt F)) :
    after ops_part3 W (Proc.devRef .tc main_v165)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops_part3 W (Proc.devRef .tc main_call6_v12)) (after ops_part3 W (Proc.devRef .tc main_call6_v11)) (after ops_part3 W (Proc.devRef .tc main_call6_call0_v1)) :=
  rb_tternary writes3 36 main_call6.v12 main_call6.v11 main_call6.call0.v1 main_call6.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rb_main_v166 (W : Valuation τ sig (Elt F)) :
    after ops_part3 W (Proc.devRef .tc main_v166)
      = (broadcastInDim S1x128 ![1] bcast_S128_S1x128_1 : (⟨S128, .f32⟩ : BufTy).Contents (Elt F) → (⟨S1x128, .f32⟩ : BufTy).Contents (Elt F)) (after ops_part3 W (Proc.devRef .tc main_v164)) :=
  rb_unary writes3 37 main_v164 main_v166 (broadcastInDim S1x128 ![1] bcast_S128_S1x128_1 : (⟨S128, .f32⟩ : BufTy).Contents (Elt F) → (⟨S1x128, .f32⟩ : BufTy).Contents (Elt F)) _ _ rfl (by decide) (by decide) W

theorem rb_main_v167 (W : Valuation τ sig (Elt F)) :
    after ops_part3 W (Proc.devRef .tc main_v167)
      = (broadcastInDim S100000x128 ![0, 1] bcast_S1x128_S100000x128_0_1 : (⟨S1x128, .f32⟩ : BufTy).Contents (Elt F) → (⟨S100000x128, .f32⟩ : BufTy).Contents (Elt F)) (after ops_part3 W (Proc.devRef .tc main_v166)) :=
  rb_unary writes3 38 main_v166 main_v167 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v168 (W : Valuation τ sig (Elt F)) :
    after ops_part3 W (Proc.devRef .tc main_v168)
      = (subf : (⟨S100000x128, .f32⟩ : BufTy).Contents (Elt F) → (⟨S100000x128, .f32⟩ : BufTy).Contents (Elt F) → (⟨S100000x128, .f32⟩ : BufTy).Contents (Elt F)) (after ops_part3 W (Proc.devRef .tc main_v161)) (after ops_part3 W (Proc.devRef .tc main_v167)) :=
  rb_binary writes3 39 main_v161 main_v167 main_v168 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_cst_26 (W : Valuation τ sig (Elt F)) :
    after ops_part3 W (Proc.devRef .tc main_cst_26)
      = (constant S_ .f32 0x3727C5AC#32) :=
  rb_nullary writes3 40 main_cst_26 (constant S_ .f32 0x3727C5AC#32) _ rfl (by decide) W

theorem rb_main_v169 (W : Valuation τ sig (Elt F)) :
    after ops_part3 W (Proc.devRef .tc main_v169)
      = (broadcastInDim S128 ![] bcast_S_S128 : (⟨S_, .f32⟩ : BufTy).Contents (Elt F) → (⟨S128, .f32⟩ : BufTy).Contents (Elt F)) (after ops_part3 W (Proc.devRef .tc main_cst_26)) :=
  rb_unary writes3 41 main_cst_26 main_v169 (broadcastInDim S128 ![] bcast_S_S128 : (⟨S_, .f32⟩ : BufTy).Contents (Elt F) → (⟨S128, .f32⟩ : BufTy).Contents (Elt F)) _ _ rfl (by decide) (by decide) W

theorem rb_main_v170 (W : Valuation τ sig (Elt F)) :
    after ops_part3 W (Proc.devRef .tc main_v170)
      = (addf : (⟨S128, .f32⟩ : BufTy).Contents (Elt F) → (⟨S128, .f32⟩ : BufTy).Contents (Elt F) → (⟨S128, .f32⟩ : BufTy).Contents (Elt F)) (after ops_part3 W (Proc.devRef .tc main_v165)) (after ops_part3 W (Proc.devRef .tc main_v169)) :=
  rb_binary writes3 42 main_v165 main_v169 main_v170 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rb_main_v171 (W : Valuation τ sig (Elt F)) :
    after ops_part3 W (Proc.devRef .tc main_v171)
      = (Host.rsqrt : (⟨S128, .f32⟩ : BufTy).Contents (Elt F) → (⟨S128, .f32⟩ : BufTy).Contents (Elt F)) (after ops_part3 W (Proc.devRef .tc main_v170)) :=
  rb_unary writes3 43 main_v170 main_v171 (Host.rsqrt : (⟨S128, .f32⟩ : BufTy).Contents (Elt F) → (⟨S128, .f32⟩ : BufTy).Contents (Elt F)) _ _ rfl (by decide) (by decide) W

theorem rb_main_v172 (W : Valuation τ sig (Elt F)) :
    after ops_part3 W (Proc.devRef .tc main_v172)
      = (broadcastInDim S1x128 ![1] bcast_S128_S1x128_1 : (⟨S128, .f32⟩ : BufTy).Contents (Elt F) → (⟨S1x128, .f32⟩ : BufTy).Contents (Elt F)) (after ops_part3 W (Proc.devRef .tc main_v171)) :=
  rb_unary writes3 44 main_v171 main_v172 (broadcastInDim S1x128 ![1] bcast_S128_S1x128_1 : (⟨S128, .f32⟩ : BufTy).Contents (Elt F) → (⟨S1x128, .f32⟩ : BufTy).Contents (Elt F)) _ _ rfl (by decide) (by decide) W

theorem rb_main_v173 (W : Valuation τ sig (Elt F)) :
    after ops_part3 W (Proc.devRef .tc main_v173)
      = (broadcastInDim S100000x128 ![0, 1] bcast_S1x128_S100000x128_0_1 : (⟨S1x128, .f32⟩ : BufTy).Contents (Elt F) → (⟨S100000x128, .f32⟩ : BufTy).Contents (Elt F)) (after ops_part3 W (Proc.devRef .tc main_v172)) :=
  rb_unary writes3 45 main_v172 main_v173 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v174 (W : Valuation τ sig (Elt F)) :
    after ops_part3 W (Proc.devRef .tc main_v174)
      = (mulf : (⟨S100000x128, .f32⟩ : BufTy).Contents (Elt F) → (⟨S100000x128, .f32⟩ : BufTy).Contents (Elt F) → (⟨S100000x128, .f32⟩ : BufTy).Contents (Elt F)) (after ops_part3 W (Proc.devRef .tc main_v168)) (after ops_part3 W (Proc.devRef .tc main_v173)) :=
  rb_binary writes3 46 main_v168 main_v173 main_v174 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v175 (W : Valuation τ sig (Elt F)) :
    after ops_part3 W (Proc.devRef .tc main_v175)
      = (broadcastInDim S1x128 ![1] bcast_S128_S1x128_1 : (⟨S128, .f32⟩ : BufTy).Contents (Elt F) → (⟨S1x128, .f32⟩ : BufTy).Contents (Elt F)) (after ops_part3 W (Proc.devRef .tc main_arg9)) :=
  rb_unary writes3 47 main_arg9 main_v175 (broadcastInDim S1x128 ![1] bcast_S128_S1x128_1 : (⟨S128, .f32⟩ : BufTy).Contents (Elt F) → (⟨S1x128, .f32⟩ : BufTy).Contents (Elt F)) _ _ rfl (by decide) (by decide) W

theorem rb_main_v176 (W : Valuation τ sig (Elt F)) :
    after ops_part3 W (Proc.devRef .tc main_v176)
      = (broadcastInDim S100000x128 ![0, 1] bcast_S1x128_S100000x128_0_1 : (⟨S1x128, .f32⟩ : BufTy).Contents (Elt F) → (⟨S100000x128, .f32⟩ : BufTy).Contents (Elt F)) (after ops_part3 W (Proc.devRef .tc main_v175)) :=
  rb_unary writes3 48 main_v175 main_v176 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v177 (W : Valuation τ sig (Elt F)) :
    after ops_part3 W (Proc.devRef .tc main_v177)
      = (mulf : (⟨S100000x128, .f32⟩ : BufTy).Contents (Elt F) → (⟨S100000x128, .f32⟩ : BufTy).Contents (Elt F) → (⟨S100000x128, .f32⟩ : BufTy).Contents (Elt F)) (after ops_part3 W (Proc.devRef .tc main_v174)) (after ops_part3 W (Proc.devRef .tc main_v176)) :=
  rb_binary writes3 49 main_v174 main_v176 main_v177 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_v178 (W : Valuation τ sig (Elt F)) :
    after ops_part3 W (Proc.devRef .tc main_v178)
      = (broadcastInDim S1x128 ![1] bcast_S128_S1x128_1 : (⟨S128, .f32⟩ : BufTy).Contents (Elt F) → (⟨S1x128, .f32⟩ : BufTy).Contents (Elt F)) (after ops_part3 W (Proc.devRef .tc main_arg10)) :=
  rb_unary writes3 50 main_arg10 main_v178 (broadcastInDim S1x128 ![1] bcast_S128_S1x128_1 : (⟨S128, .f32⟩ : BufTy).Contents (Elt F) → (⟨S1x128, .f32⟩ : BufTy).Contents (Elt F)) _ _ rfl (by decide) (by decide) W

theorem rb_main_v179 (W : Valuation τ sig (Elt F)) :
    after ops_part3 W (Proc.devRef .tc main_v179)
      = (broadcastInDim S100000x128 ![0, 1] bcast_S1x128_S100000x128_0_1 : (⟨S1x128, .f32⟩ : BufTy).Contents (Elt F) → (⟨S100000x128, .f32⟩ : BufTy).Contents (Elt F)) (after ops_part3 W (Proc.devRef .tc main_v178)) :=
  rb_unary writes3 51 main_v178 main_v179 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rb_main_v180 (W : Valuation τ sig (Elt F)) :
    after ops_part3 W (Proc.devRef .tc main_v180)
      = (addf : (⟨S100000x128, .f32⟩ : BufTy).Contents (Elt F) → (⟨S100000x128, .f32⟩ : BufTy).Contents (Elt F) → (⟨S100000x128, .f32⟩ : BufTy).Contents (Elt F)) (after ops_part3 W (Proc.devRef .tc main_v177)) (after ops_part3 W (Proc.devRef .tc main_v179)) :=
  rb_binary writes3 52 main_v177 main_v179 main_v180 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rb_main_cst_27 (W : Valuation τ sig (Elt F)) :
    after ops_part3 W (Proc.devRef .tc main_cst_27)
      = (constant S_ .f32 0x3C23D70A#32) :=
  rb_nullary writes3 53 main_cst_27 (constant S_ .f32 0x3C23D70A#32) _ rfl (by decide) W

theorem rb_main_call7_cst (W : Valuation τ sig (Elt F)) :
    after ops_part3 W (Proc.devRef .tc main_call7_cst)
      = ((constant S_ .f32 0x00000000#32) : (⟨S_, .f32⟩ : BufTy).Contents (Elt F)) :=
  rb_tnullary writes3 54 main_call7.cst ((constant S_ .f32 0x00000000#32) : (⟨S_, .f32⟩ : BufTy).Contents (Elt F)) rfl (by decide) W

theorem rb_main_call7_v0 (W : Valuation τ sig (Elt F)) :
    after ops_part3 W (Proc.devRef .tc main_call7_v0)
      = ((broadcastInDim S100000x128 ![] bcast_S_S100000x128) : (⟨S_, .f32⟩ : BufTy).Contents (Elt F) → (⟨S100000x128, .f32⟩ : BufTy).Contents (Elt F)) (after ops_part3 W (Proc.devRef .tc main_call7_cst)) :=
  rb_tunary writes3 55 main_call7.cst main_call7.v0 ((broadcastInDim S100000x128 ![] bcast_S_S100000x128) : (⟨S_, .f32⟩ : BufTy).Contents (Elt F) → (⟨S100000x128, .f32⟩ : BufTy).Contents (Elt F)) rfl (by decide) (by decide) W

theorem rb_main_call7_v1 (W : Valuation τ sig (Elt F)) :
    after ops_part3 W (Proc.devRef .tc main_call7_v1)
      = ((cmpf .oge) : (⟨S100000x128, .f32⟩ : BufTy).Contents (Elt F) → (⟨S100000x128, .f32⟩ : BufTy).Contents (Elt F) → (⟨S100000x128, .i1⟩ : BufTy).Contents (Elt F)) (after ops_part3 W (Proc.devRef .tc main_v180)) (after ops_part3 W (Proc.devRef .tc main_call7_v0)) :=
  rb_tbinary writes3 56 (.of main_v180 : StableHlo.TRef sig ⟨S100000x128, .f32⟩) main_call7.v0 main_call7.v1 ((cmpf .oge) : (⟨S100000x128, .f32⟩ : BufTy).Contents (Elt F) → (⟨S100000x128, .f32⟩ : BufTy).Contents (Elt F) → (⟨S100000x128, .i1⟩ : BufTy).Contents (Elt F)) rfl (by decide) (by decide) (by decide) W

theorem rb_main_call7_v2 (W : Valuation τ sig (Elt F)) :
    after ops_part3 W (Proc.devRef .tc main_call7_v2)
      = (id : (⟨S_, .f32⟩ : BufTy).Contents (Elt F) → (⟨S_, .f32⟩ : BufTy).Contents (Elt F)) (after ops_part3 W (Proc.devRef .tc main_cst_27)) :=
  rb_tunary writes3 57 (.of main_cst_27 : StableHlo.TRef sig ⟨S_, .f32⟩) main_call7.v2 (id : (⟨S_, .f32⟩ : BufTy).Contents (Elt F) → (⟨S_, .f32⟩ : BufTy).Contents (Elt F)) rfl (by decide) (by decide) W

theorem rb_main_call7_v3 (W : Valuation τ sig (Elt F)) :
    after ops_part3 W (Proc.devRef .tc main_call7_v3)
      = ((broadcastInDim S100000x128 ![] bcast_S_S100000x128) : (⟨S_, .f32⟩ : BufTy).Contents (Elt F) → (⟨S100000x128, .f32⟩ : BufTy).Contents (Elt F)) (after ops_part3 W (Proc.devRef .tc main_call7_v2)) :=
  rb_tunary writes3 58 main_call7.v2 main_call7.v3 ((broadcastInDim S100000x128 ![] bcast_S_S100000x128) : (⟨S_, .f32⟩ : BufTy).Contents (Elt F) → (⟨S100000x128, .f32⟩ : BufTy).Contents (Elt F)) rfl (by decide) (by decide) W

theorem rb_main_call7_v4 (W : Valuation τ sig (Elt F)) :
    after ops_part3 W (Proc.devRef .tc main_call7_v4)
      = (mulf : (⟨S100000x128, .f32⟩ : BufTy).Contents (Elt F) → (⟨S100000x128, .f32⟩ : BufTy).Contents (Elt F) → (⟨S100000x128, .f32⟩ : BufTy).Contents (Elt F)) (after ops_part3 W (Proc.devRef .tc main_call7_v3)) (after ops_part3 W (Proc.devRef .tc main_v180)) :=
  rb_tbinary writes3 59 main_call7.v3 (.of main_v180 : StableHlo.TRef sig ⟨S100000x128, .f32⟩) main_call7.v4 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rb_main_v181 (W : Valuation τ sig (Elt F)) :
    after ops_part3 W (Proc.devRef .tc main_v181)
      = (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) (after ops_part3 W (Proc.devRef .tc main_call7_v1)) (after ops_part3 W (Proc.devRef .tc main_v180)) (after ops_part3 W (Proc.devRef .tc main_call7_v4)) :=
  rb_tternary writes3 60 main_call7.v1 (.of main_v180 : StableHlo.TRef sig ⟨S100000x128, .f32⟩) main_call7.v4 main_call7.call0.v0 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) rfl (by decide) (by decide) (by decide) (by decide) W

theorem rb_main_v182 (W : Valuation τ sig (Elt F)) :
    after ops_part3 W (Proc.devRef .tc main_v182)
      = ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) (after ops_part3 W (Proc.devRef .tc main_v181)) (after ops_part3 W (Proc.devRef .tc main_arg11)) :=
  rb_binary writes3 61 main_v181 main_arg11 main_v182 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) _ _ _ rfl (by decide) (by decide) (by decide) W

theorem rb_main_v183 (W : Valuation τ sig (Elt F)) :
    after ops_part3 W (Proc.devRef .tc main_v183)
      = (broadcastInDim S1x64 ![1] bcast_S64_S1x64_1 : (⟨S64, .f32⟩ : BufTy).Contents (Elt F) → (⟨S1x64, .f32⟩ : BufTy).Contents (Elt F)) (after ops_part3 W (Proc.devRef .tc main_arg12)) :=
  rb_unary writes3 62 main_arg12 main_v183 (broadcastInDim S1x64 ![1] bcast_S64_S1x64_1 : (⟨S64, .f32⟩ : BufTy).Contents (Elt F) → (⟨S1x64, .f32⟩ : BufTy).Contents (Elt F)) _ _ rfl (by decide) (by decide) W

theorem rb_main_v184 (W : Valuation τ sig (Elt F)) :
    after ops_part3 W (Proc.devRef .tc main_v184)
      = (broadcastInDim S100000x64 ![0, 1] bcast_S1x64_S100000x64_0_1 : (⟨S1x64, .f32⟩ : BufTy).Contents (Elt F) → (⟨S100000x64, .f32⟩ : BufTy).Contents (Elt F)) (after ops_part3 W (Proc.devRef .tc main_v183)) :=
  rb_unary writes3 63 main_v183 main_v184 (broadcastInDim S100000x64 ![0, 1] bcast_S1x64_S100000x64_0_1 : (⟨S1x64, .f32⟩ : BufTy).Contents (Elt F) → (⟨S100000x64, .f32⟩ : BufTy).Contents (Elt F)) _ _ rfl (by decide) (by decide) W

theorem rb_main_v185 (W : Valuation τ sig (Elt F)) :
    after ops_part3 W (Proc.devRef .tc main_v185)
      = (addf : (⟨S100000x64, .f32⟩ : BufTy).Contents (Elt F) → (⟨S100000x64, .f32⟩ : BufTy).Contents (Elt F) → (⟨S100000x64, .f32⟩ : BufTy).Contents (Elt F)) (after ops_part3 W (Proc.devRef .tc main_v182)) (after ops_part3 W (Proc.devRef .tc main_v184)) :=
  rb_binary writes3 64 main_v182 main_v184 main_v185 (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide) W

end Cert.ReferenceIdeal.SSA

end
-- ==== Proof.LibSSAJoin.lean ====
/-
  Two lines of host operations one after the other, each writing exactly its own list of references operation by
  operation, make a line that writes exactly the two lists one after the other.
-/
import proofs.«173273_j2259152798196_2_alg».proof.Proof.LibSSA

noncomputable section
namespace Cert.ReferenceIdeal.SSA
open Idealize.ShloMosaic Idealize.ShloMosaic.TcCoe Idealize.SL.Sem Idealize.ShloMosaic.StableHlo

variable {τ : Topo} {sig : RefSig} {Val : EltTy → Type}

theorem WritesOnly.append : ∀ {o₁ : List (HloOp τ sig Val)} {w₁ : List (Ref sig .tc)} {o₂ : List (HloOp τ sig Val)}
    {w₂ : List (Ref sig .tc)}, WritesOnly o₁ w₁ → WritesOnly o₂ w₂ → WritesOnly (o₁ ++ o₂) (w₁ ++ w₂)
  | [], [], _, _, _, h₂ => h₂
  | _ :: _, _ :: _, _, _, h₁, h₂ => ⟨h₁.1, WritesOnly.append h₁.2 h₂⟩
  | [], _ :: _, _, _, h₁, _ => h₁.elim
  | _ :: _, [], _, _, h₁, _ => h₁.elim

end Cert.ReferenceIdeal.SSA
end
-- ==== Proof.RefFull.lean ====
/- The whole line of the idealized reference's @main (its four windows one after the other), read back: for each of its
   312 host operations, the line's final contents at the reference the operation writes are the operation's function of
   the final contents at its operand references (every reference is written once, after its operands). -/
import proofs.«173273_j2259152798196_2_alg».proof.Proof.RefSSA0
import proofs.«173273_j2259152798196_2_alg».proof.Proof.RefSSA1
import proofs.«173273_j2259152798196_2_alg».proof.Proof.RefSSA2
import proofs.«173273_j2259152798196_2_alg».proof.Proof.RefSSA3
import proofs.«173273_j2259152798196_2_alg».proof.Proof.LibSSAJoin

noncomputable section

namespace Cert.ReferenceIdeal.SSA

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The references the whole line writes, in the order of its operations. -/
abbrev writtenAll : List (Ref sig .tc) :=
  written0 ++ (written1 ++ (written2 ++ (written3)))

/-- Operation by operation, the line writes exactly the listed reference. -/
theorem writesAll : WritesOnly (ops (F := F)) writtenAll :=
  WritesOnly.append writes0 (WritesOnly.append writes1 (WritesOnly.append writes2 writes3))

theorem rbf_main_v0 (W : Valuation τ sig (Elt F)) :
    after ops W (Proc.devRef .tc main_v0)
      = ((extractStridedSlice S1x1600000 ![0, 0] · slices_S2x1600000_S1x1600000_0_0) : (⟨S2x1600000, .i32⟩ : BufTy).Contents (Elt F) → (⟨S1x1600000, .i32⟩ : BufTy).Contents (Elt F)) (after ops W (Proc.devRef .tc main_arg1)) :=
  rb_unary writesAll 0 main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)) _ _ rfl (by decide) (by decide) W

theorem rbf_main_v1 (W : Valuation τ sig (Elt F)) :
    after ops W (Proc.devRef .tc main_v1)
      = shapeCast S1600000 (after ops W (Proc.devRef .tc main_v0)) shapeCasts_S1x1600000_S1600000 :=
  (rb_reshape writesAll 1 main_v0 main_v1 rfl shapeCasts_S1x1600000_S1600000 _ _ rfl (by decide) (by decide) W).trans rfl

theorem rbf_main_v2 (W : Valuation τ sig (Elt F)) :
    after ops W (Proc.devRef .tc main_v2)
      = ((extractStridedSlice S1x1600000 ![1, 0] · slices_S2x1600000_S1x1600000_1_0) : (⟨S2x1600000, .i32⟩ : BufTy).Contents (Elt F) → (⟨S1x1600000, .i32⟩ : BufTy).Contents (Elt F)) (after ops W (Proc.devRef .tc main_arg1)) :=
  rb_unary writesAll 2 main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)) _ _ rfl (by decide) (by decide) W

theorem rbf_main_v3 (W : Valuation τ sig (Elt F)) :
    after ops W (Proc.devRef .tc main_v3)
      = shapeCast S1600000 (after ops W (Proc.devRef .tc main_v2)) shapeCasts_S1x1600000_S1600000 :=
  (rb_reshape writesAll 3 main_v2 main_v3 rfl shapeCasts_S1x1600000_S1600000 _ _ rfl (by decide) (by decide) W).trans rfl

theorem rbf_main_cst (W : Valuation τ sig (Elt F)) :
    after ops W (Proc.devRef .tc main_cst)
      = (constant S_ .f32 0x3F800000#32) :=
  rb_nullary writesAll 4 main_cst (constant S_ .f32 0x3F800000#32) _ rfl (by decide) W

theorem rbf_main_v4 (W : Valuation τ sig (Elt F)) :
    after ops W (Proc.devRef .tc main_v4)
      = (broadcastInDim S1600000 ![] bcast_S_S1600000 : (⟨S_, .f32⟩ : BufTy).Contents (Elt F) → (⟨S1600000, .f32⟩ : BufTy).Contents (Elt F)) (after ops W (Proc.devRef .tc main_cst)) :=
  rb_unary writesAll 5 main_cst main_v4 (broadcastInDim S1600000 ![] bcast_S_S1600000 : (⟨S_, .f32⟩ : BufTy).Contents (Elt F) → (⟨S1600000, .f32⟩ : BufTy).Contents (Elt F)) _ _ rfl (by decide) (by decide) W

theorem rbf_main_cst_0 (W : Valuation τ sig (Elt F)) :
    after ops W (Proc.devRef .tc main_cst_0)
      = (constant S_ .f32 0x00000000#32) :=
  rb_nullary writesAll 6 main_cst_0 (constant S_ .f32 0x00000000#32) _ rfl (by decide) W

theorem rbf_main_v5 (W : Valuation τ sig (Elt F)) :
    after ops W (Proc.devRef .tc main_v5)
      = (broadcastInDim S100000 ![] bcast_S_S100000 : (⟨S_, .f32⟩ : BufTy).Contents (Elt F) → (⟨S100000, .f32⟩ : BufTy).Contents (Elt F)) (after ops W (Proc.devRef .tc main_cst_0)) :=
  rb_unary writesAll 7 main_cst_0 main_v5 (broadcastInDim S100000 ![] bcast_S_S100000 : (⟨S_, .f32⟩ : BufTy).Contents (Elt F) → (⟨S100000, .f32⟩ : BufTy).Contents (Elt F)) _ _ rfl (by decide) (by decide) W

theorem rbf_main_v6 (W : Valuation τ sig (Elt F)) :
    after ops W (Proc.devRef .tc main_v6)
      = (broadcastInDim S1600000x1 ![0] bcast_S1600000_S1600000x1_0 : (⟨S1600000, .i32⟩ : BufTy).Contents (Elt F) → (⟨S1600000x1, .i32⟩ : BufTy).Contents (Elt F)) (after ops W (Proc.devRef .tc main_v3)) :=
  rb_unary writesAll 8 main_v3 main_v6 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rbf_main_v7 (W : Valuation τ sig (Elt F)) :
    after ops W (Proc.devRef .tc main_v7)
      = ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (after ops W (Proc.devRef .tc main_v5)) (after ops W (Proc.devRef .tc main_v6)) (after ops W (Proc.devRef .tc main_v4)) :=
  rb_ternary writesAll 9 main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) _ _ _ _ rfl (by decide) (by decide) (by decide) (by decide) W

theorem rbf_main_cst_1 (W : Valuation τ sig (Elt F)) :
    after ops W (Proc.devRef .tc main_cst_1)
      = (constant S_ .f32 0x3F800000#32) :=
  rb_nullary writesAll 10 main_cst_1 (constant S_ .f32 0x3F800000#32) _ rfl (by decide) W

theorem rbf_main_v8 (W : Valuation τ sig (Elt F)) :
    after ops W (Proc.devRef .tc main_v8)
      = (broadcastInDim S100000 ![] bcast_S_S100000 : (⟨S_, .f32⟩ : BufTy).Contents (Elt F) → (⟨S100000, .f32⟩ : BufTy).Contents (Elt F)) (after ops W (Proc.devRef .tc main_cst_1)) :=
  rb_unary writesAll 11 main_cst_1 main_v8 (broadcastInDim S100000 ![] bcast_S_S100000 : (⟨S_, .f32⟩ : BufTy).Contents (Elt F) → (⟨S100000, .f32⟩ : BufTy).Contents (Elt F)) _ _ rfl (by decide) (by decide) W

theorem rbf_main_v9 (W : Valuation τ sig (Elt F)) :
    after ops W (Proc.devRef .tc main_v9)
      = (maximumf : (⟨S100000, .f32⟩ : BufTy).Contents (Elt F) → (⟨S100000, .f32⟩ : BufTy).Contents (Elt F) → (⟨S100000, .f32⟩ : BufTy).Contents (Elt F)) (after ops W (Proc.devRef .tc main_v7)) (after ops W (Proc.devRef .tc main_v8)) :=
  rb_binary writesAll 12 main_v7 main_v8 main_v9 (maximumf : (⟨S100000, .f32⟩ : BufTy).Contents (Elt F) → (⟨S100000, .f32⟩ : BufTy).Contents (Elt F) → (⟨S100000, .f32⟩ : BufTy).Contents (Elt F)) _ _ _ rfl (by decide) (by decide) (by decide) W

theorem rbf_main_cst_2 (W : Valuation τ sig (Elt F)) :
    after ops W (Proc.devRef .tc main_cst_2)
      = (constant S_ .f32 0x3F800000#32) :=
  rb_nullary writesAll 13 main_cst_2 (constant S_ .f32 0x3F800000#32) _ rfl (by decide) W

theorem rbf_main_v10 (W : Valuation τ sig (Elt F)) :
    after ops W (Proc.devRef .tc main_v10)
      = (broadcastInDim S100000 ![] bcast_S_S100000 : (⟨S_, .f32⟩ : BufTy).Contents (Elt F) → (⟨S100000, .f32⟩ : BufTy).Contents (Elt F)) (after ops W (Proc.devRef .tc main_cst_2)) :=
  rb_unary writesAll 14 main_cst_2 main_v10 (broadcastInDim S100000 ![] bcast_S_S100000 : (⟨S_, .f32⟩ : BufTy).Contents (Elt F) → (⟨S100000, .f32⟩ : BufTy).Contents (Elt F)) _ _ rfl (by decide) (by decide) W

theorem rbf_main_v11 (W : Valuation τ sig (Elt F)) :
    after ops W (Proc.devRef .tc main_v11)
      = (Host.divf : (⟨S100000, .f32⟩ : BufTy).Contents (Elt F) → (⟨S100000, .f32⟩ : BufTy).Contents (Elt F) → (⟨S100000, .f32⟩ : BufTy).Contents (Elt F)) (after ops W (Proc.devRef .tc main_v10)) (after ops W (Proc.devRef .tc main_v9)) :=
  rb_binary writesAll 15 main_v10 main_v9 main_v11 (Host.divf : (⟨S100000, .f32⟩ : BufTy).Contents (Elt F) → (⟨S100000, .f32⟩ : BufTy).Contents (Elt F) → (⟨S100000, .f32⟩ : BufTy).Contents (Elt F)) _ _ _ rfl (by decide) (by decide) (by decide) W

theorem rbf_main_v12 (W : Valuation τ sig (Elt F)) :
    after ops W (Proc.devRef .tc main_v12)
      = (broadcastInDim S100000x1 ![0] bcast_S100000_S100000x1_0 : (⟨S100000, .f32⟩ : BufTy).Contents (Elt F) → (⟨S100000x1, .f32⟩ : BufTy).Contents (Elt F)) (after ops W (Proc.devRef .tc main_v11)) :=
  rb_unary writesAll 16 main_v11 main_v12 (broadcastInDim S100000x1 ![0] bcast_S100000_S100000x1_0 : (⟨S100000, .f32⟩ : BufTy).Contents (Elt F) → (⟨S100000x1, .f32⟩ : BufTy).Contents (Elt F)) _ _ rfl (by decide) (by decide) W

theorem rbf_main_c (W : Valuation τ sig (Elt F)) :
    after ops W (Proc.devRef .tc main_c)
      = (constantI S_ 32 0#32) :=
  rb_nullary writesAll 17 main_c (constantI S_ 32 0#32) _ rfl (by decide) W

theorem rbf_main_v13 (W : Valuation τ sig (Elt F)) :
    after ops W (Proc.devRef .tc main_v13)
      = (broadcastInDim S1600000 ![] bcast_S_S1600000 : (⟨S_, .i32⟩ : BufTy).Contents (Elt F) → (⟨S1600000, .i32⟩ : BufTy).Contents (Elt F)) (after ops W (Proc.devRef .tc main_c)) :=
  rb_unary writesAll 18 main_c main_v13 (broadcastInDim S1600000 ![] bcast_S_S1600000 : (⟨S_, .i32⟩ : BufTy).Contents (Elt F) → (⟨S1600000, .i32⟩ : BufTy).Contents (Elt F)) _ _ rfl (by decide) (by decide) W

theorem rbf_main_v14 (W : Valuation τ sig (Elt F)) :
    after ops W (Proc.devRef .tc main_v14)
      = (cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) (after ops W (Proc.devRef .tc main_v13)) :=
  rb_binary writesAll 19 main_v1 main_v13 main_v14 (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide) W

theorem rbf_main_c_3 (W : Valuation τ sig (Elt F)) :
    after ops W (Proc.devRef .tc main_c_3)
      = (constantI S_ 32 100000#32) :=
  rb_nullary writesAll 20 main_c_3 (constantI S_ 32 100000#32) _ rfl (by decide) W

theorem rbf_main_v15 (W : Valuation τ sig (Elt F)) :
    after ops W (Proc.devRef .tc main_v15)
      = (broadcastInDim S1600000 ![] bcast_S_S1600000 : (⟨S_, .i32⟩ : BufTy).Contents (Elt F) → (⟨S1600000, .i32⟩ : BufTy).Contents (Elt F)) (after ops W (Proc.devRef .tc main_c_3)) :=
  rb_unary writesAll 21 main_c_3 main_v15 (broadcastInDim S1600000 ![] bcast_S_S1600000 : (⟨S_, .i32⟩ : BufTy).Contents (Elt F) → (⟨S1600000, .i32⟩ : BufTy).Contents (Elt F)) _ _ rfl (by decide) (by decide) W

theorem rbf_main_v16 (W : Valuation τ sig (Elt F)) :
    after ops W (Proc.devRef .tc main_v16)
      = (addi : (⟨S1600000, .i32⟩ : BufTy).Contents (Elt F) → (⟨S1600000, .i32⟩ : BufTy).Contents (Elt F) → (⟨S1600000, .i32⟩ : BufTy).Contents (Elt F)) (after ops W (Proc.devRef .tc main_v1)) (after ops W (Proc.devRef .tc main_v15)) :=
  rb_binary writesAll 22 main_v1 main_v15 main_v16 (addi : (⟨S1600000, .i32⟩ : BufTy).Contents (Elt F) → (⟨S1600000, .i32⟩ : BufTy).Contents (Elt F) → (⟨S1600000, .i32⟩ : BufTy).Contents (Elt F)) _ _ _ rfl (by decide) (by decide) (by decide) W

theorem rbf_main_v17 (W : Valuation τ sig (Elt F)) :
    after ops W (Proc.devRef .tc main_v17)
      = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops W (Proc.devRef .tc main_v14)) (after ops W (Proc.devRef .tc main_v16)) (after ops W (Proc.devRef .tc main_v1)) :=
  rb_ternary writesAll 23 main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide) W

theorem rbf_main_v18 (W : Valuation τ sig (Elt F)) :
    after ops W (Proc.devRef .tc main_v18)
      = (broadcastInDim S1600000x1 ![0] bcast_S1600000_S1600000x1_0 : (⟨S1600000, .i32⟩ : BufTy).Contents (Elt F) → (⟨S1600000x1, .i32⟩ : BufTy).Contents (Elt F)) (after ops W (Proc.devRef .tc main_v17)) :=
  rb_unary writesAll 24 main_v17 main_v18 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rbf_main_v19 (W : Valuation τ sig (Elt F)) :
    after ops W (Proc.devRef .tc main_v19)
      = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops W (Proc.devRef .tc main_arg0)) (after ops W (Proc.devRef .tc main_v18)) :=
  rb_binary writesAll 25 main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (by decide) (by decide) (by decide) W

theorem rbf_main_cst_4 (W : Valuation τ sig (Elt F)) :
    after ops W (Proc.devRef .tc main_cst_4)
      = (constant S_ .f32 0x00000000#32) :=
  rb_nullary writesAll 26 main_cst_4 (constant S_ .f32 0x00000000#32) _ rfl (by decide) W

theorem rbf_main_v20 (W : Valuation τ sig (Elt F)) :
    after ops W (Proc.devRef .tc main_v20)
      = (broadcastInDim S100000x128 ![] bcast_S_S100000x128 : (⟨S_, .f32⟩ : BufTy).Contents (Elt F) → (⟨S100000x128, .f32⟩ : BufTy).Contents (Elt F)) (after ops W (Proc.devRef .tc main_cst_4)) :=
  rb_unary writesAll 27 main_cst_4 main_v20 (broadcastInDim S100000x128 ![] bcast_S_S100000x128 : (⟨S_, .f32⟩ : BufTy).Contents (Elt F) → (⟨S100000x128, .f32⟩ : BufTy).Contents (Elt F)) _ _ rfl (by decide) (by decide) W

theorem rbf_main_v21 (W : Valuation τ sig (Elt F)) :
    after ops W (Proc.devRef .tc main_v21)
      = (broadcastInDim S1600000x1 ![0] bcast_S1600000_S1600000x1_0 : (⟨S1600000, .i32⟩ : BufTy).Contents (Elt F) → (⟨S1600000x1, .i32⟩ : BufTy).Contents (Elt F)) (after ops W (Proc.devRef .tc main_v3)) :=
  rb_unary writesAll 28 main_v3 main_v21 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rbf_main_v22 (W : Valuation τ sig (Elt F)) :
    after ops W (Proc.devRef .tc main_v22)
      = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops W (Proc.devRef .tc main_v20)) (after ops W (Proc.devRef .tc main_v21)) (after ops W (Proc.devRef .tc main_v19)) :=
  rb_ternary writesAll 29 main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (by decide) (by decide) (by decide) (by decide) W

theorem rbf_main_v23 (W : Valuation τ sig (Elt F)) :
    after ops W (Proc.devRef .tc main_v23)
      = (broadcastInDim S100000x128 ![0, 1] bcast_S100000x1_S100000x128_0_1 : (⟨S100000x1, .f32⟩ : BufTy).Contents (Elt F) → (⟨S100000x128, .f32⟩ : BufTy).Contents (Elt F)) (after ops W (Proc.devRef .tc main_v12)) :=
  rb_unary writesAll 30 main_v12 main_v23 (broadcastInDim S100000x128 ![0, 1] bcast_S100000x1_S100000x128_0_1 : (⟨S100000x1, .f32⟩ : BufTy).Contents (Elt F) → (⟨S100000x128, .f32⟩ : BufTy).Contents (Elt F)) _ _ rfl (by decide) (by decide) W

theorem rbf_main_v24 (W : Valuation τ sig (Elt F)) :
    after ops W (Proc.devRef .tc main_v24)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v22)) (after ops W (Proc.devRef .tc main_v23)) :=
  rb_binary writesAll 31 main_v22 main_v23 main_v24 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v25 (W : Valuation τ sig (Elt F)) :
    after ops W (Proc.devRef .tc main_v25)
      = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops W (Proc.devRef .tc main_arg2)) :=
  rb_unary writesAll 32 main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)) _ _ rfl (by decide) (by decide) W

theorem rbf_main_v26 (W : Valuation τ sig (Elt F)) :
    after ops W (Proc.devRef .tc main_v26)
      = shapeCast S128x128 (after ops W (Proc.devRef .tc main_v25)) shapeCasts_S1x128x128_S128x128 :=
  (rb_reshape writesAll 33 main_v25 main_v26 rfl shapeCasts_S1x128x128_S128x128 _ _ rfl (by decide) (by decide) W).trans rfl

theorem rbf_main_v27 (W : Valuation τ sig (Elt F)) :
    after ops W (Proc.devRef .tc main_v27)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops W (Proc.devRef .tc main_v24)) (after ops W (Proc.devRef .tc main_v26)) :=
  rb_binary writesAll 34 main_v24 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rbf_main_v28 (W : Valuation τ sig (Elt F)) :
    after ops W (Proc.devRef .tc main_v28)
      = ((extractStridedSlice S1x128 ![0, 0] · slices_S3x128_S1x128_0_0) : (⟨S3x128, .f32⟩ : BufTy).Contents (Elt F) → (⟨S1x128, .f32⟩ : BufTy).Contents (Elt F)) (after ops W (Proc.devRef .tc main_arg3)) :=
  rb_unary writesAll 35 main_arg3 main_v28 ((extractStridedSlice S1x128 ![0, 0] · slices_S3x128_S1x128_0_0) : (⟨S3x128, .f32⟩ : BufTy).Contents (Elt F) → (⟨S1x128, .f32⟩ : BufTy).Contents (Elt F)) _ _ rfl (by decide) (by decide) W

theorem rbf_main_v29 (W : Valuation τ sig (Elt F)) :
    after ops W (Proc.devRef .tc main_v29)
      = shapeCast S128 (after ops W (Proc.devRef .tc main_v28)) shapeCasts_S1x128_S128 :=
  (rb_reshape writesAll 36 main_v28 main_v29 rfl shapeCasts_S1x128_S128 _ _ rfl (by decide) (by decide) W).trans rfl

theorem rbf_main_v30 (W : Valuation τ sig (Elt F)) :
    after ops W (Proc.devRef .tc main_v30)
      = (broadcastInDim S1x128 ![1] bcast_S128_S1x128_1 : (⟨S128, .f32⟩ : BufTy).Contents (Elt F) → (⟨S1x128, .f32⟩ : BufTy).Contents (Elt F)) (after ops W (Proc.devRef .tc main_v29)) :=
  rb_unary writesAll 37 main_v29 main_v30 (broadcastInDim S1x128 ![1] bcast_S128_S1x128_1 : (⟨S128, .f32⟩ : BufTy).Contents (Elt F) → (⟨S1x128, .f32⟩ : BufTy).Contents (Elt F)) _ _ rfl (by decide) (by decide) W

theorem rbf_main_v31 (W : Valuation τ sig (Elt F)) :
    after ops W (Proc.devRef .tc main_v31)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v30)) :=
  rb_unary writesAll 38 main_v30 main_v31 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v32 (W : Valuation τ sig (Elt F)) :
    after ops W (Proc.devRef .tc main_v32)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v27)) (after ops W (Proc.devRef .tc main_v31)) :=
  rb_binary writesAll 39 main_v27 main_v31 main_v32 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v33 (W : Valuation τ sig (Elt F)) :
    after ops W (Proc.devRef .tc main_v33)
      = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops W (Proc.devRef .tc main_arg4)) :=
  rb_unary writesAll 40 main_arg4 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)) _ _ rfl (by decide) (by decide) W

theorem rbf_main_v34 (W : Valuation τ sig (Elt F)) :
    after ops W (Proc.devRef .tc main_v34)
      = shapeCast S128x128 (after ops W (Proc.devRef .tc main_v33)) shapeCasts_S1x128x128_S128x128 :=
  (rb_reshape writesAll 41 main_v33 main_v34 rfl shapeCasts_S1x128x128_S128x128 _ _ rfl (by decide) (by decide) W).trans rfl

theorem rbf_main_v35 (W : Valuation τ sig (Elt F)) :
    after ops W (Proc.devRef .tc main_v35)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops W (Proc.devRef .tc main_arg0)) (after ops W (Proc.devRef .tc main_v34)) :=
  rb_binary writesAll 42 main_arg0 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rbf_main_v36 (W : Valuation τ sig (Elt F)) :
    after ops W (Proc.devRef .tc main_v36)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v32)) (after ops W (Proc.devRef .tc main_v35)) :=
  rb_binary writesAll 43 main_v32 main_v35 main_v36 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v37 (W : Valuation τ sig (Elt F)) :
    after ops W (Proc.devRef .tc main_v37)
      = ((extractStridedSlice S1x128 ![0, 0] · slices_S3x128_S1x128_0_0) : (⟨S3x128, .f32⟩ : BufTy).Contents (Elt F) → (⟨S1x128, .f32⟩ : BufTy).Contents (Elt F)) (after ops W (Proc.devRef .tc main_arg5)) :=
  rb_unary writesAll 44 main_arg5 main_v37 ((extractStridedSlice S1x128 ![0, 0] · slices_S3x128_S1x128_0_0) : (⟨S3x128, .f32⟩ : BufTy).Contents (Elt F) → (⟨S1x128, .f32⟩ : BufTy).Contents (Elt F)) _ _ rfl (by decide) (by decide) W

theorem rbf_main_v38 (W : Valuation τ sig (Elt F)) :
    after ops W (Proc.devRef .tc main_v38)
      = shapeCast S128 (after ops W (Proc.devRef .tc main_v37)) shapeCasts_S1x128_S128 :=
  (rb_reshape writesAll 45 main_v37 main_v38 rfl shapeCasts_S1x128_S128 _ _ rfl (by decide) (by decide) W).trans rfl

theorem rbf_main_v39 (W : Valuation τ sig (Elt F)) :
    after ops W (Proc.devRef .tc main_v39)
      = ((extractStridedSlice S1x128 ![0, 0] · slices_S3x128_S1x128_0_0) : (⟨S3x128, .f32⟩ : BufTy).Contents (Elt F) → (⟨S1x128, .f32⟩ : BufTy).Contents (Elt F)) (after ops W (Proc.devRef .tc main_arg6)) :=
  rb_unary writesAll 46 main_arg6 main_v39 ((extractStridedSlice S1x128 ![0, 0] · slices_S3x128_S1x128_0_0) : (⟨S3x128, .f32⟩ : BufTy).Contents (Elt F) → (⟨S1x128, .f32⟩ : BufTy).Contents (Elt F)) _ _ rfl (by decide) (by decide) W

theorem rbf_main_v40 (W : Valuation τ sig (Elt F)) :
    after ops W (Proc.devRef .tc main_v40)
      = shapeCast S128 (after ops W (Proc.devRef .tc main_v39)) shapeCasts_S1x128_S128 :=
  (rb_reshape writesAll 47 main_v39 main_v40 rfl shapeCasts_S1x128_S128 _ _ rfl (by decide) (by decide) W).trans rfl

theorem rbf_main_cst_5 (W : Valuation τ sig (Elt F)) :
    after ops W (Proc.devRef .tc main_cst_5)
      = (constant S_ .f32 0x00000000#32) :=
  rb_nullary writesAll 48 main_cst_5 (constant S_ .f32 0x00000000#32) _ rfl (by decide) W

theorem rbf_main_v41 (W : Valuation τ sig (Elt F)) :
    after ops W (Proc.devRef .tc main_v41)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v36)) (after ops W (Proc.devRef .tc main_cst_5)) :=
  rb_binary writesAll 49 main_v36 main_cst_5 main_v41 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rbf_main_cst_6 (W : Valuation τ sig (Elt F)) :
    after ops W (Proc.devRef .tc main_cst_6)
      = (constant S_ .f32 0x47C35000#32) :=
  rb_nullary writesAll 50 main_cst_6 (constant S_ .f32 0x47C35000#32) _ rfl (by decide) W

theorem rbf_main_v42 (W : Valuation τ sig (Elt F)) :
    after ops W (Proc.devRef .tc main_v42)
      = (broadcastInDim S128 ![] bcast_S_S128 : (⟨S_, .f32⟩ : BufTy).Contents (Elt F) → (⟨S128, .f32⟩ : BufTy).Contents (Elt F)) (after ops W (Proc.devRef .tc main_cst_6)) :=
  rb_unary writesAll 51 main_cst_6 main_v42 (broadcastInDim S128 ![] bcast_S_S128 : (⟨S_, .f32⟩ : BufTy).Contents (Elt F) → (⟨S128, .f32⟩ : BufTy).Contents (Elt F)) _ _ rfl (by decide) (by decide) W

theorem rbf_main_v43 (W : Valuation τ sig (Elt F)) :
    after ops W (Proc.devRef .tc main_v43)
      = (Host.divf : (⟨S128, .f32⟩ : BufTy).Contents (Elt F) → (⟨S128, .f32⟩ : BufTy).Contents (Elt F) → (⟨S128, .f32⟩ : BufTy).Contents (Elt F)) (after ops W (Proc.devRef .tc main_v41)) (after ops W (Proc.devRef .tc main_v42)) :=
  rb_binary writesAll 52 main_v41 main_v42 main_v43 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_c_7 (W : Valuation τ sig (Elt F)) :
    after ops W (Proc.devRef .tc main_c_7)
      = (constantI S_ 32 0#32) :=
  rb_nullary writesAll 53 main_c_7 (constantI S_ 32 0#32) _ rfl (by decide) W

theorem rbf_main_call0_cst (W : Valuation τ sig (Elt F)) :
    after ops W (Proc.devRef .tc main_call0_cst)
      = ((constant S_ .f32 0x00000000#32) : (⟨S_, .f32⟩ : BufTy).Contents (Elt F)) :=
  rb_tnullary writesAll 54 main_call0.cst ((constant S_ .f32 0x00000000#32) : (⟨S_, .f32⟩ : BufTy).Contents (Elt F)) rfl (by decide) W

theorem rbf_main_call0_v0 (W : Valuation τ sig (Elt F)) :
    after ops W (Proc.devRef .tc main_call0_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v36)) (after ops W (Proc.devRef .tc main_call0_cst)) :=
  rb_tbinary writesAll 55 (.of main_v36 : StableHlo.TRef sig ⟨S100000x128, .f32⟩) main_call0.cst main_call0.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call0_v1 (W : Valuation τ sig (Elt F)) :
    after ops W (Proc.devRef .tc main_call0_v1)
      = ((broadcastInDim S1x128 ![1] bcast_S128_S1x128_1) : (⟨S128, .f32⟩ : BufTy).Contents (Elt F) → (⟨S1x128, .f32⟩ : BufTy).Contents (Elt F)) (after ops W (Proc.devRef .tc main_call0_v0)) :=
  rb_tunary writesAll 56 main_call0.v0 main_call0.v1 ((broadcastInDim S1x128 ![1] bcast_S128_S1x128_1) : (⟨S128, .f32⟩ : BufTy).Contents (Elt F) → (⟨S1x128, .f32⟩ : BufTy).Contents (Elt F)) rfl (by decide) (by decide) W

theorem rbf_main_call0_cst_0 (W : Valuation τ sig (Elt F)) :
    after ops W (Proc.devRef .tc main_call0_cst_0)
      = ((constant S_ .f32 0x47C35000#32) : (⟨S_, .f32⟩ : BufTy).Contents (Elt F)) :=
  rb_tnullary writesAll 57 main_call0.cst_0 ((constant S_ .f32 0x47C35000#32) : (⟨S_, .f32⟩ : BufTy).Contents (Elt F)) rfl (by decide) W

theorem rbf_main_call0_v2 (W : Valuation τ sig (Elt F)) :
    after ops W (Proc.devRef .tc main_call0_v2)
      = ((broadcastInDim S1x128 ![] bcast_S_S1x128) : (⟨S_, .f32⟩ : BufTy).Contents (Elt F) → (⟨S1x128, .f32⟩ : BufTy).Contents (Elt F)) (after ops W (Proc.devRef .tc main_call0_cst_0)) :=
  rb_tunary writesAll 58 main_call0.cst_0 main_call0.v2 ((broadcastInDim S1x128 ![] bcast_S_S1x128) : (⟨S_, .f32⟩ : BufTy).Contents (Elt F) → (⟨S1x128, .f32⟩ : BufTy).Contents (Elt F)) rfl (by decide) (by decide) W

theorem rbf_main_call0_v3 (W : Valuation τ sig (Elt F)) :
    after ops W (Proc.devRef .tc main_call0_v3)
      = (Host.divf : (⟨S1x128, .f32⟩ : BufTy).Contents (Elt F) → (⟨S1x128, .f32⟩ : BufTy).Contents (Elt F) → (⟨S1x128, .f32⟩ : BufTy).Contents (Elt F)) (after ops W (Proc.devRef .tc main_call0_v1)) (after ops W (Proc.devRef .tc main_call0_v2)) :=
  rb_tbinary writesAll 59 main_call0.v1 main_call0.v2 main_call0.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rbf_main_call0_v4 (W : Valuation τ sig (Elt F)) :
    after ops W (Proc.devRef .tc main_call0_v4)
      = ((broadcastInDim S100000x128 ![0, 1] bcast_S1x128_S100000x128_0_1) : (⟨S1x128, .f32⟩ : BufTy).Contents (Elt F) → (⟨S100000x128, .f32⟩ : BufTy).Contents (Elt F)) (after ops W (Proc.devRef .tc main_call0_v3)) :=
  rb_tunary writesAll 60 main_call0.v3 main_call0.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rbf_main_call0_v5 (W : Valuation τ sig (Elt F)) :
    after ops W (Proc.devRef .tc main_call0_v5)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v36)) (after ops W (Proc.devRef .tc main_call0_v4)) :=
  rb_tbinary writesAll 61 (.of main_v36 : StableHlo.TRef sig ⟨S100000x128, .f32⟩) main_call0.v4 main_call0.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call0_v6 (W : Valuation τ sig (Elt F)) :
    after ops W (Proc.devRef .tc main_call0_v6)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_call0_v5)) (after ops W (Proc.devRef .tc main_call0_v5)) :=
  rb_tbinary writesAll 62 main_call0.v5 main_call0.v5 main_call0.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call0_v7 (W : Valuation τ sig (Elt F)) :
    after ops W (Proc.devRef .tc main_call0_v7)
      = ((sitofp .f32) : (⟨S_, .i32⟩ : BufTy).Contents (Elt F) → (⟨S_, .f32⟩ : BufTy).Contents (Elt F)) (after ops W (Proc.devRef .tc main_c_7)) :=
  rb_tunary writesAll 63 (.of main_c_7 : StableHlo.TRef sig ⟨S_, .i32⟩) main_call0.v7 ((sitofp .f32) : (⟨S_, .i32⟩ : BufTy).Contents (Elt F) → (⟨S_, .f32⟩ : BufTy).Contents (Elt F)) rfl (by decide) (by decide) W

theorem rbf_main_call0_cst_1 (W : Valuation τ sig (Elt F)) :
    after ops W (Proc.devRef .tc main_call0_cst_1)
      = ((constant S_ .f32 0x47C35000#32) : (⟨S_, .f32⟩ : BufTy).Contents (Elt F)) :=
  rb_tnullary writesAll 64 main_call0.cst_1 ((constant S_ .f32 0x47C35000#32) : (⟨S_, .f32⟩ : BufTy).Contents (Elt F)) rfl (by decide) W

theorem rbf_main_call0_v8 (W : Valuation τ sig (Elt F)) :
    after ops W (Proc.devRef .tc main_call0_v8)
      = (subf : (⟨S_, .f32⟩ : BufTy).Contents (Elt F) → (⟨S_, .f32⟩ : BufTy).Contents (Elt F) → (⟨S_, .f32⟩ : BufTy).Contents (Elt F)) (after ops W (Proc.devRef .tc main_call0_cst_1)) (after ops W (Proc.devRef .tc main_call0_v7)) :=
  rb_tbinary writesAll 65 main_call0.cst_1 main_call0.v7 main_call0.v8 (subf : (⟨S_, .f32⟩ : BufTy).Contents (Elt F) → (⟨S_, .f32⟩ : BufTy).Contents (Elt F) → (⟨S_, .f32⟩ : BufTy).Contents (Elt F)) rfl (by decide) (by decide) (by decide) W

theorem rbf_main_call0_cst_2 (W : Valuation τ sig (Elt F)) :
    after ops W (Proc.devRef .tc main_call0_cst_2)
      = ((constant S_ .f32 0x00000000#32) : (⟨S_, .f32⟩ : BufTy).Contents (Elt F)) :=
  rb_tnullary writesAll 66 main_call0.cst_2 ((constant S_ .f32 0x00000000#32) : (⟨S_, .f32⟩ : BufTy).Contents (Elt F)) rfl (by decide) W

theorem rbf_main_call0_v9 (W : Valuation τ sig (Elt F)) :
    after ops W (Proc.devRef .tc main_call0_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_call0_v6)) (after ops W (Proc.devRef .tc main_call0_cst_2)) :=
  rb_tbinary writesAll 67 main_call0.v6 main_call0.cst_2 main_call0.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call0_v10 (W : Valuation τ sig (Elt F)) :
    after ops W (Proc.devRef .tc main_call0_v10)
      = ((broadcastInDim S128 ![] bcast_S_S128) : (⟨S_, .f32⟩ : BufTy).Contents (Elt F) → (⟨S128, .f32⟩ : BufTy).Contents (Elt F)) (after ops W (Proc.devRef .tc main_call0_v8)) :=
  rb_tunary writesAll 68 main_call0.v8 main_call0.v10 ((broadcastInDim S128 ![] bcast_S_S128) : (⟨S_, .f32⟩ : BufTy).Contents (Elt F) → (⟨S128, .f32⟩ : BufTy).Contents (Elt F)) rfl (by decide) (by decide) W

theorem rbf_main_call0_v11 (W : Valuation τ sig (Elt F)) :
    after ops W (Proc.devRef .tc main_call0_v11)
      = (Host.divf : (⟨S128, .f32⟩ : BufTy).Contents (Elt F) → (⟨S128, .f32⟩ : BufTy).Contents (Elt F) → (⟨S128, .f32⟩ : BufTy).Contents (Elt F)) (after ops W (Proc.devRef .tc main_call0_v9)) (after ops W (Proc.devRef .tc main_call0_v10)) :=
  rb_tbinary writesAll 69 main_call0.v9 main_call0.v10 main_call0.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rbf_main_call0_cst_3 (W : Valuation τ sig (Elt F)) :
    after ops W (Proc.devRef .tc main_call0_cst_3)
      = ((constant S_ .f32 0x00000000#32) : (⟨S_, .f32⟩ : BufTy).Contents (Elt F)) :=
  rb_tnullary writesAll 70 main_call0.cst_3 ((constant S_ .f32 0x00000000#32) : (⟨S_, .f32⟩ : BufTy).Contents (Elt F)) rfl (by decide) W

theorem rbf_main_call0_v12 (W : Valuation τ sig (Elt F)) :
    after ops W (Proc.devRef .tc main_call0_v12)
      = ((cmpf .ogt) : (⟨S_, .f32⟩ : BufTy).Contents (Elt F) → (⟨S_, .f32⟩ : BufTy).Contents (Elt F) → (⟨S_, .i1⟩ : BufTy).Contents (Elt F)) (after ops W (Proc.devRef .tc main_call0_v8)) (after ops W (Proc.devRef .tc main_call0_cst_3)) :=
  rb_tbinary writesAll 71 main_call0.v8 main_call0.cst_3 main_call0.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rbf_main_call0_cst_4 (W : Valuation τ sig (Elt F)) :
    after ops W (Proc.devRef .tc main_call0_cst_4)
      = ((constant S_ .f32 0x7FC00000#32) : (⟨S_, .f32⟩ : BufTy).Contents (Elt F)) :=
  rb_tnullary writesAll 72 main_call0.cst_4 ((constant S_ .f32 0x7FC00000#32) : (⟨S_, .f32⟩ : BufTy).Contents (Elt F)) rfl (by decide) W

theorem rbf_main_call0_call0_v0 (W : Valuation τ sig (Elt F)) :
    after ops W (Proc.devRef .tc main_call0_call0_v0)
      = (id : (⟨S_, .f32⟩ : BufTy).Contents (Elt F) → (⟨S_, .f32⟩ : BufTy).Contents (Elt F)) (after ops W (Proc.devRef .tc main_call0_cst_4)) :=
  rb_tunary writesAll 73 main_call0.cst_4 main_call0.call0.v0 (id : (⟨S_, .f32⟩ : BufTy).Contents (Elt F) → (⟨S_, .f32⟩ : BufTy).Contents (Elt F)) rfl (by decide) (by decide) W

theorem rbf_main_call0_call0_v1 (W : Valuation τ sig (Elt F)) :
    after ops W (Proc.devRef .tc main_call0_call0_v1)
      = ((broadcastInDim S128 ![] bcast_S_S128) : (⟨S_, .f32⟩ : BufTy).Contents (Elt F) → (⟨S128, .f32⟩ : BufTy).Contents (Elt F)) (after ops W (Proc.devRef .tc main_call0_call0_v0)) :=
  rb_tunary writesAll 74 main_call0.call0.v0 main_call0.call0.v1 ((broadcastInDim S128 ![] bcast_S_S128) : (⟨S_, .f32⟩ : BufTy).Contents (Elt F) → (⟨S128, .f32⟩ : BufTy).Contents (Elt F)) rfl (by decide) (by decide) W

theorem rbf_main_v44 (W : Valuation τ sig (Elt F)) :
    after ops W (Proc.devRef .tc main_v44)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops W (Proc.devRef .tc main_call0_v12)) (after ops W (Proc.devRef .tc main_call0_v11)) (after ops W (Proc.devRef .tc main_call0_call0_v1)) :=
  rb_tternary writesAll 75 main_call0.v12 main_call0.v11 main_call0.call0.v1 main_call0.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rbf_main_v45 (W : Valuation τ sig (Elt F)) :
    after ops W (Proc.devRef .tc main_v45)
      = (broadcastInDim S1x128 ![1] bcast_S128_S1x128_1 : (⟨S128, .f32⟩ : BufTy).Contents (Elt F) → (⟨S1x128, .f32⟩ : BufTy).Contents (Elt F)) (after ops W (Proc.devRef .tc main_v43)) :=
  rb_unary writesAll 76 main_v43 main_v45 (broadcastInDim S1x128 ![1] bcast_S128_S1x128_1 : (⟨S128, .f32⟩ : BufTy).Contents (Elt F) → (⟨S1x128, .f32⟩ : BufTy).Contents (Elt F)) _ _ rfl (by decide) (by decide) W

theorem rbf_main_v46 (W : Valuation τ sig (Elt F)) :
    after ops W (Proc.devRef .tc main_v46)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v45)) :=
  rb_unary writesAll 77 main_v45 main_v46 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v47 (W : Valuation τ sig (Elt F)) :
    after ops W (Proc.devRef .tc main_v47)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v36)) (after ops W (Proc.devRef .tc main_v46)) :=
  rb_binary writesAll 78 main_v36 main_v46 main_v47 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_cst_8 (W : Valuation τ sig (Elt F)) :
    after ops W (Proc.devRef .tc main_cst_8)
      = (constant S_ .f32 0x3727C5AC#32) :=
  rb_nullary writesAll 79 main_cst_8 (constant S_ .f32 0x3727C5AC#32) _ rfl (by decide) W

theorem rbf_main_v48 (W : Valuation τ sig (Elt F)) :
    after ops W (Proc.devRef .tc main_v48)
      = (broadcastInDim S128 ![] bcast_S_S128 : (⟨S_, .f32⟩ : BufTy).Contents (Elt F) → (⟨S128, .f32⟩ : BufTy).Contents (Elt F)) (after ops W (Proc.devRef .tc main_cst_8)) :=
  rb_unary writesAll 80 main_cst_8 main_v48 (broadcastInDim S128 ![] bcast_S_S128 : (⟨S_, .f32⟩ : BufTy).Contents (Elt F) → (⟨S128, .f32⟩ : BufTy).Contents (Elt F)) _ _ rfl (by decide) (by decide) W

theorem rbf_main_v49 (W : Valuation τ sig (Elt F)) :
    after ops W (Proc.devRef .tc main_v49)
      = (addf : (⟨S128, .f32⟩ : BufTy).Contents (Elt F) → (⟨S128, .f32⟩ : BufTy).Contents (Elt F) → (⟨S128, .f32⟩ : BufTy).Contents (Elt F)) (after ops W (Proc.devRef .tc main_v44)) (after ops W (Proc.devRef .tc main_v48)) :=
  rb_binary writesAll 81 main_v44 main_v48 main_v49 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_v50 (W : Valuation τ sig (Elt F)) :
    after ops W (Proc.devRef .tc main_v50)
      = (Host.rsqrt : (⟨S128, .f32⟩ : BufTy).Contents (Elt F) → (⟨S128, .f32⟩ : BufTy).Contents (Elt F)) (after ops W (Proc.devRef .tc main_v49)) :=
  rb_unary writesAll 82 main_v49 main_v50 (Host.rsqrt : (⟨S128, .f32⟩ : BufTy).Contents (Elt F) → (⟨S128, .f32⟩ : BufTy).Contents (Elt F)) _ _ rfl (by decide) (by decide) W

theorem rbf_main_v51 (W : Valuation τ sig (Elt F)) :
    after ops W (Proc.devRef .tc main_v51)
      = (broadcastInDim S1x128 ![1] bcast_S128_S1x128_1 : (⟨S128, .f32⟩ : BufTy).Contents (Elt F) → (⟨S1x128, .f32⟩ : BufTy).Contents (Elt F)) (after ops W (Proc.devRef .tc main_v50)) :=
  rb_unary writesAll 83 main_v50 main_v51 (broadcastInDim S1x128 ![1] bcast_S128_S1x128_1 : (⟨S128, .f32⟩ : BufTy).Contents (Elt F) → (⟨S1x128, .f32⟩ : BufTy).Contents (Elt F)) _ _ rfl (by decide) (by decide) W

theorem rbf_main_v52 (W : Valuation τ sig (Elt F)) :
    after ops W (Proc.devRef .tc main_v52)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v51)) :=
  rb_unary writesAll 84 main_v51 main_v52 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v53 (W : Valuation τ sig (Elt F)) :
    after ops W (Proc.devRef .tc main_v53)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v47)) (after ops W (Proc.devRef .tc main_v52)) :=
  rb_binary writesAll 85 main_v47 main_v52 main_v53 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v54 (W : Valuation τ sig (Elt F)) :
    after ops W (Proc.devRef .tc main_v54)
      = (broadcastInDim S1x128 ![1] bcast_S128_S1x128_1 : (⟨S128, .f32⟩ : BufTy).Contents (Elt F) → (⟨S1x128, .f32⟩ : BufTy).Contents (Elt F)) (after ops W (Proc.devRef .tc main_v38)) :=
  rb_unary writesAll 86 main_v38 main_v54 (broadcastInDim S1x128 ![1] bcast_S128_S1x128_1 : (⟨S128, .f32⟩ : BufTy).Contents (Elt F) → (⟨S1x128, .f32⟩ : BufTy).Contents (Elt F)) _ _ rfl (by decide) (by decide) W

theorem rbf_main_v55 (W : Valuation τ sig (Elt F)) :
    after ops W (Proc.devRef .tc main_v55)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v54)) :=
  rb_unary writesAll 87 main_v54 main_v55 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v56 (W : Valuation τ sig (Elt F)) :
    after ops W (Proc.devRef .tc main_v56)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v53)) (after ops W (Proc.devRef .tc main_v55)) :=
  rb_binary writesAll 88 main_v53 main_v55 main_v56 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v57 (W : Valuation τ sig (Elt F)) :
    after ops W (Proc.devRef .tc main_v57)
      = (broadcastInDim S1x128 ![1] bcast_S128_S1x128_1 : (⟨S128, .f32⟩ : BufTy).Contents (Elt F) → (⟨S1x128, .f32⟩ : BufTy).Contents (Elt F)) (after ops W (Proc.devRef .tc main_v40)) :=
  rb_unary writesAll 89 main_v40 main_v57 (broadcastInDim S1x128 ![1] bcast_S128_S1x128_1 : (⟨S128, .f32⟩ : BufTy).Contents (Elt F) → (⟨S1x128, .f32⟩ : BufTy).Contents (Elt F)) _ _ rfl (by decide) (by decide) W

theorem rbf_main_v58 (W : Valuation τ sig (Elt F)) :
    after ops W (Proc.devRef .tc main_v58)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v57)) :=
  rb_unary writesAll 90 main_v57 main_v58 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v59 (W : Valuation τ sig (Elt F)) :
    after ops W (Proc.devRef .tc main_v59)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v56)) (after ops W (Proc.devRef .tc main_v58)) :=
  rb_binary writesAll 91 main_v56 main_v58 main_v59 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_call1_cst (W : Valuation τ sig (Elt F)) :
    after ops W (Proc.devRef .tc main_call1_cst)
      = ((constant S_ .f32 0x00000000#32) : (⟨S_, .f32⟩ : BufTy).Contents (Elt F)) :=
  rb_tnullary writesAll 92 main_call1.cst ((constant S_ .f32 0x00000000#32) : (⟨S_, .f32⟩ : BufTy).Contents (Elt F)) rfl (by decide) W

theorem rbf_main_call1_v0 (W : Valuation τ sig (Elt F)) :
    after ops W (Proc.devRef .tc main_call1_v0)
      = ((broadcastInDim S100000x128 ![] bcast_S_S100000x128) : (⟨S_, .f32⟩ : BufTy).Contents (Elt F) → (⟨S100000x128, .f32⟩ : BufTy).Contents (Elt F)) (after ops W (Proc.devRef .tc main_call1_cst)) :=
  rb_tunary writesAll 93 main_call1.cst main_call1.v0 ((broadcastInDim S100000x128 ![] bcast_S_S100000x128) : (⟨S_, .f32⟩ : BufTy).Contents (Elt F) → (⟨S100000x128, .f32⟩ : BufTy).Contents (Elt F)) rfl (by decide) (by decide) W

theorem rbf_main_v60 (W : Valuation τ sig (Elt F)) :
    after ops W (Proc.devRef .tc main_v60)
      = (maximumf : (⟨S100000x128, .f32⟩ : BufTy).Contents (Elt F) → (⟨S100000x128, .f32⟩ : BufTy).Contents (Elt F) → (⟨S100000x128, .f32⟩ : BufTy).Contents (Elt F)) (after ops W (Proc.devRef .tc main_v59)) (after ops W (Proc.devRef .tc main_call1_v0)) :=
  rb_tbinary writesAll 94 (.of main_v59 : StableHlo.TRef sig ⟨S100000x128, .f32⟩) main_call1.v0 main_call1.v1 (maximumf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_c_9 (W : Valuation τ sig (Elt F)) :
    after ops W (Proc.devRef .tc main_c_9)
      = (constantI S_ 32 0#32) :=
  rb_nullary writesAll 95 main_c_9 (constantI S_ 32 0#32) _ rfl (by decide) W

theorem rbf_main_v61 (W : Valuation τ sig (Elt F)) :
    after ops W (Proc.devRef .tc main_v61)
      = (broadcastInDim S1600000 ![] bcast_S_S1600000 : (⟨S_, .i32⟩ : BufTy).Contents (Elt F) → (⟨S1600000, .i32⟩ : BufTy).Contents (Elt F)) (after ops W (Proc.devRef .tc main_c_9)) :=
  rb_unary writesAll 96 main_c_9 main_v61 (broadcastInDim S1600000 ![] bcast_S_S1600000 : (⟨S_, .i32⟩ : BufTy).Contents (Elt F) → (⟨S1600000, .i32⟩ : BufTy).Contents (Elt F)) _ _ rfl (by decide) (by decide) W

theorem rbf_main_v62 (W : Valuation τ sig (Elt F)) :
    after ops W (Proc.devRef .tc main_v62)
      = (cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) (after ops W (Proc.devRef .tc main_v61)) :=
  rb_binary writesAll 97 main_v1 main_v61 main_v62 (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide) W

theorem rbf_main_c_10 (W : Valuation τ sig (Elt F)) :
    after ops W (Proc.devRef .tc main_c_10)
      = (constantI S_ 32 100000#32) :=
  rb_nullary writesAll 98 main_c_10 (constantI S_ 32 100000#32) _ rfl (by decide) W

theorem rbf_main_v63 (W : Valuation τ sig (Elt F)) :
    after ops W (Proc.devRef .tc main_v63)
      = (broadcastInDim S1600000 ![] bcast_S_S1600000 : (⟨S_, .i32⟩ : BufTy).Contents (Elt F) → (⟨S1600000, .i32⟩ : BufTy).Contents (Elt F)) (after ops W (Proc.devRef .tc main_c_10)) :=
  rb_unary writesAll 99 main_c_10 main_v63 (broadcastInDim S1600000 ![] bcast_S_S1600000 : (⟨S_, .i32⟩ : BufTy).Contents (Elt F) → (⟨S1600000, .i32⟩ : BufTy).Contents (Elt F)) _ _ rfl (by decide) (by decide) W

theorem rbf_main_v64 (W : Valuation τ sig (Elt F)) :
    after ops W (Proc.devRef .tc main_v64)
      = (addi : (⟨S1600000, .i32⟩ : BufTy).Contents (Elt F) → (⟨S1600000, .i32⟩ : BufTy).Contents (Elt F) → (⟨S1600000, .i32⟩ : BufTy).Contents (Elt F)) (after ops W (Proc.devRef .tc main_v1)) (after ops W (Proc.devRef .tc main_v63)) :=
  rb_binary writesAll 100 main_v1 main_v63 main_v64 (addi : (⟨S1600000, .i32⟩ : BufTy).Contents (Elt F) → (⟨S1600000, .i32⟩ : BufTy).Contents (Elt F) → (⟨S1600000, .i32⟩ : BufTy).Contents (Elt F)) _ _ _ rfl (by decide) (by decide) (by decide) W

theorem rbf_main_v65 (W : Valuation τ sig (Elt F)) :
    after ops W (Proc.devRef .tc main_v65)
      = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops W (Proc.devRef .tc main_v62)) (after ops W (Proc.devRef .tc main_v64)) (after ops W (Proc.devRef .tc main_v1)) :=
  rb_ternary writesAll 101 main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide) W

theorem rbf_main_v66 (W : Valuation τ sig (Elt F)) :
    after ops W (Proc.devRef .tc main_v66)
      = (broadcastInDim S1600000x1 ![0] bcast_S1600000_S1600000x1_0 : (⟨S1600000, .i32⟩ : BufTy).Contents (Elt F) → (⟨S1600000x1, .i32⟩ : BufTy).Contents (Elt F)) (after ops W (Proc.devRef .tc main_v65)) :=
  rb_unary writesAll 102 main_v65 main_v66 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rbf_main_v67 (W : Valuation τ sig (Elt F)) :
    after ops W (Proc.devRef .tc main_v67)
      = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops W (Proc.devRef .tc main_v60)) (after ops W (Proc.devRef .tc main_v66)) :=
  rb_binary writesAll 103 main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (by decide) (by decide) (by decide) W

theorem rbf_main_cst_11 (W : Valuation τ sig (Elt F)) :
    after ops W (Proc.devRef .tc main_cst_11)
      = (constant S_ .f32 0x00000000#32) :=
  rb_nullary writesAll 104 main_cst_11 (constant S_ .f32 0x00000000#32) _ rfl (by decide) W

theorem rbf_main_v68 (W : Valuation τ sig (Elt F)) :
    after ops W (Proc.devRef .tc main_v68)
      = (broadcastInDim S100000x128 ![] bcast_S_S100000x128 : (⟨S_, .f32⟩ : BufTy).Contents (Elt F) → (⟨S100000x128, .f32⟩ : BufTy).Contents (Elt F)) (after ops W (Proc.devRef .tc main_cst_11)) :=
  rb_unary writesAll 105 main_cst_11 main_v68 (broadcastInDim S100000x128 ![] bcast_S_S100000x128 : (⟨S_, .f32⟩ : BufTy).Contents (Elt F) → (⟨S100000x128, .f32⟩ : BufTy).Contents (Elt F)) _ _ rfl (by decide) (by decide) W

theorem rbf_main_v69 (W : Valuation τ sig (Elt F)) :
    after ops W (Proc.devRef .tc main_v69)
      = (broadcastInDim S1600000x1 ![0] bcast_S1600000_S1600000x1_0 : (⟨S1600000, .i32⟩ : BufTy).Contents (Elt F) → (⟨S1600000x1, .i32⟩ : BufTy).Contents (Elt F)) (after ops W (Proc.devRef .tc main_v3)) :=
  rb_unary writesAll 106 main_v3 main_v69 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rbf_main_v70 (W : Valuation τ sig (Elt F)) :
    after ops W (Proc.devRef .tc main_v70)
      = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops W (Proc.devRef .tc main_v68)) (after ops W (Proc.devRef .tc main_v69)) (after ops W (Proc.devRef .tc main_v67)) :=
  rb_ternary writesAll 107 main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (by decide) (by decide) (by decide) (by decide) W

theorem rbf_main_v71 (W : Valuation τ sig (Elt F)) :
    after ops W (Proc.devRef .tc main_v71)
      = (broadcastInDim S100000x128 ![0, 1] bcast_S100000x1_S100000x128_0_1 : (⟨S100000x1, .f32⟩ : BufTy).Contents (Elt F) → (⟨S100000x128, .f32⟩ : BufTy).Contents (Elt F)) (after ops W (Proc.devRef .tc main_v12)) :=
  rb_unary writesAll 108 main_v12 main_v71 (broadcastInDim S100000x128 ![0, 1] bcast_S100000x1_S100000x128_0_1 : (⟨S100000x1, .f32⟩ : BufTy).Contents (Elt F) → (⟨S100000x128, .f32⟩ : BufTy).Contents (Elt F)) _ _ rfl (by decide) (by decide) W

theorem rbf_main_v72 (W : Valuation τ sig (Elt F)) :
    after ops W (Proc.devRef .tc main_v72)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v70)) (after ops W (Proc.devRef .tc main_v71)) :=
  rb_binary writesAll 109 main_v70 main_v71 main_v72 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v73 (W : Valuation τ sig (Elt F)) :
    after ops W (Proc.devRef .tc main_v73)
      = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops W (Proc.devRef .tc main_arg2)) :=
  rb_unary writesAll 110 main_arg2 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)) _ _ rfl (by decide) (by decide) W

theorem rbf_main_v74 (W : Valuation τ sig (Elt F)) :
    after ops W (Proc.devRef .tc main_v74)
      = shapeCast S128x128 (after ops W (Proc.devRef .tc main_v73)) shapeCasts_S1x128x128_S128x128 :=
  (rb_reshape writesAll 111 main_v73 main_v74 rfl shapeCasts_S1x128x128_S128x128 _ _ rfl (by decide) (by decide) W).trans rfl

theorem rbf_main_v75 (W : Valuation τ sig (Elt F)) :
    after ops W (Proc.devRef .tc main_v75)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops W (Proc.devRef .tc main_v72)) (after ops W (Proc.devRef .tc main_v74)) :=
  rb_binary writesAll 112 main_v72 main_v74 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rbf_main_v76 (W : Valuation τ sig (Elt F)) :
    after ops W (Proc.devRef .tc main_v76)
      = ((extractStridedSlice S1x128 ![1, 0] · slices_S3x128_S1x128_1_0) : (⟨S3x128, .f32⟩ : BufTy).Contents (Elt F) → (⟨S1x128, .f32⟩ : BufTy).Contents (Elt F)) (after ops W (Proc.devRef .tc main_arg3)) :=
  rb_unary writesAll 113 main_arg3 main_v76 ((extractStridedSlice S1x128 ![1, 0] · slices_S3x128_S1x128_1_0) : (⟨S3x128, .f32⟩ : BufTy).Contents (Elt F) → (⟨S1x128, .f32⟩ : BufTy).Contents (Elt F)) _ _ rfl (by decide) (by decide) W

theorem rbf_main_v77 (W : Valuation τ sig (Elt F)) :
    after ops W (Proc.devRef .tc main_v77)
      = shapeCast S128 (after ops W (Proc.devRef .tc main_v76)) shapeCasts_S1x128_S128 :=
  (rb_reshape writesAll 114 main_v76 main_v77 rfl shapeCasts_S1x128_S128 _ _ rfl (by decide) (by decide) W).trans rfl

theorem rbf_main_v78 (W : Valuation τ sig (Elt F)) :
    after ops W (Proc.devRef .tc main_v78)
      = (broadcastInDim S1x128 ![1] bcast_S128_S1x128_1 : (⟨S128, .f32⟩ : BufTy).Contents (Elt F) → (⟨S1x128, .f32⟩ : BufTy).Contents (Elt F)) (after ops W (Proc.devRef .tc main_v77)) :=
  rb_unary writesAll 115 main_v77 main_v78 (broadcastInDim S1x128 ![1] bcast_S128_S1x128_1 : (⟨S128, .f32⟩ : BufTy).Contents (Elt F) → (⟨S1x128, .f32⟩ : BufTy).Contents (Elt F)) _ _ rfl (by decide) (by decide) W

theorem rbf_main_v79 (W : Valuation τ sig (Elt F)) :
    after ops W (Proc.devRef .tc main_v79)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v78)) :=
  rb_unary writesAll 116 main_v78 main_v79 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v80 (W : Valuation τ sig (Elt F)) :
    after ops W (Proc.devRef .tc main_v80)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v75)) (after ops W (Proc.devRef .tc main_v79)) :=
  rb_binary writesAll 117 main_v75 main_v79 main_v80 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v81 (W : Valuation τ sig (Elt F)) :
    after ops W (Proc.devRef .tc main_v81)
      = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops W (Proc.devRef .tc main_arg4)) :=
  rb_unary writesAll 118 main_arg4 main_v81 ((extractStridedSlice S1x128x128 ![1, 0, 0] · slices_S3x128x128_S1x128x128_1_0_0) : (⟨S3x128x128, .f32⟩ : BufTy).Contents (Elt F) → (⟨S1x128x128, .f32⟩ : BufTy).Contents (Elt F)) _ _ rfl (by decide) (by decide) W

theorem rbf_main_v82 (W : Valuation τ sig (Elt F)) :
    after ops W (Proc.devRef .tc main_v82)
      = shapeCast S128x128 (after ops W (Proc.devRef .tc main_v81)) shapeCasts_S1x128x128_S128x128 :=
  (rb_reshape writesAll 119 main_v81 main_v82 rfl shapeCasts_S1x128x128_S128x128 _ _ rfl (by decide) (by decide) W).trans rfl

theorem rbf_main_v83 (W : Valuation τ sig (Elt F)) :
    after ops W (Proc.devRef .tc main_v83)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops W (Proc.devRef .tc main_v60)) (after ops W (Proc.devRef .tc main_v82)) :=
  rb_binary writesAll 120 main_v60 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rbf_main_v84 (W : Valuation τ sig (Elt F)) :
    after ops W (Proc.devRef .tc main_v84)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v80)) (after ops W (Proc.devRef .tc main_v83)) :=
  rb_binary writesAll 121 main_v80 main_v83 main_v84 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v85 (W : Valuation τ sig (Elt F)) :
    after ops W (Proc.devRef .tc main_v85)
      = ((extractStridedSlice S1x128 ![1, 0] · slices_S3x128_S1x128_1_0) : (⟨S3x128, .f32⟩ : BufTy).Contents (Elt F) → (⟨S1x128, .f32⟩ : BufTy).Contents (Elt F)) (after ops W (Proc.devRef .tc main_arg5)) :=
  rb_unary writesAll 122 main_arg5 main_v85 ((extractStridedSlice S1x128 ![1, 0] · slices_S3x128_S1x128_1_0) : (⟨S3x128, .f32⟩ : BufTy).Contents (Elt F) → (⟨S1x128, .f32⟩ : BufTy).Contents (Elt F)) _ _ rfl (by decide) (by decide) W

theorem rbf_main_v86 (W : Valuation τ sig (Elt F)) :
    after ops W (Proc.devRef .tc main_v86)
      = shapeCast S128 (after ops W (Proc.devRef .tc main_v85)) shapeCasts_S1x128_S128 :=
  (rb_reshape writesAll 123 main_v85 main_v86 rfl shapeCasts_S1x128_S128 _ _ rfl (by decide) (by decide) W).trans rfl

theorem rbf_main_v87 (W : Valuation τ sig (Elt F)) :
    after ops W (Proc.devRef .tc main_v87)
      = ((extractStridedSlice S1x128 ![1, 0] · slices_S3x128_S1x128_1_0) : (⟨S3x128, .f32⟩ : BufTy).Contents (Elt F) → (⟨S1x128, .f32⟩ : BufTy).Contents (Elt F)) (after ops W (Proc.devRef .tc main_arg6)) :=
  rb_unary writesAll 124 main_arg6 main_v87 ((extractStridedSlice S1x128 ![1, 0] · slices_S3x128_S1x128_1_0) : (⟨S3x128, .f32⟩ : BufTy).Contents (Elt F) → (⟨S1x128, .f32⟩ : BufTy).Contents (Elt F)) _ _ rfl (by decide) (by decide) W

theorem rbf_main_v88 (W : Valuation τ sig (Elt F)) :
    after ops W (Proc.devRef .tc main_v88)
      = shapeCast S128 (after ops W (Proc.devRef .tc main_v87)) shapeCasts_S1x128_S128 :=
  (rb_reshape writesAll 125 main_v87 main_v88 rfl shapeCasts_S1x128_S128 _ _ rfl (by decide) (by decide) W).trans rfl

theorem rbf_main_cst_12 (W : Valuation τ sig (Elt F)) :
    after ops W (Proc.devRef .tc main_cst_12)
      = (constant S_ .f32 0x00000000#32) :=
  rb_nullary writesAll 126 main_cst_12 (constant S_ .f32 0x00000000#32) _ rfl (by decide) W

theorem rbf_main_v89 (W : Valuation τ sig (Elt F)) :
    after ops W (Proc.devRef .tc main_v89)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v84)) (after ops W (Proc.devRef .tc main_cst_12)) :=
  rb_binary writesAll 127 main_v84 main_cst_12 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rbf_main_cst_13 (W : Valuation τ sig (Elt F)) :
    after ops W (Proc.devRef .tc main_cst_13)
      = (constant S_ .f32 0x47C35000#32) :=
  rb_nullary writesAll 128 main_cst_13 (constant S_ .f32 0x47C35000#32) _ rfl (by decide) W

theorem rbf_main_v90 (W : Valuation τ sig (Elt F)) :
    after ops W (Proc.devRef .tc main_v90)
      = (broadcastInDim S128 ![] bcast_S_S128 : (⟨S_, .f32⟩ : BufTy).Contents (Elt F) → (⟨S128, .f32⟩ : BufTy).Contents (Elt F)) (after ops W (Proc.devRef .tc main_cst_13)) :=
  rb_unary writesAll 129 main_cst_13 main_v90 (broadcastInDim S128 ![] bcast_S_S128 : (⟨S_, .f32⟩ : BufTy).Contents (Elt F) → (⟨S128, .f32⟩ : BufTy).Contents (Elt F)) _ _ rfl (by decide) (by decide) W

theorem rbf_main_v91 (W : Valuation τ sig (Elt F)) :
    after ops W (Proc.devRef .tc main_v91)
      = (Host.divf : (⟨S128, .f32⟩ : BufTy).Contents (Elt F) → (⟨S128, .f32⟩ : BufTy).Contents (Elt F) → (⟨S128, .f32⟩ : BufTy).Contents (Elt F)) (after ops W (Proc.devRef .tc main_v89)) (after ops W (Proc.devRef .tc main_v90)) :=
  rb_binary writesAll 130 main_v89 main_v90 main_v91 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_c_14 (W : Valuation τ sig (Elt F)) :
    after ops W (Proc.devRef .tc main_c_14)
      = (constantI S_ 32 0#32) :=
  rb_nullary writesAll 131 main_c_14 (constantI S_ 32 0#32) _ rfl (by decide) W

theorem rbf_main_call2_cst (W : Valuation τ sig (Elt F)) :
    after ops W (Proc.devRef .tc main_call2_cst)
      = ((constant S_ .f32 0x00000000#32) : (⟨S_, .f32⟩ : BufTy).Contents (Elt F)) :=
  rb_tnullary writesAll 132 main_call2.cst ((constant S_ .f32 0x00000000#32) : (⟨S_, .f32⟩ : BufTy).Contents (Elt F)) rfl (by decide) W

theorem rbf_main_call2_v0 (W : Valuation τ sig (Elt F)) :
    after ops W (Proc.devRef .tc main_call2_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v84)) (after ops W (Proc.devRef .tc main_call2_cst)) :=
  rb_tbinary writesAll 133 (.of main_v84 : StableHlo.TRef sig ⟨S100000x128, .f32⟩) main_call2.cst main_call2.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call2_v1 (W : Valuation τ sig (Elt F)) :
    after ops W (Proc.devRef .tc main_call2_v1)
      = ((broadcastInDim S1x128 ![1] bcast_S128_S1x128_1) : (⟨S128, .f32⟩ : BufTy).Contents (Elt F) → (⟨S1x128, .f32⟩ : BufTy).Contents (Elt F)) (after ops W (Proc.devRef .tc main_call2_v0)) :=
  rb_tunary writesAll 134 main_call2.v0 main_call2.v1 ((broadcastInDim S1x128 ![1] bcast_S128_S1x128_1) : (⟨S128, .f32⟩ : BufTy).Contents (Elt F) → (⟨S1x128, .f32⟩ : BufTy).Contents (Elt F)) rfl (by decide) (by decide) W

theorem rbf_main_call2_cst_0 (W : Valuation τ sig (Elt F)) :
    after ops W (Proc.devRef .tc main_call2_cst_0)
      = ((constant S_ .f32 0x47C35000#32) : (⟨S_, .f32⟩ : BufTy).Contents (Elt F)) :=
  rb_tnullary writesAll 135 main_call2.cst_0 ((constant S_ .f32 0x47C35000#32) : (⟨S_, .f32⟩ : BufTy).Contents (Elt F)) rfl (by decide) W

theorem rbf_main_call2_v2 (W : Valuation τ sig (Elt F)) :
    after ops W (Proc.devRef .tc main_call2_v2)
      = ((broadcastInDim S1x128 ![] bcast_S_S1x128) : (⟨S_, .f32⟩ : BufTy).Contents (Elt F) → (⟨S1x128, .f32⟩ : BufTy).Contents (Elt F)) (after ops W (Proc.devRef .tc main_call2_cst_0)) :=
  rb_tunary writesAll 136 main_call2.cst_0 main_call2.v2 ((broadcastInDim S1x128 ![] bcast_S_S1x128) : (⟨S_, .f32⟩ : BufTy).Contents (Elt F) → (⟨S1x128, .f32⟩ : BufTy).Contents (Elt F)) rfl (by decide) (by decide) W

theorem rbf_main_call2_v3 (W : Valuation τ sig (Elt F)) :
    after ops W (Proc.devRef .tc main_call2_v3)
      = (Host.divf : (⟨S1x128, .f32⟩ : BufTy).Contents (Elt F) → (⟨S1x128, .f32⟩ : BufTy).Contents (Elt F) → (⟨S1x128, .f32⟩ : BufTy).Contents (Elt F)) (after ops W (Proc.devRef .tc main_call2_v1)) (after ops W (Proc.devRef .tc main_call2_v2)) :=
  rb_tbinary writesAll 137 main_call2.v1 main_call2.v2 main_call2.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rbf_main_call2_v4 (W : Valuation τ sig (Elt F)) :
    after ops W (Proc.devRef .tc main_call2_v4)
      = ((broadcastInDim S100000x128 ![0, 1] bcast_S1x128_S100000x128_0_1) : (⟨S1x128, .f32⟩ : BufTy).Contents (Elt F) → (⟨S100000x128, .f32⟩ : BufTy).Contents (Elt F)) (after ops W (Proc.devRef .tc main_call2_v3)) :=
  rb_tunary writesAll 138 main_call2.v3 main_call2.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rbf_main_call2_v5 (W : Valuation τ sig (Elt F)) :
    after ops W (Proc.devRef .tc main_call2_v5)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v84)) (after ops W (Proc.devRef .tc main_call2_v4)) :=
  rb_tbinary writesAll 139 (.of main_v84 : StableHlo.TRef sig ⟨S100000x128, .f32⟩) main_call2.v4 main_call2.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call2_v6 (W : Valuation τ sig (Elt F)) :
    after ops W (Proc.devRef .tc main_call2_v6)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_call2_v5)) (after ops W (Proc.devRef .tc main_call2_v5)) :=
  rb_tbinary writesAll 140 main_call2.v5 main_call2.v5 main_call2.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call2_v7 (W : Valuation τ sig (Elt F)) :
    after ops W (Proc.devRef .tc main_call2_v7)
      = ((sitofp .f32) : (⟨S_, .i32⟩ : BufTy).Contents (Elt F) → (⟨S_, .f32⟩ : BufTy).Contents (Elt F)) (after ops W (Proc.devRef .tc main_c_14)) :=
  rb_tunary writesAll 141 (.of main_c_14 : StableHlo.TRef sig ⟨S_, .i32⟩) main_call2.v7 ((sitofp .f32) : (⟨S_, .i32⟩ : BufTy).Contents (Elt F) → (⟨S_, .f32⟩ : BufTy).Contents (Elt F)) rfl (by decide) (by decide) W

theorem rbf_main_call2_cst_1 (W : Valuation τ sig (Elt F)) :
    after ops W (Proc.devRef .tc main_call2_cst_1)
      = ((constant S_ .f32 0x47C35000#32) : (⟨S_, .f32⟩ : BufTy).Contents (Elt F)) :=
  rb_tnullary writesAll 142 main_call2.cst_1 ((constant S_ .f32 0x47C35000#32) : (⟨S_, .f32⟩ : BufTy).Contents (Elt F)) rfl (by decide) W

theorem rbf_main_call2_v8 (W : Valuation τ sig (Elt F)) :
    after ops W (Proc.devRef .tc main_call2_v8)
      = (subf : (⟨S_, .f32⟩ : BufTy).Contents (Elt F) → (⟨S_, .f32⟩ : BufTy).Contents (Elt F) → (⟨S_, .f32⟩ : BufTy).Contents (Elt F)) (after ops W (Proc.devRef .tc main_call2_cst_1)) (after ops W (Proc.devRef .tc main_call2_v7)) :=
  rb_tbinary writesAll 143 main_call2.cst_1 main_call2.v7 main_call2.v8 (subf : (⟨S_, .f32⟩ : BufTy).Contents (Elt F) → (⟨S_, .f32⟩ : BufTy).Contents (Elt F) → (⟨S_, .f32⟩ : BufTy).Contents (Elt F)) rfl (by decide) (by decide) (by decide) W

theorem rbf_main_call2_cst_2 (W : Valuation τ sig (Elt F)) :
    after ops W (Proc.devRef .tc main_call2_cst_2)
      = ((constant S_ .f32 0x00000000#32) : (⟨S_, .f32⟩ : BufTy).Contents (Elt F)) :=
  rb_tnullary writesAll 144 main_call2.cst_2 ((constant S_ .f32 0x00000000#32) : (⟨S_, .f32⟩ : BufTy).Contents (Elt F)) rfl (by decide) W

theorem rbf_main_call2_v9 (W : Valuation τ sig (Elt F)) :
    after ops W (Proc.devRef .tc main_call2_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_call2_v6)) (after ops W (Proc.devRef .tc main_call2_cst_2)) :=
  rb_tbinary writesAll 145 main_call2.v6 main_call2.cst_2 main_call2.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call2_v10 (W : Valuation τ sig (Elt F)) :
    after ops W (Proc.devRef .tc main_call2_v10)
      = ((broadcastInDim S128 ![] bcast_S_S128) : (⟨S_, .f32⟩ : BufTy).Contents (Elt F) → (⟨S128, .f32⟩ : BufTy).Contents (Elt F)) (after ops W (Proc.devRef .tc main_call2_v8)) :=
  rb_tunary writesAll 146 main_call2.v8 main_call2.v10 ((broadcastInDim S128 ![] bcast_S_S128) : (⟨S_, .f32⟩ : BufTy).Contents (Elt F) → (⟨S128, .f32⟩ : BufTy).Contents (Elt F)) rfl (by decide) (by decide) W

theorem rbf_main_call2_v11 (W : Valuation τ sig (Elt F)) :
    after ops W (Proc.devRef .tc main_call2_v11)
      = (Host.divf : (⟨S128, .f32⟩ : BufTy).Contents (Elt F) → (⟨S128, .f32⟩ : BufTy).Contents (Elt F) → (⟨S128, .f32⟩ : BufTy).Contents (Elt F)) (after ops W (Proc.devRef .tc main_call2_v9)) (after ops W (Proc.devRef .tc main_call2_v10)) :=
  rb_tbinary writesAll 147 main_call2.v9 main_call2.v10 main_call2.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rbf_main_call2_cst_3 (W : Valuation τ sig (Elt F)) :
    after ops W (Proc.devRef .tc main_call2_cst_3)
      = ((constant S_ .f32 0x00000000#32) : (⟨S_, .f32⟩ : BufTy).Contents (Elt F)) :=
  rb_tnullary writesAll 148 main_call2.cst_3 ((constant S_ .f32 0x00000000#32) : (⟨S_, .f32⟩ : BufTy).Contents (Elt F)) rfl (by decide) W

theorem rbf_main_call2_v12 (W : Valuation τ sig (Elt F)) :
    after ops W (Proc.devRef .tc main_call2_v12)
      = ((cmpf .ogt) : (⟨S_, .f32⟩ : BufTy).Contents (Elt F) → (⟨S_, .f32⟩ : BufTy).Contents (Elt F) → (⟨S_, .i1⟩ : BufTy).Contents (Elt F)) (after ops W (Proc.devRef .tc main_call2_v8)) (after ops W (Proc.devRef .tc main_call2_cst_3)) :=
  rb_tbinary writesAll 149 main_call2.v8 main_call2.cst_3 main_call2.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rbf_main_call2_cst_4 (W : Valuation τ sig (Elt F)) :
    after ops W (Proc.devRef .tc main_call2_cst_4)
      = ((constant S_ .f32 0x7FC00000#32) : (⟨S_, .f32⟩ : BufTy).Contents (Elt F)) :=
  rb_tnullary writesAll 150 main_call2.cst_4 ((constant S_ .f32 0x7FC00000#32) : (⟨S_, .f32⟩ : BufTy).Contents (Elt F)) rfl (by decide) W

theorem rbf_main_call2_call0_v0 (W : Valuation τ sig (Elt F)) :
    after ops W (Proc.devRef .tc main_call2_call0_v0)
      = (id : (⟨S_, .f32⟩ : BufTy).Contents (Elt F) → (⟨S_, .f32⟩ : BufTy).Contents (Elt F)) (after ops W (Proc.devRef .tc main_call2_cst_4)) :=
  rb_tunary writesAll 151 main_call2.cst_4 main_call2.call0.v0 (id : (⟨S_, .f32⟩ : BufTy).Contents (Elt F) → (⟨S_, .f32⟩ : BufTy).Contents (Elt F)) rfl (by decide) (by decide) W

theorem rbf_main_call2_call0_v1 (W : Valuation τ sig (Elt F)) :
    after ops W (Proc.devRef .tc main_call2_call0_v1)
      = ((broadcastInDim S128 ![] bcast_S_S128) : (⟨S_, .f32⟩ : BufTy).Contents (Elt F) → (⟨S128, .f32⟩ : BufTy).Contents (Elt F)) (after ops W (Proc.devRef .tc main_call2_call0_v0)) :=
  rb_tunary writesAll 152 main_call2.call0.v0 main_call2.call0.v1 ((broadcastInDim S128 ![] bcast_S_S128) : (⟨S_, .f32⟩ : BufTy).Contents (Elt F) → (⟨S128, .f32⟩ : BufTy).Contents (Elt F)) rfl (by decide) (by decide) W

theorem rbf_main_v92 (W : Valuation τ sig (Elt F)) :
    after ops W (Proc.devRef .tc main_v92)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops W (Proc.devRef .tc main_call2_v12)) (after ops W (Proc.devRef .tc main_call2_v11)) (after ops W (Proc.devRef .tc main_call2_call0_v1)) :=
  rb_tternary writesAll 153 main_call2.v12 main_call2.v11 main_call2.call0.v1 main_call2.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rbf_main_v93 (W : Valuation τ sig (Elt F)) :
    after ops W (Proc.devRef .tc main_v93)
      = (broadcastInDim S1x128 ![1] bcast_S128_S1x128_1 : (⟨S128, .f32⟩ : BufTy).Contents (Elt F) → (⟨S1x128, .f32⟩ : BufTy).Contents (Elt F)) (after ops W (Proc.devRef .tc main_v91)) :=
  rb_unary writesAll 154 main_v91 main_v93 (broadcastInDim S1x128 ![1] bcast_S128_S1x128_1 : (⟨S128, .f32⟩ : BufTy).Contents (Elt F) → (⟨S1x128, .f32⟩ : BufTy).Contents (Elt F)) _ _ rfl (by decide) (by decide) W

theorem rbf_main_v94 (W : Valuation τ sig (Elt F)) :
    after ops W (Proc.devRef .tc main_v94)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v93)) :=
  rb_unary writesAll 155 main_v93 main_v94 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v95 (W : Valuation τ sig (Elt F)) :
    after ops W (Proc.devRef .tc main_v95)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v84)) (after ops W (Proc.devRef .tc main_v94)) :=
  rb_binary writesAll 156 main_v84 main_v94 main_v95 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_cst_15 (W : Valuation τ sig (Elt F)) :
    after ops W (Proc.devRef .tc main_cst_15)
      = (constant S_ .f32 0x3727C5AC#32) :=
  rb_nullary writesAll 157 main_cst_15 (constant S_ .f32 0x3727C5AC#32) _ rfl (by decide) W

theorem rbf_main_v96 (W : Valuation τ sig (Elt F)) :
    after ops W (Proc.devRef .tc main_v96)
      = (broadcastInDim S128 ![] bcast_S_S128 : (⟨S_, .f32⟩ : BufTy).Contents (Elt F) → (⟨S128, .f32⟩ : BufTy).Contents (Elt F)) (after ops W (Proc.devRef .tc main_cst_15)) :=
  rb_unary writesAll 158 main_cst_15 main_v96 (broadcastInDim S128 ![] bcast_S_S128 : (⟨S_, .f32⟩ : BufTy).Contents (Elt F) → (⟨S128, .f32⟩ : BufTy).Contents (Elt F)) _ _ rfl (by decide) (by decide) W

theorem rbf_main_v97 (W : Valuation τ sig (Elt F)) :
    after ops W (Proc.devRef .tc main_v97)
      = (addf : (⟨S128, .f32⟩ : BufTy).Contents (Elt F) → (⟨S128, .f32⟩ : BufTy).Contents (Elt F) → (⟨S128, .f32⟩ : BufTy).Contents (Elt F)) (after ops W (Proc.devRef .tc main_v92)) (after ops W (Proc.devRef .tc main_v96)) :=
  rb_binary writesAll 159 main_v92 main_v96 main_v97 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_v98 (W : Valuation τ sig (Elt F)) :
    after ops W (Proc.devRef .tc main_v98)
      = (Host.rsqrt : (⟨S128, .f32⟩ : BufTy).Contents (Elt F) → (⟨S128, .f32⟩ : BufTy).Contents (Elt F)) (after ops W (Proc.devRef .tc main_v97)) :=
  rb_unary writesAll 160 main_v97 main_v98 (Host.rsqrt : (⟨S128, .f32⟩ : BufTy).Contents (Elt F) → (⟨S128, .f32⟩ : BufTy).Contents (Elt F)) _ _ rfl (by decide) (by decide) W

theorem rbf_main_v99 (W : Valuation τ sig (Elt F)) :
    after ops W (Proc.devRef .tc main_v99)
      = (broadcastInDim S1x128 ![1] bcast_S128_S1x128_1 : (⟨S128, .f32⟩ : BufTy).Contents (Elt F) → (⟨S1x128, .f32⟩ : BufTy).Contents (Elt F)) (after ops W (Proc.devRef .tc main_v98)) :=
  rb_unary writesAll 161 main_v98 main_v99 (broadcastInDim S1x128 ![1] bcast_S128_S1x128_1 : (⟨S128, .f32⟩ : BufTy).Contents (Elt F) → (⟨S1x128, .f32⟩ : BufTy).Contents (Elt F)) _ _ rfl (by decide) (by decide) W

theorem rbf_main_v100 (W : Valuation τ sig (Elt F)) :
    after ops W (Proc.devRef .tc main_v100)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v99)) :=
  rb_unary writesAll 162 main_v99 main_v100 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v101 (W : Valuation τ sig (Elt F)) :
    after ops W (Proc.devRef .tc main_v101)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v95)) (after ops W (Proc.devRef .tc main_v100)) :=
  rb_binary writesAll 163 main_v95 main_v100 main_v101 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v102 (W : Valuation τ sig (Elt F)) :
    after ops W (Proc.devRef .tc main_v102)
      = (broadcastInDim S1x128 ![1] bcast_S128_S1x128_1 : (⟨S128, .f32⟩ : BufTy).Contents (Elt F) → (⟨S1x128, .f32⟩ : BufTy).Contents (Elt F)) (after ops W (Proc.devRef .tc main_v86)) :=
  rb_unary writesAll 164 main_v86 main_v102 (broadcastInDim S1x128 ![1] bcast_S128_S1x128_1 : (⟨S128, .f32⟩ : BufTy).Contents (Elt F) → (⟨S1x128, .f32⟩ : BufTy).Contents (Elt F)) _ _ rfl (by decide) (by decide) W

theorem rbf_main_v103 (W : Valuation τ sig (Elt F)) :
    after ops W (Proc.devRef .tc main_v103)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v102)) :=
  rb_unary writesAll 165 main_v102 main_v103 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v104 (W : Valuation τ sig (Elt F)) :
    after ops W (Proc.devRef .tc main_v104)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v101)) (after ops W (Proc.devRef .tc main_v103)) :=
  rb_binary writesAll 166 main_v101 main_v103 main_v104 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v105 (W : Valuation τ sig (Elt F)) :
    after ops W (Proc.devRef .tc main_v105)
      = (broadcastInDim S1x128 ![1] bcast_S128_S1x128_1 : (⟨S128, .f32⟩ : BufTy).Contents (Elt F) → (⟨S1x128, .f32⟩ : BufTy).Contents (Elt F)) (after ops W (Proc.devRef .tc main_v88)) :=
  rb_unary writesAll 167 main_v88 main_v105 (broadcastInDim S1x128 ![1] bcast_S128_S1x128_1 : (⟨S128, .f32⟩ : BufTy).Contents (Elt F) → (⟨S1x128, .f32⟩ : BufTy).Contents (Elt F)) _ _ rfl (by decide) (by decide) W

theorem rbf_main_v106 (W : Valuation τ sig (Elt F)) :
    after ops W (Proc.devRef .tc main_v106)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v105)) :=
  rb_unary writesAll 168 main_v105 main_v106 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v107 (W : Valuation τ sig (Elt F)) :
    after ops W (Proc.devRef .tc main_v107)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v104)) (after ops W (Proc.devRef .tc main_v106)) :=
  rb_binary writesAll 169 main_v104 main_v106 main_v107 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_call3_cst (W : Valuation τ sig (Elt F)) :
    after ops W (Proc.devRef .tc main_call3_cst)
      = ((constant S_ .f32 0x00000000#32) : (⟨S_, .f32⟩ : BufTy).Contents (Elt F)) :=
  rb_tnullary writesAll 170 main_call3.cst ((constant S_ .f32 0x00000000#32) : (⟨S_, .f32⟩ : BufTy).Contents (Elt F)) rfl (by decide) W

theorem rbf_main_call3_v0 (W : Valuation τ sig (Elt F)) :
    after ops W (Proc.devRef .tc main_call3_v0)
      = ((broadcastInDim S100000x128 ![] bcast_S_S100000x128) : (⟨S_, .f32⟩ : BufTy).Contents (Elt F) → (⟨S100000x128, .f32⟩ : BufTy).Contents (Elt F)) (after ops W (Proc.devRef .tc main_call3_cst)) :=
  rb_tunary writesAll 171 main_call3.cst main_call3.v0 ((broadcastInDim S100000x128 ![] bcast_S_S100000x128) : (⟨S_, .f32⟩ : BufTy).Contents (Elt F) → (⟨S100000x128, .f32⟩ : BufTy).Contents (Elt F)) rfl (by decide) (by decide) W

theorem rbf_main_v108 (W : Valuation τ sig (Elt F)) :
    after ops W (Proc.devRef .tc main_v108)
      = (maximumf : (⟨S100000x128, .f32⟩ : BufTy).Contents (Elt F) → (⟨S100000x128, .f32⟩ : BufTy).Contents (Elt F) → (⟨S100000x128, .f32⟩ : BufTy).Contents (Elt F)) (after ops W (Proc.devRef .tc main_v107)) (after ops W (Proc.devRef .tc main_call3_v0)) :=
  rb_tbinary writesAll 172 (.of main_v107 : StableHlo.TRef sig ⟨S100000x128, .f32⟩) main_call3.v0 main_call3.v1 (maximumf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_c_16 (W : Valuation τ sig (Elt F)) :
    after ops W (Proc.devRef .tc main_c_16)
      = (constantI S_ 32 0#32) :=
  rb_nullary writesAll 173 main_c_16 (constantI S_ 32 0#32) _ rfl (by decide) W

theorem rbf_main_v109 (W : Valuation τ sig (Elt F)) :
    after ops W (Proc.devRef .tc main_v109)
      = (broadcastInDim S1600000 ![] bcast_S_S1600000 : (⟨S_, .i32⟩ : BufTy).Contents (Elt F) → (⟨S1600000, .i32⟩ : BufTy).Contents (Elt F)) (after ops W (Proc.devRef .tc main_c_16)) :=
  rb_unary writesAll 174 main_c_16 main_v109 (broadcastInDim S1600000 ![] bcast_S_S1600000 : (⟨S_, .i32⟩ : BufTy).Contents (Elt F) → (⟨S1600000, .i32⟩ : BufTy).Contents (Elt F)) _ _ rfl (by decide) (by decide) W

theorem rbf_main_v110 (W : Valuation τ sig (Elt F)) :
    after ops W (Proc.devRef .tc main_v110)
      = (cmpi .slt : (⟨S1600000, .i32⟩ : BufTy).Contents (Elt F) → (⟨S1600000, .i32⟩ : BufTy).Contents (Elt F) → (⟨S1600000, .i1⟩ : BufTy).Contents (Elt F)) (after ops W (Proc.devRef .tc main_v1)) (after ops W (Proc.devRef .tc main_v109)) :=
  rb_binary writesAll 175 main_v1 main_v109 main_v110 (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide) W

theorem rbf_main_c_17 (W : Valuation τ sig (Elt F)) :
    after ops W (Proc.devRef .tc main_c_17)
      = (constantI S_ 32 100000#32) :=
  rb_nullary writesAll 176 main_c_17 (constantI S_ 32 100000#32) _ rfl (by decide) W

theorem rbf_main_v111 (W : Valuation τ sig (Elt F)) :
    after ops W (Proc.devRef .tc main_v111)
      = (broadcastInDim S1600000 ![] bcast_S_S1600000 : (⟨S_, .i32⟩ : BufTy).Contents (Elt F) → (⟨S1600000, .i32⟩ : BufTy).Contents (Elt F)) (after ops W (Proc.devRef .tc main_c_17)) :=
  rb_unary writesAll 177 main_c_17 main_v111 (broadcastInDim S1600000 ![] bcast_S_S1600000 : (⟨S_, .i32⟩ : BufTy).Contents (Elt F) → (⟨S1600000, .i32⟩ : BufTy).Contents (Elt F)) _ _ rfl (by decide) (by decide) W

theorem rbf_main_v112 (W : Valuation τ sig (Elt F)) :
    after ops W (Proc.devRef .tc main_v112)
      = (addi : (⟨S1600000, .i32⟩ : BufTy).Contents (Elt F) → (⟨S1600000, .i32⟩ : BufTy).Contents (Elt F) → (⟨S1600000, .i32⟩ : BufTy).Contents (Elt F)) (after ops W (Proc.devRef .tc main_v1)) (after ops W (Proc.devRef .tc main_v111)) :=
  rb_binary writesAll 178 main_v1 main_v111 main_v112 (addi : (⟨S1600000, .i32⟩ : BufTy).Contents (Elt F) → (⟨S1600000, .i32⟩ : BufTy).Contents (Elt F) → (⟨S1600000, .i32⟩ : BufTy).Contents (Elt F)) _ _ _ rfl (by decide) (by decide) (by decide) W

theorem rbf_main_v113 (W : Valuation τ sig (Elt F)) :
    after ops W (Proc.devRef .tc main_v113)
      = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops W (Proc.devRef .tc main_v110)) (after ops W (Proc.devRef .tc main_v112)) (after ops W (Proc.devRef .tc main_v1)) :=
  rb_ternary writesAll 179 main_v110 main_v112 main_v1 main_v113 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide) W

theorem rbf_main_v114 (W : Valuation τ sig (Elt F)) :
    after ops W (Proc.devRef .tc main_v114)
      = (broadcastInDim S1600000x1 ![0] bcast_S1600000_S1600000x1_0 : (⟨S1600000, .i32⟩ : BufTy).Contents (Elt F) → (⟨S1600000x1, .i32⟩ : BufTy).Contents (Elt F)) (after ops W (Proc.devRef .tc main_v113)) :=
  rb_unary writesAll 180 main_v113 main_v114 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rbf_main_v115 (W : Valuation τ sig (Elt F)) :
    after ops W (Proc.devRef .tc main_v115)
      = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops W (Proc.devRef .tc main_v108)) (after ops W (Proc.devRef .tc main_v114)) :=
  rb_binary writesAll 181 main_v108 main_v114 main_v115 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (by decide) (by decide) (by decide) W

theorem rbf_main_cst_18 (W : Valuation τ sig (Elt F)) :
    after ops W (Proc.devRef .tc main_cst_18)
      = (constant S_ .f32 0x00000000#32) :=
  rb_nullary writesAll 182 main_cst_18 (constant S_ .f32 0x00000000#32) _ rfl (by decide) W

theorem rbf_main_v116 (W : Valuation τ sig (Elt F)) :
    after ops W (Proc.devRef .tc main_v116)
      = (broadcastInDim S100000x128 ![] bcast_S_S100000x128 : (⟨S_, .f32⟩ : BufTy).Contents (Elt F) → (⟨S100000x128, .f32⟩ : BufTy).Contents (Elt F)) (after ops W (Proc.devRef .tc main_cst_18)) :=
  rb_unary writesAll 183 main_cst_18 main_v116 (broadcastInDim S100000x128 ![] bcast_S_S100000x128 : (⟨S_, .f32⟩ : BufTy).Contents (Elt F) → (⟨S100000x128, .f32⟩ : BufTy).Contents (Elt F)) _ _ rfl (by decide) (by decide) W

theorem rbf_main_v117 (W : Valuation τ sig (Elt F)) :
    after ops W (Proc.devRef .tc main_v117)
      = (broadcastInDim S1600000x1 ![0] bcast_S1600000_S1600000x1_0 : (⟨S1600000, .i32⟩ : BufTy).Contents (Elt F) → (⟨S1600000x1, .i32⟩ : BufTy).Contents (Elt F)) (after ops W (Proc.devRef .tc main_v3)) :=
  rb_unary writesAll 184 main_v3 main_v117 (broadcastInDim S1600000x1 ![0] bcast_S1600000_S1600000x1_0 : (⟨S1600000, .i32⟩ : BufTy).Contents (Elt F) → (⟨S1600000x1, .i32⟩ : BufTy).Contents (Elt F)) _ _ rfl (by decide) (by decide) W

theorem rbf_main_v118 (W : Valuation τ sig (Elt F)) :
    after ops W (Proc.devRef .tc main_v118)
      = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops W (Proc.devRef .tc main_v116)) (after ops W (Proc.devRef .tc main_v117)) (after ops W (Proc.devRef .tc main_v115)) :=
  rb_ternary writesAll 185 main_v116 main_v117 main_v115 main_v118 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (by decide) (by decide) (by decide) (by decide) W

theorem rbf_main_v119 (W : Valuation τ sig (Elt F)) :
    after ops W (Proc.devRef .tc main_v119)
      = (broadcastInDim S100000x128 ![0, 1] bcast_S100000x1_S100000x128_0_1 : (⟨S100000x1, .f32⟩ : BufTy).Contents (Elt F) → (⟨S100000x128, .f32⟩ : BufTy).Contents (Elt F)) (after ops W (Proc.devRef .tc main_v12)) :=
  rb_unary writesAll 186 main_v12 main_v119 (broadcastInDim S100000x128 ![0, 1] bcast_S100000x1_S100000x128_0_1 : (⟨S100000x1, .f32⟩ : BufTy).Contents (Elt F) → (⟨S100000x128, .f32⟩ : BufTy).Contents (Elt F)) _ _ rfl (by decide) (by decide) W

theorem rbf_main_v120 (W : Valuation τ sig (Elt F)) :
    after ops W (Proc.devRef .tc main_v120)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v118)) (after ops W (Proc.devRef .tc main_v119)) :=
  rb_binary writesAll 187 main_v118 main_v119 main_v120 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v121 (W : Valuation τ sig (Elt F)) :
    after ops W (Proc.devRef .tc main_v121)
      = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops W (Proc.devRef .tc main_arg2)) :=
  rb_unary writesAll 188 main_arg2 main_v121 ((extractStridedSlice S1x128x128 ![2, 0, 0] · slices_S3x128x128_S1x128x128_2_0_0) : (⟨S3x128x128, .f32⟩ : BufTy).Contents (Elt F) → (⟨S1x128x128, .f32⟩ : BufTy).Contents (Elt F)) _ _ rfl (by decide) (by decide) W

theorem rbf_main_v122 (W : Valuation τ sig (Elt F)) :
    after ops W (Proc.devRef .tc main_v122)
      = shapeCast S128x128 (after ops W (Proc.devRef .tc main_v121)) shapeCasts_S1x128x128_S128x128 :=
  (rb_reshape writesAll 189 main_v121 main_v122 rfl shapeCasts_S1x128x128_S128x128 _ _ rfl (by decide) (by decide) W).trans rfl

theorem rbf_main_v123 (W : Valuation τ sig (Elt F)) :
    after ops W (Proc.devRef .tc main_v123)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops W (Proc.devRef .tc main_v120)) (after ops W (Proc.devRef .tc main_v122)) :=
  rb_binary writesAll 190 main_v120 main_v122 main_v123 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rbf_main_v124 (W : Valuation τ sig (Elt F)) :
    after ops W (Proc.devRef .tc main_v124)
      = ((extractStridedSlice S1x128 ![2, 0] · slices_S3x128_S1x128_2_0) : (⟨S3x128, .f32⟩ : BufTy).Contents (Elt F) → (⟨S1x128, .f32⟩ : BufTy).Contents (Elt F)) (after ops W (Proc.devRef .tc main_arg3)) :=
  rb_unary writesAll 191 main_arg3 main_v124 ((extractStridedSlice S1x128 ![2, 0] · slices_S3x128_S1x128_2_0) : (⟨S3x128, .f32⟩ : BufTy).Contents (Elt F) → (⟨S1x128, .f32⟩ : BufTy).Contents (Elt F)) _ _ rfl (by decide) (by decide) W

theorem rbf_main_v125 (W : Valuation τ sig (Elt F)) :
    after ops W (Proc.devRef .tc main_v125)
      = shapeCast S128 (after ops W (Proc.devRef .tc main_v124)) shapeCasts_S1x128_S128 :=
  (rb_reshape writesAll 192 main_v124 main_v125 rfl shapeCasts_S1x128_S128 _ _ rfl (by decide) (by decide) W).trans rfl

theorem rbf_main_v126 (W : Valuation τ sig (Elt F)) :
    after ops W (Proc.devRef .tc main_v126)
      = (broadcastInDim S1x128 ![1] bcast_S128_S1x128_1 : (⟨S128, .f32⟩ : BufTy).Contents (Elt F) → (⟨S1x128, .f32⟩ : BufTy).Contents (Elt F)) (after ops W (Proc.devRef .tc main_v125)) :=
  rb_unary writesAll 193 main_v125 main_v126 (broadcastInDim S1x128 ![1] bcast_S128_S1x128_1 : (⟨S128, .f32⟩ : BufTy).Contents (Elt F) → (⟨S1x128, .f32⟩ : BufTy).Contents (Elt F)) _ _ rfl (by decide) (by decide) W

theorem rbf_main_v127 (W : Valuation τ sig (Elt F)) :
    after ops W (Proc.devRef .tc main_v127)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v126)) :=
  rb_unary writesAll 194 main_v126 main_v127 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v128 (W : Valuation τ sig (Elt F)) :
    after ops W (Proc.devRef .tc main_v128)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v123)) (after ops W (Proc.devRef .tc main_v127)) :=
  rb_binary writesAll 195 main_v123 main_v127 main_v128 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v129 (W : Valuation τ sig (Elt F)) :
    after ops W (Proc.devRef .tc main_v129)
      = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops W (Proc.devRef .tc main_arg4)) :=
  rb_unary writesAll 196 main_arg4 main_v129 ((extractStridedSlice S1x128x128 ![2, 0, 0] · slices_S3x128x128_S1x128x128_2_0_0) : (⟨S3x128x128, .f32⟩ : BufTy).Contents (Elt F) → (⟨S1x128x128, .f32⟩ : BufTy).Contents (Elt F)) _ _ rfl (by decide) (by decide) W

theorem rbf_main_v130 (W : Valuation τ sig (Elt F)) :
    after ops W (Proc.devRef .tc main_v130)
      = shapeCast S128x128 (after ops W (Proc.devRef .tc main_v129)) shapeCasts_S1x128x128_S128x128 :=
  (rb_reshape writesAll 197 main_v129 main_v130 rfl shapeCasts_S1x128x128_S128x128 _ _ rfl (by decide) (by decide) W).trans rfl

theorem rbf_main_v131 (W : Valuation τ sig (Elt F)) :
    after ops W (Proc.devRef .tc main_v131)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops W (Proc.devRef .tc main_v108)) (after ops W (Proc.devRef .tc main_v130)) :=
  rb_binary writesAll 198 main_v108 main_v130 main_v131 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (by decide) (by decide) (by decide) W

theorem rbf_main_v132 (W : Valuation τ sig (Elt F)) :
    after ops W (Proc.devRef .tc main_v132)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v128)) (after ops W (Proc.devRef .tc main_v131)) :=
  rb_binary writesAll 199 main_v128 main_v131 main_v132 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v133 (W : Valuation τ sig (Elt F)) :
    after ops W (Proc.devRef .tc main_v133)
      = ((extractStridedSlice S1x128 ![2, 0] · slices_S3x128_S1x128_2_0) : (⟨S3x128, .f32⟩ : BufTy).Contents (Elt F) → (⟨S1x128, .f32⟩ : BufTy).Contents (Elt F)) (after ops W (Proc.devRef .tc main_arg5)) :=
  rb_unary writesAll 200 main_arg5 main_v133 ((extractStridedSlice S1x128 ![2, 0] · slices_S3x128_S1x128_2_0) : (⟨S3x128, .f32⟩ : BufTy).Contents (Elt F) → (⟨S1x128, .f32⟩ : BufTy).Contents (Elt F)) _ _ rfl (by decide) (by decide) W

theorem rbf_main_v134 (W : Valuation τ sig (Elt F)) :
    after ops W (Proc.devRef .tc main_v134)
      = shapeCast S128 (after ops W (Proc.devRef .tc main_v133)) shapeCasts_S1x128_S128 :=
  (rb_reshape writesAll 201 main_v133 main_v134 rfl shapeCasts_S1x128_S128 _ _ rfl (by decide) (by decide) W).trans rfl

theorem rbf_main_v135 (W : Valuation τ sig (Elt F)) :
    after ops W (Proc.devRef .tc main_v135)
      = ((extractStridedSlice S1x128 ![2, 0] · slices_S3x128_S1x128_2_0) : (⟨S3x128, .f32⟩ : BufTy).Contents (Elt F) → (⟨S1x128, .f32⟩ : BufTy).Contents (Elt F)) (after ops W (Proc.devRef .tc main_arg6)) :=
  rb_unary writesAll 202 main_arg6 main_v135 ((extractStridedSlice S1x128 ![2, 0] · slices_S3x128_S1x128_2_0) : (⟨S3x128, .f32⟩ : BufTy).Contents (Elt F) → (⟨S1x128, .f32⟩ : BufTy).Contents (Elt F)) _ _ rfl (by decide) (by decide) W

theorem rbf_main_v136 (W : Valuation τ sig (Elt F)) :
    after ops W (Proc.devRef .tc main_v136)
      = shapeCast S128 (after ops W (Proc.devRef .tc main_v135)) shapeCasts_S1x128_S128 :=
  (rb_reshape writesAll 203 main_v135 main_v136 rfl shapeCasts_S1x128_S128 _ _ rfl (by decide) (by decide) W).trans rfl

theorem rbf_main_cst_19 (W : Valuation τ sig (Elt F)) :
    after ops W (Proc.devRef .tc main_cst_19)
      = (constant S_ .f32 0x00000000#32) :=
  rb_nullary writesAll 204 main_cst_19 (constant S_ .f32 0x00000000#32) _ rfl (by decide) W

theorem rbf_main_v137 (W : Valuation τ sig (Elt F)) :
    after ops W (Proc.devRef .tc main_v137)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v132)) (after ops W (Proc.devRef .tc main_cst_19)) :=
  rb_binary writesAll 205 main_v132 main_cst_19 main_v137 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rbf_main_cst_20 (W : Valuation τ sig (Elt F)) :
    after ops W (Proc.devRef .tc main_cst_20)
      = (constant S_ .f32 0x47C35000#32) :=
  rb_nullary writesAll 206 main_cst_20 (constant S_ .f32 0x47C35000#32) _ rfl (by decide) W

theorem rbf_main_v138 (W : Valuation τ sig (Elt F)) :
    after ops W (Proc.devRef .tc main_v138)
      = (broadcastInDim S128 ![] bcast_S_S128 : (⟨S_, .f32⟩ : BufTy).Contents (Elt F) → (⟨S128, .f32⟩ : BufTy).Contents (Elt F)) (after ops W (Proc.devRef .tc main_cst_20)) :=
  rb_unary writesAll 207 main_cst_20 main_v138 (broadcastInDim S128 ![] bcast_S_S128 : (⟨S_, .f32⟩ : BufTy).Contents (Elt F) → (⟨S128, .f32⟩ : BufTy).Contents (Elt F)) _ _ rfl (by decide) (by decide) W

theorem rbf_main_v139 (W : Valuation τ sig (Elt F)) :
    after ops W (Proc.devRef .tc main_v139)
      = (Host.divf : (⟨S128, .f32⟩ : BufTy).Contents (Elt F) → (⟨S128, .f32⟩ : BufTy).Contents (Elt F) → (⟨S128, .f32⟩ : BufTy).Contents (Elt F)) (after ops W (Proc.devRef .tc main_v137)) (after ops W (Proc.devRef .tc main_v138)) :=
  rb_binary writesAll 208 main_v137 main_v138 main_v139 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_c_21 (W : Valuation τ sig (Elt F)) :
    after ops W (Proc.devRef .tc main_c_21)
      = (constantI S_ 32 0#32) :=
  rb_nullary writesAll 209 main_c_21 (constantI S_ 32 0#32) _ rfl (by decide) W

theorem rbf_main_call4_cst (W : Valuation τ sig (Elt F)) :
    after ops W (Proc.devRef .tc main_call4_cst)
      = ((constant S_ .f32 0x00000000#32) : (⟨S_, .f32⟩ : BufTy).Contents (Elt F)) :=
  rb_tnullary writesAll 210 main_call4.cst ((constant S_ .f32 0x00000000#32) : (⟨S_, .f32⟩ : BufTy).Contents (Elt F)) rfl (by decide) W

theorem rbf_main_call4_v0 (W : Valuation τ sig (Elt F)) :
    after ops W (Proc.devRef .tc main_call4_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v132)) (after ops W (Proc.devRef .tc main_call4_cst)) :=
  rb_tbinary writesAll 211 (.of main_v132 : StableHlo.TRef sig ⟨S100000x128, .f32⟩) main_call4.cst main_call4.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call4_v1 (W : Valuation τ sig (Elt F)) :
    after ops W (Proc.devRef .tc main_call4_v1)
      = ((broadcastInDim S1x128 ![1] bcast_S128_S1x128_1) : (⟨S128, .f32⟩ : BufTy).Contents (Elt F) → (⟨S1x128, .f32⟩ : BufTy).Contents (Elt F)) (after ops W (Proc.devRef .tc main_call4_v0)) :=
  rb_tunary writesAll 212 main_call4.v0 main_call4.v1 ((broadcastInDim S1x128 ![1] bcast_S128_S1x128_1) : (⟨S128, .f32⟩ : BufTy).Contents (Elt F) → (⟨S1x128, .f32⟩ : BufTy).Contents (Elt F)) rfl (by decide) (by decide) W

theorem rbf_main_call4_cst_0 (W : Valuation τ sig (Elt F)) :
    after ops W (Proc.devRef .tc main_call4_cst_0)
      = ((constant S_ .f32 0x47C35000#32) : (⟨S_, .f32⟩ : BufTy).Contents (Elt F)) :=
  rb_tnullary writesAll 213 main_call4.cst_0 ((constant S_ .f32 0x47C35000#32) : (⟨S_, .f32⟩ : BufTy).Contents (Elt F)) rfl (by decide) W

theorem rbf_main_call4_v2 (W : Valuation τ sig (Elt F)) :
    after ops W (Proc.devRef .tc main_call4_v2)
      = ((broadcastInDim S1x128 ![] bcast_S_S1x128) : (⟨S_, .f32⟩ : BufTy).Contents (Elt F) → (⟨S1x128, .f32⟩ : BufTy).Contents (Elt F)) (after ops W (Proc.devRef .tc main_call4_cst_0)) :=
  rb_tunary writesAll 214 main_call4.cst_0 main_call4.v2 ((broadcastInDim S1x128 ![] bcast_S_S1x128) : (⟨S_, .f32⟩ : BufTy).Contents (Elt F) → (⟨S1x128, .f32⟩ : BufTy).Contents (Elt F)) rfl (by decide) (by decide) W

theorem rbf_main_call4_v3 (W : Valuation τ sig (Elt F)) :
    after ops W (Proc.devRef .tc main_call4_v3)
      = (Host.divf : (⟨S1x128, .f32⟩ : BufTy).Contents (Elt F) → (⟨S1x128, .f32⟩ : BufTy).Contents (Elt F) → (⟨S1x128, .f32⟩ : BufTy).Contents (Elt F)) (after ops W (Proc.devRef .tc main_call4_v1)) (after ops W (Proc.devRef .tc main_call4_v2)) :=
  rb_tbinary writesAll 215 main_call4.v1 main_call4.v2 main_call4.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rbf_main_call4_v4 (W : Valuation τ sig (Elt F)) :
    after ops W (Proc.devRef .tc main_call4_v4)
      = ((broadcastInDim S100000x128 ![0, 1] bcast_S1x128_S100000x128_0_1) : (⟨S1x128, .f32⟩ : BufTy).Contents (Elt F) → (⟨S100000x128, .f32⟩ : BufTy).Contents (Elt F)) (after ops W (Proc.devRef .tc main_call4_v3)) :=
  rb_tunary writesAll 216 main_call4.v3 main_call4.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rbf_main_call4_v5 (W : Valuation τ sig (Elt F)) :
    after ops W (Proc.devRef .tc main_call4_v5)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v132)) (after ops W (Proc.devRef .tc main_call4_v4)) :=
  rb_tbinary writesAll 217 (.of main_v132 : StableHlo.TRef sig ⟨S100000x128, .f32⟩) main_call4.v4 main_call4.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call4_v6 (W : Valuation τ sig (Elt F)) :
    after ops W (Proc.devRef .tc main_call4_v6)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_call4_v5)) (after ops W (Proc.devRef .tc main_call4_v5)) :=
  rb_tbinary writesAll 218 main_call4.v5 main_call4.v5 main_call4.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call4_v7 (W : Valuation τ sig (Elt F)) :
    after ops W (Proc.devRef .tc main_call4_v7)
      = ((sitofp .f32) : (⟨S_, .i32⟩ : BufTy).Contents (Elt F) → (⟨S_, .f32⟩ : BufTy).Contents (Elt F)) (after ops W (Proc.devRef .tc main_c_21)) :=
  rb_tunary writesAll 219 (.of main_c_21 : StableHlo.TRef sig ⟨S_, .i32⟩) main_call4.v7 ((sitofp .f32) : (⟨S_, .i32⟩ : BufTy).Contents (Elt F) → (⟨S_, .f32⟩ : BufTy).Contents (Elt F)) rfl (by decide) (by decide) W

theorem rbf_main_call4_cst_1 (W : Valuation τ sig (Elt F)) :
    after ops W (Proc.devRef .tc main_call4_cst_1)
      = ((constant S_ .f32 0x47C35000#32) : (⟨S_, .f32⟩ : BufTy).Contents (Elt F)) :=
  rb_tnullary writesAll 220 main_call4.cst_1 ((constant S_ .f32 0x47C35000#32) : (⟨S_, .f32⟩ : BufTy).Contents (Elt F)) rfl (by decide) W

theorem rbf_main_call4_v8 (W : Valuation τ sig (Elt F)) :
    after ops W (Proc.devRef .tc main_call4_v8)
      = (subf : (⟨S_, .f32⟩ : BufTy).Contents (Elt F) → (⟨S_, .f32⟩ : BufTy).Contents (Elt F) → (⟨S_, .f32⟩ : BufTy).Contents (Elt F)) (after ops W (Proc.devRef .tc main_call4_cst_1)) (after ops W (Proc.devRef .tc main_call4_v7)) :=
  rb_tbinary writesAll 221 main_call4.cst_1 main_call4.v7 main_call4.v8 (subf : (⟨S_, .f32⟩ : BufTy).Contents (Elt F) → (⟨S_, .f32⟩ : BufTy).Contents (Elt F) → (⟨S_, .f32⟩ : BufTy).Contents (Elt F)) rfl (by decide) (by decide) (by decide) W

theorem rbf_main_call4_cst_2 (W : Valuation τ sig (Elt F)) :
    after ops W (Proc.devRef .tc main_call4_cst_2)
      = ((constant S_ .f32 0x00000000#32) : (⟨S_, .f32⟩ : BufTy).Contents (Elt F)) :=
  rb_tnullary writesAll 222 main_call4.cst_2 ((constant S_ .f32 0x00000000#32) : (⟨S_, .f32⟩ : BufTy).Contents (Elt F)) rfl (by decide) W

theorem rbf_main_call4_v9 (W : Valuation τ sig (Elt F)) :
    after ops W (Proc.devRef .tc main_call4_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_call4_v6)) (after ops W (Proc.devRef .tc main_call4_cst_2)) :=
  rb_tbinary writesAll 223 main_call4.v6 main_call4.cst_2 main_call4.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call4_v10 (W : Valuation τ sig (Elt F)) :
    after ops W (Proc.devRef .tc main_call4_v10)
      = ((broadcastInDim S128 ![] bcast_S_S128) : (⟨S_, .f32⟩ : BufTy).Contents (Elt F) → (⟨S128, .f32⟩ : BufTy).Contents (Elt F)) (after ops W (Proc.devRef .tc main_call4_v8)) :=
  rb_tunary writesAll 224 main_call4.v8 main_call4.v10 ((broadcastInDim S128 ![] bcast_S_S128) : (⟨S_, .f32⟩ : BufTy).Contents (Elt F) → (⟨S128, .f32⟩ : BufTy).Contents (Elt F)) rfl (by decide) (by decide) W

theorem rbf_main_call4_v11 (W : Valuation τ sig (Elt F)) :
    after ops W (Proc.devRef .tc main_call4_v11)
      = (Host.divf : (⟨S128, .f32⟩ : BufTy).Contents (Elt F) → (⟨S128, .f32⟩ : BufTy).Contents (Elt F) → (⟨S128, .f32⟩ : BufTy).Contents (Elt F)) (after ops W (Proc.devRef .tc main_call4_v9)) (after ops W (Proc.devRef .tc main_call4_v10)) :=
  rb_tbinary writesAll 225 main_call4.v9 main_call4.v10 main_call4.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rbf_main_call4_cst_3 (W : Valuation τ sig (Elt F)) :
    after ops W (Proc.devRef .tc main_call4_cst_3)
      = ((constant S_ .f32 0x00000000#32) : (⟨S_, .f32⟩ : BufTy).Contents (Elt F)) :=
  rb_tnullary writesAll 226 main_call4.cst_3 ((constant S_ .f32 0x00000000#32) : (⟨S_, .f32⟩ : BufTy).Contents (Elt F)) rfl (by decide) W

theorem rbf_main_call4_v12 (W : Valuation τ sig (Elt F)) :
    after ops W (Proc.devRef .tc main_call4_v12)
      = ((cmpf .ogt) : (⟨S_, .f32⟩ : BufTy).Contents (Elt F) → (⟨S_, .f32⟩ : BufTy).Contents (Elt F) → (⟨S_, .i1⟩ : BufTy).Contents (Elt F)) (after ops W (Proc.devRef .tc main_call4_v8)) (after ops W (Proc.devRef .tc main_call4_cst_3)) :=
  rb_tbinary writesAll 227 main_call4.v8 main_call4.cst_3 main_call4.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rbf_main_call4_cst_4 (W : Valuation τ sig (Elt F)) :
    after ops W (Proc.devRef .tc main_call4_cst_4)
      = ((constant S_ .f32 0x7FC00000#32) : (⟨S_, .f32⟩ : BufTy).Contents (Elt F)) :=
  rb_tnullary writesAll 228 main_call4.cst_4 ((constant S_ .f32 0x7FC00000#32) : (⟨S_, .f32⟩ : BufTy).Contents (Elt F)) rfl (by decide) W

theorem rbf_main_call4_call0_v0 (W : Valuation τ sig (Elt F)) :
    after ops W (Proc.devRef .tc main_call4_call0_v0)
      = (id : (⟨S_, .f32⟩ : BufTy).Contents (Elt F) → (⟨S_, .f32⟩ : BufTy).Contents (Elt F)) (after ops W (Proc.devRef .tc main_call4_cst_4)) :=
  rb_tunary writesAll 229 main_call4.cst_4 main_call4.call0.v0 (id : (⟨S_, .f32⟩ : BufTy).Contents (Elt F) → (⟨S_, .f32⟩ : BufTy).Contents (Elt F)) rfl (by decide) (by decide) W

theorem rbf_main_call4_call0_v1 (W : Valuation τ sig (Elt F)) :
    after ops W (Proc.devRef .tc main_call4_call0_v1)
      = ((broadcastInDim S128 ![] bcast_S_S128) : (⟨S_, .f32⟩ : BufTy).Contents (Elt F) → (⟨S128, .f32⟩ : BufTy).Contents (Elt F)) (after ops W (Proc.devRef .tc main_call4_call0_v0)) :=
  rb_tunary writesAll 230 main_call4.call0.v0 main_call4.call0.v1 ((broadcastInDim S128 ![] bcast_S_S128) : (⟨S_, .f32⟩ : BufTy).Contents (Elt F) → (⟨S128, .f32⟩ : BufTy).Contents (Elt F)) rfl (by decide) (by decide) W

theorem rbf_main_v140 (W : Valuation τ sig (Elt F)) :
    after ops W (Proc.devRef .tc main_v140)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops W (Proc.devRef .tc main_call4_v12)) (after ops W (Proc.devRef .tc main_call4_v11)) (after ops W (Proc.devRef .tc main_call4_call0_v1)) :=
  rb_tternary writesAll 231 main_call4.v12 main_call4.v11 main_call4.call0.v1 main_call4.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rbf_main_v141 (W : Valuation τ sig (Elt F)) :
    after ops W (Proc.devRef .tc main_v141)
      = (broadcastInDim S1x128 ![1] bcast_S128_S1x128_1 : (⟨S128, .f32⟩ : BufTy).Contents (Elt F) → (⟨S1x128, .f32⟩ : BufTy).Contents (Elt F)) (after ops W (Proc.devRef .tc main_v139)) :=
  rb_unary writesAll 232 main_v139 main_v141 (broadcastInDim S1x128 ![1] bcast_S128_S1x128_1 : (⟨S128, .f32⟩ : BufTy).Contents (Elt F) → (⟨S1x128, .f32⟩ : BufTy).Contents (Elt F)) _ _ rfl (by decide) (by decide) W

theorem rbf_main_v142 (W : Valuation τ sig (Elt F)) :
    after ops W (Proc.devRef .tc main_v142)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v141)) :=
  rb_unary writesAll 233 main_v141 main_v142 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v143 (W : Valuation τ sig (Elt F)) :
    after ops W (Proc.devRef .tc main_v143)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v132)) (after ops W (Proc.devRef .tc main_v142)) :=
  rb_binary writesAll 234 main_v132 main_v142 main_v143 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_cst_22 (W : Valuation τ sig (Elt F)) :
    after ops W (Proc.devRef .tc main_cst_22)
      = (constant S_ .f32 0x3727C5AC#32) :=
  rb_nullary writesAll 235 main_cst_22 (constant S_ .f32 0x3727C5AC#32) _ rfl (by decide) W

theorem rbf_main_v144 (W : Valuation τ sig (Elt F)) :
    after ops W (Proc.devRef .tc main_v144)
      = (broadcastInDim S128 ![] bcast_S_S128 : (⟨S_, .f32⟩ : BufTy).Contents (Elt F) → (⟨S128, .f32⟩ : BufTy).Contents (Elt F)) (after ops W (Proc.devRef .tc main_cst_22)) :=
  rb_unary writesAll 236 main_cst_22 main_v144 (broadcastInDim S128 ![] bcast_S_S128 : (⟨S_, .f32⟩ : BufTy).Contents (Elt F) → (⟨S128, .f32⟩ : BufTy).Contents (Elt F)) _ _ rfl (by decide) (by decide) W

theorem rbf_main_v145 (W : Valuation τ sig (Elt F)) :
    after ops W (Proc.devRef .tc main_v145)
      = (addf : (⟨S128, .f32⟩ : BufTy).Contents (Elt F) → (⟨S128, .f32⟩ : BufTy).Contents (Elt F) → (⟨S128, .f32⟩ : BufTy).Contents (Elt F)) (after ops W (Proc.devRef .tc main_v140)) (after ops W (Proc.devRef .tc main_v144)) :=
  rb_binary writesAll 237 main_v140 main_v144 main_v145 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_v146 (W : Valuation τ sig (Elt F)) :
    after ops W (Proc.devRef .tc main_v146)
      = (Host.rsqrt : (⟨S128, .f32⟩ : BufTy).Contents (Elt F) → (⟨S128, .f32⟩ : BufTy).Contents (Elt F)) (after ops W (Proc.devRef .tc main_v145)) :=
  rb_unary writesAll 238 main_v145 main_v146 (Host.rsqrt : (⟨S128, .f32⟩ : BufTy).Contents (Elt F) → (⟨S128, .f32⟩ : BufTy).Contents (Elt F)) _ _ rfl (by decide) (by decide) W

theorem rbf_main_v147 (W : Valuation τ sig (Elt F)) :
    after ops W (Proc.devRef .tc main_v147)
      = (broadcastInDim S1x128 ![1] bcast_S128_S1x128_1 : (⟨S128, .f32⟩ : BufTy).Contents (Elt F) → (⟨S1x128, .f32⟩ : BufTy).Contents (Elt F)) (after ops W (Proc.devRef .tc main_v146)) :=
  rb_unary writesAll 239 main_v146 main_v147 (broadcastInDim S1x128 ![1] bcast_S128_S1x128_1 : (⟨S128, .f32⟩ : BufTy).Contents (Elt F) → (⟨S1x128, .f32⟩ : BufTy).Contents (Elt F)) _ _ rfl (by decide) (by decide) W

theorem rbf_main_v148 (W : Valuation τ sig (Elt F)) :
    after ops W (Proc.devRef .tc main_v148)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v147)) :=
  rb_unary writesAll 240 main_v147 main_v148 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v149 (W : Valuation τ sig (Elt F)) :
    after ops W (Proc.devRef .tc main_v149)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v143)) (after ops W (Proc.devRef .tc main_v148)) :=
  rb_binary writesAll 241 main_v143 main_v148 main_v149 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v150 (W : Valuation τ sig (Elt F)) :
    after ops W (Proc.devRef .tc main_v150)
      = (broadcastInDim S1x128 ![1] bcast_S128_S1x128_1 : (⟨S128, .f32⟩ : BufTy).Contents (Elt F) → (⟨S1x128, .f32⟩ : BufTy).Contents (Elt F)) (after ops W (Proc.devRef .tc main_v134)) :=
  rb_unary writesAll 242 main_v134 main_v150 (broadcastInDim S1x128 ![1] bcast_S128_S1x128_1 : (⟨S128, .f32⟩ : BufTy).Contents (Elt F) → (⟨S1x128, .f32⟩ : BufTy).Contents (Elt F)) _ _ rfl (by decide) (by decide) W

theorem rbf_main_v151 (W : Valuation τ sig (Elt F)) :
    after ops W (Proc.devRef .tc main_v151)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v150)) :=
  rb_unary writesAll 243 main_v150 main_v151 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v152 (W : Valuation τ sig (Elt F)) :
    after ops W (Proc.devRef .tc main_v152)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v149)) (after ops W (Proc.devRef .tc main_v151)) :=
  rb_binary writesAll 244 main_v149 main_v151 main_v152 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v153 (W : Valuation τ sig (Elt F)) :
    after ops W (Proc.devRef .tc main_v153)
      = (broadcastInDim S1x128 ![1] bcast_S128_S1x128_1 : (⟨S128, .f32⟩ : BufTy).Contents (Elt F) → (⟨S1x128, .f32⟩ : BufTy).Contents (Elt F)) (after ops W (Proc.devRef .tc main_v136)) :=
  rb_unary writesAll 245 main_v136 main_v153 (broadcastInDim S1x128 ![1] bcast_S128_S1x128_1 : (⟨S128, .f32⟩ : BufTy).Contents (Elt F) → (⟨S1x128, .f32⟩ : BufTy).Contents (Elt F)) _ _ rfl (by decide) (by decide) W

theorem rbf_main_v154 (W : Valuation τ sig (Elt F)) :
    after ops W (Proc.devRef .tc main_v154)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v153)) :=
  rb_unary writesAll 246 main_v153 main_v154 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v155 (W : Valuation τ sig (Elt F)) :
    after ops W (Proc.devRef .tc main_v155)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v152)) (after ops W (Proc.devRef .tc main_v154)) :=
  rb_binary writesAll 247 main_v152 main_v154 main_v155 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_call5_cst (W : Valuation τ sig (Elt F)) :
    after ops W (Proc.devRef .tc main_call5_cst)
      = ((constant S_ .f32 0x00000000#32) : (⟨S_, .f32⟩ : BufTy).Contents (Elt F)) :=
  rb_tnullary writesAll 248 main_call5.cst ((constant S_ .f32 0x00000000#32) : (⟨S_, .f32⟩ : BufTy).Contents (Elt F)) rfl (by decide) W

theorem rbf_main_call5_v0 (W : Valuation τ sig (Elt F)) :
    after ops W (Proc.devRef .tc main_call5_v0)
      = ((broadcastInDim S100000x128 ![] bcast_S_S100000x128) : (⟨S_, .f32⟩ : BufTy).Contents (Elt F) → (⟨S100000x128, .f32⟩ : BufTy).Contents (Elt F)) (after ops W (Proc.devRef .tc main_call5_cst)) :=
  rb_tunary writesAll 249 main_call5.cst main_call5.v0 ((broadcastInDim S100000x128 ![] bcast_S_S100000x128) : (⟨S_, .f32⟩ : BufTy).Contents (Elt F) → (⟨S100000x128, .f32⟩ : BufTy).Contents (Elt F)) rfl (by decide) (by decide) W

theorem rbf_main_v156 (W : Valuation τ sig (Elt F)) :
    after ops W (Proc.devRef .tc main_v156)
      = (maximumf : (⟨S100000x128, .f32⟩ : BufTy).Contents (Elt F) → (⟨S100000x128, .f32⟩ : BufTy).Contents (Elt F) → (⟨S100000x128, .f32⟩ : BufTy).Contents (Elt F)) (after ops W (Proc.devRef .tc main_v155)) (after ops W (Proc.devRef .tc main_call5_v0)) :=
  rb_tbinary writesAll 250 (.of main_v155 : StableHlo.TRef sig ⟨S100000x128, .f32⟩) main_call5.v0 main_call5.v1 (maximumf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_v157 (W : Valuation τ sig (Elt F)) :
    after ops W (Proc.devRef .tc main_v157)
      = concatenate S100000x512 1 [⟨S100000x128, (after ops W (Proc.devRef .tc main_arg0))⟩, ⟨S100000x128, (after ops W (Proc.devRef .tc main_v60))⟩, ⟨S100000x128, (after ops W (Proc.devRef .tc main_v108))⟩, ⟨S100000x128, (after ops W (Proc.devRef .tc main_v156))⟩] concatenates_S100000x128_S100000x128_S100000x128_S100000x128_S100000x512_d1 :=
  (rb_nary writesAll 251 ![main_arg0, main_v60, main_v108, main_v156] main_v157 (fun u => concatenate S100000x512 1 [⟨S100000x128, u 0⟩, ⟨S100000x128, u 1⟩, ⟨S100000x128, u 2⟩, ⟨S100000x128, u 3⟩] concatenates_S100000x128_S100000x128_S100000x128_S100000x128_S100000x512_d1) _ _ rfl (by decide) (by decide) W).trans rfl

theorem rbf_main_v158 (W : Valuation τ sig (Elt F)) :
    after ops W (Proc.devRef .tc main_v158)
      = ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)) (after ops W (Proc.devRef .tc main_v157)) (after ops W (Proc.devRef .tc main_arg7)) :=
  rb_binary writesAll 252 main_v157 main_arg7 main_v158 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)) _ _ _ rfl (by decide) (by decide) (by decide) W

theorem rbf_main_v159 (W : Valuation τ sig (Elt F)) :
    after ops W (Proc.devRef .tc main_v159)
      = (broadcastInDim S1x128 ![1] bcast_S128_S1x128_1 : (⟨S128, .f32⟩ : BufTy).Contents (Elt F) → (⟨S1x128, .f32⟩ : BufTy).Contents (Elt F)) (after ops W (Proc.devRef .tc main_arg8)) :=
  rb_unary writesAll 253 main_arg8 main_v159 (broadcastInDim S1x128 ![1] bcast_S128_S1x128_1 : (⟨S128, .f32⟩ : BufTy).Contents (Elt F) → (⟨S1x128, .f32⟩ : BufTy).Contents (Elt F)) _ _ rfl (by decide) (by decide) W

theorem rbf_main_v160 (W : Valuation τ sig (Elt F)) :
    after ops W (Proc.devRef .tc main_v160)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v159)) :=
  rb_unary writesAll 254 main_v159 main_v160 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v161 (W : Valuation τ sig (Elt F)) :
    after ops W (Proc.devRef .tc main_v161)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v158)) (after ops W (Proc.devRef .tc main_v160)) :=
  rb_binary writesAll 255 main_v158 main_v160 main_v161 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_cst_23 (W : Valuation τ sig (Elt F)) :
    after ops W (Proc.devRef .tc main_cst_23)
      = (constant S_ .f32 0x00000000#32) :=
  rb_nullary writesAll 256 main_cst_23 (constant S_ .f32 0x00000000#32) _ rfl (by decide) W

theorem rbf_main_v162 (W : Valuation τ sig (Elt F)) :
    after ops W (Proc.devRef .tc main_v162)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v161)) (after ops W (Proc.devRef .tc main_cst_23)) :=
  rb_binary writesAll 257 main_v161 main_cst_23 main_v162 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (by decide) (by decide) (by decide) W

theorem rbf_main_cst_24 (W : Valuation τ sig (Elt F)) :
    after ops W (Proc.devRef .tc main_cst_24)
      = (constant S_ .f32 0x47C35000#32) :=
  rb_nullary writesAll 258 main_cst_24 (constant S_ .f32 0x47C35000#32) _ rfl (by decide) W

theorem rbf_main_v163 (W : Valuation τ sig (Elt F)) :
    after ops W (Proc.devRef .tc main_v163)
      = (broadcastInDim S128 ![] bcast_S_S128 : (⟨S_, .f32⟩ : BufTy).Contents (Elt F) → (⟨S128, .f32⟩ : BufTy).Contents (Elt F)) (after ops W (Proc.devRef .tc main_cst_24)) :=
  rb_unary writesAll 259 main_cst_24 main_v163 (broadcastInDim S128 ![] bcast_S_S128 : (⟨S_, .f32⟩ : BufTy).Contents (Elt F) → (⟨S128, .f32⟩ : BufTy).Contents (Elt F)) _ _ rfl (by decide) (by decide) W

theorem rbf_main_v164 (W : Valuation τ sig (Elt F)) :
    after ops W (Proc.devRef .tc main_v164)
      = (Host.divf : (⟨S128, .f32⟩ : BufTy).Contents (Elt F) → (⟨S128, .f32⟩ : BufTy).Contents (Elt F) → (⟨S128, .f32⟩ : BufTy).Contents (Elt F)) (after ops W (Proc.devRef .tc main_v162)) (after ops W (Proc.devRef .tc main_v163)) :=
  rb_binary writesAll 260 main_v162 main_v163 main_v164 (Host.divf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_c_25 (W : Valuation τ sig (Elt F)) :
    after ops W (Proc.devRef .tc main_c_25)
      = (constantI S_ 32 0#32) :=
  rb_nullary writesAll 261 main_c_25 (constantI S_ 32 0#32) _ rfl (by decide) W

theorem rbf_main_call6_cst (W : Valuation τ sig (Elt F)) :
    after ops W (Proc.devRef .tc main_call6_cst)
      = ((constant S_ .f32 0x00000000#32) : (⟨S_, .f32⟩ : BufTy).Contents (Elt F)) :=
  rb_tnullary writesAll 262 main_call6.cst ((constant S_ .f32 0x00000000#32) : (⟨S_, .f32⟩ : BufTy).Contents (Elt F)) rfl (by decide) W

theorem rbf_main_call6_v0 (W : Valuation τ sig (Elt F)) :
    after ops W (Proc.devRef .tc main_call6_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_v161)) (after ops W (Proc.devRef .tc main_call6_cst)) :=
  rb_tbinary writesAll 263 (.of main_v161 : StableHlo.TRef sig ⟨S100000x128, .f32⟩) main_call6.cst main_call6.v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call6_v1 (W : Valuation τ sig (Elt F)) :
    after ops W (Proc.devRef .tc main_call6_v1)
      = ((broadcastInDim S1x128 ![1] bcast_S128_S1x128_1) : (⟨S128, .f32⟩ : BufTy).Contents (Elt F) → (⟨S1x128, .f32⟩ : BufTy).Contents (Elt F)) (after ops W (Proc.devRef .tc main_call6_v0)) :=
  rb_tunary writesAll 264 main_call6.v0 main_call6.v1 ((broadcastInDim S1x128 ![1] bcast_S128_S1x128_1) : (⟨S128, .f32⟩ : BufTy).Contents (Elt F) → (⟨S1x128, .f32⟩ : BufTy).Contents (Elt F)) rfl (by decide) (by decide) W

theorem rbf_main_call6_cst_0 (W : Valuation τ sig (Elt F)) :
    after ops W (Proc.devRef .tc main_call6_cst_0)
      = ((constant S_ .f32 0x47C35000#32) : (⟨S_, .f32⟩ : BufTy).Contents (Elt F)) :=
  rb_tnullary writesAll 265 main_call6.cst_0 ((constant S_ .f32 0x47C35000#32) : (⟨S_, .f32⟩ : BufTy).Contents (Elt F)) rfl (by decide) W

theorem rbf_main_call6_v2 (W : Valuation τ sig (Elt F)) :
    after ops W (Proc.devRef .tc main_call6_v2)
      = ((broadcastInDim S1x128 ![] bcast_S_S1x128) : (⟨S_, .f32⟩ : BufTy).Contents (Elt F) → (⟨S1x128, .f32⟩ : BufTy).Contents (Elt F)) (after ops W (Proc.devRef .tc main_call6_cst_0)) :=
  rb_tunary writesAll 266 main_call6.cst_0 main_call6.v2 ((broadcastInDim S1x128 ![] bcast_S_S1x128) : (⟨S_, .f32⟩ : BufTy).Contents (Elt F) → (⟨S1x128, .f32⟩ : BufTy).Contents (Elt F)) rfl (by decide) (by decide) W

theorem rbf_main_call6_v3 (W : Valuation τ sig (Elt F)) :
    after ops W (Proc.devRef .tc main_call6_v3)
      = (Host.divf : (⟨S1x128, .f32⟩ : BufTy).Contents (Elt F) → (⟨S1x128, .f32⟩ : BufTy).Contents (Elt F) → (⟨S1x128, .f32⟩ : BufTy).Contents (Elt F)) (after ops W (Proc.devRef .tc main_call6_v1)) (after ops W (Proc.devRef .tc main_call6_v2)) :=
  rb_tbinary writesAll 267 main_call6.v1 main_call6.v2 main_call6.v3 (Host.divf : (⟨S1x128, .f32⟩ : BufTy).Contents (Elt F) → (⟨S1x128, .f32⟩ : BufTy).Contents (Elt F) → (⟨S1x128, .f32⟩ : BufTy).Contents (Elt F)) rfl (by decide) (by decide) (by decide) W

theorem rbf_main_call6_v4 (W : Valuation τ sig (Elt F)) :
    after ops W (Proc.devRef .tc main_call6_v4)
      = ((broadcastInDim S100000x128 ![0, 1] bcast_S1x128_S100000x128_0_1) : (⟨S1x128, .f32⟩ : BufTy).Contents (Elt F) → (⟨S100000x128, .f32⟩ : BufTy).Contents (Elt F)) (after ops W (Proc.devRef .tc main_call6_v3)) :=
  rb_tunary writesAll 268 main_call6.v3 main_call6.v4 ((broadcastInDim S100000x128 ![0, 1] bcast_S1x128_S100000x128_0_1) : (⟨S1x128, .f32⟩ : BufTy).Contents (Elt F) → (⟨S100000x128, .f32⟩ : BufTy).Contents (Elt F)) rfl (by decide) (by decide) W

theorem rbf_main_call6_v5 (W : Valuation τ sig (Elt F)) :
    after ops W (Proc.devRef .tc main_call6_v5)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v161)) (after ops W (Proc.devRef .tc main_call6_v4)) :=
  rb_tbinary writesAll 269 (.of main_v161 : StableHlo.TRef sig ⟨S100000x128, .f32⟩) main_call6.v4 main_call6.v5 (subf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call6_v6 (W : Valuation τ sig (Elt F)) :
    after ops W (Proc.devRef .tc main_call6_v6)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_call6_v5)) (after ops W (Proc.devRef .tc main_call6_v5)) :=
  rb_tbinary writesAll 270 main_call6.v5 main_call6.v5 main_call6.v6 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_call6_v7 (W : Valuation τ sig (Elt F)) :
    after ops W (Proc.devRef .tc main_call6_v7)
      = ((sitofp .f32) : (⟨S_, .i32⟩ : BufTy).Contents (Elt F) → (⟨S_, .f32⟩ : BufTy).Contents (Elt F)) (after ops W (Proc.devRef .tc main_c_25)) :=
  rb_tunary writesAll 271 (.of main_c_25 : StableHlo.TRef sig ⟨S_, .i32⟩) main_call6.v7 ((sitofp .f32) : (⟨S_, .i32⟩ : BufTy).Contents (Elt F) → (⟨S_, .f32⟩ : BufTy).Contents (Elt F)) rfl (by decide) (by decide) W

theorem rbf_main_call6_cst_1 (W : Valuation τ sig (Elt F)) :
    after ops W (Proc.devRef .tc main_call6_cst_1)
      = ((constant S_ .f32 0x47C35000#32) : (⟨S_, .f32⟩ : BufTy).Contents (Elt F)) :=
  rb_tnullary writesAll 272 main_call6.cst_1 ((constant S_ .f32 0x47C35000#32) : (⟨S_, .f32⟩ : BufTy).Contents (Elt F)) rfl (by decide) W

theorem rbf_main_call6_v8 (W : Valuation τ sig (Elt F)) :
    after ops W (Proc.devRef .tc main_call6_v8)
      = (subf : (⟨S_, .f32⟩ : BufTy).Contents (Elt F) → (⟨S_, .f32⟩ : BufTy).Contents (Elt F) → (⟨S_, .f32⟩ : BufTy).Contents (Elt F)) (after ops W (Proc.devRef .tc main_call6_cst_1)) (after ops W (Proc.devRef .tc main_call6_v7)) :=
  rb_tbinary writesAll 273 main_call6.cst_1 main_call6.v7 main_call6.v8 (subf : (⟨S_, .f32⟩ : BufTy).Contents (Elt F) → (⟨S_, .f32⟩ : BufTy).Contents (Elt F) → (⟨S_, .f32⟩ : BufTy).Contents (Elt F)) rfl (by decide) (by decide) (by decide) W

theorem rbf_main_call6_cst_2 (W : Valuation τ sig (Elt F)) :
    after ops W (Proc.devRef .tc main_call6_cst_2)
      = ((constant S_ .f32 0x00000000#32) : (⟨S_, .f32⟩ : BufTy).Contents (Elt F)) :=
  rb_tnullary writesAll 274 main_call6.cst_2 ((constant S_ .f32 0x00000000#32) : (⟨S_, .f32⟩ : BufTy).Contents (Elt F)) rfl (by decide) W

theorem rbf_main_call6_v9 (W : Valuation τ sig (Elt F)) :
    after ops W (Proc.devRef .tc main_call6_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops W (Proc.devRef .tc main_call6_v6)) (after ops W (Proc.devRef .tc main_call6_cst_2)) :=
  rb_tbinary writesAll 275 main_call6.v6 main_call6.cst_2 main_call6.v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) rfl (by decide) (by decide) (by decide) W

theorem rbf_main_call6_v10 (W : Valuation τ sig (Elt F)) :
    after ops W (Proc.devRef .tc main_call6_v10)
      = ((broadcastInDim S128 ![] bcast_S_S128) : (⟨S_, .f32⟩ : BufTy).Contents (Elt F) → (⟨S128, .f32⟩ : BufTy).Contents (Elt F)) (after ops W (Proc.devRef .tc main_call6_v8)) :=
  rb_tunary writesAll 276 main_call6.v8 main_call6.v10 ((broadcastInDim S128 ![] bcast_S_S128) : (⟨S_, .f32⟩ : BufTy).Contents (Elt F) → (⟨S128, .f32⟩ : BufTy).Contents (Elt F)) rfl (by decide) (by decide) W

theorem rbf_main_call6_v11 (W : Valuation τ sig (Elt F)) :
    after ops W (Proc.devRef .tc main_call6_v11)
      = (Host.divf : (⟨S128, .f32⟩ : BufTy).Contents (Elt F) → (⟨S128, .f32⟩ : BufTy).Contents (Elt F) → (⟨S128, .f32⟩ : BufTy).Contents (Elt F)) (after ops W (Proc.devRef .tc main_call6_v9)) (after ops W (Proc.devRef .tc main_call6_v10)) :=
  rb_tbinary writesAll 277 main_call6.v9 main_call6.v10 main_call6.v11 (Host.divf : (⟨S128, .f32⟩ : BufTy).Contents (Elt F) → (⟨S128, .f32⟩ : BufTy).Contents (Elt F) → (⟨S128, .f32⟩ : BufTy).Contents (Elt F)) rfl (by decide) (by decide) (by decide) W

theorem rbf_main_call6_cst_3 (W : Valuation τ sig (Elt F)) :
    after ops W (Proc.devRef .tc main_call6_cst_3)
      = ((constant S_ .f32 0x00000000#32) : (⟨S_, .f32⟩ : BufTy).Contents (Elt F)) :=
  rb_tnullary writesAll 278 main_call6.cst_3 ((constant S_ .f32 0x00000000#32) : (⟨S_, .f32⟩ : BufTy).Contents (Elt F)) rfl (by decide) W

theorem rbf_main_call6_v12 (W : Valuation τ sig (Elt F)) :
    after ops W (Proc.devRef .tc main_call6_v12)
      = ((cmpf .ogt) : (⟨S_, .f32⟩ : BufTy).Contents (Elt F) → (⟨S_, .f32⟩ : BufTy).Contents (Elt F) → (⟨S_, .i1⟩ : BufTy).Contents (Elt F)) (after ops W (Proc.devRef .tc main_call6_v8)) (after ops W (Proc.devRef .tc main_call6_cst_3)) :=
  rb_tbinary writesAll 279 main_call6.v8 main_call6.cst_3 main_call6.v12 ((cmpf .ogt) : (⟨S_, .f32⟩ : BufTy).Contents (Elt F) → (⟨S_, .f32⟩ : BufTy).Contents (Elt F) → (⟨S_, .i1⟩ : BufTy).Contents (Elt F)) rfl (by decide) (by decide) (by decide) W

theorem rbf_main_call6_cst_4 (W : Valuation τ sig (Elt F)) :
    after ops W (Proc.devRef .tc main_call6_cst_4)
      = ((constant S_ .f32 0x7FC00000#32) : (⟨S_, .f32⟩ : BufTy).Contents (Elt F)) :=
  rb_tnullary writesAll 280 main_call6.cst_4 ((constant S_ .f32 0x7FC00000#32) : (⟨S_, .f32⟩ : BufTy).Contents (Elt F)) rfl (by decide) W

theorem rbf_main_call6_call0_v0 (W : Valuation τ sig (Elt F)) :
    after ops W (Proc.devRef .tc main_call6_call0_v0)
      = (id : (⟨S_, .f32⟩ : BufTy).Contents (Elt F) → (⟨S_, .f32⟩ : BufTy).Contents (Elt F)) (after ops W (Proc.devRef .tc main_call6_cst_4)) :=
  rb_tunary writesAll 281 main_call6.cst_4 main_call6.call0.v0 (id : (⟨S_, .f32⟩ : BufTy).Contents (Elt F) → (⟨S_, .f32⟩ : BufTy).Contents (Elt F)) rfl (by decide) (by decide) W

theorem rbf_main_call6_call0_v1 (W : Valuation τ sig (Elt F)) :
    after ops W (Proc.devRef .tc main_call6_call0_v1)
      = ((broadcastInDim S128 ![] bcast_S_S128) : (⟨S_, .f32⟩ : BufTy).Contents (Elt F) → (⟨S128, .f32⟩ : BufTy).Contents (Elt F)) (after ops W (Proc.devRef .tc main_call6_call0_v0)) :=
  rb_tunary writesAll 282 main_call6.call0.v0 main_call6.call0.v1 ((broadcastInDim S128 ![] bcast_S_S128) : (⟨S_, .f32⟩ : BufTy).Contents (Elt F) → (⟨S128, .f32⟩ : BufTy).Contents (Elt F)) rfl (by decide) (by decide) W

theorem rbf_main_v165 (W : Valuation τ sig (Elt F)) :
    after ops W (Proc.devRef .tc main_v165)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops W (Proc.devRef .tc main_call6_v12)) (after ops W (Proc.devRef .tc main_call6_v11)) (after ops W (Proc.devRef .tc main_call6_call0_v1)) :=
  rb_tternary writesAll 283 main_call6.v12 main_call6.v11 main_call6.call0.v1 main_call6.call0.v2 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) rfl (by decide) (by decide) (by decide) (by decide) W

theorem rbf_main_v166 (W : Valuation τ sig (Elt F)) :
    after ops W (Proc.devRef .tc main_v166)
      = (broadcastInDim S1x128 ![1] bcast_S128_S1x128_1 : (⟨S128, .f32⟩ : BufTy).Contents (Elt F) → (⟨S1x128, .f32⟩ : BufTy).Contents (Elt F)) (after ops W (Proc.devRef .tc main_v164)) :=
  rb_unary writesAll 284 main_v164 main_v166 (broadcastInDim S1x128 ![1] bcast_S128_S1x128_1 : (⟨S128, .f32⟩ : BufTy).Contents (Elt F) → (⟨S1x128, .f32⟩ : BufTy).Contents (Elt F)) _ _ rfl (by decide) (by decide) W

theorem rbf_main_v167 (W : Valuation τ sig (Elt F)) :
    after ops W (Proc.devRef .tc main_v167)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v166)) :=
  rb_unary writesAll 285 main_v166 main_v167 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v168 (W : Valuation τ sig (Elt F)) :
    after ops W (Proc.devRef .tc main_v168)
      = (subf : (⟨S100000x128, .f32⟩ : BufTy).Contents (Elt F) → (⟨S100000x128, .f32⟩ : BufTy).Contents (Elt F) → (⟨S100000x128, .f32⟩ : BufTy).Contents (Elt F)) (after ops W (Proc.devRef .tc main_v161)) (after ops W (Proc.devRef .tc main_v167)) :=
  rb_binary writesAll 286 main_v161 main_v167 main_v168 (subf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_cst_26 (W : Valuation τ sig (Elt F)) :
    after ops W (Proc.devRef .tc main_cst_26)
      = (constant S_ .f32 0x3727C5AC#32) :=
  rb_nullary writesAll 287 main_cst_26 (constant S_ .f32 0x3727C5AC#32) _ rfl (by decide) W

theorem rbf_main_v169 (W : Valuation τ sig (Elt F)) :
    after ops W (Proc.devRef .tc main_v169)
      = (broadcastInDim S128 ![] bcast_S_S128 : (⟨S_, .f32⟩ : BufTy).Contents (Elt F) → (⟨S128, .f32⟩ : BufTy).Contents (Elt F)) (after ops W (Proc.devRef .tc main_cst_26)) :=
  rb_unary writesAll 288 main_cst_26 main_v169 (broadcastInDim S128 ![] bcast_S_S128 : (⟨S_, .f32⟩ : BufTy).Contents (Elt F) → (⟨S128, .f32⟩ : BufTy).Contents (Elt F)) _ _ rfl (by decide) (by decide) W

theorem rbf_main_v170 (W : Valuation τ sig (Elt F)) :
    after ops W (Proc.devRef .tc main_v170)
      = (addf : (⟨S128, .f32⟩ : BufTy).Contents (Elt F) → (⟨S128, .f32⟩ : BufTy).Contents (Elt F) → (⟨S128, .f32⟩ : BufTy).Contents (Elt F)) (after ops W (Proc.devRef .tc main_v165)) (after ops W (Proc.devRef .tc main_v169)) :=
  rb_binary writesAll 289 main_v165 main_v169 main_v170 (addf : (⟨S128, .f32⟩ : BufTy).Contents (Elt F) → (⟨S128, .f32⟩ : BufTy).Contents (Elt F) → (⟨S128, .f32⟩ : BufTy).Contents (Elt F)) _ _ _ rfl (by decide) (by decide) (by decide) W

theorem rbf_main_v171 (W : Valuation τ sig (Elt F)) :
    after ops W (Proc.devRef .tc main_v171)
      = (Host.rsqrt : (⟨S128, .f32⟩ : BufTy).Contents (Elt F) → (⟨S128, .f32⟩ : BufTy).Contents (Elt F)) (after ops W (Proc.devRef .tc main_v170)) :=
  rb_unary writesAll 290 main_v170 main_v171 (Host.rsqrt : (⟨S128, .f32⟩ : BufTy).Contents (Elt F) → (⟨S128, .f32⟩ : BufTy).Contents (Elt F)) _ _ rfl (by decide) (by decide) W

theorem rbf_main_v172 (W : Valuation τ sig (Elt F)) :
    after ops W (Proc.devRef .tc main_v172)
      = (broadcastInDim S1x128 ![1] bcast_S128_S1x128_1 : (⟨S128, .f32⟩ : BufTy).Contents (Elt F) → (⟨S1x128, .f32⟩ : BufTy).Contents (Elt F)) (after ops W (Proc.devRef .tc main_v171)) :=
  rb_unary writesAll 291 main_v171 main_v172 (broadcastInDim S1x128 ![1] bcast_S128_S1x128_1 : (⟨S128, .f32⟩ : BufTy).Contents (Elt F) → (⟨S1x128, .f32⟩ : BufTy).Contents (Elt F)) _ _ rfl (by decide) (by decide) W

theorem rbf_main_v173 (W : Valuation τ sig (Elt F)) :
    after ops W (Proc.devRef .tc main_v173)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v172)) :=
  rb_unary writesAll 292 main_v172 main_v173 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v174 (W : Valuation τ sig (Elt F)) :
    after ops W (Proc.devRef .tc main_v174)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v168)) (after ops W (Proc.devRef .tc main_v173)) :=
  rb_binary writesAll 293 main_v168 main_v173 main_v174 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v175 (W : Valuation τ sig (Elt F)) :
    after ops W (Proc.devRef .tc main_v175)
      = (broadcastInDim S1x128 ![1] bcast_S128_S1x128_1 : (⟨S128, .f32⟩ : BufTy).Contents (Elt F) → (⟨S1x128, .f32⟩ : BufTy).Contents (Elt F)) (after ops W (Proc.devRef .tc main_arg9)) :=
  rb_unary writesAll 294 main_arg9 main_v175 (broadcastInDim S1x128 ![1] bcast_S128_S1x128_1 : (⟨S128, .f32⟩ : BufTy).Contents (Elt F) → (⟨S1x128, .f32⟩ : BufTy).Contents (Elt F)) _ _ rfl (by decide) (by decide) W

theorem rbf_main_v176 (W : Valuation τ sig (Elt F)) :
    after ops W (Proc.devRef .tc main_v176)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v175)) :=
  rb_unary writesAll 295 main_v175 main_v176 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v177 (W : Valuation τ sig (Elt F)) :
    after ops W (Proc.devRef .tc main_v177)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_v174)) (after ops W (Proc.devRef .tc main_v176)) :=
  rb_binary writesAll 296 main_v174 main_v176 main_v177 (mulf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_v178 (W : Valuation τ sig (Elt F)) :
    after ops W (Proc.devRef .tc main_v178)
      = (broadcastInDim S1x128 ![1] bcast_S128_S1x128_1 : (⟨S128, .f32⟩ : BufTy).Contents (Elt F) → (⟨S1x128, .f32⟩ : BufTy).Contents (Elt F)) (after ops W (Proc.devRef .tc main_arg10)) :=
  rb_unary writesAll 297 main_arg10 main_v178 (broadcastInDim S1x128 ![1] bcast_S128_S1x128_1 : (⟨S128, .f32⟩ : BufTy).Contents (Elt F) → (⟨S1x128, .f32⟩ : BufTy).Contents (Elt F)) _ _ rfl (by decide) (by decide) W

theorem rbf_main_v179 (W : Valuation τ sig (Elt F)) :
    after ops W (Proc.devRef .tc main_v179)
      = (broadcastInDim S100000x128 ![0, 1] bcast_S1x128_S100000x128_0_1 : (⟨S1x128, .f32⟩ : BufTy).Contents (Elt F) → (⟨S100000x128, .f32⟩ : BufTy).Contents (Elt F)) (after ops W (Proc.devRef .tc main_v178)) :=
  rb_unary writesAll 298 main_v178 main_v179 (broadcastInDim S100000x128 ![0, 1] bcast_S1x128_S100000x128_0_1 : (⟨S1x128, .f32⟩ : BufTy).Contents (Elt F) → (⟨S100000x128, .f32⟩ : BufTy).Contents (Elt F)) _ _ rfl (by decide) (by decide) W

theorem rbf_main_v180 (W : Valuation τ sig (Elt F)) :
    after ops W (Proc.devRef .tc main_v180)
      = (addf : (⟨S100000x128, .f32⟩ : BufTy).Contents (Elt F) → (⟨S100000x128, .f32⟩ : BufTy).Contents (Elt F) → (⟨S100000x128, .f32⟩ : BufTy).Contents (Elt F)) (after ops W (Proc.devRef .tc main_v177)) (after ops W (Proc.devRef .tc main_v179)) :=
  rb_binary writesAll 299 main_v177 main_v179 main_v180 (addf : (⟨S100000x128, .f32⟩ : BufTy).Contents (Elt F) → (⟨S100000x128, .f32⟩ : BufTy).Contents (Elt F) → (⟨S100000x128, .f32⟩ : BufTy).Contents (Elt F)) _ _ _ rfl (by decide) (by decide) (by decide) W

theorem rbf_main_cst_27 (W : Valuation τ sig (Elt F)) :
    after ops W (Proc.devRef .tc main_cst_27)
      = (constant S_ .f32 0x3C23D70A#32) :=
  rb_nullary writesAll 300 main_cst_27 (constant S_ .f32 0x3C23D70A#32) _ rfl (by decide) W

theorem rbf_main_call7_cst (W : Valuation τ sig (Elt F)) :
    after ops W (Proc.devRef .tc main_call7_cst)
      = ((constant S_ .f32 0x00000000#32) : (⟨S_, .f32⟩ : BufTy).Contents (Elt F)) :=
  rb_tnullary writesAll 301 main_call7.cst ((constant S_ .f32 0x00000000#32) : (⟨S_, .f32⟩ : BufTy).Contents (Elt F)) rfl (by decide) W

theorem rbf_main_call7_v0 (W : Valuation τ sig (Elt F)) :
    after ops W (Proc.devRef .tc main_call7_v0)
      = ((broadcastInDim S100000x128 ![] bcast_S_S100000x128) : (⟨S_, .f32⟩ : BufTy).Contents (Elt F) → (⟨S100000x128, .f32⟩ : BufTy).Contents (Elt F)) (after ops W (Proc.devRef .tc main_call7_cst)) :=
  rb_tunary writesAll 302 main_call7.cst main_call7.v0 ((broadcastInDim S100000x128 ![] bcast_S_S100000x128) : (⟨S_, .f32⟩ : BufTy).Contents (Elt F) → (⟨S100000x128, .f32⟩ : BufTy).Contents (Elt F)) rfl (by decide) (by decide) W

theorem rbf_main_call7_v1 (W : Valuation τ sig (Elt F)) :
    after ops W (Proc.devRef .tc main_call7_v1)
      = ((cmpf .oge) : (⟨S100000x128, .f32⟩ : BufTy).Contents (Elt F) → (⟨S100000x128, .f32⟩ : BufTy).Contents (Elt F) → (⟨S100000x128, .i1⟩ : BufTy).Contents (Elt F)) (after ops W (Proc.devRef .tc main_v180)) (after ops W (Proc.devRef .tc main_call7_v0)) :=
  rb_tbinary writesAll 303 (.of main_v180 : StableHlo.TRef sig ⟨S100000x128, .f32⟩) main_call7.v0 main_call7.v1 ((cmpf .oge) : (⟨S100000x128, .f32⟩ : BufTy).Contents (Elt F) → (⟨S100000x128, .f32⟩ : BufTy).Contents (Elt F) → (⟨S100000x128, .i1⟩ : BufTy).Contents (Elt F)) rfl (by decide) (by decide) (by decide) W

theorem rbf_main_call7_v2 (W : Valuation τ sig (Elt F)) :
    after ops W (Proc.devRef .tc main_call7_v2)
      = (id : (⟨S_, .f32⟩ : BufTy).Contents (Elt F) → (⟨S_, .f32⟩ : BufTy).Contents (Elt F)) (after ops W (Proc.devRef .tc main_cst_27)) :=
  rb_tunary writesAll 304 (.of main_cst_27 : StableHlo.TRef sig ⟨S_, .f32⟩) main_call7.v2 (id : (⟨S_, .f32⟩ : BufTy).Contents (Elt F) → (⟨S_, .f32⟩ : BufTy).Contents (Elt F)) rfl (by decide) (by decide) W

theorem rbf_main_call7_v3 (W : Valuation τ sig (Elt F)) :
    after ops W (Proc.devRef .tc main_call7_v3)
      = ((broadcastInDim S100000x128 ![] bcast_S_S100000x128) : (⟨S_, .f32⟩ : BufTy).Contents (Elt F) → (⟨S100000x128, .f32⟩ : BufTy).Contents (Elt F)) (after ops W (Proc.devRef .tc main_call7_v2)) :=
  rb_tunary writesAll 305 main_call7.v2 main_call7.v3 ((broadcastInDim S100000x128 ![] bcast_S_S100000x128) : (⟨S_, .f32⟩ : BufTy).Contents (Elt F) → (⟨S100000x128, .f32⟩ : BufTy).Contents (Elt F)) rfl (by decide) (by decide) W

theorem rbf_main_call7_v4 (W : Valuation τ sig (Elt F)) :
    after ops W (Proc.devRef .tc main_call7_v4)
      = (mulf : (⟨S100000x128, .f32⟩ : BufTy).Contents (Elt F) → (⟨S100000x128, .f32⟩ : BufTy).Contents (Elt F) → (⟨S100000x128, .f32⟩ : BufTy).Contents (Elt F)) (after ops W (Proc.devRef .tc main_call7_v3)) (after ops W (Proc.devRef .tc main_v180)) :=
  rb_tbinary writesAll 306 main_call7.v3 (.of main_v180 : StableHlo.TRef sig ⟨S100000x128, .f32⟩) main_call7.v4 (mulf : (⟨S100000x128, .f32⟩ : BufTy).Contents (Elt F) → (⟨S100000x128, .f32⟩ : BufTy).Contents (Elt F) → (⟨S100000x128, .f32⟩ : BufTy).Contents (Elt F)) rfl (by decide) (by decide) (by decide) W

theorem rbf_main_v181 (W : Valuation τ sig (Elt F)) :
    after ops W (Proc.devRef .tc main_v181)
      = (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) (after ops W (Proc.devRef .tc main_call7_v1)) (after ops W (Proc.devRef .tc main_v180)) (after ops W (Proc.devRef .tc main_call7_v4)) :=
  rb_tternary writesAll 307 main_call7.v1 (.of main_v180 : StableHlo.TRef sig ⟨S100000x128, .f32⟩) main_call7.v4 main_call7.call0.v0 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) rfl (by decide) (by decide) (by decide) (by decide) W

theorem rbf_main_v182 (W : Valuation τ sig (Elt F)) :
    after ops W (Proc.devRef .tc main_v182)
      = ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) (after ops W (Proc.devRef .tc main_v181)) (after ops W (Proc.devRef .tc main_arg11)) :=
  rb_binary writesAll 308 main_v181 main_arg11 main_v182 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) _ _ _ rfl (by decide) (by decide) (by decide) W

theorem rbf_main_v183 (W : Valuation τ sig (Elt F)) :
    after ops W (Proc.devRef .tc main_v183)
      = (broadcastInDim S1x64 ![1] bcast_S64_S1x64_1 : (⟨S64, .f32⟩ : BufTy).Contents (Elt F) → (⟨S1x64, .f32⟩ : BufTy).Contents (Elt F)) (after ops W (Proc.devRef .tc main_arg12)) :=
  rb_unary writesAll 309 main_arg12 main_v183 (broadcastInDim S1x64 ![1] bcast_S64_S1x64_1 : (⟨S64, .f32⟩ : BufTy).Contents (Elt F) → (⟨S1x64, .f32⟩ : BufTy).Contents (Elt F)) _ _ rfl (by decide) (by decide) W

theorem rbf_main_v184 (W : Valuation τ sig (Elt F)) :
    after ops W (Proc.devRef .tc main_v184)
      = (broadcastInDim S100000x64 ![0, 1] bcast_S1x64_S100000x64_0_1 : (⟨S1x64, .f32⟩ : BufTy).Contents (Elt F) → (⟨S100000x64, .f32⟩ : BufTy).Contents (Elt F)) (after ops W (Proc.devRef .tc main_v183)) :=
  rb_unary writesAll 310 main_v183 main_v184 (broadcastInDim S100000x64 ![0, 1] bcast_S1x64_S100000x64_0_1 : (⟨S1x64, .f32⟩ : BufTy).Contents (Elt F) → (⟨S100000x64, .f32⟩ : BufTy).Contents (Elt F)) _ _ rfl (by decide) (by decide) W

theorem rbf_main_v185 (W : Valuation τ sig (Elt F)) :
    after ops W (Proc.devRef .tc main_v185)
      = (addf : (⟨S100000x64, .f32⟩ : BufTy).Contents (Elt F) → (⟨S100000x64, .f32⟩ : BufTy).Contents (Elt F) → (⟨S100000x64, .f32⟩ : BufTy).Contents (Elt F)) (after ops W (Proc.devRef .tc main_v182)) (after ops W (Proc.devRef .tc main_v184)) :=
  rb_binary writesAll 311 main_v182 main_v184 main_v185 (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide) W

end Cert.ReferenceIdeal.SSA

end
-- ==== Proof.StageRef.lean ====
/-
  The reference's layer stages, on the operation terms it prints, in the vocabulary of the specification.

  The reference multiplies the whole node array by a weight matrix on the host: entry (r, q) of the product is the sum
  over k of x (r, k) * w (k, q). It sets a feature vector as a 1 x 128 row by a broadcast along a new leading axis and
  broadcasts the row down the nodes; the tiled program sets the same vector as a row by a shape cast: the two rows are
  one array. So the reference's linear stage (product, plus the bias row broadcast down, plus product) is the
  specification's linear stage, and its normalise-and-rectify stage (deviation from the mean row, times the reciprocal
  square root of the variance row plus eps, times the scale row, plus the shift row, rectified) is the specification's.
-/
import proofs.«173273_j2259152798196_2_alg».proof.ReferenceIdeal
import proofs.«173273_j2259152798196_2_alg».proof.Proof.Gen.ReferenceIdeal
import proofs.«173273_j2259152798196_2_alg».proof.Proof.StageStats
import Idealize.ShloMosaic.Lib.ValueLayout

noncomputable section

namespace Cert.StageRef

open Idealize.ShloMosaic Idealize.ShloMosaic.ValueIdx Cert.LibMoments Cert.NormBridge Cert.StageStats

abbrev dR := Cert.ReferenceIdeal.dot_S100000x128_S128x128_S100000x128_1_0_0_1_n_n

theorem lhs0 (i : SNF.Idx) (q : dR.contr.Idx) : (dR.lhsIdx i q 0).val = (i 0).val := by
  unfold DotDims.lhsIdx
  rw [dif_neg (show ¬(0 : Fin SNF.rank) ∈ dR.lhsBatch by decide),
    dif_pos (show (0 : Fin SNF.rank) ∈ dR.lhsNonContracting by decide)]
  rfl
theorem lhs1 (i : SNF.Idx) (q : dR.contr.Idx) : (dR.lhsIdx i q 1).val = (q ⟨0, by decide⟩).val :=
  dR.lhsIdx_val_of_single rfl i q
theorem rhs0 (i : SNF.Idx) (q : dR.contr.Idx) : (dR.rhsIdx i q 0).val = (q ⟨0, by decide⟩).val :=
  dR.rhsIdx_val_of_single rfl i q
theorem rhs1 (i : SNF.Idx) (q : dR.contr.Idx) : (dR.rhsIdx i q 1).val = (i 1).val := by
  unfold DotDims.rhsIdx
  rw [dif_neg (show ¬(1 : Fin (⟨2, ![128, 128]⟩ : Shape).rank) ∈ dR.rhsBatch by decide),
    dif_pos (show (1 : Fin (⟨2, ![128, 128]⟩ : Shape).rank) ∈ dR.rhsNonContracting by decide)]
  rfl

/-- The reference's product of the node array with a weight matrix, at entry (r, q): the sum over k of
    x (r, k) * w (k, q). -/
theorem ref_mm_apply (x : SNF.Idx → EReal) (w : (⟨2, ![128, 128]⟩ : Shape).Idx → EReal) (i : SNF.Idx) :
    Host.dotGeneral (F := Ideal) (φ₁ := .f32) (φ₂ := .f32) dR none x w i = Cert.Spec.mm x w i := by
  obtain ⟨r, q, rfl⟩ : ∃ (r : Fin 100000) (q : Fin 128), i = ix2 r q := ⟨i 0, i 1, eq_ix2 i⟩
  simp only [Host.dotGeneral]
  refine (Ideal.dotGeneral_apply dR none _ x w (ix2 r q)).trans ?_
  unfold Cert.Spec.mm
  rw [← Equiv.sum_comp (contrEquiv1 dR 128 rfl rfl).symm]
  refine Finset.sum_congr rfl fun k _ => ?_
  have hk := contrEquiv1_symm_val dR 128 rfl rfl k
  have el : dR.lhsIdx (ix2 r q) ((contrEquiv1 dR 128 rfl rfl).symm k) = ix2 r k := funext fun a => Fin.ext (by
    match a with
    | ⟨0, _⟩ => exact lhs0 _ _
    | ⟨1, _⟩ => exact (lhs1 _ _).trans hk)
  have er : dR.rhsIdx (ix2 r q) ((contrEquiv1 dR 128 rfl rfl).symm k) = ix2 k q := funext fun a => Fin.ext (by
    match a with
    | ⟨0, _⟩ => exact (rhs0 _ _).trans hk
    | ⟨1, _⟩ => exact rhs1 _ _)
  rw [el, er]
  rfl

/-- A feature vector set as a row by a shape cast (the tiled program's spelling) is the vector set as a row by a
    broadcast along the new axis (the reference's). -/
theorem rowCast_eq_rowBcast (hsc : SF.ShapeCasts SRow) (hb : SF.BroadcastsInDim SRow ![1]) (v : SF.Idx → EReal) :
    shapeCast SRow v hsc = broadcastInDim SRow ![1] hb v := by
  funext j
  obtain ⟨u, q, rfl⟩ : ∃ (u : Fin 1) (q : Fin 128), j = ix2 u q := ⟨j 0, j 1, eq_ix2 j⟩
  obtain rfl : u = 0 := Subsingleton.elim _ _
  rw [shapeCast_a_1a_apply, rowOfVec_apply]

/-- The reference's linear stage is the linear stage of the specification. -/
theorem ref_linear_eq (hb1 : SF.BroadcastsInDim SRow ![1]) (hb3 : SRow.BroadcastsInDim SNF ![0, 1])
    (agg h : SNF.Idx → EReal) (wl wr : (⟨2, ![128, 128]⟩ : Shape).Idx → EReal) (bv : SF.Idx → EReal) :
    addf (F := Ideal) (φ := .f32)
        (addf (Host.dotGeneral (φ₁ := .f32) (φ₂ := .f32) dR none agg wl) (broadcastInDim SNF ![0, 1] hb3 (broadcastInDim SRow ![1] hb1 bv)))
        (Host.dotGeneral (φ₁ := .f32) (φ₂ := .f32) dR none h wr)
      = Cert.Spec.linear agg h wl (broadcastInDim SRow ![1] hb1 bv) wr := by
  funext i
  obtain ⟨r, q, rfl⟩ : ∃ (r : Fin 100000) (q : Fin 128), i = ix2 r q := ⟨i 0, i 1, eq_ix2 i⟩
  show Host.dotGeneral (F := Ideal) (φ₁ := .f32) (φ₂ := .f32) dR none agg wl (ix2 r q)
      + broadcastInDim (s := SRow) SNF ![0, 1] hb3 _ (ix2 r q)
      + Host.dotGeneral (F := Ideal) (φ₁ := .f32) (φ₂ := .f32) dR none h wr (ix2 r q) = _
  rw [ref_mm_apply, ref_mm_apply, rowsDown_apply]
  rfl

/-- The reference's normalise-and-rectify stage is the specification's, on the rows the vectors are set as. -/
theorem ref_normRelu_eq (hb1 : SF.BroadcastsInDim SRow ![1]) (hb3 : SRow.BroadcastsInDim SNF ![0, 1])
    (hb4 : S0.BroadcastsInDim SF ![]) (hb5 : S0.BroadcastsInDim SNF ![])
    (lin : SNF.Idx → EReal) (mean var gam bet : SF.Idx → EReal) :
    maximumf (F := Ideal) (φ := .f32)
      (addf
        (mulf
          (mulf (subf lin (broadcastInDim SNF ![0, 1] hb3 (broadcastInDim SRow ![1] hb1 mean)))
            (broadcastInDim SNF ![0, 1] hb3 (broadcastInDim SRow ![1] hb1
              (Host.rsqrt (addf var (broadcastInDim SF ![] hb4 (constant S0 .f32 0x3727C5AC#32)))))))
          (broadcastInDim SNF ![0, 1] hb3 (broadcastInDim SRow ![1] hb1 gam)))
        (broadcastInDim SNF ![0, 1] hb3 (broadcastInDim SRow ![1] hb1 bet)))
      (broadcastInDim SNF ![] hb5 (constant S0 .f32 0x00000000#32))
      = Cert.Spec.normRelu lin (broadcastInDim SRow ![1] hb1 mean) (broadcastInDim SRow ![1] hb1 var)
          (broadcastInDim SRow ![1] hb1 gam) (broadcastInDim SRow ![1] hb1 bet) := by
  funext i
  obtain ⟨r, q, rfl⟩ : ∃ (r : Fin 100000) (q : Fin 128), i = ix2 r q := ⟨i 0, i 1, eq_ix2 i⟩
  have hrow : ∀ v : SF.Idx → EReal,
      broadcastInDim SNF ![0, 1] hb3 (broadcastInDim SRow ![1] hb1 v) (ix2 r q) = v (ix1 q) := fun v => by
    rw [rowsDown_apply, rowOfVec_apply]
  have hrs : Host.rsqrt (F := Ideal) (φ := .f32) (addf var (broadcastInDim SF ![] hb4 (constant S0 .f32 0x3727C5AC#32))) (ix1 q)
      = Ideal.rsqrt (var (ix1 q) + Ideal.ofBits .f32 0x3727C5AC#32) := by
    show Ideal.rsqrt (var (ix1 q) + broadcastInDim (s := S0) SF ![] hb4 _ (ix1 q)) = _
    rw [bcast_const_apply]
  unfold Cert.Spec.normRelu Cert.Spec.nrm
  simp only [maximumf, addf, mulf, subf, hrow, Cert.Spec.colOf_ix2]
  rw [bcast_const_apply, hrs, rowOfVec_apply, rowOfVec_apply, rowOfVec_apply, rowOfVec_apply]
  rfl

end Cert.StageRef

end
-- ==== Proof.StageHead.lean ====
/-
  The reference's head stages, on the operation terms it prints, in the vocabulary of the specification.

  The reference sets the four feature blocks side by side (nodes by 512 features) and multiplies by the whole 512 by
  128 head matrix; the tiled program multiplies each block by its own 128 rows of the matrix and adds. Entry (r, q)
  of the reference's product is a sum over the 512 concatenated features; feature 128 n + k of the concatenation is
  feature k of block n, and row 128 n + k of the matrix is row k of its n-th slice, so the sum splits into the four
  blocks' sums, added left to right: with the bias row broadcast down, the specification's head linear stage.

  The reference's tail normalises entry by entry (deviation from the mean row, times the reciprocal square root of
  the variance row plus eps, times the scale row, plus the shift row), applies the leaky rectifier tested with
  y >= 0, multiplies by the last weight matrix and adds the last bias row broadcast down. The specification's
  activation tests y > 0; at y = 0 both branches are 0, so the two agree, and the tail is the specification's
  normalise, activate and project stage on the rows the vectors are set as.
-/
import proofs.«173273_j2259152798196_2_alg».proof.ReferenceIdeal
import proofs.«173273_j2259152798196_2_alg».proof.Proof.Gen.ReferenceIdeal
import proofs.«173273_j2259152798196_2_alg».proof.Proof.StageRef
import proofs.«173273_j2259152798196_2_alg».proof.Proof.NormBridge
import Idealize.ShloMosaic.Lib.Pipeline.Value

noncomputable section

namespace Cert.StageHead

open Idealize.ShloMosaic Idealize.ShloMosaic.ValueIdx Cert.LibMoments Cert.NormBridge Cert.StageStats

abbrev dH := Cert.ReferenceIdeal.dot_S100000x512_S512x128_S100000x128_1_0_0_1_n_n
abbrev dO := Cert.ReferenceIdeal.dot_S100000x128_S128x64_S100000x64_1_0_0_1_n_n
/-- Nodes by the four feature blocks side by side; the whole head matrix; one block's rows of it. -/
abbrev SCat : Shape := ⟨2, ![100000, 512]⟩
abbrev SW : Shape := ⟨2, ![512, 128]⟩
abbrev SB : Shape := ⟨2, ![128, 128]⟩

/-- The reference's product of the concatenated node array with the whole head matrix, at entry (r, q): the sum over the
    512 concatenated features c of A (r, c) * W (c, q). -/
theorem ref_mmH_apply (A : (⟨2, ![100000, 512]⟩ : Shape).Idx → EReal) (W : (⟨2, ![512, 128]⟩ : Shape).Idx → EReal) (r : Fin 100000) (q : Fin 128) :
    Host.dotGeneral (F := Ideal) (φ₁ := .f32) (φ₂ := .f32) dH none A W (ix2 r q) = ∑ k : Fin 512, A (ix2 r k) * W (ix2 k q) := by
  simp only [Host.dotGeneral]
  refine (Ideal.dotGeneral_apply dH none _ A W (ix2 r q)).trans ?_
  rw [← Equiv.sum_comp (contrEquiv1 dH 512 rfl rfl).symm]
  refine Finset.sum_congr rfl fun k _ => ?_
  have c2 := contrEquiv1_symm_val dH 512 rfl rfl k
  have l2 : (dH).lhsIdx (ix2 r q) ((contrEquiv1 dH 512 rfl rfl).symm k) = ix2 r k := by
    funext ax; apply Fin.ext
    match ax with
    | ⟨0, _⟩ => simp [DotDims.lhsIdx, dH]; rfl
    | ⟨1, _⟩ => simp [DotDims.lhsIdx, dH]; exact c2
  have r2 : (dH).rhsIdx (ix2 r q) ((contrEquiv1 dH 512 rfl rfl).symm k) = ix2 k q := by
    funext ax; apply Fin.ext
    match ax with
    | ⟨0, _⟩ => simp [DotDims.rhsIdx, dH]; exact c2
    | ⟨1, _⟩ => simp [DotDims.rhsIdx, dH]; rfl
  rw [l2, r2]

/-! The concatenation along the feature axis reads, at feature 128 n + k, block n at feature k. -/

theorem cat0 (hc : Shape.Concatenates [SNF, SNF, SNF, SNF] SCat 1) (x0 x1 x2 x3 : SNF.Idx → EReal) (r : Fin 100000)
    (c : Fin 512) (k : Fin 128) (hcv : 0 + k.val = c.val) :
    concatenate SCat 1 [⟨SNF, x0⟩, ⟨SNF, x1⟩, ⟨SNF, x2⟩, ⟨SNF, x3⟩] hc (ix2 r c) = x0 (ix2 r k) :=
  concatenate_apply_piece (1 : Fin SCat.rank) [⟨SNF, x0⟩, ⟨SNF, x1⟩, ⟨SNF, x2⟩, ⟨SNF, x3⟩] hc (ix2 r c) 0 (by show (0 : ℕ) < 4; omega) SNF x0 rfl rfl
    0 rfl (ix2 r k) (fun b hb => by match b with | ⟨0, _⟩ => rfl | ⟨1, _⟩ => exact absurd rfl hb) hcv

theorem cat1 (hc : Shape.Concatenates [SNF, SNF, SNF, SNF] SCat 1) (x0 x1 x2 x3 : SNF.Idx → EReal) (r : Fin 100000)
    (c : Fin 512) (k : Fin 128) (hcv : 128 + k.val = c.val) :
    concatenate SCat 1 [⟨SNF, x0⟩, ⟨SNF, x1⟩, ⟨SNF, x2⟩, ⟨SNF, x3⟩] hc (ix2 r c) = x1 (ix2 r k) :=
  concatenate_apply_piece (1 : Fin SCat.rank) [⟨SNF, x0⟩, ⟨SNF, x1⟩, ⟨SNF, x2⟩, ⟨SNF, x3⟩] hc (ix2 r c) 1 (by show (1 : ℕ) < 4; omega) SNF x1 rfl rfl
    128 rfl (ix2 r k) (fun b hb => by match b with | ⟨0, _⟩ => rfl | ⟨1, _⟩ => exact absurd rfl hb) hcv

theorem cat2 (hc : Shape.Concatenates [SNF, SNF, SNF, SNF] SCat 1) (x0 x1 x2 x3 : SNF.Idx → EReal) (r : Fin 100000)
    (c : Fin 512) (k : Fin 128) (hcv : 256 + k.val = c.val) :
    concatenate SCat 1 [⟨SNF, x0⟩, ⟨SNF, x1⟩, ⟨SNF, x2⟩, ⟨SNF, x3⟩] hc (ix2 r c) = x2 (ix2 r k) :=
  concatenate_apply_piece (1 : Fin SCat.rank) [⟨SNF, x0⟩, ⟨SNF, x1⟩, ⟨SNF, x2⟩, ⟨SNF, x3⟩] hc (ix2 r c) 2 (by show (2 : ℕ) < 4; omega) SNF x2 rfl rfl
    256 rfl (ix2 r k) (fun b hb => by match b with | ⟨0, _⟩ => rfl | ⟨1, _⟩ => exact absurd rfl hb) hcv

theorem cat3 (hc : Shape.Concatenates [SNF, SNF, SNF, SNF] SCat 1) (x0 x1 x2 x3 : SNF.Idx → EReal) (r : Fin 100000)
    (c : Fin 512) (k : Fin 128) (hcv : 384 + k.val = c.val) :
    concatenate SCat 1 [⟨SNF, x0⟩, ⟨SNF, x1⟩, ⟨SNF, x2⟩, ⟨SNF, x3⟩] hc (ix2 r c) = x3 (ix2 r k) :=
  concatenate_apply_piece (1 : Fin SCat.rank) [⟨SNF, x0⟩, ⟨SNF, x1⟩, ⟨SNF, x2⟩, ⟨SNF, x3⟩] hc (ix2 r c) 3 (by show (3 : ℕ) < 4; omega) SNF x3 rfl rfl
    384 rfl (ix2 r k) (fun b hb => by match b with | ⟨0, _⟩ => rfl | ⟨1, _⟩ => exact absurd rfl hb) hcv

/-- Rows off ... off + 127 of the head matrix, at (k, q): the matrix at (off + k, q). -/
theorem slice_apply (off : ℕ) (hs : SW.Slices ![off, 0] SB) (W : SW.Idx → EReal) (c : Fin 512) (k q : Fin 128)
    (hcv : off + k.val = c.val) : extractStridedSlice SB ![off, 0] W hs (ix2 k q) = W (ix2 c q) :=
  extractStridedSlice_apply ![off, 0] W hs (ix2 k q) (ix2 c q) (fun a => by
    match a with
    | ⟨0, _⟩ => exact hcv.symm
    | ⟨1, _⟩ => exact (Nat.zero_add _).symm)

/-- The reference's head linear stage — the four feature blocks side by side against the whole head matrix, plus the
    bias row broadcast down — is the specification's, with each block against its own 128 rows of the matrix:
    contracting over the 512 concatenated features is contracting over each block's 128 and adding, left to right. -/
theorem ref_headLinear_eq (hc : Shape.Concatenates [SNF, SNF, SNF, SNF] ⟨2, ![100000, 512]⟩ 1)
    (hb1 : SF.BroadcastsInDim SRow ![1]) (hb3 : SRow.BroadcastsInDim SNF ![0, 1])
    (hs0 : (⟨2, ![512, 128]⟩ : Shape).Slices ![0, 0] ⟨2, ![128, 128]⟩)
    (hs1 : (⟨2, ![512, 128]⟩ : Shape).Slices ![128, 0] ⟨2, ![128, 128]⟩)
    (hs2 : (⟨2, ![512, 128]⟩ : Shape).Slices ![256, 0] ⟨2, ![128, 128]⟩)
    (hs3 : (⟨2, ![512, 128]⟩ : Shape).Slices ![384, 0] ⟨2, ![128, 128]⟩)
    (x h1 h2 h3 : SNF.Idx → EReal) (W1 : (⟨2, ![512, 128]⟩ : Shape).Idx → EReal) (b1 : SF.Idx → EReal) :
    addf (F := Ideal) (φ := .f32)
        (Host.dotGeneral (φ₁ := .f32) (φ₂ := .f32) Cert.ReferenceIdeal.dot_S100000x512_S512x128_S100000x128_1_0_0_1_n_n none
          (concatenate ⟨2, ![100000, 512]⟩ 1 [⟨SNF, x⟩, ⟨SNF, h1⟩, ⟨SNF, h2⟩, ⟨SNF, h3⟩] hc) W1)
        (broadcastInDim SNF ![0, 1] hb3 (broadcastInDim SRow ![1] hb1 b1))
      = Cert.Spec.headLinear x h1 h2 h3 (extractStridedSlice ⟨2, ![128, 128]⟩ ![0, 0] W1 hs0) (extractStridedSlice ⟨2, ![128, 128]⟩ ![128, 0] W1 hs1)
          (extractStridedSlice ⟨2, ![128, 128]⟩ ![256, 0] W1 hs2) (extractStridedSlice ⟨2, ![128, 128]⟩ ![384, 0] W1 hs3) (broadcastInDim SRow ![1] hb1 b1) := by
  funext i
  obtain ⟨r, q, rfl⟩ : ∃ (r : Fin 100000) (q : Fin 128), i = ix2 r q := ⟨i 0, i 1, eq_ix2 i⟩
  refine (addf_apply _ _ _).trans ?_
  refine (congrArg₂ (· + ·) (ref_mmH_apply _ W1 r q) (rowsDown_apply hb3 _ r q)).trans ?_
  unfold Cert.Spec.headLinear Cert.Spec.mm
  refine congrArg₂ (· + ·) ?_ rfl
  refine (sum_four_stretches 128 128 128 128
    (fun c : Fin 512 => concatenate ⟨2, ![100000, 512]⟩ 1 [⟨SNF, x⟩, ⟨SNF, h1⟩, ⟨SNF, h2⟩, ⟨SNF, h3⟩] hc (ix2 r c) * W1 (ix2 c q))).trans ?_
  refine congrArg₂ (· + ·) (congrArg₂ (· + ·) (congrArg₂ (· + ·) ?_ ?_) ?_) ?_
  · exact Finset.sum_congr rfl fun k _ => congrArg₂ (· * ·) (cat0 hc x h1 h2 h3 r _ k (by simp <;> omega))
      (slice_apply 0 hs0 W1 _ k q (by simp <;> omega)).symm
  · exact Finset.sum_congr rfl fun k _ => congrArg₂ (· * ·) (cat1 hc x h1 h2 h3 r _ k (by simp <;> omega))
      (slice_apply 128 hs1 W1 _ k q (by simp <;> omega)).symm
  · exact Finset.sum_congr rfl fun k _ => congrArg₂ (· * ·) (cat2 hc x h1 h2 h3 r _ k (by simp <;> omega))
      (slice_apply 256 hs2 W1 _ k q (by simp <;> omega)).symm
  · exact Finset.sum_congr rfl fun k _ => congrArg₂ (· * ·) (cat3 hc x h1 h2 h3 r _ k (by simp <;> omega))
      (slice_apply 384 hs3 W1 _ k q (by simp <;> omega)).symm

/-- The reference's product of the activated node array with the last weight matrix, at entry (r, q): the sum over k of
    A (r, k) * W (k, q). -/
theorem ref_mmO_apply (A : (⟨2, ![100000, 128]⟩ : Shape).Idx → EReal) (W : (⟨2, ![128, 64]⟩ : Shape).Idx → EReal) (r : Fin 100000) (q : Fin 64) :
    Host.dotGeneral (F := Ideal) (φ₁ := .f32) (φ₂ := .f32) dO none A W (ix2 r q) = ∑ k : Fin 128, A (ix2 r k) * W (ix2 k q) := by
  simp only [Host.dotGeneral]
  refine (Ideal.dotGeneral_apply dO none _ A W (ix2 r q)).trans ?_
  rw [← Equiv.sum_comp (contrEquiv1 dO 128 rfl rfl).symm]
  refine Finset.sum_congr rfl fun k _ => ?_
  have c2 := contrEquiv1_symm_val dO 128 rfl rfl k
  have l2 : (dO).lhsIdx (ix2 r q) ((contrEquiv1 dO 128 rfl rfl).symm k) = ix2 r k := by
    funext ax; apply Fin.ext
    match ax with
    | ⟨0, _⟩ => simp [DotDims.lhsIdx, dO]; rfl
    | ⟨1, _⟩ => simp [DotDims.lhsIdx, dO]; exact c2
  have r2 : (dO).rhsIdx (ix2 r q) ((contrEquiv1 dO 128 rfl rfl).symm k) = ix2 k q := by
    funext ax; apply Fin.ext
    match ax with
    | ⟨0, _⟩ => simp [DotDims.rhsIdx, dO]; exact c2
    | ⟨1, _⟩ => simp [DotDims.rhsIdx, dO]; rfl
  rw [l2, r2]

/-- A 1 by 64 row broadcast down the nodes reads the row at the column. -/
theorem rowsDown64_apply (hb : (⟨2, ![1, 64]⟩ : Shape).BroadcastsInDim ⟨2, ![100000, 64]⟩ ![0, 1])
    (w : (⟨2, ![1, 64]⟩ : Shape).Idx → EReal) (r : Fin 100000) (q : Fin 64) :
    broadcastInDim ⟨2, ![100000, 64]⟩ ![0, 1] hb w (ix2 r q) = w (ix2 (0 : Fin 1) q) :=
  broadcastInDim_apply ![0, 1] hb w (ix2 r q) (ix2 0 q) (by intro a; match a with | ⟨0, _⟩ => rfl | ⟨1, _⟩ => rfl)

/-- The reference's normalisation, at entry (r, k): the deviation from the mean row, times the reciprocal square root
    of the variance row plus eps, times the scale row, plus the shift row — the specification's, on the rows the
    vectors are set as. -/
theorem ref_norm_apply (hb1 : SF.BroadcastsInDim SRow ![1]) (hb3 : SRow.BroadcastsInDim SNF ![0, 1])
    (hb4 : S0.BroadcastsInDim SF ![]) (lin : SNF.Idx → EReal) (mean var gam bet : SF.Idx → EReal)
    (r : Fin 100000) (k : Fin 128) :
    (addf (F := Ideal) (φ := .f32)
          (mulf
            (mulf (subf lin (broadcastInDim SNF ![0, 1] hb3 (broadcastInDim SRow ![1] hb1 mean)))
              (broadcastInDim SNF ![0, 1] hb3 (broadcastInDim SRow ![1] hb1 (Host.rsqrt (addf var (broadcastInDim SF ![] hb4 (constant S0 .f32 0x3727C5AC#32)))))))
            (broadcastInDim SNF ![0, 1] hb3 (broadcastInDim SRow ![1] hb1 gam)))
          (broadcastInDim SNF ![0, 1] hb3 (broadcastInDim SRow ![1] hb1 bet))) (ix2 r k)
      = Cert.Spec.nrm (lin (ix2 r k)) ((broadcastInDim SRow ![1] hb1 mean) (ix2 0 k)) ((broadcastInDim SRow ![1] hb1 var) (ix2 0 k))
          ((broadcastInDim SRow ![1] hb1 gam) (ix2 0 k)) ((broadcastInDim SRow ![1] hb1 bet) (ix2 0 k)) := by
  have hrow : ∀ v : SF.Idx → EReal,
      broadcastInDim SNF ![0, 1] hb3 (broadcastInDim SRow ![1] hb1 v) (ix2 r k) = v (ix1 k) := fun v => by
    rw [rowsDown_apply, rowOfVec_apply]
  have hrs : Host.rsqrt (F := Ideal) (φ := .f32) (addf var (broadcastInDim SF ![] hb4 (constant S0 .f32 0x3727C5AC#32))) (ix1 k)
      = Ideal.rsqrt (var (ix1 k) + Ideal.ofBits .f32 0x3727C5AC#32) := by
    show Ideal.rsqrt (var (ix1 k) + broadcastInDim (s := S0) SF ![] hb4 _ (ix1 k)) = _
    rw [bcast_const_apply]
  unfold Cert.Spec.nrm
  simp only [addf, mulf, subf, hrow]
  rw [hrs, rowOfVec_apply, rowOfVec_apply, rowOfVec_apply, rowOfVec_apply]
  rfl

/-- The reference's leaky rectifier — y where y ≥ 0, else the slope times y — at an entry is the specification's,
    which tests y > 0: at y = 0 both branches are 0. -/
theorem ref_leaky_apply (hb5 : S0.BroadcastsInDim SNF ![]) (y : SNF.Idx → EReal) (i : SNF.Idx) :
    select (cmpf (F := Ideal) (φ := .f32) .oge y (broadcastInDim SNF ![] hb5 (constant S0 .f32 0x00000000#32))) y
        (mulf (F := Ideal) (φ := .f32) (broadcastInDim SNF ![] hb5 (id (constant S0 .f32 0x3C23D70A#32))) y) i
      = Cert.Spec.leakyGt (y i) := by
  have hz : broadcastInDim SNF ![] hb5 (constant (F := Ideal) S0 .f32 0x00000000#32) i = 0 := by
    rw [bcast_const_apply, Ideal.ofBits_zero_f32]
  have hsl : broadcastInDim SNF ![] hb5 (id (constant (F := Ideal) S0 .f32 0x3C23D70A#32)) i
      = Ideal.ofBits .f32 0x3C23D70A#32 := bcast_const_apply hb5 _ i
  unfold Cert.Spec.leakyGt
  rw [Ideal.ofBits_zero_f32, leaky_gt_eq_ge]
  show Scalar.select (Ideal.cmp .oge (y i) (broadcastInDim SNF ![] hb5 (constant (F := Ideal) S0 .f32 0x00000000#32) i)) (y i)
      (broadcastInDim SNF ![] hb5 (id (constant (F := Ideal) S0 .f32 0x3C23D70A#32)) i * y i) = _
  rw [hz, hsl]

/-- The reference's tail — normalise, leaky rectifier, product with the last weight matrix, plus the last bias row
    broadcast down — is the specification's normalise, activate and project stage, on the rows the vectors are set as. -/
theorem ref_normLeakyOut_eq (hb1 : SF.BroadcastsInDim SRow ![1]) (hb3 : SRow.BroadcastsInDim SNF ![0, 1])
    (hb4 : S0.BroadcastsInDim SF ![]) (hb5 : S0.BroadcastsInDim SNF ![])
    (hb6 : (⟨1, ![64]⟩ : Shape).BroadcastsInDim ⟨2, ![1, 64]⟩ ![1])
    (hb7 : (⟨2, ![1, 64]⟩ : Shape).BroadcastsInDim ⟨2, ![100000, 64]⟩ ![0, 1])
    (lin : SNF.Idx → EReal) (mean var gam bet : SF.Idx → EReal) (W2 : (⟨2, ![128, 64]⟩ : Shape).Idx → EReal)
    (b2 : (⟨1, ![64]⟩ : Shape).Idx → EReal) :
    addf (F := Ideal) (φ := .f32)
      (Host.dotGeneral (φ₁ := .f32) (φ₂ := .f32) Cert.ReferenceIdeal.dot_S100000x128_S128x64_S100000x64_1_0_0_1_n_n none
        (select
          (cmpf (F := Ideal) (φ := .f32) .oge
            (addf
          (mulf
            (mulf (subf lin (broadcastInDim SNF ![0, 1] hb3 (broadcastInDim SRow ![1] hb1 mean)))
              (broadcastInDim SNF ![0, 1] hb3 (broadcastInDim SRow ![1] hb1 (Host.rsqrt (addf var (broadcastInDim SF ![] hb4 (constant S0 .f32 0x3727C5AC#32)))))))
            (broadcastInDim SNF ![0, 1] hb3 (broadcastInDim SRow ![1] hb1 gam)))
          (broadcastInDim SNF ![0, 1] hb3 (broadcastInDim SRow ![1] hb1 bet)))
            (broadcastInDim SNF ![] hb5 (constant S0 .f32 0x00000000#32)))
          (addf
          (mulf
            (mulf (subf lin (broadcastInDim SNF ![0, 1] hb3 (broadcastInDim SRow ![1] hb1 mean)))
              (broadcastInDim SNF ![0, 1] hb3 (broadcastInDim SRow ![1] hb1 (Host.rsqrt (addf var (broadcastInDim SF ![] hb4 (constant S0 .f32 0x3727C5AC#32)))))))
            (broadcastInDim SNF ![0, 1] hb3 (broadcastInDim SRow ![1] hb1 gam)))
          (broadcastInDim SNF ![0, 1] hb3 (broadcastInDim SRow ![1] hb1 bet)))
          (mulf (F := Ideal) (φ := .f32) (broadcastInDim SNF ![] hb5 (id (constant S0 .f32 0x3C23D70A#32)))
            (addf
          (mulf
            (mulf (subf lin (broadcastInDim SNF ![0, 1] hb3 (broadcastInDim SRow ![1] hb1 mean)))
              (broadcastInDim SNF ![0, 1] hb3 (broadcastInDim SRow ![1] hb1 (Host.rsqrt (addf var (broadcastInDim SF ![] hb4 (constant S0 .f32 0x3727C5AC#32)))))))
            (broadcastInDim SNF ![0, 1] hb3 (broadcastInDim SRow ![1] hb1 gam)))
          (broadcastInDim SNF ![0, 1] hb3 (broadcastInDim SRow ![1] hb1 bet)))))
        W2)
      (broadcastInDim ⟨2, ![100000, 64]⟩ ![0, 1] hb7 (broadcastInDim ⟨2, ![1, 64]⟩ ![1] hb6 b2))
      = Cert.Spec.normLeakyOut lin (broadcastInDim SRow ![1] hb1 mean) (broadcastInDim SRow ![1] hb1 var)
          (broadcastInDim SRow ![1] hb1 gam) (broadcastInDim SRow ![1] hb1 bet) W2 (broadcastInDim ⟨2, ![1, 64]⟩ ![1] hb6 b2) := by
  funext i
  obtain ⟨r, q, rfl⟩ : ∃ (r : Fin 100000) (q : Fin 64), i = ix2 r q := ⟨i 0, i 1, eq_ix2 i⟩
  refine (addf_apply _ _ _).trans ?_
  refine (congrArg₂ (· + ·) (ref_mmO_apply _ W2 r q) (rowsDown64_apply hb7 _ r q)).trans ?_
  unfold Cert.Spec.normLeakyOut
  refine congrArg₂ (· + ·) (Finset.sum_congr rfl fun k _ => congrArg (· * W2 (ix2 k q)) ?_) rfl
  exact (ref_leaky_apply hb5 _ (ix2 r k)).trans
    (congrArg Cert.Spec.leakyGt (ref_norm_apply hb1 hb3 hb4 lin mean var gam bet r k))

end Cert.StageHead
end
-- ==== Proof.RefLayers.lean ====
/-
  The reference's layers over the final contents of its whole line of host operations, in the shared vocabulary of
  stages. Every reference is written once, after its operands, so the final contents at a result are the operation's
  function of the final contents at its operands; composing these equations along a layer gives: the layer's linear
  output is the specification's linear stage of the aggregated and own features with the layer's slab of each weight
  stack and its bias row; the mean and variance vectors the reference computes from the linear output are the mean row
  and the two-pass variance row of that output; so the layer's output is the layer function of its linear output and
  its scale and shift rows. The head is the same with the four feature blocks against the four stretches of its first
  matrix, and the leaky activation and last product after the normalisation.
-/
import proofs.«173273_j2259152798196_2_alg».proof.Proof.RefFull
import proofs.«173273_j2259152798196_2_alg».proof.Proof.RefKeep
import proofs.«173273_j2259152798196_2_alg».proof.Proof.Layer
import proofs.«173273_j2259152798196_2_alg».proof.Proof.Ingr
import proofs.«173273_j2259152798196_2_alg».proof.Proof.StageRef
import proofs.«173273_j2259152798196_2_alg».proof.Proof.StageHead

noncomputable section
namespace Cert.ReferenceIdeal.Layers
open Cert.ReferenceIdeal Cert.ReferenceIdeal.Gen Cert.ReferenceIdeal.Ops Cert.ReferenceIdeal.SSA Cert.ReferenceIdeal.HandRun
open Idealize.ShloMosaic Idealize.ShloMosaic.TcCoe Idealize.SL.Sem Idealize.ShloMosaic.StableHlo Idealize.ShloMosaic.ValueIdx

/-- The head's linear stage depends on its four weight matrices only through their values. -/
theorem headLinear_congr {x h1 h2 h3 : (⟨2, ![100000, 128]⟩ : Shape).Idx → EReal} {b : (⟨2, ![1, 128]⟩ : Shape).Idx → EReal}
    {w0 w0' w1 w1' w2 w2' w3 w3' : (⟨2, ![128, 128]⟩ : Shape).Idx → EReal}
    (e0 : w0 = w0') (e1 : w1 = w1') (e2 : w2 = w2') (e3 : w3 = w3') :
    Cert.Spec.headLinear x h1 h2 h3 w0 w1 w2 w3 b = Cert.Spec.headLinear x h1 h2 h3 w0' w1' w2' w3' b := by
  subst e0 e1 e2 e3; rfl

/-! ## Layer 0 -/

theorem wl0 (V : Valuation τ sig (Elt Ideal)) :
    (after ops V (Proc.devRef .tc main_v26)) = Cert.Ingr.wSlab 0 (V (Proc.devRef .tc main_arg2)) := by
  rw [rbf_main_v26, rbf_main_v25, ops_keeps V (r := main_arg2) (by decide)]
  exact Cert.Ingr.slab_eq 0 _ _ _
theorem wr0 (V : Valuation τ sig (Elt Ideal)) :
    (after ops V (Proc.devRef .tc main_v34)) = Cert.Ingr.wSlab 0 (V (Proc.devRef .tc main_arg4)) := by
  rw [rbf_main_v34, rbf_main_v33, ops_keeps V (r := main_arg4) (by decide)]
  exact Cert.Ingr.slab_eq 0 _ _ _
theorem bl0 (V : Valuation τ sig (Elt Ideal)) :
    (after ops V (Proc.devRef .tc main_v29)) = Cert.Ingr.vRow 0 (V (Proc.devRef .tc main_arg3)) := by
  rw [rbf_main_v29, rbf_main_v28, ops_keeps V (r := main_arg3) (by decide)]
  exact Cert.Ingr.row_eq 0 _ _ _
theorem gam0 (V : Valuation τ sig (Elt Ideal)) :
    (after ops V (Proc.devRef .tc main_v38)) = Cert.Ingr.vRow 0 (V (Proc.devRef .tc main_arg5)) := by
  rw [rbf_main_v38, rbf_main_v37, ops_keeps V (r := main_arg5) (by decide)]
  exact Cert.Ingr.row_eq 0 _ _ _
theorem bet0 (V : Valuation τ sig (Elt Ideal)) :
    (after ops V (Proc.devRef .tc main_v40)) = Cert.Ingr.vRow 0 (V (Proc.devRef .tc main_arg6)) := by
  rw [rbf_main_v40, rbf_main_v39, ops_keeps V (r := main_arg6) (by decide)]
  exact Cert.Ingr.row_eq 0 _ _ _

/-- Layer 0's linear output is the specification's linear stage of the layer's aggregated and own features. -/
theorem ref_lin0 (V : Valuation τ sig (Elt Ideal)) : after ops V (Proc.devRef .tc main_v36)
    = Cert.Spec.linear (after ops V (Proc.devRef .tc main_v24)) (after ops V (Proc.devRef .tc main_arg0))
        (Cert.Ingr.wSlab 0 (V (Proc.devRef .tc main_arg2))) (broadcastInDim S1x128 ![1] bcast_S128_S1x128_1 (Cert.Ingr.vRow 0 (V (Proc.devRef .tc main_arg3))))
        (Cert.Ingr.wSlab 0 (V (Proc.devRef .tc main_arg4))) := by
  rw [rbf_main_v36, rbf_main_v32, rbf_main_v27, rbf_main_v31, rbf_main_v30, rbf_main_v35, wl0 V, wr0 V, bl0 V]
  exact Cert.StageRef.ref_linear_eq _ _ _ _ _ _ _

/-- The mean vector the reference computes from this linear output, set as a row, is the mean row of the output. -/
theorem mean0 (V : Valuation τ sig (Elt Ideal)) :
    broadcastInDim S1x128 ![1] bcast_S128_S1x128_1 (after ops V (Proc.devRef .tc main_v43)) = Cert.Layer.meanRow (after ops V (Proc.devRef .tc main_v36)) := by
  refine Cert.Layer.row_ext fun q => ?_
  refine (Cert.StageStats.rowOfVec_apply _ _ q).trans ?_
  rw [rbf_main_v43, rbf_main_v41, rbf_main_v42, rbf_main_cst_5, rbf_main_cst_6]
  exact Cert.StageStats.ref_mean_apply _ _ _ _ q

/-- The variance vector the reference's variance function computes from this linear output, set as a row, is the
    two-pass variance row of the output. -/
theorem var0 (V : Valuation τ sig (Elt Ideal)) :
    broadcastInDim S1x128 ![1] bcast_S128_S1x128_1 (after ops V (Proc.devRef .tc main_v44)) = Cert.Layer.varRow (after ops V (Proc.devRef .tc main_v36)) := by
  refine Cert.Layer.row_ext fun q => ?_
  refine (Cert.StageStats.rowOfVec_apply _ _ q).trans ?_
  rw [rbf_main_v44, rbf_main_call0_v12, rbf_main_call0_v11, rbf_main_call0_call0_v1, rbf_main_call0_call0_v0, rbf_main_call0_cst_4, rbf_main_call0_v10, rbf_main_call0_v9,
    rbf_main_call0_v8, rbf_main_call0_cst_3, rbf_main_call0_cst_2, rbf_main_call0_v7, rbf_main_c_7, rbf_main_call0_cst_1, rbf_main_call0_v6, rbf_main_call0_v5, rbf_main_call0_v4,
    rbf_main_call0_v3, rbf_main_call0_v2, rbf_main_call0_cst_0, rbf_main_call0_v1, rbf_main_call0_v0, rbf_main_call0_cst]
  exact Cert.StageStats.ref_var_eq _ _ _ _ _ _ _ q

/-- Layer 0's output is the layer function of its linear output and its scale and shift rows. -/
theorem ref_out0 (V : Valuation τ sig (Elt Ideal)) : after ops V (Proc.devRef .tc main_v60)
    = Cert.Layer.layerOut (after ops V (Proc.devRef .tc main_v36)) (broadcastInDim S1x128 ![1] bcast_S128_S1x128_1 (Cert.Ingr.vRow 0 (V (Proc.devRef .tc main_arg5))))
        (broadcastInDim S1x128 ![1] bcast_S128_S1x128_1 (Cert.Ingr.vRow 0 (V (Proc.devRef .tc main_arg6)))) := by
  rw [rbf_main_v60, rbf_main_call1_v0, rbf_main_call1_cst, rbf_main_v59, rbf_main_v56, rbf_main_v53, rbf_main_v47, rbf_main_v46, rbf_main_v45,
    rbf_main_v52, rbf_main_v51, rbf_main_v50, rbf_main_v49, rbf_main_v48, rbf_main_cst_8, rbf_main_v55, rbf_main_v54, rbf_main_v58, rbf_main_v57,
    gam0 V, bet0 V]
  refine (Cert.StageRef.ref_normRelu_eq _ _ _ _ _ _ _ _ _).trans ?_
  unfold Cert.Layer.layerOut
  rw [mean0 V, var0 V]

/-! ## Layer 1 -/

theorem wl1 (V : Valuation τ sig (Elt Ideal)) :
    (after ops V (Proc.devRef .tc main_v74)) = Cert.Ingr.wSlab 1 (V (Proc.devRef .tc main_arg2)) := by
  rw [rbf_main_v74, rbf_main_v73, ops_keeps V (r := main_arg2) (by decide)]
  exact Cert.Ingr.slab_eq 1 _ _ _
theorem wr1 (V : Valuation τ sig (Elt Ideal)) :
    (after ops V (Proc.devRef .tc main_v82)) = Cert.Ingr.wSlab 1 (V (Proc.devRef .tc main_arg4)) := by
  rw [rbf_main_v82, rbf_main_v81, ops_keeps V (r := main_arg4) (by decide)]
  exact Cert.Ingr.slab_eq 1 _ _ _
theorem bl1 (V : Valuation τ sig (Elt Ideal)) :
    (after ops V (Proc.devRef .tc main_v77)) = Cert.Ingr.vRow 1 (V (Proc.devRef .tc main_arg3)) := by
  rw [rbf_main_v77, rbf_main_v76, ops_keeps V (r := main_arg3) (by decide)]
  exact Cert.Ingr.row_eq 1 _ _ _
theorem gam1 (V : Valuation τ sig (Elt Ideal)) :
    (after ops V (Proc.devRef .tc main_v86)) = Cert.Ingr.vRow 1 (V (Proc.devRef .tc main_arg5)) := by
  rw [rbf_main_v86, rbf_main_v85, ops_keeps V (r := main_arg5) (by decide)]
  exact Cert.Ingr.row_eq 1 _ _ _
theorem bet1 (V : Valuation τ sig (Elt Ideal)) :
    (after ops V (Proc.devRef .tc main_v88)) = Cert.Ingr.vRow 1 (V (Proc.devRef .tc main_arg6)) := by
  rw [rbf_main_v88, rbf_main_v87, ops_keeps V (r := main_arg6) (by decide)]
  exact Cert.Ingr.row_eq 1 _ _ _

/-- Layer 1's linear output is the specification's linear stage of the layer's aggregated and own features. -/
theorem ref_lin1 (V : Valuation τ sig (Elt Ideal)) : after ops V (Proc.devRef .tc main_v84)
    = Cert.Spec.linear (after ops V (Proc.devRef .tc main_v72)) (after ops V (Proc.devRef .tc main_v60))
        (Cert.Ingr.wSlab 1 (V (Proc.devRef .tc main_arg2))) (broadcastInDim S1x128 ![1] bcast_S128_S1x128_1 (Cert.Ingr.vRow 1 (V (Proc.devRef .tc main_arg3))))
        (Cert.Ingr.wSlab 1 (V (Proc.devRef .tc main_arg4))) := by
  rw [rbf_main_v84, rbf_main_v80, rbf_main_v75, rbf_main_v79, rbf_main_v78, rbf_main_v83, wl1 V, wr1 V, bl1 V]
  exact Cert.StageRef.ref_linear_eq _ _ _ _ _ _ _

/-- The mean vector the reference computes from this linear output, set as a row, is the mean row of the output. -/
theorem mean1 (V : Valuation τ sig (Elt Ideal)) :
    broadcastInDim S1x128 ![1] bcast_S128_S1x128_1 (after ops V (Proc.devRef .tc main_v91)) = Cert.Layer.meanRow (after ops V (Proc.devRef .tc main_v84)) := by
  refine Cert.Layer.row_ext fun q => ?_
  refine (Cert.StageStats.rowOfVec_apply _ _ q).trans ?_
  rw [rbf_main_v91, rbf_main_v89, rbf_main_v90, rbf_main_cst_12, rbf_main_cst_13]
  exact Cert.StageStats.ref_mean_apply _ _ _ _ q

/-- The variance vector the reference's variance function computes from this linear output, set as a row, is the
    two-pass variance row of the output. -/
theorem var1 (V : Valuation τ sig (Elt Ideal)) :
    broadcastInDim S1x128 ![1] bcast_S128_S1x128_1 (after ops V (Proc.devRef .tc main_v92)) = Cert.Layer.varRow (after ops V (Proc.devRef .tc main_v84)) := by
  refine Cert.Layer.row_ext fun q => ?_
  refine (Cert.StageStats.rowOfVec_apply _ _ q).trans ?_
  rw [rbf_main_v92, rbf_main_call2_v12, rbf_main_call2_v11, rbf_main_call2_call0_v1, rbf_main_call2_call0_v0, rbf_main_call2_cst_4, rbf_main_call2_v10, rbf_main_call2_v9,
    rbf_main_call2_v8, rbf_main_call2_cst_3, rbf_main_call2_cst_2, rbf_main_call2_v7, rbf_main_c_14, rbf_main_call2_cst_1, rbf_main_call2_v6, rbf_main_call2_v5, rbf_main_call2_v4,
    rbf_main_call2_v3, rbf_main_call2_v2, rbf_main_call2_cst_0, rbf_main_call2_v1, rbf_main_call2_v0, rbf_main_call2_cst]
  exact Cert.StageStats.ref_var_eq _ _ _ _ _ _ _ q

/-- Layer 1's output is the layer function of its linear output and its scale and shift rows. -/
theorem ref_out1 (V : Valuation τ sig (Elt Ideal)) : after ops V (Proc.devRef .tc main_v108)
    = Cert.Layer.layerOut (after ops V (Proc.devRef .tc main_v84)) (broadcastInDim S1x128 ![1] bcast_S128_S1x128_1 (Cert.Ingr.vRow 1 (V (Proc.devRef .tc main_arg5))))
        (broadcastInDim S1x128 ![1] bcast_S128_S1x128_1 (Cert.Ingr.vRow 1 (V (Proc.devRef .tc main_arg6)))) := by
  rw [rbf_main_v108, rbf_main_call3_v0, rbf_main_call3_cst, rbf_main_v107, rbf_main_v104, rbf_main_v101, rbf_main_v95, rbf_main_v94, rbf_main_v93,
    rbf_main_v100, rbf_main_v99, rbf_main_v98, rbf_main_v97, rbf_main_v96, rbf_main_cst_15, rbf_main_v103, rbf_main_v102, rbf_main_v106, rbf_main_v105,
    gam1 V, bet1 V]
  refine (Cert.StageRef.ref_normRelu_eq _ _ _ _ _ _ _ _ _).trans ?_
  unfold Cert.Layer.layerOut
  rw [mean1 V, var1 V]

/-! ## Layer 2 -/

theorem wl2 (V : Valuation τ sig (Elt Ideal)) :
    (after ops V (Proc.devRef .tc main_v122)) = Cert.Ingr.wSlab 2 (V (Proc.devRef .tc main_arg2)) := by
  rw [rbf_main_v122, rbf_main_v121, ops_keeps V (r := main_arg2) (by decide)]
  exact Cert.Ingr.slab_eq 2 _ _ _
theorem wr2 (V : Valuation τ sig (Elt Ideal)) :
    (after ops V (Proc.devRef .tc main_v130)) = Cert.Ingr.wSlab 2 (V (Proc.devRef .tc main_arg4)) := by
  rw [rbf_main_v130, rbf_main_v129, ops_keeps V (r := main_arg4) (by decide)]
  exact Cert.Ingr.slab_eq 2 _ _ _
theorem bl2 (V : Valuation τ sig (Elt Ideal)) :
    (after ops V (Proc.devRef .tc main_v125)) = Cert.Ingr.vRow 2 (V (Proc.devRef .tc main_arg3)) := by
  rw [rbf_main_v125, rbf_main_v124, ops_keeps V (r := main_arg3) (by decide)]
  exact Cert.Ingr.row_eq 2 _ _ _
theorem gam2 (V : Valuation τ sig (Elt Ideal)) :
    (after ops V (Proc.devRef .tc main_v134)) = Cert.Ingr.vRow 2 (V (Proc.devRef .tc main_arg5)) := by
  rw [rbf_main_v134, rbf_main_v133, ops_keeps V (r := main_arg5) (by decide)]
  exact Cert.Ingr.row_eq 2 _ _ _
theorem bet2 (V : Valuation τ sig (Elt Ideal)) :
    (after ops V (Proc.devRef .tc main_v136)) = Cert.Ingr.vRow 2 (V (Proc.devRef .tc main_arg6)) := by
  rw [rbf_main_v136, rbf_main_v135, ops_keeps V (r := main_arg6) (by decide)]
  exact Cert.Ingr.row_eq 2 _ _ _

/-- Layer 2's linear output is the specification's linear stage of the layer's aggregated and own features. -/
theorem ref_lin2 (V : Valuation τ sig (Elt Ideal)) : after ops V (Proc.devRef .tc main_v132)
    = Cert.Spec.linear (after ops V (Proc.devRef .tc main_v120)) (after ops V (Proc.devRef .tc main_v108))
        (Cert.Ingr.wSlab 2 (V (Proc.devRef .tc main_arg2))) (broadcastInDim S1x128 ![1] bcast_S128_S1x128_1 (Cert.Ingr.vRow 2 (V (Proc.devRef .tc main_arg3))))
        (Cert.Ingr.wSlab 2 (V (Proc.devRef .tc main_arg4))) := by
  rw [rbf_main_v132, rbf_main_v128, rbf_main_v123, rbf_main_v127, rbf_main_v126, rbf_main_v131, wl2 V, wr2 V, bl2 V]
  exact Cert.StageRef.ref_linear_eq _ _ _ _ _ _ _

/-- The mean vector the reference computes from this linear output, set as a row, is the mean row of the output. -/
theorem mean2 (V : Valuation τ sig (Elt Ideal)) :
    broadcastInDim S1x128 ![1] bcast_S128_S1x128_1 (after ops V (Proc.devRef .tc main_v139)) = Cert.Layer.meanRow (after ops V (Proc.devRef .tc main_v132)) := by
  refine Cert.Layer.row_ext fun q => ?_
  refine (Cert.StageStats.rowOfVec_apply _ _ q).trans ?_
  rw [rbf_main_v139, rbf_main_v137, rbf_main_v138, rbf_main_cst_19, rbf_main_cst_20]
  exact Cert.StageStats.ref_mean_apply _ _ _ _ q

/-- The variance vector the reference's variance function computes from this linear output, set as a row, is the
    two-pass variance row of the output. -/
theorem var2 (V : Valuation τ sig (Elt Ideal)) :
    broadcastInDim S1x128 ![1] bcast_S128_S1x128_1 (after ops V (Proc.devRef .tc main_v140)) = Cert.Layer.varRow (after ops V (Proc.devRef .tc main_v132)) := by
  refine Cert.Layer.row_ext fun q => ?_
  refine (Cert.StageStats.rowOfVec_apply _ _ q).trans ?_
  rw [rbf_main_v140, rbf_main_call4_v12, rbf_main_call4_v11, rbf_main_call4_call0_v1, rbf_main_call4_call0_v0, rbf_main_call4_cst_4, rbf_main_call4_v10, rbf_main_call4_v9,
    rbf_main_call4_v8, rbf_main_call4_cst_3, rbf_main_call4_cst_2, rbf_main_call4_v7, rbf_main_c_21, rbf_main_call4_cst_1, rbf_main_call4_v6, rbf_main_call4_v5, rbf_main_call4_v4,
    rbf_main_call4_v3, rbf_main_call4_v2, rbf_main_call4_cst_0, rbf_main_call4_v1, rbf_main_call4_v0, rbf_main_call4_cst]
  exact Cert.StageStats.ref_var_eq _ _ _ _ _ _ _ q

/-- Layer 2's output is the layer function of its linear output and its scale and shift rows. -/
theorem ref_out2 (V : Valuation τ sig (Elt Ideal)) : after ops V (Proc.devRef .tc main_v156)
    = Cert.Layer.layerOut (after ops V (Proc.devRef .tc main_v132)) (broadcastInDim S1x128 ![1] bcast_S128_S1x128_1 (Cert.Ingr.vRow 2 (V (Proc.devRef .tc main_arg5))))
        (broadcastInDim S1x128 ![1] bcast_S128_S1x128_1 (Cert.Ingr.vRow 2 (V (Proc.devRef .tc main_arg6)))) := by
  rw [rbf_main_v156, rbf_main_call5_v0, rbf_main_call5_cst, rbf_main_v155, rbf_main_v152, rbf_main_v149, rbf_main_v143, rbf_main_v142, rbf_main_v141,
    rbf_main_v148, rbf_main_v147, rbf_main_v146, rbf_main_v145, rbf_main_v144, rbf_main_cst_22, rbf_main_v151, rbf_main_v150, rbf_main_v154, rbf_main_v153,
    gam2 V, bet2 V]
  refine (Cert.StageRef.ref_normRelu_eq _ _ _ _ _ _ _ _ _).trans ?_
  unfold Cert.Layer.layerOut
  rw [mean2 V, var2 V]

/-! ## The head -/

/-- The head's linear output is the specification's head linear stage of the node features and the three layers'
    outputs, each against its stretch of the head's first matrix. -/
theorem ref_lin3 (V : Valuation τ sig (Elt Ideal)) : after ops V (Proc.devRef .tc main_v161)
    = Cert.Spec.headLinear (V (Proc.devRef .tc main_arg0)) (after ops V (Proc.devRef .tc main_v60)) (after ops V (Proc.devRef .tc main_v108)) (after ops V (Proc.devRef .tc main_v156))
        (Cert.Ingr.w1Stretch 0 (V (Proc.devRef .tc main_arg7))) (Cert.Ingr.w1Stretch 1 (V (Proc.devRef .tc main_arg7)))
        (Cert.Ingr.w1Stretch 2 (V (Proc.devRef .tc main_arg7))) (Cert.Ingr.w1Stretch 3 (V (Proc.devRef .tc main_arg7)))
        (broadcastInDim S1x128 ![1] bcast_S128_S1x128_1 (V (Proc.devRef .tc main_arg8))) := by
  rw [rbf_main_v161, rbf_main_v158, rbf_main_v157, rbf_main_v160, rbf_main_v159, ops_keeps V (r := main_arg0) (by decide), ops_keeps V (r := main_arg7) (by decide), ops_keeps V (r := main_arg8) (by decide)]
  refine (Cert.StageHead.ref_headLinear_eq _ _ _ (by decide) (by decide) (by decide) (by decide) _ _ _ _ _ _).trans ?_
  exact headLinear_congr (Cert.Ingr.stretch_eq 0 _ _) (Cert.Ingr.stretch_eq 1 _ _) (Cert.Ingr.stretch_eq 2 _ _) (Cert.Ingr.stretch_eq 3 _ _)

/-- The mean vector the reference computes from this linear output, set as a row, is the mean row of the output. -/
theorem mean3 (V : Valuation τ sig (Elt Ideal)) :
    broadcastInDim S1x128 ![1] bcast_S128_S1x128_1 (after ops V (Proc.devRef .tc main_v164)) = Cert.Layer.meanRow (after ops V (Proc.devRef .tc main_v161)) := by
  refine Cert.Layer.row_ext fun q => ?_
  refine (Cert.StageStats.rowOfVec_apply _ _ q).trans ?_
  rw [rbf_main_v164, rbf_main_v162, rbf_main_v163, rbf_main_cst_23, rbf_main_cst_24]
  exact Cert.StageStats.ref_mean_apply _ _ _ _ q

/-- The variance vector the reference's variance function computes from this linear output, set as a row, is the
    two-pass variance row of the output. -/
theorem var3 (V : Valuation τ sig (Elt Ideal)) :
    broadcastInDim S1x128 ![1] bcast_S128_S1x128_1 (after ops V (Proc.devRef .tc main_v165)) = Cert.Layer.varRow (after ops V (Proc.devRef .tc main_v161)) := by
  refine Cert.Layer.row_ext fun q => ?_
  refine (Cert.StageStats.rowOfVec_apply _ _ q).trans ?_
  rw [rbf_main_v165, rbf_main_call6_v12, rbf_main_call6_v11, rbf_main_call6_call0_v1, rbf_main_call6_call0_v0, rbf_main_call6_cst_4, rbf_main_call6_v10, rbf_main_call6_v9,
    rbf_main_call6_v8, rbf_main_call6_cst_3, rbf_main_call6_cst_2, rbf_main_call6_v7, rbf_main_c_25, rbf_main_call6_cst_1, rbf_main_call6_v6, rbf_main_call6_v5, rbf_main_call6_v4,
    rbf_main_call6_v3, rbf_main_call6_v2, rbf_main_call6_cst_0, rbf_main_call6_v1, rbf_main_call6_v0, rbf_main_call6_cst]
  exact Cert.StageStats.ref_var_eq _ _ _ _ _ _ _ q

/-- The result is the head function of the head's linear output, its scale and shift rows, and the last weights and bias. -/
theorem ref_out3 (V : Valuation τ sig (Elt Ideal)) : after ops V (Proc.devRef .tc main_v185)
    = Cert.Layer.headOut (after ops V (Proc.devRef .tc main_v161)) (broadcastInDim S1x128 ![1] bcast_S128_S1x128_1 (V (Proc.devRef .tc main_arg9))) (broadcastInDim S1x128 ![1] bcast_S128_S1x128_1 (V (Proc.devRef .tc main_arg10)))
        (V (Proc.devRef .tc main_arg11)) (broadcastInDim S1x64 ![1] bcast_S64_S1x64_1 (V (Proc.devRef .tc main_arg12))) := by
  rw [rbf_main_v185, rbf_main_v182, rbf_main_v184, rbf_main_v183, rbf_main_v181, rbf_main_call7_v4, rbf_main_call7_v3, rbf_main_call7_v2,
    rbf_main_cst_27, rbf_main_call7_v1, rbf_main_call7_v0, rbf_main_call7_cst, rbf_main_v180, rbf_main_v177, rbf_main_v174, rbf_main_v168,
    rbf_main_v167, rbf_main_v166, rbf_main_v173, rbf_main_v172, rbf_main_v171, rbf_main_v170, rbf_main_v169, rbf_main_cst_26,
    rbf_main_v176, rbf_main_v175, rbf_main_v179, rbf_main_v178,
    ops_keeps V (r := main_arg9) (by decide), ops_keeps V (r := main_arg10) (by decide), ops_keeps V (r := main_arg11) (by decide), ops_keeps V (r := main_arg12) (by decide)]
  refine (Cert.StageHead.ref_normLeakyOut_eq _ _ _ _ _ _ _ _ _ _ _ _ _).trans ?_
  unfold Cert.Layer.headOut
  rw [mean3 V, var3 V]

end Cert.ReferenceIdeal.Layers
end
-- ==== Proof.GlueReal.lean ====
/-
  The neighbour aggregation keeps real values real, whatever the edge indices. A gather reads some entry of its
  operand at every result index; a scatter with an add body leaves the operand's entry plus a finite sum of update
  entries; an entrywise product or maximum of reals is real; a broadcast reads some entry of its operand. The
  in-degree is zero plus a sum of ones, a real number, so its maximum with one is a real number at least one and
  the reciprocal of that is real. Stated for arbitrary dimension records and shapes; the zero and one arrays are any
  arrays that read 0 and 1 everywhere, with the two constant patterns' readings given at the end.
-/
import proofs.«173273_j2259152798196_2_alg».proof.Proof.LibMoments
import proofs.«173273_j2259152798196_2_alg».proof.Proof.NormBridge
import Idealize.ShloMosaic.PureOps.Ideal
import Idealize.ShloMosaic.PureOps.Ideal.Laws
import Idealize.ShloMosaic.Lib.ValueIdx
import Idealize.ShloMosaic.Lib.IdealHost

noncomputable section
namespace Cert.GlueReal
open Idealize.ShloMosaic Idealize.ShloMosaic.ValueIdx
open Cert.LibMoments

theorem isReal_one : IsReal (1 : EReal) := ⟨1, rfl⟩

/-- A gather reads, at every result index, some entry of its operand (the start indices are clamped into it):
    real entries stay real whatever the indices. -/
theorem isReal_gather {s si t : Shape} {w : Nat} (d : GatherDims s si t) (x : s.Idx → EReal) (idx : IVec si w)
    (hx : ∀ i, IsReal (x i)) (j : t.Idx) : IsReal (Host.gather d x idx j) :=
  hx (d.operandIdx j idx)

/-- A scatter with an add body leaves, at every index, the operand's entry plus a finite sum of update entries (those
    that land there; one landing outside adds nothing): real whatever the indices. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) (φ := .f32) d x idx upd i) := by
  unfold Host.scatterAdd
  rw [Ideal.hostScatterAdd_def]
  unfold Ideal.hostScatterAdd
  exact (hx i).add (isReal_sum _ _ fun j _ => hu j)

/-- The entrywise maximum of two arrays of reals is real. -/
theorem isReal_maximumf {s : Shape} (y z : FVec Ideal s .f32) (hy : ∀ i, IsReal (y i)) (hz : ∀ i, IsReal (z i)) (i : s.Idx) :
    IsReal (maximumf (F := Ideal) (φ := .f32) y z i) :=
  (hy i).max (hz i)

/-- The reciprocal of max (in-degree) 1: the in-degree is 0 plus a sum of ones, a real number, so its maximum with 1
    is a real number at least 1, hence not zero, and 1 over it is real. -/
theorem isReal_invDeg {s si su : Shape} {w : Nat} (d : ScatterDims s si su) (zero one : FVec Ideal s .f32)
    (ones : FVec Ideal su .f32) (idx : IVec si w) (hz : ∀ i, zero i = 0) (ho : ∀ i, one i = 1) (hos : ∀ j, ones j = 1)
    (i : s.Idx) :
    IsReal (Host.divf (F := Ideal) (φ := .f32) one (maximumf (Host.scatterAdd d zero idx ones) one) i) := by
  obtain ⟨r, hr⟩ := isReal_scatterAdd d zero idx ones (fun i => by rw [hz i]; exact Cert.NormBridge.isReal_zero)
    (fun j => by rw [hos j]; exact isReal_one) i
  show IsReal (Ideal.div (one i) (max (Host.scatterAdd (F := Ideal) (φ := .f32) d zero idx ones i) (one i)))
  rw [hr, ho i, show (1 : EReal) = ((1 : ℝ) : EReal) from rfl, ← coe_max]
  exact IsReal.div_coe (isReal_coe 1) (ne_of_gt (lt_of_lt_of_le one_pos (le_max_right r 1)))

/-- The entrywise product of two arrays of reals is real. -/
theorem isReal_mul_rows {s : Shape} (y z : FVec Ideal s .f32) (hy : ∀ i, IsReal (y i)) (hz : ∀ i, IsReal (z i)) (i : s.Idx) :
    IsReal (mulf (F := Ideal) (φ := .f32) y z i) :=
  (hy i).mul (hz i)

/-- A broadcast reads, at every result index, some entry of its operand: real entries stay real. -/
theorem isReal_broadcastInDim {s T : Shape} (dims : Fin s.rank → Fin T.rank) (hb : s.BroadcastsInDim T dims)
    (v : s.Idx → EReal) (hv : ∀ k, IsReal (v k)) (j : T.Idx) : IsReal (broadcastInDim T dims hb v j) := by
  unfold broadcastInDim
  exact hv _

/-- A constant array whose pattern is the f32 zero reads zero everywhere, and one whose pattern is the f32 one reads
    one everywhere, also after a broadcast from the scalar shape. -/
theorem bcast_zero_apply {T : Shape} (hb : (⟨0, ![]⟩ : Shape).BroadcastsInDim T (![] : Fin 0 → Fin T.rank)) (j : T.Idx) :
    broadcastInDim T ![] hb (constant (F := Ideal) ⟨0, ![]⟩ .f32 0x00000000#32) j = 0 := by
  rw [broadcastInDim_scalar_apply]
  exact Ideal.ofBits_zero_f32

theorem bcast_one_apply {T : Shape} (hb : (⟨0, ![]⟩ : Shape).BroadcastsInDim T (![] : Fin 0 → Fin T.rank)) (j : T.Idx) :
    broadcastInDim T ![] hb (constant (F := Ideal) ⟨0, ![]⟩ .f32 0x3F800000#32) j = 1 := by
  rw [broadcastInDim_scalar_apply]
  exact Ideal.ofBits_one_f32

end Cert.GlueReal
end
-- ==== Proof.GlueReal2.lean ====
/-
  The reciprocal of max (in-degree) 1, as the programs print it, is a real number at every node: the in-degree is zero
  plus a sum of ones over the edges that land on the node, a real number; its maximum with one is a real number at
  least one, so not zero; and one over a nonzero real is real.
-/
import proofs.«173273_j2259152798196_2_alg».proof.Proof.GlueReal
import proofs.«173273_j2259152798196_2_alg».proof.Proof.StageStats

noncomputable section

namespace Cert.GlueReal

open Idealize.ShloMosaic Idealize.ShloMosaic.ValueIdx Cert.LibMoments Cert.StageStats

theorem bcast_one_real {T : Shape} (hb : S0.BroadcastsInDim T ![]) (j : T.Idx) :
    broadcastInDim T ![] hb (constant (F := Ideal) S0 .f32 0x3F800000#32) j = ((1 : ℝ) : EReal) := by
  rw [bcast_const_apply, Ideal.ofBits_one_f32]; rfl

theorem bcast_zero_real {T : Shape} (hb : S0.BroadcastsInDim T ![]) (j : T.Idx) :
    broadcastInDim T ![] hb (constant (F := Ideal) S0 .f32 0x00000000#32) j = ((0 : ℝ) : EReal) := by
  rw [bcast_const_apply, Ideal.ofBits_zero_f32]; rfl

theorem isReal_invTerm {s si su : Shape} {w : Nat} (d : ScatterDims s si su) (pS : S0.BroadcastsInDim s ![])
    (pU : S0.BroadcastsInDim su ![]) (idx : IVec si w) (k : s.Idx) :
    IsReal (Host.divf (F := Ideal) (φ := .f32) (broadcastInDim s ![] pS (constant S0 .f32 0x3F800000#32))
      (maximumf
        (Host.scatterAdd d (broadcastInDim s ![] pS (constant S0 .f32 0x00000000#32)) idx
          (broadcastInDim su ![] pU (constant S0 .f32 0x3F800000#32)))
        (broadcastInDim s ![] pS (constant S0 .f32 0x3F800000#32))) k) := by
  obtain ⟨r, hr⟩ := isReal_scatterAdd d (broadcastInDim s ![] pS (constant S0 .f32 0x00000000#32)) idx
    (broadcastInDim su ![] pU (constant S0 .f32 0x3F800000#32))
    (fun i => ⟨0, bcast_zero_real pS i⟩) (fun j => ⟨1, bcast_one_real pU j⟩) k
  show IsReal (Ideal.div (broadcastInDim s ![] pS (constant (F := Ideal) S0 .f32 0x3F800000#32) k)
    (max (Host.scatterAdd (F := Ideal) (φ := .f32) d _ idx _ k) (broadcastInDim s ![] pS (constant (F := Ideal) S0 .f32 0x3F800000#32) k)))
  rw [hr, bcast_one_real pS k, ← coe_max]
  exact IsReal.div_coe (isReal_coe 1) (ne_of_gt (lt_of_lt_of_le one_pos (le_max_right r 1)))

end Cert.GlueReal

end
-- ==== Proof.Glue.lean ====
/-
  The neighbour aggregation agrees between the two programs and keeps real values real. Both programs read the source
  and destination lists off the edge argument and form the inverse-degree column once, by the same operations, so these
  three buffers are equal when the edge arguments agree; per layer both gather the layer's input at the shifted sources,
  scatter-sum at the destinations and scale by the column, by the same operations, so the aggregated features are equal
  when the layer's inputs are. A gather reads entries of its operand and a scatter-sum adds finitely many of them, so
  real inputs give real aggregated features whatever the edge lists hold; the column is real (GlueReal).
-/
import proofs.«173273_j2259152798196_2_alg».proof.Proof.KernelFold
import proofs.«173273_j2259152798196_2_alg».proof.Proof.RefKeep
import proofs.«173273_j2259152798196_2_alg».proof.Proof.GlueReal2
import proofs.«173273_j2259152798196_2_alg».proof.Proof.RefFull

set_option maxRecDepth 16384

noncomputable section

namespace Cert.Glue

open Idealize.ShloMosaic Idealize.ShloMosaic.TcCoe Idealize.ShloMosaic.ValueIdx Idealize.SL.Sem Idealize.ShloMosaic.StableHlo
open Cert.LibMoments Cert.GlueReal Cert.KernelIdeal.Fold Cert.ReferenceIdeal.SSA

abbrev KI_m := (ℓ : Loc Cert.KernelIdeal.nD Cert.KernelIdeal.τ Cert.KernelIdeal.sig) → Buf (Elt Ideal) ℓ
abbrev RI_V := Valuation Cert.ReferenceIdeal.τ Cert.ReferenceIdeal.sig (Elt Ideal)

variable (m : KI_m) (ρ : Dev Cert.KernelIdeal.nD → PrngReg) (V : RI_V) (c : Dev Cert.KernelIdeal.nD)

/-! ## The buffers shared by the layers: sources, destinations, the inverse-degree column -/

attribute [local irreducible] Host.gather Host.scatterAdd Host.divf maximumf mulf select cmpi addi broadcastInDim shapeCast
  extractStridedSlice constant constantI in
set_option maxHeartbeats 4000000 in
theorem src_eq (h1 : V (Proc.devRef .tc Cert.ReferenceIdeal.main_arg1) = m ((c : Thread Cert.KernelIdeal.nD Cert.KernelIdeal.τ).loc Cert.KernelIdeal.main_arg1)) :
    Cert.KernelIdeal.Gen.W1 m ρ c (Proc.devRef .tc Cert.KernelIdeal.main_v1) = after (Cert.ReferenceIdeal.Ops.ops (F := Ideal)) V (Proc.devRef .tc Cert.ReferenceIdeal.main_v1) := by
  show StableHlo.after Cert.KernelIdeal.Gen.hostOps0 (Cert.KernelIdeal.Gen.W0 m ρ c) (Proc.devRef .tc Cert.KernelIdeal.main_v1) = _
  simp only [Cert.KernelIdeal.Gen.hostOps0]
  after_results_simp
  rw [rbf_main_v1, rbf_main_v0, Cert.ReferenceIdeal.HandRun.ops_keeps V (r := Cert.ReferenceIdeal.main_arg1) (by decide)]
  rw [h1]
  rfl

attribute [local irreducible] Host.gather Host.scatterAdd Host.divf maximumf mulf select cmpi addi broadcastInDim shapeCast
  extractStridedSlice constant constantI in
set_option maxHeartbeats 4000000 in
theorem dst_eq (h1 : V (Proc.devRef .tc Cert.ReferenceIdeal.main_arg1) = m ((c : Thread Cert.KernelIdeal.nD Cert.KernelIdeal.τ).loc Cert.KernelIdeal.main_arg1)) :
    Cert.KernelIdeal.Gen.W1 m ρ c (Proc.devRef .tc Cert.KernelIdeal.main_v3) = after (Cert.ReferenceIdeal.Ops.ops (F := Ideal)) V (Proc.devRef .tc Cert.ReferenceIdeal.main_v3) := by
  show StableHlo.after Cert.KernelIdeal.Gen.hostOps0 (Cert.KernelIdeal.Gen.W0 m ρ c) (Proc.devRef .tc Cert.KernelIdeal.main_v3) = _
  simp only [Cert.KernelIdeal.Gen.hostOps0]
  after_results_simp
  rw [rbf_main_v3, rbf_main_v2, Cert.ReferenceIdeal.HandRun.ops_keeps V (r := Cert.ReferenceIdeal.main_arg1) (by decide)]
  rw [h1]
  rfl

attribute [local irreducible] Host.gather Host.scatterAdd Host.divf maximumf mulf select cmpi addi broadcastInDim shapeCast
  extractStridedSlice constant constantI in
set_option maxHeartbeats 4000000 in
theorem inv_eq (h1 : V (Proc.devRef .tc Cert.ReferenceIdeal.main_arg1) = m ((c : Thread Cert.KernelIdeal.nD Cert.KernelIdeal.τ).loc Cert.KernelIdeal.main_arg1)) :
    Cert.KernelIdeal.Gen.W1 m ρ c (Proc.devRef .tc Cert.KernelIdeal.main_v12) = after (Cert.ReferenceIdeal.Ops.ops (F := Ideal)) V (Proc.devRef .tc Cert.ReferenceIdeal.main_v12) := by
  show StableHlo.after Cert.KernelIdeal.Gen.hostOps0 (Cert.KernelIdeal.Gen.W0 m ρ c) (Proc.devRef .tc Cert.KernelIdeal.main_v12) = _
  simp only [Cert.KernelIdeal.Gen.hostOps0]
  after_results_simp
  rw [rbf_main_v12, rbf_main_v11, rbf_main_v10, rbf_main_cst_2, rbf_main_v9, rbf_main_v7, rbf_main_v5, rbf_main_cst_0, rbf_main_v6,
    rbf_main_v3, rbf_main_v2, Cert.ReferenceIdeal.HandRun.ops_keeps V (r := Cert.ReferenceIdeal.main_arg1) (by decide), rbf_main_v4, rbf_main_cst, rbf_main_v8, rbf_main_cst_1]
  rw [h1]
  rfl

set_option maxHeartbeats 4000000 in
/-- The inverse-degree column is real at every node. -/
theorem inv_real (i) : IsReal (Cert.KernelIdeal.Gen.W1 m ρ c (Proc.devRef .tc Cert.KernelIdeal.main_v12) i) := by
  show IsReal (StableHlo.after Cert.KernelIdeal.Gen.hostOps0 (Cert.KernelIdeal.Gen.W0 m ρ c) (Proc.devRef .tc Cert.KernelIdeal.main_v12) i)
  simp only [Cert.KernelIdeal.Gen.hostOps0]
  after_results_simp
  refine isReal_broadcastInDim _ _ _ ?_ i
  intro k
  exact isReal_invTerm _ _ _ _ k

/-! ## Layer 0 -/

/-- The reference's final valuation at a reference its first window writes is the first window's. -/
theorem ref_w0 {r : Ref Cert.ReferenceIdeal.sig .tc}
    (h1 : r ∉ Cert.ReferenceIdeal.SSA.written1) (h2 : r ∉ Cert.ReferenceIdeal.SSA.written2) (h3 : r ∉ Cert.ReferenceIdeal.SSA.written3) :
    after (Cert.ReferenceIdeal.Ops.ops (F := Ideal)) V (Proc.devRef .tc r)
      = after Cert.ReferenceIdeal.Ops.ops_part0 V (Proc.devRef .tc r) := by
  unfold Cert.ReferenceIdeal.Ops.ops
  rw [Cert.ReferenceIdeal.HandRun.after_append', Cert.ReferenceIdeal.HandRun.after_append', Cert.ReferenceIdeal.HandRun.after_append',
    Cert.ReferenceIdeal.SSA.keep3 _ h3, Cert.ReferenceIdeal.SSA.keep2 _ h2, Cert.ReferenceIdeal.SSA.keep1 _ h1]

attribute [local irreducible] Host.gather Host.scatterAdd Host.divf maximumf mulf select cmpi addi broadcastInDim shapeCast
  extractStridedSlice constant constantI in
set_option maxHeartbeats 4000000 in
/-- Layer 0's aggregated features agree when the node features and the edge lists do. -/
theorem agg0_eq (h0 : V (Proc.devRef .tc Cert.ReferenceIdeal.main_arg0) = m ((c : Thread Cert.KernelIdeal.nD Cert.KernelIdeal.τ).loc Cert.KernelIdeal.main_arg0)) (h1 : V (Proc.devRef .tc Cert.ReferenceIdeal.main_arg1) = m ((c : Thread Cert.KernelIdeal.nD Cert.KernelIdeal.τ).loc Cert.KernelIdeal.main_arg1)) :
    Cert.KernelIdeal.Gen.W1 m ρ c (Proc.devRef .tc Cert.KernelIdeal.main_v24) = after (Cert.ReferenceIdeal.Ops.ops (F := Ideal)) V (Proc.devRef .tc Cert.ReferenceIdeal.main_v24) := by
  rw [ref_w0 V (by decide) (by decide) (by decide)]
  show StableHlo.after Cert.KernelIdeal.Gen.hostOps0 (Cert.KernelIdeal.Gen.W0 m ρ c) (Proc.devRef .tc Cert.KernelIdeal.main_v24) = _
  simp only [Cert.KernelIdeal.Gen.hostOps0, Cert.ReferenceIdeal.Ops.ops_part0]
  after_results_simp
  rw [h0, h1]
  rfl

set_option maxHeartbeats 4000000 in
/-- Layer 0's aggregated features are real when the node features are. -/
theorem agg0_real (hx : ∀ i, IsReal (m ((c : Thread Cert.KernelIdeal.nD Cert.KernelIdeal.τ).loc Cert.KernelIdeal.main_arg0) i)) (i) :
    IsReal (Cert.KernelIdeal.Gen.W1 m ρ c (Proc.devRef .tc Cert.KernelIdeal.main_v24) i) := by
  show IsReal (StableHlo.after Cert.KernelIdeal.Gen.hostOps0 (Cert.KernelIdeal.Gen.W0 m ρ c) (Proc.devRef .tc Cert.KernelIdeal.main_v24) i)
  simp only [Cert.KernelIdeal.Gen.hostOps0]
  after_results_simp
  refine isReal_mul_rows _ _ ?_ ?_ i
  · intro i
    refine isReal_scatterAdd _ _ _ _ ?_ ?_ i
    · intro i; exact ⟨0, bcast_zero_real _ i⟩
    · intro j; exact isReal_gather _ _ _ hx j
  · intro i
    refine isReal_broadcastInDim _ _ _ ?_ i
    intro k
    refine isReal_broadcastInDim _ _ _ ?_ k
    intro k'
    exact isReal_invTerm _ _ _ _ k'

/-! ## Layer 1 -/

theorem src4 (h1 : V (Proc.devRef .tc Cert.ReferenceIdeal.main_arg1) = m ((c : Thread Cert.KernelIdeal.nD Cert.KernelIdeal.τ).loc Cert.KernelIdeal.main_arg1)) : Cert.KernelIdeal.Gen.W4 m ρ c (Proc.devRef .tc Cert.KernelIdeal.main_v1) = after (Cert.ReferenceIdeal.Ops.ops (F := Ideal)) V (Proc.devRef .tc Cert.ReferenceIdeal.main_v1) :=
  ((reg1_keep m ρ c (b := Cert.KernelIdeal.main_v1) (by decide)).trans ((host1_keep m ρ c (b := Cert.KernelIdeal.main_v1) (by decide)).trans (reg0_keep m ρ c (b := Cert.KernelIdeal.main_v1) (by decide)))).trans (src_eq m ρ V c h1)
theorem dst4 (h1 : V (Proc.devRef .tc Cert.ReferenceIdeal.main_arg1) = m ((c : Thread Cert.KernelIdeal.nD Cert.KernelIdeal.τ).loc Cert.KernelIdeal.main_arg1)) : Cert.KernelIdeal.Gen.W4 m ρ c (Proc.devRef .tc Cert.KernelIdeal.main_v3) = after (Cert.ReferenceIdeal.Ops.ops (F := Ideal)) V (Proc.devRef .tc Cert.ReferenceIdeal.main_v3) :=
  ((reg1_keep m ρ c (b := Cert.KernelIdeal.main_v3) (by decide)).trans ((host1_keep m ρ c (b := Cert.KernelIdeal.main_v3) (by decide)).trans (reg0_keep m ρ c (b := Cert.KernelIdeal.main_v3) (by decide)))).trans (dst_eq m ρ V c h1)
theorem inv4 (h1 : V (Proc.devRef .tc Cert.ReferenceIdeal.main_arg1) = m ((c : Thread Cert.KernelIdeal.nD Cert.KernelIdeal.τ).loc Cert.KernelIdeal.main_arg1)) : Cert.KernelIdeal.Gen.W4 m ρ c (Proc.devRef .tc Cert.KernelIdeal.main_v12) = after (Cert.ReferenceIdeal.Ops.ops (F := Ideal)) V (Proc.devRef .tc Cert.ReferenceIdeal.main_v12) :=
  ((reg1_keep m ρ c (b := Cert.KernelIdeal.main_v12) (by decide)).trans ((host1_keep m ρ c (b := Cert.KernelIdeal.main_v12) (by decide)).trans (reg0_keep m ρ c (b := Cert.KernelIdeal.main_v12) (by decide)))).trans (inv_eq m ρ V c h1)

attribute [local irreducible] Host.gather Host.scatterAdd Host.divf maximumf mulf select cmpi addi broadcastInDim shapeCast
  extractStridedSlice constant constantI in
set_option maxHeartbeats 4000000 in
/-- Layer 1's aggregated features agree when the layer's inputs do. -/
theorem agg1_eq (h1 : V (Proc.devRef .tc Cert.ReferenceIdeal.main_arg1) = m ((c : Thread Cert.KernelIdeal.nD Cert.KernelIdeal.τ).loc Cert.KernelIdeal.main_arg1)) (hh : Cert.KernelIdeal.Gen.W4 m ρ c (Proc.devRef .tc Cert.KernelIdeal.main_v51) = after (Cert.ReferenceIdeal.Ops.ops (F := Ideal)) V (Proc.devRef .tc Cert.ReferenceIdeal.main_v60)) :
    Cert.KernelIdeal.Gen.W5 m ρ c (Proc.devRef .tc Cert.KernelIdeal.main_v63) = after (Cert.ReferenceIdeal.Ops.ops (F := Ideal)) V (Proc.devRef .tc Cert.ReferenceIdeal.main_v72) := by
  rw [rbf_main_v72, rbf_main_v70, rbf_main_v68, rbf_main_cst_11, rbf_main_v69, rbf_main_v67, rbf_main_v66, rbf_main_v65, rbf_main_v62, rbf_main_v61, rbf_main_c_9, rbf_main_v64, rbf_main_v63, rbf_main_c_10, rbf_main_v71, ← hh, ← src4 m ρ V c h1, ← dst4 m ρ V c h1, ← inv4 m ρ V c h1]
  show StableHlo.after Cert.KernelIdeal.Gen.hostOps2 (Cert.KernelIdeal.Gen.W4 m ρ c) (Proc.devRef .tc Cert.KernelIdeal.main_v63) = _
  simp only [Cert.KernelIdeal.Gen.hostOps2]
  after_results_simp
  rfl

set_option maxHeartbeats 4000000 in
/-- Layer 1's aggregated features are real when its input is. -/
theorem agg1_real (hh : ∀ i, IsReal (Cert.KernelIdeal.Gen.W4 m ρ c (Proc.devRef .tc Cert.KernelIdeal.main_v51) i)) (i) : IsReal (Cert.KernelIdeal.Gen.W5 m ρ c (Proc.devRef .tc Cert.KernelIdeal.main_v63) i) := by
  show IsReal (StableHlo.after Cert.KernelIdeal.Gen.hostOps2 (Cert.KernelIdeal.Gen.W4 m ρ c) (Proc.devRef .tc Cert.KernelIdeal.main_v63) i)
  simp only [Cert.KernelIdeal.Gen.hostOps2]
  after_results_simp
  refine isReal_mul_rows _ _ ?_ ?_ i
  · intro i
    refine isReal_scatterAdd _ _ _ _ ?_ ?_ i
    · intro i; exact ⟨0, bcast_zero_real _ i⟩
    · intro j; exact isReal_gather _ _ _ hh j
  · intro i
    refine isReal_broadcastInDim _ _ _ ?_ i
    intro k
    rw [((reg1_keep m ρ c (b := Cert.KernelIdeal.main_v12) (by decide)).trans ((host1_keep m ρ c (b := Cert.KernelIdeal.main_v12) (by decide)).trans (reg0_keep m ρ c (b := Cert.KernelIdeal.main_v12) (by decide))))]
    exact inv_real m ρ c k

/-! ## Layer 2 -/

theorem src8 (h1 : V (Proc.devRef .tc Cert.ReferenceIdeal.main_arg1) = m ((c : Thread Cert.KernelIdeal.nD Cert.KernelIdeal.τ).loc Cert.KernelIdeal.main_arg1)) : Cert.KernelIdeal.Gen.W8 m ρ c (Proc.devRef .tc Cert.KernelIdeal.main_v1) = after (Cert.ReferenceIdeal.Ops.ops (F := Ideal)) V (Proc.devRef .tc Cert.ReferenceIdeal.main_v1) :=
  (((reg3_keep m ρ c (b := Cert.KernelIdeal.main_v1) (by decide)).trans ((host3_keep m ρ c (b := Cert.KernelIdeal.main_v1) (by decide)).trans ((reg2_keep m ρ c (b := Cert.KernelIdeal.main_v1) (by decide)).trans (host2_keep m ρ c (b := Cert.KernelIdeal.main_v1) (by decide))))).trans ((reg1_keep m ρ c (b := Cert.KernelIdeal.main_v1) (by decide)).trans ((host1_keep m ρ c (b := Cert.KernelIdeal.main_v1) (by decide)).trans (reg0_keep m ρ c (b := Cert.KernelIdeal.main_v1) (by decide))))).trans (src_eq m ρ V c h1)
theorem dst8 (h1 : V (Proc.devRef .tc Cert.ReferenceIdeal.main_arg1) = m ((c : Thread Cert.KernelIdeal.nD Cert.KernelIdeal.τ).loc Cert.KernelIdeal.main_arg1)) : Cert.KernelIdeal.Gen.W8 m ρ c (Proc.devRef .tc Cert.KernelIdeal.main_v3) = after (Cert.ReferenceIdeal.Ops.ops (F := Ideal)) V (Proc.devRef .tc Cert.ReferenceIdeal.main_v3) :=
  (((reg3_keep m ρ c (b := Cert.KernelIdeal.main_v3) (by decide)).trans ((host3_keep m ρ c (b := Cert.KernelIdeal.main_v3) (by decide)).trans ((reg2_keep m ρ c (b := Cert.KernelIdeal.main_v3) (by decide)).trans (host2_keep m ρ c (b := Cert.KernelIdeal.main_v3) (by decide))))).trans ((reg1_keep m ρ c (b := Cert.KernelIdeal.main_v3) (by decide)).trans ((host1_keep m ρ c (b := Cert.KernelIdeal.main_v3) (by decide)).trans (reg0_keep m ρ c (b := Cert.KernelIdeal.main_v3) (by decide))))).trans (dst_eq m ρ V c h1)
theorem inv8 (h1 : V (Proc.devRef .tc Cert.ReferenceIdeal.main_arg1) = m ((c : Thread Cert.KernelIdeal.nD Cert.KernelIdeal.τ).loc Cert.KernelIdeal.main_arg1)) : Cert.KernelIdeal.Gen.W8 m ρ c (Proc.devRef .tc Cert.KernelIdeal.main_v12) = after (Cert.ReferenceIdeal.Ops.ops (F := Ideal)) V (Proc.devRef .tc Cert.ReferenceIdeal.main_v12) :=
  (((reg3_keep m ρ c (b := Cert.KernelIdeal.main_v12) (by decide)).trans ((host3_keep m ρ c (b := Cert.KernelIdeal.main_v12) (by decide)).trans ((reg2_keep m ρ c (b := Cert.KernelIdeal.main_v12) (by decide)).trans (host2_keep m ρ c (b := Cert.KernelIdeal.main_v12) (by decide))))).trans ((reg1_keep m ρ c (b := Cert.KernelIdeal.main_v12) (by decide)).trans ((host1_keep m ρ c (b := Cert.KernelIdeal.main_v12) (by decide)).trans (reg0_keep m ρ c (b := Cert.KernelIdeal.main_v12) (by decide))))).trans (inv_eq m ρ V c h1)

attribute [local irreducible] Host.gather Host.scatterAdd Host.divf maximumf mulf select cmpi addi broadcastInDim shapeCast
  extractStridedSlice constant constantI in
set_option maxHeartbeats 4000000 in
/-- Layer 2's aggregated features agree when the layer's inputs do. -/
theorem agg2_eq (h1 : V (Proc.devRef .tc Cert.ReferenceIdeal.main_arg1) = m ((c : Thread Cert.KernelIdeal.nD Cert.KernelIdeal.τ).loc Cert.KernelIdeal.main_arg1)) (hh : Cert.KernelIdeal.Gen.W8 m ρ c (Proc.devRef .tc Cert.KernelIdeal.main_v90) = after (Cert.ReferenceIdeal.Ops.ops (F := Ideal)) V (Proc.devRef .tc Cert.ReferenceIdeal.main_v108)) :
    Cert.KernelIdeal.Gen.W9 m ρ c (Proc.devRef .tc Cert.KernelIdeal.main_v102) = after (Cert.ReferenceIdeal.Ops.ops (F := Ideal)) V (Proc.devRef .tc Cert.ReferenceIdeal.main_v120) := by
  rw [rbf_main_v120, rbf_main_v118, rbf_main_v116, rbf_main_cst_18, rbf_main_v117, rbf_main_v115, rbf_main_v114, rbf_main_v113, rbf_main_v110, rbf_main_v109, rbf_main_c_16, rbf_main_v112, rbf_main_v111, rbf_main_c_17, rbf_main_v119, ← hh, ← src8 m ρ V c h1, ← dst8 m ρ V c h1, ← inv8 m ρ V c h1]
  show StableHlo.after Cert.KernelIdeal.Gen.hostOps4 (Cert.KernelIdeal.Gen.W8 m ρ c) (Proc.devRef .tc Cert.KernelIdeal.main_v102) = _
  simp only [Cert.KernelIdeal.Gen.hostOps4]
  after_results_simp
  rfl

set_option maxHeartbeats 4000000 in
/-- Layer 2's aggregated features are real when its input is. -/
theorem agg2_real (hh : ∀ i, IsReal (Cert.KernelIdeal.Gen.W8 m ρ c (Proc.devRef .tc Cert.KernelIdeal.main_v90) i)) (i) : IsReal (Cert.KernelIdeal.Gen.W9 m ρ c (Proc.devRef .tc Cert.KernelIdeal.main_v102) i) := by
  show IsReal (StableHlo.after Cert.KernelIdeal.Gen.hostOps4 (Cert.KernelIdeal.Gen.W8 m ρ c) (Proc.devRef .tc Cert.KernelIdeal.main_v102) i)
  simp only [Cert.KernelIdeal.Gen.hostOps4]
  after_results_simp
  refine isReal_mul_rows _ _ ?_ ?_ i
  · intro i
    refine isReal_scatterAdd _ _ _ _ ?_ ?_ i
    · intro i; exact ⟨0, bcast_zero_real _ i⟩
    · intro j; exact isReal_gather _ _ _ hh j
  · intro i
    refine isReal_broadcastInDim _ _ _ ?_ i
    intro k
    rw [(((reg3_keep m ρ c (b := Cert.KernelIdeal.main_v12) (by decide)).trans ((host3_keep m ρ c (b := Cert.KernelIdeal.main_v12) (by decide)).trans ((reg2_keep m ρ c (b := Cert.KernelIdeal.main_v12) (by decide)).trans (host2_keep m ρ c (b := Cert.KernelIdeal.main_v12) (by decide))))).trans ((reg1_keep m ρ c (b := Cert.KernelIdeal.main_v12) (by decide)).trans ((host1_keep m ρ c (b := Cert.KernelIdeal.main_v12) (by decide)).trans (reg0_keep m ρ c (b := Cert.KernelIdeal.main_v12) (by decide)))))]
    exact inv_real m ρ c k

end Cert.Glue

end
-- ==== Proof.PreReal.lean ====
/-
  The precondition decoded. The stated precondition is a printed predicate: for each of the twelve float argument
  arrays, the conjunction over all entries of |entry| < +infinity, and the conjunction of those twelve. On the
  extended reals |x| is max x (-x) and the bit pattern compared against denotes plus infinity, so an entry passes
  exactly when it is neither infinity: it is a real number. One lemma reads that off for an arbitrary shape; the
  theorem splits the twelve conjuncts and applies it to each array. The integer edge list is not constrained.
-/
import proofs.«173273_j2259152798196_2_alg».proof.Defs
import proofs.«173273_j2259152798196_2_alg».proof.Proof.Gen.Pre_finite_inputs
import proofs.«173273_j2259152798196_2_alg».proof.Proof.LibMoments
import Idealize.ShloMosaic.Lib.ReduceAll
import Idealize.ShloMosaic.Lib.ValueIdx
import Idealize.ShloMosaic.Lib.IdealHost

noncomputable section
namespace Cert.PreReal
open Idealize.ShloMosaic Idealize.ShloMosaic.ValueIdx Idealize.SL.Sem
open Cert.LibMoments

/-- The scalar shape has one index. -/
instance : Subsingleton (⟨0, ![]⟩ : Shape).Idx := ⟨fun a b => funext fun d => d.elim0⟩

/-- The f32 pattern with all exponent bits set and no fraction bit is plus infinity. -/
theorem ofBits_inf_f32 : Ideal.ofBits .f32 0x7F800000#32 = ⊤ := by
  simp [Ideal.ofBits, Ideal.ieee]

/-- An extended real whose absolute value max x (-x) is below plus infinity is a real number: minus infinity has
    absolute value plus infinity, and so has plus infinity. -/
theorem isReal_of_abs_lt_top (x : EReal) (h : max x (-x) < ⊤) : IsReal x := by
  induction x using EReal.rec with
  | bot => simp at h
  | coe r => exact ⟨r, rfl⟩
  | top => simp at h

/-- "Every entry has absolute value below plus infinity", as a printed predicate spells it — the conjunction over all
    entries of the comparison of |x| with the broadcast infinity pattern, from the constant true — says, when it
    comes out true, that every entry of the array is a real number. -/
theorem isReal_of_all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) : IsReal (x i) := by
  have h1 := Host.reduce_andi_all _ _ hr hu ix0 e i
  have h2 : Ideal.cmp .olt (max (x i) (-(x i))) (Ideal.ofBits .f32 0x7F800000#32) = 1#1 := h1
  rw [ofBits_inf_f32] at h2
  refine isReal_of_abs_lt_top (x i) ?_
  unfold Ideal.cmp at h2
  by_contra hn
  simp [hn] at h2

/-- The precondition decoded: on every device, every entry of each of the twelve float argument arrays is a real
    number (the integer edge list is not constrained). -/
theorem pre_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, Cert.LibMoments.IsReal (m ((c.tc : Thread Cert.KernelIdeal.nD Cert.KernelIdeal.τ).loc Cert.KernelIdeal.main_arg0) i))
    ∧ (∀ i, Cert.LibMoments.IsReal (m ((c.tc : Thread Cert.KernelIdeal.nD Cert.KernelIdeal.τ).loc Cert.KernelIdeal.main_arg2) i))
    ∧ (∀ i, Cert.LibMoments.IsReal (m ((c.tc : Thread Cert.KernelIdeal.nD Cert.KernelIdeal.τ).loc Cert.KernelIdeal.main_arg3) i))
    ∧ (∀ i, Cert.LibMoments.IsReal (m ((c.tc : Thread Cert.KernelIdeal.nD Cert.KernelIdeal.τ).loc Cert.KernelIdeal.main_arg4) i))
    ∧ (∀ i, Cert.LibMoments.IsReal (m ((c.tc : Thread Cert.KernelIdeal.nD Cert.KernelIdeal.τ).loc Cert.KernelIdeal.main_arg5) i))
    ∧ (∀ i, Cert.LibMoments.IsReal (m ((c.tc : Thread Cert.KernelIdeal.nD Cert.KernelIdeal.τ).loc Cert.KernelIdeal.main_arg6) i))
    ∧ (∀ i, Cert.LibMoments.IsReal (m ((c.tc : Thread Cert.KernelIdeal.nD Cert.KernelIdeal.τ).loc Cert.KernelIdeal.main_arg7) i))
    ∧ (∀ i, Cert.LibMoments.IsReal (m ((c.tc : Thread Cert.KernelIdeal.nD Cert.KernelIdeal.τ).loc Cert.KernelIdeal.main_arg8) i))
    ∧ (∀ i, Cert.LibMoments.IsReal (m ((c.tc : Thread Cert.KernelIdeal.nD Cert.KernelIdeal.τ).loc Cert.KernelIdeal.main_arg9) i))
    ∧ (∀ i, Cert.LibMoments.IsReal (m ((c.tc : Thread Cert.KernelIdeal.nD Cert.KernelIdeal.τ).loc Cert.KernelIdeal.main_arg10) i))
    ∧ (∀ i, Cert.LibMoments.IsReal (m ((c.tc : Thread Cert.KernelIdeal.nD Cert.KernelIdeal.τ).loc Cert.KernelIdeal.main_arg11) i))
    ∧ (∀ i, Cert.LibMoments.IsReal (m ((c.tc : Thread Cert.KernelIdeal.nD Cert.KernelIdeal.τ).loc Cert.KernelIdeal.main_arg12) i)) := by
  have e := congrFun (hpre c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨h0, h2⟩, h3⟩, h4⟩, h5⟩, h6⟩, h7⟩, h8⟩, h9⟩, h10⟩, h11⟩, h12⟩ := e
  exact ⟨isReal_of_all_finite _ _ _ _ h0,
    isReal_of_all_finite _ _ _ _ h2,
    isReal_of_all_finite _ _ _ _ h3,
    isReal_of_all_finite _ _ _ _ h4,
    isReal_of_all_finite _ _ _ _ h5,
    isReal_of_all_finite _ _ _ _ h6,
    isReal_of_all_finite _ _ _ _ h7,
    isReal_of_all_finite _ _ _ _ h8,
    isReal_of_all_finite _ _ _ _ h9,
    isReal_of_all_finite _ _ _ _ h10,
    isReal_of_all_finite _ _ _ _ h11,
    isReal_of_all_finite _ _ _ _ h12⟩

end Cert.PreReal
end
-- ==== Proof.ResultEq.lean ====
/-
  The equation between the two programs' results. With V the reference's launch contents and the arguments agreeing,
  the tiled program's buffers at its segment boundaries and the reference's final valuation are compared layer by
  layer. The node features agree (an argument); so the aggregated features agree (Glue) and are real; the layer's linear
  stage is the same function of equal arrays (the weight slabs and the bias row are the same entries of the arguments;
  the tiled program's row spelling is the reference's), and is real; the layer's output is the one layer function of
  the linear stage and the scale and shift rows - here the tiled program's clamped one-pass variance over block sums
  meets the reference's two-pass variance, which needs the linear stage real - and is real. Three times; then the head:
  its linear stage contracts the four feature blocks with the four stretches of the first weight matrix, and its output
  is the one head function of that stage. Realness starts at the precondition: every float argument entry is real.
-/
import proofs.«173273_j2259152798196_2_alg».proof.Defs
import proofs.«173273_j2259152798196_2_alg».proof.Proof.KernelLayers
import proofs.«173273_j2259152798196_2_alg».proof.Proof.KernelHead
import proofs.«173273_j2259152798196_2_alg».proof.Proof.KernelIngr
import proofs.«173273_j2259152798196_2_alg».proof.Proof.RefLayers
import proofs.«173273_j2259152798196_2_alg».proof.Proof.Glue
import proofs.«173273_j2259152798196_2_alg».proof.Proof.PreReal

set_option maxRecDepth 16384

noncomputable section

namespace Cert.ResultEq

open Idealize.ShloMosaic Idealize.ShloMosaic.TcCoe Idealize.ShloMosaic.ValueIdx Idealize.SL.Sem Idealize.ShloMosaic.StableHlo
open Cert.LibMoments Cert.NormBridge Cert.StageStats Cert.Layer Cert.Spec Cert.Ingr

/-- A 64-vector set as a row by a shape cast is the vector set as a row by a broadcast along the new axis. -/
theorem rowCast_eq_rowBcast64 (hsc : (⟨1, ![64]⟩ : Shape).ShapeCasts ⟨2, ![1, 64]⟩)
    (hb : (⟨1, ![64]⟩ : Shape).BroadcastsInDim ⟨2, ![1, 64]⟩ ![1]) (v : (⟨1, ![64]⟩ : Shape).Idx → EReal) :
    shapeCast ⟨2, ![1, 64]⟩ v hsc = broadcastInDim ⟨2, ![1, 64]⟩ ![1] hb v := by
  funext j
  obtain ⟨u, q, rfl⟩ : ∃ (u : Fin 1) (q : Fin 64), j = ix2 u q := ⟨j 0, j 1, eq_ix2 j⟩
  obtain rfl : u = 0 := Subsingleton.elim _ _
  rw [shapeCast_a_1a_apply]
  exact (broadcastInDim_apply ![1] hb v (ix2 0 q) (ix1 q) (by intro d; match d with | ⟨0, _⟩ => rfl)).symm

/-- A real feature vector set as a row is a real row. -/
theorem real_row (hb : SF.BroadcastsInDim SRow ![1]) (v : SF.Idx → EReal) (hv : ∀ k, IsReal (v k)) (i : SRow.Idx) :
    IsReal (broadcastInDim SRow ![1] hb v i) :=
  Cert.GlueReal.isReal_broadcastInDim (s := SF) (T := SRow) ![1] hb v hv i
theorem real_vRow (l : Fin 3) (a : S3R.Idx → EReal) (ha : ∀ i, IsReal (a i)) (k : SF.Idx) : IsReal (vRow l a k) := ha _
theorem real_wSlab (l : Fin 3) (a : S3W.Idx → EReal) (ha : ∀ i, IsReal (a i)) (i : SW.Idx) : IsReal (wSlab l a i) := ha _
theorem real_w1 (k : Fin 4) (a : SW1.Idx → EReal) (ha : ∀ i, IsReal (a i)) (i : SW.Idx) : IsReal (w1Stretch k a i) := ha _

set_option maxHeartbeats 4000000 in
theorem result_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    after (Cert.ReferenceIdeal.Ops.ops (F := Ideal)) (launchContents m' c)
        (Proc.devRef .tc Cert.ReferenceIdeal.main_v185 : DevRef Cert.ReferenceIdeal.τ Cert.ReferenceIdeal.sig)
      = Cert.KernelIdeal.Gen.W16 m ρ c (Proc.devRef .tc Cert.KernelIdeal.main_v151) := by
  obtain ⟨e0, e1, e2, e3, e4, e5, e6, e7, e8, e9, e10, e11, e12⟩ := hagree c
  obtain ⟨r0, r2, r3, r4, r5, r6, r7, r8, r9, r10, r11, r12⟩ := Cert.PreReal.pre_real m hpre c
  generalize hVdef : launchContents m' c = V at *
  replace e0 : (V (Proc.devRef .tc Cert.ReferenceIdeal.main_arg0)) = (m ((c : Thread Cert.KernelIdeal.nD Cert.KernelIdeal.τ).loc Cert.KernelIdeal.main_arg0)) := by rw [← hVdef]; exact e0
  replace e1 : (V (Proc.devRef .tc Cert.ReferenceIdeal.main_arg1)) = (m ((c : Thread Cert.KernelIdeal.nD Cert.KernelIdeal.τ).loc Cert.KernelIdeal.main_arg1)) := by rw [← hVdef]; exact e1
  replace e2 : (V (Proc.devRef .tc Cert.ReferenceIdeal.main_arg2)) = (m ((c : Thread Cert.KernelIdeal.nD Cert.KernelIdeal.τ).loc Cert.KernelIdeal.main_arg2)) := by rw [← hVdef]; exact e2
  replace e3 : (V (Proc.devRef .tc Cert.ReferenceIdeal.main_arg3)) = (m ((c : Thread Cert.KernelIdeal.nD Cert.KernelIdeal.τ).loc Cert.KernelIdeal.main_arg3)) := by rw [← hVdef]; exact e3
  replace e4 : (V (Proc.devRef .tc Cert.ReferenceIdeal.main_arg4)) = (m ((c : Thread Cert.KernelIdeal.nD Cert.KernelIdeal.τ).loc Cert.KernelIdeal.main_arg4)) := by rw [← hVdef]; exact e4
  replace e5 : (V (Proc.devRef .tc Cert.ReferenceIdeal.main_arg5)) = (m ((c : Thread Cert.KernelIdeal.nD Cert.KernelIdeal.τ).loc Cert.KernelIdeal.main_arg5)) := by rw [← hVdef]; exact e5
  replace e6 : (V (Proc.devRef .tc Cert.ReferenceIdeal.main_arg6)) = (m ((c : Thread Cert.KernelIdeal.nD Cert.KernelIdeal.τ).loc Cert.KernelIdeal.main_arg6)) := by rw [← hVdef]; exact e6
  replace e7 : (V (Proc.devRef .tc Cert.ReferenceIdeal.main_arg7)) = (m ((c : Thread Cert.KernelIdeal.nD Cert.KernelIdeal.τ).loc Cert.KernelIdeal.main_arg7)) := by rw [← hVdef]; exact e7
  replace e8 : (V (Proc.devRef .tc Cert.ReferenceIdeal.main_arg8)) = (m ((c : Thread Cert.KernelIdeal.nD Cert.KernelIdeal.τ).loc Cert.KernelIdeal.main_arg8)) := by rw [← hVdef]; exact e8
  replace e9 : (V (Proc.devRef .tc Cert.ReferenceIdeal.main_arg9)) = (m ((c : Thread Cert.KernelIdeal.nD Cert.KernelIdeal.τ).loc Cert.KernelIdeal.main_arg9)) := by rw [← hVdef]; exact e9
  replace e10 : (V (Proc.devRef .tc Cert.ReferenceIdeal.main_arg10)) = (m ((c : Thread Cert.KernelIdeal.nD Cert.KernelIdeal.τ).loc Cert.KernelIdeal.main_arg10)) := by rw [← hVdef]; exact e10
  replace e11 : (V (Proc.devRef .tc Cert.ReferenceIdeal.main_arg11)) = (m ((c : Thread Cert.KernelIdeal.nD Cert.KernelIdeal.τ).loc Cert.KernelIdeal.main_arg11)) := by rw [← hVdef]; exact e11
  replace e12 : (V (Proc.devRef .tc Cert.ReferenceIdeal.main_arg12)) = (m ((c : Thread Cert.KernelIdeal.nD Cert.KernelIdeal.τ).loc Cert.KernelIdeal.main_arg12)) := by rw [← hVdef]; exact e12
  have hV0 : after (Cert.ReferenceIdeal.Ops.ops (F := Ideal)) V (Proc.devRef .tc Cert.ReferenceIdeal.main_arg0) = (m ((c : Thread Cert.KernelIdeal.nD Cert.KernelIdeal.τ).loc Cert.KernelIdeal.main_arg0)) :=
    (Cert.ReferenceIdeal.HandRun.ops_keeps V (r := Cert.ReferenceIdeal.main_arg0) (by decide)).trans e0
  have rh0 : ∀ i, IsReal ((m ((c : Thread Cert.KernelIdeal.nD Cert.KernelIdeal.τ).loc Cert.KernelIdeal.main_arg0)) i) := r0

  -- layer 0
  have hhA0 : Cert.KernelIdeal.Gen.W1 m ρ c (Proc.devRef .tc Cert.KernelIdeal.main_arg0) = after (Cert.ReferenceIdeal.Ops.ops (F := Ideal)) V (Proc.devRef .tc Cert.ReferenceIdeal.main_arg0) := (Cert.KernelIdeal.Layers.hcarry_0_arg m ρ c).trans hV0.symm
  have rhA0 : ∀ i, IsReal (Cert.KernelIdeal.Gen.W1 m ρ c (Proc.devRef .tc Cert.KernelIdeal.main_arg0) i) := fun i => by rw [Cert.KernelIdeal.Layers.hcarry_0_arg m ρ c]; exact rh0 i
  have hagg0 : Cert.KernelIdeal.Gen.W1 m ρ c (Proc.devRef .tc Cert.KernelIdeal.main_v24) = after (Cert.ReferenceIdeal.Ops.ops (F := Ideal)) V (Proc.devRef .tc Cert.ReferenceIdeal.main_v24) := Cert.Glue.agg0_eq m ρ V c e0 e1
  have ragg0 : ∀ i, IsReal (Cert.KernelIdeal.Gen.W1 m ρ c (Proc.devRef .tc Cert.KernelIdeal.main_v24) i) := Cert.Glue.agg0_real m ρ c r0
  have hlin0 : Cert.KernelIdeal.Gen.W2 m ρ c (Proc.devRef .tc Cert.KernelIdeal.main_v32_0) = after (Cert.ReferenceIdeal.Ops.ops (F := Ideal)) V (Proc.devRef .tc Cert.ReferenceIdeal.main_v36) := by
    rw [Cert.KernelIdeal.Layers.lin0 m ρ c, Cert.ReferenceIdeal.Layers.ref_lin0 V, hagg0, hhA0, Cert.KernelIdeal.Layers.wl_0 m ρ c, Cert.KernelIdeal.Layers.wr_0 m ρ c, Cert.KernelIdeal.Layers.bl_0 m ρ c, e2, e3, e4,
      Cert.StageRef.rowCast_eq_rowBcast _ Cert.ReferenceIdeal.Gen.bcast_S128_S1x128_1]
  have rlin0 : ∀ i, IsReal (Cert.KernelIdeal.Gen.W2 m ρ c (Proc.devRef .tc Cert.KernelIdeal.main_v32_0) i) := fun i => by
    rw [Cert.KernelIdeal.Layers.lin0 m ρ c, Cert.KernelIdeal.Layers.wl_0 m ρ c, Cert.KernelIdeal.Layers.wr_0 m ρ c, Cert.KernelIdeal.Layers.bl_0 m ρ c,
      Cert.StageRef.rowCast_eq_rowBcast _ Cert.ReferenceIdeal.Gen.bcast_S128_S1x128_1]
    exact isReal_linear_arr _ _ _ _ _ ragg0 rhA0 (real_wSlab _ _ r2) (real_wSlab _ _ r4) (real_row _ _ (real_vRow _ _ r3)) i
  have hout0 : Cert.KernelIdeal.Gen.W4 m ρ c (Proc.devRef .tc Cert.KernelIdeal.main_v51) = after (Cert.ReferenceIdeal.Ops.ops (F := Ideal)) V (Proc.devRef .tc Cert.ReferenceIdeal.main_v60) := by
    rw [Cert.KernelIdeal.Layers.out0 m ρ c rlin0, Cert.ReferenceIdeal.Layers.ref_out0 V, hlin0, Cert.KernelIdeal.Layers.gam_0 m ρ c, Cert.KernelIdeal.Layers.bet_0 m ρ c, e5, e6,
      Cert.StageRef.rowCast_eq_rowBcast _ Cert.ReferenceIdeal.Gen.bcast_S128_S1x128_1, Cert.StageRef.rowCast_eq_rowBcast _ Cert.ReferenceIdeal.Gen.bcast_S128_S1x128_1]
  have rout0 : ∀ i, IsReal (Cert.KernelIdeal.Gen.W4 m ρ c (Proc.devRef .tc Cert.KernelIdeal.main_v51) i) := fun i => by
    rw [Cert.KernelIdeal.Layers.out0 m ρ c rlin0, Cert.KernelIdeal.Layers.gam_0 m ρ c, Cert.KernelIdeal.Layers.bet_0 m ρ c,
      Cert.StageRef.rowCast_eq_rowBcast _ Cert.ReferenceIdeal.Gen.bcast_S128_S1x128_1, Cert.StageRef.rowCast_eq_rowBcast _ Cert.ReferenceIdeal.Gen.bcast_S128_S1x128_1]
    exact isReal_layerOut _ _ _ rlin0 (real_row _ _ (real_vRow _ _ r5)) (real_row _ _ (real_vRow _ _ r6)) i

  -- layer 1
  have hhA1 : Cert.KernelIdeal.Gen.W5 m ρ c (Proc.devRef .tc Cert.KernelIdeal.main_v51) = after (Cert.ReferenceIdeal.Ops.ops (F := Ideal)) V (Proc.devRef .tc Cert.ReferenceIdeal.main_v60) := (Cert.KernelIdeal.Layers.hcarry_1 m ρ c).trans hout0
  have rhA1 : ∀ i, IsReal (Cert.KernelIdeal.Gen.W5 m ρ c (Proc.devRef .tc Cert.KernelIdeal.main_v51) i) := fun i => by rw [Cert.KernelIdeal.Layers.hcarry_1 m ρ c]; exact rout0 i
  have hagg1 : Cert.KernelIdeal.Gen.W5 m ρ c (Proc.devRef .tc Cert.KernelIdeal.main_v63) = after (Cert.ReferenceIdeal.Ops.ops (F := Ideal)) V (Proc.devRef .tc Cert.ReferenceIdeal.main_v72) := Cert.Glue.agg1_eq m ρ V c e1 hout0
  have ragg1 : ∀ i, IsReal (Cert.KernelIdeal.Gen.W5 m ρ c (Proc.devRef .tc Cert.KernelIdeal.main_v63) i) := Cert.Glue.agg1_real m ρ c rout0
  have hlin1 : Cert.KernelIdeal.Gen.W6 m ρ c (Proc.devRef .tc Cert.KernelIdeal.main_v71_0) = after (Cert.ReferenceIdeal.Ops.ops (F := Ideal)) V (Proc.devRef .tc Cert.ReferenceIdeal.main_v84) := by
    rw [Cert.KernelIdeal.Layers.lin1 m ρ c, Cert.ReferenceIdeal.Layers.ref_lin1 V, hagg1, hhA1, Cert.KernelIdeal.Layers.wl_1 m ρ c, Cert.KernelIdeal.Layers.wr_1 m ρ c, Cert.KernelIdeal.Layers.bl_1 m ρ c, e2, e3, e4,
      Cert.StageRef.rowCast_eq_rowBcast _ Cert.ReferenceIdeal.Gen.bcast_S128_S1x128_1]
  have rlin1 : ∀ i, IsReal (Cert.KernelIdeal.Gen.W6 m ρ c (Proc.devRef .tc Cert.KernelIdeal.main_v71_0) i) := fun i => by
    rw [Cert.KernelIdeal.Layers.lin1 m ρ c, Cert.KernelIdeal.Layers.wl_1 m ρ c, Cert.KernelIdeal.Layers.wr_1 m ρ c, Cert.KernelIdeal.Layers.bl_1 m ρ c,
      Cert.StageRef.rowCast_eq_rowBcast _ Cert.ReferenceIdeal.Gen.bcast_S128_S1x128_1]
    exact isReal_linear_arr _ _ _ _ _ ragg1 rhA1 (real_wSlab _ _ r2) (real_wSlab _ _ r4) (real_row _ _ (real_vRow _ _ r3)) i
  have hout1 : Cert.KernelIdeal.Gen.W8 m ρ c (Proc.devRef .tc Cert.KernelIdeal.main_v90) = after (Cert.ReferenceIdeal.Ops.ops (F := Ideal)) V (Proc.devRef .tc Cert.ReferenceIdeal.main_v108) := by
    rw [Cert.KernelIdeal.Layers.out1 m ρ c rlin1, Cert.ReferenceIdeal.Layers.ref_out1 V, hlin1, Cert.KernelIdeal.Layers.gam_1 m ρ c, Cert.KernelIdeal.Layers.bet_1 m ρ c, e5, e6,
      Cert.StageRef.rowCast_eq_rowBcast _ Cert.ReferenceIdeal.Gen.bcast_S128_S1x128_1, Cert.StageRef.rowCast_eq_rowBcast _ Cert.ReferenceIdeal.Gen.bcast_S128_S1x128_1]
  have rout1 : ∀ i, IsReal (Cert.KernelIdeal.Gen.W8 m ρ c (Proc.devRef .tc Cert.KernelIdeal.main_v90) i) := fun i => by
    rw [Cert.KernelIdeal.Layers.out1 m ρ c rlin1, Cert.KernelIdeal.Layers.gam_1 m ρ c, Cert.KernelIdeal.Layers.bet_1 m ρ c,
      Cert.StageRef.rowCast_eq_rowBcast _ Cert.ReferenceIdeal.Gen.bcast_S128_S1x128_1, Cert.StageRef.rowCast_eq_rowBcast _ Cert.ReferenceIdeal.Gen.bcast_S128_S1x128_1]
    exact isReal_layerOut _ _ _ rlin1 (real_row _ _ (real_vRow _ _ r5)) (real_row _ _ (real_vRow _ _ r6)) i

  -- layer 2
  have hhA2 : Cert.KernelIdeal.Gen.W9 m ρ c (Proc.devRef .tc Cert.KernelIdeal.main_v90) = after (Cert.ReferenceIdeal.Ops.ops (F := Ideal)) V (Proc.devRef .tc Cert.ReferenceIdeal.main_v108) := (Cert.KernelIdeal.Layers.hcarry_2 m ρ c).trans hout1
  have rhA2 : ∀ i, IsReal (Cert.KernelIdeal.Gen.W9 m ρ c (Proc.devRef .tc Cert.KernelIdeal.main_v90) i) := fun i => by rw [Cert.KernelIdeal.Layers.hcarry_2 m ρ c]; exact rout1 i
  have hagg2 : Cert.KernelIdeal.Gen.W9 m ρ c (Proc.devRef .tc Cert.KernelIdeal.main_v102) = after (Cert.ReferenceIdeal.Ops.ops (F := Ideal)) V (Proc.devRef .tc Cert.ReferenceIdeal.main_v120) := Cert.Glue.agg2_eq m ρ V c e1 hout1
  have ragg2 : ∀ i, IsReal (Cert.KernelIdeal.Gen.W9 m ρ c (Proc.devRef .tc Cert.KernelIdeal.main_v102) i) := Cert.Glue.agg2_real m ρ c rout1
  have hlin2 : Cert.KernelIdeal.Gen.W10 m ρ c (Proc.devRef .tc Cert.KernelIdeal.main_v110_0) = after (Cert.ReferenceIdeal.Ops.ops (F := Ideal)) V (Proc.devRef .tc Cert.ReferenceIdeal.main_v132) := by
    rw [Cert.KernelIdeal.Layers.lin2 m ρ c, Cert.ReferenceIdeal.Layers.ref_lin2 V, hagg2, hhA2, Cert.KernelIdeal.Layers.wl_2 m ρ c, Cert.KernelIdeal.Layers.wr_2 m ρ c, Cert.KernelIdeal.Layers.bl_2 m ρ c, e2, e3, e4,
      Cert.StageRef.rowCast_eq_rowBcast _ Cert.ReferenceIdeal.Gen.bcast_S128_S1x128_1]
  have rlin2 : ∀ i, IsReal (Cert.KernelIdeal.Gen.W10 m ρ c (Proc.devRef .tc Cert.KernelIdeal.main_v110_0) i) := fun i => by
    rw [Cert.KernelIdeal.Layers.lin2 m ρ c, Cert.KernelIdeal.Layers.wl_2 m ρ c, Cert.KernelIdeal.Layers.wr_2 m ρ c, Cert.KernelIdeal.Layers.bl_2 m ρ c,
      Cert.StageRef.rowCast_eq_rowBcast _ Cert.ReferenceIdeal.Gen.bcast_S128_S1x128_1]
    exact isReal_linear_arr _ _ _ _ _ ragg2 rhA2 (real_wSlab _ _ r2) (real_wSlab _ _ r4) (real_row _ _ (real_vRow _ _ r3)) i
  have hout2 : Cert.KernelIdeal.Gen.W12 m ρ c (Proc.devRef .tc Cert.KernelIdeal.main_v129) = after (Cert.ReferenceIdeal.Ops.ops (F := Ideal)) V (Proc.devRef .tc Cert.ReferenceIdeal.main_v156) := by
    rw [Cert.KernelIdeal.Layers.out2 m ρ c rlin2, Cert.ReferenceIdeal.Layers.ref_out2 V, hlin2, Cert.KernelIdeal.Layers.gam_2 m ρ c, Cert.KernelIdeal.Layers.bet_2 m ρ c, e5, e6,
      Cert.StageRef.rowCast_eq_rowBcast _ Cert.ReferenceIdeal.Gen.bcast_S128_S1x128_1, Cert.StageRef.rowCast_eq_rowBcast _ Cert.ReferenceIdeal.Gen.bcast_S128_S1x128_1]
  have rout2 : ∀ i, IsReal (Cert.KernelIdeal.Gen.W12 m ρ c (Proc.devRef .tc Cert.KernelIdeal.main_v129) i) := fun i => by
    rw [Cert.KernelIdeal.Layers.out2 m ρ c rlin2, Cert.KernelIdeal.Layers.gam_2 m ρ c, Cert.KernelIdeal.Layers.bet_2 m ρ c,
      Cert.StageRef.rowCast_eq_rowBcast _ Cert.ReferenceIdeal.Gen.bcast_S128_S1x128_1, Cert.StageRef.rowCast_eq_rowBcast _ Cert.ReferenceIdeal.Gen.bcast_S128_S1x128_1]
    exact isReal_layerOut _ _ _ rlin2 (real_row _ _ (real_vRow _ _ r5)) (real_row _ _ (real_vRow _ _ r6)) i
  -- the head
  have hlin3 : Cert.KernelIdeal.Gen.W14 m ρ c (Proc.devRef .tc Cert.KernelIdeal.main_v135_0) = after (Cert.ReferenceIdeal.Ops.ops (F := Ideal)) V (Proc.devRef .tc Cert.ReferenceIdeal.main_v161) := by
    rw [Cert.KernelIdeal.Layers.lin3 m ρ c, Cert.ReferenceIdeal.Layers.ref_lin3 V, Cert.KernelIdeal.Layers.x_arg13 m ρ c, Cert.KernelIdeal.Layers.h1_carry m ρ c, Cert.KernelIdeal.Layers.h2_carry m ρ c, Cert.KernelIdeal.Layers.h3_carry m ρ c,
      hout0, hout1, hout2, Cert.KernelIdeal.Layers.w1_0 m ρ c, Cert.KernelIdeal.Layers.w1_1 m ρ c, Cert.KernelIdeal.Layers.w1_2 m ρ c, Cert.KernelIdeal.Layers.w1_3 m ρ c, Cert.KernelIdeal.Layers.b1row m ρ c, e0, e7, e8,
      Cert.StageRef.rowCast_eq_rowBcast _ Cert.ReferenceIdeal.Gen.bcast_S128_S1x128_1]
  have rlin3 : ∀ i, IsReal (Cert.KernelIdeal.Gen.W14 m ρ c (Proc.devRef .tc Cert.KernelIdeal.main_v135_0) i) := fun i => by
    rw [Cert.KernelIdeal.Layers.lin3 m ρ c, Cert.KernelIdeal.Layers.x_arg13 m ρ c, Cert.KernelIdeal.Layers.h1_carry m ρ c, Cert.KernelIdeal.Layers.h2_carry m ρ c, Cert.KernelIdeal.Layers.h3_carry m ρ c,
      Cert.KernelIdeal.Layers.w1_0 m ρ c, Cert.KernelIdeal.Layers.w1_1 m ρ c, Cert.KernelIdeal.Layers.w1_2 m ρ c, Cert.KernelIdeal.Layers.w1_3 m ρ c, Cert.KernelIdeal.Layers.b1row m ρ c,
      Cert.StageRef.rowCast_eq_rowBcast _ Cert.ReferenceIdeal.Gen.bcast_S128_S1x128_1]
    unfold headLinear mm
    exact ((((isReal_sum _ _ fun k _ => (r0 _).mul (real_w1 _ _ r7 _)).add (isReal_sum _ _ fun k _ => (rout0 _).mul (real_w1 _ _ r7 _))).add
      (isReal_sum _ _ fun k _ => (rout1 _).mul (real_w1 _ _ r7 _))).add (isReal_sum _ _ fun k _ => (rout2 _).mul (real_w1 _ _ r7 _))).add
      (real_row _ _ r8 _)
  rw [Cert.ReferenceIdeal.Layers.ref_out3 V, Cert.KernelIdeal.Layers.out3 m ρ c rlin3, hlin3, Cert.KernelIdeal.Layers.gam3 m ρ c, Cert.KernelIdeal.Layers.bet3 m ρ c, Cert.KernelIdeal.Layers.w2_arg m ρ c, Cert.KernelIdeal.Layers.b2row m ρ c,
    e9, e10, e11, e12, Cert.StageRef.rowCast_eq_rowBcast _ Cert.ReferenceIdeal.Gen.bcast_S128_S1x128_1,
    Cert.StageRef.rowCast_eq_rowBcast _ Cert.ReferenceIdeal.Gen.bcast_S128_S1x128_1, rowCast_eq_rowBcast64 _ Cert.ReferenceIdeal.Gen.bcast_S64_S1x64_1]

end Cert.ResultEq

end
-- ==== Proof.Claims.lean ====
/-
  The five claims. The word-level and the idealized tiled programs run, without a fault, and leave their arguments as
  launched (their generated frames). The reference runs and leaves its arguments as launched: its run is the fold of its
  host operations, none of which writes an argument. The idealization rewrote nothing, so what it preserves is
  trivial. For the algebraic claim the common result is the tiled program's result array at its last segment boundary:
  the tiled program's run ends there, and the reference's fold at its result buffer is the same array (ResultEq).
-/
import proofs.«173273_j2259152798196_2_alg».proof.Defs
import proofs.«173273_j2259152798196_2_alg».proof.Proof.Gen.Kernel.Frame
import proofs.«173273_j2259152798196_2_alg».proof.Proof.KernelRun
import proofs.«173273_j2259152798196_2_alg».proof.Proof.RefRun
import proofs.«173273_j2259152798196_2_alg».proof.Proof.RefKeep
import proofs.«173273_j2259152798196_2_alg».proof.Proof.ResultEq

noncomputable section

namespace Cert.Proof.Claims

open Idealize.ShloMosaic Idealize.ShloMosaic.TcCoe Idealize.SL.Sem Idealize.ShloMosaic.StableHlo
open Cert.ReferenceIdeal.HandRun

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun r h c =>
      ⟨(h c Cert.ReferenceIdeal.main_arg0).trans (ops_keeps _ (by decide)),
       (h c Cert.ReferenceIdeal.main_arg1).trans (ops_keeps _ (by decide)),
       (h c Cert.ReferenceIdeal.main_arg2).trans (ops_keeps _ (by decide)),
       (h c Cert.ReferenceIdeal.main_arg3).trans (ops_keeps _ (by decide)),
       (h c Cert.ReferenceIdeal.main_arg4).trans (ops_keeps _ (by decide)),
       (h c Cert.ReferenceIdeal.main_arg5).trans (ops_keeps _ (by decide)),
       (h c Cert.ReferenceIdeal.main_arg6).trans (ops_keeps _ (by decide)),
       (h c Cert.ReferenceIdeal.main_arg7).trans (ops_keeps _ (by decide)),
       (h c Cert.ReferenceIdeal.main_arg8).trans (ops_keeps _ (by decide)),
       (h c Cert.ReferenceIdeal.main_arg9).trans (ops_keeps _ (by decide)),
       (h c Cert.ReferenceIdeal.main_arg10).trans (ops_keeps _ (by decide)),
       (h c Cert.ReferenceIdeal.main_arg11).trans (ops_keeps _ (by decide)),
       (h c Cert.ReferenceIdeal.main_arg12).trans (ops_keeps _ (by decide))⟩)
    (run_all (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W16 m ρ c (Proc.devRef .tc Cert.KernelIdeal.main_v151),
    Cert.KernelIdeal.HandRun.run m ρ, ?_⟩
  exact (θ_run Cert.ReferenceIdeal.defs _ _).mono
    (fun r h c =>
      ⟨(h c Cert.ReferenceIdeal.main_v185).trans (Cert.ResultEq.result_eq m ρ m' hpre hagree c),
       (h c Cert.ReferenceIdeal.main_arg0).trans (ops_keeps _ (by decide)),
       (h c Cert.ReferenceIdeal.main_arg1).trans (ops_keeps _ (by decide)),
       (h c Cert.ReferenceIdeal.main_arg2).trans (ops_keeps _ (by decide)),
       (h c Cert.ReferenceIdeal.main_arg3).trans (ops_keeps _ (by decide)),
       (h c Cert.ReferenceIdeal.main_arg4).trans (ops_keeps _ (by decide)),
       (h c Cert.ReferenceIdeal.main_arg5).trans (ops_keeps _ (by decide)),
       (h c Cert.ReferenceIdeal.main_arg6).trans (ops_keeps _ (by decide)),
       (h c Cert.ReferenceIdeal.main_arg7).trans (ops_keeps _ (by decide)),
       (h c Cert.ReferenceIdeal.main_arg8).trans (ops_keeps _ (by decide)),
       (h c Cert.ReferenceIdeal.main_arg9).trans (ops_keeps _ (by decide)),
       (h c Cert.ReferenceIdeal.main_arg10).trans (ops_keeps _ (by decide)),
       (h c Cert.ReferenceIdeal.main_arg11).trans (ops_keeps _ (by decide)),
       (h c Cert.ReferenceIdeal.main_arg12).trans (ops_keeps _ (by decide))⟩)
    (run_all (F := Ideal) m' ρ')

end Cert.Proof.Claims

end
-- ==== Proof.lean ====
/-
  Equivalence, over the extended reals, of a tiled three-layer graph network (mean aggregation over the edges, a
  linear map, batch normalisation and a rectifier per layer; the layers' outputs kept beside the input and fed to a
  two-layer head) and its plain reference. The tiled program is eight kernels between stretches of host operations;
  per layer one kernel forms the linear map of a block of nodes together with the block's column sums and sums of
  squares, the host adds the per-block sums into a mean and a one-pass variance clamped at zero, and a second kernel
  normalises and rectifies. The reference forms the same maps on whole arrays, with a two-pass variance.

  Proof.KernelRun and Proof.RefRun read the two runs back; Proof.RefKeep: the reference writes no argument;
  Proof.LibMoments and Proof.NormBridge: the laws that join the two arithmetics (blocked sums, the one-pass and
  two-pass variance for real entries, what stays real, the head's two other spellings); Proof.ResultEq states the
  equation between the two result terms; Proof.Claims assembles the five claims.
-/
import proofs.«173273_j2259152798196_2_alg».proof.Defs
import proofs.«173273_j2259152798196_2_alg».proof.Proof.Gen.Kernel
import proofs.«173273_j2259152798196_2_alg».proof.Proof.Gen.Kernel.Skeleton
import proofs.«173273_j2259152798196_2_alg».proof.Proof.Gen.Kernel.Launch
import proofs.«173273_j2259152798196_2_alg».proof.Proof.Gen.Kernel.Points
import proofs.«173273_j2259152798196_2_alg».proof.Proof.Gen.Kernel.Frame
import proofs.«173273_j2259152798196_2_alg».proof.Proof.Gen.KernelIdeal
import proofs.«173273_j2259152798196_2_alg».proof.Proof.Gen.KernelIdeal.Skeleton
import proofs.«173273_j2259152798196_2_alg».proof.Proof.Gen.KernelIdeal.Launch
import proofs.«173273_j2259152798196_2_alg».proof.Proof.Gen.KernelIdeal.Points
import proofs.«173273_j2259152798196_2_alg».proof.Proof.Gen.KernelIdeal.Frame
import proofs.«173273_j2259152798196_2_alg».proof.Proof.Gen.ReferenceIdeal
import proofs.«173273_j2259152798196_2_alg».proof.Proof.Gen.Pre_finite_inputs
import proofs.«173273_j2259152798196_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
